-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v103)) (v1 : (c : Dev Cert.KernelIdeal.nD) → Buf (Elt Ideal) ((c.tc : Thread Cert.KernelIdeal.nD Cert.KernelIdeal.τ).loc Cert.KernelIdeal.main_v180)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v103) = v0 c
          ∧ r.2.mem ((c.tc : Thread Cert.KernelIdeal.nD Cert.KernelIdeal.τ).loc Cert.KernelIdeal.main_v180) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v129) = v0 c
          ∧ r.2.mem ((c.tc : Thread Cert.ReferenceIdeal.nD Cert.ReferenceIdeal.τ).loc Cert.ReferenceIdeal.main_v232) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S64x128 : Shape := ⟨2, ![64, 128]⟩
abbrev S128 : Shape := ⟨1, ![128]⟩
abbrev S128x256 : Shape := ⟨2, ![128, 256]⟩
abbrev S256 : Shape := ⟨1, ![256]⟩
abbrev S256x64 : Shape := ⟨2, ![256, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part6 {F : FTy → Type} [FloatOps F] (main_v98 : IVec S_ 1) (main_v101 : IVec S64 1) (main_c_39 : IVec S_ 1) : IVec S_ 1 :=
  let main_v102 : IVec S_ 1 := (fun x v => Host.reduce IntOp.andi x v reducesTo_S64_S_d0 h_S_) main_v101 main_c_39
  let main_v103 : IVec S_ 1 := andi main_v98 main_v102
  main_v103

def fn_part5 {F : FTy → Type} [FloatOps F] (main_arg19 : FVec F S256 .f32) (main_arg20 : FVec F S256x64 .f32) (main_arg21 : FVec F S64 .f32) (main_v83 : IVec S_ 1) (main_v84 : FVec F S256 .f32) (main_cst_32 : FVec F S_ .f32) : IVec S_ 1 :=
  let main_v85 : FVec F S256 .f32 := broadcastInDim S256 ![] bcast_S_S256 main_cst_32
  let main_v86 : IVec S256 1 := cmpf .olt main_v84 main_v85
  let main_c_33 : IVec S_ 1 := constantI S_ 1 1#1
  let main_v87 : IVec S_ 1 := (fun x v => Host.reduce IntOp.andi x v reducesTo_S256_S_d0 h_S_) main_v86 main_c_33
  let main_v88 : IVec S_ 1 := andi main_v83 main_v87
  let main_v89 : FVec F S256 .f32 := Host.absf main_arg19
  let main_cst_34 : FVec F S_ .f32 := constant S_ .f32 0x7F800000#32
  let main_v90 : FVec F S256 .f32 := broadcastInDim S256 ![] bcast_S_S256 main_cst_34
  let main_v91 : IVec S256 1 := cmpf .olt main_v89 main_v90
  let main_c_35 : IVec S_ 1 := constantI S_ 1 1#1
  let main_v92 : IVec S_ 1 := (fun x v => Host.reduce IntOp.andi x v reducesTo_S256_S_d0 h_S_) main_v91 main_c_35
  let main_v93 : IVec S_ 1 := andi main_v88 main_v92
  let main_v94 : FVec F S256x64 .f32 := Host.absf main_arg20
  let main_cst_36 : FVec F S_ .f32 := constant S_ .f32 0x7F800000#32
  let main_v95 : FVec F S256x64 .f32 := broadcastInDim S256x64 ![] bcast_S_S256x64 main_cst_36
  let main_v96 : IVec S256x64 1 := cmpf .olt main_v94 main_v95
  let main_c_37 : IVec S_ 1 := constantI S_ 1 1#1
  let main_v97 : IVec S_ 1 := (fun x v => Host.reduce IntOp.andi x v reducesTo_S256x64_S_d0_1 h_S_) main_v96 main_c_37
  let main_v98 : IVec S_ 1 := andi main_v93 main_v97
  let main_v99 : FVec F S64 .f32 := Host.absf main_arg21
  let main_cst_38 : FVec F S_ .f32 := constant S_ .f32 0x7F800000#32
  let main_v100 : FVec F S64 .f32 := broadcastInDim S64 ![] bcast_S_S64 main_cst_38
  let main_v101 : IVec S64 1 := cmpf .olt main_v99 main_v100
  let main_c_39 : IVec S_ 1 := constantI S_ 1 1#1
  fn_part6 (F := F) main_v98 main_v101 main_c_39

def fn_part4 {F : FTy → Type} [FloatOps F] (main_arg15 : FVec F S128 .f32) (main_arg16 : FVec F S128x256 .f32) (main_arg17 : FVec F S256 .f32) (main_arg18 : FVec F S256 .f32) (main_arg19 : FVec F S256 .f32) (main_arg20 : FVec F S256x64 .f32) (main_arg21 : FVec F S64 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x256 .f32 := Host.absf main_arg16
  let main_cst_28 : FVec F S_ .f32 := constant S_ .f32 0x7F800000#32
  let main_v75 : FVec F S128x256 .f32 := broadcastInDim S128x256 ![] bcast_S_S128x256 main_cst_28
  let main_v76 : IVec S128x256 1 := cmpf .olt main_v74 main_v75
  let main_c_29 : IVec S_ 1 := constantI S_ 1 1#1
  let main_v77 : IVec S_ 1 := (fun x v => Host.reduce IntOp.andi x v reducesTo_S128x256_S_d0_1 h_S_) main_v76 main_c_29
  let main_v78 : IVec S_ 1 := andi main_v73 main_v77
  let main_v79 : FVec F S256 .f32 := Host.absf main_arg17
  let main_cst_30 : FVec F S_ .f32 := constant S_ .f32 0x7F800000#32
  let main_v80 : FVec F S256 .f32 := broadcastInDim S256 ![] bcast_S_S256 main_cst_30
  let main_v81 : IVec S256 1 := cmpf .olt main_v79 main_v80
  let main_c_31 : IVec S_ 1 := constantI S_ 1 1#1
  let main_v82 : IVec S_ 1 := (fun x v => Host.reduce IntOp.andi x v reducesTo_S256_S_d0 h_S_) main_v81 main_c_31
  let main_v83 : IVec S_ 1 := andi main_v78 main_v82
  let main_v84 : FVec F S256 .f32 := Host.absf main_arg18
  let main_cst_32 : FVec F S_ .f32 := constant S_ .f32 0x7F800000#32
  fn_part5 (F := F) main_arg19 main_arg20 main_arg21 main_v83 main_v84 main_cst_32

def fn_part3 {F : FTy → Type} [FloatOps F] (main_arg12 : FVec F S64x128 .f32) (main_arg13 : FVec F S128 .f32) (main_arg14 : FVec F S128 .f32) (main_arg15 : FVec F S128 .f32) (main_arg16 : FVec F S128x256 .f32) (main_arg17 : FVec F S256 .f32) (main_arg18 : FVec F S256 .f32) (main_arg19 : FVec F S256 .f32) (main_arg20 : FVec F S256x64 .f32) (main_arg21 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x128 .f32 := Host.absf main_arg12
  let main_cst_20 : FVec F S_ .f32 := constant S_ .f32 0x7F800000#32
  let main_v55 : FVec F S64x128 .f32 := broadcastInDim S64x128 ![] bcast_S_S64x128 main_cst_20
  let main_v56 : IVec S64x128 1 := cmpf .olt main_v54 main_v55
  let main_c_21 : IVec S_ 1 := constantI S_ 1 1#1
  let main_v57 : IVec S_ 1 := (fun x v => Host.reduce IntOp.andi x v reducesTo_S64x128_S_d0_1 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg15 main_arg16 main_arg17 main_arg18 main_arg19 main_arg20 main_arg21 main_v63 main_v67

def fn_part2 {F : FTy → Type} [FloatOps F] (main_arg8 : FVec F S256 .f32) (main_arg9 : FVec F S256 .f32) (main_arg10 : FVec F S256x64 .f32) (main_arg11 : FVec F S64 .f32) (main_arg12 : FVec F S64x128 .f32) (main_arg13 : FVec F S128 .f32) (main_arg14 : FVec F S128 .f32) (main_arg15 : FVec F S128 .f32) (main_arg16 : FVec F S128x256 .f32) (main_arg17 : FVec F S256 .f32) (main_arg18 : FVec F S256 .f32) (main_arg19 : FVec F S256 .f32) (main_arg20 : FVec F S256x64 .f32) (main_arg21 : FVec F S64 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x64 .f32 := Host.absf main_arg10
  let main_cst_16 : FVec F S_ .f32 := constant S_ .f32 0x7F800000#32
  let main_v45 : FVec F S256x64 .f32 := broadcastInDim S256x64 ![] bcast_S_S256x64 main_cst_16
  let main_v46 : IVec S256x64 1 := cmpf .olt main_v44 main_v45
  let main_c_17 : IVec S_ 1 := constantI S_ 1 1#1
  let main_v47 : IVec S_ 1 := (fun x v => Host.reduce IntOp.andi x v reducesTo_S256x64_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg12 main_arg13 main_arg14 main_arg15 main_arg16 main_arg17 main_arg18 main_arg19 main_arg20 main_arg21 main_v48 main_v49 main_v50

def fn_part1 {F : FTy → Type} [FloatOps F] (main_arg5 : FVec F S128 .f32) (main_arg6 : FVec F S128x256 .f32) (main_arg7 : FVec F S256 .f32) (main_arg8 : FVec F S256 .f32) (main_arg9 : FVec F S256 .f32) (main_arg10 : FVec F S256x64 .f32) (main_arg11 : FVec F S64 .f32) (main_arg12 : FVec F S64x128 .f32) (main_arg13 : FVec F S128 .f32) (main_arg14 : FVec F S128 .f32) (main_arg15 : FVec F S128 .f32) (main_arg16 : FVec F S128x256 .f32) (main_arg17 : FVec F S256 .f32) (main_arg18 : FVec F S256 .f32) (main_arg19 : FVec F S256 .f32) (main_arg20 : FVec F S256x64 .f32) (main_arg21 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x256 .f32 := Host.absf main_arg6
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_v33

def fn {F : FTy → Type} [FloatOps F] (main_arg0 : FVec F S50000x64 .f32) (main_arg1 : IVec S2x800000 32) (main_arg2 : FVec F S64x128 .f32) (main_arg3 : FVec F S128 .f32) (main_arg4 : FVec F S128 .f32) (main_arg5 : FVec F S128 .f32) (main_arg6 : FVec F S128x256 .f32) (main_arg7 : FVec F S256 .f32) (main_arg8 : FVec F S256 .f32) (main_arg9 : FVec F S256 .f32) (main_arg10 : FVec F S256x64 .f32) (main_arg11 : FVec F S64 .f32) (main_arg12 : FVec F S64x128 .f32) (main_arg13 : FVec F S128 .f32) (main_arg14 : FVec F S128 .f32) (main_arg15 : FVec F S128 .f32) (main_arg16 : FVec F S128x256 .f32) (main_arg17 : FVec F S256 .f32) (main_arg18 : FVec F S256 .f32) (main_arg19 : FVec F S256 .f32) (main_arg20 : FVec F S256x64 .f32) (main_arg21 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_v13 main_v16
-- ==== Kernel.lean ====
abbrev S50000x64 : Shape := ⟨2, ![50000, 64]⟩
abbrev S2x800000 : Shape := ⟨2, ![2, 800000]⟩
abbrev S64x128 : Shape := ⟨2, ![64, 128]⟩
abbrev S128 : Shape := ⟨1, ![128]⟩
abbrev S128x256 : Shape := ⟨2, ![128, 256]⟩
abbrev S256 : Shape := ⟨1, ![256]⟩
abbrev S256x64 : Shape := ⟨2, ![256, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x128 : Shape := ⟨2, ![50000, 128]⟩
abbrev S2000x64 : Shape := ⟨2, ![2000, 64]⟩
abbrev S2000x128 : Shape := ⟨2, ![2000, 128]⟩
abbrev S800000x128 : Shape := ⟨2, ![800000, 128]⟩
abbrev S50000x1 : Shape := ⟨2, ![50000, 1]⟩
abbrev S1x128 : Shape := ⟨2, ![1, 128]⟩
abbrev S2000x1 : Shape := ⟨2, ![2000, 1]⟩
abbrev S50000x256 : Shape := ⟨2, ![50000, 256]⟩
abbrev S2000x256 : Shape := ⟨2, ![2000, 256]⟩
abbrev S800000x256 : Shape := ⟨2, ![800000, 256]⟩
abbrev S1x256 : Shape := ⟨2, ![1, 256]⟩
abbrev S800000x64 : Shape := ⟨2, ![800000, 64]⟩
abbrev S1x64 : Shape := ⟨2, ![1, 64]⟩

abbrev nBuf : Space → Nat
  | .hbm => 244
  | .vmem => 124
  | .smem => 0
  | _ => 0

abbrev hbmTy0_0 (i : Nat) : BufTy := match i % 128 with
  | 0 => ⟨S50000x64, .f32⟩
  | 1 => ⟨S2x800000, .i32⟩
  | 2 => ⟨S64x128, .f32⟩
  | 3 => ⟨S128, .f32⟩
  | 4 => ⟨S128, .f32⟩
  | 5 => ⟨S128, .f32⟩
  | 6 => ⟨S128x256, .f32⟩
  | 7 => ⟨S256, .f32⟩
  | 8 => ⟨S256, .f32⟩
  | 9 => ⟨S256, .f32⟩
  | 10 => ⟨S256x64, .f32⟩
  | 11 => ⟨S64, .f32⟩
  | 12 => ⟨S64x128, .f32⟩
  | 13 => ⟨S128, .f32⟩
  | 14 => ⟨S128, .f32⟩
  | 15 => ⟨S128, .f32⟩
  | 16 => ⟨S128x256, .f32⟩
  | 17 => ⟨S256, .f32⟩
  | 18 => ⟨S256, .f32⟩
  | 19 => ⟨S256, .f32⟩
  | 20 => ⟨S256x64, .f32⟩
  | 21 => ⟨S64, .f32⟩
  | 22 => ⟨S1x800000, .i32⟩
  | 23 => ⟨S800000, .i32⟩
  | 24 => ⟨S1x800000, .i32⟩
  | 25 => ⟨S800000, .i32⟩
  | 26 => ⟨S_, .f32⟩
  | 27 => ⟨S800000, .f32⟩
  | 28 => ⟨S_, .f32⟩
  | 29 => ⟨S50000, .f32⟩
  | 30 => ⟨S800000x1, .i32⟩
  | 31 => ⟨S50000, .f32⟩
  | 32 => ⟨S_, .f32⟩
  | 33 => ⟨S50000, .f32⟩
  | 34 => ⟨S50000, .f32⟩
  | 35 => ⟨S50000, .f32⟩
  | 36 => ⟨S_, .i32⟩
  | 37 => ⟨S800000, .i32⟩
  | 38 => ⟨S800000, .i1⟩
  | 39 => ⟨S_, .i32⟩
  | 40 => ⟨S800000, .i32⟩
  | 41 => ⟨S800000, .i32⟩
  | 42 => ⟨S800000, .i32⟩
  | 43 => ⟨S800000x1, .i32⟩
  | 44 => ⟨S800000, .f32⟩
  | 45 => ⟨S_, .i32⟩
  | 46 => ⟨S800000, .i32⟩
  | 47 => ⟨S800000, .i1⟩
  | 48 => ⟨S_, .i32⟩
  | 49 => ⟨S800000, .i32⟩
  | 50 => ⟨S800000, .i32⟩
  | 51 => ⟨S800000, .i32⟩
  | 52 => ⟨S800000x1, .i32⟩
  | 53 => ⟨S800000, .f32⟩
  | 54 => ⟨S800000, .f32⟩
  | 55 => ⟨S50000, .f32⟩
  | 56 => ⟨S50000x128, .f32⟩
  | 57 => ⟨S_, .i32⟩
  | 58 => ⟨S800000, .i32⟩
  | 59 => ⟨S800000, .i1⟩
  | 60 => ⟨S_, .i32⟩
  | 61 => ⟨S800000, .i32⟩
  | 62 => ⟨S800000, .i32⟩
  | 63 => ⟨S800000, .i32⟩
  | 64 => ⟨S800000x1, .i32⟩
  | 65 => ⟨S800000x128, .f32⟩
  | 66 => ⟨S800000x1, .f32⟩
  | 67 => ⟨S800000x128, .f32⟩
  | 68 => ⟨S800000x128, .f32⟩
  | 69 => ⟨S_, .f32⟩
  | 70 => ⟨S50000x128, .f32⟩
  | 71 => ⟨S800000x1, .i32⟩
  | 72 => ⟨S50000x128, .f32⟩
  | 73 => ⟨S50000x1, .f32⟩
  | 74 => ⟨S1x128, .f32⟩
  | 75 => ⟨S50000x128, .f32⟩
  | 76 => ⟨S1x128, .f32⟩
  | 77 => ⟨S1x128, .f32⟩
  | 78 => ⟨S128, .f32⟩
  | 79 => ⟨S128, .f32⟩
  | 80 => ⟨S_, .f32⟩
  | 81 => ⟨S128, .f32⟩
  | 82 => ⟨S128, .f32⟩
  | 83 => ⟨S_, .f32⟩
  | 84 => ⟨S128, .f32⟩
  | 85 => ⟨S128, .f32⟩
  | 86 => ⟨S128, .f32⟩
  | 87 => ⟨S128, .f32⟩
  | 88 => ⟨S1x128, .f32⟩
  | 89 => ⟨S1x128, .f32⟩
  | 90 => ⟨S1x128, .f32⟩
  | 91 => ⟨S1x128, .f32⟩
  | 92 => ⟨S50000x128, .f32⟩
  | 93 => ⟨S50000x256, .f32⟩
  | 94 => ⟨S_, .i32⟩
  | 95 => ⟨S800000, .i32⟩
  | 96 => ⟨S800000, .i1⟩
  | 97 => ⟨S_, .i32⟩
  | 98 => ⟨S800000, .i32⟩
  | 99 => ⟨S800000, .i32⟩
  | 100 => ⟨S800000, .i32⟩
  | 101 => ⟨S800000x1, .i32⟩
  | 102 => ⟨S800000x256, .f32⟩
  | 103 => ⟨S800000x1, .f32⟩
  | 104 => ⟨S800000x256, .f32⟩
  | 105 => ⟨S800000x256, .f32⟩
  | 106 => ⟨S_, .f32⟩
  | 107 => ⟨S50000x256, .f32⟩
  | 108 => ⟨S800000x1, .i32⟩
  | 109 => ⟨S50000x256, .f32⟩
  | 110 => ⟨S50000x1, .f32⟩
  | 111 => ⟨S1x256, .f32⟩
  | 112 => ⟨S50000x256, .f32⟩
  | 113 => ⟨S1x256, .f32⟩
  | 114 => ⟨S1x256, .f32⟩
  | 115 => ⟨S256, .f32⟩
  | 116 => ⟨S256, .f32⟩
  | 117 => ⟨S_, .f32⟩
  | 118 => ⟨S256, .f32⟩
  | 119 => ⟨S256, .f32⟩
  | 120 => ⟨S_, .f32⟩
  | 121 => ⟨S256, .f32⟩
  | 122 => ⟨S256, .f32⟩
  | 123 => ⟨S256, .f32⟩
  | 124 => ⟨S256, .f32⟩
  | 125 => ⟨S1x256, .f32⟩
  | 126 => ⟨S1x256, .f32⟩
  | 127 => ⟨S1x256, .f32⟩
  | _ => ⟨S50000x64, .f32⟩

abbrev hbmTy0_1 (i : Nat) : BufTy := match i % 128 with
  | 0 => ⟨S1x256, .f32⟩
  | 1 => ⟨S50000x256, .f32⟩
  | 2 => ⟨S50000x64, .f32⟩
  | 3 => ⟨S_, .i32⟩
  | 4 => ⟨S800000, .i32⟩
  | 5 => ⟨S800000, .i1⟩
  | 6 => ⟨S_, .i32⟩
  | 7 => ⟨S800000, .i32⟩
  | 8 => ⟨S800000, .i32⟩
  | 9 => ⟨S800000, .i32⟩
  | 10 => ⟨S800000x1, .i32⟩
  | 11 => ⟨S800000x64, .f32⟩
  | 12 => ⟨S800000x1, .f32⟩
  | 13 => ⟨S800000x64, .f32⟩
  | 14 => ⟨S800000x64, .f32⟩
  | 15 => ⟨S_, .f32⟩
  | 16 => ⟨S50000x64, .f32⟩
  | 17 => ⟨S800000x1, .i32⟩
  | 18 => ⟨S50000x64, .f32⟩
  | 19 => ⟨S50000x1, .f32⟩
  | 20 => ⟨S1x64, .f32⟩
  | 21 => ⟨S50000x64, .f32⟩
  | 22 => ⟨S50000x128, .f32⟩
  | 23 => ⟨S_, .i32⟩
  | 24 => ⟨S800000, .i32⟩
  | 25 => ⟨S800000, .i1⟩
  | 26 => ⟨S_, .i32⟩
  | 27 => ⟨S800000, .i32⟩
  | 28 => ⟨S800000, .i32⟩
  | 29 => ⟨S800000, .i32⟩
  | 30 => ⟨S800000x1, .i32⟩
  | 31 => ⟨S800000x128, .f32⟩
  | 32 => ⟨S800000x1, .f32⟩
  | 33 => ⟨S800000x128, .f32⟩
  | 34 => ⟨S800000x128, .f32⟩
  | 35 => ⟨S_, .f32⟩
  | 36 => ⟨S50000x128, .f32⟩
  | 37 => ⟨S800000x1, .i32⟩
  | 38 => ⟨S50000x128, .f32⟩
  | 39 => ⟨S50000x1, .f32⟩
  | 40 => ⟨S1x128, .f32⟩
  | 41 => ⟨S50000x128, .f32⟩
  | 42 => ⟨S1x128, .f32⟩
  | 43 => ⟨S1x128, .f32⟩
  | 44 => ⟨S128, .f32⟩
  | 45 => ⟨S128, .f32⟩
  | 46 => ⟨S_, .f32⟩
  | 47 => ⟨S128, .f32⟩
  | 48 => ⟨S128, .f32⟩
  | 49 => ⟨S_, .f32⟩
  | 50 => ⟨S128, .f32⟩
  | 51 => ⟨S128, .f32⟩
  | 52 => ⟨S128, .f32⟩
  | 53 => ⟨S128, .f32⟩
  | 54 => ⟨S1x128, .f32⟩
  | 55 => ⟨S1x128, .f32⟩
  | 56 => ⟨S1x128, .f32⟩
  | 57 => ⟨S1x128, .f32⟩
  | 58 => ⟨S50000x128, .f32⟩
  | 59 => ⟨S50000x256, .f32⟩
  | 60 => ⟨S_, .i32⟩
  | 61 => ⟨S800000, .i32⟩
  | 62 => ⟨S800000, .i1⟩
  | 63 => ⟨S_, .i32⟩
  | 64 => ⟨S800000, .i32⟩
  | 65 => ⟨S800000, .i32⟩
  | 66 => ⟨S800000, .i32⟩
  | 67 => ⟨S800000x1, .i32⟩
  | 68 => ⟨S800000x256, .f32⟩
  | 69 => ⟨S800000x1, .f32⟩
  | 70 => ⟨S800000x256, .f32⟩
  | 71 => ⟨S800000x256, .f32⟩
  | 72 => ⟨S_, .f32⟩
  | 73 => ⟨S50000x256, .f32⟩
  | 74 => ⟨S800000x1, .i32⟩
  | 75 => ⟨S50000x256, .f32⟩
  | 76 => ⟨S50000x1, .f32⟩
  | 77 => ⟨S1x256, .f32⟩
  | 78 => ⟨S50000x256, .f32⟩
  | 79 => ⟨S1x256, .f32⟩
  | 80 => ⟨S1x256, .f32⟩
  | 81 => ⟨S256, .f32⟩
  | 82 => ⟨S256, .f32⟩
  | 83 => ⟨S_, .f32⟩
  | 84 => ⟨S256, .f32⟩
  | 85 => ⟨S256, .f32⟩
  | 86 => ⟨S_, .f32⟩
  | 87 => ⟨S256, .f32⟩
  | 88 => ⟨S256, .f32⟩
  | 89 => ⟨S256, .f32⟩
  | 90 => ⟨S256, .f32⟩
  | 91 => ⟨S1x256, .f32⟩
  | 92 => ⟨S1x256, .f32⟩
  | 93 => ⟨S1x256, .f32⟩
  | 94 => ⟨S1x256, .f32⟩
  | 95 => ⟨S50000x256, .f32⟩
  | 96 => ⟨S50000x64, .f32⟩
  | 97 => ⟨S_, .i32⟩
  | 98 => ⟨S800000, .i32⟩
  | 99 => ⟨S800000, .i1⟩
  | 100 => ⟨S_, .i32⟩
  | 101 => ⟨S800000, .i32⟩
  | 102 => ⟨S800000, .i32⟩
  | 103 => ⟨S800000, .i32⟩
  | 104 => ⟨S800000x1, .i32⟩
  | 105 => ⟨S800000x64, .f32⟩
  | 106 => ⟨S800000x1, .f32⟩
  | 107 => ⟨S800000x64, .f32⟩
  | 108 => ⟨S800000x64, .f32⟩
  | 109 => ⟨S_, .f32⟩
  | 110 => ⟨S50000x64, .f32⟩
  | 111 => ⟨S800000x1, .i32⟩
  | 112 => ⟨S50000x64, .f32⟩
  | 113 => ⟨S50000x1, .f32⟩
  | 114 => ⟨S1x64, .f32⟩
  | 115 => ⟨S50000x64, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S2000x64, .f32⟩
  | .local _ .vmem, ⟨1, _⟩ => ⟨S2000x64, .f32⟩
  | .local _ .vmem, ⟨2, _⟩ => ⟨S64x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x1, .f32⟩
  | .local _ .vmem, ⟨10, _⟩ => ⟨S2000x1, .f32⟩
  | .local _ .vmem, ⟨11, _⟩ => ⟨S1x128, .f32⟩
  | .local _ .vmem, ⟨12, _⟩ => ⟨S2000x128, .f32⟩
  | .local _ .vmem, ⟨13, _⟩ => ⟨S2000x128, .f32⟩
  | .local _ .vmem, ⟨14, _⟩ => ⟨S1x128, .f32⟩
  | .local _ .vmem, ⟨15, _⟩ => ⟨S1x128, .f32⟩
  | .local _ .vmem, ⟨16, _⟩ => ⟨S2000x128, .f32⟩
  | .local _ .vmem, ⟨17, _⟩ => ⟨S2000x128, .f32⟩
  | .local _ .vmem, ⟨18, _⟩ => ⟨S1x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S128x256, .f32⟩
  | .local _ .vmem, ⟨27, _⟩ => ⟨S2000x256, .f32⟩
  | .local _ .vmem, ⟨28, _⟩ => ⟨S2000x256, .f32⟩
  | .local _ .vmem, ⟨29, _⟩ => ⟨S2000x256, .f32⟩
  | .local _ .vmem, ⟨30, _⟩ => ⟨S2000x256, .f32⟩
  | .local _ .vmem, ⟨31, _⟩ => ⟨S2000x256, .f32⟩
  | .local _ .vmem, ⟨32, _⟩ => ⟨S2000x256, .f32⟩
  | .local _ .vmem, ⟨33, _⟩ => ⟨S2000x1, .f32⟩
  | .local _ .vmem, ⟨34, _⟩ => ⟨S2000x1, .f32⟩
  | .local _ .vmem, ⟨35, _⟩ => ⟨S1x256, .f32⟩
  | .local _ .vmem, ⟨36, _⟩ => ⟨S2000x256, .f32⟩
  | .local _ .vmem, ⟨37, _⟩ => ⟨S2000x256, .f32⟩
  | .local _ .vmem, ⟨38, _⟩ => ⟨S1x256, .f32⟩
  | .local _ .vmem, ⟨39, _⟩ => ⟨S1x256, .f32⟩
  | .local _ .vmem, ⟨40, _⟩ => ⟨S2000x256, .f32⟩
  | .local _ .vmem, ⟨41, _⟩ => ⟨S2000x256, .f32⟩
  | .local _ .vmem, ⟨42, _⟩ => ⟨S1x256, .f32⟩
  | .local _ .vmem, ⟨43, _⟩ => ⟨S1x256, .f32⟩
  | .local _ .vmem, ⟨44, _⟩ => ⟨S1x256, .f32⟩
  | .local _ .vmem, ⟨45, _⟩ => ⟨S1x256, .f32⟩
  | .local _ .vmem, ⟨46, _⟩ => ⟨S2000x256, .f32⟩
  | .local _ .vmem, ⟨47, _⟩ => ⟨S2000x256, .f32⟩
  | .local _ .vmem, ⟨48, _⟩ => ⟨S2000x256, .f32⟩
  | .local _ .vmem, ⟨49, _⟩ => ⟨S2000x256, .f32⟩
  | .local _ .vmem, ⟨50, _⟩ => ⟨S256x64, .f32⟩
  | .local _ .vmem, ⟨51, _⟩ => ⟨S2000x64, .f32⟩
  | .local _ .vmem, ⟨52, _⟩ => ⟨S2000x64, .f32⟩
  | .local _ .vmem, ⟨53, _⟩ => ⟨S2000x64, .f32⟩
  | .local _ .vmem, ⟨54, _⟩ => ⟨S2000x64, .f32⟩
  | .local _ .vmem, ⟨55, _⟩ => ⟨S2000x64, .f32⟩
  | .local _ .vmem, ⟨56, _⟩ => ⟨S2000x64, .f32⟩
  | .local _ .vmem, ⟨57, _⟩ => ⟨S2000x1, .f32⟩
  | .local _ .vmem, ⟨58, _⟩ => ⟨S2000x1, .f32⟩
  | .local _ .vmem, ⟨59, _⟩ => ⟨S1x64, .f32⟩
  | .local _ .vmem, ⟨60, _⟩ => ⟨S2000x64, .f32⟩
  | .local _ .vmem, ⟨61, _⟩ => ⟨S2000x64, .f32⟩
  | .local _ .vmem, ⟨62, _⟩ => ⟨S2000x64, .f32⟩
  | .local _ .vmem, ⟨63, _⟩ => ⟨S2000x64, .f32⟩
  | .local _ .vmem, ⟨64, _⟩ => ⟨S64x128, .f32⟩
  | .local _ .vmem, ⟨65, _⟩ => ⟨S2000x128, .f32⟩
  | .local _ .vmem, ⟨66, _⟩ => ⟨S2000x128, .f32⟩
  | .local _ .vmem, ⟨67, _⟩ => ⟨S2000x128, .f32⟩
  | .local _ .vmem, ⟨68, _⟩ => ⟨S2000x128, .f32⟩
  | .local _ .vmem, ⟨69, _⟩ => ⟨S2000x128, .f32⟩
  | .local _ .vmem, ⟨70, _⟩ => ⟨S2000x128, .f32⟩
  | .local _ .vmem, ⟨71, _⟩ => ⟨S2000x1, .f32⟩
  | .local _ .vmem, ⟨72, _⟩ => ⟨S2000x1, .f32⟩
  | .local _ .vmem, ⟨73, _⟩ => ⟨S1x128, .f32⟩
  | .local _ .vmem, ⟨74, _⟩ => ⟨S2000x128, .f32⟩
  | .local _ .vmem, ⟨75, _⟩ => ⟨S2000x128, .f32⟩
  | .local _ .vmem, ⟨76, _⟩ => ⟨S1x128, .f32⟩
  | .local _ .vmem, ⟨77, _⟩ => ⟨S1x128, .f32⟩
  | .local _ .vmem, ⟨78, _⟩ => ⟨S2000x128, .f32⟩
  | .local _ .vmem, ⟨79, _⟩ => ⟨S2000x128, .f32⟩
  | .local _ .vmem, ⟨80, _⟩ => ⟨S1x128, .f32⟩
  | .local _ .vmem, ⟨81, _⟩ => ⟨S1x128, .f32⟩
  | .local _ .vmem, ⟨82, _⟩ => ⟨S1x128, .f32⟩
  | .local _ .vmem, ⟨83, _⟩ => ⟨S1x128, .f32⟩
  | .local _ .vmem, ⟨84, _⟩ => ⟨S2000x128, .f32⟩
  | .local _ .vmem, ⟨85, _⟩ => ⟨S2000x128, .f32⟩
  | .local _ .vmem, ⟨86, _⟩ => ⟨S2000x128, .f32⟩
  | .local _ .vmem, ⟨87, _⟩ => ⟨S2000x128, .f32⟩
  | .local _ .vmem, ⟨88, _⟩ => ⟨S128x256, .f32⟩
  | .local _ .vmem, ⟨89, _⟩ => ⟨S2000x256, .f32⟩
  | .local _ .vmem, ⟨90, _⟩ => ⟨S2000x256, .f32⟩
  | .local _ .vmem, ⟨91, _⟩ => ⟨S2000x256, .f32⟩
  | .local _ .vmem, ⟨92, _⟩ => ⟨S2000x256, .f32⟩
  | .local _ .vmem, ⟨93, _⟩ => ⟨S2000x256, .f32⟩
  | .local _ .vmem, ⟨94, _⟩ => ⟨S2000x256, .f32⟩
  | .local _ .vmem, ⟨95, _⟩ => ⟨S2000x1, .f32⟩
  | .local _ .vmem, ⟨96, _⟩ => ⟨S2000x1, .f32⟩
  | .local _ .vmem, ⟨97, _⟩ => ⟨S1x256, .f32⟩
  | .local _ .vmem, ⟨98, _⟩ => ⟨S2000x256, .f32⟩
  | .local _ .vmem, ⟨99, _⟩ => ⟨S2000x256, .f32⟩
  | .local _ .vmem, ⟨100, _⟩ => ⟨S1x256, .f32⟩
  | .local _ .vmem, ⟨101, _⟩ => ⟨S1x256, .f32⟩
  | .local _ .vmem, ⟨102, _⟩ => ⟨S2000x256, .f32⟩
  | .local _ .vmem, ⟨103, _⟩ => ⟨S2000x256, .f32⟩
  | .local _ .vmem, ⟨104, _⟩ => ⟨S1x256, .f32⟩
  | .local _ .vmem, ⟨105, _⟩ => ⟨S1x256, .f32⟩
  | .local _ .vmem, ⟨106, _⟩ => ⟨S1x256, .f32⟩
  | .local _ .vmem, ⟨107, _⟩ => ⟨S1x256, .f32⟩
  | .local _ .vmem, ⟨108, _⟩ => ⟨S2000x256, .f32⟩
  | .local _ .vmem, ⟨109, _⟩ => ⟨S2000x256, .f32⟩
  | .local _ .vmem, ⟨110, _⟩ => ⟨S2000x256, .f32⟩
  | .local _ .vmem, ⟨111, _⟩ => ⟨S2000x256, .f32⟩
  | .local _ .vmem, ⟨112, _⟩ => ⟨S256x64, .f32⟩
  | .local _ .vmem, ⟨113, _⟩ => ⟨S2000x64, .f32⟩
  | .local _ .vmem, ⟨114, _⟩ => ⟨S2000x64, .f32⟩
  | .local _ .vmem, ⟨115, _⟩ => ⟨S2000x64, .f32⟩
  | .local _ .vmem, ⟨116, _⟩ => ⟨S2000x64, .f32⟩
  | .local _ .vmem, ⟨117, _⟩ => ⟨S2000x64, .f32⟩
  | .local _ .vmem, ⟨118, _⟩ => ⟨S2000x64, .f32⟩
  | .local _ .vmem, ⟨119, _⟩ => ⟨S2000x1, .f32⟩
  | .local _ .vmem, ⟨120, _⟩ => ⟨S2000x1, .f32⟩
  | .local _ .vmem, ⟨121, _⟩ => ⟨S1x64, .f32⟩
  | .local _ .vmem, ⟨122, _⟩ => ⟨S2000x64, .f32⟩
  | .local _ .vmem, ⟨123, _⟩ => ⟨S2000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | .vmem, ⟨112, _⟩ => true
  | .vmem, ⟨113, _⟩ => true
  | .vmem, ⟨114, _⟩ => true
  | .vmem, ⟨115, _⟩ => true
  | .vmem, ⟨116, _⟩ => true
  | .vmem, ⟨117, _⟩ => true
  | .vmem, ⟨118, _⟩ => true
  | .vmem, ⟨119, _⟩ => true
  | .vmem, ⟨120, _⟩ => true
  | .vmem, ⟨121, _⟩ => true
  | .vmem, ⟨122, _⟩ => true
  | .vmem, ⟨123, _⟩ => true
  | _, _ => false

abbrev semScoped : Fin 0 → Bool
  | ⟨_, h⟩ => absurd h (Nat.not_lt_zero _)

abbrev dmaSemScoped : Fin 124 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | ⟨120, _⟩ => true
  | ⟨121, _⟩ => true
  | ⟨122, _⟩ => true
  | ⟨123, _⟩ => true
  | _ => false

abbrev sig : RefSig :=
  ofTc nBuf bufTy 0 124 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_cst : Ref sig .tc := ⟨.hbm, 26, rfl⟩
abbrev main_v4 : Ref sig .tc := ⟨.hbm, 27, rfl⟩
abbrev main_cst_0 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_cst_1 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_c : Ref sig .tc := ⟨.hbm, 36, rfl⟩
abbrev main_v11 : Ref sig .tc := ⟨.hbm, 37, rfl⟩
abbrev main_v12 : Ref sig .tc := ⟨.hbm, 38, rfl⟩
abbrev main_c_2 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_c_3 : Ref sig .tc := ⟨.hbm, 45, rfl⟩
abbrev main_v18 : Ref sig .tc := ⟨.hbm, 46, rfl⟩
abbrev main_v19 : Ref sig .tc := ⟨.hbm, 47, rfl⟩
abbrev main_c_4 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_c_5 : Ref sig .tc := ⟨.hbm, 57, rfl⟩
abbrev main_v28 : Ref sig .tc := ⟨.hbm, 58, rfl⟩
abbrev main_v29 : Ref sig .tc := ⟨.hbm, 59, rfl⟩
abbrev main_c_6 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_cst_7 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43_0 : Ref sig .tc := ⟨.hbm, 75, rfl⟩
abbrev main_v43_1 : Ref sig .tc := ⟨.hbm, 76, rfl⟩
abbrev main_v43_2 : Ref sig .tc := ⟨.hbm, 77, rfl⟩
abbrev main_v44 : Ref sig .tc := ⟨.hbm, 78, rfl⟩
abbrev main_v45 : Ref sig .tc := ⟨.hbm, 79, rfl⟩
abbrev main_cst_8 : Ref sig .tc := ⟨.hbm, 80, rfl⟩
abbrev main_v46 : Ref sig .tc := ⟨.hbm, 81, rfl⟩
abbrev main_v47 : Ref sig .tc := ⟨.hbm, 82, rfl⟩
abbrev main_cst_9 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_c_10 : Ref sig .tc := ⟨.hbm, 94, rfl⟩
abbrev main_v58 : Ref sig .tc := ⟨.hbm, 95, rfl⟩
abbrev main_v59 : Ref sig .tc := ⟨.hbm, 96, rfl⟩
abbrev main_c_11 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_cst_12 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73_0 : Ref sig .tc := ⟨.hbm, 112, rfl⟩
abbrev main_v73_1 : Ref sig .tc := ⟨.hbm, 113, rfl⟩
abbrev main_v73_2 : Ref sig .tc := ⟨.hbm, 114, rfl⟩
abbrev main_v74 : Ref sig .tc := ⟨.hbm, 115, rfl⟩
abbrev main_v75 : Ref sig .tc := ⟨.hbm, 116, rfl⟩
abbrev main_cst_13 : Ref sig .tc := ⟨.hbm, 117, rfl⟩
abbrev main_v76 : Ref sig .tc := ⟨.hbm, 118, rfl⟩
abbrev main_v77 : Ref sig .tc := ⟨.hbm, 119, rfl⟩
abbrev main_cst_14 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_c_15 : Ref sig .tc := ⟨.hbm, 131, rfl⟩
abbrev main_v88 : Ref sig .tc := ⟨.hbm, 132, rfl⟩
abbrev main_v89 : Ref sig .tc := ⟨.hbm, 133, rfl⟩
abbrev main_c_16 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_cst_17 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_c_18 : Ref sig .tc := ⟨.hbm, 151, rfl⟩
abbrev main_v105 : Ref sig .tc := ⟨.hbm, 152, rfl⟩
abbrev main_v106 : Ref sig .tc := ⟨.hbm, 153, rfl⟩
abbrev main_c_19 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_cst_20 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120_0 : Ref sig .tc := ⟨.hbm, 169, rfl⟩
abbrev main_v120_1 : Ref sig .tc := ⟨.hbm, 170, rfl⟩
abbrev main_v120_2 : Ref sig .tc := ⟨.hbm, 171, rfl⟩
abbrev main_v121 : Ref sig .tc := ⟨.hbm, 172, rfl⟩
abbrev main_v122 : Ref sig .tc := ⟨.hbm, 173, rfl⟩
abbrev main_cst_21 : Ref sig .tc := ⟨.hbm, 174, rfl⟩
abbrev main_v123 : Ref sig .tc := ⟨.hbm, 175, rfl⟩
abbrev main_v124 : Ref sig .tc := ⟨.hbm, 176, rfl⟩
abbrev main_cst_22 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_c_23 : Ref sig .tc := ⟨.hbm, 188, rfl⟩
abbrev main_v135 : Ref sig .tc := ⟨.hbm, 189, rfl⟩
abbrev main_v136 : Ref sig .tc := ⟨.hbm, 190, rfl⟩
abbrev main_c_24 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩
abbrev main_v142 : Ref sig .tc := ⟨.hbm, 197, rfl⟩
abbrev main_v143 : Ref sig .tc := ⟨.hbm, 198, rfl⟩
abbrev main_v144 : Ref sig .tc := ⟨.hbm, 199, rfl⟩
abbrev main_cst_25 : Ref sig .tc := ⟨.hbm, 200, rfl⟩
abbrev main_v145 : Ref sig .tc := ⟨.hbm, 201, rfl⟩
abbrev main_v146 : Ref sig .tc := ⟨.hbm, 202, rfl⟩
abbrev main_v147 : Ref sig .tc := ⟨.hbm, 203, rfl⟩
abbrev main_v148 : Ref sig .tc := ⟨.hbm, 204, rfl⟩
abbrev main_v149 : Ref sig .tc := ⟨.hbm, 205, rfl⟩
abbrev main_v150_0 : Ref sig .tc := ⟨.hbm, 206, rfl⟩
abbrev main_v150_1 : Ref sig .tc := ⟨.hbm, 207, rfl⟩
abbrev main_v150_2 : Ref sig .tc := ⟨.hbm, 208, rfl⟩
abbrev main_v151 : Ref sig .tc := ⟨.hbm, 209, rfl⟩
abbrev main_v152 : Ref sig .tc := ⟨.hbm, 210, rfl⟩
abbrev main_cst_26 : Ref sig .tc := ⟨.hbm, 211, rfl⟩
abbrev main_v153 : Ref sig .tc := ⟨.hbm, 212, rfl⟩
abbrev main_v154 : Ref sig .tc := ⟨.hbm, 213, rfl⟩
abbrev main_cst_27 : Ref sig .tc := ⟨.hbm, 214, rfl⟩
abbrev main_v155 : Ref sig .tc := ⟨.hbm, 215, rfl⟩
abbrev main_v156 : Ref sig .tc := ⟨.hbm, 216, rfl⟩
abbrev main_v157 : Ref sig .tc := ⟨.hbm, 217, rfl⟩
abbrev main_v158 : Ref sig .tc := ⟨.hbm, 218, rfl⟩
abbrev main_v159 : Ref sig .tc := ⟨.hbm, 219, rfl⟩
abbrev main_v160 : Ref sig .tc := ⟨.hbm, 220, rfl⟩
abbrev main_v161 : Ref sig .tc := ⟨.hbm, 221, rfl⟩
abbrev main_v162 : Ref sig .tc := ⟨.hbm, 222, rfl⟩
abbrev main_v163 : Ref sig .tc := ⟨.hbm, 223, rfl⟩
abbrev main_v164 : Ref sig .tc := ⟨.hbm, 224, rfl⟩
abbrev main_c_28 : Ref sig .tc := ⟨.hbm, 225, rfl⟩
abbrev main_v165 : Ref sig .tc := ⟨.hbm, 226, rfl⟩
abbrev main_v166 : Ref sig .tc := ⟨.hbm, 227, rfl⟩
abbrev main_c_29 : Ref sig .tc := ⟨.hbm, 228, rfl⟩
abbrev main_v167 : Ref sig .tc := ⟨.hbm, 229, rfl⟩
abbrev main_v168 : Ref sig .tc := ⟨.hbm, 230, rfl⟩
abbrev main_v169 : Ref sig .tc := ⟨.hbm, 231, rfl⟩
abbrev main_v170 : Ref sig .tc := ⟨.hbm, 232, rfl⟩
abbrev main_v171 : Ref sig .tc := ⟨.hbm, 233, rfl⟩
abbrev main_v172 : Ref sig .tc := ⟨.hbm, 234, rfl⟩
abbrev main_v173 : Ref sig .tc := ⟨.hbm, 235, rfl⟩
abbrev main_v174 : Ref sig .tc := ⟨.hbm, 236, rfl⟩
abbrev main_cst_30 : Ref sig .tc := ⟨.hbm, 237, rfl⟩
abbrev main_v175 : Ref sig .tc := ⟨.hbm, 238, rfl⟩
abbrev main_v176 : Ref sig .tc := ⟨.hbm, 239, rfl⟩
abbrev main_v177 : Ref sig .tc := ⟨.hbm, 240, rfl⟩
abbrev main_v178 : Ref sig .tc := ⟨.hbm, 241, rfl⟩
abbrev main_v179 : Ref sig .tc := ⟨.hbm, 242, rfl⟩
abbrev main_v180 : Ref sig .tc := ⟨.hbm, 243, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg6_0 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg2_1 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg1_1 : Ref sig .tc := ⟨.vmem, 32, rfl⟩
abbrev cc4_stg2_0 : Ref sig .tc := ⟨.vmem, 33, rfl⟩
abbrev cc4_stg2_1 : Ref sig .tc := ⟨.vmem, 34, rfl⟩
abbrev cc4_stg3_0 : Ref sig .tc := ⟨.vmem, 35, rfl⟩
abbrev cc4_stg4_0 : Ref sig .tc := ⟨.vmem, 36, rfl⟩
abbrev cc4_stg4_1 : Ref sig .tc := ⟨.vmem, 37, rfl⟩
abbrev cc4_stg5_0 : Ref sig .tc := ⟨.vmem, 38, rfl⟩
abbrev cc4_stg6_0 : Ref sig .tc := ⟨.vmem, 39, rfl⟩
abbrev cc5_stg0_0 : Ref sig .tc := ⟨.vmem, 40, rfl⟩
abbrev cc5_stg0_1 : Ref sig .tc := ⟨.vmem, 41, rfl⟩
abbrev cc5_stg1_0 : Ref sig .tc := ⟨.vmem, 42, rfl⟩
abbrev cc5_stg2_0 : Ref sig .tc := ⟨.vmem, 43, rfl⟩
abbrev cc5_stg3_0 : Ref sig .tc := ⟨.vmem, 44, rfl⟩
abbrev cc5_stg4_0 : Ref sig .tc := ⟨.vmem, 45, rfl⟩
abbrev cc5_stg5_0 : Ref sig .tc := ⟨.vmem, 46, rfl⟩
abbrev cc5_stg5_1 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg2_0 : Ref sig .tc := ⟨.vmem, 51, rfl⟩
abbrev cc6_stg2_1 : Ref sig .tc := ⟨.vmem, 52, rfl⟩
abbrev cc7_stg0_0 : Ref sig .tc := ⟨.vmem, 53, rfl⟩
abbrev cc7_stg0_1 : Ref sig .tc := ⟨.vmem, 54, rfl⟩
abbrev cc7_stg1_0 : Ref sig .tc := ⟨.vmem, 55, rfl⟩
abbrev cc7_stg1_1 : Ref sig .tc := ⟨.vmem, 56, rfl⟩
abbrev cc7_stg2_0 : Ref sig .tc := ⟨.vmem, 57, rfl⟩
abbrev cc7_stg2_1 : Ref sig .tc := ⟨.vmem, 58, rfl⟩
abbrev cc7_stg3_0 : Ref sig .tc := ⟨.vmem, 59, rfl⟩
abbrev cc7_stg4_0 : Ref sig .tc := ⟨.vmem, 60, rfl⟩
abbrev cc7_stg4_1 : Ref sig .tc := ⟨.vmem, 61, rfl⟩
abbrev cc8_stg0_0 : Ref sig .tc := ⟨.vmem, 62, rfl⟩
abbrev cc8_stg0_1 : Ref sig .tc := ⟨.vmem, 63, rfl⟩
abbrev cc8_stg1_0 : Ref sig .tc := ⟨.vmem, 64, rfl⟩
abbrev cc8_stg2_0 : Ref sig .tc := ⟨.vmem, 65, rfl⟩
abbrev cc8_stg2_1 : Ref sig .tc := ⟨.vmem, 66, rfl⟩
abbrev cc9_stg0_0 : Ref sig .tc := ⟨.vmem, 67, rfl⟩
abbrev cc9_stg0_1 : Ref sig .tc := ⟨.vmem, 68, rfl⟩
abbrev cc9_stg1_0 : Ref sig .tc := ⟨.vmem, 69, rfl⟩
abbrev cc9_stg1_1 : Ref sig .tc := ⟨.vmem, 70, rfl⟩
abbrev cc9_stg2_0 : Ref sig .tc := ⟨.vmem, 71, rfl⟩
abbrev cc9_stg2_1 : Ref sig .tc := ⟨.vmem, 72, rfl⟩
abbrev cc9_stg3_0 : Ref sig .tc := ⟨.vmem, 73, rfl⟩
abbrev cc9_stg4_0 : Ref sig .tc := ⟨.vmem, 74, rfl⟩
abbrev cc9_stg4_1 : Ref sig .tc := ⟨.vmem, 75, rfl⟩
abbrev cc9_stg5_0 : Ref sig .tc := ⟨.vmem, 76, rfl⟩
abbrev cc9_stg6_0 : Ref sig .tc := ⟨.vmem, 77, rfl⟩
abbrev cc10_stg0_0 : Ref sig .tc := ⟨.vmem, 78, rfl⟩
abbrev cc10_stg0_1 : Ref sig .tc := ⟨.vmem, 79, rfl⟩
abbrev cc10_stg1_0 : Ref sig .tc := ⟨.vmem, 80, rfl⟩
abbrev cc10_stg2_0 : Ref sig .tc := ⟨.vmem, 81, rfl⟩
abbrev cc10_stg3_0 : Ref sig .tc := ⟨.vmem, 82, rfl⟩
abbrev cc10_stg4_0 : Ref sig .tc := ⟨.vmem, 83, rfl⟩
abbrev cc10_stg5_0 : Ref sig .tc := ⟨.vmem, 84, rfl⟩
abbrev cc10_stg5_1 : Ref sig .tc := ⟨.vmem, 85, rfl⟩
abbrev cc11_stg0_0 : Ref sig .tc := ⟨.vmem, 86, rfl⟩
abbrev cc11_stg0_1 : Ref sig .tc := ⟨.vmem, 87, rfl⟩
abbrev cc11_stg1_0 : Ref sig .tc := ⟨.vmem, 88, rfl⟩
abbrev cc11_stg2_0 : Ref sig .tc := ⟨.vmem, 89, rfl⟩
abbrev cc11_stg2_1 : Ref sig .tc := ⟨.vmem, 90, rfl⟩
abbrev cc12_stg0_0 : Ref sig .tc := ⟨.vmem, 91, rfl⟩
abbrev cc12_stg0_1 : Ref sig .tc := ⟨.vmem, 92, rfl⟩
abbrev cc12_stg1_0 : Ref sig .tc := ⟨.vmem, 93, rfl⟩
abbrev cc12_stg1_1 : Ref sig .tc := ⟨.vmem, 94, rfl⟩
abbrev cc12_stg2_0 : Ref sig .tc := ⟨.vmem, 95, rfl⟩
abbrev cc12_stg2_1 : Ref sig .tc := ⟨.vmem, 96, rfl⟩
abbrev cc12_stg3_0 : Ref sig .tc := ⟨.vmem, 97, rfl⟩
abbrev cc12_stg4_0 : Ref sig .tc := ⟨.vmem, 98, rfl⟩
abbrev cc12_stg4_1 : Ref sig .tc := ⟨.vmem, 99, rfl⟩
abbrev cc12_stg5_0 : Ref sig .tc := ⟨.vmem, 100, rfl⟩
abbrev cc12_stg6_0 : Ref sig .tc := ⟨.vmem, 101, rfl⟩
abbrev cc13_stg0_0 : Ref sig .tc := ⟨.vmem, 102, rfl⟩
abbrev cc13_stg0_1 : Ref sig .tc := ⟨.vmem, 103, rfl⟩
abbrev cc13_stg1_0 : Ref sig .tc := ⟨.vmem, 104, rfl⟩
abbrev cc13_stg2_0 : Ref sig .tc := ⟨.vmem, 105, rfl⟩
abbrev cc13_stg3_0 : Ref sig .tc := ⟨.vmem, 106, rfl⟩
abbrev cc13_stg4_0 : Ref sig .tc := ⟨.vmem, 107, rfl⟩
abbrev cc13_stg5_0 : Ref sig .tc := ⟨.vmem, 108, rfl⟩
abbrev cc13_stg5_1 : Ref sig .tc := ⟨.vmem, 109, rfl⟩
abbrev cc14_stg0_0 : Ref sig .tc := ⟨.vmem, 110, rfl⟩
abbrev cc14_stg0_1 : Ref sig .tc := ⟨.vmem, 111, rfl⟩
abbrev cc14_stg1_0 : Ref sig .tc := ⟨.vmem, 112, rfl⟩
abbrev cc14_stg2_0 : Ref sig .tc := ⟨.vmem, 113, rfl⟩
abbrev cc14_stg2_1 : Ref sig .tc := ⟨.vmem, 114, rfl⟩
abbrev cc15_stg0_0 : Ref sig .tc := ⟨.vmem, 115, rfl⟩
abbrev cc15_stg0_1 : Ref sig .tc := ⟨.vmem, 116, rfl⟩
abbrev cc15_stg1_0 : Ref sig .tc := ⟨.vmem, 117, rfl⟩
abbrev cc15_stg1_1 : Ref sig .tc := ⟨.vmem, 118, rfl⟩
abbrev cc15_stg2_0 : Ref sig .tc := ⟨.vmem, 119, rfl⟩
abbrev cc15_stg2_1 : Ref sig .tc := ⟨.vmem, 120, rfl⟩
abbrev cc15_stg3_0 : Ref sig .tc := ⟨.vmem, 121, rfl⟩
abbrev cc15_stg4_0 : Ref sig .tc := ⟨.vmem, 122, rfl⟩
abbrev cc15_stg4_1 : Ref sig .tc := ⟨.vmem, 123, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc1_sem5_0 : DmaSem sig := 14
abbrev cc1_sem6_0 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem2_1 : DmaSem sig := 28
abbrev cc4_sem0_0 : DmaSem sig := 29
abbrev cc4_sem0_1 : DmaSem sig := 30
abbrev cc4_sem1_0 : DmaSem sig := 31
abbrev cc4_sem1_1 : DmaSem sig := 32
abbrev cc4_sem2_0 : DmaSem sig := 33
abbrev cc4_sem2_1 : DmaSem sig := 34
abbrev cc4_sem3_0 : DmaSem sig := 35
abbrev cc4_sem4_0 : DmaSem sig := 36
abbrev cc4_sem4_1 : DmaSem sig := 37
abbrev cc4_sem5_0 : DmaSem sig := 38
abbrev cc4_sem6_0 : DmaSem sig := 39
abbrev cc5_sem0_0 : DmaSem sig := 40
abbrev cc5_sem0_1 : DmaSem sig := 41
abbrev cc5_sem1_0 : DmaSem sig := 42
abbrev cc5_sem2_0 : DmaSem sig := 43
abbrev cc5_sem3_0 : DmaSem sig := 44
abbrev cc5_sem4_0 : DmaSem sig := 45
abbrev cc5_sem5_0 : DmaSem sig := 46
abbrev cc5_sem5_1 : DmaSem sig := 47
abbrev cc6_sem0_0 : DmaSem sig := 48
abbrev cc6_sem0_1 : DmaSem sig := 49
abbrev cc6_sem1_0 : DmaSem sig := 50
abbrev cc6_sem2_0 : DmaSem sig := 51
abbrev cc6_sem2_1 : DmaSem sig := 52
abbrev cc7_sem0_0 : DmaSem sig := 53
abbrev cc7_sem0_1 : DmaSem sig := 54
abbrev cc7_sem1_0 : DmaSem sig := 55
abbrev cc7_sem1_1 : DmaSem sig := 56
abbrev cc7_sem2_0 : DmaSem sig := 57
abbrev cc7_sem2_1 : DmaSem sig := 58
abbrev cc7_sem3_0 : DmaSem sig := 59
abbrev cc7_sem4_0 : DmaSem sig := 60
abbrev cc7_sem4_1 : DmaSem sig := 61
abbrev cc8_sem0_0 : DmaSem sig := 62
abbrev cc8_sem0_1 : DmaSem sig := 63
abbrev cc8_sem1_0 : DmaSem sig := 64
abbrev cc8_sem2_0 : DmaSem sig := 65
abbrev cc8_sem2_1 : DmaSem sig := 66
abbrev cc9_sem0_0 : DmaSem sig := 67
abbrev cc9_sem0_1 : DmaSem sig := 68
abbrev cc9_sem1_0 : DmaSem sig := 69
abbrev cc9_sem1_1 : DmaSem sig := 70
abbrev cc9_sem2_0 : DmaSem sig := 71
abbrev cc9_sem2_1 : DmaSem sig := 72
abbrev cc9_sem3_0 : DmaSem sig := 73
abbrev cc9_sem4_0 : DmaSem sig := 74
abbrev cc9_sem4_1 : DmaSem sig := 75
abbrev cc9_sem5_0 : DmaSem sig := 76
abbrev cc9_sem6_0 : DmaSem sig := 77
abbrev cc10_sem0_0 : DmaSem sig := 78
abbrev cc10_sem0_1 : DmaSem sig := 79
abbrev cc10_sem1_0 : DmaSem sig := 80
abbrev cc10_sem2_0 : DmaSem sig := 81
abbrev cc10_sem3_0 : DmaSem sig := 82
abbrev cc10_sem4_0 : DmaSem sig := 83
abbrev cc10_sem5_0 : DmaSem sig := 84
abbrev cc10_sem5_1 : DmaSem sig := 85
abbrev cc11_sem0_0 : DmaSem sig := 86
abbrev cc11_sem0_1 : DmaSem sig := 87
abbrev cc11_sem1_0 : DmaSem sig := 88
abbrev cc11_sem2_0 : DmaSem sig := 89
abbrev cc11_sem2_1 : DmaSem sig := 90
abbrev cc12_sem0_0 : DmaSem sig := 91
abbrev cc12_sem0_1 : DmaSem sig := 92
abbrev cc12_sem1_0 : DmaSem sig := 93
abbrev cc12_sem1_1 : DmaSem sig := 94
abbrev cc12_sem2_0 : DmaSem sig := 95
abbrev cc12_sem2_1 : DmaSem sig := 96
abbrev cc12_sem3_0 : DmaSem sig := 97
abbrev cc12_sem4_0 : DmaSem sig := 98
abbrev cc12_sem4_1 : DmaSem sig := 99
abbrev cc12_sem5_0 : DmaSem sig := 100
abbrev cc12_sem6_0 : DmaSem sig := 101
abbrev cc13_sem0_0 : DmaSem sig := 102
abbrev cc13_sem0_1 : DmaSem sig := 103
abbrev cc13_sem1_0 : DmaSem sig := 104
abbrev cc13_sem2_0 : DmaSem sig := 105
abbrev cc13_sem3_0 : DmaSem sig := 106
abbrev cc13_sem4_0 : DmaSem sig := 107
abbrev cc13_sem5_0 : DmaSem sig := 108
abbrev cc13_sem5_1 : DmaSem sig := 109
abbrev cc14_sem0_0 : DmaSem sig := 110
abbrev cc14_sem0_1 : DmaSem sig := 111
abbrev cc14_sem1_0 : DmaSem sig := 112
abbrev cc14_sem2_0 : DmaSem sig := 113
abbrev cc14_sem2_1 : DmaSem sig := 114
abbrev cc15_sem0_0 : DmaSem sig := 115
abbrev cc15_sem0_1 : DmaSem sig := 116
abbrev cc15_sem1_0 : DmaSem sig := 117
abbrev cc15_sem1_1 : DmaSem sig := 118
abbrev cc15_sem2_0 : DmaSem sig := 119
abbrev cc15_sem2_1 : DmaSem sig := 120
abbrev cc15_sem3_0 : DmaSem sig := 121
abbrev cc15_sem4_0 : DmaSem sig := 122
abbrev cc15_sem4_1 : DmaSem sig := 123

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S2000x256 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 1 → Memref sig .tc .vmem S1x256 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x256 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x256 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S2000x256 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S256x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S2000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S2000x64 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S2000x1 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S1x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S2000x64 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev grid8 : Pipeline.Grid := ⟨1, ![25], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S2000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S64x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S2000x128 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![25], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_6 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage9_0 : Fin 2 → Memref sig .tc .vmem S2000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S2000x128 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 2 → Memref sig .tc .vmem S2000x1 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev stage9_3 : Fin 1 → Memref sig .tc .vmem S1x128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 2 → Memref sig .tc .vmem S2000x128 .f32 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true]

abbrev stage9_5 : Fin 1 → Memref sig .tc .vmem S1x128 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev stage9_6 : Fin 1 → Memref sig .tc .vmem S1x128 .f32 := fun | 0 => Memref.whole cc9_stg6_0 | ⟨_ + 1, h⟩ => absurd h (Nat.not_lt.2 (Nat.le_add_left _ _))
abbrev sem9_6 : Fin 1 → DmaSem sig := fun | 0 => cc9_sem6_0 | ⟨_ + 1, h⟩ => absurd h (Nat.not_lt.2 (Nat.le_add_left _ _))
abbrev reads9_6 : Fin grid9.rank → Bool := ![false]

abbrev grid10 : Pipeline.Grid := ⟨1, ![25], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S2000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S1x128 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x128 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S1x128 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x128 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 2 → Memref sig .tc .vmem S2000x128 .f32 := fun | 0 => Memref.whole cc10_stg5_0 | 1 => Memref.whole cc10_stg5_1 | ⟨_ + 2, h⟩ => absurd h (Nat.not_lt.2 (Nat.le_add_left _ _))
abbrev sem10_5 : Fin 2 → DmaSem sig := fun | 0 => cc10_sem5_0 | 1 => cc10_sem5_1 | ⟨_ + 2, h⟩ => absurd h (Nat.not_lt.2 (Nat.le_add_left _ _))
abbrev reads10_5 : Fin grid10.rank → Bool := ![true]

abbrev grid11 : Pipeline.Grid := ⟨1, ![25], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S2000x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S128x256 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 2 → Memref sig .tc .vmem S2000x256 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

abbrev grid12 : Pipeline.Grid := ⟨1, ![25], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_2 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_3 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_4 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_5 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_6 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage12_0 : Fin 2 → Memref sig .tc .vmem S2000x256 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 2 → Memref sig .tc .vmem S2000x256 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true]

abbrev stage12_2 : Fin 2 → Memref sig .tc .vmem S2000x1 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true]

abbrev stage12_3 : Fin 1 → Memref sig .tc .vmem S1x256 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

abbrev stage12_4 : Fin 2 → Memref sig .tc .vmem S2000x256 .f32 := fun | 0 => Memref.whole cc12_stg4_0 | 1 => Memref.whole cc12_stg4_1 | ⟨_ + 2, h⟩ => absurd h (Nat.not_lt.2 (Nat.le_add_left _ _))
abbrev sem12_4 : Fin 2 → DmaSem sig := fun | 0 => cc12_sem4_0 | 1 => cc12_sem4_1 | ⟨_ + 2, h⟩ => absurd h (Nat.not_lt.2 (Nat.le_add_left _ _))
abbrev reads12_4 : Fin grid12.rank → Bool := ![true]

abbrev stage12_5 : Fin 1 → Memref sig .tc .vmem S1x256 .f32 := fun | 0 => Memref.whole cc12_stg5_0 | ⟨_ + 1, h⟩ => absurd h (Nat.not_lt.2 (Nat.le_add_left _ _))
abbrev sem12_5 : Fin 1 → DmaSem sig := fun | 0 => cc12_sem5_0 | ⟨_ + 1, h⟩ => absurd h (Nat.not_lt.2 (Nat.le_add_left _ _))
abbrev reads12_5 : Fin grid12.rank → Bool := ![false]

abbrev stage12_6 : Fin 1 → Memref sig .tc .vmem S1x256 .f32 := fun | 0 => Memref.whole cc12_stg6_0 | ⟨_ + 1, h⟩ => absurd h (Nat.not_lt.2 (Nat.le_add_left _ _))
abbrev sem12_6 : Fin 1 → DmaSem sig := fun | 0 => cc12_sem6_0 | ⟨_ + 1, h⟩ => absurd h (Nat.not_lt.2 (Nat.le_add_left _ _))
abbrev reads12_6 : Fin grid12.rank → Bool := ![false]

abbrev grid13 : Pipeline.Grid := ⟨1, ![25], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_4 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_5 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S2000x256 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 1 → Memref sig .tc .vmem S1x256 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 1 → Memref sig .tc .vmem S1x256 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 1 → Memref sig .tc .vmem S1x256 .f32 := fun | 0 => Memref.whole cc13_stg3_0 | ⟨_ + 1, h⟩ => absurd h (Nat.not_lt.2 (Nat.le_add_left _ _))
abbrev sem13_3 : Fin 1 → DmaSem sig := fun | 0 => cc13_sem3_0 | ⟨_ + 1, h⟩ => absurd h (Nat.not_lt.2 (Nat.le_add_left _ _))
abbrev reads13_3 : Fin grid13.rank → Bool := ![false]

abbrev stage13_4 : Fin 1 → Memref sig .tc .vmem S1x256 .f32 := fun | 0 => Memref.whole cc13_stg4_0 | ⟨_ + 1, h⟩ => absurd h (Nat.not_lt.2 (Nat.le_add_left _ _))
abbrev sem13_4 : Fin 1 → DmaSem sig := fun | 0 => cc13_sem4_0 | ⟨_ + 1, h⟩ => absurd h (Nat.not_lt.2 (Nat.le_add_left _ _))
abbrev reads13_4 : Fin grid13.rank → Bool := ![false]

abbrev stage13_5 : Fin 2 → Memref sig .tc .vmem S2000x256 .f32 := fun | 0 => Memref.whole cc13_stg5_0 | 1 => Memref.whole cc13_stg5_1 | ⟨_ + 2, h⟩ => absurd h (Nat.not_lt.2 (Nat.le_add_left _ _))
abbrev sem13_5 : Fin 2 → DmaSem sig := fun | 0 => cc13_sem5_0 | 1 => cc13_sem5_1 | ⟨_ + 2, h⟩ => absurd h (Nat.not_lt.2 (Nat.le_add_left _ _))
abbrev reads13_5 : Fin grid13.rank → Bool := ![true]

abbrev grid14 : Pipeline.Grid := ⟨1, ![25], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_2 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 2 → Memref sig .tc .vmem S2000x256 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 1 → Memref sig .tc .vmem S256x64 .f32 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))
abbrev reads14_1 : Fin grid14.rank → Bool := ![false]

abbrev stage14_2 : Fin 2 → Memref sig .tc .vmem S2000x64 .f32 := fun | 0 => Memref.whole cc14_stg2_0 | 1 => Memref.whole cc14_stg2_1 | ⟨_ + 2, h⟩ => absurd h (Nat.not_lt.2 (Nat.le_add_left _ _))
abbrev sem14_2 : Fin 2 → DmaSem sig := fun | 0 => cc14_sem2_0 | 1 => cc14_sem2_1 | ⟨_ + 2, h⟩ => absurd h (Nat.not_lt.2 (Nat.le_add_left _ _))
abbrev reads14_2 : Fin grid14.rank → Bool := ![true]

abbrev grid15 : Pipeline.Grid := ⟨1, ![25], ![false]⟩

def cc15_transform_0 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_2 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_3 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_4 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage15_0 : Fin 2 → Memref sig .tc .vmem S2000x64 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 2 → Memref sig .tc .vmem S2000x64 .f32 := fun | 0 => Memref.whole cc15_stg1_0 | 1 => Memref.whole cc15_stg1_1 | ⟨_ + 2, h⟩ => absurd h (Nat.not_lt.2 (Nat.le_add_left _ _))
abbrev sem15_1 : Fin 2 → DmaSem sig := fun | 0 => cc15_sem1_0 | 1 => cc15_sem1_1 | ⟨_ + 2, h⟩ => absurd h (Nat.not_lt.2 (Nat.le_add_left _ _))
abbrev reads15_1 : Fin grid15.rank → Bool := ![true]

abbrev stage15_2 : Fin 2 → Memref sig .tc .vmem S2000x1 .f32 := fun | 0 => Memref.whole cc15_stg2_0 | 1 => Memref.whole cc15_stg2_1 | ⟨_ + 2, h⟩ => absurd h (Nat.not_lt.2 (Nat.le_add_left _ _))
abbrev sem15_2 : Fin 2 → DmaSem sig := fun | 0 => cc15_sem2_0 | 1 => cc15_sem2_1 | ⟨_ + 2, h⟩ => absurd h (Nat.not_lt.2 (Nat.le_add_left _ _))
abbrev reads15_2 : Fin grid15.rank → Bool := ![true]

abbrev stage15_3 : Fin 1 → Memref sig .tc .vmem S1x64 .f32 := fun | 0 => Memref.whole cc15_stg3_0 | ⟨_ + 1, h⟩ => absurd h (Nat.not_lt.2 (Nat.le_add_left _ _))
abbrev sem15_3 : Fin 1 → DmaSem sig := fun | 0 => cc15_sem3_0 | ⟨_ + 1, h⟩ => absurd h (Nat.not_lt.2 (Nat.le_add_left _ _))
abbrev reads15_3 : Fin grid15.rank → Bool := ![false]

abbrev stage15_4 : Fin 2 → Memref sig .tc .vmem S2000x64 .f32 := fun | 0 => Memref.whole cc15_stg4_0 | 1 => Memref.whole cc15_stg4_1 | ⟨_ + 2, h⟩ => absurd h (Nat.not_lt.2 (Nat.le_add_left _ _))
abbrev sem15_4 : Fin 2 → DmaSem sig := fun | 0 => cc15_sem4_0 | 1 => cc15_sem4_1 | ⟨_ + 2, h⟩ => absurd h (Nat.not_lt.2 (Nat.le_add_left _ _))
abbrev reads15_4 : Fin grid15.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  inb_S2000x64_S2000x64_0_0 : ∀ a, (![0, 0] : Fin 2 → Nat) a + S2000x64.size a ≤ S2000x64.size a
  h_S2000x64 : 0 < S2000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S2000x128_S2000x128_0_0 : ∀ a, (![0, 0] : Fin 2 → Nat) a + S2000x128.size a ≤ S2000x128.size a
  h_S2000x128 : 0 < S2000x128.numel
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S50000_S50000x1 : S50000.ShapeCasts S50000x1
  shapeCasts_S128_S1x128 : S128.ShapeCasts S1x128
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  reduces_S2000x128_S128 : S2000x128.Reduces [0] S128
  shapeCasts_S1x128_S128 : S1x128.ShapeCasts S128
  bcast_S_S128 : S_.BroadcastsInDim S128 (![] : Fin 0 → Fin S128.rank)
  inb_S128x256_S128x256_0_0 : ∀ a, (![0, 0] : Fin 2 → Nat) a + S128x256.size a ≤ S128x256.size a
  h_S128x256 : 0 < S128x256.numel
  inb_S2000x256_S2000x256_0_0 : ∀ a, (![0, 0] : Fin 2 → Nat) a + S2000x256.size a ≤ S2000x256.size a
  h_S2000x256 : 0 < S2000x256.numel
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  shapeCasts_S256_S1x256 : S256.ShapeCasts S1x256
  shapeCasts_S2000x256_S2000x256 : S2000x256.ShapeCasts S2000x256
  broadcasts_S2000x1_S2000x256 : S2000x1.Broadcasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  reduces_S2000x256_S256 : S2000x256.Reduces [0] S256
  shapeCasts_S1x256_S256 : S1x256.ShapeCasts S256
  bcast_S_S256 : S_.BroadcastsInDim S256 (![] : Fin 0 → Fin S256.rank)
  inb_S256x64_S256x64_0_0 : ∀ a, (![0, 0] : Fin 2 → Nat) a + S256x64.size a ≤ S256x64.size a
  h_S256x64 : 0 < S256x64.numel
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  shapeCasts_S64_S1x64 : S64.ShapeCasts S1x64
  shapeCasts_S2000x64_S2000x64 : S2000x64.ShapeCasts S2000x64
  broadcasts_S2000x1_S2000x64 : S2000x1.Broadcasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S2000x64_S64x128_S2000x128_1_0_0_1_n_n_wf : DotDims.WF S2000x64 S64x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x256_S2000x256_1_0_0_1_n_n_wf : DotDims.WF S2000x128 S128x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x64_S2000x64_1_0_0_1_n_n_wf : DotDims.WF S2000x256 S256x64 S2000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S50000x64.size a
  hwx0_0 : ∀ i : grid0.Coords, EltTy.bits .f32 = 32 ∨ (Rect.block (s := S50000x64) S2000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S50000x128.size a
  hwx1_4 : ∀ i : grid1.Coords, EltTy.bits .f32 = 32 ∨ (Rect.block (s := S50000x128) S2000x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S50000x128.size a
  hwx2_5 : ∀ i : grid2.Coords, EltTy.bits .f32 = 32 ∨ (Rect.block (s := S50000x128) S2000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x256.size a ≤ S128x256.size a
  hwx3_1 : ∀ i : grid3.Coords, EltTy.bits .f32 = 32 ∨ (Rect.block (s := S128x256) S128x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x256.size a ≤ S50000x256.size a
  hwx3_2 : ∀ i : grid3.Coords, EltTy.bits .f32 = 32 ∨ (Rect.block (s := S50000x256) S2000x256.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S50000x256.size a
  hwx4_0 : ∀ i : grid4.Coords, EltTy.bits .f32 = 32 ∨ (Rect.block (s := S50000x256) S2000x256.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x256.size a ≤ S50000x256.size a
  hwx4_1 : ∀ i : grid4.Coords, EltTy.bits .f32 = 32 ∨ (Rect.block (s := S50000x256) S2000x256.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x1.size a ≤ S50000x1.size a
  hwx4_2 : ∀ i : grid4.Coords, EltTy.bits .f32 = 32 ∨ (Rect.block (s := S50000x1) S2000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x256.size a ≤ S1x256.size a
  hwx4_3 : ∀ i : grid4.Coords, EltTy.bits .f32 = 32 ∨ (Rect.block (s := S1x256) S1x256.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S2000x256.size a ≤ S50000x256.size a
  hwx4_4 : ∀ i : grid4.Coords, EltTy.bits .f32 = 32 ∨ (Rect.block (s := S50000x256) S2000x256.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x256.size a ≤ S1x256.size a
  hwx4_5 : ∀ i : grid4.Coords, EltTy.bits .f32 = 32 ∨ (Rect.block (s := S1x256) S1x256.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x256.size a ≤ S1x256.size a
  hwx4_6 : ∀ i : grid4.Coords, EltTy.bits .f32 = 32 ∨ (Rect.block (s := S1x256) S1x256.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x256.size a ≤ S50000x256.size a
  hwx5_0 : ∀ i : grid5.Coords, EltTy.bits .f32 = 32 ∨ (Rect.block (s := S50000x256) S2000x256.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x256.size a ≤ S1x256.size a
  hwx5_1 : ∀ i : grid5.Coords, EltTy.bits .f32 = 32 ∨ (Rect.block (s := S1x256) S1x256.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x256.size a ≤ S1x256.size a
  hwx5_2 : ∀ i : grid5.Coords, EltTy.bits .f32 = 32 ∨ (Rect.block (s := S1x256) S1x256.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x256.size a ≤ S1x256.size a
  hwx5_3 : ∀ i : grid5.Coords, EltTy.bits .f32 = 32 ∨ (Rect.block (s := S1x256) S1x256.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x256.size a ≤ S1x256.size a
  hwx5_4 : ∀ i : grid5.Coords, EltTy.bits .f32 = 32 ∨ (Rect.block (s := S1x256) S1x256.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S2000x256.size a ≤ S50000x256.size a
  hwx5_5 : ∀ i : grid5.Coords, EltTy.bits .f32 = 32 ∨ (Rect.block (s := S50000x256) S2000x256.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x256.size a ≤ S50000x256.size a
  hwx6_0 : ∀ i : grid6.Coords, EltTy.bits .f32 = 32 ∨ (Rect.block (s := S50000x256) S2000x256.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S256x64.size a ≤ S256x64.size a
  hwx6_1 : ∀ i : grid6.Coords, EltTy.bits .f32 = 32 ∨ (Rect.block (s := S256x64) S256x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x64.size a ≤ S50000x64.size a
  hwx6_2 : ∀ i : grid6.Coords, EltTy.bits .f32 = 32 ∨ (Rect.block (s := S50000x64) S2000x64.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x64.size a ≤ S50000x64.size a
  hwx7_0 : ∀ i : grid7.Coords, EltTy.bits .f32 = 32 ∨ (Rect.block (s := S50000x64) S2000x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2000x64.size a ≤ S50000x64.size a
  hwx7_1 : ∀ i : grid7.Coords, EltTy.bits .f32 = 32 ∨ (Rect.block (s := S50000x64) S2000x64.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S2000x1.size a ≤ S50000x1.size a
  hwx7_2 : ∀ i : grid7.Coords, EltTy.bits .f32 = 32 ∨ (Rect.block (s := S50000x1) S2000x1.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x64.size a ≤ S1x64.size a
  hwx7_3 : ∀ i : grid7.Coords, EltTy.bits .f32 = 32 ∨ (Rect.block (s := S1x64) S1x64.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S2000x64.size a ≤ S50000x64.size a
  hwx7_4 : ∀ i : grid7.Coords, EltTy.bits .f32 = 32 ∨ (Rect.block (s := S50000x64) S2000x64.size (cc7_transform_4 i) (hinb7_4 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x64.size a ≤ S50000x64.size a
  hwx8_0 : ∀ i : grid8.Coords, EltTy.bits .f32 = 32 ∨ (Rect.block (s := S50000x64) S2000x64.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S64x128.size a ≤ S64x128.size a
  hwx8_1 : ∀ i : grid8.Coords, EltTy.bits .f32 = 32 ∨ (Rect.block (s := S64x128) S64x128.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S2000x128.size a ≤ S50000x128.size a
  hwx8_2 : ∀ i : grid8.Coords, EltTy.bits .f32 = 32 ∨ (Rect.block (s := S50000x128) S2000x128.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S2000x128.size a ≤ S50000x128.size a
  hwx9_0 : ∀ i : grid9.Coords, EltTy.bits .f32 = 32 ∨ (Rect.block (s := S50000x128) S2000x128.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S2000x128.size a ≤ S50000x128.size a
  hwx9_1 : ∀ i : grid9.Coords, EltTy.bits .f32 = 32 ∨ (Rect.block (s := S50000x128) S2000x128.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S2000x1.size a ≤ S50000x1.size a
  hwx9_2 : ∀ i : grid9.Coords, EltTy.bits .f32 = 32 ∨ (Rect.block (s := S50000x1) S2000x1.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x128.size a ≤ S1x128.size a
  hwx9_3 : ∀ i : grid9.Coords, EltTy.bits .f32 = 32 ∨ (Rect.block (s := S1x128) S1x128.size (cc9_transform_3 i) (hinb9_3 i)).WholeWords (EltTy.packing .f32)
  hstage9_4 : ∀ j, (stage9_4 j).IsWhole
  nbuf9_4 : grid9.bufCount reads9_4 false = 2
  hreads9_4 : ∀ i i' : grid9.Coords, (∀ a, reads9_4 a = true → i a = i' a) → cc9_transform_4 i = cc9_transform_4 i'
  hinb9_4 : ∀ (i : grid9.Coords) a, (cc9_transform_4 i a + 1) * S2000x128.size a ≤ S50000x128.size a
  hwx9_4 : ∀ i : grid9.Coords, EltTy.bits .f32 = 32 ∨ (Rect.block (s := S50000x128) S2000x128.size (cc9_transform_4 i) (hinb9_4 i)).WholeWords (EltTy.packing .f32)
  hstage9_5 : ∀ j, (stage9_5 j).IsWhole
  nbuf9_5 : grid9.bufCount reads9_5 true = 1
  hreads9_5 : ∀ i i' : grid9.Coords, (∀ a, reads9_5 a = true → i a = i' a) → cc9_transform_5 i = cc9_transform_5 i'
  hinb9_5 : ∀ (i : grid9.Coords) a, (cc9_transform_5 i a + 1) * S1x128.size a ≤ S1x128.size a
  hwx9_5 : ∀ i : grid9.Coords, EltTy.bits .f32 = 32 ∨ (Rect.block (s := S1x128) S1x128.size (cc9_transform_5 i) (hinb9_5 i)).WholeWords (EltTy.packing .f32)
  hstage9_6 : ∀ j, (stage9_6 j).IsWhole
  nbuf9_6 : grid9.bufCount reads9_6 true = 1
  hreads9_6 : ∀ i i' : grid9.Coords, (∀ a, reads9_6 a = true → i a = i' a) → cc9_transform_6 i = cc9_transform_6 i'
  hinb9_6 : ∀ (i : grid9.Coords) a, (cc9_transform_6 i a + 1) * S1x128.size a ≤ S1x128.size a
  hwx9_6 : ∀ i : grid9.Coords, EltTy.bits .f32 = 32 ∨ (Rect.block (s := S1x128) S1x128.size (cc9_transform_6 i) (hinb9_6 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S2000x128.size a ≤ S50000x128.size a
  hwx10_0 : ∀ i : grid10.Coords, EltTy.bits .f32 = 32 ∨ (Rect.block (s := S50000x128) S2000x128.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S1x128.size a ≤ S1x128.size a
  hwx10_1 : ∀ i : grid10.Coords, EltTy.bits .f32 = 32 ∨ (Rect.block (s := S1x128) S1x128.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x128.size a ≤ S1x128.size a
  hwx10_2 : ∀ i : grid10.Coords, EltTy.bits .f32 = 32 ∨ (Rect.block (s := S1x128) S1x128.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S1x128.size a ≤ S1x128.size a
  hwx10_3 : ∀ i : grid10.Coords, EltTy.bits .f32 = 32 ∨ (Rect.block (s := S1x128) S1x128.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S1x128.size a ≤ S1x128.size a
  hwx10_4 : ∀ i : grid10.Coords, EltTy.bits .f32 = 32 ∨ (Rect.block (s := S1x128) S1x128.size (cc10_transform_4 i) (hinb10_4 i)).WholeWords (EltTy.packing .f32)
  hstage10_5 : ∀ j, (stage10_5 j).IsWhole
  nbuf10_5 : grid10.bufCount reads10_5 false = 2
  hreads10_5 : ∀ i i' : grid10.Coords, (∀ a, reads10_5 a = true → i a = i' a) → cc10_transform_5 i = cc10_transform_5 i'
  hinb10_5 : ∀ (i : grid10.Coords) a, (cc10_transform_5 i a + 1) * S2000x128.size a ≤ S50000x128.size a
  hwx10_5 : ∀ i : grid10.Coords, EltTy.bits .f32 = 32 ∨ (Rect.block (s := S50000x128) S2000x128.size (cc10_transform_5 i) (hinb10_5 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S2000x128.size a ≤ S50000x128.size a
  hwx11_0 : ∀ i : grid11.Coords, EltTy.bits .f32 = 32 ∨ (Rect.block (s := S50000x128) S2000x128.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S128x256.size a ≤ S128x256.size a
  hwx11_1 : ∀ i : grid11.Coords, EltTy.bits .f32 = 32 ∨ (Rect.block (s := S128x256) S128x256.size (cc11_transform_1 i) (hinb11_1 i)).WholeWords (EltTy.packing .f32)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S2000x256.size a ≤ S50000x256.size a
  hwx11_2 : ∀ i : grid11.Coords, EltTy.bits .f32 = 32 ∨ (Rect.block (s := S50000x256) S2000x256.size (cc11_transform_2 i) (hinb11_2 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S2000x256.size a ≤ S50000x256.size a
  hwx12_0 : ∀ i : grid12.Coords, EltTy.bits .f32 = 32 ∨ (Rect.block (s := S50000x256) S2000x256.size (cc12_transform_0 i) (hinb12_0 i)).WholeWords (EltTy.packing .f32)
  hstage12_1 : ∀ j, (stage12_1 j).IsWhole
  nbuf12_1 : grid12.bufCount reads12_1 false = 2
  hreads12_1 : ∀ i i' : grid12.Coords, (∀ a, reads12_1 a = true → i a = i' a) → cc12_transform_1 i = cc12_transform_1 i'
  hinb12_1 : ∀ (i : grid12.Coords) a, (cc12_transform_1 i a + 1) * S2000x256.size a ≤ S50000x256.size a
  hwx12_1 : ∀ i : grid12.Coords, EltTy.bits .f32 = 32 ∨ (Rect.block (s := S50000x256) S2000x256.size (cc12_transform_1 i) (hinb12_1 i)).WholeWords (EltTy.packing .f32)
  hstage12_2 : ∀ j, (stage12_2 j).IsWhole
  nbuf12_2 : grid12.bufCount reads12_2 false = 2
  hreads12_2 : ∀ i i' : grid12.Coords, (∀ a, reads12_2 a = true → i a = i' a) → cc12_transform_2 i = cc12_transform_2 i'
  hinb12_2 : ∀ (i : grid12.Coords) a, (cc12_transform_2 i a + 1) * S2000x1.size a ≤ S50000x1.size a
  hwx12_2 : ∀ i : grid12.Coords, EltTy.bits .f32 = 32 ∨ (Rect.block (s := S50000x1) S2000x1.size (cc12_transform_2 i) (hinb12_2 i)).WholeWords (EltTy.packing .f32)
  hstage12_3 : ∀ j, (stage12_3 j).IsWhole
  nbuf12_3 : grid12.bufCount reads12_3 true = 1
  hreads12_3 : ∀ i i' : grid12.Coords, (∀ a, reads12_3 a = true → i a = i' a) → cc12_transform_3 i = cc12_transform_3 i'
  hinb12_3 : ∀ (i : grid12.Coords) a, (cc12_transform_3 i a + 1) * S1x256.size a ≤ S1x256.size a
  hwx12_3 : ∀ i : grid12.Coords, EltTy.bits .f32 = 32 ∨ (Rect.block (s := S1x256) S1x256.size (cc12_transform_3 i) (hinb12_3 i)).WholeWords (EltTy.packing .f32)
  hstage12_4 : ∀ j, (stage12_4 j).IsWhole
  nbuf12_4 : grid12.bufCount reads12_4 false = 2
  hreads12_4 : ∀ i i' : grid12.Coords, (∀ a, reads12_4 a = true → i a = i' a) → cc12_transform_4 i = cc12_transform_4 i'
  hinb12_4 : ∀ (i : grid12.Coords) a, (cc12_transform_4 i a + 1) * S2000x256.size a ≤ S50000x256.size a
  hwx12_4 : ∀ i : grid12.Coords, EltTy.bits .f32 = 32 ∨ (Rect.block (s := S50000x256) S2000x256.size (cc12_transform_4 i) (hinb12_4 i)).WholeWords (EltTy.packing .f32)
  hstage12_5 : ∀ j, (stage12_5 j).IsWhole
  nbuf12_5 : grid12.bufCount reads12_5 true = 1
  hreads12_5 : ∀ i i' : grid12.Coords, (∀ a, reads12_5 a = true → i a = i' a) → cc12_transform_5 i = cc12_transform_5 i'
  hinb12_5 : ∀ (i : grid12.Coords) a, (cc12_transform_5 i a + 1) * S1x256.size a ≤ S1x256.size a
  hwx12_5 : ∀ i : grid12.Coords, EltTy.bits .f32 = 32 ∨ (Rect.block (s := S1x256) S1x256.size (cc12_transform_5 i) (hinb12_5 i)).WholeWords (EltTy.packing .f32)
  hstage12_6 : ∀ j, (stage12_6 j).IsWhole
  nbuf12_6 : grid12.bufCount reads12_6 true = 1
  hreads12_6 : ∀ i i' : grid12.Coords, (∀ a, reads12_6 a = true → i a = i' a) → cc12_transform_6 i = cc12_transform_6 i'
  hinb12_6 : ∀ (i : grid12.Coords) a, (cc12_transform_6 i a + 1) * S1x256.size a ≤ S1x256.size a
  hwx12_6 : ∀ i : grid12.Coords, EltTy.bits .f32 = 32 ∨ (Rect.block (s := S1x256) S1x256.size (cc12_transform_6 i) (hinb12_6 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S2000x256.size a ≤ S50000x256.size a
  hwx13_0 : ∀ i : grid13.Coords, EltTy.bits .f32 = 32 ∨ (Rect.block (s := S50000x256) S2000x256.size (cc13_transform_0 i) (hinb13_0 i)).WholeWords (EltTy.packing .f32)
  hstage13_1 : ∀ j, (stage13_1 j).IsWhole
  nbuf13_1 : grid13.bufCount reads13_1 true = 1
  hreads13_1 : ∀ i i' : grid13.Coords, (∀ a, reads13_1 a = true → i a = i' a) → cc13_transform_1 i = cc13_transform_1 i'
  hinb13_1 : ∀ (i : grid13.Coords) a, (cc13_transform_1 i a + 1) * S1x256.size a ≤ S1x256.size a
  hwx13_1 : ∀ i : grid13.Coords, EltTy.bits .f32 = 32 ∨ (Rect.block (s := S1x256) S1x256.size (cc13_transform_1 i) (hinb13_1 i)).WholeWords (EltTy.packing .f32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S1x256.size a ≤ S1x256.size a
  hwx13_2 : ∀ i : grid13.Coords, EltTy.bits .f32 = 32 ∨ (Rect.block (s := S1x256) S1x256.size (cc13_transform_2 i) (hinb13_2 i)).WholeWords (EltTy.packing .f32)
  hstage13_3 : ∀ j, (stage13_3 j).IsWhole
  nbuf13_3 : grid13.bufCount reads13_3 true = 1
  hreads13_3 : ∀ i i' : grid13.Coords, (∀ a, reads13_3 a = true → i a = i' a) → cc13_transform_3 i = cc13_transform_3 i'
  hinb13_3 : ∀ (i : grid13.Coords) a, (cc13_transform_3 i a + 1) * S1x256.size a ≤ S1x256.size a
  hwx13_3 : ∀ i : grid13.Coords, EltTy.bits .f32 = 32 ∨ (Rect.block (s := S1x256) S1x256.size (cc13_transform_3 i) (hinb13_3 i)).WholeWords (EltTy.packing .f32)
  hstage13_4 : ∀ j, (stage13_4 j).IsWhole
  nbuf13_4 : grid13.bufCount reads13_4 true = 1
  hreads13_4 : ∀ i i' : grid13.Coords, (∀ a, reads13_4 a = true → i a = i' a) → cc13_transform_4 i = cc13_transform_4 i'
  hinb13_4 : ∀ (i : grid13.Coords) a, (cc13_transform_4 i a + 1) * S1x256.size a ≤ S1x256.size a
  hwx13_4 : ∀ i : grid13.Coords, EltTy.bits .f32 = 32 ∨ (Rect.block (s := S1x256) S1x256.size (cc13_transform_4 i) (hinb13_4 i)).WholeWords (EltTy.packing .f32)
  hstage13_5 : ∀ j, (stage13_5 j).IsWhole
  nbuf13_5 : grid13.bufCount reads13_5 false = 2
  hreads13_5 : ∀ i i' : grid13.Coords, (∀ a, reads13_5 a = true → i a = i' a) → cc13_transform_5 i = cc13_transform_5 i'
  hinb13_5 : ∀ (i : grid13.Coords) a, (cc13_transform_5 i a + 1) * S2000x256.size a ≤ S50000x256.size a
  hwx13_5 : ∀ i : grid13.Coords, EltTy.bits .f32 = 32 ∨ (Rect.block (s := S50000x256) S2000x256.size (cc13_transform_5 i) (hinb13_5 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S2000x256.size a ≤ S50000x256.size a
  hwx14_0 : ∀ i : grid14.Coords, EltTy.bits .f32 = 32 ∨ (Rect.block (s := S50000x256) S2000x256.size (cc14_transform_0 i) (hinb14_0 i)).WholeWords (EltTy.packing .f32)
  hstage14_1 : ∀ j, (stage14_1 j).IsWhole
  nbuf14_1 : grid14.bufCount reads14_1 true = 1
  hreads14_1 : ∀ i i' : grid14.Coords, (∀ a, reads14_1 a = true → i a = i' a) → cc14_transform_1 i = cc14_transform_1 i'
  hinb14_1 : ∀ (i : grid14.Coords) a, (cc14_transform_1 i a + 1) * S256x64.size a ≤ S256x64.size a
  hwx14_1 : ∀ i : grid14.Coords, EltTy.bits .f32 = 32 ∨ (Rect.block (s := S256x64) S256x64.size (cc14_transform_1 i) (hinb14_1 i)).WholeWords (EltTy.packing .f32)
  hstage14_2 : ∀ j, (stage14_2 j).IsWhole
  nbuf14_2 : grid14.bufCount reads14_2 false = 2
  hreads14_2 : ∀ i i' : grid14.Coords, (∀ a, reads14_2 a = true → i a = i' a) → cc14_transform_2 i = cc14_transform_2 i'
  hinb14_2 : ∀ (i : grid14.Coords) a, (cc14_transform_2 i a + 1) * S2000x64.size a ≤ S50000x64.size a
  hwx14_2 : ∀ i : grid14.Coords, EltTy.bits .f32 = 32 ∨ (Rect.block (s := S50000x64) S2000x64.size (cc14_transform_2 i) (hinb14_2 i)).WholeWords (EltTy.packing .f32)
  hrank15 : 0 < grid15.rank
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S2000x64.size a ≤ S50000x64.size a
  hwx15_0 : ∀ i : grid15.Coords, EltTy.bits .f32 = 32 ∨ (Rect.block (s := S50000x64) S2000x64.size (cc15_transform_0 i) (hinb15_0 i)).WholeWords (EltTy.packing .f32)
  hstage15_1 : ∀ j, (stage15_1 j).IsWhole
  nbuf15_1 : grid15.bufCount reads15_1 false = 2
  hreads15_1 : ∀ i i' : grid15.Coords, (∀ a, reads15_1 a = true → i a = i' a) → cc15_transform_1 i = cc15_transform_1 i'
  hinb15_1 : ∀ (i : grid15.Coords) a, (cc15_transform_1 i a + 1) * S2000x64.size a ≤ S50000x64.size a
  hwx15_1 : ∀ i : grid15.Coords, EltTy.bits .f32 = 32 ∨ (Rect.block (s := S50000x64) S2000x64.size (cc15_transform_1 i) (hinb15_1 i)).WholeWords (EltTy.packing .f32)
  hstage15_2 : ∀ j, (stage15_2 j).IsWhole
  nbuf15_2 : grid15.bufCount reads15_2 false = 2
  hreads15_2 : ∀ i i' : grid15.Coords, (∀ a, reads15_2 a = true → i a = i' a) → cc15_transform_2 i = cc15_transform_2 i'
  hinb15_2 : ∀ (i : grid15.Coords) a, (cc15_transform_2 i a + 1) * S2000x1.size a ≤ S50000x1.size a
  hwx15_2 : ∀ i : grid15.Coords, EltTy.bits .f32 = 32 ∨ (Rect.block (s := S50000x1) S2000x1.size (cc15_transform_2 i) (hinb15_2 i)).WholeWords (EltTy.packing .f32)
  hstage15_3 : ∀ j, (stage15_3 j).IsWhole
  nbuf15_3 : grid15.bufCount reads15_3 true = 1
  hreads15_3 : ∀ i i' : grid15.Coords, (∀ a, reads15_3 a = true → i a = i' a) → cc15_transform_3 i = cc15_transform_3 i'
  hinb15_3 : ∀ (i : grid15.Coords) a, (cc15_transform_3 i a + 1) * S1x64.size a ≤ S1x64.size a
  hwx15_3 : ∀ i : grid15.Coords, EltTy.bits .f32 = 32 ∨ (Rect.block (s := S1x64) S1x64.size (cc15_transform_3 i) (hinb15_3 i)).WholeWords (EltTy.packing .f32)
  hstage15_4 : ∀ j, (stage15_4 j).IsWhole
  nbuf15_4 : grid15.bufCount reads15_4 false = 2
  hreads15_4 : ∀ i i' : grid15.Coords, (∀ a, reads15_4 a = true → i a = i' a) → cc15_transform_4 i = cc15_transform_4 i'
  hinb15_4 : ∀ (i : grid15.Coords) a, (cc15_transform_4 i a + 1) * S2000x64.size a ≤ S50000x64.size a
  hwx15_4 : ∀ i : grid15.Coords, EltTy.bits .f32 = 32 ∨ (Rect.block (s := S50000x64) S2000x64.size (cc15_transform_4 i) (hinb15_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x64_S2000x64_1_0_0_1_n_n : DotDims S2000x256 S256x64 S2000x64 where
  lhsContracting := [1]
  rhsContracting := [0]
  lhsNonContracting := [0]
  rhsNonContracting := [1]
  lhsBatch := []
  rhsBatch := []
  wf := dot_S2000x256_S256x64_S2000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43_0) S2000x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v43_1) S1x128.size cc1_transform_5 reads1_5 true true 1 stage1_5 sem1_5
    hrank1 hreads1_5 hinb1_5 nbuf1_5 (Memref.isWhole_whole _) hwx1_5 hstage1_5

abbrev win1_6 : Pipeline.Window sig grid1 :=
  Pipeline.Window.ofSpec (Memref.whole main_v43_2) S1x128.size cc1_transform_6 reads1_6 true true 1 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v43_0) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v52) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v53) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v54) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v55) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v56) S2000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v56) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S128x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v57) S2000x256.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v70) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v57) S2000x256.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v71) S2000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v72) S1x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v73_0) S2000x256.size cc4_transform_4 reads4_4 true false 2 stage4_4 sem4_4
    hrank4 hreads4_4 hinb4_4 nbuf4_4 (Memref.isWhole_whole _) hwx4_4 hstage4_4

abbrev win4_5 : Pipeline.Window sig grid4 :=
  Pipeline.Window.ofSpec (Memref.whole main_v73_1) S1x256.size cc4_transform_5 reads4_5 true true 1 stage4_5 sem4_5
    hrank4 hreads4_5 hinb4_5 nbuf4_5 (Memref.isWhole_whole _) hwx4_5 hstage4_5

abbrev win4_6 : Pipeline.Window sig grid4 :=
  Pipeline.Window.ofSpec (Memref.whole main_v73_2) S1x256.size cc4_transform_6 reads4_6 true true 1 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v73_0) S2000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v82) S1x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v83) S1x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v84) S1x256.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v85) S1x256.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v86) S2000x256.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v86) S2000x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg10) S256x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v87) S2000x64.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v100) S2000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v87) S2000x64.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v101) S2000x1.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v102) S1x64.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v103) S2000x64.size cc7_transform_4 reads7_4 true false 2 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

abbrev win8_0 : Pipeline.Window sig grid8 :=
  Pipeline.Window.ofSpec (Memref.whole main_arg0) S2000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg12) S64x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v104) S2000x128.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v117) S2000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v104) S2000x128.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v118) S2000x1.size cc9_transform_2 reads9_2 false false 2 stage9_2 sem9_2
    hrank9 hreads9_2 hinb9_2 nbuf9_2 (Memref.isWhole_whole _) hwx9_2 hstage9_2

abbrev win9_3 : Pipeline.Window sig grid9 :=
  Pipeline.Window.ofSpec (Memref.whole main_v119) S1x128.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v120_0) S2000x128.size cc9_transform_4 reads9_4 true false 2 stage9_4 sem9_4
    hrank9 hreads9_4 hinb9_4 nbuf9_4 (Memref.isWhole_whole _) hwx9_4 hstage9_4

abbrev win9_5 : Pipeline.Window sig grid9 :=
  Pipeline.Window.ofSpec (Memref.whole main_v120_1) S1x128.size cc9_transform_5 reads9_5 true true 1 stage9_5 sem9_5
    hrank9 hreads9_5 hinb9_5 nbuf9_5 (Memref.isWhole_whole _) hwx9_5 hstage9_5

abbrev win9_6 : Pipeline.Window sig grid9 :=
  Pipeline.Window.ofSpec (Memref.whole main_v120_2) S1x128.size cc9_transform_6 reads9_6 true true 1 stage9_6 sem9_6
    hrank9 hreads9_6 hinb9_6 nbuf9_6 (Memref.isWhole_whole _) hwx9_6 hstage9_6

abbrev win9 : Fin 7 → Pipeline.Window sig grid9 := fun | 0 => win9_0 | 1 => win9_1 | 2 => win9_2 | 3 => win9_3 | 4 => win9_4 | 5 => win9_5 | 6 => win9_6 | ⟨_ + 7, h⟩ => absurd h (Nat.not_lt.2 (Nat.le_add_left _ _))
abbrev spec9 : Fin 7 → Pipeline.WinSpec sig grid9.rank := fun w => (win9 w).toWinSpec

abbrev win10_0 : Pipeline.Window sig grid10 :=
  Pipeline.Window.ofSpec (Memref.whole main_v120_0) S2000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v129) S1x128.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v130) S1x128.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v131) S1x128.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v132) S1x128.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v133) S2000x128.size cc10_transform_5 reads10_5 true false 2 stage10_5 sem10_5
    hrank10 hreads10_5 hinb10_5 nbuf10_5 (Memref.isWhole_whole _) hwx10_5 hstage10_5

abbrev win10 : Fin 6 → Pipeline.Window sig grid10 := fun | 0 => win10_0 | 1 => win10_1 | 2 => win10_2 | 3 => win10_3 | 4 => win10_4 | 5 => win10_5 | ⟨_ + 6, h⟩ => absurd h (Nat.not_lt.2 (Nat.le_add_left _ _))
abbrev spec10 : Fin 6 → Pipeline.WinSpec sig grid10.rank := fun w => (win10 w).toWinSpec

abbrev win11_0 : Pipeline.Window sig grid11 :=
  Pipeline.Window.ofSpec (Memref.whole main_v133) S2000x128.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_arg16) S128x256.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v134) S2000x256.size cc11_transform_2 reads11_2 true false 2 stage11_2 sem11_2
    hrank11 hreads11_2 hinb11_2 nbuf11_2 (Memref.isWhole_whole _) hwx11_2 hstage11_2

abbrev win11 : Fin 3 → Pipeline.Window sig grid11 := fun | 0 => win11_0 | 1 => win11_1 | 2 => win11_2 | ⟨_ + 3, h⟩ => absurd h (Nat.not_lt.2 (Nat.le_add_left _ _))
abbrev spec11 : Fin 3 → Pipeline.WinSpec sig grid11.rank := fun w => (win11 w).toWinSpec

abbrev win12_0 : Pipeline.Window sig grid12 :=
  Pipeline.Window.ofSpec (Memref.whole main_v147) S2000x256.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v134) S2000x256.size cc12_transform_1 reads12_1 false false 2 stage12_1 sem12_1
    hrank12 hreads12_1 hinb12_1 nbuf12_1 (Memref.isWhole_whole _) hwx12_1 hstage12_1

abbrev win12_2 : Pipeline.Window sig grid12 :=
  Pipeline.Window.ofSpec (Memref.whole main_v148) S2000x1.size cc12_transform_2 reads12_2 false false 2 stage12_2 sem12_2
    hrank12 hreads12_2 hinb12_2 nbuf12_2 (Memref.isWhole_whole _) hwx12_2 hstage12_2

abbrev win12_3 : Pipeline.Window sig grid12 :=
  Pipeline.Window.ofSpec (Memref.whole main_v149) S1x256.size cc12_transform_3 reads12_3 false true 1 stage12_3 sem12_3
    hrank12 hreads12_3 hinb12_3 nbuf12_3 (Memref.isWhole_whole _) hwx12_3 hstage12_3

abbrev win12_4 : Pipeline.Window sig grid12 :=
  Pipeline.Window.ofSpec (Memref.whole main_v150_0) S2000x256.size cc12_transform_4 reads12_4 true false 2 stage12_4 sem12_4
    hrank12 hreads12_4 hinb12_4 nbuf12_4 (Memref.isWhole_whole _) hwx12_4 hstage12_4

abbrev win12_5 : Pipeline.Window sig grid12 :=
  Pipeline.Window.ofSpec (Memref.whole main_v150_1) S1x256.size cc12_transform_5 reads12_5 true true 1 stage12_5 sem12_5
    hrank12 hreads12_5 hinb12_5 nbuf12_5 (Memref.isWhole_whole _) hwx12_5 hstage12_5

abbrev win12_6 : Pipeline.Window sig grid12 :=
  Pipeline.Window.ofSpec (Memref.whole main_v150_2) S1x256.size cc12_transform_6 reads12_6 true true 1 stage12_6 sem12_6
    hrank12 hreads12_6 hinb12_6 nbuf12_6 (Memref.isWhole_whole _) hwx12_6 hstage12_6

abbrev win12 : Fin 7 → Pipeline.Window sig grid12 := fun | 0 => win12_0 | 1 => win12_1 | 2 => win12_2 | 3 => win12_3 | 4 => win12_4 | 5 => win12_5 | 6 => win12_6 | ⟨_ + 7, h⟩ => absurd h (Nat.not_lt.2 (Nat.le_add_left _ _))
abbrev spec12 : Fin 7 → Pipeline.WinSpec sig grid12.rank := fun w => (win12 w).toWinSpec

abbrev win13_0 : Pipeline.Window sig grid13 :=
  Pipeline.Window.ofSpec (Memref.whole main_v150_0) S2000x256.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v159) S1x256.size cc13_transform_1 reads13_1 false true 1 stage13_1 sem13_1
    hrank13 hreads13_1 hinb13_1 nbuf13_1 (Memref.isWhole_whole _) hwx13_1 hstage13_1

abbrev win13_2 : Pipeline.Window sig grid13 :=
  Pipeline.Window.ofSpec (Memref.whole main_v160) S1x256.size cc13_transform_2 reads13_2 false true 1 stage13_2 sem13_2
    hrank13 hreads13_2 hinb13_2 nbuf13_2 (Memref.isWhole_whole _) hwx13_2 hstage13_2

abbrev win13_3 : Pipeline.Window sig grid13 :=
  Pipeline.Window.ofSpec (Memref.whole main_v161) S1x256.size cc13_transform_3 reads13_3 false true 1 stage13_3 sem13_3
    hrank13 hreads13_3 hinb13_3 nbuf13_3 (Memref.isWhole_whole _) hwx13_3 hstage13_3

abbrev win13_4 : Pipeline.Window sig grid13 :=
  Pipeline.Window.ofSpec (Memref.whole main_v162) S1x256.size cc13_transform_4 reads13_4 false true 1 stage13_4 sem13_4
    hrank13 hreads13_4 hinb13_4 nbuf13_4 (Memref.isWhole_whole _) hwx13_4 hstage13_4

abbrev win13_5 : Pipeline.Window sig grid13 :=
  Pipeline.Window.ofSpec (Memref.whole main_v163) S2000x256.size cc13_transform_5 reads13_5 true false 2 stage13_5 sem13_5
    hrank13 hreads13_5 hinb13_5 nbuf13_5 (Memref.isWhole_whole _) hwx13_5 hstage13_5

abbrev win13 : Fin 6 → Pipeline.Window sig grid13 := fun | 0 => win13_0 | 1 => win13_1 | 2 => win13_2 | 3 => win13_3 | 4 => win13_4 | 5 => win13_5 | ⟨_ + 6, h⟩ => absurd h (Nat.not_lt.2 (Nat.le_add_left _ _))
abbrev spec13 : Fin 6 → Pipeline.WinSpec sig grid13.rank := fun w => (win13 w).toWinSpec

abbrev win14_0 : Pipeline.Window sig grid14 :=
  Pipeline.Window.ofSpec (Memref.whole main_v163) S2000x256.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_arg20) S256x64.size cc14_transform_1 reads14_1 false true 1 stage14_1 sem14_1
    hrank14 hreads14_1 hinb14_1 nbuf14_1 (Memref.isWhole_whole _) hwx14_1 hstage14_1

abbrev win14_2 : Pipeline.Window sig grid14 :=
  Pipeline.Window.ofSpec (Memref.whole main_v164) S2000x64.size cc14_transform_2 reads14_2 true false 2 stage14_2 sem14_2
    hrank14 hreads14_2 hinb14_2 nbuf14_2 (Memref.isWhole_whole _) hwx14_2 hstage14_2

abbrev win14 : Fin 3 → Pipeline.Window sig grid14 := fun | 0 => win14_0 | 1 => win14_1 | 2 => win14_2 | ⟨_ + 3, h⟩ => absurd h (Nat.not_lt.2 (Nat.le_add_left _ _))
abbrev spec14 : Fin 3 → Pipeline.WinSpec sig grid14.rank := fun w => (win14 w).toWinSpec

abbrev win15_0 : Pipeline.Window sig grid15 :=
  Pipeline.Window.ofSpec (Memref.whole main_v177) S2000x64.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_v164) S2000x64.size cc15_transform_1 reads15_1 false false 2 stage15_1 sem15_1
    hrank15 hreads15_1 hinb15_1 nbuf15_1 (Memref.isWhole_whole _) hwx15_1 hstage15_1

abbrev win15_2 : Pipeline.Window sig grid15 :=
  Pipeline.Window.ofSpec (Memref.whole main_v178) S2000x1.size cc15_transform_2 reads15_2 false false 2 stage15_2 sem15_2
    hrank15 hreads15_2 hinb15_2 nbuf15_2 (Memref.isWhole_whole _) hwx15_2 hstage15_2

abbrev win15_3 : Pipeline.Window sig grid15 :=
  Pipeline.Window.ofSpec (Memref.whole main_v179) S1x64.size cc15_transform_3 reads15_3 false true 1 stage15_3 sem15_3
    hrank15 hreads15_3 hinb15_3 nbuf15_3 (Memref.isWhole_whole _) hwx15_3 hstage15_3

abbrev win15_4 : Pipeline.Window sig grid15 :=
  Pipeline.Window.ofSpec (Memref.whole main_v180) S2000x64.size cc15_transform_4 reads15_4 true false 2 stage15_4 sem15_4
    hrank15 hreads15_4 hinb15_4 nbuf15_4 (Memref.isWhole_whole _) hwx15_4 hstage15_4

abbrev win15 : Fin 5 → Pipeline.Window sig grid15 := fun | 0 => win15_0 | 1 => win15_1 | 2 => win15_2 | 3 => win15_3 | 4 => win15_4 | ⟨_ + 5, h⟩ => absurd h (Nat.not_lt.2 (Nat.le_add_left _ _))
abbrev spec15 : Fin 5 → Pipeline.WinSpec sig grid15.rank := fun w => (win15 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S64x128 : Shape := ⟨2, ![64, 128]⟩
abbrev S128 : Shape := ⟨1, ![128]⟩
abbrev S128x256 : Shape := ⟨2, ![128, 256]⟩
abbrev S256 : Shape := ⟨1, ![256]⟩
abbrev S256x64 : Shape := ⟨2, ![256, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x128 : Shape := ⟨2, ![50000, 128]⟩
abbrev S800000x128 : Shape := ⟨2, ![800000, 128]⟩
abbrev S50000x1 : Shape := ⟨2, ![50000, 1]⟩
abbrev S1x128 : Shape := ⟨2, ![1, 128]⟩
abbrev S50000x256 : Shape := ⟨2, ![50000, 256]⟩
abbrev S800000x256 : Shape := ⟨2, ![800000, 256]⟩
abbrev S1x256 : Shape := ⟨2, ![1, 256]⟩
abbrev S800000x64 : Shape := ⟨2, ![800000, 64]⟩
abbrev S1x64 : Shape := ⟨2, ![1, 64]⟩

abbrev nBuf : Space → Nat
  | .hbm => 388
  | .vmem => 0
  | .smem => 0
  | _ => 0

abbrev hbmTy0_0 (i : Nat) : BufTy := match i % 128 with
  | 0 => ⟨S50000x64, .f32⟩
  | 1 => ⟨S2x800000, .i32⟩
  | 2 => ⟨S64x128, .f32⟩
  | 3 => ⟨S128, .f32⟩
  | 4 => ⟨S128, .f32⟩
  | 5 => ⟨S128, .f32⟩
  | 6 => ⟨S128x256, .f32⟩
  | 7 => ⟨S256, .f32⟩
  | 8 => ⟨S256, .f32⟩
  | 9 => ⟨S256, .f32⟩
  | 10 => ⟨S256x64, .f32⟩
  | 11 => ⟨S64, .f32⟩
  | 12 => ⟨S64x128, .f32⟩
  | 13 => ⟨S128, .f32⟩
  | 14 => ⟨S128, .f32⟩
  | 15 => ⟨S128, .f32⟩
  | 16 => ⟨S128x256, .f32⟩
  | 17 => ⟨S256, .f32⟩
  | 18 => ⟨S256, .f32⟩
  | 19 => ⟨S256, .f32⟩
  | 20 => ⟨S256x64, .f32⟩
  | 21 => ⟨S64, .f32⟩
  | 22 => ⟨S1x800000, .i32⟩
  | 23 => ⟨S800000, .i32⟩
  | 24 => ⟨S1x800000, .i32⟩
  | 25 => ⟨S800000, .i32⟩
  | 26 => ⟨S_, .f32⟩
  | 27 => ⟨S800000, .f32⟩
  | 28 => ⟨S_, .f32⟩
  | 29 => ⟨S50000, .f32⟩
  | 30 => ⟨S800000x1, .i32⟩
  | 31 => ⟨S50000, .f32⟩
  | 32 => ⟨S_, .f32⟩
  | 33 => ⟨S50000, .f32⟩
  | 34 => ⟨S50000, .f32⟩
  | 35 => ⟨S50000, .f32⟩
  | 36 => ⟨S_, .i32⟩
  | 37 => ⟨S800000, .i32⟩
  | 38 => ⟨S800000, .i1⟩
  | 39 => ⟨S_, .i32⟩
  | 40 => ⟨S800000, .i32⟩
  | 41 => ⟨S800000, .i32⟩
  | 42 => ⟨S800000, .i32⟩
  | 43 => ⟨S800000x1, .i32⟩
  | 44 => ⟨S800000, .f32⟩
  | 45 => ⟨S_, .i32⟩
  | 46 => ⟨S800000, .i32⟩
  | 47 => ⟨S800000, .i1⟩
  | 48 => ⟨S_, .i32⟩
  | 49 => ⟨S800000, .i32⟩
  | 50 => ⟨S800000, .i32⟩
  | 51 => ⟨S800000, .i32⟩
  | 52 => ⟨S800000x1, .i32⟩
  | 53 => ⟨S800000, .f32⟩
  | 54 => ⟨S800000, .f32⟩
  | 55 => ⟨S50000, .f32⟩
  | 56 => ⟨S50000x128, .f32⟩
  | 57 => ⟨S_, .i32⟩
  | 58 => ⟨S800000, .i32⟩
  | 59 => ⟨S800000, .i1⟩
  | 60 => ⟨S_, .i32⟩
  | 61 => ⟨S800000, .i32⟩
  | 62 => ⟨S800000, .i32⟩
  | 63 => ⟨S800000, .i32⟩
  | 64 => ⟨S800000x1, .i32⟩
  | 65 => ⟨S800000x128, .f32⟩
  | 66 => ⟨S800000x1, .f32⟩
  | 67 => ⟨S800000x128, .f32⟩
  | 68 => ⟨S800000x128, .f32⟩
  | 69 => ⟨S_, .f32⟩
  | 70 => ⟨S50000x128, .f32⟩
  | 71 => ⟨S800000x1, .i32⟩
  | 72 => ⟨S50000x128, .f32⟩
  | 73 => ⟨S50000x1, .f32⟩
  | 74 => ⟨S50000x128, .f32⟩
  | 75 => ⟨S50000x128, .f32⟩
  | 76 => ⟨S50000x128, .f32⟩
  | 77 => ⟨S1x128, .f32⟩
  | 78 => ⟨S50000x128, .f32⟩
  | 79 => ⟨S50000x128, .f32⟩
  | 80 => ⟨S_, .f32⟩
  | 81 => ⟨S128, .f32⟩
  | 82 => ⟨S_, .f32⟩
  | 83 => ⟨S128, .f32⟩
  | 84 => ⟨S128, .f32⟩
  | 85 => ⟨S_, .i32⟩
  | 86 => ⟨S_, .f32⟩
  | 87 => ⟨S128, .f32⟩
  | 88 => ⟨S1x128, .f32⟩
  | 89 => ⟨S_, .f32⟩
  | 90 => ⟨S1x128, .f32⟩
  | 91 => ⟨S1x128, .f32⟩
  | 92 => ⟨S50000x128, .f32⟩
  | 93 => ⟨S50000x128, .f32⟩
  | 94 => ⟨S50000x128, .f32⟩
  | 95 => ⟨S_, .f32⟩
  | 96 => ⟨S_, .f32⟩
  | 97 => ⟨S_, .f32⟩
  | 98 => ⟨S_, .f32⟩
  | 99 => ⟨S128, .f32⟩
  | 100 => ⟨S128, .f32⟩
  | 101 => ⟨S128, .f32⟩
  | 102 => ⟨S_, .f32⟩
  | 103 => ⟨S_, .i1⟩
  | 104 => ⟨S_, .f32⟩
  | 105 => ⟨S_, .f32⟩
  | 106 => ⟨S128, .f32⟩
  | 107 => ⟨S128, .f32⟩
  | 108 => ⟨S1x128, .f32⟩
  | 109 => ⟨S50000x128, .f32⟩
  | 110 => ⟨S50000x128, .f32⟩
  | 111 => ⟨S_, .f32⟩
  | 112 => ⟨S128, .f32⟩
  | 113 => ⟨S128, .f32⟩
  | 114 => ⟨S128, .f32⟩
  | 115 => ⟨S1x128, .f32⟩
  | 116 => ⟨S50000x128, .f32⟩
  | 117 => ⟨S50000x128, .f32⟩
  | 118 => ⟨S1x128, .f32⟩
  | 119 => ⟨S50000x128, .f32⟩
  | 120 => ⟨S50000x128, .f32⟩
  | 121 => ⟨S1x128, .f32⟩
  | 122 => ⟨S50000x128, .f32⟩
  | 123 => ⟨S50000x128, .f32⟩
  | 124 => ⟨S_, .f32⟩
  | 125 => ⟨S50000x128, .f32⟩
  | 126 => ⟨S50000x128, .f32⟩
  | 127 => ⟨S50000x256, .f32⟩
  | _ => ⟨S50000x64, .f32⟩

abbrev hbmTy0_1 (i : Nat) : BufTy := match i % 128 with
  | 0 => ⟨S_, .i32⟩
  | 1 => ⟨S800000, .i32⟩
  | 2 => ⟨S800000, .i1⟩
  | 3 => ⟨S_, .i32⟩
  | 4 => ⟨S800000, .i32⟩
  | 5 => ⟨S800000, .i32⟩
  | 6 => ⟨S800000, .i32⟩
  | 7 => ⟨S800000x1, .i32⟩
  | 8 => ⟨S800000x256, .f32⟩
  | 9 => ⟨S800000x1, .f32⟩
  | 10 => ⟨S800000x256, .f32⟩
  | 11 => ⟨S800000x256, .f32⟩
  | 12 => ⟨S_, .f32⟩
  | 13 => ⟨S50000x256, .f32⟩
  | 14 => ⟨S800000x1, .i32⟩
  | 15 => ⟨S50000x256, .f32⟩
  | 16 => ⟨S50000x1, .f32⟩
  | 17 => ⟨S50000x256, .f32⟩
  | 18 => ⟨S50000x256, .f32⟩
  | 19 => ⟨S50000x256, .f32⟩
  | 20 => ⟨S1x256, .f32⟩
  | 21 => ⟨S50000x256, .f32⟩
  | 22 => ⟨S50000x256, .f32⟩
  | 23 => ⟨S_, .f32⟩
  | 24 => ⟨S256, .f32⟩
  | 25 => ⟨S_, .f32⟩
  | 26 => ⟨S256, .f32⟩
  | 27 => ⟨S256, .f32⟩
  | 28 => ⟨S_, .i32⟩
  | 29 => ⟨S_, .f32⟩
  | 30 => ⟨S256, .f32⟩
  | 31 => ⟨S1x256, .f32⟩
  | 32 => ⟨S_, .f32⟩
  | 33 => ⟨S1x256, .f32⟩
  | 34 => ⟨S1x256, .f32⟩
  | 35 => ⟨S50000x256, .f32⟩
  | 36 => ⟨S50000x256, .f32⟩
  | 37 => ⟨S50000x256, .f32⟩
  | 38 => ⟨S_, .f32⟩
  | 39 => ⟨S_, .f32⟩
  | 40 => ⟨S_, .f32⟩
  | 41 => ⟨S_, .f32⟩
  | 42 => ⟨S256, .f32⟩
  | 43 => ⟨S256, .f32⟩
  | 44 => ⟨S256, .f32⟩
  | 45 => ⟨S_, .f32⟩
  | 46 => ⟨S_, .i1⟩
  | 47 => ⟨S_, .f32⟩
  | 48 => ⟨S_, .f32⟩
  | 49 => ⟨S256, .f32⟩
  | 50 => ⟨S256, .f32⟩
  | 51 => ⟨S1x256, .f32⟩
  | 52 => ⟨S50000x256, .f32⟩
  | 53 => ⟨S50000x256, .f32⟩
  | 54 => ⟨S_, .f32⟩
  | 55 => ⟨S256, .f32⟩
  | 56 => ⟨S256, .f32⟩
  | 57 => ⟨S256, .f32⟩
  | 58 => ⟨S1x256, .f32⟩
  | 59 => ⟨S50000x256, .f32⟩
  | 60 => ⟨S50000x256, .f32⟩
  | 61 => ⟨S1x256, .f32⟩
  | 62 => ⟨S50000x256, .f32⟩
  | 63 => ⟨S50000x256, .f32⟩
  | 64 => ⟨S1x256, .f32⟩
  | 65 => ⟨S50000x256, .f32⟩
  | 66 => ⟨S50000x256, .f32⟩
  | 67 => ⟨S_, .f32⟩
  | 68 => ⟨S50000x256, .f32⟩
  | 69 => ⟨S50000x256, .f32⟩
  | 70 => ⟨S50000x64, .f32⟩
  | 71 => ⟨S_, .i32⟩
  | 72 => ⟨S800000, .i32⟩
  | 73 => ⟨S800000, .i1⟩
  | 74 => ⟨S_, .i32⟩
  | 75 => ⟨S800000, .i32⟩
  | 76 => ⟨S800000, .i32⟩
  | 77 => ⟨S800000, .i32⟩
  | 78 => ⟨S800000x1, .i32⟩
  | 79 => ⟨S800000x64, .f32⟩
  | 80 => ⟨S800000x1, .f32⟩
  | 81 => ⟨S800000x64, .f32⟩
  | 82 => ⟨S800000x64, .f32⟩
  | 83 => ⟨S_, .f32⟩
  | 84 => ⟨S50000x64, .f32⟩
  | 85 => ⟨S800000x1, .i32⟩
  | 86 => ⟨S50000x64, .f32⟩
  | 87 => ⟨S50000x1, .f32⟩
  | 88 => ⟨S50000x64, .f32⟩
  | 89 => ⟨S50000x64, .f32⟩
  | 90 => ⟨S50000x64, .f32⟩
  | 91 => ⟨S1x64, .f32⟩
  | 92 => ⟨S50000x64, .f32⟩
  | 93 => ⟨S50000x64, .f32⟩
  | 94 => ⟨S50000x128, .f32⟩
  | 95 => ⟨S_, .i32⟩
  | 96 => ⟨S800000, .i32⟩
  | 97 => ⟨S800000, .i1⟩
  | 98 => ⟨S_, .i32⟩
  | 99 => ⟨S800000, .i32⟩
  | 100 => ⟨S800000, .i32⟩
  | 101 => ⟨S800000, .i32⟩
  | 102 => ⟨S800000x1, .i32⟩
  | 103 => ⟨S800000x128, .f32⟩
  | 104 => ⟨S800000x1, .f32⟩
  | 105 => ⟨S800000x128, .f32⟩
  | 106 => ⟨S800000x128, .f32⟩
  | 107 => ⟨S_, .f32⟩
  | 108 => ⟨S50000x128, .f32⟩
  | 109 => ⟨S800000x1, .i32⟩
  | 110 => ⟨S50000x128, .f32⟩
  | 111 => ⟨S50000x1, .f32⟩
  | 112 => ⟨S50000x128, .f32⟩
  | 113 => ⟨S50000x128, .f32⟩
  | 114 => ⟨S50000x128, .f32⟩
  | 115 => ⟨S1x128, .f32⟩
  | 116 => ⟨S50000x128, .f32⟩
  | 117 => ⟨S50000x128, .f32⟩
  | 118 => ⟨S_, .f32⟩
  | 119 => ⟨S50000x128, .f32⟩
  | 120 => ⟨S50000x128, .f32⟩
  | 121 => ⟨S_, .f32⟩
  | 122 => ⟨S128, .f32⟩
  | 123 => ⟨S_, .f32⟩
  | 124 => ⟨S128, .f32⟩
  | 125 => ⟨S128, .f32⟩
  | 126 => ⟨S_, .i32⟩
  | 127 => ⟨S_, .f32⟩
  | _ => ⟨S50000x64, .f32⟩

abbrev hbmTy0_2 (i : Nat) : BufTy := match i % 128 with
  | 0 => ⟨S128, .f32⟩
  | 1 => ⟨S1x128, .f32⟩
  | 2 => ⟨S_, .f32⟩
  | 3 => ⟨S1x128, .f32⟩
  | 4 => ⟨S1x128, .f32⟩
  | 5 => ⟨S50000x128, .f32⟩
  | 6 => ⟨S50000x128, .f32⟩
  | 7 => ⟨S50000x128, .f32⟩
  | 8 => ⟨S_, .f32⟩
  | 9 => ⟨S_, .f32⟩
  | 10 => ⟨S_, .f32⟩
  | 11 => ⟨S_, .f32⟩
  | 12 => ⟨S128, .f32⟩
  | 13 => ⟨S128, .f32⟩
  | 14 => ⟨S128, .f32⟩
  | 15 => ⟨S_, .f32⟩
  | 16 => ⟨S_, .i1⟩
  | 17 => ⟨S_, .f32⟩
  | 18 => ⟨S_, .f32⟩
  | 19 => ⟨S128, .f32⟩
  | 20 => ⟨S128, .f32⟩
  | 21 => ⟨S1x128, .f32⟩
  | 22 => ⟨S50000x128, .f32⟩
  | 23 => ⟨S50000x128, .f32⟩
  | 24 => ⟨S_, .f32⟩
  | 25 => ⟨S128, .f32⟩
  | 26 => ⟨S128, .f32⟩
  | 27 => ⟨S128, .f32⟩
  | 28 => ⟨S1x128, .f32⟩
  | 29 => ⟨S50000x128, .f32⟩
  | 30 => ⟨S50000x128, .f32⟩
  | 31 => ⟨S1x128, .f32⟩
  | 32 => ⟨S50000x128, .f32⟩
  | 33 => ⟨S50000x128, .f32⟩
  | 34 => ⟨S1x128, .f32⟩
  | 35 => ⟨S50000x128, .f32⟩
  | 36 => ⟨S50000x128, .f32⟩
  | 37 => ⟨S50000x256, .f32⟩
  | 38 => ⟨S_, .i32⟩
  | 39 => ⟨S800000, .i32⟩
  | 40 => ⟨S800000, .i1⟩
  | 41 => ⟨S_, .i32⟩
  | 42 => ⟨S800000, .i32⟩
  | 43 => ⟨S800000, .i32⟩
  | 44 => ⟨S800000, .i32⟩
  | 45 => ⟨S800000x1, .i32⟩
  | 46 => ⟨S800000x256, .f32⟩
  | 47 => ⟨S800000x1, .f32⟩
  | 48 => ⟨S800000x256, .f32⟩
  | 49 => ⟨S800000x256, .f32⟩
  | 50 => ⟨S_, .f32⟩
  | 51 => ⟨S50000x256, .f32⟩
  | 52 => ⟨S800000x1, .i32⟩
  | 53 => ⟨S50000x256, .f32⟩
  | 54 => ⟨S50000x1, .f32⟩
  | 55 => ⟨S50000x256, .f32⟩
  | 56 => ⟨S50000x256, .f32⟩
  | 57 => ⟨S50000x256, .f32⟩
  | 58 => ⟨S1x256, .f32⟩
  | 59 => ⟨S50000x256, .f32⟩
  | 60 => ⟨S50000x256, .f32⟩
  | 61 => ⟨S_, .f32⟩
  | 62 => ⟨S50000x256, .f32⟩
  | 63 => ⟨S50000x256, .f32⟩
  | 64 => ⟨S_, .f32⟩
  | 65 => ⟨S256, .f32⟩
  | 66 => ⟨S_, .f32⟩
  | 67 => ⟨S256, .f32⟩
  | 68 => ⟨S256, .f32⟩
  | 69 => ⟨S_, .i32⟩
  | 70 => ⟨S_, .f32⟩
  | 71 => ⟨S256, .f32⟩
  | 72 => ⟨S1x256, .f32⟩
  | 73 => ⟨S_, .f32⟩
  | 74 => ⟨S1x256, .f32⟩
  | 75 => ⟨S1x256, .f32⟩
  | 76 => ⟨S50000x256, .f32⟩
  | 77 => ⟨S50000x256, .f32⟩
  | 78 => ⟨S50000x256, .f32⟩
  | 79 => ⟨S_, .f32⟩
  | 80 => ⟨S_, .f32⟩
  | 81 => ⟨S_, .f32⟩
  | 82 => ⟨S_, .f32⟩
  | 83 => ⟨S256, .f32⟩
  | 84 => ⟨S256, .f32⟩
  | 85 => ⟨S256, .f32⟩
  | 86 => ⟨S_, .f32⟩
  | 87 => ⟨S_, .i1⟩
  | 88 => ⟨S_, .f32⟩
  | 89 => ⟨S_, .f32⟩
  | 90 => ⟨S256, .f32⟩
  | 91 => ⟨S256, .f32⟩
  | 92 => ⟨S1x256, .f32⟩
  | 93 => ⟨S50000x256, .f32⟩
  | 94 => ⟨S50000x256, .f32⟩
  | 95 => ⟨S_, .f32⟩
  | 96 => ⟨S256, .f32⟩
  | 97 => ⟨S256, .f32⟩
  | 98 => ⟨S256, .f32⟩
  | 99 => ⟨S1x256, .f32⟩
  | 100 => ⟨S50000x256, .f32⟩
  | 101 => ⟨S50000x256, .f32⟩
  | 102 => ⟨S1x256, .f32⟩
  | 103 => ⟨S50000x256, .f32⟩
  | 104 => ⟨S50000x256, .f32⟩
  | 105 => ⟨S1x256, .f32⟩
  | 106 => ⟨S50000x256, .f32⟩
  | 107 => ⟨S50000x256, .f32⟩
  | 108 => ⟨S50000x64, .f32⟩
  | 109 => ⟨S_, .i32⟩
  | 110 => ⟨S800000, .i32⟩
  | 111 => ⟨S800000, .i1⟩
  | 112 => ⟨S_, .i32⟩
  | 113 => ⟨S800000, .i32⟩
  | 114 => ⟨S800000, .i32⟩
  | 115 => ⟨S800000, .i32⟩
  | 116 => ⟨S800000x1, .i32⟩
  | 117 => ⟨S800000x64, .f32⟩
  | 118 => ⟨S800000x1, .f32⟩
  | 119 => ⟨S800000x64, .f32⟩
  | 120 => ⟨S800000x64, .f32⟩
  | 121 => ⟨S_, .f32⟩
  | 122 => ⟨S50000x64, .f32⟩
  | 123 => ⟨S800000x1, .i32⟩
  | 124 => ⟨S50000x64, .f32⟩
  | 125 => ⟨S50000x1, .f32⟩
  | 126 => ⟨S50000x64, .f32⟩
  | 127 => ⟨S50000x64, .f32⟩
  | _ => ⟨S50000x64, .f32⟩

abbrev hbmTy0_3 (i : Nat) : BufTy := match i % 128 with
  | 0 => ⟨S50000x64, .f32⟩
  | 1 => ⟨S1x64, .f32⟩
  | 2 => ⟨S50000x64, .f32⟩
  | 3 => ⟨S50000x64, .f32⟩
  | _ => ⟨S50000x64, .f32⟩

abbrev hbmTy (i : Nat) : BufTy := match i / 128 with
  | 0 => hbmTy0_0 i
  | 1 => hbmTy0_1 i
  | 2 => hbmTy0_2 i
  | 3 => hbmTy0_3 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_cst : Ref sig .tc := ⟨.hbm, 26, rfl⟩
abbrev main_v4 : Ref sig .tc := ⟨.hbm, 27, rfl⟩
abbrev main_cst_0 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_cst_1 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_c : Ref sig .tc := ⟨.hbm, 36, rfl⟩
abbrev main_v11 : Ref sig .tc := ⟨.hbm, 37, rfl⟩
abbrev main_v12 : Ref sig .tc := ⟨.hbm, 38, rfl⟩
abbrev main_c_2 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_c_3 : Ref sig .tc := ⟨.hbm, 45, rfl⟩
abbrev main_v18 : Ref sig .tc := ⟨.hbm, 46, rfl⟩
abbrev main_v19 : Ref sig .tc := ⟨.hbm, 47, rfl⟩
abbrev main_c_4 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_c_5 : Ref sig .tc := ⟨.hbm, 57, rfl⟩
abbrev main_v28 : Ref sig .tc := ⟨.hbm, 58, rfl⟩
abbrev main_v29 : Ref sig .tc := ⟨.hbm, 59, rfl⟩
abbrev main_c_6 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_cst_7 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_cst_8 : Ref sig .tc := ⟨.hbm, 80, rfl⟩
abbrev main_v48 : Ref sig .tc := ⟨.hbm, 81, rfl⟩
abbrev main_cst_9 : Ref sig .tc := ⟨.hbm, 82, rfl⟩
abbrev main_v49 : Ref sig .tc := ⟨.hbm, 83, rfl⟩
abbrev main_v50 : Ref sig .tc := ⟨.hbm, 84, rfl⟩
abbrev main_c_10 : Ref sig .tc := ⟨.hbm, 85, rfl⟩
abbrev main_call0_cst : Ref sig .tc := ⟨.hbm, 86, rfl⟩
abbrev main_call0_v0 : Ref sig .tc := ⟨.hbm, 87, rfl⟩
abbrev main_call0_v1 : Ref sig .tc := ⟨.hbm, 88, rfl⟩
abbrev main_call0_cst_0 : Ref sig .tc := ⟨.hbm, 89, rfl⟩
abbrev main_call0_v2 : Ref sig .tc := ⟨.hbm, 90, rfl⟩
abbrev main_call0_v3 : Ref sig .tc := ⟨.hbm, 91, rfl⟩
abbrev main_call0_v4 : Ref sig .tc := ⟨.hbm, 92, rfl⟩
abbrev main_call0_v5 : Ref sig .tc := ⟨.hbm, 93, rfl⟩
abbrev main_call0_v6 : Ref sig .tc := ⟨.hbm, 94, rfl⟩
abbrev main_call0_v7 : Ref sig .tc := ⟨.hbm, 95, rfl⟩
abbrev main_call0_cst_1 : Ref sig .tc := ⟨.hbm, 96, rfl⟩
abbrev main_call0_v8 : Ref sig .tc := ⟨.hbm, 97, rfl⟩
abbrev main_call0_cst_2 : Ref sig .tc := ⟨.hbm, 98, rfl⟩
abbrev main_call0_v9 : Ref sig .tc := ⟨.hbm, 99, rfl⟩
abbrev main_call0_v10 : Ref sig .tc := ⟨.hbm, 100, rfl⟩
abbrev main_call0_v11 : Ref sig .tc := ⟨.hbm, 101, rfl⟩
abbrev main_call0_cst_3 : Ref sig .tc := ⟨.hbm, 102, rfl⟩
abbrev main_call0_v12 : Ref sig .tc := ⟨.hbm, 103, rfl⟩
abbrev main_call0_cst_4 : Ref sig .tc := ⟨.hbm, 104, rfl⟩
abbrev main_call0_call0_v0 : Ref sig .tc := ⟨.hbm, 105, rfl⟩
abbrev main_call0_call0_v1 : Ref sig .tc := ⟨.hbm, 106, rfl⟩
abbrev main_v51 : Ref sig .tc := ⟨.hbm, 107, rfl⟩
abbrev main_v52 : Ref sig .tc := ⟨.hbm, 108, rfl⟩
abbrev main_v53 : Ref sig .tc := ⟨.hbm, 109, rfl⟩
abbrev main_v54 : Ref sig .tc := ⟨.hbm, 110, rfl⟩
abbrev main_cst_11 : Ref sig .tc := ⟨.hbm, 111, rfl⟩
abbrev main_v55 : Ref sig .tc := ⟨.hbm, 112, rfl⟩
abbrev main_v56 : Ref sig .tc := ⟨.hbm, 113, rfl⟩
abbrev main_v57 : Ref sig .tc := ⟨.hbm, 114, rfl⟩
abbrev main_v58 : Ref sig .tc := ⟨.hbm, 115, rfl⟩
abbrev main_v59 : Ref sig .tc := ⟨.hbm, 116, rfl⟩
abbrev main_v60 : Ref sig .tc := ⟨.hbm, 117, rfl⟩
abbrev main_v61 : Ref sig .tc := ⟨.hbm, 118, rfl⟩
abbrev main_v62 : Ref sig .tc := ⟨.hbm, 119, rfl⟩
abbrev main_v63 : Ref sig .tc := ⟨.hbm, 120, rfl⟩
abbrev main_v64 : Ref sig .tc := ⟨.hbm, 121, rfl⟩
abbrev main_v65 : Ref sig .tc := ⟨.hbm, 122, rfl⟩
abbrev main_v66 : Ref sig .tc := ⟨.hbm, 123, rfl⟩
abbrev main_call1_cst : Ref sig .tc := ⟨.hbm, 124, rfl⟩
abbrev main_call1_v0 : Ref sig .tc := ⟨.hbm, 125, rfl⟩
abbrev main_v67 : Ref sig .tc := ⟨.hbm, 126, rfl⟩
abbrev main_v68 : Ref sig .tc := ⟨.hbm, 127, rfl⟩
abbrev main_c_12 : Ref sig .tc := ⟨.hbm, 128, rfl⟩
abbrev main_v69 : Ref sig .tc := ⟨.hbm, 129, rfl⟩
abbrev main_v70 : Ref sig .tc := ⟨.hbm, 130, rfl⟩
abbrev main_c_13 : Ref sig .tc := ⟨.hbm, 131, rfl⟩
abbrev main_v71 : Ref sig .tc := ⟨.hbm, 132, rfl⟩
abbrev main_v72 : Ref sig .tc := ⟨.hbm, 133, rfl⟩
abbrev main_v73 : Ref sig .tc := ⟨.hbm, 134, rfl⟩
abbrev main_v74 : Ref sig .tc := ⟨.hbm, 135, rfl⟩
abbrev main_v75 : Ref sig .tc := ⟨.hbm, 136, rfl⟩
abbrev main_v76 : Ref sig .tc := ⟨.hbm, 137, rfl⟩
abbrev main_v77 : Ref sig .tc := ⟨.hbm, 138, rfl⟩
abbrev main_v78 : Ref sig .tc := ⟨.hbm, 139, rfl⟩
abbrev main_cst_14 : Ref sig .tc := ⟨.hbm, 140, rfl⟩
abbrev main_v79 : Ref sig .tc := ⟨.hbm, 141, rfl⟩
abbrev main_v80 : Ref sig .tc := ⟨.hbm, 142, rfl⟩
abbrev main_v81 : Ref sig .tc := ⟨.hbm, 143, rfl⟩
abbrev main_v82 : Ref sig .tc := ⟨.hbm, 144, rfl⟩
abbrev main_v83 : Ref sig .tc := ⟨.hbm, 145, rfl⟩
abbrev main_v84 : Ref sig .tc := ⟨.hbm, 146, rfl⟩
abbrev main_v85 : Ref sig .tc := ⟨.hbm, 147, rfl⟩
abbrev main_v86 : Ref sig .tc := ⟨.hbm, 148, rfl⟩
abbrev main_v87 : Ref sig .tc := ⟨.hbm, 149, rfl⟩
abbrev main_v88 : Ref sig .tc := ⟨.hbm, 150, rfl⟩
abbrev main_cst_15 : Ref sig .tc := ⟨.hbm, 151, rfl⟩
abbrev main_v89 : Ref sig .tc := ⟨.hbm, 152, rfl⟩
abbrev main_cst_16 : Ref sig .tc := ⟨.hbm, 153, rfl⟩
abbrev main_v90 : Ref sig .tc := ⟨.hbm, 154, rfl⟩
abbrev main_v91 : Ref sig .tc := ⟨.hbm, 155, rfl⟩
abbrev main_c_17 : Ref sig .tc := ⟨.hbm, 156, rfl⟩
abbrev main_call2_cst : Ref sig .tc := ⟨.hbm, 157, rfl⟩
abbrev main_call2_v0 : Ref sig .tc := ⟨.hbm, 158, rfl⟩
abbrev main_call2_v1 : Ref sig .tc := ⟨.hbm, 159, rfl⟩
abbrev main_call2_cst_0 : Ref sig .tc := ⟨.hbm, 160, rfl⟩
abbrev main_call2_v2 : Ref sig .tc := ⟨.hbm, 161, rfl⟩
abbrev main_call2_v3 : Ref sig .tc := ⟨.hbm, 162, rfl⟩
abbrev main_call2_v4 : Ref sig .tc := ⟨.hbm, 163, rfl⟩
abbrev main_call2_v5 : Ref sig .tc := ⟨.hbm, 164, rfl⟩
abbrev main_call2_v6 : Ref sig .tc := ⟨.hbm, 165, rfl⟩
abbrev main_call2_v7 : Ref sig .tc := ⟨.hbm, 166, rfl⟩
abbrev main_call2_cst_1 : Ref sig .tc := ⟨.hbm, 167, rfl⟩
abbrev main_call2_v8 : Ref sig .tc := ⟨.hbm, 168, rfl⟩
abbrev main_call2_cst_2 : Ref sig .tc := ⟨.hbm, 169, rfl⟩
abbrev main_call2_v9 : Ref sig .tc := ⟨.hbm, 170, rfl⟩
abbrev main_call2_v10 : Ref sig .tc := ⟨.hbm, 171, rfl⟩
abbrev main_call2_v11 : Ref sig .tc := ⟨.hbm, 172, rfl⟩
abbrev main_call2_cst_3 : Ref sig .tc := ⟨.hbm, 173, rfl⟩
abbrev main_call2_v12 : Ref sig .tc := ⟨.hbm, 174, rfl⟩
abbrev main_call2_cst_4 : Ref sig .tc := ⟨.hbm, 175, rfl⟩
abbrev main_call2_call0_v0 : Ref sig .tc := ⟨.hbm, 176, rfl⟩
abbrev main_call2_call0_v1 : Ref sig .tc := ⟨.hbm, 177, rfl⟩
abbrev main_v92 : Ref sig .tc := ⟨.hbm, 178, rfl⟩
abbrev main_v93 : Ref sig .tc := ⟨.hbm, 179, rfl⟩
abbrev main_v94 : Ref sig .tc := ⟨.hbm, 180, rfl⟩
abbrev main_v95 : Ref sig .tc := ⟨.hbm, 181, rfl⟩
abbrev main_cst_18 : Ref sig .tc := ⟨.hbm, 182, rfl⟩
abbrev main_v96 : Ref sig .tc := ⟨.hbm, 183, rfl⟩
abbrev main_v97 : Ref sig .tc := ⟨.hbm, 184, rfl⟩
abbrev main_v98 : Ref sig .tc := ⟨.hbm, 185, rfl⟩
abbrev main_v99 : Ref sig .tc := ⟨.hbm, 186, rfl⟩
abbrev main_v100 : Ref sig .tc := ⟨.hbm, 187, rfl⟩
abbrev main_v101 : Ref sig .tc := ⟨.hbm, 188, rfl⟩
abbrev main_v102 : Ref sig .tc := ⟨.hbm, 189, rfl⟩
abbrev main_v103 : Ref sig .tc := ⟨.hbm, 190, rfl⟩
abbrev main_v104 : Ref sig .tc := ⟨.hbm, 191, rfl⟩
abbrev main_v105 : Ref sig .tc := ⟨.hbm, 192, rfl⟩
abbrev main_v106 : Ref sig .tc := ⟨.hbm, 193, rfl⟩
abbrev main_v107 : Ref sig .tc := ⟨.hbm, 194, rfl⟩
abbrev main_call3_cst : Ref sig .tc := ⟨.hbm, 195, rfl⟩
abbrev main_call3_v0 : Ref sig .tc := ⟨.hbm, 196, rfl⟩
abbrev main_v108 : Ref sig .tc := ⟨.hbm, 197, rfl⟩
abbrev main_v109 : Ref sig .tc := ⟨.hbm, 198, rfl⟩
abbrev main_c_19 : Ref sig .tc := ⟨.hbm, 199, rfl⟩
abbrev main_v110 : Ref sig .tc := ⟨.hbm, 200, rfl⟩
abbrev main_v111 : Ref sig .tc := ⟨.hbm, 201, rfl⟩
abbrev main_c_20 : Ref sig .tc := ⟨.hbm, 202, rfl⟩
abbrev main_v112 : Ref sig .tc := ⟨.hbm, 203, rfl⟩
abbrev main_v113 : Ref sig .tc := ⟨.hbm, 204, rfl⟩
abbrev main_v114 : Ref sig .tc := ⟨.hbm, 205, rfl⟩
abbrev main_v115 : Ref sig .tc := ⟨.hbm, 206, rfl⟩
abbrev main_v116 : Ref sig .tc := ⟨.hbm, 207, rfl⟩
abbrev main_v117 : Ref sig .tc := ⟨.hbm, 208, rfl⟩
abbrev main_v118 : Ref sig .tc := ⟨.hbm, 209, rfl⟩
abbrev main_v119 : Ref sig .tc := ⟨.hbm, 210, rfl⟩
abbrev main_cst_21 : Ref sig .tc := ⟨.hbm, 211, rfl⟩
abbrev main_v120 : Ref sig .tc := ⟨.hbm, 212, rfl⟩
abbrev main_v121 : Ref sig .tc := ⟨.hbm, 213, rfl⟩
abbrev main_v122 : Ref sig .tc := ⟨.hbm, 214, rfl⟩
abbrev main_v123 : Ref sig .tc := ⟨.hbm, 215, rfl⟩
abbrev main_v124 : Ref sig .tc := ⟨.hbm, 216, rfl⟩
abbrev main_v125 : Ref sig .tc := ⟨.hbm, 217, rfl⟩
abbrev main_v126 : Ref sig .tc := ⟨.hbm, 218, rfl⟩
abbrev main_v127 : Ref sig .tc := ⟨.hbm, 219, rfl⟩
abbrev main_v128 : Ref sig .tc := ⟨.hbm, 220, rfl⟩
abbrev main_v129 : Ref sig .tc := ⟨.hbm, 221, rfl⟩
abbrev main_v130 : Ref sig .tc := ⟨.hbm, 222, rfl⟩
abbrev main_c_22 : Ref sig .tc := ⟨.hbm, 223, rfl⟩
abbrev main_v131 : Ref sig .tc := ⟨.hbm, 224, rfl⟩
abbrev main_v132 : Ref sig .tc := ⟨.hbm, 225, rfl⟩
abbrev main_c_23 : Ref sig .tc := ⟨.hbm, 226, rfl⟩
abbrev main_v133 : Ref sig .tc := ⟨.hbm, 227, rfl⟩
abbrev main_v134 : Ref sig .tc := ⟨.hbm, 228, rfl⟩
abbrev main_v135 : Ref sig .tc := ⟨.hbm, 229, rfl⟩
abbrev main_v136 : Ref sig .tc := ⟨.hbm, 230, rfl⟩
abbrev main_v137 : Ref sig .tc := ⟨.hbm, 231, rfl⟩
abbrev main_v138 : Ref sig .tc := ⟨.hbm, 232, rfl⟩
abbrev main_v139 : Ref sig .tc := ⟨.hbm, 233, rfl⟩
abbrev main_v140 : Ref sig .tc := ⟨.hbm, 234, rfl⟩
abbrev main_cst_24 : Ref sig .tc := ⟨.hbm, 235, rfl⟩
abbrev main_v141 : Ref sig .tc := ⟨.hbm, 236, rfl⟩
abbrev main_v142 : Ref sig .tc := ⟨.hbm, 237, rfl⟩
abbrev main_v143 : Ref sig .tc := ⟨.hbm, 238, rfl⟩
abbrev main_v144 : Ref sig .tc := ⟨.hbm, 239, rfl⟩
abbrev main_v145 : Ref sig .tc := ⟨.hbm, 240, rfl⟩
abbrev main_v146 : Ref sig .tc := ⟨.hbm, 241, rfl⟩
abbrev main_v147 : Ref sig .tc := ⟨.hbm, 242, rfl⟩
abbrev main_v148 : Ref sig .tc := ⟨.hbm, 243, rfl⟩
abbrev main_v149 : Ref sig .tc := ⟨.hbm, 244, rfl⟩
abbrev main_v150 : Ref sig .tc := ⟨.hbm, 245, rfl⟩
abbrev main_call4_cst : Ref sig .tc := ⟨.hbm, 246, rfl⟩
abbrev main_call4_v0 : Ref sig .tc := ⟨.hbm, 247, rfl⟩
abbrev main_v151 : Ref sig .tc := ⟨.hbm, 248, rfl⟩
abbrev main_cst_25 : Ref sig .tc := ⟨.hbm, 249, rfl⟩
abbrev main_v152 : Ref sig .tc := ⟨.hbm, 250, rfl⟩
abbrev main_cst_26 : Ref sig .tc := ⟨.hbm, 251, rfl⟩
abbrev main_v153 : Ref sig .tc := ⟨.hbm, 252, rfl⟩
abbrev main_v154 : Ref sig .tc := ⟨.hbm, 253, rfl⟩
abbrev main_c_27 : Ref sig .tc := ⟨.hbm, 254, rfl⟩
abbrev main_call5_cst : Ref sig .tc := ⟨.hbm, 255, rfl⟩
abbrev main_call5_v0 : Ref sig .tc := ⟨.hbm, 256, rfl⟩
abbrev main_call5_v1 : Ref sig .tc := ⟨.hbm, 257, rfl⟩
abbrev main_call5_cst_0 : Ref sig .tc := ⟨.hbm, 258, rfl⟩
abbrev main_call5_v2 : Ref sig .tc := ⟨.hbm, 259, rfl⟩
abbrev main_call5_v3 : Ref sig .tc := ⟨.hbm, 260, rfl⟩
abbrev main_call5_v4 : Ref sig .tc := ⟨.hbm, 261, rfl⟩
abbrev main_call5_v5 : Ref sig .tc := ⟨.hbm, 262, rfl⟩
abbrev main_call5_v6 : Ref sig .tc := ⟨.hbm, 263, rfl⟩
abbrev main_call5_v7 : Ref sig .tc := ⟨.hbm, 264, rfl⟩
abbrev main_call5_cst_1 : Ref sig .tc := ⟨.hbm, 265, rfl⟩
abbrev main_call5_v8 : Ref sig .tc := ⟨.hbm, 266, rfl⟩
abbrev main_call5_cst_2 : Ref sig .tc := ⟨.hbm, 267, rfl⟩
abbrev main_call5_v9 : Ref sig .tc := ⟨.hbm, 268, rfl⟩
abbrev main_call5_v10 : Ref sig .tc := ⟨.hbm, 269, rfl⟩
abbrev main_call5_v11 : Ref sig .tc := ⟨.hbm, 270, rfl⟩
abbrev main_call5_cst_3 : Ref sig .tc := ⟨.hbm, 271, rfl⟩
abbrev main_call5_v12 : Ref sig .tc := ⟨.hbm, 272, rfl⟩
abbrev main_call5_cst_4 : Ref sig .tc := ⟨.hbm, 273, rfl⟩
abbrev main_call5_call0_v0 : Ref sig .tc := ⟨.hbm, 274, rfl⟩
abbrev main_call5_call0_v1 : Ref sig .tc := ⟨.hbm, 275, rfl⟩
abbrev main_v155 : Ref sig .tc := ⟨.hbm, 276, rfl⟩
abbrev main_v156 : Ref sig .tc := ⟨.hbm, 277, rfl⟩
abbrev main_v157 : Ref sig .tc := ⟨.hbm, 278, rfl⟩
abbrev main_v158 : Ref sig .tc := ⟨.hbm, 279, rfl⟩
abbrev main_cst_28 : Ref sig .tc := ⟨.hbm, 280, rfl⟩
abbrev main_v159 : Ref sig .tc := ⟨.hbm, 281, rfl⟩
abbrev main_v160 : Ref sig .tc := ⟨.hbm, 282, rfl⟩
abbrev main_v161 : Ref sig .tc := ⟨.hbm, 283, rfl⟩
abbrev main_v162 : Ref sig .tc := ⟨.hbm, 284, rfl⟩
abbrev main_v163 : Ref sig .tc := ⟨.hbm, 285, rfl⟩
abbrev main_v164 : Ref sig .tc := ⟨.hbm, 286, rfl⟩
abbrev main_v165 : Ref sig .tc := ⟨.hbm, 287, rfl⟩
abbrev main_v166 : Ref sig .tc := ⟨.hbm, 288, rfl⟩
abbrev main_v167 : Ref sig .tc := ⟨.hbm, 289, rfl⟩
abbrev main_v168 : Ref sig .tc := ⟨.hbm, 290, rfl⟩
abbrev main_v169 : Ref sig .tc := ⟨.hbm, 291, rfl⟩
abbrev main_v170 : Ref sig .tc := ⟨.hbm, 292, rfl⟩
abbrev main_v171 : Ref sig .tc := ⟨.hbm, 293, rfl⟩
abbrev main_c_29 : Ref sig .tc := ⟨.hbm, 294, rfl⟩
abbrev main_v172 : Ref sig .tc := ⟨.hbm, 295, rfl⟩
abbrev main_v173 : Ref sig .tc := ⟨.hbm, 296, rfl⟩
abbrev main_c_30 : Ref sig .tc := ⟨.hbm, 297, rfl⟩
abbrev main_v174 : Ref sig .tc := ⟨.hbm, 298, rfl⟩
abbrev main_v175 : Ref sig .tc := ⟨.hbm, 299, rfl⟩
abbrev main_v176 : Ref sig .tc := ⟨.hbm, 300, rfl⟩
abbrev main_v177 : Ref sig .tc := ⟨.hbm, 301, rfl⟩
abbrev main_v178 : Ref sig .tc := ⟨.hbm, 302, rfl⟩
abbrev main_v179 : Ref sig .tc := ⟨.hbm, 303, rfl⟩
abbrev main_v180 : Ref sig .tc := ⟨.hbm, 304, rfl⟩
abbrev main_v181 : Ref sig .tc := ⟨.hbm, 305, rfl⟩
abbrev main_cst_31 : Ref sig .tc := ⟨.hbm, 306, rfl⟩
abbrev main_v182 : Ref sig .tc := ⟨.hbm, 307, rfl⟩
abbrev main_v183 : Ref sig .tc := ⟨.hbm, 308, rfl⟩
abbrev main_v184 : Ref sig .tc := ⟨.hbm, 309, rfl⟩
abbrev main_v185 : Ref sig .tc := ⟨.hbm, 310, rfl⟩
abbrev main_v186 : Ref sig .tc := ⟨.hbm, 311, rfl⟩
abbrev main_v187 : Ref sig .tc := ⟨.hbm, 312, rfl⟩
abbrev main_v188 : Ref sig .tc := ⟨.hbm, 313, rfl⟩
abbrev main_v189 : Ref sig .tc := ⟨.hbm, 314, rfl⟩
abbrev main_v190 : Ref sig .tc := ⟨.hbm, 315, rfl⟩
abbrev main_v191 : Ref sig .tc := ⟨.hbm, 316, rfl⟩
abbrev main_call6_cst : Ref sig .tc := ⟨.hbm, 317, rfl⟩
abbrev main_call6_v0 : Ref sig .tc := ⟨.hbm, 318, rfl⟩
abbrev main_v192 : Ref sig .tc := ⟨.hbm, 319, rfl⟩
abbrev main_cst_32 : Ref sig .tc := ⟨.hbm, 320, rfl⟩
abbrev main_v193 : Ref sig .tc := ⟨.hbm, 321, rfl⟩
abbrev main_cst_33 : Ref sig .tc := ⟨.hbm, 322, rfl⟩
abbrev main_v194 : Ref sig .tc := ⟨.hbm, 323, rfl⟩
abbrev main_v195 : Ref sig .tc := ⟨.hbm, 324, rfl⟩
abbrev main_c_34 : Ref sig .tc := ⟨.hbm, 325, rfl⟩
abbrev main_call7_cst : Ref sig .tc := ⟨.hbm, 326, rfl⟩
abbrev main_call7_v0 : Ref sig .tc := ⟨.hbm, 327, rfl⟩
abbrev main_call7_v1 : Ref sig .tc := ⟨.hbm, 328, rfl⟩
abbrev main_call7_cst_0 : Ref sig .tc := ⟨.hbm, 329, rfl⟩
abbrev main_call7_v2 : Ref sig .tc := ⟨.hbm, 330, rfl⟩
abbrev main_call7_v3 : Ref sig .tc := ⟨.hbm, 331, rfl⟩
abbrev main_call7_v4 : Ref sig .tc := ⟨.hbm, 332, rfl⟩
abbrev main_call7_v5 : Ref sig .tc := ⟨.hbm, 333, rfl⟩
abbrev main_call7_v6 : Ref sig .tc := ⟨.hbm, 334, rfl⟩
abbrev main_call7_v7 : Ref sig .tc := ⟨.hbm, 335, rfl⟩
abbrev main_call7_cst_1 : Ref sig .tc := ⟨.hbm, 336, rfl⟩
abbrev main_call7_v8 : Ref sig .tc := ⟨.hbm, 337, rfl⟩
abbrev main_call7_cst_2 : Ref sig .tc := ⟨.hbm, 338, rfl⟩
abbrev main_call7_v9 : Ref sig .tc := ⟨.hbm, 339, rfl⟩
abbrev main_call7_v10 : Ref sig .tc := ⟨.hbm, 340, rfl⟩
abbrev main_call7_v11 : Ref sig .tc := ⟨.hbm, 341, rfl⟩
abbrev main_call7_cst_3 : Ref sig .tc := ⟨.hbm, 342, rfl⟩
abbrev main_call7_v12 : Ref sig .tc := ⟨.hbm, 343, rfl⟩
abbrev main_call7_cst_4 : Ref sig .tc := ⟨.hbm, 344, rfl⟩
abbrev main_call7_call0_v0 : Ref sig .tc := ⟨.hbm, 345, rfl⟩
abbrev main_call7_call0_v1 : Ref sig .tc := ⟨.hbm, 346, rfl⟩
abbrev main_v196 : Ref sig .tc := ⟨.hbm, 347, rfl⟩
abbrev main_v197 : Ref sig .tc := ⟨.hbm, 348, rfl⟩
abbrev main_v198 : Ref sig .tc := ⟨.hbm, 349, rfl⟩
abbrev main_v199 : Ref sig .tc := ⟨.hbm, 350, rfl⟩
abbrev main_cst_35 : Ref sig .tc := ⟨.hbm, 351, rfl⟩
abbrev main_v200 : Ref sig .tc := ⟨.hbm, 352, rfl⟩
abbrev main_v201 : Ref sig .tc := ⟨.hbm, 353, rfl⟩
abbrev main_v202 : Ref sig .tc := ⟨.hbm, 354, rfl⟩
abbrev main_v203 : Ref sig .tc := ⟨.hbm, 355, rfl⟩
abbrev main_v204 : Ref sig .tc := ⟨.hbm, 356, rfl⟩
abbrev main_v205 : Ref sig .tc := ⟨.hbm, 357, rfl⟩
abbrev main_v206 : Ref sig .tc := ⟨.hbm, 358, rfl⟩
abbrev main_v207 : Ref sig .tc := ⟨.hbm, 359, rfl⟩
abbrev main_v208 : Ref sig .tc := ⟨.hbm, 360, rfl⟩
abbrev main_v209 : Ref sig .tc := ⟨.hbm, 361, rfl⟩
abbrev main_v210 : Ref sig .tc := ⟨.hbm, 362, rfl⟩
abbrev main_v211 : Ref sig .tc := ⟨.hbm, 363, rfl⟩
abbrev main_v212 : Ref sig .tc := ⟨.hbm, 364, rfl⟩
abbrev main_c_36 : Ref sig .tc := ⟨.hbm, 365, rfl⟩
abbrev main_v213 : Ref sig .tc := ⟨.hbm, 366, rfl⟩
abbrev main_v214 : Ref sig .tc := ⟨.hbm, 367, rfl⟩
abbrev main_c_37 : Ref sig .tc := ⟨.hbm, 368, rfl⟩
abbrev main_v215 : Ref sig .tc := ⟨.hbm, 369, rfl⟩
abbrev main_v216 : Ref sig .tc := ⟨.hbm, 370, rfl⟩
abbrev main_v217 : Ref sig .tc := ⟨.hbm, 371, rfl⟩
abbrev main_v218 : Ref sig .tc := ⟨.hbm, 372, rfl⟩
abbrev main_v219 : Ref sig .tc := ⟨.hbm, 373, rfl⟩
abbrev main_v220 : Ref sig .tc := ⟨.hbm, 374, rfl⟩
abbrev main_v221 : Ref sig .tc := ⟨.hbm, 375, rfl⟩
abbrev main_v222 : Ref sig .tc := ⟨.hbm, 376, rfl⟩
abbrev main_cst_38 : Ref sig .tc := ⟨.hbm, 377, rfl⟩
abbrev main_v223 : Ref sig .tc := ⟨.hbm, 378, rfl⟩
abbrev main_v224 : Ref sig .tc := ⟨.hbm, 379, rfl⟩
abbrev main_v225 : Ref sig .tc := ⟨.hbm, 380, rfl⟩
abbrev main_v226 : Ref sig .tc := ⟨.hbm, 381, rfl⟩
abbrev main_v227 : Ref sig .tc := ⟨.hbm, 382, rfl⟩
abbrev main_v228 : Ref sig .tc := ⟨.hbm, 383, rfl⟩
abbrev main_v229 : Ref sig .tc := ⟨.hbm, 384, rfl⟩
abbrev main_v230 : Ref sig .tc := ⟨.hbm, 385, rfl⟩
abbrev main_v231 : Ref sig .tc := ⟨.hbm, 386, rfl⟩
abbrev main_v232 : Ref sig .tc := ⟨.hbm, 387, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  reducesTo_S50000x256_S256_d0 : S50000x256.ReducesTo [0] S256
  bcast_S_S256 : S_.BroadcastsInDim S256 (![] : Fin 0 → Fin S256.rank)
  bcast_S_S1x256 : S_.BroadcastsInDim S1x256 (![] : Fin 0 → Fin S1x256.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S50000x64_S64x128_S50000x128_1_0_0_1_n_n_wf : DotDims.WF S50000x64 S64x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x64_S50000x64_1_0_0_1_n_n_wf : DotDims.WF S50000x256 S256x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.KRun.lean ====
/-
  The kernel program's run, with every buffer named: from any launch memory with zero counters, every
  weakly fair execution of @main terminates without a fault, and each unscoped buffer of each core ends at
  the contents the fold of @main's segments gives it (host stretches applied in order, each region's arrays
  at what its write-backs leave).  The frame claim and the value claim both read off this.
-/
import proofs.«106426_j33148557590872_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one
set_option backward.isDefEq.respectTransparency.types false in
/-- Every unscoped buffer of every core ends at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W27 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W27 m ρ c b)
    (hfin := fun c s' => by
      iintro ⟨⟨Hh, -⟩, HSI⟩
      unfold StableHlo.held
      imodintro
      iapply (pointsTo_read_all (Pipeline.ucRefs τ sig) (fun b => (((c : Thread nD τ)).1, b)) (W27 m ρ c) s')
      isplitl [Hh] <;> iassumption)
    (hQ := fun s h => h)

end Cert.KernelIdeal.KRun

end
-- ==== Proof.GcnSpec.lean ====
/-
  The mathematics of a two-branch graph-convolution encoder, as functions of arrays of extended reals.
  A node array is an [n, d] array; rows and columns of parameters are plain functions of a coordinate.
  One convolution layer is: a matrix product x · W; the messages W-transformed rows gathered along the
  edges' sources, each scaled by its edge weight, summed into the edges' destinations; plus the node's own
  row scaled by its self-loop weight; plus a bias row.  A batch normalisation subtracts the column mean,
  scales by the reciprocal square root of (column variance + ε), then applies a per-column scale and shift.
  The gather along sources and the sum into destinations are parameters here (any two functions): nothing
  below depends on what they are.
-/
import Idealize.ShloMosaic.PureOps.Ideal
import Idealize.ShloMosaic.Lib.ValueIdx

noncomputable section

namespace Cert.Gcn

open Idealize.ShloMosaic Idealize.ShloMosaic.ValueIdx

/-- An [a, b] array of extended reals. -/
abbrev Mat (a b : Nat) : Type := (⟨2, ![a, b]⟩ : Shape).Idx → EReal

/-- The matrix product: entry (p, q) is the sum over k of x (p, k) · w (k, q). -/
def mm {n a b : Nat} (x : Mat n a) (w : Mat a b) : Mat n b :=
  fun j => ∑ k : Fin a, x (ix2 (j 0) k) * w (ix2 k (j 1))

theorem mm_ix2 {n a b : Nat} (x : Mat n a) (w : Mat a b) (p : Fin n) (q : Fin b) :
    mm x w (ix2 p q) = ∑ k : Fin a, x (ix2 p k) * w (ix2 k q) := rfl

/-- Aggregated messages, plus the node's own row times its self-loop weight, plus the bias row. -/
def combine {n d : Nat} (agg xw : Mat n d) (ns : Fin n → EReal) (b : Fin d → EReal) : Mat n d :=
  fun j => (agg j + xw j * ns (j 0)) + b (j 1)

theorem combine_ix2 {n d : Nat} (agg xw : Mat n d) (ns : Fin n → EReal) (b : Fin d → EReal) (p : Fin n) (q : Fin d) :
    combine agg xw ns b (ix2 p q) = (agg (ix2 p q) + xw (ix2 p q) * ns p) + b q := rfl

/-- The positive part, entry by entry. -/
def relu {n d : Nat} (v : Mat n d) : Mat n d := fun j => max (v j) 0

theorem relu_apply {n d : Nat} (v : Mat n d) (j : (⟨2, ![n, d]⟩ : Shape).Idx) : relu v j = max (v j) 0 := rfl

/-- The sum of each column. -/
def colsum {n d : Nat} (v : Mat n d) : Fin d → EReal := fun q => ∑ p : Fin n, v (ix2 p q)

/-- The sum of the squares of each column. -/
def colsumsq {n d : Nat} (v : Mat n d) : Fin d → EReal := fun q => ∑ p : Fin n, v (ix2 p q) * v (ix2 p q)

/-- Batch normalisation with given column statistics: ((x − mean) · rsqrt (var + ε)) · g + be. -/
def bn {n d : Nat} (x : Mat n d) (mean var g be : Fin d → EReal) (eps : EReal) : Mat n d :=
  fun j => ((x j - mean (j 1)) * Ideal.rsqrt (var (j 1) + eps)) * g (j 1) + be (j 1)

theorem bn_ix2 {n d : Nat} (x : Mat n d) (mean var g be : Fin d → EReal) (eps : EReal) (p : Fin n) (q : Fin d) :
    bn x mean var g be eps (ix2 p q) = ((x (ix2 p q) - mean q) * Ideal.rsqrt (var q + eps)) * g q + be q := rfl

/-- The column mean: the column sum divided by the count c. -/
def mean {n d : Nat} (v : Mat n d) (c : EReal) : Fin d → EReal := fun q => Ideal.div (colsum v q) c

/-- The column variance as mean of squares minus squared mean. -/
def varSq {n d : Nat} (v : Mat n d) (c : EReal) : Fin d → EReal :=
  fun q => Ideal.div (colsumsq v q) c - mean v c q * mean v c q

/-- The column variance as mean of squared deviations from the mean. -/
def varDev {n d : Nat} (v : Mat n d) (c : EReal) : Fin d → EReal :=
  fun q => Ideal.div (∑ p : Fin n, (v (ix2 p q) - mean v c q) * (v (ix2 p q) - mean v c q)) c

/-- The messages summed into their destinations: `sct` of (the gathered rows, each times its edge weight). -/
def aggregate {n e d : Nat} (gth : Mat n d → Mat e d) (sct : Mat e d → Mat n d) (ne : Fin e → EReal)
    (xw : Mat n d) : Mat n d :=
  sct (fun k => gth xw k * ne (k 0))

/-- One convolution layer on already transformed rows xw = x · W. -/
def conv {n e d : Nat} (gth : Mat n d → Mat e d) (sct : Mat e d → Mat n d) (ne : Fin e → EReal)
    (ns : Fin n → EReal) (xw : Mat n d) (b : Fin d → EReal) : Mat n d :=
  combine (aggregate gth sct ne xw) xw ns b

/-- The graph side of the network: the gather along the edges' sources and the sum into the edges'
    destinations at each of the three widths, the edge weights and the self-loop weights. -/
structure Graph (n e : Nat) where
  g128 : Mat n 128 → Mat e 128
  s128 : Mat e 128 → Mat n 128
  g256 : Mat n 256 → Mat e 256
  s256 : Mat e 256 → Mat n 256
  g64 : Mat n 64 → Mat e 64
  s64 : Mat e 64 → Mat n 64
  ne : Fin e → EReal
  ns : Fin n → EReal

/-- A layer "convolution, batch normalisation, positive part", the column variance computed by `var`. -/
def layerBnRelu {n e d : Nat} (gth : Mat n d → Mat e d) (sct : Mat e d → Mat n d) (ne : Fin e → EReal)
    (ns : Fin n → EReal) (var : Mat n d → EReal → Fin d → EReal) (c eps : EReal)
    (xw : Mat n d) (b g be : Fin d → EReal) : Mat n d :=
  relu (bn (conv gth sct ne ns xw b) (mean (conv gth sct ne ns xw b) c) (var (conv gth sct ne ns xw b) c) g be eps)

/-- A layer "convolution, positive part, batch normalisation", the column variance computed by `var`. -/
def layerReluBn {n e d : Nat} (gth : Mat n d → Mat e d) (sct : Mat e d → Mat n d) (ne : Fin e → EReal)
    (ns : Fin n → EReal) (var : Mat n d → EReal → Fin d → EReal) (c eps : EReal)
    (xw : Mat n d) (b g be : Fin d → EReal) : Mat n d :=
  bn (relu (conv gth sct ne ns xw b)) (mean (relu (conv gth sct ne ns xw b)) c)
    (var (relu (conv gth sct ne ns xw b)) c) g be eps

/-- The first encoder: two "normalise, then positive part" layers of widths 128 and 256 and a plain
    convolution of width 64. `V d` computes a column variance at width d; `c` is the row count as a value,
    `eps` the normalisation's ε. -/
def encMu {n e : Nat} (G : Graph n e) (V : (d : Nat) → Mat n d → EReal → Fin d → EReal) (c eps : EReal)
    (x : Mat n 64) (w1 : Mat 64 128) (b1 g1 be1 : Fin 128 → EReal)
    (w2 : Mat 128 256) (b2 g2 be2 : Fin 256 → EReal) (w3 : Mat 256 64) (b3 : Fin 64 → EReal) : Mat n 64 :=
  conv G.g64 G.s64 G.ne G.ns
    (mm (layerBnRelu G.g256 G.s256 G.ne G.ns (V 256) c eps
          (mm (layerBnRelu G.g128 G.s128 G.ne G.ns (V 128) c eps (mm x w1) b1 g1 be1) w2) b2 g2 be2) w3) b3

/-- The second encoder: the same with "positive part, then normalise" layers. -/
def encLog {n e : Nat} (G : Graph n e) (V : (d : Nat) → Mat n d → EReal → Fin d → EReal) (c eps : EReal)
    (x : Mat n 64) (w1 : Mat 64 128) (b1 g1 be1 : Fin 128 → EReal)
    (w2 : Mat 128 256) (b2 g2 be2 : Fin 256 → EReal) (w3 : Mat 256 64) (b3 : Fin 64 → EReal) : Mat n 64 :=
  conv G.g64 G.s64 G.ne G.ns
    (mm (layerReluBn G.g256 G.s256 G.ne G.ns (V 256) c eps
          (mm (layerReluBn G.g128 G.s128 G.ne G.ns (V 128) c eps (mm x w1) b1 g1 be1) w2) b2 g2 be2) w3) b3

end Cert.Gcn

end
-- ==== Proof.LibColumn.lean ====
/-
  Layout facts about columns and rows, independent of any program.

  A column is an array of shape [a, 1]. Broadcasting it to [a, b] repeats each row's single entry across the b
  positions of that row, so the entry at (p, c) is the column's entry at row p. Casting a vector of shape [a] to the
  column shape [a, 1] keeps the row-major order, so the entry at (i, 0) is the vector's entry at i.

  The host spells the same repetitions with an explicit map from the operand's axes to the result's axes: a vector
  [b] placed on axis 1 of [1, b] is read at its own position; a vector [a] placed on axis 0 of [a, 1] likewise; a row
  [1, b] or a column [a, 1] repeated to [a, b] is read at the one row, or the one column, it has; a scalar repeated to
  any shape is read at its one entry.
-/
import Idealize.ShloMosaic.Lib.ValueIdx
import Idealize.ShloMosaic.Lib.Pipeline.Value

noncomputable section

namespace Cert.Lib

open Idealize.ShloMosaic Idealize.ShloMosaic.ValueIdx

variable {α : Type}

/-- A column [a, 1] broadcast to [a, b] reads, at (p, c), the column's entry at row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector [a] cast to the column shape [a, 1] reads, at (i, u), the vector's entry at i. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A vector [b] placed on axis 1 of [1, b] reads, at (u, q), the vector's entry at q. -/
theorem broadcastInDim_b_1b_apply {b : ℕ} (x : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h x (ix2 u q) = x (ix1 q) := by
  refine broadcastInDim_apply ![1] h x (ix2 u q) (ix1 q) fun ax => ?_
  match ax with
  | ⟨0, _⟩ =>
    show q.val = if b = 1 then 0 else q.val
    split
    · have := q.isLt; omega
    · rfl

/-- A vector [a] placed on axis 0 of [a, 1] reads, at (p, u), the vector's entry at p. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply ![0] h x (ix2 p u) (ix1 p) fun ax => ?_
  match ax with
  | ⟨0, _⟩ =>
    show p.val = if a = 1 then 0 else p.val
    split
    · have := p.isLt; omega
    · rfl

/-- A row [1, b] repeated to [a, b], axes kept in place, reads at (p, q) the row's entry at q. -/
theorem broadcastInDim_1b_ab_apply {a b : ℕ} (x : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h x (ix2 p q) = x (ix2 (0 : Fin 1) q) := by
  refine broadcastInDim_apply ![0, 1] h x (ix2 p q) (ix2 (0 : Fin 1) q) fun ax => ?_
  match ax with
  | ⟨0, _⟩ => rfl
  | ⟨1, _⟩ =>
    show q.val = if b = 1 then 0 else q.val
    split
    · have := q.isLt; omega
    · rfl

/-- A column [a, 1] repeated to [a, b], axes kept in place, reads at (p, q) the column's entry at p. -/
theorem broadcastInDim_a1_ab_apply {a b : ℕ} (x : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h x (ix2 p q) = x (ix2 p (0 : Fin 1)) := by
  refine broadcastInDim_apply ![0, 1] h x (ix2 p q) (ix2 p (0 : Fin 1)) fun ax => ?_
  match ax with
  | ⟨0, _⟩ =>
    show p.val = if a = 1 then 0 else p.val
    split
    · have := p.isLt; omega
    · rfl
  | ⟨1, _⟩ => rfl

/-- A scalar repeated to any shape reads, everywhere, its one entry. -/
theorem broadcastInDim_scalar_apply {s : Shape} (x : (⟨0, ![]⟩ : Shape).Idx → α)
    (h : (⟨0, ![]⟩ : Shape).BroadcastsInDim s ![]) (i : s.Idx) :
    broadcastInDim s ![] h x i = x ix0 :=
  broadcastInDim_apply ![] h x i ix0 fun ax => ax.elim0

end Cert.Lib

end
-- ==== Proof.KStageMsg.lean ====
/-
  The kernel program's host stretches between its regions, read as functions of the buffers they start from.
  A message stretch gathers the transformed rows along the edges' sources, scales each by its edge weight and
  sums them into the edges' destinations (the aggregate of GcnSpec), and lays the self-loop weights out as a
  column and the bias as a row.  A statistics stretch divides the column sums by the row count (the mean),
  forms mean of squares minus squared mean (the variance), and lays the four parameter rows out.
-/
import proofs.«106426_j33148557590872_1_alg».proof.Proof.Gen.KernelIdeal.Launch
import proofs.«106426_j33148557590872_1_alg».proof.Proof.GcnSpec
import proofs.«106426_j33148557590872_1_alg».proof.Proof.LibColumn
import Idealize.ShloMosaic.Lib.StableHlo.Run
import Idealize.ShloMosaic.Lib.ValueLayout
import Idealize.ShloMosaic.Lib.ValueIdx

set_option maxRecDepth 16384

noncomputable section

namespace Cert.KernelIdeal.KStage

open Cert.KernelIdeal Cert.KernelIdeal.Gen
open Idealize.ShloMosaic Idealize.ShloMosaic.TcCoe Idealize.ShloMosaic.StableHlo Idealize.ShloMosaic.ValueIdx
open Cert.Gcn Cert.Lib

/-- The edges' sources as gather start indices: a negative index counts from the end. -/
def srcIdx (v1 : IVec S800000 32) : IVec S800000x1 32 :=
  broadcastInDim S800000x1 ![0] bcast_S800000_S800000x1_0
    (select (cmpi .slt v1 (broadcastInDim S800000 ![] bcast_S_S800000 (constantI S_ 32 0#32)))
      (addi v1 (broadcastInDim S800000 ![] bcast_S_S800000 (constantI S_ 32 50000#32))) v1)

/-- The edges' destinations as scatter indices. -/
def dstIdx (v3 : IVec S800000 32) : IVec S800000x1 32 :=
  broadcastInDim S800000x1 ![0] bcast_S800000_S800000x1_0 v3

/-- Rows gathered along the sources, width 128. -/
def g128 (v1 : IVec S800000 32) : Mat 50000 128 → Mat 800000 128 :=
  fun xw => Host.gather gather_S50000x128_S800000x1_S800000x128_1_0_n_n_0_1_1128 xw (srcIdx v1)

/-- Rows summed into the destinations, width 128, from zero. -/
def s128 (v3 : IVec S800000 32) : Mat 800000 128 → Mat 50000 128 :=
  fun u => Host.scatterAdd (F := Ideal) scatter_S50000x128_S800000x1_S800000x128_1_0_0_1
    (broadcastInDim S50000x128 ![] bcast_S_S50000x128 (constant (F := Ideal) S_ .f32 0x00000000#32)) (dstIdx v3) u

/-- Rows gathered along the sources, width 256. -/
def g256 (v1 : IVec S800000 32) : Mat 50000 256 → Mat 800000 256 :=
  fun xw => Host.gather gather_S50000x256_S800000x1_S800000x256_1_0_n_n_0_1_1256 xw (srcIdx v1)

/-- Rows summed into the destinations, width 256, from zero. -/
def s256 (v3 : IVec S800000 32) : Mat 800000 256 → Mat 50000 256 :=
  fun u => Host.scatterAdd (F := Ideal) scatter_S50000x256_S800000x1_S800000x256_1_0_0_1
    (broadcastInDim S50000x256 ![] bcast_S_S50000x256 (constant (F := Ideal) S_ .f32 0x00000000#32)) (dstIdx v3) u

/-- Rows gathered along the sources, width 64. -/
def g64 (v1 : IVec S800000 32) : Mat 50000 64 → Mat 800000 64 :=
  fun xw => Host.gather gather_S50000x64_S800000x1_S800000x64_1_0_n_n_0_1_164 xw (srcIdx v1)

/-- Rows summed into the destinations, width 64, from zero. -/
def s64 (v3 : IVec S800000 32) : Mat 800000 64 → Mat 50000 64 :=
  fun u => Host.scatterAdd (F := Ideal) scatter_S50000x64_S800000x1_S800000x64_1_0_0_1
    (broadcastInDim S50000x64 ![] bcast_S_S50000x64 (constant (F := Ideal) S_ .f32 0x00000000#32)) (dstIdx v3) u

/-- The graph side of the kernel program, from the four buffers its first host stretch leaves: the sources,
    the destinations, the edge weights and the self-loop weights. -/
def kgraph (v1 v3 : IVec S800000 32) (v25 : S800000.Idx → EReal) (v26 : S50000.Idx → EReal) : Graph 50000 800000 where
  g128 := g128 v1
  s128 := s128 v3
  g256 := g256 v1
  s256 := s256 v3
  g64 := g64 v1
  s64 := s64 v3
  ne := fun k => v25 (ix1 k)
  ns := fun p => v26 (ix1 p)

/-- Host stretch 1: the aggregated messages of the rows in main_v27. -/
theorem msg1 (W : Valuation τ sig (Elt Ideal)) :
    (StableHlo.after (hostOps1 (F := Ideal)) W (Proc.devRef .tc main_v40) : Mat 50000 128)
      = aggregate (g128 (W (Proc.devRef .tc main_v1))) (s128 (W (Proc.devRef .tc main_v3)))
          (fun k => (W (Proc.devRef .tc main_v25) : S800000.Idx → EReal) (ix1 k)) (W (Proc.devRef .tc main_v27)) := by
  after_results_simp
  unfold aggregate g128 s128 srcIdx dstIdx
  congr 1
  funext k
  obtain ⟨e, q, rfl⟩ : ∃ (e : Fin 800000) (q : Fin 128), k = ix2 e q := ⟨k 0, k 1, eq_ix2 k⟩
  rw [mulf_apply, broadcastInDim_a1_ab_apply, broadcastInDim_a_a1_apply]

/-- Host stretch 1: the self-loop weights laid out as a column. -/
theorem msg1_ns (W : Valuation τ sig (Elt Ideal)) (p : Fin 50000) :
    (StableHlo.after (hostOps1 (F := Ideal)) W (Proc.devRef .tc main_v41) : Mat 50000 1) (ix2 p 0)
      = (W (Proc.devRef .tc main_v26) : S50000.Idx → EReal) (ix1 p) := by
  after_results_simp
  exact shapeCast_a_a1_apply _ _ p 0

/-- Host stretch 1: the bias laid out as a row. -/
theorem msg1_b (W : Valuation τ sig (Elt Ideal)) (q : Fin 128) :
    (StableHlo.after (hostOps1 (F := Ideal)) W (Proc.devRef .tc main_v42) : Mat 1 128) (ix2 0 q)
      = (W (Proc.devRef .tc main_arg3) : S128.Idx → EReal) (ix1 q) := by
  after_results_simp
  exact shapeCast_a_1a_apply _ _ 0 q

/-- Host stretch 4: the aggregated messages of the rows in main_v57. -/
theorem msg4 (W : Valuation τ sig (Elt Ideal)) :
    (StableHlo.after (hostOps4 (F := Ideal)) W (Proc.devRef .tc main_v70) : Mat 50000 256)
      = aggregate (g256 (W (Proc.devRef .tc main_v1))) (s256 (W (Proc.devRef .tc main_v3)))
          (fun k => (W (Proc.devRef .tc main_v25) : S800000.Idx → EReal) (ix1 k)) (W (Proc.devRef .tc main_v57)) := by
  after_results_simp
  unfold aggregate g256 s256 srcIdx dstIdx
  congr 1
  funext k
  obtain ⟨e, q, rfl⟩ : ∃ (e : Fin 800000) (q : Fin 256), k = ix2 e q := ⟨k 0, k 1, eq_ix2 k⟩
  rw [mulf_apply, broadcastInDim_a1_ab_apply, broadcastInDim_a_a1_apply]

/-- Host stretch 4: the self-loop weights laid out as a column. -/
theorem msg4_ns (W : Valuation τ sig (Elt Ideal)) (p : Fin 50000) :
    (StableHlo.after (hostOps4 (F := Ideal)) W (Proc.devRef .tc main_v71) : Mat 50000 1) (ix2 p 0)
      = (W (Proc.devRef .tc main_v26) : S50000.Idx → EReal) (ix1 p) := by
  after_results_simp
  exact shapeCast_a_a1_apply _ _ p 0

/-- Host stretch 4: the bias laid out as a row. -/
theorem msg4_b (W : Valuation τ sig (Elt Ideal)) (q : Fin 256) :
    (StableHlo.after (hostOps4 (F := Ideal)) W (Proc.devRef .tc main_v72) : Mat 1 256) (ix2 0 q)
      = (W (Proc.devRef .tc main_arg7) : S256.Idx → EReal) (ix1 q) := by
  after_results_simp
  exact shapeCast_a_1a_apply _ _ 0 q

/-- Host stretch 7: the aggregated messages of the rows in main_v87. -/
theorem msg7 (W : Valuation τ sig (Elt Ideal)) :
    (StableHlo.after (hostOps7 (F := Ideal)) W (Proc.devRef .tc main_v100) : Mat 50000 64)
      = aggregate (g64 (W (Proc.devRef .tc main_v1))) (s64 (W (Proc.devRef .tc main_v3)))
          (fun k => (W (Proc.devRef .tc main_v25) : S800000.Idx → EReal) (ix1 k)) (W (Proc.devRef .tc main_v87)) := by
  after_results_simp
  unfold aggregate g64 s64 srcIdx dstIdx
  congr 1
  funext k
  obtain ⟨e, q, rfl⟩ : ∃ (e : Fin 800000) (q : Fin 64), k = ix2 e q := ⟨k 0, k 1, eq_ix2 k⟩
  rw [mulf_apply, broadcastInDim_a1_ab_apply, broadcastInDim_a_a1_apply]

/-- Host stretch 7: the self-loop weights laid out as a column. -/
theorem msg7_ns (W : Valuation τ sig (Elt Ideal)) (p : Fin 50000) :
    (StableHlo.after (hostOps7 (F := Ideal)) W (Proc.devRef .tc main_v101) : Mat 50000 1) (ix2 p 0)
      = (W (Proc.devRef .tc main_v26) : S50000.Idx → EReal) (ix1 p) := by
  after_results_simp
  exact shapeCast_a_a1_apply _ _ p 0

/-- Host stretch 7: the bias laid out as a row. -/
theorem msg7_b (W : Valuation τ sig (Elt Ideal)) (q : Fin 64) :
    (StableHlo.after (hostOps7 (F := Ideal)) W (Proc.devRef .tc main_v102) : Mat 1 64) (ix2 0 q)
      = (W (Proc.devRef .tc main_arg11) : S64.Idx → EReal) (ix1 q) := by
  after_results_simp
  exact shapeCast_a_1a_apply _ _ 0 q

/-- Host stretch 9: the aggregated messages of the rows in main_v104. -/
theorem msg9 (W : Valuation τ sig (Elt Ideal)) :
    (StableHlo.after (hostOps9 (F := Ideal)) W (Proc.devRef .tc main_v117) : Mat 50000 128)
      = aggregate (g128 (W (Proc.devRef .tc main_v1))) (s128 (W (Proc.devRef .tc main_v3)))
          (fun k => (W (Proc.devRef .tc main_v25) : S800000.Idx → EReal) (ix1 k)) (W (Proc.devRef .tc main_v104)) := by
  after_results_simp
  unfold aggregate g128 s128 srcIdx dstIdx
  congr 1
  funext k
  obtain ⟨e, q, rfl⟩ : ∃ (e : Fin 800000) (q : Fin 128), k = ix2 e q := ⟨k 0, k 1, eq_ix2 k⟩
  rw [mulf_apply, broadcastInDim_a1_ab_apply, broadcastInDim_a_a1_apply]

/-- Host stretch 9: the self-loop weights laid out as a column. -/
theorem msg9_ns (W : Valuation τ sig (Elt Ideal)) (p : Fin 50000) :
    (StableHlo.after (hostOps9 (F := Ideal)) W (Proc.devRef .tc main_v118) : Mat 50000 1) (ix2 p 0)
      = (W (Proc.devRef .tc main_v26) : S50000.Idx → EReal) (ix1 p) := by
  after_results_simp
  exact shapeCast_a_a1_apply _ _ p 0

/-- Host stretch 9: the bias laid out as a row. -/
theorem msg9_b (W : Valuation τ sig (Elt Ideal)) (q : Fin 128) :
    (StableHlo.after (hostOps9 (F := Ideal)) W (Proc.devRef .tc main_v119) : Mat 1 128) (ix2 0 q)
      = (W (Proc.devRef .tc main_arg13) : S128.Idx → EReal) (ix1 q) := by
  after_results_simp
  exact shapeCast_a_1a_apply _ _ 0 q

/-- Host stretch 12: the aggregated messages of the rows in main_v134. -/
theorem msg12 (W : Valuation τ sig (Elt Ideal)) :
    (StableHlo.after (hostOps12 (F := Ideal)) W (Proc.devRef .tc main_v147) : Mat 50000 256)
      = aggregate (g256 (W (Proc.devRef .tc main_v1))) (s256 (W (Proc.devRef .tc main_v3)))
          (fun k => (W (Proc.devRef .tc main_v25) : S800000.Idx → EReal) (ix1 k)) (W (Proc.devRef .tc main_v134)) := by
  after_results_simp
  unfold aggregate g256 s256 srcIdx dstIdx
  congr 1
  funext k
  obtain ⟨e, q, rfl⟩ : ∃ (e : Fin 800000) (q : Fin 256), k = ix2 e q := ⟨k 0, k 1, eq_ix2 k⟩
  rw [mulf_apply, broadcastInDim_a1_ab_apply, broadcastInDim_a_a1_apply]

/-- Host stretch 12: the self-loop weights laid out as a column. -/
theorem msg12_ns (W : Valuation τ sig (Elt Ideal)) (p : Fin 50000) :
    (StableHlo.after (hostOps12 (F := Ideal)) W (Proc.devRef .tc main_v148) : Mat 50000 1) (ix2 p 0)
      = (W (Proc.devRef .tc main_v26) : S50000.Idx → EReal) (ix1 p) := by
  after_results_simp
  exact shapeCast_a_a1_apply _ _ p 0

/-- Host stretch 12: the bias laid out as a row. -/
theorem msg12_b (W : Valuation τ sig (Elt Ideal)) (q : Fin 256) :
    (StableHlo.after (hostOps12 (F := Ideal)) W (Proc.devRef .tc main_v149) : Mat 1 256) (ix2 0 q)
      = (W (Proc.devRef .tc main_arg17) : S256.Idx → EReal) (ix1 q) := by
  after_results_simp
  exact shapeCast_a_1a_apply _ _ 0 q

/-- Host stretch 15: the aggregated messages of the rows in main_v164. -/
theorem msg15 (W : Valuation τ sig (Elt Ideal)) :
    (StableHlo.after (hostOps15 (F := Ideal)) W (Proc.devRef .tc main_v177) : Mat 50000 64)
      = aggregate (g64 (W (Proc.devRef .tc main_v1))) (s64 (W (Proc.devRef .tc main_v3)))
          (fun k => (W (Proc.devRef .tc main_v25) : S800000.Idx → EReal) (ix1 k)) (W (Proc.devRef .tc main_v164)) := by
  after_results_simp
  unfold aggregate g64 s64 srcIdx dstIdx
  congr 1
  funext k
  obtain ⟨e, q, rfl⟩ : ∃ (e : Fin 800000) (q : Fin 64), k = ix2 e q := ⟨k 0, k 1, eq_ix2 k⟩
  rw [mulf_apply, broadcastInDim_a1_ab_apply, broadcastInDim_a_a1_apply]

/-- Host stretch 15: the self-loop weights laid out as a column. -/
theorem msg15_ns (W : Valuation τ sig (Elt Ideal)) (p : Fin 50000) :
    (StableHlo.after (hostOps15 (F := Ideal)) W (Proc.devRef .tc main_v178) : Mat 50000 1) (ix2 p 0)
      = (W (Proc.devRef .tc main_v26) : S50000.Idx → EReal) (ix1 p) := by
  after_results_simp
  exact shapeCast_a_a1_apply _ _ p 0

/-- Host stretch 15: the bias laid out as a row. -/
theorem msg15_b (W : Valuation τ sig (Elt Ideal)) (q : Fin 64) :
    (StableHlo.after (hostOps15 (F := Ideal)) W (Proc.devRef .tc main_v179) : Mat 1 64) (ix2 0 q)
      = (W (Proc.devRef .tc main_arg21) : S64.Idx → EReal) (ix1 q) := by
  after_results_simp
  exact shapeCast_a_1a_apply _ _ 0 q

end Cert.KernelIdeal.KStage

end
-- ==== Proof.KStageStat.lean ====
/-
  The kernel program's host stretches between its regions, read as functions of the buffers they start from.
  A message stretch gathers the transformed rows along the edges' sources, scales each by its edge weight and
  sums them into the edges' destinations (the aggregate of GcnSpec), and lays the self-loop weights out as a
  column and the bias as a row.  A statistics stretch divides the column sums by the row count (the mean),
  forms mean of squares minus squared mean (the variance), and lays the four parameter rows out.
-/
import proofs.«106426_j33148557590872_1_alg».proof.Proof.Gen.KernelIdeal.Launch
import proofs.«106426_j33148557590872_1_alg».proof.Proof.GcnSpec
import proofs.«106426_j33148557590872_1_alg».proof.Proof.LibColumn
import Idealize.ShloMosaic.Lib.StableHlo.Run
import Idealize.ShloMosaic.Lib.ValueLayout
import Idealize.ShloMosaic.Lib.ValueIdx

set_option maxRecDepth 16384

noncomputable section

namespace Cert.KernelIdeal.KStageStat

open Cert.KernelIdeal Cert.KernelIdeal.Gen
open Idealize.ShloMosaic Idealize.ShloMosaic.TcCoe Idealize.ShloMosaic.StableHlo Idealize.ShloMosaic.ValueIdx
open Cert.Gcn Cert.Lib

/-- Host stretch 2: the column mean. -/
theorem stat2_mean (W : Valuation τ sig (Elt Ideal)) (q : Fin 128) :
    (StableHlo.after (hostOps2 (F := Ideal)) W (Proc.devRef .tc main_v52) : Mat 1 128) (ix2 0 q)
      = Ideal.div ((W (Proc.devRef .tc main_v43_1) : Mat 1 128) (ix2 0 q)) (Ideal.ofBits .f32 0x47435000#32) := by
  after_results_simp
  refine (shapeCast_a_1a_apply _ _ 0 q).trans ?_
  exact congrArg₂ Ideal.div (shapeCast_1a_a_apply _ _ q) ((broadcastInDim_scalar_apply _ _ _).trans rfl)

/-- Host stretch 2: the column variance, mean of squares minus squared mean. -/
theorem stat2_var (W : Valuation τ sig (Elt Ideal)) (q : Fin 128) :
    (StableHlo.after (hostOps2 (F := Ideal)) W (Proc.devRef .tc main_v53) : Mat 1 128) (ix2 0 q)
      = Ideal.div ((W (Proc.devRef .tc main_v43_2) : Mat 1 128) (ix2 0 q)) (Ideal.ofBits .f32 0x47435000#32)
        - Ideal.div ((W (Proc.devRef .tc main_v43_1) : Mat 1 128) (ix2 0 q)) (Ideal.ofBits .f32 0x47435000#32)
          * Ideal.div ((W (Proc.devRef .tc main_v43_1) : Mat 1 128) (ix2 0 q)) (Ideal.ofBits .f32 0x47435000#32) := by
  after_results_simp
  refine (shapeCast_a_1a_apply _ _ 0 q).trans ?_
  have e1 : ∀ (x : Mat 1 128), Host.divf (F := Ideal) (fun i => shapeCast S128 x shapeCasts_S1x128_S128 i)
      (broadcastInDim S128 ![] bcast_S_S128 (constant S_ .f32 0x47435000#32)) (ix1 q)
        = Ideal.div (x (ix2 0 q)) (Ideal.ofBits .f32 0x47435000#32) := fun x =>
    congrArg₂ Ideal.div (shapeCast_1a_a_apply _ _ q) ((broadcastInDim_scalar_apply _ _ _).trans rfl)
  rw [subf_apply, mulf_apply]
  exact congrArg₂ (· - ·) (e1 _) (congrArg₂ (· * ·) (e1 _) (e1 _))

/-- Host stretch 2: the scale laid out as a row. -/
theorem stat2_g (W : Valuation τ sig (Elt Ideal)) (q : Fin 128) :
    (StableHlo.after (hostOps2 (F := Ideal)) W (Proc.devRef .tc main_v54) : Mat 1 128) (ix2 0 q)
      = (W (Proc.devRef .tc main_arg4) : S128.Idx → EReal) (ix1 q) := by
  after_results_simp
  exact shapeCast_a_1a_apply _ _ 0 q

/-- Host stretch 2: the shift laid out as a row. -/
theorem stat2_be (W : Valuation τ sig (Elt Ideal)) (q : Fin 128) :
    (StableHlo.after (hostOps2 (F := Ideal)) W (Proc.devRef .tc main_v55) : Mat 1 128) (ix2 0 q)
      = (W (Proc.devRef .tc main_arg5) : S128.Idx → EReal) (ix1 q) := by
  after_results_simp
  exact shapeCast_a_1a_apply _ _ 0 q

/-- Host stretch 5: the column mean. -/
theorem stat5_mean (W : Valuation τ sig (Elt Ideal)) (q : Fin 256) :
    (StableHlo.after (hostOps5 (F := Ideal)) W (Proc.devRef .tc main_v82) : Mat 1 256) (ix2 0 q)
      = Ideal.div ((W (Proc.devRef .tc main_v73_1) : Mat 1 256) (ix2 0 q)) (Ideal.ofBits .f32 0x47435000#32) := by
  after_results_simp
  refine (shapeCast_a_1a_apply _ _ 0 q).trans ?_
  exact congrArg₂ Ideal.div (shapeCast_1a_a_apply _ _ q) ((broadcastInDim_scalar_apply _ _ _).trans rfl)

/-- Host stretch 5: the column variance, mean of squares minus squared mean. -/
theorem stat5_var (W : Valuation τ sig (Elt Ideal)) (q : Fin 256) :
    (StableHlo.after (hostOps5 (F := Ideal)) W (Proc.devRef .tc main_v83) : Mat 1 256) (ix2 0 q)
      = Ideal.div ((W (Proc.devRef .tc main_v73_2) : Mat 1 256) (ix2 0 q)) (Ideal.ofBits .f32 0x47435000#32)
        - Ideal.div ((W (Proc.devRef .tc main_v73_1) : Mat 1 256) (ix2 0 q)) (Ideal.ofBits .f32 0x47435000#32)
          * Ideal.div ((W (Proc.devRef .tc main_v73_1) : Mat 1 256) (ix2 0 q)) (Ideal.ofBits .f32 0x47435000#32) := by
  after_results_simp
  refine (shapeCast_a_1a_apply _ _ 0 q).trans ?_
  have e1 : ∀ (x : Mat 1 256), Host.divf (F := Ideal) (fun i => shapeCast S256 x shapeCasts_S1x256_S256 i)
      (broadcastInDim S256 ![] bcast_S_S256 (constant S_ .f32 0x47435000#32)) (ix1 q)
        = Ideal.div (x (ix2 0 q)) (Ideal.ofBits .f32 0x47435000#32) := fun x =>
    congrArg₂ Ideal.div (shapeCast_1a_a_apply _ _ q) ((broadcastInDim_scalar_apply _ _ _).trans rfl)
  rw [subf_apply, mulf_apply]
  exact congrArg₂ (· - ·) (e1 _) (congrArg₂ (· * ·) (e1 _) (e1 _))

/-- Host stretch 5: the scale laid out as a row. -/
theorem stat5_g (W : Valuation τ sig (Elt Ideal)) (q : Fin 256) :
    (StableHlo.after (hostOps5 (F := Ideal)) W (Proc.devRef .tc main_v84) : Mat 1 256) (ix2 0 q)
      = (W (Proc.devRef .tc main_arg8) : S256.Idx → EReal) (ix1 q) := by
  after_results_simp
  exact shapeCast_a_1a_apply _ _ 0 q

/-- Host stretch 5: the shift laid out as a row. -/
theorem stat5_be (W : Valuation τ sig (Elt Ideal)) (q : Fin 256) :
    (StableHlo.after (hostOps5 (F := Ideal)) W (Proc.devRef .tc main_v85) : Mat 1 256) (ix2 0 q)
      = (W (Proc.devRef .tc main_arg9) : S256.Idx → EReal) (ix1 q) := by
  after_results_simp
  exact shapeCast_a_1a_apply _ _ 0 q

/-- Host stretch 10: the column mean. -/
theorem stat10_mean (W : Valuation τ sig (Elt Ideal)) (q : Fin 128) :
    (StableHlo.after (hostOps10 (F := Ideal)) W (Proc.devRef .tc main_v129) : Mat 1 128) (ix2 0 q)
      = Ideal.div ((W (Proc.devRef .tc main_v120_1) : Mat 1 128) (ix2 0 q)) (Ideal.ofBits .f32 0x47435000#32) := by
  after_results_simp
  refine (shapeCast_a_1a_apply _ _ 0 q).trans ?_
  exact congrArg₂ Ideal.div (shapeCast_1a_a_apply _ _ q) ((broadcastInDim_scalar_apply _ _ _).trans rfl)

/-- Host stretch 10: the column variance, mean of squares minus squared mean. -/
theorem stat10_var (W : Valuation τ sig (Elt Ideal)) (q : Fin 128) :
    (StableHlo.after (hostOps10 (F := Ideal)) W (Proc.devRef .tc main_v130) : Mat 1 128) (ix2 0 q)
      = Ideal.div ((W (Proc.devRef .tc main_v120_2) : Mat 1 128) (ix2 0 q)) (Ideal.ofBits .f32 0x47435000#32)
        - Ideal.div ((W (Proc.devRef .tc main_v120_1) : Mat 1 128) (ix2 0 q)) (Ideal.ofBits .f32 0x47435000#32)
          * Ideal.div ((W (Proc.devRef .tc main_v120_1) : Mat 1 128) (ix2 0 q)) (Ideal.ofBits .f32 0x47435000#32) := by
  after_results_simp
  refine (shapeCast_a_1a_apply _ _ 0 q).trans ?_
  have e1 : ∀ (x : Mat 1 128), Host.divf (F := Ideal) (fun i => shapeCast S128 x shapeCasts_S1x128_S128 i)
      (broadcastInDim S128 ![] bcast_S_S128 (constant S_ .f32 0x47435000#32)) (ix1 q)
        = Ideal.div (x (ix2 0 q)) (Ideal.ofBits .f32 0x47435000#32) := fun x =>
    congrArg₂ Ideal.div (shapeCast_1a_a_apply _ _ q) ((broadcastInDim_scalar_apply _ _ _).trans rfl)
  rw [subf_apply, mulf_apply]
  exact congrArg₂ (· - ·) (e1 _) (congrArg₂ (· * ·) (e1 _) (e1 _))

/-- Host stretch 10: the scale laid out as a row. -/
theorem stat10_g (W : Valuation τ sig (Elt Ideal)) (q : Fin 128) :
    (StableHlo.after (hostOps10 (F := Ideal)) W (Proc.devRef .tc main_v131) : Mat 1 128) (ix2 0 q)
      = (W (Proc.devRef .tc main_arg14) : S128.Idx → EReal) (ix1 q) := by
  after_results_simp
  exact shapeCast_a_1a_apply _ _ 0 q

/-- Host stretch 10: the shift laid out as a row. -/
theorem stat10_be (W : Valuation τ sig (Elt Ideal)) (q : Fin 128) :
    (StableHlo.after (hostOps10 (F := Ideal)) W (Proc.devRef .tc main_v132) : Mat 1 128) (ix2 0 q)
      = (W (Proc.devRef .tc main_arg15) : S128.Idx → EReal) (ix1 q) := by
  after_results_simp
  exact shapeCast_a_1a_apply _ _ 0 q

/-- Host stretch 13: the column mean. -/
theorem stat13_mean (W : Valuation τ sig (Elt Ideal)) (q : Fin 256) :
    (StableHlo.after (hostOps13 (F := Ideal)) W (Proc.devRef .tc main_v159) : Mat 1 256) (ix2 0 q)
      = Ideal.div ((W (Proc.devRef .tc main_v150_1) : Mat 1 256) (ix2 0 q)) (Ideal.ofBits .f32 0x47435000#32) := by
  after_results_simp
  refine (shapeCast_a_1a_apply _ _ 0 q).trans ?_
  exact congrArg₂ Ideal.div (shapeCast_1a_a_apply _ _ q) ((broadcastInDim_scalar_apply _ _ _).trans rfl)

/-- Host stretch 13: the column variance, mean of squares minus squared mean. -/
theorem stat13_var (W : Valuation τ sig (Elt Ideal)) (q : Fin 256) :
    (StableHlo.after (hostOps13 (F := Ideal)) W (Proc.devRef .tc main_v160) : Mat 1 256) (ix2 0 q)
      = Ideal.div ((W (Proc.devRef .tc main_v150_2) : Mat 1 256) (ix2 0 q)) (Ideal.ofBits .f32 0x47435000#32)
        - Ideal.div ((W (Proc.devRef .tc main_v150_1) : Mat 1 256) (ix2 0 q)) (Ideal.ofBits .f32 0x47435000#32)
          * Ideal.div ((W (Proc.devRef .tc main_v150_1) : Mat 1 256) (ix2 0 q)) (Ideal.ofBits .f32 0x47435000#32) := by
  after_results_simp
  refine (shapeCast_a_1a_apply _ _ 0 q).trans ?_
  have e1 : ∀ (x : Mat 1 256), Host.divf (F := Ideal) (fun i => shapeCast S256 x shapeCasts_S1x256_S256 i)
      (broadcastInDim S256 ![] bcast_S_S256 (constant S_ .f32 0x47435000#32)) (ix1 q)
        = Ideal.div (x (ix2 0 q)) (Ideal.ofBits .f32 0x47435000#32) := fun x =>
    congrArg₂ Ideal.div (shapeCast_1a_a_apply _ _ q) ((broadcastInDim_scalar_apply _ _ _).trans rfl)
  rw [subf_apply, mulf_apply]
  exact congrArg₂ (· - ·) (e1 _) (congrArg₂ (· * ·) (e1 _) (e1 _))

/-- Host stretch 13: the scale laid out as a row. -/
theorem stat13_g (W : Valuation τ sig (Elt Ideal)) (q : Fin 256) :
    (StableHlo.after (hostOps13 (F := Ideal)) W (Proc.devRef .tc main_v161) : Mat 1 256) (ix2 0 q)
      = (W (Proc.devRef .tc main_arg18) : S256.Idx → EReal) (ix1 q) := by
  after_results_simp
  exact shapeCast_a_1a_apply _ _ 0 q

/-- Host stretch 13: the shift laid out as a row. -/
theorem stat13_be (W : Valuation τ sig (Elt Ideal)) (q : Fin 256) :
    (StableHlo.after (hostOps13 (F := Ideal)) W (Proc.devRef .tc main_v162) : Mat 1 256) (ix2 0 q)
      = (W (Proc.devRef .tc main_arg19) : S256.Idx → EReal) (ix1 q) := by
  after_results_simp
  exact shapeCast_a_1a_apply _ _ 0 q

end Cert.KernelIdeal.KStageStat

end
-- ==== Proof.Keep0.lean ====
/-
  Buffers a host stretch does not write keep their contents across it.
-/
import proofs.«106426_j33148557590872_1_alg».proof.Proof.Gen.KernelIdeal.Launch
import Idealize.ShloMosaic.Lib.StableHlo.Run
import Idealize.ShloMosaic.PureOps.Ideal

set_option maxRecDepth 16384

noncomputable section

namespace Cert.KernelIdeal.Keep0

open Cert.KernelIdeal Cert.KernelIdeal.Gen
open Idealize.ShloMosaic Idealize.ShloMosaic.TcCoe Idealize.ShloMosaic.StableHlo

theorem keep_hostOps0_arg21 (W : Valuation τ sig (Elt Ideal)) :
    StableHlo.after (hostOps0 (F := Ideal)) W (Proc.devRef .tc main_arg21) = W (Proc.devRef .tc main_arg21) := by
  after_results_simp

theorem keep_hostOps0_arg20 (W : Valuation τ sig (Elt Ideal)) :
    StableHlo.after (hostOps0 (F := Ideal)) W (Proc.devRef .tc main_arg20) = W (Proc.devRef .tc main_arg20) := by
  after_results_simp

theorem keep_hostOps0_arg18 (W : Valuation τ sig (Elt Ideal)) :
    StableHlo.after (hostOps0 (F := Ideal)) W (Proc.devRef .tc main_arg18) = W (Proc.devRef .tc main_arg18) := by
  after_results_simp

theorem keep_hostOps0_arg19 (W : Valuation τ sig (Elt Ideal)) :
    StableHlo.after (hostOps0 (F := Ideal)) W (Proc.devRef .tc main_arg19) = W (Proc.devRef .tc main_arg19) := by
  after_results_simp

theorem keep_hostOps0_arg17 (W : Valuation τ sig (Elt Ideal)) :
    StableHlo.after (hostOps0 (F := Ideal)) W (Proc.devRef .tc main_arg17) = W (Proc.devRef .tc main_arg17) := by
  after_results_simp

theorem keep_hostOps0_arg16 (W : Valuation τ sig (Elt Ideal)) :
    StableHlo.after (hostOps0 (F := Ideal)) W (Proc.devRef .tc main_arg16) = W (Proc.devRef .tc main_arg16) := by
  after_results_simp

theorem keep_hostOps0_arg14 (W : Valuation τ sig (Elt Ideal)) :
    StableHlo.after (hostOps0 (F := Ideal)) W (Proc.devRef .tc main_arg14) = W (Proc.devRef .tc main_arg14) := by
  after_results_simp

theorem keep_hostOps0_arg15 (W : Valuation τ sig (Elt Ideal)) :
    StableHlo.after (hostOps0 (F := Ideal)) W (Proc.devRef .tc main_arg15) = W (Proc.devRef .tc main_arg15) := by
  after_results_simp

theorem keep_hostOps0_arg13 (W : Valuation τ sig (Elt Ideal)) :
    StableHlo.after (hostOps0 (F := Ideal)) W (Proc.devRef .tc main_arg13) = W (Proc.devRef .tc main_arg13) := by
  after_results_simp

theorem keep_hostOps0_arg0 (W : Valuation τ sig (Elt Ideal)) :
    StableHlo.after (hostOps0 (F := Ideal)) W (Proc.devRef .tc main_arg0) = W (Proc.devRef .tc main_arg0) := by
  after_results_simp

theorem keep_hostOps0_arg12 (W : Valuation τ sig (Elt Ideal)) :
    StableHlo.after (hostOps0 (F := Ideal)) W (Proc.devRef .tc main_arg12) = W (Proc.devRef .tc main_arg12) := by
  after_results_simp

theorem keep_hostOps0_arg11 (W : Valuation τ sig (Elt Ideal)) :
    StableHlo.after (hostOps0 (F := Ideal)) W (Proc.devRef .tc main_arg11) = W (Proc.devRef .tc main_arg11) := by
  after_results_simp

theorem keep_hostOps0_arg10 (W : Valuation τ sig (Elt Ideal)) :
    StableHlo.after (hostOps0 (F := Ideal)) W (Proc.devRef .tc main_arg10) = W (Proc.devRef .tc main_arg10) := by
  after_results_simp

theorem keep_hostOps0_arg8 (W : Valuation τ sig (Elt Ideal)) :
    StableHlo.after (hostOps0 (F := Ideal)) W (Proc.devRef .tc main_arg8) = W (Proc.devRef .tc main_arg8) := by
  after_results_simp

theorem keep_hostOps0_arg9 (W : Valuation τ sig (Elt Ideal)) :
    StableHlo.after (hostOps0 (F := Ideal)) W (Proc.devRef .tc main_arg9) = W (Proc.devRef .tc main_arg9) := by
  after_results_simp

theorem keep_hostOps0_arg7 (W : Valuation τ sig (Elt Ideal)) :
    StableHlo.after (hostOps0 (F := Ideal)) W (Proc.devRef .tc main_arg7) = W (Proc.devRef .tc main_arg7) := by
  after_results_simp

theorem keep_hostOps0_arg6 (W : Valuation τ sig (Elt Ideal)) :
    StableHlo.after (hostOps0 (F := Ideal)) W (Proc.devRef .tc main_arg6) = W (Proc.devRef .tc main_arg6) := by
  after_results_simp

theorem keep_hostOps0_arg4 (W : Valuation τ sig (Elt Ideal)) :
    StableHlo.after (hostOps0 (F := Ideal)) W (Proc.devRef .tc main_arg4) = W (Proc.devRef .tc main_arg4) := by
  after_results_simp

theorem keep_hostOps0_arg5 (W : Valuation τ sig (Elt Ideal)) :
    StableHlo.after (hostOps0 (F := Ideal)) W (Proc.devRef .tc main_arg5) = W (Proc.devRef .tc main_arg5) := by
  after_results_simp

theorem keep_hostOps0_arg3 (W : Valuation τ sig (Elt Ideal)) :
    StableHlo.after (hostOps0 (F := Ideal)) W (Proc.devRef .tc main_arg3) = W (Proc.devRef .tc main_arg3) := by
  after_results_simp

theorem keep_hostOps0_arg2 (W : Valuation τ sig (Elt Ideal)) :
    StableHlo.after (hostOps0 (F := Ideal)) W (Proc.devRef .tc main_arg2) = W (Proc.devRef .tc main_arg2) := by
  after_results_simp

theorem keep_hostOps1_v1 (W : Valuation τ sig (Elt Ideal)) :
    StableHlo.after (hostOps1 (F := Ideal)) W (Proc.devRef .tc main_v1) = W (Proc.devRef .tc main_v1) := by
  after_results_simp

theorem keep_hostOps1_v3 (W : Valuation τ sig (Elt Ideal)) :
    StableHlo.after (hostOps1 (F := Ideal)) W (Proc.devRef .tc main_v3) = W (Proc.devRef .tc main_v3) := by
  after_results_simp

theorem keep_hostOps1_v25 (W : Valuation τ sig (Elt Ideal)) :
    StableHlo.after (hostOps1 (F := Ideal)) W (Proc.devRef .tc main_v25) = W (Proc.devRef .tc main_v25) := by
  after_results_simp

theorem keep_hostOps1_v26 (W : Valuation τ sig (Elt Ideal)) :
    StableHlo.after (hostOps1 (F := Ideal)) W (Proc.devRef .tc main_v26) = W (Proc.devRef .tc main_v26) := by
  after_results_simp

theorem keep_hostOps1_arg21 (W : Valuation τ sig (Elt Ideal)) :
    StableHlo.after (hostOps1 (F := Ideal)) W (Proc.devRef .tc main_arg21) = W (Proc.devRef .tc main_arg21) := by
  after_results_simp

theorem keep_hostOps1_arg20 (W : Valuation τ sig (Elt Ideal)) :
    StableHlo.after (hostOps1 (F := Ideal)) W (Proc.devRef .tc main_arg20) = W (Proc.devRef .tc main_arg20) := by
  after_results_simp

theorem keep_hostOps1_arg18 (W : Valuation τ sig (Elt Ideal)) :
    StableHlo.after (hostOps1 (F := Ideal)) W (Proc.devRef .tc main_arg18) = W (Proc.devRef .tc main_arg18) := by
  after_results_simp

theorem keep_hostOps1_arg19 (W : Valuation τ sig (Elt Ideal)) :
    StableHlo.after (hostOps1 (F := Ideal)) W (Proc.devRef .tc main_arg19) = W (Proc.devRef .tc main_arg19) := by
  after_results_simp

theorem keep_hostOps1_arg17 (W : Valuation τ sig (Elt Ideal)) :
    StableHlo.after (hostOps1 (F := Ideal)) W (Proc.devRef .tc main_arg17) = W (Proc.devRef .tc main_arg17) := by
  after_results_simp

theorem keep_hostOps1_arg16 (W : Valuation τ sig (Elt Ideal)) :
    StableHlo.after (hostOps1 (F := Ideal)) W (Proc.devRef .tc main_arg16) = W (Proc.devRef .tc main_arg16) := by
  after_results_simp

theorem keep_hostOps1_arg14 (W : Valuation τ sig (Elt Ideal)) :
    StableHlo.after (hostOps1 (F := Ideal)) W (Proc.devRef .tc main_arg14) = W (Proc.devRef .tc main_arg14) := by
  after_results_simp

theorem keep_hostOps1_arg15 (W : Valuation τ sig (Elt Ideal)) :
    StableHlo.after (hostOps1 (F := Ideal)) W (Proc.devRef .tc main_arg15) = W (Proc.devRef .tc main_arg15) := by
  after_results_simp

theorem keep_hostOps1_arg13 (W : Valuation τ sig (Elt Ideal)) :
    StableHlo.after (hostOps1 (F := Ideal)) W (Proc.devRef .tc main_arg13) = W (Proc.devRef .tc main_arg13) := by
  after_results_simp

theorem keep_hostOps1_arg0 (W : Valuation τ sig (Elt Ideal)) :
    StableHlo.after (hostOps1 (F := Ideal)) W (Proc.devRef .tc main_arg0) = W (Proc.devRef .tc main_arg0) := by
  after_results_simp

theorem keep_hostOps1_arg12 (W : Valuation τ sig (Elt Ideal)) :
    StableHlo.after (hostOps1 (F := Ideal)) W (Proc.devRef .tc main_arg12) = W (Proc.devRef .tc main_arg12) := by
  after_results_simp

theorem keep_hostOps1_arg11 (W : Valuation τ sig (Elt Ideal)) :
    StableHlo.after (hostOps1 (F := Ideal)) W (Proc.devRef .tc main_arg11) = W (Proc.devRef .tc main_arg11) := by
  after_results_simp

theorem keep_hostOps1_arg10 (W : Valuation τ sig (Elt Ideal)) :
    StableHlo.after (hostOps1 (F := Ideal)) W (Proc.devRef .tc main_arg10) = W (Proc.devRef .tc main_arg10) := by
  after_results_simp

theorem keep_hostOps1_arg8 (W : Valuation τ sig (Elt Ideal)) :
    StableHlo.after (hostOps1 (F := Ideal)) W (Proc.devRef .tc main_arg8) = W (Proc.devRef .tc main_arg8) := by
  after_results_simp

theorem keep_hostOps1_arg9 (W : Valuation τ sig (Elt Ideal)) :
    StableHlo.after (hostOps1 (F := Ideal)) W (Proc.devRef .tc main_arg9) = W (Proc.devRef .tc main_arg9) := by
  after_results_simp

theorem keep_hostOps1_arg7 (W : Valuation τ sig (Elt Ideal)) :
    StableHlo.after (hostOps1 (F := Ideal)) W (Proc.devRef .tc main_arg7) = W (Proc.devRef .tc main_arg7) := by
  after_results_simp

theorem keep_hostOps1_arg6 (W : Valuation τ sig (Elt Ideal)) :
    StableHlo.after (hostOps1 (F := Ideal)) W (Proc.devRef .tc main_arg6) = W (Proc.devRef .tc main_arg6) := by
  after_results_simp

theorem keep_hostOps1_arg4 (W : Valuation τ sig (Elt Ideal)) :
    StableHlo.after (hostOps1 (F := Ideal)) W (Proc.devRef .tc main_arg4) = W (Proc.devRef .tc main_arg4) := by
  after_results_simp

theorem keep_hostOps1_arg5 (W : Valuation τ sig (Elt Ideal)) :
    StableHlo.after (hostOps1 (F := Ideal)) W (Proc.devRef .tc main_arg5) = W (Proc.devRef .tc main_arg5) := by
  after_results_simp

theorem keep_hostOps1_v27 (W : Valuation τ sig (Elt Ideal)) :
    StableHlo.after (hostOps1 (F := Ideal)) W (Proc.devRef .tc main_v27) = W (Proc.devRef .tc main_v27) := by
  after_results_simp

theorem keep_hostOps2_v1 (W : Valuation τ sig (Elt Ideal)) :
    StableHlo.after (hostOps2 (F := Ideal)) W (Proc.devRef .tc main_v1) = W (Proc.devRef .tc main_v1) := by
  after_results_simp

theorem keep_hostOps2_v3 (W : Valuation τ sig (Elt Ideal)) :
    StableHlo.after (hostOps2 (F := Ideal)) W (Proc.devRef .tc main_v3) = W (Proc.devRef .tc main_v3) := by
  after_results_simp

theorem keep_hostOps2_v25 (W : Valuation τ sig (Elt Ideal)) :
    StableHlo.after (hostOps2 (F := Ideal)) W (Proc.devRef .tc main_v25) = W (Proc.devRef .tc main_v25) := by
  after_results_simp

theorem keep_hostOps2_v26 (W : Valuation τ sig (Elt Ideal)) :
    StableHlo.after (hostOps2 (F := Ideal)) W (Proc.devRef .tc main_v26) = W (Proc.devRef .tc main_v26) := by
  after_results_simp

theorem keep_hostOps2_arg21 (W : Valuation τ sig (Elt Ideal)) :
    StableHlo.after (hostOps2 (F := Ideal)) W (Proc.devRef .tc main_arg21) = W (Proc.devRef .tc main_arg21) := by
  after_results_simp

theorem keep_hostOps2_arg20 (W : Valuation τ sig (Elt Ideal)) :
    StableHlo.after (hostOps2 (F := Ideal)) W (Proc.devRef .tc main_arg20) = W (Proc.devRef .tc main_arg20) := by
  after_results_simp

theorem keep_hostOps2_arg18 (W : Valuation τ sig (Elt Ideal)) :
    StableHlo.after (hostOps2 (F := Ideal)) W (Proc.devRef .tc main_arg18) = W (Proc.devRef .tc main_arg18) := by
  after_results_simp

theorem keep_hostOps2_arg19 (W : Valuation τ sig (Elt Ideal)) :
    StableHlo.after (hostOps2 (F := Ideal)) W (Proc.devRef .tc main_arg19) = W (Proc.devRef .tc main_arg19) := by
  after_results_simp

theorem keep_hostOps2_arg17 (W : Valuation τ sig (Elt Ideal)) :
    StableHlo.after (hostOps2 (F := Ideal)) W (Proc.devRef .tc main_arg17) = W (Proc.devRef .tc main_arg17) := by
  after_results_simp

theorem keep_hostOps2_arg16 (W : Valuation τ sig (Elt Ideal)) :
    StableHlo.after (hostOps2 (F := Ideal)) W (Proc.devRef .tc main_arg16) = W (Proc.devRef .tc main_arg16) := by
  after_results_simp

theorem keep_hostOps2_arg14 (W : Valuation τ sig (Elt Ideal)) :
    StableHlo.after (hostOps2 (F := Ideal)) W (Proc.devRef .tc main_arg14) = W (Proc.devRef .tc main_arg14) := by
  after_results_simp

theorem keep_hostOps2_arg15 (W : Valuation τ sig (Elt Ideal)) :
    StableHlo.after (hostOps2 (F := Ideal)) W (Proc.devRef .tc main_arg15) = W (Proc.devRef .tc main_arg15) := by
  after_results_simp

theorem keep_hostOps2_arg13 (W : Valuation τ sig (Elt Ideal)) :
    StableHlo.after (hostOps2 (F := Ideal)) W (Proc.devRef .tc main_arg13) = W (Proc.devRef .tc main_arg13) := by
  after_results_simp

theorem keep_hostOps2_arg0 (W : Valuation τ sig (Elt Ideal)) :
    StableHlo.after (hostOps2 (F := Ideal)) W (Proc.devRef .tc main_arg0) = W (Proc.devRef .tc main_arg0) := by
  after_results_simp

theorem keep_hostOps2_arg12 (W : Valuation τ sig (Elt Ideal)) :
    StableHlo.after (hostOps2 (F := Ideal)) W (Proc.devRef .tc main_arg12) = W (Proc.devRef .tc main_arg12) := by
  after_results_simp

theorem keep_hostOps2_arg11 (W : Valuation τ sig (Elt Ideal)) :
    StableHlo.after (hostOps2 (F := Ideal)) W (Proc.devRef .tc main_arg11) = W (Proc.devRef .tc main_arg11) := by
  after_results_simp

theorem keep_hostOps2_arg10 (W : Valuation τ sig (Elt Ideal)) :
    StableHlo.after (hostOps2 (F := Ideal)) W (Proc.devRef .tc main_arg10) = W (Proc.devRef .tc main_arg10) := by
  after_results_simp

theorem keep_hostOps2_arg8 (W : Valuation τ sig (Elt Ideal)) :
    StableHlo.after (hostOps2 (F := Ideal)) W (Proc.devRef .tc main_arg8) = W (Proc.devRef .tc main_arg8) := by
  after_results_simp

theorem keep_hostOps2_arg9 (W : Valuation τ sig (Elt Ideal)) :
    StableHlo.after (hostOps2 (F := Ideal)) W (Proc.devRef .tc main_arg9) = W (Proc.devRef .tc main_arg9) := by
  after_results_simp

theorem keep_hostOps2_arg7 (W : Valuation τ sig (Elt Ideal)) :
    StableHlo.after (hostOps2 (F := Ideal)) W (Proc.devRef .tc main_arg7) = W (Proc.devRef .tc main_arg7) := by
  after_results_simp

theorem keep_hostOps2_arg6 (W : Valuation τ sig (Elt Ideal)) :
    StableHlo.after (hostOps2 (F := Ideal)) W (Proc.devRef .tc main_arg6) = W (Proc.devRef .tc main_arg6) := by
  after_results_simp

theorem keep_hostOps2_v43_0 (W : Valuation τ sig (Elt Ideal)) :
    StableHlo.after (hostOps2 (F := Ideal)) W (Proc.devRef .tc main_v43_0) = W (Proc.devRef .tc main_v43_0) := by
  after_results_simp

end Cert.KernelIdeal.Keep0

end
-- ==== Proof.Keep1.lean ====
/-
  Buffers a host stretch does not write keep their contents across it.
-/
import proofs.«106426_j33148557590872_1_alg».proof.Proof.Gen.KernelIdeal.Launch
import Idealize.ShloMosaic.Lib.StableHlo.Run
import Idealize.ShloMosaic.PureOps.Ideal

set_option maxRecDepth 16384

noncomputable section

namespace Cert.KernelIdeal.Keep1

open Cert.KernelIdeal Cert.KernelIdeal.Gen
open Idealize.ShloMosaic Idealize.ShloMosaic.TcCoe Idealize.ShloMosaic.StableHlo

theorem keep_hostOps4_v1 (W : Valuation τ sig (Elt Ideal)) :
    StableHlo.after (hostOps4 (F := Ideal)) W (Proc.devRef .tc main_v1) = W (Proc.devRef .tc main_v1) := by
  after_results_simp

theorem keep_hostOps4_v3 (W : Valuation τ sig (Elt Ideal)) :
    StableHlo.after (hostOps4 (F := Ideal)) W (Proc.devRef .tc main_v3) = W (Proc.devRef .tc main_v3) := by
  after_results_simp

theorem keep_hostOps4_v25 (W : Valuation τ sig (Elt Ideal)) :
    StableHlo.after (hostOps4 (F := Ideal)) W (Proc.devRef .tc main_v25) = W (Proc.devRef .tc main_v25) := by
  after_results_simp

theorem keep_hostOps4_v26 (W : Valuation τ sig (Elt Ideal)) :
    StableHlo.after (hostOps4 (F := Ideal)) W (Proc.devRef .tc main_v26) = W (Proc.devRef .tc main_v26) := by
  after_results_simp

theorem keep_hostOps4_arg21 (W : Valuation τ sig (Elt Ideal)) :
    StableHlo.after (hostOps4 (F := Ideal)) W (Proc.devRef .tc main_arg21) = W (Proc.devRef .tc main_arg21) := by
  after_results_simp

theorem keep_hostOps4_arg20 (W : Valuation τ sig (Elt Ideal)) :
    StableHlo.after (hostOps4 (F := Ideal)) W (Proc.devRef .tc main_arg20) = W (Proc.devRef .tc main_arg20) := by
  after_results_simp

theorem keep_hostOps4_arg18 (W : Valuation τ sig (Elt Ideal)) :
    StableHlo.after (hostOps4 (F := Ideal)) W (Proc.devRef .tc main_arg18) = W (Proc.devRef .tc main_arg18) := by
  after_results_simp

theorem keep_hostOps4_arg19 (W : Valuation τ sig (Elt Ideal)) :
    StableHlo.after (hostOps4 (F := Ideal)) W (Proc.devRef .tc main_arg19) = W (Proc.devRef .tc main_arg19) := by
  after_results_simp

theorem keep_hostOps4_arg17 (W : Valuation τ sig (Elt Ideal)) :
    StableHlo.after (hostOps4 (F := Ideal)) W (Proc.devRef .tc main_arg17) = W (Proc.devRef .tc main_arg17) := by
  after_results_simp

theorem keep_hostOps4_arg16 (W : Valuation τ sig (Elt Ideal)) :
    StableHlo.after (hostOps4 (F := Ideal)) W (Proc.devRef .tc main_arg16) = W (Proc.devRef .tc main_arg16) := by
  after_results_simp

theorem keep_hostOps4_arg14 (W : Valuation τ sig (Elt Ideal)) :
    StableHlo.after (hostOps4 (F := Ideal)) W (Proc.devRef .tc main_arg14) = W (Proc.devRef .tc main_arg14) := by
  after_results_simp

theorem keep_hostOps4_arg15 (W : Valuation τ sig (Elt Ideal)) :
    StableHlo.after (hostOps4 (F := Ideal)) W (Proc.devRef .tc main_arg15) = W (Proc.devRef .tc main_arg15) := by
  after_results_simp

theorem keep_hostOps4_arg13 (W : Valuation τ sig (Elt Ideal)) :
    StableHlo.after (hostOps4 (F := Ideal)) W (Proc.devRef .tc main_arg13) = W (Proc.devRef .tc main_arg13) := by
  after_results_simp

theorem keep_hostOps4_arg0 (W : Valuation τ sig (Elt Ideal)) :
    StableHlo.after (hostOps4 (F := Ideal)) W (Proc.devRef .tc main_arg0) = W (Proc.devRef .tc main_arg0) := by
  after_results_simp

theorem keep_hostOps4_arg12 (W : Valuation τ sig (Elt Ideal)) :
    StableHlo.after (hostOps4 (F := Ideal)) W (Proc.devRef .tc main_arg12) = W (Proc.devRef .tc main_arg12) := by
  after_results_simp

theorem keep_hostOps4_arg11 (W : Valuation τ sig (Elt Ideal)) :
    StableHlo.after (hostOps4 (F := Ideal)) W (Proc.devRef .tc main_arg11) = W (Proc.devRef .tc main_arg11) := by
  after_results_simp

theorem keep_hostOps4_arg10 (W : Valuation τ sig (Elt Ideal)) :
    StableHlo.after (hostOps4 (F := Ideal)) W (Proc.devRef .tc main_arg10) = W (Proc.devRef .tc main_arg10) := by
  after_results_simp

theorem keep_hostOps4_arg8 (W : Valuation τ sig (Elt Ideal)) :
    StableHlo.after (hostOps4 (F := Ideal)) W (Proc.devRef .tc main_arg8) = W (Proc.devRef .tc main_arg8) := by
  after_results_simp

theorem keep_hostOps4_arg9 (W : Valuation τ sig (Elt Ideal)) :
    StableHlo.after (hostOps4 (F := Ideal)) W (Proc.devRef .tc main_arg9) = W (Proc.devRef .tc main_arg9) := by
  after_results_simp

theorem keep_hostOps4_v57 (W : Valuation τ sig (Elt Ideal)) :
    StableHlo.after (hostOps4 (F := Ideal)) W (Proc.devRef .tc main_v57) = W (Proc.devRef .tc main_v57) := by
  after_results_simp

theorem keep_hostOps5_v1 (W : Valuation τ sig (Elt Ideal)) :
    StableHlo.after (hostOps5 (F := Ideal)) W (Proc.devRef .tc main_v1) = W (Proc.devRef .tc main_v1) := by
  after_results_simp

theorem keep_hostOps5_v3 (W : Valuation τ sig (Elt Ideal)) :
    StableHlo.after (hostOps5 (F := Ideal)) W (Proc.devRef .tc main_v3) = W (Proc.devRef .tc main_v3) := by
  after_results_simp

theorem keep_hostOps5_v25 (W : Valuation τ sig (Elt Ideal)) :
    StableHlo.after (hostOps5 (F := Ideal)) W (Proc.devRef .tc main_v25) = W (Proc.devRef .tc main_v25) := by
  after_results_simp

theorem keep_hostOps5_v26 (W : Valuation τ sig (Elt Ideal)) :
    StableHlo.after (hostOps5 (F := Ideal)) W (Proc.devRef .tc main_v26) = W (Proc.devRef .tc main_v26) := by
  after_results_simp

theorem keep_hostOps5_arg21 (W : Valuation τ sig (Elt Ideal)) :
    StableHlo.after (hostOps5 (F := Ideal)) W (Proc.devRef .tc main_arg21) = W (Proc.devRef .tc main_arg21) := by
  after_results_simp

theorem keep_hostOps5_arg20 (W : Valuation τ sig (Elt Ideal)) :
    StableHlo.after (hostOps5 (F := Ideal)) W (Proc.devRef .tc main_arg20) = W (Proc.devRef .tc main_arg20) := by
  after_results_simp

theorem keep_hostOps5_arg18 (W : Valuation τ sig (Elt Ideal)) :
    StableHlo.after (hostOps5 (F := Ideal)) W (Proc.devRef .tc main_arg18) = W (Proc.devRef .tc main_arg18) := by
  after_results_simp

theorem keep_hostOps5_arg19 (W : Valuation τ sig (Elt Ideal)) :
    StableHlo.after (hostOps5 (F := Ideal)) W (Proc.devRef .tc main_arg19) = W (Proc.devRef .tc main_arg19) := by
  after_results_simp

theorem keep_hostOps5_arg17 (W : Valuation τ sig (Elt Ideal)) :
    StableHlo.after (hostOps5 (F := Ideal)) W (Proc.devRef .tc main_arg17) = W (Proc.devRef .tc main_arg17) := by
  after_results_simp

theorem keep_hostOps5_arg16 (W : Valuation τ sig (Elt Ideal)) :
    StableHlo.after (hostOps5 (F := Ideal)) W (Proc.devRef .tc main_arg16) = W (Proc.devRef .tc main_arg16) := by
  after_results_simp

theorem keep_hostOps5_arg14 (W : Valuation τ sig (Elt Ideal)) :
    StableHlo.after (hostOps5 (F := Ideal)) W (Proc.devRef .tc main_arg14) = W (Proc.devRef .tc main_arg14) := by
  after_results_simp

theorem keep_hostOps5_arg15 (W : Valuation τ sig (Elt Ideal)) :
    StableHlo.after (hostOps5 (F := Ideal)) W (Proc.devRef .tc main_arg15) = W (Proc.devRef .tc main_arg15) := by
  after_results_simp

theorem keep_hostOps5_arg13 (W : Valuation τ sig (Elt Ideal)) :
    StableHlo.after (hostOps5 (F := Ideal)) W (Proc.devRef .tc main_arg13) = W (Proc.devRef .tc main_arg13) := by
  after_results_simp

theorem keep_hostOps5_arg0 (W : Valuation τ sig (Elt Ideal)) :
    StableHlo.after (hostOps5 (F := Ideal)) W (Proc.devRef .tc main_arg0) = W (Proc.devRef .tc main_arg0) := by
  after_results_simp

theorem keep_hostOps5_arg12 (W : Valuation τ sig (Elt Ideal)) :
    StableHlo.after (hostOps5 (F := Ideal)) W (Proc.devRef .tc main_arg12) = W (Proc.devRef .tc main_arg12) := by
  after_results_simp

theorem keep_hostOps5_arg11 (W : Valuation τ sig (Elt Ideal)) :
    StableHlo.after (hostOps5 (F := Ideal)) W (Proc.devRef .tc main_arg11) = W (Proc.devRef .tc main_arg11) := by
  after_results_simp

theorem keep_hostOps5_arg10 (W : Valuation τ sig (Elt Ideal)) :
    StableHlo.after (hostOps5 (F := Ideal)) W (Proc.devRef .tc main_arg10) = W (Proc.devRef .tc main_arg10) := by
  after_results_simp

theorem keep_hostOps5_v73_0 (W : Valuation τ sig (Elt Ideal)) :
    StableHlo.after (hostOps5 (F := Ideal)) W (Proc.devRef .tc main_v73_0) = W (Proc.devRef .tc main_v73_0) := by
  after_results_simp

theorem keep_hostOps7_v1 (W : Valuation τ sig (Elt Ideal)) :
    StableHlo.after (hostOps7 (F := Ideal)) W (Proc.devRef .tc main_v1) = W (Proc.devRef .tc main_v1) := by
  after_results_simp

theorem keep_hostOps7_v3 (W : Valuation τ sig (Elt Ideal)) :
    StableHlo.after (hostOps7 (F := Ideal)) W (Proc.devRef .tc main_v3) = W (Proc.devRef .tc main_v3) := by
  after_results_simp

theorem keep_hostOps7_v25 (W : Valuation τ sig (Elt Ideal)) :
    StableHlo.after (hostOps7 (F := Ideal)) W (Proc.devRef .tc main_v25) = W (Proc.devRef .tc main_v25) := by
  after_results_simp

theorem keep_hostOps7_v26 (W : Valuation τ sig (Elt Ideal)) :
    StableHlo.after (hostOps7 (F := Ideal)) W (Proc.devRef .tc main_v26) = W (Proc.devRef .tc main_v26) := by
  after_results_simp

theorem keep_hostOps7_arg21 (W : Valuation τ sig (Elt Ideal)) :
    StableHlo.after (hostOps7 (F := Ideal)) W (Proc.devRef .tc main_arg21) = W (Proc.devRef .tc main_arg21) := by
  after_results_simp

theorem keep_hostOps7_arg20 (W : Valuation τ sig (Elt Ideal)) :
    StableHlo.after (hostOps7 (F := Ideal)) W (Proc.devRef .tc main_arg20) = W (Proc.devRef .tc main_arg20) := by
  after_results_simp

theorem keep_hostOps7_arg18 (W : Valuation τ sig (Elt Ideal)) :
    StableHlo.after (hostOps7 (F := Ideal)) W (Proc.devRef .tc main_arg18) = W (Proc.devRef .tc main_arg18) := by
  after_results_simp

theorem keep_hostOps7_arg19 (W : Valuation τ sig (Elt Ideal)) :
    StableHlo.after (hostOps7 (F := Ideal)) W (Proc.devRef .tc main_arg19) = W (Proc.devRef .tc main_arg19) := by
  after_results_simp

theorem keep_hostOps7_arg17 (W : Valuation τ sig (Elt Ideal)) :
    StableHlo.after (hostOps7 (F := Ideal)) W (Proc.devRef .tc main_arg17) = W (Proc.devRef .tc main_arg17) := by
  after_results_simp

theorem keep_hostOps7_arg16 (W : Valuation τ sig (Elt Ideal)) :
    StableHlo.after (hostOps7 (F := Ideal)) W (Proc.devRef .tc main_arg16) = W (Proc.devRef .tc main_arg16) := by
  after_results_simp

theorem keep_hostOps7_arg14 (W : Valuation τ sig (Elt Ideal)) :
    StableHlo.after (hostOps7 (F := Ideal)) W (Proc.devRef .tc main_arg14) = W (Proc.devRef .tc main_arg14) := by
  after_results_simp

theorem keep_hostOps7_arg15 (W : Valuation τ sig (Elt Ideal)) :
    StableHlo.after (hostOps7 (F := Ideal)) W (Proc.devRef .tc main_arg15) = W (Proc.devRef .tc main_arg15) := by
  after_results_simp

theorem keep_hostOps7_arg13 (W : Valuation τ sig (Elt Ideal)) :
    StableHlo.after (hostOps7 (F := Ideal)) W (Proc.devRef .tc main_arg13) = W (Proc.devRef .tc main_arg13) := by
  after_results_simp

theorem keep_hostOps7_arg0 (W : Valuation τ sig (Elt Ideal)) :
    StableHlo.after (hostOps7 (F := Ideal)) W (Proc.devRef .tc main_arg0) = W (Proc.devRef .tc main_arg0) := by
  after_results_simp

theorem keep_hostOps7_arg12 (W : Valuation τ sig (Elt Ideal)) :
    StableHlo.after (hostOps7 (F := Ideal)) W (Proc.devRef .tc main_arg12) = W (Proc.devRef .tc main_arg12) := by
  after_results_simp

theorem keep_hostOps7_v87 (W : Valuation τ sig (Elt Ideal)) :
    StableHlo.after (hostOps7 (F := Ideal)) W (Proc.devRef .tc main_v87) = W (Proc.devRef .tc main_v87) := by
  after_results_simp

end Cert.KernelIdeal.Keep1

end
-- ==== Proof.Keep2.lean ====
/-
  Buffers a host stretch does not write keep their contents across it.
-/
import proofs.«106426_j33148557590872_1_alg».proof.Proof.Gen.KernelIdeal.Launch
import Idealize.ShloMosaic.Lib.StableHlo.Run
import Idealize.ShloMosaic.PureOps.Ideal

set_option maxRecDepth 16384

noncomputable section

namespace Cert.KernelIdeal.Keep2

open Cert.KernelIdeal Cert.KernelIdeal.Gen
open Idealize.ShloMosaic Idealize.ShloMosaic.TcCoe Idealize.ShloMosaic.StableHlo

theorem keep_hostOps9_v103 (W : Valuation τ sig (Elt Ideal)) :
    StableHlo.after (hostOps9 (F := Ideal)) W (Proc.devRef .tc main_v103) = W (Proc.devRef .tc main_v103) := by
  after_results_simp

theorem keep_hostOps9_v1 (W : Valuation τ sig (Elt Ideal)) :
    StableHlo.after (hostOps9 (F := Ideal)) W (Proc.devRef .tc main_v1) = W (Proc.devRef .tc main_v1) := by
  after_results_simp

theorem keep_hostOps9_v3 (W : Valuation τ sig (Elt Ideal)) :
    StableHlo.after (hostOps9 (F := Ideal)) W (Proc.devRef .tc main_v3) = W (Proc.devRef .tc main_v3) := by
  after_results_simp

theorem keep_hostOps9_v25 (W : Valuation τ sig (Elt Ideal)) :
    StableHlo.after (hostOps9 (F := Ideal)) W (Proc.devRef .tc main_v25) = W (Proc.devRef .tc main_v25) := by
  after_results_simp

theorem keep_hostOps9_v26 (W : Valuation τ sig (Elt Ideal)) :
    StableHlo.after (hostOps9 (F := Ideal)) W (Proc.devRef .tc main_v26) = W (Proc.devRef .tc main_v26) := by
  after_results_simp

theorem keep_hostOps9_arg21 (W : Valuation τ sig (Elt Ideal)) :
    StableHlo.after (hostOps9 (F := Ideal)) W (Proc.devRef .tc main_arg21) = W (Proc.devRef .tc main_arg21) := by
  after_results_simp

theorem keep_hostOps9_arg20 (W : Valuation τ sig (Elt Ideal)) :
    StableHlo.after (hostOps9 (F := Ideal)) W (Proc.devRef .tc main_arg20) = W (Proc.devRef .tc main_arg20) := by
  after_results_simp

theorem keep_hostOps9_arg18 (W : Valuation τ sig (Elt Ideal)) :
    StableHlo.after (hostOps9 (F := Ideal)) W (Proc.devRef .tc main_arg18) = W (Proc.devRef .tc main_arg18) := by
  after_results_simp

theorem keep_hostOps9_arg19 (W : Valuation τ sig (Elt Ideal)) :
    StableHlo.after (hostOps9 (F := Ideal)) W (Proc.devRef .tc main_arg19) = W (Proc.devRef .tc main_arg19) := by
  after_results_simp

theorem keep_hostOps9_arg17 (W : Valuation τ sig (Elt Ideal)) :
    StableHlo.after (hostOps9 (F := Ideal)) W (Proc.devRef .tc main_arg17) = W (Proc.devRef .tc main_arg17) := by
  after_results_simp

theorem keep_hostOps9_arg16 (W : Valuation τ sig (Elt Ideal)) :
    StableHlo.after (hostOps9 (F := Ideal)) W (Proc.devRef .tc main_arg16) = W (Proc.devRef .tc main_arg16) := by
  after_results_simp

theorem keep_hostOps9_arg14 (W : Valuation τ sig (Elt Ideal)) :
    StableHlo.after (hostOps9 (F := Ideal)) W (Proc.devRef .tc main_arg14) = W (Proc.devRef .tc main_arg14) := by
  after_results_simp

theorem keep_hostOps9_arg15 (W : Valuation τ sig (Elt Ideal)) :
    StableHlo.after (hostOps9 (F := Ideal)) W (Proc.devRef .tc main_arg15) = W (Proc.devRef .tc main_arg15) := by
  after_results_simp

theorem keep_hostOps9_v104 (W : Valuation τ sig (Elt Ideal)) :
    StableHlo.after (hostOps9 (F := Ideal)) W (Proc.devRef .tc main_v104) = W (Proc.devRef .tc main_v104) := by
  after_results_simp

theorem keep_hostOps10_v103 (W : Valuation τ sig (Elt Ideal)) :
    StableHlo.after (hostOps10 (F := Ideal)) W (Proc.devRef .tc main_v103) = W (Proc.devRef .tc main_v103) := by
  after_results_simp

theorem keep_hostOps10_v1 (W : Valuation τ sig (Elt Ideal)) :
    StableHlo.after (hostOps10 (F := Ideal)) W (Proc.devRef .tc main_v1) = W (Proc.devRef .tc main_v1) := by
  after_results_simp

theorem keep_hostOps10_v3 (W : Valuation τ sig (Elt Ideal)) :
    StableHlo.after (hostOps10 (F := Ideal)) W (Proc.devRef .tc main_v3) = W (Proc.devRef .tc main_v3) := by
  after_results_simp

theorem keep_hostOps10_v25 (W : Valuation τ sig (Elt Ideal)) :
    StableHlo.after (hostOps10 (F := Ideal)) W (Proc.devRef .tc main_v25) = W (Proc.devRef .tc main_v25) := by
  after_results_simp

theorem keep_hostOps10_v26 (W : Valuation τ sig (Elt Ideal)) :
    StableHlo.after (hostOps10 (F := Ideal)) W (Proc.devRef .tc main_v26) = W (Proc.devRef .tc main_v26) := by
  after_results_simp

theorem keep_hostOps10_arg21 (W : Valuation τ sig (Elt Ideal)) :
    StableHlo.after (hostOps10 (F := Ideal)) W (Proc.devRef .tc main_arg21) = W (Proc.devRef .tc main_arg21) := by
  after_results_simp

theorem keep_hostOps10_arg20 (W : Valuation τ sig (Elt Ideal)) :
    StableHlo.after (hostOps10 (F := Ideal)) W (Proc.devRef .tc main_arg20) = W (Proc.devRef .tc main_arg20) := by
  after_results_simp

theorem keep_hostOps10_arg18 (W : Valuation τ sig (Elt Ideal)) :
    StableHlo.after (hostOps10 (F := Ideal)) W (Proc.devRef .tc main_arg18) = W (Proc.devRef .tc main_arg18) := by
  after_results_simp

theorem keep_hostOps10_arg19 (W : Valuation τ sig (Elt Ideal)) :
    StableHlo.after (hostOps10 (F := Ideal)) W (Proc.devRef .tc main_arg19) = W (Proc.devRef .tc main_arg19) := by
  after_results_simp

theorem keep_hostOps10_arg17 (W : Valuation τ sig (Elt Ideal)) :
    StableHlo.after (hostOps10 (F := Ideal)) W (Proc.devRef .tc main_arg17) = W (Proc.devRef .tc main_arg17) := by
  after_results_simp

theorem keep_hostOps10_arg16 (W : Valuation τ sig (Elt Ideal)) :
    StableHlo.after (hostOps10 (F := Ideal)) W (Proc.devRef .tc main_arg16) = W (Proc.devRef .tc main_arg16) := by
  after_results_simp

theorem keep_hostOps10_v120_0 (W : Valuation τ sig (Elt Ideal)) :
    StableHlo.after (hostOps10 (F := Ideal)) W (Proc.devRef .tc main_v120_0) = W (Proc.devRef .tc main_v120_0) := by
  after_results_simp

theorem keep_hostOps12_v103 (W : Valuation τ sig (Elt Ideal)) :
    StableHlo.after (hostOps12 (F := Ideal)) W (Proc.devRef .tc main_v103) = W (Proc.devRef .tc main_v103) := by
  after_results_simp

theorem keep_hostOps12_v1 (W : Valuation τ sig (Elt Ideal)) :
    StableHlo.after (hostOps12 (F := Ideal)) W (Proc.devRef .tc main_v1) = W (Proc.devRef .tc main_v1) := by
  after_results_simp

theorem keep_hostOps12_v3 (W : Valuation τ sig (Elt Ideal)) :
    StableHlo.after (hostOps12 (F := Ideal)) W (Proc.devRef .tc main_v3) = W (Proc.devRef .tc main_v3) := by
  after_results_simp

theorem keep_hostOps12_v25 (W : Valuation τ sig (Elt Ideal)) :
    StableHlo.after (hostOps12 (F := Ideal)) W (Proc.devRef .tc main_v25) = W (Proc.devRef .tc main_v25) := by
  after_results_simp

theorem keep_hostOps12_v26 (W : Valuation τ sig (Elt Ideal)) :
    StableHlo.after (hostOps12 (F := Ideal)) W (Proc.devRef .tc main_v26) = W (Proc.devRef .tc main_v26) := by
  after_results_simp

theorem keep_hostOps12_arg21 (W : Valuation τ sig (Elt Ideal)) :
    StableHlo.after (hostOps12 (F := Ideal)) W (Proc.devRef .tc main_arg21) = W (Proc.devRef .tc main_arg21) := by
  after_results_simp

theorem keep_hostOps12_arg20 (W : Valuation τ sig (Elt Ideal)) :
    StableHlo.after (hostOps12 (F := Ideal)) W (Proc.devRef .tc main_arg20) = W (Proc.devRef .tc main_arg20) := by
  after_results_simp

theorem keep_hostOps12_arg18 (W : Valuation τ sig (Elt Ideal)) :
    StableHlo.after (hostOps12 (F := Ideal)) W (Proc.devRef .tc main_arg18) = W (Proc.devRef .tc main_arg18) := by
  after_results_simp

theorem keep_hostOps12_arg19 (W : Valuation τ sig (Elt Ideal)) :
    StableHlo.after (hostOps12 (F := Ideal)) W (Proc.devRef .tc main_arg19) = W (Proc.devRef .tc main_arg19) := by
  after_results_simp

theorem keep_hostOps12_v134 (W : Valuation τ sig (Elt Ideal)) :
    StableHlo.after (hostOps12 (F := Ideal)) W (Proc.devRef .tc main_v134) = W (Proc.devRef .tc main_v134) := by
  after_results_simp

end Cert.KernelIdeal.Keep2

end
-- ==== Proof.Keep3.lean ====
/-
  Buffers a host stretch does not write keep their contents across it.
-/
import proofs.«106426_j33148557590872_1_alg».proof.Proof.Gen.KernelIdeal.Launch
import Idealize.ShloMosaic.Lib.StableHlo.Run
import Idealize.ShloMosaic.PureOps.Ideal

set_option maxRecDepth 16384

noncomputable section

namespace Cert.KernelIdeal.Keep3

open Cert.KernelIdeal Cert.KernelIdeal.Gen
open Idealize.ShloMosaic Idealize.ShloMosaic.TcCoe Idealize.ShloMosaic.StableHlo

theorem keep_hostOps13_v103 (W : Valuation τ sig (Elt Ideal)) :
    StableHlo.after (hostOps13 (F := Ideal)) W (Proc.devRef .tc main_v103) = W (Proc.devRef .tc main_v103) := by
  after_results_simp

theorem keep_hostOps13_v1 (W : Valuation τ sig (Elt Ideal)) :
    StableHlo.after (hostOps13 (F := Ideal)) W (Proc.devRef .tc main_v1) = W (Proc.devRef .tc main_v1) := by
  after_results_simp

theorem keep_hostOps13_v3 (W : Valuation τ sig (Elt Ideal)) :
    StableHlo.after (hostOps13 (F := Ideal)) W (Proc.devRef .tc main_v3) = W (Proc.devRef .tc main_v3) := by
  after_results_simp

theorem keep_hostOps13_v25 (W : Valuation τ sig (Elt Ideal)) :
    StableHlo.after (hostOps13 (F := Ideal)) W (Proc.devRef .tc main_v25) = W (Proc.devRef .tc main_v25) := by
  after_results_simp

theorem keep_hostOps13_v26 (W : Valuation τ sig (Elt Ideal)) :
    StableHlo.after (hostOps13 (F := Ideal)) W (Proc.devRef .tc main_v26) = W (Proc.devRef .tc main_v26) := by
  after_results_simp

theorem keep_hostOps13_arg21 (W : Valuation τ sig (Elt Ideal)) :
    StableHlo.after (hostOps13 (F := Ideal)) W (Proc.devRef .tc main_arg21) = W (Proc.devRef .tc main_arg21) := by
  after_results_simp

theorem keep_hostOps13_arg20 (W : Valuation τ sig (Elt Ideal)) :
    StableHlo.after (hostOps13 (F := Ideal)) W (Proc.devRef .tc main_arg20) = W (Proc.devRef .tc main_arg20) := by
  after_results_simp

theorem keep_hostOps13_v150_0 (W : Valuation τ sig (Elt Ideal)) :
    StableHlo.after (hostOps13 (F := Ideal)) W (Proc.devRef .tc main_v150_0) = W (Proc.devRef .tc main_v150_0) := by
  after_results_simp

theorem keep_hostOps15_v103 (W : Valuation τ sig (Elt Ideal)) :
    StableHlo.after (hostOps15 (F := Ideal)) W (Proc.devRef .tc main_v103) = W (Proc.devRef .tc main_v103) := by
  after_results_simp

theorem keep_hostOps15_v164 (W : Valuation τ sig (Elt Ideal)) :
    StableHlo.after (hostOps15 (F := Ideal)) W (Proc.devRef .tc main_v164) = W (Proc.devRef .tc main_v164) := by
  after_results_simp

end Cert.KernelIdeal.Keep3

end
-- ==== Proof.LibPlainDot.lean ====
/-
  The product of an [M, K] matrix with a [K, N] matrix, contracted on the left operand's second axis and the right
  operand's first, read at an output index. Independent of any program.

  With no batch axis the contraction index has one coordinate, running over the K shared positions; at the output index
  (p, q) the left operand is read at (p, k) and the right at (k, q). So the contraction's sum over its own index type is
  the familiar sum over k of l (p, k) · r (k, q).
-/
import Idealize.ShloMosaic.Lib.ValueIdx
import Idealize.ShloMosaic.PureOps.Ideal
import Idealize.ShloMosaic.PureOps.Ideal.Laws

noncomputable section

namespace Cert.Lib

open Idealize.ShloMosaic Idealize.ShloMosaic.ValueIdx

/-- The dimension numbers of a plain matrix product [M, K] × [K, N] → [M, N]. -/
abbrev plainDot (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- THE CONTRACTION AS A SUM OVER k: at the output index (p, q) the product's terms are l (p, k) · r (k, q). -/
theorem plainDot_sum {M K N : Nat}
    (wf : DotDims.WF ⟨2, ![M, K]⟩ ⟨2, ![K, N]⟩ ⟨2, ![M, N]⟩ [1] [0] [0] [1] [] [])
    (l : (⟨2, ![M, K]⟩ : Shape).Idx → EReal) (r : (⟨2, ![K, N]⟩ : Shape).Idx → EReal) (p : Fin M) (q : Fin N) :
    ∑ k : (plainDot M K N wf).contr.Idx,
        l ((plainDot M K N wf).lhsIdx (ix2 p q) k) * r ((plainDot M K N wf).rhsIdx (ix2 p q) k)
      = ∑ k : Fin K, l (ix2 p k) * r (ix2 k q) := by
  rw [← Equiv.sum_comp (contrEquiv1 (plainDot M K N wf) K rfl rfl).symm]
  refine Finset.sum_congr rfl fun k _ => ?_
  have hk := contrEquiv1_symm_val (plainDot M K N wf) K rfl rfl k
  have el : (plainDot M K N wf).lhsIdx (ix2 p q) ((contrEquiv1 (plainDot M K N wf) K rfl rfl).symm k) = ix2 p k :=
    funext fun a => Fin.ext (by
      match a with
      | ⟨0, _⟩ =>
        show ((plainDot M K N wf).lhsIdx (ix2 p q) ((contrEquiv1 (plainDot M K N wf) K rfl rfl).symm k) 0).val = p.val
        unfold DotDims.lhsIdx
        rw [dif_neg (show ¬ (0 : Fin 2) ∈ ([] : List (Fin 2)) from List.not_mem_nil),
          dif_pos (show (0 : Fin 2) ∈ ([0] : List (Fin 2)) from List.mem_singleton.mpr rfl)]
        rfl
      | ⟨1, _⟩ => exact ((plainDot M K N wf).lhsIdx_val_of_single rfl (ix2 p q) _).trans hk)
  have er : (plainDot M K N wf).rhsIdx (ix2 p q) ((contrEquiv1 (plainDot M K N wf) K rfl rfl).symm k) = ix2 k q :=
    funext fun a => Fin.ext (by
      match a with
      | ⟨0, _⟩ => exact ((plainDot M K N wf).rhsIdx_val_of_single rfl (ix2 p q) _).trans hk
      | ⟨1, _⟩ =>
        show ((plainDot M K N wf).rhsIdx (ix2 p q) ((contrEquiv1 (plainDot M K N wf) K rfl rfl).symm k) 1).val = q.val
        unfold DotDims.rhsIdx
        rw [dif_neg (show ¬ (1 : Fin 2) ∈ ([] : List (Fin 2)) from List.not_mem_nil),
          dif_pos (show (1 : Fin 2) ∈ ([1] : List (Fin 2)) from List.mem_singleton.mpr rfl)]
        rfl)
  rw [el, er]

/-- A kernel's matrix product into a zero accumulator, at (p, q). -/
theorem matmul_zero_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (plainDot M K N wf) prec l r (constant (F := Ideal) ⟨2, ![M, N]⟩ .f32 0x00000000#32) (ix2 p q)
      = ∑ k : Fin K, l (ix2 p k) * r (ix2 k q) := by
  rw [Ideal.matmul_constant_zero_apply]
  exact plainDot_sum wf l r p q

/-- The host's matrix product, at (p, q). -/
theorem dotGeneral_plain_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule) (l : FVec Ideal ⟨2, ![M, K]⟩ φ₁) (r : FVec Ideal ⟨2, ![K, N]⟩ φ₂)
    (p : Fin M) (q : Fin N) :
    FloatOps.dotGeneral (plainDot M K N wf) prec sched l r (ix2 p q)
      = ∑ k : Fin K, l (ix2 p k) * r (ix2 k q) := by
  rw [Ideal.dotGeneral_apply]
  exact plainDot_sum wf l r p q

end Cert.Lib

end
-- ==== Proof.RegMM0.lean ====
/-
  One row-tiled matrix product, region 0 of the kernel program: the [50000, 128] array it leaves is the
  matrix product of the [50000, 64] array and the [64, 128] array it was given.

  The rows are cut into 25 blocks of 2000. At block t the body multiplies rows 2000·t … 2000·t + 1999 of the left
  array by the whole right array, starting from a zero accumulator, so entry (p, q) of the block it stores is the
  sum over k of left (2000·t + p, k) · right (k, q): the entry (2000·t + p, q) of the whole product. The 25 blocks
  are written back to rows 2000·t … of the result and together cover every row.
-/
import proofs.«106426_j33148557590872_1_alg».proof.Proof.Gen.KernelIdeal.Frame
import proofs.«106426_j33148557590872_1_alg».proof.Proof.GcnSpec
import proofs.«106426_j33148557590872_1_alg».proof.Proof.LibPlainDot
import Idealize.ShloMosaic.Lib.Pipeline.Value

noncomputable section

namespace Cert.KernelIdeal.RegVal

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-buffer access. -/
theorem mm0_hz : (![0, 0] : Fin 2 → Nat) = fun _ => 0 := funext fun a => by fin_cases a <;> rfl

/-- The body's stored value at (p, q): the sum over k of left (p, k) · right (k, q). -/
theorem mm0_pay_apply (x0 : Vec Ideal S2000x64 .f32) (x1 : Vec Ideal S64x128 .f32) (p : Fin 2000) (q : Fin 128) :
    k0_pay1 x0 x1 (ix2 p q) = ∑ k : Fin 64, x0 (ix2 p k) * x1 (ix2 k q) := by
  unfold k0_pay1
  exact Cert.Lib.matmul_zero_apply (dot_S2000x64_S64x128_S2000x128_1_0_0_1_n_n).wf none x0 x1 p q

/-- The stored value of a block whose left operand is rows n·2000 … of A0 and whose right operand is A1, at the
    block coordinate y, is the whole product's entry at the array index i that y sits at. -/
theorem mm0_pay_rows (A0 : Cert.Gcn.Mat 50000 64) (A1 : Cert.Gcn.Mat 64 128)
    (x0 : Vec Ideal S2000x64 .f32) (x1 : Vec Ideal S64x128 .f32) (n : Nat)
    (h0 : ∀ (p : Fin 2000) (k : Fin 64) (r : Fin 50000), r.val = n * 2000 + p.val → x0 (ix2 p k) = A0 (ix2 r k))
    (h1 : ∀ (k : Fin 64) (q : Fin 128), x1 (ix2 k q) = A1 (ix2 k q))
    (y : S2000x128.Idx) (i : S50000x128.Idx)
    (hi0 : (i 0).val = n * 2000 + (y 0).val) (hi1 : (i 1).val = (y 1).val) :
    k0_pay1 x0 x1 y = Cert.Gcn.mm A0 A1 i := by
  obtain ⟨p, q, rfl⟩ : ∃ (p : Fin 2000) (q : Fin 128), y = ix2 p q := ⟨y 0, y 1, eq_ix2 y⟩
  obtain ⟨r, q', rfl⟩ : ∃ (r : Fin 50000) (q' : Fin 128), i = ix2 r q' := ⟨i 0, i 1, eq_ix2 i⟩
  obtain rfl : q' = q := Fin.ext hi1
  rw [mm0_pay_apply, Cert.Gcn.mm_ix2]
  refine Finset.sum_congr rfl fun k _ => ?_
  rw [h0 p k r hi0, h1 k q']

/-- The printed index maps over the 25 grid points: the left and result windows sit at block row t, the right
    window at its one block. -/
theorem mm0_idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the whole product of the two arrays the region was given. -/
theorem mm0_flushed (c : Dev nD) (t : Fin cfg0.N) :
    (dat0 (F := Ideal) V c).flushed 2 t = ((cfg0.win 2).blk t).view.read (Elt Ideal)
      (Cert.Gcn.mm (V c (Pipeline.arrRef spec0 0)) (V c (Pipeline.arrRef spec0 1))) := by
  show (cfg0.win 2).cut (grid0.coords t) ((dat0 V c).after 2 t) = _
  rw [after0_2]
  unfold out0_2
  rw [View.canon_unit_zero mm0_hz]
  simp only [View.ld_unit_zero (S := S2000x64) mm0_hz, View.ld_unit_zero (S := S64x128) mm0_hz]
  obtain ⟨e00, e01, e10, e11, e20, e21⟩ := mm0_idx t
  funext j
  refine mm0_pay_rows (V c (Pipeline.arrRef spec0 0)) (V c (Pipeline.arrRef spec0 1))
    (iblk0 V c 0 t) (iblk0 V c 1 t) t.val ?_ ?_ j (((cfg0.win 2).blk t).view.emb j) ?_ ?_
  · intro p k r hr
    show V c (Pipeline.arrRef spec0 0) (((cfg0.win 0).blk t).view.emb (ix2 p k)) = V c (Pipeline.arrRef spec0 0) (ix2 r k)
    refine congrArg _ (funext fun a => Fin.ext ?_)
    match a with
    | ⟨0, _⟩ => show win0_0.index t (0 : Fin 2) * 2000 + 1 * p.val = r.val; rw [e00, hr]; omega
    | ⟨1, _⟩ => show win0_0.index t (1 : Fin 2) * 64 + 1 * k.val = k.val; rw [e01]; omega
  · intro k q
    show V c (Pipeline.arrRef spec0 1) (((cfg0.win 1).blk t).view.emb (ix2 k q)) = V c (Pipeline.arrRef spec0 1) (ix2 k q)
    refine congrArg _ (funext fun a => Fin.ext ?_)
    match a with
    | ⟨0, _⟩ => show win0_1.index t (0 : Fin 2) * 64 + 1 * k.val = k.val; rw [e10]; omega
    | ⟨1, _⟩ => show win0_1.index t (1 : Fin 2) * 128 + 1 * q.val = q.val; rw [e11]; omega
  · show win0_2.index t (0 : Fin 2) * 2000 + 1 * (j 0).val = t.val * 2000 + (j 0).val; rw [e20]; omega
  · show win0_2.index t (1 : Fin 2) * 128 + 1 * (j 1).val = (j 1).val; rw [e21]; omega

/-- An index of the result array is in point t's block iff each coordinate is in the block's range on its axis. -/
theorem mm0_mem_blk (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole (Pipeline.arrRef spec0 2)).slice (win0_2.rect t)).set ↔ _
  rw [View.set_slice_whole, Rect.mem_set_unit]
  exact Iff.rfl

/-- Every row of the result is in the block of the point (row / 2000). -/
theorem mm0_cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 25 := N_0
  obtain ⟨t, ht⟩ : ∃ t : Fin cfg0.N, t.val = (i 0).val / 2000 := ⟨⟨(i 0).val / 2000, by rw [hN]; omega⟩, rfl⟩
  obtain ⟨e00, e01, e10, e11, e20, e21⟩ := mm0_idx t
  refine ⟨t, flush0_2 t, ?_⟩
  rw [mm0_mem_blk]
  intro a
  match a with
  | ⟨0, _⟩ => show win0_2.index t (0 : Fin 2) * 2000 ≤ (i 0).val ∧ (i 0).val < win0_2.index t (0 : Fin 2) * 2000 + 2000; rw [e20, ht]; omega
  | ⟨1, _⟩ => show win0_2.index t (1 : Fin 2) * 128 ≤ (i 1).val ∧ (i 1).val < win0_2.index t (1 : Fin 2) * 128 + 128; rw [e21]; omega

/-- THE ARRAY after region 0: the matrix product of the two arrays the region was given. -/
theorem mm0 (c : Dev nD) :
    (dat0 (F := Ideal) V c).arrAt 2 cfg0.N
      = Cert.Gcn.mm (V c (Pipeline.arrRef spec0 0)) (V c (Pipeline.arrRef spec0 1)) :=
  (dat0 (F := Ideal) V c).arrAt_eq_of_cover 2 _ (fun t _ => mm0_flushed V c t) mm0_cover

end Cert.KernelIdeal.RegVal

end
-- ==== Proof.RegMM3.lean ====
/-
  One row-tiled matrix product, region 3 of the kernel program: the [50000, 256] array it leaves is the
  matrix product of the [50000, 128] array and the [128, 256] array it was given.

  The rows are cut into 25 blocks of 2000. At block t the body multiplies rows 2000·t … 2000·t + 1999 of the left
  array by the whole right array, starting from a zero accumulator, so entry (p, q) of the block it stores is the
  sum over k of left (2000·t + p, k) · right (k, q): the entry (2000·t + p, q) of the whole product. The 25 blocks
  are written back to rows 2000·t … of the result and together cover every row.
-/
import proofs.«106426_j33148557590872_1_alg».proof.Proof.Gen.KernelIdeal.Frame
import proofs.«106426_j33148557590872_1_alg».proof.Proof.GcnSpec
import proofs.«106426_j33148557590872_1_alg».proof.Proof.LibPlainDot
import Idealize.ShloMosaic.Lib.Pipeline.Value

noncomputable section

namespace Cert.KernelIdeal.RegVal

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-buffer access. -/
theorem mm3_hz : (![0, 0] : Fin 2 → Nat) = fun _ => 0 := funext fun a => by fin_cases a <;> rfl

/-- The body's stored value at (p, q): the sum over k of left (p, k) · right (k, q). -/
theorem mm3_pay_apply (x0 : Vec Ideal S2000x128 .f32) (x1 : Vec Ideal S128x256 .f32) (p : Fin 2000) (q : Fin 256) :
    k3_pay1 x0 x1 (ix2 p q) = ∑ k : Fin 128, x0 (ix2 p k) * x1 (ix2 k q) := by
  unfold k3_pay1
  rw [shapeCast_self]
  exact Cert.Lib.matmul_zero_apply (dot_S2000x128_S128x256_S2000x256_1_0_0_1_n_n).wf none x0 x1 p q

/-- The stored value of a block whose left operand is rows n·2000 … of A0 and whose right operand is A1, at the
    block coordinate y, is the whole product's entry at the array index i that y sits at. -/
theorem mm3_pay_rows (A0 : Cert.Gcn.Mat 50000 128) (A1 : Cert.Gcn.Mat 128 256)
    (x0 : Vec Ideal S2000x128 .f32) (x1 : Vec Ideal S128x256 .f32) (n : Nat)
    (h0 : ∀ (p : Fin 2000) (k : Fin 128) (r : Fin 50000), r.val = n * 2000 + p.val → x0 (ix2 p k) = A0 (ix2 r k))
    (h1 : ∀ (k : Fin 128) (q : Fin 256), x1 (ix2 k q) = A1 (ix2 k q))
    (y : S2000x256.Idx) (i : S50000x256.Idx)
    (hi0 : (i 0).val = n * 2000 + (y 0).val) (hi1 : (i 1).val = (y 1).val) :
    k3_pay1 x0 x1 y = Cert.Gcn.mm A0 A1 i := by
  obtain ⟨p, q, rfl⟩ : ∃ (p : Fin 2000) (q : Fin 256), y = ix2 p q := ⟨y 0, y 1, eq_ix2 y⟩
  obtain ⟨r, q', rfl⟩ : ∃ (r : Fin 50000) (q' : Fin 256), i = ix2 r q' := ⟨i 0, i 1, eq_ix2 i⟩
  obtain rfl : q' = q := Fin.ext hi1
  rw [mm3_pay_apply, Cert.Gcn.mm_ix2]
  refine Finset.sum_congr rfl fun k _ => ?_
  rw [h0 p k r hi0, h1 k q']

/-- The printed index maps over the 25 grid points: the left and result windows sit at block row t, the right
    window at its one block. -/
theorem mm3_idx : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is block t of the whole product of the two arrays the region was given. -/
theorem mm3_flushed (c : Dev nD) (t : Fin cfg3.N) :
    (dat3 (F := Ideal) V c).flushed 2 t = ((cfg3.win 2).blk t).view.read (Elt Ideal)
      (Cert.Gcn.mm (V c (Pipeline.arrRef spec3 0)) (V c (Pipeline.arrRef spec3 1))) := by
  show (cfg3.win 2).cut (grid3.coords t) ((dat3 V c).after 2 t) = _
  rw [after3_2]
  unfold out3_2
  rw [View.canon_unit_zero mm3_hz]
  simp only [View.ld_unit_zero (S := S2000x128) mm3_hz, View.ld_unit_zero (S := S128x256) mm3_hz]
  obtain ⟨e00, e01, e10, e11, e20, e21⟩ := mm3_idx t
  funext j
  refine mm3_pay_rows (V c (Pipeline.arrRef spec3 0)) (V c (Pipeline.arrRef spec3 1))
    (iblk3 V c 0 t) (iblk3 V c 1 t) t.val ?_ ?_ j (((cfg3.win 2).blk t).view.emb j) ?_ ?_
  · intro p k r hr
    show V c (Pipeline.arrRef spec3 0) (((cfg3.win 0).blk t).view.emb (ix2 p k)) = V c (Pipeline.arrRef spec3 0) (ix2 r k)
    refine congrArg _ (funext fun a => Fin.ext ?_)
    match a with
    | ⟨0, _⟩ => show win3_0.index t (0 : Fin 2) * 2000 + 1 * p.val = r.val; rw [e00, hr]; omega
    | ⟨1, _⟩ => show win3_0.index t (1 : Fin 2) * 128 + 1 * k.val = k.val; rw [e01]; omega
  · intro k q
    show V c (Pipeline.arrRef spec3 1) (((cfg3.win 1).blk t).view.emb (ix2 k q)) = V c (Pipeline.arrRef spec3 1) (ix2 k q)
    refine congrArg _ (funext fun a => Fin.ext ?_)
    match a with
    | ⟨0, _⟩ => show win3_1.index t (0 : Fin 2) * 128 + 1 * k.val = k.val; rw [e10]; omega
    | ⟨1, _⟩ => show win3_1.index t (1 : Fin 2) * 256 + 1 * q.val = q.val; rw [e11]; omega
  · show win3_2.index t (0 : Fin 2) * 2000 + 1 * (j 0).val = t.val * 2000 + (j 0).val; rw [e20]; omega
  · show win3_2.index t (1 : Fin 2) * 256 + 1 * (j 1).val = (j 1).val; rw [e21]; omega

/-- An index of the result array is in point t's block iff each coordinate is in the block's range on its axis. -/
theorem mm3_mem_blk (t : Fin cfg3.N) (i : S50000x256.Idx) :
    i ∈ ((cfg3.win 2).blk t).view.set ↔ ∀ a : Fin 2, win3_2.index t a * S2000x256.size a ≤ (i a).val ∧ (i a).val < win3_2.index t a * S2000x256.size a + S2000x256.size a := by
  show i ∈ ((View.whole (Pipeline.arrRef spec3 2)).slice (win3_2.rect t)).set ↔ _
  rw [View.set_slice_whole, Rect.mem_set_unit]
  exact Iff.rfl

/-- Every row of the result is in the block of the point (row / 2000). -/
theorem mm3_cover (i : S50000x256.Idx) :
    ∃ t : Fin cfg3.N, (cfg3.win 2).flush t = true ∧ i ∈ ((cfg3.win 2).blk t).view.set := by
  have hi0 : (i 0).val < 50000 := (i 0).isLt
  have hi1 : (i 1).val < 256 := (i 1).isLt
  have hN : cfg3.N = 25 := N_3
  obtain ⟨t, ht⟩ : ∃ t : Fin cfg3.N, t.val = (i 0).val / 2000 := ⟨⟨(i 0).val / 2000, by rw [hN]; omega⟩, rfl⟩
  obtain ⟨e00, e01, e10, e11, e20, e21⟩ := mm3_idx t
  refine ⟨t, flush3_2 t, ?_⟩
  rw [mm3_mem_blk]
  intro a
  match a with
  | ⟨0, _⟩ => show win3_2.index t (0 : Fin 2) * 2000 ≤ (i 0).val ∧ (i 0).val < win3_2.index t (0 : Fin 2) * 2000 + 2000; rw [e20, ht]; omega
  | ⟨1, _⟩ => show win3_2.index t (1 : Fin 2) * 256 ≤ (i 1).val ∧ (i 1).val < win3_2.index t (1 : Fin 2) * 256 + 256; rw [e21]; omega

/-- THE ARRAY after region 3: the matrix product of the two arrays the region was given. -/
theorem mm3 (c : Dev nD) :
    (dat3 (F := Ideal) V c).arrAt 2 cfg3.N
      = Cert.Gcn.mm (V c (Pipeline.arrRef spec3 0)) (V c (Pipeline.arrRef spec3 1)) :=
  (dat3 (F := Ideal) V c).arrAt_eq_of_cover 2 _ (fun t _ => mm3_flushed V c t) mm3_cover

end Cert.KernelIdeal.RegVal

end
-- ==== Proof.RegMM6.lean ====
/-
  One row-tiled matrix product, region 6 of the kernel program: the [50000, 64] array it leaves is the
  matrix product of the [50000, 256] array and the [256, 64] array it was given.

  The rows are cut into 25 blocks of 2000. At block t the body multiplies rows 2000·t … 2000·t + 1999 of the left
  array by the whole right array, starting from a zero accumulator, so entry (p, q) of the block it stores is the
  sum over k of left (2000·t + p, k) · right (k, q): the entry (2000·t + p, q) of the whole product. The 25 blocks
  are written back to rows 2000·t … of the result and together cover every row.
-/
import proofs.«106426_j33148557590872_1_alg».proof.Proof.Gen.KernelIdeal.Frame
import proofs.«106426_j33148557590872_1_alg».proof.Proof.GcnSpec
import proofs.«106426_j33148557590872_1_alg».proof.Proof.LibPlainDot
import Idealize.ShloMosaic.Lib.Pipeline.Value

noncomputable section

namespace Cert.KernelIdeal.RegVal

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-buffer access. -/
theorem mm6_hz : (![0, 0] : Fin 2 → Nat) = fun _ => 0 := funext fun a => by fin_cases a <;> rfl

/-- The body's stored value at (p, q): the sum over k of left (p, k) · right (k, q). -/
theorem mm6_pay_apply (x0 : Vec Ideal S2000x256 .f32) (x1 : Vec Ideal S256x64 .f32) (p : Fin 2000) (q : Fin 64) :
    k6_pay1 x0 x1 (ix2 p q) = ∑ k : Fin 256, x0 (ix2 p k) * x1 (ix2 k q) := by
  unfold k6_pay1
  rw [shapeCast_self]
  exact Cert.Lib.matmul_zero_apply (dot_S2000x256_S256x64_S2000x64_1_0_0_1_n_n).wf none x0 x1 p q

/-- The stored value of a block whose left operand is rows n·2000 … of A0 and whose right operand is A1, at the
    block coordinate y, is the whole product's entry at the array index i that y sits at. -/
theorem mm6_pay_rows (A0 : Cert.Gcn.Mat 50000 256) (A1 : Cert.Gcn.Mat 256 64)
    (x0 : Vec Ideal S2000x256 .f32) (x1 : Vec Ideal S256x64 .f32) (n : Nat)
    (h0 : ∀ (p : Fin 2000) (k : Fin 256) (r : Fin 50000), r.val = n * 2000 + p.val → x0 (ix2 p k) = A0 (ix2 r k))
    (h1 : ∀ (k : Fin 256) (q : Fin 64), x1 (ix2 k q) = A1 (ix2 k q))
    (y : S2000x64.Idx) (i : S50000x64.Idx)
    (hi0 : (i 0).val = n * 2000 + (y 0).val) (hi1 : (i 1).val = (y 1).val) :
    k6_pay1 x0 x1 y = Cert.Gcn.mm A0 A1 i := by
  obtain ⟨p, q, rfl⟩ : ∃ (p : Fin 2000) (q : Fin 64), y = ix2 p q := ⟨y 0, y 1, eq_ix2 y⟩
  obtain ⟨r, q', rfl⟩ : ∃ (r : Fin 50000) (q' : Fin 64), i = ix2 r q' := ⟨i 0, i 1, eq_ix2 i⟩
  obtain rfl : q' = q := Fin.ext hi1
  rw [mm6_pay_apply, Cert.Gcn.mm_ix2]
  refine Finset.sum_congr rfl fun k _ => ?_
  rw [h0 p k r hi0, h1 k q']

/-- The printed index maps over the 25 grid points: the left and result windows sit at block row t, the right
    window at its one block. -/
theorem mm6_idx : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- What point t writes back is block t of the whole product of the two arrays the region was given. -/
theorem mm6_flushed (c : Dev nD) (t : Fin cfg6.N) :
    (dat6 (F := Ideal) V c).flushed 2 t = ((cfg6.win 2).blk t).view.read (Elt Ideal)
      (Cert.Gcn.mm (V c (Pipeline.arrRef spec6 0)) (V c (Pipeline.arrRef spec6 1))) := by
  show (cfg6.win 2).cut (grid6.coords t) ((dat6 V c).after 2 t) = _
  rw [after6_2]
  unfold out6_2
  rw [View.canon_unit_zero mm6_hz]
  simp only [View.ld_unit_zero (S := S2000x256) mm6_hz, View.ld_unit_zero (S := S256x64) mm6_hz]
  obtain ⟨e00, e01, e10, e11, e20, e21⟩ := mm6_idx t
  funext j
  refine mm6_pay_rows (V c (Pipeline.arrRef spec6 0)) (V c (Pipeline.arrRef spec6 1))
    (iblk6 V c 0 t) (iblk6 V c 1 t) t.val ?_ ?_ j (((cfg6.win 2).blk t).view.emb j) ?_ ?_
  · intro p k r hr
    show V c (Pipeline.arrRef spec6 0) (((cfg6.win 0).blk t).view.emb (ix2 p k)) = V c (Pipeline.arrRef spec6 0) (ix2 r k)
    refine congrArg _ (funext fun a => Fin.ext ?_)
    match a with
    | ⟨0, _⟩ => show win6_0.index t (0 : Fin 2) * 2000 + 1 * p.val = r.val; rw [e00, hr]; omega
    | ⟨1, _⟩ => show win6_0.index t (1 : Fin 2) * 256 + 1 * k.val = k.val; rw [e01]; omega
  · intro k q
    show V c (Pipeline.arrRef spec6 1) (((cfg6.win 1).blk t).view.emb (ix2 k q)) = V c (Pipeline.arrRef spec6 1) (ix2 k q)
    refine congrArg _ (funext fun a => Fin.ext ?_)
    match a with
    | ⟨0, _⟩ => show win6_1.index t (0 : Fin 2) * 256 + 1 * k.val = k.val; rw [e10]; omega
    | ⟨1, _⟩ => show win6_1.index t (1 : Fin 2) * 64 + 1 * q.val = q.val; rw [e11]; omega
  · show win6_2.index t (0 : Fin 2) * 2000 + 1 * (j 0).val = t.val * 2000 + (j 0).val; rw [e20]; omega
  · show win6_2.index t (1 : Fin 2) * 64 + 1 * (j 1).val = (j 1).val; rw [e21]; omega

/-- An index of the result array is in point t's block iff each coordinate is in the block's range on its axis. -/
theorem mm6_mem_blk (t : Fin cfg6.N) (i : S50000x64.Idx) :
    i ∈ ((cfg6.win 2).blk t).view.set ↔ ∀ a : Fin 2, win6_2.index t a * S2000x64.size a ≤ (i a).val ∧ (i a).val < win6_2.index t a * S2000x64.size a + S2000x64.size a := by
  show i ∈ ((View.whole (Pipeline.arrRef spec6 2)).slice (win6_2.rect t)).set ↔ _
  rw [View.set_slice_whole, Rect.mem_set_unit]
  exact Iff.rfl

/-- Every row of the result is in the block of the point (row / 2000). -/
theorem mm6_cover (i : S50000x64.Idx) :
    ∃ t : Fin cfg6.N, (cfg6.win 2).flush t = true ∧ i ∈ ((cfg6.win 2).blk t).view.set := by
  have hi0 : (i 0).val < 50000 := (i 0).isLt
  have hi1 : (i 1).val < 64 := (i 1).isLt
  have hN : cfg6.N = 25 := N_6
  obtain ⟨t, ht⟩ : ∃ t : Fin cfg6.N, t.val = (i 0).val / 2000 := ⟨⟨(i 0).val / 2000, by rw [hN]; omega⟩, rfl⟩
  obtain ⟨e00, e01, e10, e11, e20, e21⟩ := mm6_idx t
  refine ⟨t, flush6_2 t, ?_⟩
  rw [mm6_mem_blk]
  intro a
  match a with
  | ⟨0, _⟩ => show win6_2.index t (0 : Fin 2) * 2000 ≤ (i 0).val ∧ (i 0).val < win6_2.index t (0 : Fin 2) * 2000 + 2000; rw [e20, ht]; omega
  | ⟨1, _⟩ => show win6_2.index t (1 : Fin 2) * 64 ≤ (i 1).val ∧ (i 1).val < win6_2.index t (1 : Fin 2) * 64 + 64; rw [e21]; omega

/-- THE ARRAY after region 6: the matrix product of the two arrays the region was given. -/
theorem mm6 (c : Dev nD) :
    (dat6 (F := Ideal) V c).arrAt 2 cfg6.N
      = Cert.Gcn.mm (V c (Pipeline.arrRef spec6 0)) (V c (Pipeline.arrRef spec6 1)) :=
  (dat6 (F := Ideal) V c).arrAt_eq_of_cover 2 _ (fun t _ => mm6_flushed V c t) mm6_cover

end Cert.KernelIdeal.RegVal

end
-- ==== Proof.RegMM8.lean ====
/-
  One row-tiled matrix product, region 8 of the kernel program: the [50000, 128] array it leaves is the
  matrix product of the [50000, 64] array and the [64, 128] array it was given.

  The rows are cut into 25 blocks of 2000. At block t the body multiplies rows 2000·t … 2000·t + 1999 of the left
  array by the whole right array, starting from a zero accumulator, so entry (p, q) of the block it stores is the
  sum over k of left (2000·t + p, k) · right (k, q): the entry (2000·t + p, q) of the whole product. The 25 blocks
  are written back to rows 2000·t … of the result and together cover every row.
-/
import proofs.«106426_j33148557590872_1_alg».proof.Proof.Gen.KernelIdeal.Frame
import proofs.«106426_j33148557590872_1_alg».proof.Proof.GcnSpec
import proofs.«106426_j33148557590872_1_alg».proof.Proof.LibPlainDot
import Idealize.ShloMosaic.Lib.Pipeline.Value

noncomputable section

namespace Cert.KernelIdeal.RegVal

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-buffer access. -/
theorem mm8_hz : (![0, 0] : Fin 2 → Nat) = fun _ => 0 := funext fun a => by fin_cases a <;> rfl

/-- The body's stored value at (p, q): the sum over k of left (p, k) · right (k, q). -/
theorem mm8_pay_apply (x0 : Vec Ideal S2000x64 .f32) (x1 : Vec Ideal S64x128 .f32) (p : Fin 2000) (q : Fin 128) :
    k8_pay1 x0 x1 (ix2 p q) = ∑ k : Fin 64, x0 (ix2 p k) * x1 (ix2 k q) := by
  unfold k8_pay1
  exact Cert.Lib.matmul_zero_apply (dot_S2000x64_S64x128_S2000x128_1_0_0_1_n_n).wf none x0 x1 p q

/-- The stored value of a block whose left operand is rows n·2000 … of A0 and whose right operand is A1, at the
    block coordinate y, is the whole product's entry at the array index i that y sits at. -/
theorem mm8_pay_rows (A0 : Cert.Gcn.Mat 50000 64) (A1 : Cert.Gcn.Mat 64 128)
    (x0 : Vec Ideal S2000x64 .f32) (x1 : Vec Ideal S64x128 .f32) (n : Nat)
    (h0 : ∀ (p : Fin 2000) (k : Fin 64) (r : Fin 50000), r.val = n * 2000 + p.val → x0 (ix2 p k) = A0 (ix2 r k))
    (h1 : ∀ (k : Fin 64) (q : Fin 128), x1 (ix2 k q) = A1 (ix2 k q))
    (y : S2000x128.Idx) (i : S50000x128.Idx)
    (hi0 : (i 0).val = n * 2000 + (y 0).val) (hi1 : (i 1).val = (y 1).val) :
    k8_pay1 x0 x1 y = Cert.Gcn.mm A0 A1 i := by
  obtain ⟨p, q, rfl⟩ : ∃ (p : Fin 2000) (q : Fin 128), y = ix2 p q := ⟨y 0, y 1, eq_ix2 y⟩
  obtain ⟨r, q', rfl⟩ : ∃ (r : Fin 50000) (q' : Fin 128), i = ix2 r q' := ⟨i 0, i 1, eq_ix2 i⟩
  obtain rfl : q' = q := Fin.ext hi1
  rw [mm8_pay_apply, Cert.Gcn.mm_ix2]
  refine Finset.sum_congr rfl fun k _ => ?_
  rw [h0 p k r hi0, h1 k q']

/-- The printed index maps over the 25 grid points: the left and result windows sit at block row t, the right
    window at its one block. -/
theorem mm8_idx : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = t.val ∧ win8_2.index t (1 : Fin 2) = 0 :=
  (by decide +kernel : ∀ t : Fin grid8.N, _)

/-- What point t writes back is block t of the whole product of the two arrays the region was given. -/
theorem mm8_flushed (c : Dev nD) (t : Fin cfg8.N) :
    (dat8 (F := Ideal) V c).flushed 2 t = ((cfg8.win 2).blk t).view.read (Elt Ideal)
      (Cert.Gcn.mm (V c (Pipeline.arrRef spec8 0)) (V c (Pipeline.arrRef spec8 1))) := by
  show (cfg8.win 2).cut (grid8.coords t) ((dat8 V c).after 2 t) = _
  rw [after8_2]
  unfold out8_2
  rw [View.canon_unit_zero mm8_hz]
  simp only [View.ld_unit_zero (S := S2000x64) mm8_hz, View.ld_unit_zero (S := S64x128) mm8_hz]
  obtain ⟨e00, e01, e10, e11, e20, e21⟩ := mm8_idx t
  funext j
  refine mm8_pay_rows (V c (Pipeline.arrRef spec8 0)) (V c (Pipeline.arrRef spec8 1))
    (iblk8 V c 0 t) (iblk8 V c 1 t) t.val ?_ ?_ j (((cfg8.win 2).blk t).view.emb j) ?_ ?_
  · intro p k r hr
    show V c (Pipeline.arrRef spec8 0) (((cfg8.win 0).blk t).view.emb (ix2 p k)) = V c (Pipeline.arrRef spec8 0) (ix2 r k)
    refine congrArg _ (funext fun a => Fin.ext ?_)
    match a with
    | ⟨0, _⟩ => show win8_0.index t (0 : Fin 2) * 2000 + 1 * p.val = r.val; rw [e00, hr]; omega
    | ⟨1, _⟩ => show win8_0.index t (1 : Fin 2) * 64 + 1 * k.val = k.val; rw [e01]; omega
  · intro k q
    show V c (Pipeline.arrRef spec8 1) (((cfg8.win 1).blk t).view.emb (ix2 k q)) = V c (Pipeline.arrRef spec8 1) (ix2 k q)
    refine congrArg _ (funext fun a => Fin.ext ?_)
    match a with
    | ⟨0, _⟩ => show win8_1.index t (0 : Fin 2) * 64 + 1 * k.val = k.val; rw [e10]; omega
    | ⟨1, _⟩ => show win8_1.index t (1 : Fin 2) * 128 + 1 * q.val = q.val; rw [e11]; omega
  · show win8_2.index t (0 : Fin 2) * 2000 + 1 * (j 0).val = t.val * 2000 + (j 0).val; rw [e20]; omega
  · show win8_2.index t (1 : Fin 2) * 128 + 1 * (j 1).val = (j 1).val; rw [e21]; omega

/-- An index of the result array is in point t's block iff each coordinate is in the block's range on its axis. -/
theorem mm8_mem_blk (t : Fin cfg8.N) (i : S50000x128.Idx) :
    i ∈ ((cfg8.win 2).blk t).view.set ↔ ∀ a : Fin 2, win8_2.index t a * S2000x128.size a ≤ (i a).val ∧ (i a).val < win8_2.index t a * S2000x128.size a + S2000x128.size a := by
  show i ∈ ((View.whole (Pipeline.arrRef spec8 2)).slice (win8_2.rect t)).set ↔ _
  rw [View.set_slice_whole, Rect.mem_set_unit]
  exact Iff.rfl

/-- Every row of the result is in the block of the point (row / 2000). -/
theorem mm8_cover (i : S50000x128.Idx) :
    ∃ t : Fin cfg8.N, (cfg8.win 2).flush t = true ∧ i ∈ ((cfg8.win 2).blk t).view.set := by
  have hi0 : (i 0).val < 50000 := (i 0).isLt
  have hi1 : (i 1).val < 128 := (i 1).isLt
  have hN : cfg8.N = 25 := N_8
  obtain ⟨t, ht⟩ : ∃ t : Fin cfg8.N, t.val = (i 0).val / 2000 := ⟨⟨(i 0).val / 2000, by rw [hN]; omega⟩, rfl⟩
  obtain ⟨e00, e01, e10, e11, e20, e21⟩ := mm8_idx t
  refine ⟨t, flush8_2 t, ?_⟩
  rw [mm8_mem_blk]
  intro a
  match a with
  | ⟨0, _⟩ => show win8_2.index t (0 : Fin 2) * 2000 ≤ (i 0).val ∧ (i 0).val < win8_2.index t (0 : Fin 2) * 2000 + 2000; rw [e20, ht]; omega
  | ⟨1, _⟩ => show win8_2.index t (1 : Fin 2) * 128 ≤ (i 1).val ∧ (i 1).val < win8_2.index t (1 : Fin 2) * 128 + 128; rw [e21]; omega

/-- THE ARRAY after region 8: the matrix product of the two arrays the region was given. -/
theorem mm8 (c : Dev nD) :
    (dat8 (F := Ideal) V c).arrAt 2 cfg8.N
      = Cert.Gcn.mm (V c (Pipeline.arrRef spec8 0)) (V c (Pipeline.arrRef spec8 1)) :=
  (dat8 (F := Ideal) V c).arrAt_eq_of_cover 2 _ (fun t _ => mm8_flushed V c t) mm8_cover

end Cert.KernelIdeal.RegVal

end
-- ==== Proof.RegMM11.lean ====
/-
  One row-tiled matrix product, region 11 of the kernel program: the [50000, 256] array it leaves is the
  matrix product of the [50000, 128] array and the [128, 256] array it was given.

  The rows are cut into 25 blocks of 2000. At block t the body multiplies rows 2000·t … 2000·t + 1999 of the left
  array by the whole right array, starting from a zero accumulator, so entry (p, q) of the block it stores is the
  sum over k of left (2000·t + p, k) · right (k, q): the entry (2000·t + p, q) of the whole product. The 25 blocks
  are written back to rows 2000·t … of the result and together cover every row.
-/
import proofs.«106426_j33148557590872_1_alg».proof.Proof.Gen.KernelIdeal.Frame
import proofs.«106426_j33148557590872_1_alg».proof.Proof.GcnSpec
import proofs.«106426_j33148557590872_1_alg».proof.Proof.LibPlainDot
import Idealize.ShloMosaic.Lib.Pipeline.Value

noncomputable section

namespace Cert.KernelIdeal.RegVal

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-buffer access. -/
theorem mm11_hz : (![0, 0] : Fin 2 → Nat) = fun _ => 0 := funext fun a => by fin_cases a <;> rfl

/-- The body's stored value at (p, q): the sum over k of left (p, k) · right (k, q). -/
theorem mm11_pay_apply (x0 : Vec Ideal S2000x128 .f32) (x1 : Vec Ideal S128x256 .f32) (p : Fin 2000) (q : Fin 256) :
    k11_pay1 x0 x1 (ix2 p q) = ∑ k : Fin 128, x0 (ix2 p k) * x1 (ix2 k q) := by
  unfold k11_pay1
  rw [shapeCast_self]
  exact Cert.Lib.matmul_zero_apply (dot_S2000x128_S128x256_S2000x256_1_0_0_1_n_n).wf none x0 x1 p q

/-- The stored value of a block whose left operand is rows n·2000 … of A0 and whose right operand is A1, at the
    block coordinate y, is the whole product's entry at the array index i that y sits at. -/
theorem mm11_pay_rows (A0 : Cert.Gcn.Mat 50000 128) (A1 : Cert.Gcn.Mat 128 256)
    (x0 : Vec Ideal S2000x128 .f32) (x1 : Vec Ideal S128x256 .f32) (n : Nat)
    (h0 : ∀ (p : Fin 2000) (k : Fin 128) (r : Fin 50000), r.val = n * 2000 + p.val → x0 (ix2 p k) = A0 (ix2 r k))
    (h1 : ∀ (k : Fin 128) (q : Fin 256), x1 (ix2 k q) = A1 (ix2 k q))
    (y : S2000x256.Idx) (i : S50000x256.Idx)
    (hi0 : (i 0).val = n * 2000 + (y 0).val) (hi1 : (i 1).val = (y 1).val) :
    k11_pay1 x0 x1 y = Cert.Gcn.mm A0 A1 i := by
  obtain ⟨p, q, rfl⟩ : ∃ (p : Fin 2000) (q : Fin 256), y = ix2 p q := ⟨y 0, y 1, eq_ix2 y⟩
  obtain ⟨r, q', rfl⟩ : ∃ (r : Fin 50000) (q' : Fin 256), i = ix2 r q' := ⟨i 0, i 1, eq_ix2 i⟩
  obtain rfl : q' = q := Fin.ext hi1
  rw [mm11_pay_apply, Cert.Gcn.mm_ix2]
  refine Finset.sum_congr rfl fun k _ => ?_
  rw [h0 p k r hi0, h1 k q']

/-- The printed index maps over the 25 grid points: the left and result windows sit at block row t, the right
    window at its one block. -/
theorem mm11_idx : ∀ t : Fin cfg11.N, win11_0.index t (0 : Fin 2) = t.val ∧ win11_0.index t (1 : Fin 2) = 0
    ∧ win11_1.index t (0 : Fin 2) = 0 ∧ win11_1.index t (1 : Fin 2) = 0
    ∧ win11_2.index t (0 : Fin 2) = t.val ∧ win11_2.index t (1 : Fin 2) = 0 :=
  (by decide +kernel : ∀ t : Fin grid11.N, _)

/-- What point t writes back is block t of the whole product of the two arrays the region was given. -/
theorem mm11_flushed (c : Dev nD) (t : Fin cfg11.N) :
    (dat11 (F := Ideal) V c).flushed 2 t = ((cfg11.win 2).blk t).view.read (Elt Ideal)
      (Cert.Gcn.mm (V c (Pipeline.arrRef spec11 0)) (V c (Pipeline.arrRef spec11 1))) := by
  show (cfg11.win 2).cut (grid11.coords t) ((dat11 V c).after 2 t) = _
  rw [after11_2]
  unfold out11_2
  rw [View.canon_unit_zero mm11_hz]
  simp only [View.ld_unit_zero (S := S2000x128) mm11_hz, View.ld_unit_zero (S := S128x256) mm11_hz]
  obtain ⟨e00, e01, e10, e11, e20, e21⟩ := mm11_idx t
  funext j
  refine mm11_pay_rows (V c (Pipeline.arrRef spec11 0)) (V c (Pipeline.arrRef spec11 1))
    (iblk11 V c 0 t) (iblk11 V c 1 t) t.val ?_ ?_ j (((cfg11.win 2).blk t).view.emb j) ?_ ?_
  · intro p k r hr
    show V c (Pipeline.arrRef spec11 0) (((cfg11.win 0).blk t).view.emb (ix2 p k)) = V c (Pipeline.arrRef spec11 0) (ix2 r k)
    refine congrArg _ (funext fun a => Fin.ext ?_)
    match a with
    | ⟨0, _⟩ => show win11_0.index t (0 : Fin 2) * 2000 + 1 * p.val = r.val; rw [e00, hr]; omega
    | ⟨1, _⟩ => show win11_0.index t (1 : Fin 2) * 128 + 1 * k.val = k.val; rw [e01]; omega
  · intro k q
    show V c (Pipeline.arrRef spec11 1) (((cfg11.win 1).blk t).view.emb (ix2 k q)) = V c (Pipeline.arrRef spec11 1) (ix2 k q)
    refine congrArg _ (funext fun a => Fin.ext ?_)
    match a with
    | ⟨0, _⟩ => show win11_1.index t (0 : Fin 2) * 128 + 1 * k.val = k.val; rw [e10]; omega
    | ⟨1, _⟩ => show win11_1.index t (1 : Fin 2) * 256 + 1 * q.val = q.val; rw [e11]; omega
  · show win11_2.index t (0 : Fin 2) * 2000 + 1 * (j 0).val = t.val * 2000 + (j 0).val; rw [e20]; omega
  · show win11_2.index t (1 : Fin 2) * 256 + 1 * (j 1).val = (j 1).val; rw [e21]; omega

/-- An index of the result array is in point t's block iff each coordinate is in the block's range on its axis. -/
theorem mm11_mem_blk (t : Fin cfg11.N) (i : S50000x256.Idx) :
    i ∈ ((cfg11.win 2).blk t).view.set ↔ ∀ a : Fin 2, win11_2.index t a * S2000x256.size a ≤ (i a).val ∧ (i a).val < win11_2.index t a * S2000x256.size a + S2000x256.size a := by
  show i ∈ ((View.whole (Pipeline.arrRef spec11 2)).slice (win11_2.rect t)).set ↔ _
  rw [View.set_slice_whole, Rect.mem_set_unit]
  exact Iff.rfl

/-- Every row of the result is in the block of the point (row / 2000). -/
theorem mm11_cover (i : S50000x256.Idx) :
    ∃ t : Fin cfg11.N, (cfg11.win 2).flush t = true ∧ i ∈ ((cfg11.win 2).blk t).view.set := by
  have hi0 : (i 0).val < 50000 := (i 0).isLt
  have hi1 : (i 1).val < 256 := (i 1).isLt
  have hN : cfg11.N = 25 := N_11
  obtain ⟨t, ht⟩ : ∃ t : Fin cfg11.N, t.val = (i 0).val / 2000 := ⟨⟨(i 0).val / 2000, by rw [hN]; omega⟩, rfl⟩
  obtain ⟨e00, e01, e10, e11, e20, e21⟩ := mm11_idx t
  refine ⟨t, flush11_2 t, ?_⟩
  rw [mm11_mem_blk]
  intro a
  match a with
  | ⟨0, _⟩ => show win11_2.index t (0 : Fin 2) * 2000 ≤ (i 0).val ∧ (i 0).val < win11_2.index t (0 : Fin 2) * 2000 + 2000; rw [e20, ht]; omega
  | ⟨1, _⟩ => show win11_2.index t (1 : Fin 2) * 256 ≤ (i 1).val ∧ (i 1).val < win11_2.index t (1 : Fin 2) * 256 + 256; rw [e21]; omega

/-- THE ARRAY after region 11: the matrix product of the two arrays the region was given. -/
theorem mm11 (c : Dev nD) :
    (dat11 (F := Ideal) V c).arrAt 2 cfg11.N
      = Cert.Gcn.mm (V c (Pipeline.arrRef spec11 0)) (V c (Pipeline.arrRef spec11 1)) :=
  (dat11 (F := Ideal) V c).arrAt_eq_of_cover 2 _ (fun t _ => mm11_flushed V c t) mm11_cover

end Cert.KernelIdeal.RegVal

end
-- ==== Proof.RegMM14.lean ====
/-
  One row-tiled matrix product, region 14 of the kernel program: the [50000, 64] array it leaves is the
  matrix product of the [50000, 256] array and the [256, 64] array it was given.

  The rows are cut into 25 blocks of 2000. At block t the body multiplies rows 2000·t … 2000·t + 1999 of the left
  array by the whole right array, starting from a zero accumulator, so entry (p, q) of the block it stores is the
  sum over k of left (2000·t + p, k) · right (k, q): the entry (2000·t + p, q) of the whole product. The 25 blocks
  are written back to rows 2000·t … of the result and together cover every row.
-/
import proofs.«106426_j33148557590872_1_alg».proof.Proof.Gen.KernelIdeal.Frame
import proofs.«106426_j33148557590872_1_alg».proof.Proof.GcnSpec
import proofs.«106426_j33148557590872_1_alg».proof.Proof.LibPlainDot
import Idealize.ShloMosaic.Lib.Pipeline.Value

noncomputable section

namespace Cert.KernelIdeal.RegVal

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-buffer access. -/
theorem mm14_hz : (![0, 0] : Fin 2 → Nat) = fun _ => 0 := funext fun a => by fin_cases a <;> rfl

/-- The body's stored value at (p, q): the sum over k of left (p, k) · right (k, q). -/
theorem mm14_pay_apply (x0 : Vec Ideal S2000x256 .f32) (x1 : Vec Ideal S256x64 .f32) (p : Fin 2000) (q : Fin 64) :
    k14_pay1 x0 x1 (ix2 p q) = ∑ k : Fin 256, x0 (ix2 p k) * x1 (ix2 k q) := by
  unfold k14_pay1
  rw [shapeCast_self]
  exact Cert.Lib.matmul_zero_apply (dot_S2000x256_S256x64_S2000x64_1_0_0_1_n_n).wf none x0 x1 p q

/-- The stored value of a block whose left operand is rows n·2000 … of A0 and whose right operand is A1, at the
    block coordinate y, is the whole product's entry at the array index i that y sits at. -/
theorem mm14_pay_rows (A0 : Cert.Gcn.Mat 50000 256) (A1 : Cert.Gcn.Mat 256 64)
    (x0 : Vec Ideal S2000x256 .f32) (x1 : Vec Ideal S256x64 .f32) (n : Nat)
    (h0 : ∀ (p : Fin 2000) (k : Fin 256) (r : Fin 50000), r.val = n * 2000 + p.val → x0 (ix2 p k) = A0 (ix2 r k))
    (h1 : ∀ (k : Fin 256) (q : Fin 64), x1 (ix2 k q) = A1 (ix2 k q))
    (y : S2000x64.Idx) (i : S50000x64.Idx)
    (hi0 : (i 0).val = n * 2000 + (y 0).val) (hi1 : (i 1).val = (y 1).val) :
    k14_pay1 x0 x1 y = Cert.Gcn.mm A0 A1 i := by
  obtain ⟨p, q, rfl⟩ : ∃ (p : Fin 2000) (q : Fin 64), y = ix2 p q := ⟨y 0, y 1, eq_ix2 y⟩
  obtain ⟨r, q', rfl⟩ : ∃ (r : Fin 50000) (q' : Fin 64), i = ix2 r q' := ⟨i 0, i 1, eq_ix2 i⟩
  obtain rfl : q' = q := Fin.ext hi1
  rw [mm14_pay_apply, Cert.Gcn.mm_ix2]
  refine Finset.sum_congr rfl fun k _ => ?_
  rw [h0 p k r hi0, h1 k q']

/-- The printed index maps over the 25 grid points: the left and result windows sit at block row t, the right
    window at its one block. -/
theorem mm14_idx : ∀ t : Fin cfg14.N, win14_0.index t (0 : Fin 2) = t.val ∧ win14_0.index t (1 : Fin 2) = 0
    ∧ win14_1.index t (0 : Fin 2) = 0 ∧ win14_1.index t (1 : Fin 2) = 0
    ∧ win14_2.index t (0 : Fin 2) = t.val ∧ win14_2.index t (1 : Fin 2) = 0 :=
  (by decide +kernel : ∀ t : Fin grid14.N, _)

/-- What point t writes back is block t of the whole product of the two arrays the region was given. -/
theorem mm14_flushed (c : Dev nD) (t : Fin cfg14.N) :
    (dat14 (F := Ideal) V c).flushed 2 t = ((cfg14.win 2).blk t).view.read (Elt Ideal)
      (Cert.Gcn.mm (V c (Pipeline.arrRef spec14 0)) (V c (Pipeline.arrRef spec14 1))) := by
  show (cfg14.win 2).cut (grid14.coords t) ((dat14 V c).after 2 t) = _
  rw [after14_2]
  unfold out14_2
  rw [View.canon_unit_zero mm14_hz]
  simp only [View.ld_unit_zero (S := S2000x256) mm14_hz, View.ld_unit_zero (S := S256x64) mm14_hz]
  obtain ⟨e00, e01, e10, e11, e20, e21⟩ := mm14_idx t
  funext j
  refine mm14_pay_rows (V c (Pipeline.arrRef spec14 0)) (V c (Pipeline.arrRef spec14 1))
    (iblk14 V c 0 t) (iblk14 V c 1 t) t.val ?_ ?_ j (((cfg14.win 2).blk t).view.emb j) ?_ ?_
  · intro p k r hr
    show V c (Pipeline.arrRef spec14 0) (((cfg14.win 0).blk t).view.emb (ix2 p k)) = V c (Pipeline.arrRef spec14 0) (ix2 r k)
    refine congrArg _ (funext fun a => Fin.ext ?_)
    match a with
    | ⟨0, _⟩ => show win14_0.index t (0 : Fin 2) * 2000 + 1 * p.val = r.val; rw [e00, hr]; omega
    | ⟨1, _⟩ => show win14_0.index t (1 : Fin 2) * 256 + 1 * k.val = k.val; rw [e01]; omega
  · intro k q
    show V c (Pipeline.arrRef spec14 1) (((cfg14.win 1).blk t).view.emb (ix2 k q)) = V c (Pipeline.arrRef spec14 1) (ix2 k q)
    refine congrArg _ (funext fun a => Fin.ext ?_)
    match a with
    | ⟨0, _⟩ => show win14_1.index t (0 : Fin 2) * 256 + 1 * k.val = k.val; rw [e10]; omega
    | ⟨1, _⟩ => show win14_1.index t (1 : Fin 2) * 64 + 1 * q.val = q.val; rw [e11]; omega
  · show win14_2.index t (0 : Fin 2) * 2000 + 1 * (j 0).val = t.val * 2000 + (j 0).val; rw [e20]; omega
  · show win14_2.index t (1 : Fin 2) * 64 + 1 * (j 1).val = (j 1).val; rw [e21]; omega

/-- An index of the result array is in point t's block iff each coordinate is in the block's range on its axis. -/
theorem mm14_mem_blk (t : Fin cfg14.N) (i : S50000x64.Idx) :
    i ∈ ((cfg14.win 2).blk t).view.set ↔ ∀ a : Fin 2, win14_2.index t a * S2000x64.size a ≤ (i a).val ∧ (i a).val < win14_2.index t a * S2000x64.size a + S2000x64.size a := by
  show i ∈ ((View.whole (Pipeline.arrRef spec14 2)).slice (win14_2.rect t)).set ↔ _
  rw [View.set_slice_whole, Rect.mem_set_unit]
  exact Iff.rfl

/-- Every row of the result is in the block of the point (row / 2000). -/
theorem mm14_cover (i : S50000x64.Idx) :
    ∃ t : Fin cfg14.N, (cfg14.win 2).flush t = true ∧ i ∈ ((cfg14.win 2).blk t).view.set := by
  have hi0 : (i 0).val < 50000 := (i 0).isLt
  have hi1 : (i 1).val < 64 := (i 1).isLt
  have hN : cfg14.N = 25 := N_14
  obtain ⟨t, ht⟩ : ∃ t : Fin cfg14.N, t.val = (i 0).val / 2000 := ⟨⟨(i 0).val / 2000, by rw [hN]; omega⟩, rfl⟩
  obtain ⟨e00, e01, e10, e11, e20, e21⟩ := mm14_idx t
  refine ⟨t, flush14_2 t, ?_⟩
  rw [mm14_mem_blk]
  intro a
  match a with
  | ⟨0, _⟩ => show win14_2.index t (0 : Fin 2) * 2000 ≤ (i 0).val ∧ (i 0).val < win14_2.index t (0 : Fin 2) * 2000 + 2000; rw [e20, ht]; omega
  | ⟨1, _⟩ => show win14_2.index t (1 : Fin 2) * 64 ≤ (i 1).val ∧ (i 1).val < win14_2.index t (1 : Fin 2) * 64 + 64; rw [e21]; omega

/-- THE ARRAY after region 14: the matrix product of the two arrays the region was given. -/
theorem mm14 (c : Dev nD) :
    (dat14 (F := Ideal) V c).arrAt 2 cfg14.N
      = Cert.Gcn.mm (V c (Pipeline.arrRef spec14 0)) (V c (Pipeline.arrRef spec14 1)) :=
  (dat14 (F := Ideal) V c).arrAt_eq_of_cover 2 _ (fun t _ => mm14_flushed V c t) mm14_cover

end Cert.KernelIdeal.RegVal

end
-- ==== Proof.RegPlain7.lean ====
/-
  One row-tiled "combine" step, region 7 of the kernel program: the [50000, 64] array it leaves is, entry by
  entry, (agg + xw · ns) + b, where agg and xw are [50000, 64] arrays, ns is the [50000, 1] column of self-loop
  weights and b the [1, 64] bias row it was given.

  The rows are cut into 25 blocks of 2000. At block t the body reads rows 2000·t … 2000·t + 1999 of agg, xw and
  ns and the whole bias row; it repeats the column entry of row p across that row and the bias entry of column q
  down that column, so entry (p, q) of the block it stores is (agg (r, q) + xw (r, q) · ns (r, 0)) + b (0, q) with
  r = 2000·t + p. The 25 blocks are written back to rows 2000·t … of the result and together cover every row.
-/
import proofs.«106426_j33148557590872_1_alg».proof.Proof.Gen.KernelIdeal.Frame
import proofs.«106426_j33148557590872_1_alg».proof.Proof.GcnSpec
import proofs.«106426_j33148557590872_1_alg».proof.Proof.LibColumn
import Idealize.ShloMosaic.Lib.Pipeline.Value
import Idealize.ShloMosaic.Lib.ValueLayout

noncomputable section

namespace Cert.KernelIdeal.RegVal

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-buffer access. -/
theorem plain7_hz : (![0, 0] : Fin 2 → Nat) = fun _ => 0 := funext fun a => by fin_cases a <;> rfl

/-- The body's stored value at (p, q): (agg (p, q) + xw (p, q) · ns (p, 0)) + b (0, q). -/
theorem plain7_pay_apply (x0 x1 : Vec Ideal S2000x64 .f32) (x2 : Vec Ideal S2000x1 .f32) (x3 : Vec Ideal S1x64 .f32)
    (p : Fin 2000) (q : Fin 64) :
    k7_pay1 x0 x1 x2 x3 (ix2 p q)
      = (x0 (ix2 p q) + x1 (ix2 p q) * x2 (ix2 p (0 : Fin 1))) + x3 (ix2 (0 : Fin 1) q) := by
  unfold k7_pay1
  simp only [shapeCast_self, addf_apply, mulf_apply]
  rw [Cert.Lib.broadcastTo_a1_ab_apply, broadcastTo_1b_ab_apply]

/-- The stored value of a block whose operands are rows n·2000 … of A0, A1 and A2 and the whole row A3, at the
    block coordinate y, is the combined array's entry at the array index i that y sits at. -/
theorem plain7_pay_rows (A0 A1 : Cert.Gcn.Mat 50000 64) (A2 : Cert.Gcn.Mat 50000 1) (A3 : Cert.Gcn.Mat 1 64)
    (x0 x1 : Vec Ideal S2000x64 .f32) (x2 : Vec Ideal S2000x1 .f32) (x3 : Vec Ideal S1x64 .f32) (n : Nat)
    (h0 : ∀ (p : Fin 2000) (q : Fin 64) (r : Fin 50000), r.val = n * 2000 + p.val → x0 (ix2 p q) = A0 (ix2 r q))
    (h1 : ∀ (p : Fin 2000) (q : Fin 64) (r : Fin 50000), r.val = n * 2000 + p.val → x1 (ix2 p q) = A1 (ix2 r q))
    (h2 : ∀ (p : Fin 2000) (r : Fin 50000), r.val = n * 2000 + p.val → x2 (ix2 p (0 : Fin 1)) = A2 (ix2 r (0 : Fin 1)))
    (h3 : ∀ (q : Fin 64), x3 (ix2 (0 : Fin 1) q) = A3 (ix2 (0 : Fin 1) q))
    (y : S2000x64.Idx) (i : S50000x64.Idx)
    (hi0 : (i 0).val = n * 2000 + (y 0).val) (hi1 : (i 1).val = (y 1).val) :
    k7_pay1 x0 x1 x2 x3 y
      = Cert.Gcn.combine A0 A1 (fun p => A2 (ix2 p (0 : Fin 1))) (fun q => A3 (ix2 (0 : Fin 1) q)) i := by
  obtain ⟨p, q, rfl⟩ : ∃ (p : Fin 2000) (q : Fin 64), y = ix2 p q := ⟨y 0, y 1, eq_ix2 y⟩
  obtain ⟨r, q', rfl⟩ : ∃ (r : Fin 50000) (q' : Fin 64), i = ix2 r q' := ⟨i 0, i 1, eq_ix2 i⟩
  obtain rfl : q' = q := Fin.ext hi1
  rw [plain7_pay_apply, Cert.Gcn.combine_ix2, h0 p q' r hi0, h1 p q' r hi0, h2 p r hi0, h3 q']

/-- The printed index maps over the 25 grid points: the three row-tiled inputs and the result sit at block row t,
    the bias row at its one block. -/
theorem plain7_idx : ∀ t : Fin cfg7.N, win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0
    ∧ win7_3.index t (0 : Fin 2) = 0 ∧ win7_3.index t (1 : Fin 2) = 0
    ∧ win7_4.index t (0 : Fin 2) = t.val ∧ win7_4.index t (1 : Fin 2) = 0 :=
  (by decide +kernel : ∀ t : Fin grid7.N, _)

/-- What point t writes back is block t of the combined array of the four arrays the region was given. -/
theorem plain7_flushed (c : Dev nD) (t : Fin cfg7.N) :
    (dat7 (F := Ideal) V c).flushed 4 t = ((cfg7.win 4).blk t).view.read (Elt Ideal)
      (Cert.Gcn.combine (V c (Pipeline.arrRef spec7 0)) (V c (Pipeline.arrRef spec7 1))
        (fun p => V c (Pipeline.arrRef spec7 2) (ix2 p 0)) (fun q => V c (Pipeline.arrRef spec7 3) (ix2 0 q))) := by
  show (cfg7.win 4).cut (grid7.coords t) ((dat7 V c).after 4 t) = _
  rw [after7_4]
  unfold out7_4
  rw [View.canon_unit_zero plain7_hz]
  simp only [View.ld_unit_zero (S := S2000x64) plain7_hz, View.ld_unit_zero (S := S2000x1) plain7_hz,
    View.ld_unit_zero (S := S1x64) plain7_hz]
  obtain ⟨e00, e01, e10, e11, e20, e21, e30, e31, e40, e41⟩ := plain7_idx t
  funext j
  refine plain7_pay_rows (V c (Pipeline.arrRef spec7 0)) (V c (Pipeline.arrRef spec7 1))
    (V c (Pipeline.arrRef spec7 2)) (V c (Pipeline.arrRef spec7 3))
    (iblk7 V c 0 t) (iblk7 V c 1 t) (iblk7 V c 2 t) (iblk7 V c 3 t) t.val ?_ ?_ ?_ ?_
    j (((cfg7.win 4).blk t).view.emb j) ?_ ?_
  · intro p q r hr
    show V c (Pipeline.arrRef spec7 0) (((cfg7.win 0).blk t).view.emb (ix2 p q)) = V c (Pipeline.arrRef spec7 0) (ix2 r q)
    refine congrArg _ (funext fun a => Fin.ext ?_)
    match a with
    | ⟨0, _⟩ => show win7_0.index t (0 : Fin 2) * 2000 + 1 * p.val = r.val; rw [e00, hr]; omega
    | ⟨1, _⟩ => show win7_0.index t (1 : Fin 2) * 64 + 1 * q.val = q.val; rw [e01]; omega
  · intro p q r hr
    show V c (Pipeline.arrRef spec7 1) (((cfg7.win 1).blk t).view.emb (ix2 p q)) = V c (Pipeline.arrRef spec7 1) (ix2 r q)
    refine congrArg _ (funext fun a => Fin.ext ?_)
    match a with
    | ⟨0, _⟩ => show win7_1.index t (0 : Fin 2) * 2000 + 1 * p.val = r.val; rw [e10, hr]; omega
    | ⟨1, _⟩ => show win7_1.index t (1 : Fin 2) * 64 + 1 * q.val = q.val; rw [e11]; omega
  · intro p r hr
    show V c (Pipeline.arrRef spec7 2) (((cfg7.win 2).blk t).view.emb (ix2 p (0 : Fin 1))) = V c (Pipeline.arrRef spec7 2) (ix2 r (0 : Fin 1))
    refine congrArg _ (funext fun a => Fin.ext ?_)
    match a with
    | ⟨0, _⟩ => show win7_2.index t (0 : Fin 2) * 2000 + 1 * p.val = r.val; rw [e20, hr]; omega
    | ⟨1, _⟩ => show win7_2.index t (1 : Fin 2) * 1 + 1 * 0 = 0; rw [e21]
  · intro q
    show V c (Pipeline.arrRef spec7 3) (((cfg7.win 3).blk t).view.emb (ix2 (0 : Fin 1) q)) = V c (Pipeline.arrRef spec7 3) (ix2 (0 : Fin 1) q)
    refine congrArg _ (funext fun a => Fin.ext ?_)
    match a with
    | ⟨0, _⟩ => show win7_3.index t (0 : Fin 2) * 1 + 1 * 0 = 0; rw [e30]
    | ⟨1, _⟩ => show win7_3.index t (1 : Fin 2) * 64 + 1 * q.val = q.val; rw [e31]; omega
  · show win7_4.index t (0 : Fin 2) * 2000 + 1 * (j 0).val = t.val * 2000 + (j 0).val; rw [e40]; omega
  · show win7_4.index t (1 : Fin 2) * 64 + 1 * (j 1).val = (j 1).val; rw [e41]; omega

/-- An index of the result array is in point t's block iff each coordinate is in the block's range on its axis. -/
theorem plain7_mem_blk (t : Fin cfg7.N) (i : S50000x64.Idx) :
    i ∈ ((cfg7.win 4).blk t).view.set ↔ ∀ a : Fin 2, win7_4.index t a * S2000x64.size a ≤ (i a).val ∧ (i a).val < win7_4.index t a * S2000x64.size a + S2000x64.size a := by
  show i ∈ ((View.whole (Pipeline.arrRef spec7 4)).slice (win7_4.rect t)).set ↔ _
  rw [View.set_slice_whole, Rect.mem_set_unit]
  exact Iff.rfl

/-- Every row of the result is in the block of the point (row / 2000). -/
theorem plain7_cover (i : S50000x64.Idx) :
    ∃ t : Fin cfg7.N, (cfg7.win 4).flush t = true ∧ i ∈ ((cfg7.win 4).blk t).view.set := by
  have hi0 : (i 0).val < 50000 := (i 0).isLt
  have hi1 : (i 1).val < 64 := (i 1).isLt
  have hN : cfg7.N = 25 := N_7
  obtain ⟨t, ht⟩ : ∃ t : Fin cfg7.N, t.val = (i 0).val / 2000 := ⟨⟨(i 0).val / 2000, by rw [hN]; omega⟩, rfl⟩
  obtain ⟨e00, e01, e10, e11, e20, e21, e30, e31, e40, e41⟩ := plain7_idx t
  refine ⟨t, flush7_4 t, ?_⟩
  rw [plain7_mem_blk]
  intro a
  match a with
  | ⟨0, _⟩ => show win7_4.index t (0 : Fin 2) * 2000 ≤ (i 0).val ∧ (i 0).val < win7_4.index t (0 : Fin 2) * 2000 + 2000; rw [e40, ht]; omega
  | ⟨1, _⟩ => show win7_4.index t (1 : Fin 2) * 64 ≤ (i 1).val ∧ (i 1).val < win7_4.index t (1 : Fin 2) * 64 + 64; rw [e41]; omega

/-- THE ARRAY after region 7: (agg + xw · ns) + b of the four arrays the region was given. -/
theorem plain7 (c : Dev nD) :
    (dat7 (F := Ideal) V c).arrAt 4 cfg7.N
      = Cert.Gcn.combine (V c (Pipeline.arrRef spec7 0)) (V c (Pipeline.arrRef spec7 1))
          (fun p => V c (Pipeline.arrRef spec7 2) (ix2 p 0)) (fun q => V c (Pipeline.arrRef spec7 3) (ix2 0 q)) :=
  (dat7 (F := Ideal) V c).arrAt_eq_of_cover 4 _ (fun t _ => plain7_flushed V c t) plain7_cover

end Cert.KernelIdeal.RegVal

end
-- ==== Proof.RegPlain15.lean ====
/-
  One row-tiled "combine" step, region 15 of the kernel program: the [50000, 64] array it leaves is, entry by
  entry, (agg + xw · ns) + b, where agg and xw are [50000, 64] arrays, ns is the [50000, 1] column of self-loop
  weights and b the [1, 64] bias row it was given.

  The rows are cut into 25 blocks of 2000. At block t the body reads rows 2000·t … 2000·t + 1999 of agg, xw and
  ns and the whole bias row; it repeats the column entry of row p across that row and the bias entry of column q
  down that column, so entry (p, q) of the block it stores is (agg (r, q) + xw (r, q) · ns (r, 0)) + b (0, q) with
  r = 2000·t + p. The 25 blocks are written back to rows 2000·t … of the result and together cover every row.
-/
import proofs.«106426_j33148557590872_1_alg».proof.Proof.Gen.KernelIdeal.Frame
import proofs.«106426_j33148557590872_1_alg».proof.Proof.GcnSpec
import proofs.«106426_j33148557590872_1_alg».proof.Proof.LibColumn
import Idealize.ShloMosaic.Lib.Pipeline.Value
import Idealize.ShloMosaic.Lib.ValueLayout

noncomputable section

namespace Cert.KernelIdeal.RegVal

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-buffer access. -/
theorem plain15_hz : (![0, 0] : Fin 2 → Nat) = fun _ => 0 := funext fun a => by fin_cases a <;> rfl

/-- The body's stored value at (p, q): (agg (p, q) + xw (p, q) · ns (p, 0)) + b (0, q). -/
theorem plain15_pay_apply (x0 x1 : Vec Ideal S2000x64 .f32) (x2 : Vec Ideal S2000x1 .f32) (x3 : Vec Ideal S1x64 .f32)
    (p : Fin 2000) (q : Fin 64) :
    k15_pay1 x0 x1 x2 x3 (ix2 p q)
      = (x0 (ix2 p q) + x1 (ix2 p q) * x2 (ix2 p (0 : Fin 1))) + x3 (ix2 (0 : Fin 1) q) := by
  unfold k15_pay1
  simp only [shapeCast_self, addf_apply, mulf_apply]
  rw [Cert.Lib.broadcastTo_a1_ab_apply, broadcastTo_1b_ab_apply]

/-- The stored value of a block whose operands are rows n·2000 … of A0, A1 and A2 and the whole row A3, at the
    block coordinate y, is the combined array's entry at the array index i that y sits at. -/
theorem plain15_pay_rows (A0 A1 : Cert.Gcn.Mat 50000 64) (A2 : Cert.Gcn.Mat 50000 1) (A3 : Cert.Gcn.Mat 1 64)
    (x0 x1 : Vec Ideal S2000x64 .f32) (x2 : Vec Ideal S2000x1 .f32) (x3 : Vec Ideal S1x64 .f32) (n : Nat)
    (h0 : ∀ (p : Fin 2000) (q : Fin 64) (r : Fin 50000), r.val = n * 2000 + p.val → x0 (ix2 p q) = A0 (ix2 r q))
    (h1 : ∀ (p : Fin 2000) (q : Fin 64) (r : Fin 50000), r.val = n * 2000 + p.val → x1 (ix2 p q) = A1 (ix2 r q))
    (h2 : ∀ (p : Fin 2000) (r : Fin 50000), r.val = n * 2000 + p.val → x2 (ix2 p (0 : Fin 1)) = A2 (ix2 r (0 : Fin 1)))
    (h3 : ∀ (q : Fin 64), x3 (ix2 (0 : Fin 1) q) = A3 (ix2 (0 : Fin 1) q))
    (y : S2000x64.Idx) (i : S50000x64.Idx)
    (hi0 : (i 0).val = n * 2000 + (y 0).val) (hi1 : (i 1).val = (y 1).val) :
    k15_pay1 x0 x1 x2 x3 y
      = Cert.Gcn.combine A0 A1 (fun p => A2 (ix2 p (0 : Fin 1))) (fun q => A3 (ix2 (0 : Fin 1) q)) i := by
  obtain ⟨p, q, rfl⟩ : ∃ (p : Fin 2000) (q : Fin 64), y = ix2 p q := ⟨y 0, y 1, eq_ix2 y⟩
  obtain ⟨r, q', rfl⟩ : ∃ (r : Fin 50000) (q' : Fin 64), i = ix2 r q' := ⟨i 0, i 1, eq_ix2 i⟩
  obtain rfl : q' = q := Fin.ext hi1
  rw [plain15_pay_apply, Cert.Gcn.combine_ix2, h0 p q' r hi0, h1 p q' r hi0, h2 p r hi0, h3 q']

/-- The printed index maps over the 25 grid points: the three row-tiled inputs and the result sit at block row t,
    the bias row at its one block. -/
theorem plain15_idx : ∀ t : Fin cfg15.N, win15_0.index t (0 : Fin 2) = t.val ∧ win15_0.index t (1 : Fin 2) = 0
    ∧ win15_1.index t (0 : Fin 2) = t.val ∧ win15_1.index t (1 : Fin 2) = 0
    ∧ win15_2.index t (0 : Fin 2) = t.val ∧ win15_2.index t (1 : Fin 2) = 0
    ∧ win15_3.index t (0 : Fin 2) = 0 ∧ win15_3.index t (1 : Fin 2) = 0
    ∧ win15_4.index t (0 : Fin 2) = t.val ∧ win15_4.index t (1 : Fin 2) = 0 :=
  (by decide +kernel : ∀ t : Fin grid15.N, _)

set_option maxHeartbeats 1000000 in
/-- What point t writes back is block t of the combined array of the four arrays the region was given. -/
theorem plain15_flushed (c : Dev nD) (t : Fin cfg15.N) :
    (dat15 (F := Ideal) V c).flushed 4 t = ((cfg15.win 4).blk t).view.read (Elt Ideal)
      (Cert.Gcn.combine (V c (Pipeline.arrRef spec15 0)) (V c (Pipeline.arrRef spec15 1))
        (fun p => V c (Pipeline.arrRef spec15 2) (ix2 p 0)) (fun q => V c (Pipeline.arrRef spec15 3) (ix2 0 q))) := by
  show (cfg15.win 4).cut (grid15.coords t) ((dat15 V c).after 4 t) = _
  rw [after15_4]
  unfold out15_4
  rw [View.canon_unit_zero plain15_hz]
  simp only [View.ld_unit_zero (S := S2000x64) plain15_hz, View.ld_unit_zero (S := S2000x1) plain15_hz,
    View.ld_unit_zero (S := S1x64) plain15_hz]
  obtain ⟨e00, e01, e10, e11, e20, e21, e30, e31, e40, e41⟩ := plain15_idx t
  funext j
  refine plain15_pay_rows (V c (Pipeline.arrRef spec15 0)) (V c (Pipeline.arrRef spec15 1))
    (V c (Pipeline.arrRef spec15 2)) (V c (Pipeline.arrRef spec15 3))
    (iblk15 V c 0 t) (iblk15 V c 1 t) (iblk15 V c 2 t) (iblk15 V c 3 t) t.val ?_ ?_ ?_ ?_
    j (((cfg15.win 4).blk t).view.emb j) ?_ ?_
  · intro p q r hr
    show V c (Pipeline.arrRef spec15 0) (((cfg15.win 0).blk t).view.emb (ix2 p q)) = V c (Pipeline.arrRef spec15 0) (ix2 r q)
    refine congrArg _ (funext fun a => Fin.ext ?_)
    match a with
    | ⟨0, _⟩ => show win15_0.index t (0 : Fin 2) * 2000 + 1 * p.val = r.val; rw [e00, hr]; omega
    | ⟨1, _⟩ => show win15_0.index t (1 : Fin 2) * 64 + 1 * q.val = q.val; rw [e01]; omega
  · intro p q r hr
    show V c (Pipeline.arrRef spec15 1) (((cfg15.win 1).blk t).view.emb (ix2 p q)) = V c (Pipeline.arrRef spec15 1) (ix2 r q)
    refine congrArg _ (funext fun a => Fin.ext ?_)
    match a with
    | ⟨0, _⟩ => show win15_1.index t (0 : Fin 2) * 2000 + 1 * p.val = r.val; rw [e10, hr]; omega
    | ⟨1, _⟩ => show win15_1.index t (1 : Fin 2) * 64 + 1 * q.val = q.val; rw [e11]; omega
  · intro p r hr
    show V c (Pipeline.arrRef spec15 2) (((cfg15.win 2).blk t).view.emb (ix2 p (0 : Fin 1))) = V c (Pipeline.arrRef spec15 2) (ix2 r (0 : Fin 1))
    refine congrArg _ (funext fun a => Fin.ext ?_)
    match a with
    | ⟨0, _⟩ => show win15_2.index t (0 : Fin 2) * 2000 + 1 * p.val = r.val; rw [e20, hr]; omega
    | ⟨1, _⟩ => show win15_2.index t (1 : Fin 2) * 1 + 1 * 0 = 0; rw [e21]
  · intro q
    show V c (Pipeline.arrRef spec15 3) (((cfg15.win 3).blk t).view.emb (ix2 (0 : Fin 1) q)) = V c (Pipeline.arrRef spec15 3) (ix2 (0 : Fin 1) q)
    refine congrArg _ (funext fun a => Fin.ext ?_)
    match a with
    | ⟨0, _⟩ => show win15_3.index t (0 : Fin 2) * 1 + 1 * 0 = 0; rw [e30]
    | ⟨1, _⟩ => show win15_3.index t (1 : Fin 2) * 64 + 1 * q.val = q.val; rw [e31]; omega
  · show win15_4.index t (0 : Fin 2) * 2000 + 1 * (j 0).val = t.val * 2000 + (j 0).val; rw [e40]; omega
  · show win15_4.index t (1 : Fin 2) * 64 + 1 * (j 1).val = (j 1).val; rw [e41]; omega

/-- An index of the result array is in point t's block iff each coordinate is in the block's range on its axis. -/
theorem plain15_mem_blk (t : Fin cfg15.N) (i : S50000x64.Idx) :
    i ∈ ((cfg15.win 4).blk t).view.set ↔ ∀ a : Fin 2, win15_4.index t a * S2000x64.size a ≤ (i a).val ∧ (i a).val < win15_4.index t a * S2000x64.size a + S2000x64.size a := by
  show i ∈ ((View.whole (Pipeline.arrRef spec15 4)).slice (win15_4.rect t)).set ↔ _
  rw [View.set_slice_whole, Rect.mem_set_unit]
  exact Iff.rfl

/-- Every row of the result is in the block of the point (row / 2000). -/
theorem plain15_cover (i : S50000x64.Idx) :
    ∃ t : Fin cfg15.N, (cfg15.win 4).flush t = true ∧ i ∈ ((cfg15.win 4).blk t).view.set := by
  have hi0 : (i 0).val < 50000 := (i 0).isLt
  have hi1 : (i 1).val < 64 := (i 1).isLt
  have hN : cfg15.N = 25 := N_15
  obtain ⟨t, ht⟩ : ∃ t : Fin cfg15.N, t.val = (i 0).val / 2000 := ⟨⟨(i 0).val / 2000, by rw [hN]; omega⟩, rfl⟩
  obtain ⟨e00, e01, e10, e11, e20, e21, e30, e31, e40, e41⟩ := plain15_idx t
  refine ⟨t, flush15_4 t, ?_⟩
  rw [plain15_mem_blk]
  intro a
  match a with
  | ⟨0, _⟩ => show win15_4.index t (0 : Fin 2) * 2000 ≤ (i 0).val ∧ (i 0).val < win15_4.index t (0 : Fin 2) * 2000 + 2000; rw [e40, ht]; omega
  | ⟨1, _⟩ => show win15_4.index t (1 : Fin 2) * 64 ≤ (i 1).val ∧ (i 1).val < win15_4.index t (1 : Fin 2) * 64 + 64; rw [e41]; omega

/-- THE ARRAY after region 15: (agg + xw · ns) + b of the four arrays the region was given. -/
theorem plain15 (c : Dev nD) :
    (dat15 (F := Ideal) V c).arrAt 4 cfg15.N
      = Cert.Gcn.combine (V c (Pipeline.arrRef spec15 0)) (V c (Pipeline.arrRef spec15 1))
          (fun p => V c (Pipeline.arrRef spec15 2) (ix2 p 0)) (fun q => V c (Pipeline.arrRef spec15 3) (ix2 0 q)) :=
  (dat15 (F := Ideal) V c).arrAt_eq_of_cover 4 _ (fun t _ => plain15_flushed V c t) plain15_cover

end Cert.KernelIdeal.RegVal

end
-- ==== Proof.RegBn2.lean ====
/-
  The batch normalisation of region 2, read as one function of whole arrays.  The region walks the
  [50000, 128] array x in 25 blocks of 2000 rows; the four [1, 128] rows mean, var, g, be are the same at every
  point.  At a point the body writes, at row p and column q of the block,
    ((x (p, q) − mean q) · rsqrt (var q + ε)) · g q + be q, then the positive part,
  so block t of the result is rows 2000·t … 2000·t + 1999 of that function of the whole arrays, and the 25
  blocks cover every row.
-/
import proofs.«106426_j33148557590872_1_alg».proof.Proof.Gen.KernelIdeal.Frame
import proofs.«106426_j33148557590872_1_alg».proof.Proof.GcnSpec
import Idealize.ShloMosaic.Lib.Pipeline.Value
import Idealize.ShloMosaic.Lib.ValueLayout
import Idealize.ShloMosaic.PureOps.Ideal.Laws

noncomputable section

namespace Cert.KernelIdeal.RegVal

open Cert.KernelIdeal Cert.KernelIdeal.Gen Idealize.ShloMosaic Idealize.ShloMosaic.TcCoe Idealize.SL.Sem
open Idealize.ShloMosaic.ValueIdx
open Idealize.ShloMosaic.Pipeline (Dat)

/-- The zero offsets of a whole-block access, as the constant function. -/
theorem bn2_hz : (![0, 0] : Fin 2 → Nat) = fun _ => 0 := funext fun a => by fin_cases a <;> rfl

/-- The body's arithmetic at row p, column q of a block: the rows mean (v7), var (v0), g (v13), be (v17) are read
    at column q, the block x (v5) at (p, q). -/
theorem bn2_pay (v0 : Vec Ideal S1x128 .f32) (v5 : Vec Ideal S2000x128 .f32) (v7 v13 v17 : Vec Ideal S1x128 .f32)
    (p : Fin 2000) (q : Fin 128) :
    k2_pay1 v0 v5 v7 v13 v17 (ix2 p q)
      = max (((v5 (ix2 p q) - v7 (ix2 0 q)) * Ideal.rsqrt (v0 (ix2 0 q) + Ideal.ofBits .f32 0x3727C5AC#32)) * v13 (ix2 0 q)
          + v17 (ix2 0 q)) 0 := by
  unfold k2_pay1
  simp only [shapeCast_self]
  rw [maximumf_apply, addf_apply, mulf_apply, mulf_apply, subf_apply]
  simp only [broadcastTo_1b_ab_apply, broadcast_apply]
  show max (_ * Ideal.rsqrt (v0 (ix2 0 q) + Ideal.ofBits .f32 0x3727C5AC#32) * _ + _) (Ideal.ofBits .f32 0x00000000#32) = _
  rw [Ideal.ofBits_zero_f32]

/-- The same at an entry y of the block, against whole arrays: if the block's entry y is the array's entry i (same
    column) and the parameter rows are the functions mean, var, g, be of the column, the body's value at y is the
    normalisation of the whole array at i. -/
theorem bn2_point (x : Cert.Gcn.Mat 50000 128) (mean var g be : Fin 128 → EReal)
    (X : Vec Ideal S2000x128 .f32) (Mn Vr Gm Be : Vec Ideal S1x128 .f32) (y : S2000x128.Idx) (i : S50000x128.Idx)
    (hX : X y = x i) (hM : ∀ q, Mn (ix2 0 q) = mean q) (hV : ∀ q, Vr (ix2 0 q) = var q)
    (hG : ∀ q, Gm (ix2 0 q) = g q) (hB : ∀ q, Be (ix2 0 q) = be q) (h1 : (i 1).val = (y 1).val) :
    k2_pay1 Vr X Mn Gm Be y = Cert.Gcn.relu (Cert.Gcn.bn x mean var g be (Ideal.ofBits .f32 0x3727C5AC#32)) i := by
  obtain ⟨p, q, rfl⟩ : ∃ (p : Fin 2000) (q : Fin 128), y = ix2 p q := ⟨y 0, y 1, eq_ix2 y⟩
  obtain ⟨r, q', rfl⟩ : ∃ (r : Fin 50000) (q' : Fin 128), i = ix2 r q' := ⟨i 0, i 1, eq_ix2 i⟩
  obtain rfl : q' = q := Fin.ext h1
  rw [bn2_pay, Cert.Gcn.relu_apply, Cert.Gcn.bn_ix2, hX, hM, hV, hG, hB]

/-- The printed index maps over the 25 grid points: the x window and the output window sit at block (t, 0), the
    four parameter windows at block (0, 0). -/
theorem bn2_idx : ∀ t : Fin cfg2.N,
    win2_0.index t (0 : Fin 2) = t.val ∧ win2_0.index t (1 : Fin 2) = 0
    ∧ win2_5.index t (0 : Fin 2) = t.val ∧ win2_5.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

variable (V : (c : Dev nD) → (b : Ref sig .tc) → Buf (Elt Ideal) ((c : Thread nD τ).loc b))

/-- The whole-array result of the region. -/
abbrev bn2_G (c : Dev nD) : Cert.Gcn.Mat 50000 128 :=
  Cert.Gcn.relu (Cert.Gcn.bn (V c (Pipeline.arrRef spec2 0)) (fun q => V c (Pipeline.arrRef spec2 1) (ix2 0 q)) (fun q => V c (Pipeline.arrRef spec2 2) (ix2 0 q)) (fun q => V c (Pipeline.arrRef spec2 3) (ix2 0 q)) (fun q => V c (Pipeline.arrRef spec2 4) (ix2 0 q)) (Ideal.ofBits .f32 0x3727C5AC#32))

/-- The x window's block at point t, read at an entry of the output's block, is the array x at the entry of the
    output array that the output's block puts there: both windows sit at block (t, 0). -/
theorem bn2_xblk (c : Dev nD) (t : Fin cfg2.N) (j : ((cfg2.win 5).xblock (grid2.coords t)).Idx) :
    iblk2 V c 0 t ((cfg2.win 5).xinj (grid2.coords t) j)
      = V c (Pipeline.arrRef spec2 0) (((cfg2.win 5).blk t).view.emb j) := by
  obtain ⟨e00, e01, e50, e51, -⟩ := bn2_idx t
  show V c (Pipeline.arrRef spec2 0) (((cfg2.win 0).blk t).view.emb j) = V c (Pipeline.arrRef spec2 0) (((cfg2.win 5).blk t).view.emb j)
  refine congrArg _ (funext fun a => Fin.ext ?_)
  match a with
  | ⟨0, _⟩ => show win2_0.index t (0 : Fin 2) * 2000 + 1 * (j 0).val = win2_5.index t (0 : Fin 2) * 2000 + 1 * (j 0).val; omega
  | ⟨1, _⟩ => show win2_0.index t (1 : Fin 2) * 128 + 1 * (j 1).val = win2_5.index t (1 : Fin 2) * 128 + 1 * (j 1).val; omega

/-- The mean window's block at any point is the one row of its array. -/
theorem bn2_row1 (c : Dev nD) (t : Fin cfg2.N) (q : Fin 128) :
    iblk2 V c 1 t (ix2 0 q) = V c (Pipeline.arrRef spec2 1) (ix2 0 q) := by
  obtain ⟨-, -, -, -, e10, e11, e20, e21, e30, e31, e40, e41⟩ := bn2_idx t
  show V c (Pipeline.arrRef spec2 1) (((cfg2.win 1).blk t).view.emb (ix2 0 q)) = V c (Pipeline.arrRef spec2 1) (ix2 0 q)
  refine congrArg _ (funext fun a => Fin.ext ?_)
  match a with
  | ⟨0, _⟩ => show win2_1.index t (0 : Fin 2) * 1 + 1 * 0 = 0; omega
  | ⟨1, _⟩ => show win2_1.index t (1 : Fin 2) * 128 + 1 * q.val = q.val; omega

/-- The variance window's block at any point is the one row of its array. -/
theorem bn2_row2 (c : Dev nD) (t : Fin cfg2.N) (q : Fin 128) :
    iblk2 V c 2 t (ix2 0 q) = V c (Pipeline.arrRef spec2 2) (ix2 0 q) := by
  obtain ⟨-, -, -, -, e10, e11, e20, e21, e30, e31, e40, e41⟩ := bn2_idx t
  show V c (Pipeline.arrRef spec2 2) (((cfg2.win 2).blk t).view.emb (ix2 0 q)) = V c (Pipeline.arrRef spec2 2) (ix2 0 q)
  refine congrArg _ (funext fun a => Fin.ext ?_)
  match a with
  | ⟨0, _⟩ => show win2_2.index t (0 : Fin 2) * 1 + 1 * 0 = 0; omega
  | ⟨1, _⟩ => show win2_2.index t (1 : Fin 2) * 128 + 1 * q.val = q.val; omega

/-- The scale window's block at any point is the one row of its array. -/
theorem bn2_row3 (c : Dev nD) (t : Fin cfg2.N) (q : Fin 128) :
    iblk2 V c 3 t (ix2 0 q) = V c (Pipeline.arrRef spec2 3) (ix2 0 q) := by
  obtain ⟨-, -, -, -, e10, e11, e20, e21, e30, e31, e40, e41⟩ := bn2_idx t
  show V c (Pipeline.arrRef spec2 3) (((cfg2.win 3).blk t).view.emb (ix2 0 q)) = V c (Pipeline.arrRef spec2 3) (ix2 0 q)
  refine congrArg _ (funext fun a => Fin.ext ?_)
  match a with
  | ⟨0, _⟩ => show win2_3.index t (0 : Fin 2) * 1 + 1 * 0 = 0; omega
  | ⟨1, _⟩ => show win2_3.index t (1 : Fin 2) * 128 + 1 * q.val = q.val; omega

/-- The shift window's block at any point is the one row of its array. -/
theorem bn2_row4 (c : Dev nD) (t : Fin cfg2.N) (q : Fin 128) :
    iblk2 V c 4 t (ix2 0 q) = V c (Pipeline.arrRef spec2 4) (ix2 0 q) := by
  obtain ⟨-, -, -, -, e10, e11, e20, e21, e30, e31, e40, e41⟩ := bn2_idx t
  show V c (Pipeline.arrRef spec2 4) (((cfg2.win 4).blk t).view.emb (ix2 0 q)) = V c (Pipeline.arrRef spec2 4) (ix2 0 q)
  refine congrArg _ (funext fun a => Fin.ext ?_)
  match a with
  | ⟨0, _⟩ => show win2_4.index t (0 : Fin 2) * 1 + 1 * 0 = 0; omega
  | ⟨1, _⟩ => show win2_4.index t (1 : Fin 2) * 128 + 1 * q.val = q.val; omega

/-- An entry of the output's block at point t keeps its column in the array. -/
theorem bn2_col (t : Fin cfg2.N) (j : ((cfg2.win 5).xblock (grid2.coords t)).Idx) :
    ((((cfg2.win 5).blk t).view.emb j) 1).val = (((cfg2.win 5).xinj (grid2.coords t) j) 1).val := by
  obtain ⟨-, -, e50, e51, -⟩ := bn2_idx t
  show win2_5.index t (1 : Fin 2) * 128 + 1 * (j 1).val = (j 1).val
  omega

/-- What point t writes back is block t of the whole-array result. -/
theorem bn2_flushed (c : Dev nD) (t : Fin cfg2.N) :
    (Gen.dat2 (F := Ideal) V c).flushed 5 t = ((cfg2.win 5).blk t).view.read (Elt Ideal) (bn2_G V c) := by
  show (cfg2.win 5).cut (grid2.coords t) ((Gen.dat2 (F := Ideal) V c).after 5 t) = _
  rw [after2_5]
  unfold out2_5
  rw [View.canon_unit_zero bn2_hz]
  simp only [View.ld_unit_zero (S := S1x128) bn2_hz, View.ld_unit_zero (S := S2000x128) bn2_hz]
  funext j
  exact bn2_point (V c (Pipeline.arrRef spec2 0)) (fun q => V c (Pipeline.arrRef spec2 1) (ix2 0 q))
    (fun q => V c (Pipeline.arrRef spec2 2) (ix2 0 q)) (fun q => V c (Pipeline.arrRef spec2 3) (ix2 0 q))
    (fun q => V c (Pipeline.arrRef spec2 4) (ix2 0 q)) (iblk2 V c 0 t) (iblk2 V c 1 t) (iblk2 V c 2 t) (iblk2 V c 3 t)
    (iblk2 V c 4 t) ((cfg2.win 5).xinj (grid2.coords t) j) (((cfg2.win 5).blk t).view.emb j)
    (bn2_xblk V c t j) (bn2_row1 V c t) (bn2_row2 V c t) (bn2_row3 V c t) (bn2_row4 V c t) (bn2_col t j)

/-- An entry of the array lies in point t's block iff, on each axis, its coordinate lies in the block's range. -/
theorem bn2_mem_blk (t : Fin cfg2.N) (i : S50000x128.Idx) :
    i ∈ ((cfg2.win 5).blk t).view.set ↔ ∀ a : Fin 2, win2_5.index t a * S2000x128.size a ≤ (i a).val
      ∧ (i a).val < win2_5.index t a * S2000x128.size a + S2000x128.size a := by
  show i ∈ ((View.whole main_v56).slice (win2_5.rect t)).set ↔ _
  rw [View.set_slice_whole, Rect.mem_set_unit]
  exact Iff.rfl

/-- The array after the region: every row r lies in the block of point r / 2000, so the 25 write-backs leave the
    whole-array result. -/
theorem bn2 (c : Dev nD) : (Gen.dat2 (F := Ideal) V c).arrAt 5 cfg2.N = Cert.Gcn.relu (Cert.Gcn.bn (V c (Pipeline.arrRef spec2 0)) (fun q => V c (Pipeline.arrRef spec2 1) (ix2 0 q)) (fun q => V c (Pipeline.arrRef spec2 2) (ix2 0 q)) (fun q => V c (Pipeline.arrRef spec2 3) (ix2 0 q)) (fun q => V c (Pipeline.arrRef spec2 4) (ix2 0 q)) (Ideal.ofBits .f32 0x3727C5AC#32)) :=
  (Gen.dat2 (F := Ideal) V c).arrAt_eq_of_cover 5 (bn2_G V c) (fun t _ => bn2_flushed V c t) fun i => by
    have hi0 : (i 0).val < 50000 := (i 0).isLt
    have hi1 : (i 1).val < 128 := (i 1).isLt
    have hN : cfg2.N = 25 := N_2
    obtain ⟨t, ht⟩ : ∃ t : Fin cfg2.N, t.val = (i 0).val / 2000 := ⟨⟨(i 0).val / 2000, by rw [hN]; omega⟩, rfl⟩
    obtain ⟨-, -, e50, e51, -⟩ := bn2_idx t
    refine ⟨t, flush2_5 t, ?_⟩
    rw [bn2_mem_blk]
    intro a
    match a with
    | ⟨0, _⟩ =>
      show win2_5.index t (0 : Fin 2) * 2000 ≤ (i 0).val ∧ (i 0).val < win2_5.index t (0 : Fin 2) * 2000 + 2000
      omega
    | ⟨1, _⟩ =>
      show win2_5.index t (1 : Fin 2) * 128 ≤ (i 1).val ∧ (i 1).val < win2_5.index t (1 : Fin 2) * 128 + 128
      omega

end Cert.KernelIdeal.RegVal

end
-- ==== Proof.RegBn5.lean ====
/-
  The batch normalisation of region 5, read as one function of whole arrays.  The region walks the
  [50000, 256] array x in 25 blocks of 2000 rows; the four [1, 256] rows mean, var, g, be are the same at every
  point.  At a point the body writes, at row p and column q of the block,
    ((x (p, q) − mean q) · rsqrt (var q + ε)) · g q + be q, then the positive part,
  so block t of the result is rows 2000·t … 2000·t + 1999 of that function of the whole arrays, and the 25
  blocks cover every row.
-/
import proofs.«106426_j33148557590872_1_alg».proof.Proof.Gen.KernelIdeal.Frame
import proofs.«106426_j33148557590872_1_alg».proof.Proof.GcnSpec
import Idealize.ShloMosaic.Lib.Pipeline.Value
import Idealize.ShloMosaic.Lib.ValueLayout
import Idealize.ShloMosaic.PureOps.Ideal.Laws

noncomputable section

namespace Cert.KernelIdeal.RegVal

open Cert.KernelIdeal Cert.KernelIdeal.Gen Idealize.ShloMosaic Idealize.ShloMosaic.TcCoe Idealize.SL.Sem
open Idealize.ShloMosaic.ValueIdx
open Idealize.ShloMosaic.Pipeline (Dat)

/-- The zero offsets of a whole-block access, as the constant function. -/
theorem bn5_hz : (![0, 0] : Fin 2 → Nat) = fun _ => 0 := funext fun a => by fin_cases a <;> rfl

/-- The body's arithmetic at row p, column q of a block: the rows mean (v7), var (v0), g (v13), be (v17) are read
    at column q, the block x (v5) at (p, q). -/
theorem bn5_pay (v0 : Vec Ideal S1x256 .f32) (v5 : Vec Ideal S2000x256 .f32) (v7 v13 v17 : Vec Ideal S1x256 .f32)
    (p : Fin 2000) (q : Fin 256) :
    k5_pay1 v0 v5 v7 v13 v17 (ix2 p q)
      = max (((v5 (ix2 p q) - v7 (ix2 0 q)) * Ideal.rsqrt (v0 (ix2 0 q) + Ideal.ofBits .f32 0x3727C5AC#32)) * v13 (ix2 0 q)
          + v17 (ix2 0 q)) 0 := by
  unfold k5_pay1
  simp only [shapeCast_self]
  rw [maximumf_apply, addf_apply, mulf_apply, mulf_apply, subf_apply]
  simp only [broadcastTo_1b_ab_apply, broadcast_apply]
  show max (_ * Ideal.rsqrt (v0 (ix2 0 q) + Ideal.ofBits .f32 0x3727C5AC#32) * _ + _) (Ideal.ofBits .f32 0x00000000#32) = _
  rw [Ideal.ofBits_zero_f32]

/-- The same at an entry y of the block, against whole arrays: if the block's entry y is the array's entry i (same
    column) and the parameter rows are the functions mean, var, g, be of the column, the body's value at y is the
    normalisation of the whole array at i. -/
theorem bn5_point (x : Cert.Gcn.Mat 50000 256) (mean var g be : Fin 256 → EReal)
    (X : Vec Ideal S2000x256 .f32) (Mn Vr Gm Be : Vec Ideal S1x256 .f32) (y : S2000x256.Idx) (i : S50000x256.Idx)
    (hX : X y = x i) (hM : ∀ q, Mn (ix2 0 q) = mean q) (hV : ∀ q, Vr (ix2 0 q) = var q)
    (hG : ∀ q, Gm (ix2 0 q) = g q) (hB : ∀ q, Be (ix2 0 q) = be q) (h1 : (i 1).val = (y 1).val) :
    k5_pay1 Vr X Mn Gm Be y = Cert.Gcn.relu (Cert.Gcn.bn x mean var g be (Ideal.ofBits .f32 0x3727C5AC#32)) i := by
  obtain ⟨p, q, rfl⟩ : ∃ (p : Fin 2000) (q : Fin 256), y = ix2 p q := ⟨y 0, y 1, eq_ix2 y⟩
  obtain ⟨r, q', rfl⟩ : ∃ (r : Fin 50000) (q' : Fin 256), i = ix2 r q' := ⟨i 0, i 1, eq_ix2 i⟩
  obtain rfl : q' = q := Fin.ext h1
  rw [bn5_pay, Cert.Gcn.relu_apply, Cert.Gcn.bn_ix2, hX, hM, hV, hG, hB]

/-- The printed index maps over the 25 grid points: the x window and the output window sit at block (t, 0), the
    four parameter windows at block (0, 0). -/
theorem bn5_idx : ∀ t : Fin cfg5.N,
    win5_0.index t (0 : Fin 2) = t.val ∧ win5_0.index t (1 : Fin 2) = 0
    ∧ win5_5.index t (0 : Fin 2) = t.val ∧ win5_5.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0 :=
  (by decide +kernel : ∀ t : Fin grid5.N, _)

variable (V : (c : Dev nD) → (b : Ref sig .tc) → Buf (Elt Ideal) ((c : Thread nD τ).loc b))

/-- The whole-array result of the region. -/
abbrev bn5_G (c : Dev nD) : Cert.Gcn.Mat 50000 256 :=
  Cert.Gcn.relu (Cert.Gcn.bn (V c (Pipeline.arrRef spec5 0)) (fun q => V c (Pipeline.arrRef spec5 1) (ix2 0 q)) (fun q => V c (Pipeline.arrRef spec5 2) (ix2 0 q)) (fun q => V c (Pipeline.arrRef spec5 3) (ix2 0 q)) (fun q => V c (Pipeline.arrRef spec5 4) (ix2 0 q)) (Ideal.ofBits .f32 0x3727C5AC#32))

/-- The x window's block at point t, read at an entry of the output's block, is the array x at the entry of the
    output array that the output's block puts there: both windows sit at block (t, 0). -/
theorem bn5_xblk (c : Dev nD) (t : Fin cfg5.N) (j : ((cfg5.win 5).xblock (grid5.coords t)).Idx) :
    iblk5 V c 0 t ((cfg5.win 5).xinj (grid5.coords t) j)
      = V c (Pipeline.arrRef spec5 0) (((cfg5.win 5).blk t).view.emb j) := by
  obtain ⟨e00, e01, e50, e51, -⟩ := bn5_idx t
  show V c (Pipeline.arrRef spec5 0) (((cfg5.win 0).blk t).view.emb j) = V c (Pipeline.arrRef spec5 0) (((cfg5.win 5).blk t).view.emb j)
  refine congrArg _ (funext fun a => Fin.ext ?_)
  match a with
  | ⟨0, _⟩ => show win5_0.index t (0 : Fin 2) * 2000 + 1 * (j 0).val = win5_5.index t (0 : Fin 2) * 2000 + 1 * (j 0).val; omega
  | ⟨1, _⟩ => show win5_0.index t (1 : Fin 2) * 256 + 1 * (j 1).val = win5_5.index t (1 : Fin 2) * 256 + 1 * (j 1).val; omega

/-- The mean window's block at any point is the one row of its array. -/
theorem bn5_row1 (c : Dev nD) (t : Fin cfg5.N) (q : Fin 256) :
    iblk5 V c 1 t (ix2 0 q) = V c (Pipeline.arrRef spec5 1) (ix2 0 q) := by
  obtain ⟨-, -, -, -, e10, e11, e20, e21, e30, e31, e40, e41⟩ := bn5_idx t
  show V c (Pipeline.arrRef spec5 1) (((cfg5.win 1).blk t).view.emb (ix2 0 q)) = V c (Pipeline.arrRef spec5 1) (ix2 0 q)
  refine congrArg _ (funext fun a => Fin.ext ?_)
  match a with
  | ⟨0, _⟩ => show win5_1.index t (0 : Fin 2) * 1 + 1 * 0 = 0; omega
  | ⟨1, _⟩ => show win5_1.index t (1 : Fin 2) * 256 + 1 * q.val = q.val; omega

/-- The variance window's block at any point is the one row of its array. -/
theorem bn5_row2 (c : Dev nD) (t : Fin cfg5.N) (q : Fin 256) :
    iblk5 V c 2 t (ix2 0 q) = V c (Pipeline.arrRef spec5 2) (ix2 0 q) := by
  obtain ⟨-, -, -, -, e10, e11, e20, e21, e30, e31, e40, e41⟩ := bn5_idx t
  show V c (Pipeline.arrRef spec5 2) (((cfg5.win 2).blk t).view.emb (ix2 0 q)) = V c (Pipeline.arrRef spec5 2) (ix2 0 q)
  refine congrArg _ (funext fun a => Fin.ext ?_)
  match a with
  | ⟨0, _⟩ => show win5_2.index t (0 : Fin 2) * 1 + 1 * 0 = 0; omega
  | ⟨1, _⟩ => show win5_2.index t (1 : Fin 2) * 256 + 1 * q.val = q.val; omega

/-- The scale window's block at any point is the one row of its array. -/
theorem bn5_row3 (c : Dev nD) (t : Fin cfg5.N) (q : Fin 256) :
    iblk5 V c 3 t (ix2 0 q) = V c (Pipeline.arrRef spec5 3) (ix2 0 q) := by
  obtain ⟨-, -, -, -, e10, e11, e20, e21, e30, e31, e40, e41⟩ := bn5_idx t
  show V c (Pipeline.arrRef spec5 3) (((cfg5.win 3).blk t).view.emb (ix2 0 q)) = V c (Pipeline.arrRef spec5 3) (ix2 0 q)
  refine congrArg _ (funext fun a => Fin.ext ?_)
  match a with
  | ⟨0, _⟩ => show win5_3.index t (0 : Fin 2) * 1 + 1 * 0 = 0; omega
  | ⟨1, _⟩ => show win5_3.index t (1 : Fin 2) * 256 + 1 * q.val = q.val; omega

/-- The shift window's block at any point is the one row of its array. -/
theorem bn5_row4 (c : Dev nD) (t : Fin cfg5.N) (q : Fin 256) :
    iblk5 V c 4 t (ix2 0 q) = V c (Pipeline.arrRef spec5 4) (ix2 0 q) := by
  obtain ⟨-, -, -, -, e10, e11, e20, e21, e30, e31, e40, e41⟩ := bn5_idx t
  show V c (Pipeline.arrRef spec5 4) (((cfg5.win 4).blk t).view.emb (ix2 0 q)) = V c (Pipeline.arrRef spec5 4) (ix2 0 q)
  refine congrArg _ (funext fun a => Fin.ext ?_)
  match a with
  | ⟨0, _⟩ => show win5_4.index t (0 : Fin 2) * 1 + 1 * 0 = 0; omega
  | ⟨1, _⟩ => show win5_4.index t (1 : Fin 2) * 256 + 1 * q.val = q.val; omega

/-- An entry of the output's block at point t keeps its column in the array. -/
theorem bn5_col (t : Fin cfg5.N) (j : ((cfg5.win 5).xblock (grid5.coords t)).Idx) :
    ((((cfg5.win 5).blk t).view.emb j) 1).val = (((cfg5.win 5).xinj (grid5.coords t) j) 1).val := by
  obtain ⟨-, -, e50, e51, -⟩ := bn5_idx t
  show win5_5.index t (1 : Fin 2) * 256 + 1 * (j 1).val = (j 1).val
  omega

/-- What point t writes back is block t of the whole-array result. -/
theorem bn5_flushed (c : Dev nD) (t : Fin cfg5.N) :
    (Gen.dat5 (F := Ideal) V c).flushed 5 t = ((cfg5.win 5).blk t).view.read (Elt Ideal) (bn5_G V c) := by
  show (cfg5.win 5).cut (grid5.coords t) ((Gen.dat5 (F := Ideal) V c).after 5 t) = _
  rw [after5_5]
  unfold out5_5
  rw [View.canon_unit_zero bn5_hz]
  simp only [View.ld_unit_zero (S := S1x256) bn5_hz, View.ld_unit_zero (S := S2000x256) bn5_hz]
  funext j
  exact bn5_point (V c (Pipeline.arrRef spec5 0)) (fun q => V c (Pipeline.arrRef spec5 1) (ix2 0 q))
    (fun q => V c (Pipeline.arrRef spec5 2) (ix2 0 q)) (fun q => V c (Pipeline.arrRef spec5 3) (ix2 0 q))
    (fun q => V c (Pipeline.arrRef spec5 4) (ix2 0 q)) (iblk5 V c 0 t) (iblk5 V c 1 t) (iblk5 V c 2 t) (iblk5 V c 3 t)
    (iblk5 V c 4 t) ((cfg5.win 5).xinj (grid5.coords t) j) (((cfg5.win 5).blk t).view.emb j)
    (bn5_xblk V c t j) (bn5_row1 V c t) (bn5_row2 V c t) (bn5_row3 V c t) (bn5_row4 V c t) (bn5_col t j)

/-- An entry of the array lies in point t's block iff, on each axis, its coordinate lies in the block's range. -/
theorem bn5_mem_blk (t : Fin cfg5.N) (i : S50000x256.Idx) :
    i ∈ ((cfg5.win 5).blk t).view.set ↔ ∀ a : Fin 2, win5_5.index t a * S2000x256.size a ≤ (i a).val
      ∧ (i a).val < win5_5.index t a * S2000x256.size a + S2000x256.size a := by
  show i ∈ ((View.whole main_v86).slice (win5_5.rect t)).set ↔ _
  rw [View.set_slice_whole, Rect.mem_set_unit]
  exact Iff.rfl

/-- The array after the region: every row r lies in the block of point r / 2000, so the 25 write-backs leave the
    whole-array result. -/
theorem bn5 (c : Dev nD) : (Gen.dat5 (F := Ideal) V c).arrAt 5 cfg5.N = Cert.Gcn.relu (Cert.Gcn.bn (V c (Pipeline.arrRef spec5 0)) (fun q => V c (Pipeline.arrRef spec5 1) (ix2 0 q)) (fun q => V c (Pipeline.arrRef spec5 2) (ix2 0 q)) (fun q => V c (Pipeline.arrRef spec5 3) (ix2 0 q)) (fun q => V c (Pipeline.arrRef spec5 4) (ix2 0 q)) (Ideal.ofBits .f32 0x3727C5AC#32)) :=
  (Gen.dat5 (F := Ideal) V c).arrAt_eq_of_cover 5 (bn5_G V c) (fun t _ => bn5_flushed V c t) fun i => by
    have hi0 : (i 0).val < 50000 := (i 0).isLt
    have hi1 : (i 1).val < 256 := (i 1).isLt
    have hN : cfg5.N = 25 := N_5
    obtain ⟨t, ht⟩ : ∃ t : Fin cfg5.N, t.val = (i 0).val / 2000 := ⟨⟨(i 0).val / 2000, by rw [hN]; omega⟩, rfl⟩
    obtain ⟨-, -, e50, e51, -⟩ := bn5_idx t
    refine ⟨t, flush5_5 t, ?_⟩
    rw [bn5_mem_blk]
    intro a
    match a with
    | ⟨0, _⟩ =>
      show win5_5.index t (0 : Fin 2) * 2000 ≤ (i 0).val ∧ (i 0).val < win5_5.index t (0 : Fin 2) * 2000 + 2000
      omega
    | ⟨1, _⟩ =>
      show win5_5.index t (1 : Fin 2) * 256 ≤ (i 1).val ∧ (i 1).val < win5_5.index t (1 : Fin 2) * 256 + 256
      omega

end Cert.KernelIdeal.RegVal

end
-- ==== Proof.RegBn10.lean ====
/-
  The batch normalisation of region 10, read as one function of whole arrays.  The region walks the
  [50000, 128] array x in 25 blocks of 2000 rows; the four [1, 128] rows mean, var, g, be are the same at every
  point.  At a point the body writes, at row p and column q of the block,
    ((x (p, q) − mean q) · rsqrt (var q + ε)) · g q + be q,
  so block t of the result is rows 2000·t … 2000·t + 1999 of that function of the whole arrays, and the 25
  blocks cover every row.
-/
import proofs.«106426_j33148557590872_1_alg».proof.Proof.Gen.KernelIdeal.Frame
import proofs.«106426_j33148557590872_1_alg».proof.Proof.GcnSpec
import Idealize.ShloMosaic.Lib.Pipeline.Value
import Idealize.ShloMosaic.Lib.ValueLayout
import Idealize.ShloMosaic.PureOps.Ideal.Laws

noncomputable section

namespace Cert.KernelIdeal.RegVal

open Cert.KernelIdeal Cert.KernelIdeal.Gen Idealize.ShloMosaic Idealize.ShloMosaic.TcCoe Idealize.SL.Sem
open Idealize.ShloMosaic.ValueIdx
open Idealize.ShloMosaic.Pipeline (Dat)

/-- The zero offsets of a whole-block access, as the constant function. -/
theorem bn10_hz : (![0, 0] : Fin 2 → Nat) = fun _ => 0 := funext fun a => by fin_cases a <;> rfl

/-- The body's arithmetic at row p, column q of a block: the rows mean (v7), var (v0), g (v13), be (v17) are read
    at column q, the block x (v5) at (p, q). -/
theorem bn10_pay (v0 : Vec Ideal S1x128 .f32) (v5 : Vec Ideal S2000x128 .f32) (v7 v13 v17 : Vec Ideal S1x128 .f32)
    (p : Fin 2000) (q : Fin 128) :
    k10_pay1 v0 v5 v7 v13 v17 (ix2 p q)
      = ((v5 (ix2 p q) - v7 (ix2 0 q)) * Ideal.rsqrt (v0 (ix2 0 q) + Ideal.ofBits .f32 0x3727C5AC#32)) * v13 (ix2 0 q)
          + v17 (ix2 0 q) := by
  unfold k10_pay1
  simp only [shapeCast_self]
  rw [addf_apply, mulf_apply, mulf_apply, subf_apply]
  simp only [broadcastTo_1b_ab_apply, broadcast_apply]
  rfl

/-- The same at an entry y of the block, against whole arrays: if the block's entry y is the array's entry i (same
    column) and the parameter rows are the functions mean, var, g, be of the column, the body's value at y is the
    normalisation of the whole array at i. -/
theorem bn10_point (x : Cert.Gcn.Mat 50000 128) (mean var g be : Fin 128 → EReal)
    (X : Vec Ideal S2000x128 .f32) (Mn Vr Gm Be : Vec Ideal S1x128 .f32) (y : S2000x128.Idx) (i : S50000x128.Idx)
    (hX : X y = x i) (hM : ∀ q, Mn (ix2 0 q) = mean q) (hV : ∀ q, Vr (ix2 0 q) = var q)
    (hG : ∀ q, Gm (ix2 0 q) = g q) (hB : ∀ q, Be (ix2 0 q) = be q) (h1 : (i 1).val = (y 1).val) :
    k10_pay1 Vr X Mn Gm Be y = Cert.Gcn.bn x mean var g be (Ideal.ofBits .f32 0x3727C5AC#32) i := by
  obtain ⟨p, q, rfl⟩ : ∃ (p : Fin 2000) (q : Fin 128), y = ix2 p q := ⟨y 0, y 1, eq_ix2 y⟩
  obtain ⟨r, q', rfl⟩ : ∃ (r : Fin 50000) (q' : Fin 128), i = ix2 r q' := ⟨i 0, i 1, eq_ix2 i⟩
  obtain rfl : q' = q := Fin.ext h1
  rw [bn10_pay, Cert.Gcn.bn_ix2, hX, hM, hV, hG, hB]

/-- The printed index maps over the 25 grid points: the x window and the output window sit at block (t, 0), the
    four parameter windows at block (0, 0). -/
theorem bn10_idx : ∀ t : Fin cfg10.N,
    win10_0.index t (0 : Fin 2) = t.val ∧ win10_0.index t (1 : Fin 2) = 0
    ∧ win10_5.index t (0 : Fin 2) = t.val ∧ win10_5.index t (1 : Fin 2) = 0
    ∧ win10_1.index t (0 : Fin 2) = 0 ∧ win10_1.index t (1 : Fin 2) = 0
    ∧ win10_2.index t (0 : Fin 2) = 0 ∧ win10_2.index t (1 : Fin 2) = 0
    ∧ win10_3.index t (0 : Fin 2) = 0 ∧ win10_3.index t (1 : Fin 2) = 0
    ∧ win10_4.index t (0 : Fin 2) = 0 ∧ win10_4.index t (1 : Fin 2) = 0 :=
  (by decide +kernel : ∀ t : Fin grid10.N, _)

variable (V : (c : Dev nD) → (b : Ref sig .tc) → Buf (Elt Ideal) ((c : Thread nD τ).loc b))

/-- The whole-array result of the region. -/
abbrev bn10_G (c : Dev nD) : Cert.Gcn.Mat 50000 128 :=
  Cert.Gcn.bn (V c (Pipeline.arrRef spec10 0)) (fun q => V c (Pipeline.arrRef spec10 1) (ix2 0 q)) (fun q => V c (Pipeline.arrRef spec10 2) (ix2 0 q)) (fun q => V c (Pipeline.arrRef spec10 3) (ix2 0 q)) (fun q => V c (Pipeline.arrRef spec10 4) (ix2 0 q)) (Ideal.ofBits .f32 0x3727C5AC#32)

/-- The x window's block at point t, read at an entry of the output's block, is the array x at the entry of the
    output array that the output's block puts there: both windows sit at block (t, 0). -/
theorem bn10_xblk (c : Dev nD) (t : Fin cfg10.N) (j : ((cfg10.win 5).xblock (grid10.coords t)).Idx) :
    iblk10 V c 0 t ((cfg10.win 5).xinj (grid10.coords t) j)
      = V c (Pipeline.arrRef spec10 0) (((cfg10.win 5).blk t).view.emb j) := by
  obtain ⟨e00, e01, e50, e51, -⟩ := bn10_idx t
  show V c (Pipeline.arrRef spec10 0) (((cfg10.win 0).blk t).view.emb j) = V c (Pipeline.arrRef spec10 0) (((cfg10.win 5).blk t).view.emb j)
  refine congrArg _ (funext fun a => Fin.ext ?_)
  match a with
  | ⟨0, _⟩ => show win10_0.index t (0 : Fin 2) * 2000 + 1 * (j 0).val = win10_5.index t (0 : Fin 2) * 2000 + 1 * (j 0).val; omega
  | ⟨1, _⟩ => show win10_0.index t (1 : Fin 2) * 128 + 1 * (j 1).val = win10_5.index t (1 : Fin 2) * 128 + 1 * (j 1).val; omega

/-- The mean window's block at any point is the one row of its array. -/
theorem bn10_row1 (c : Dev nD) (t : Fin cfg10.N) (q : Fin 128) :
    iblk10 V c 1 t (ix2 0 q) = V c (Pipeline.arrRef spec10 1) (ix2 0 q) := by
  obtain ⟨-, -, -, -, e10, e11, e20, e21, e30, e31, e40, e41⟩ := bn10_idx t
  show V c (Pipeline.arrRef spec10 1) (((cfg10.win 1).blk t).view.emb (ix2 0 q)) = V c (Pipeline.arrRef spec10 1) (ix2 0 q)
  refine congrArg _ (funext fun a => Fin.ext ?_)
  match a with
  | ⟨0, _⟩ => show win10_1.index t (0 : Fin 2) * 1 + 1 * 0 = 0; omega
  | ⟨1, _⟩ => show win10_1.index t (1 : Fin 2) * 128 + 1 * q.val = q.val; omega

/-- The variance window's block at any point is the one row of its array. -/
theorem bn10_row2 (c : Dev nD) (t : Fin cfg10.N) (q : Fin 128) :
    iblk10 V c 2 t (ix2 0 q) = V c (Pipeline.arrRef spec10 2) (ix2 0 q) := by
  obtain ⟨-, -, -, -, e10, e11, e20, e21, e30, e31, e40, e41⟩ := bn10_idx t
  show V c (Pipeline.arrRef spec10 2) (((cfg10.win 2).blk t).view.emb (ix2 0 q)) = V c (Pipeline.arrRef spec10 2) (ix2 0 q)
  refine congrArg _ (funext fun a => Fin.ext ?_)
  match a with
  | ⟨0, _⟩ => show win10_2.index t (0 : Fin 2) * 1 + 1 * 0 = 0; omega
  | ⟨1, _⟩ => show win10_2.index t (1 : Fin 2) * 128 + 1 * q.val = q.val; omega

/-- The scale window's block at any point is the one row of its array. -/
theorem bn10_row3 (c : Dev nD) (t : Fin cfg10.N) (q : Fin 128) :
    iblk10 V c 3 t (ix2 0 q) = V c (Pipeline.arrRef spec10 3) (ix2 0 q) := by
  obtain ⟨-, -, -, -, e10, e11, e20, e21, e30, e31, e40, e41⟩ := bn10_idx t
  show V c (Pipeline.arrRef spec10 3) (((cfg10.win 3).blk t).view.emb (ix2 0 q)) = V c (Pipeline.arrRef spec10 3) (ix2 0 q)
  refine congrArg _ (funext fun a => Fin.ext ?_)
  match a with
  | ⟨0, _⟩ => show win10_3.index t (0 : Fin 2) * 1 + 1 * 0 = 0; omega
  | ⟨1, _⟩ => show win10_3.index t (1 : Fin 2) * 128 + 1 * q.val = q.val; omega

/-- The shift window's block at any point is the one row of its array. -/
theorem bn10_row4 (c : Dev nD) (t : Fin cfg10.N) (q : Fin 128) :
    iblk10 V c 4 t (ix2 0 q) = V c (Pipeline.arrRef spec10 4) (ix2 0 q) := by
  obtain ⟨-, -, -, -, e10, e11, e20, e21, e30, e31, e40, e41⟩ := bn10_idx t
  show V c (Pipeline.arrRef spec10 4) (((cfg10.win 4).blk t).view.emb (ix2 0 q)) = V c (Pipeline.arrRef spec10 4) (ix2 0 q)
  refine congrArg _ (funext fun a => Fin.ext ?_)
  match a with
  | ⟨0, _⟩ => show win10_4.index t (0 : Fin 2) * 1 + 1 * 0 = 0; omega
  | ⟨1, _⟩ => show win10_4.index t (1 : Fin 2) * 128 + 1 * q.val = q.val; omega

/-- An entry of the output's block at point t keeps its column in the array. -/
theorem bn10_col (t : Fin cfg10.N) (j : ((cfg10.win 5).xblock (grid10.coords t)).Idx) :
    ((((cfg10.win 5).blk t).view.emb j) 1).val = (((cfg10.win 5).xinj (grid10.coords t) j) 1).val := by
  obtain ⟨-, -, e50, e51, -⟩ := bn10_idx t
  show win10_5.index t (1 : Fin 2) * 128 + 1 * (j 1).val = (j 1).val
  omega

/-- What point t writes back is block t of the whole-array result. -/
theorem bn10_flushed (c : Dev nD) (t : Fin cfg10.N) :
    (Gen.dat10 (F := Ideal) V c).flushed 5 t = ((cfg10.win 5).blk t).view.read (Elt Ideal) (bn10_G V c) := by
  show (cfg10.win 5).cut (grid10.coords t) ((Gen.dat10 (F := Ideal) V c).after 5 t) = _
  rw [after10_5]
  unfold out10_5
  rw [View.canon_unit_zero bn10_hz]
  simp only [View.ld_unit_zero (S := S1x128) bn10_hz, View.ld_unit_zero (S := S2000x128) bn10_hz]
  funext j
  exact bn10_point (V c (Pipeline.arrRef spec10 0)) (fun q => V c (Pipeline.arrRef spec10 1) (ix2 0 q))
    (fun q => V c (Pipeline.arrRef spec10 2) (ix2 0 q)) (fun q => V c (Pipeline.arrRef spec10 3) (ix2 0 q))
    (fun q => V c (Pipeline.arrRef spec10 4) (ix2 0 q)) (iblk10 V c 0 t) (iblk10 V c 1 t) (iblk10 V c 2 t) (iblk10 V c 3 t)
    (iblk10 V c 4 t) ((cfg10.win 5).xinj (grid10.coords t) j) (((cfg10.win 5).blk t).view.emb j)
    (bn10_xblk V c t j) (bn10_row1 V c t) (bn10_row2 V c t) (bn10_row3 V c t) (bn10_row4 V c t) (bn10_col t j)

/-- An entry of the array lies in point t's block iff, on each axis, its coordinate lies in the block's range. -/
theorem bn10_mem_blk (t : Fin cfg10.N) (i : S50000x128.Idx) :
    i ∈ ((cfg10.win 5).blk t).view.set ↔ ∀ a : Fin 2, win10_5.index t a * S2000x128.size a ≤ (i a).val
      ∧ (i a).val < win10_5.index t a * S2000x128.size a + S2000x128.size a := by
  show i ∈ ((View.whole main_v133).slice (win10_5.rect t)).set ↔ _
  rw [View.set_slice_whole, Rect.mem_set_unit]
  exact Iff.rfl

/-- The array after the region: every row r lies in the block of point r / 2000, so the 25 write-backs leave the
    whole-array result. -/
theorem bn10 (c : Dev nD) : (Gen.dat10 (F := Ideal) V c).arrAt 5 cfg10.N = Cert.Gcn.bn (V c (Pipeline.arrRef spec10 0)) (fun q => V c (Pipeline.arrRef spec10 1) (ix2 0 q)) (fun q => V c (Pipeline.arrRef spec10 2) (ix2 0 q)) (fun q => V c (Pipeline.arrRef spec10 3) (ix2 0 q)) (fun q => V c (Pipeline.arrRef spec10 4) (ix2 0 q)) (Ideal.ofBits .f32 0x3727C5AC#32) :=
  (Gen.dat10 (F := Ideal) V c).arrAt_eq_of_cover 5 (bn10_G V c) (fun t _ => bn10_flushed V c t) fun i => by
    have hi0 : (i 0).val < 50000 := (i 0).isLt
    have hi1 : (i 1).val < 128 := (i 1).isLt
    have hN : cfg10.N = 25 := N_10
    obtain ⟨t, ht⟩ : ∃ t : Fin cfg10.N, t.val = (i 0).val / 2000 := ⟨⟨(i 0).val / 2000, by rw [hN]; omega⟩, rfl⟩
    obtain ⟨-, -, e50, e51, -⟩ := bn10_idx t
    refine ⟨t, flush10_5 t, ?_⟩
    rw [bn10_mem_blk]
    intro a
    match a with
    | ⟨0, _⟩ =>
      show win10_5.index t (0 : Fin 2) * 2000 ≤ (i 0).val ∧ (i 0).val < win10_5.index t (0 : Fin 2) * 2000 + 2000
      omega
    | ⟨1, _⟩ =>
      show win10_5.index t (1 : Fin 2) * 128 ≤ (i 1).val ∧ (i 1).val < win10_5.index t (1 : Fin 2) * 128 + 128
      omega

end Cert.KernelIdeal.RegVal

end
-- ==== Proof.RegBn13.lean ====
/-
  The batch normalisation of region 13, read as one function of whole arrays.  The region walks the
  [50000, 256] array x in 25 blocks of 2000 rows; the four [1, 256] rows mean, var, g, be are the same at every
  point.  At a point the body writes, at row p and column q of the block,
    ((x (p, q) − mean q) · rsqrt (var q + ε)) · g q + be q,
  so block t of the result is rows 2000·t … 2000·t + 1999 of that function of the whole arrays, and the 25
  blocks cover every row.
-/
import proofs.«106426_j33148557590872_1_alg».proof.Proof.Gen.KernelIdeal.Frame
import proofs.«106426_j33148557590872_1_alg».proof.Proof.GcnSpec
import Idealize.ShloMosaic.Lib.Pipeline.Value
import Idealize.ShloMosaic.Lib.ValueLayout
import Idealize.ShloMosaic.PureOps.Ideal.Laws

noncomputable section

namespace Cert.KernelIdeal.RegVal

open Cert.KernelIdeal Cert.KernelIdeal.Gen Idealize.ShloMosaic Idealize.ShloMosaic.TcCoe Idealize.SL.Sem
open Idealize.ShloMosaic.ValueIdx
open Idealize.ShloMosaic.Pipeline (Dat)

/-- The zero offsets of a whole-block access, as the constant function. -/
theorem bn13_hz : (![0, 0] : Fin 2 → Nat) = fun _ => 0 := funext fun a => by fin_cases a <;> rfl

/-- The body's arithmetic at row p, column q of a block: the rows mean (v7), var (v0), g (v13), be (v17) are read
    at column q, the block x (v5) at (p, q). -/
theorem bn13_pay (v0 : Vec Ideal S1x256 .f32) (v5 : Vec Ideal S2000x256 .f32) (v7 v13 v17 : Vec Ideal S1x256 .f32)
    (p : Fin 2000) (q : Fin 256) :
    k13_pay1 v0 v5 v7 v13 v17 (ix2 p q)
      = ((v5 (ix2 p q) - v7 (ix2 0 q)) * Ideal.rsqrt (v0 (ix2 0 q) + Ideal.ofBits .f32 0x3727C5AC#32)) * v13 (ix2 0 q)
          + v17 (ix2 0 q) := by
  unfold k13_pay1
  simp only [shapeCast_self]
  rw [addf_apply, mulf_apply, mulf_apply, subf_apply]
  simp only [broadcastTo_1b_ab_apply, broadcast_apply]
  rfl

/-- The same at an entry y of the block, against whole arrays: if the block's entry y is the array's entry i (same
    column) and the parameter rows are the functions mean, var, g, be of the column, the body's value at y is the
    normalisation of the whole array at i. -/
theorem bn13_point (x : Cert.Gcn.Mat 50000 256) (mean var g be : Fin 256 → EReal)
    (X : Vec Ideal S2000x256 .f32) (Mn Vr Gm Be : Vec Ideal S1x256 .f32) (y : S2000x256.Idx) (i : S50000x256.Idx)
    (hX : X y = x i) (hM : ∀ q, Mn (ix2 0 q) = mean q) (hV : ∀ q, Vr (ix2 0 q) = var q)
    (hG : ∀ q, Gm (ix2 0 q) = g q) (hB : ∀ q, Be (ix2 0 q) = be q) (h1 : (i 1).val = (y 1).val) :
    k13_pay1 Vr X Mn Gm Be y = Cert.Gcn.bn x mean var g be (Ideal.ofBits .f32 0x3727C5AC#32) i := by
  obtain ⟨p, q, rfl⟩ : ∃ (p : Fin 2000) (q : Fin 256), y = ix2 p q := ⟨y 0, y 1, eq_ix2 y⟩
  obtain ⟨r, q', rfl⟩ : ∃ (r : Fin 50000) (q' : Fin 256), i = ix2 r q' := ⟨i 0, i 1, eq_ix2 i⟩
  obtain rfl : q' = q := Fin.ext h1
  rw [bn13_pay, Cert.Gcn.bn_ix2, hX, hM, hV, hG, hB]

/-- The printed index maps over the 25 grid points: the x window and the output window sit at block (t, 0), the
    four parameter windows at block (0, 0). -/
theorem bn13_idx : ∀ t : Fin cfg13.N,
    win13_0.index t (0 : Fin 2) = t.val ∧ win13_0.index t (1 : Fin 2) = 0
    ∧ win13_5.index t (0 : Fin 2) = t.val ∧ win13_5.index t (1 : Fin 2) = 0
    ∧ win13_1.index t (0 : Fin 2) = 0 ∧ win13_1.index t (1 : Fin 2) = 0
    ∧ win13_2.index t (0 : Fin 2) = 0 ∧ win13_2.index t (1 : Fin 2) = 0
    ∧ win13_3.index t (0 : Fin 2) = 0 ∧ win13_3.index t (1 : Fin 2) = 0
    ∧ win13_4.index t (0 : Fin 2) = 0 ∧ win13_4.index t (1 : Fin 2) = 0 :=
  (by decide +kernel : ∀ t : Fin grid13.N, _)

variable (V : (c : Dev nD) → (b : Ref sig .tc) → Buf (Elt Ideal) ((c : Thread nD τ).loc b))

/-- The whole-array result of the region. -/
abbrev bn13_G (c : Dev nD) : Cert.Gcn.Mat 50000 256 :=
  Cert.Gcn.bn (V c (Pipeline.arrRef spec13 0)) (fun q => V c (Pipeline.arrRef spec13 1) (ix2 0 q)) (fun q => V c (Pipeline.arrRef spec13 2) (ix2 0 q)) (fun q => V c (Pipeline.arrRef spec13 3) (ix2 0 q)) (fun q => V c (Pipeline.arrRef spec13 4) (ix2 0 q)) (Ideal.ofBits .f32 0x3727C5AC#32)

/-- The x window's block at point t, read at an entry of the output's block, is the array x at the entry of the
    output array that the output's block puts there: both windows sit at block (t, 0). -/
theorem bn13_xblk (c : Dev nD) (t : Fin cfg13.N) (j : ((cfg13.win 5).xblock (grid13.coords t)).Idx) :
    iblk13 V c 0 t ((cfg13.win 5).xinj (grid13.coords t) j)
      = V c (Pipeline.arrRef spec13 0) (((cfg13.win 5).blk t).view.emb j) := by
  obtain ⟨e00, e01, e50, e51, -⟩ := bn13_idx t
  show V c (Pipeline.arrRef spec13 0) (((cfg13.win 0).blk t).view.emb j) = V c (Pipeline.arrRef spec13 0) (((cfg13.win 5).blk t).view.emb j)
  refine congrArg _ (funext fun a => Fin.ext ?_)
  match a with
  | ⟨0, _⟩ => show win13_0.index t (0 : Fin 2) * 2000 + 1 * (j 0).val = win13_5.index t (0 : Fin 2) * 2000 + 1 * (j 0).val; omega
  | ⟨1, _⟩ => show win13_0.index t (1 : Fin 2) * 256 + 1 * (j 1).val = win13_5.index t (1 : Fin 2) * 256 + 1 * (j 1).val; omega

/-- The mean window's block at any point is the one row of its array. -/
theorem bn13_row1 (c : Dev nD) (t : Fin cfg13.N) (q : Fin 256) :
    iblk13 V c 1 t (ix2 0 q) = V c (Pipeline.arrRef spec13 1) (ix2 0 q) := by
  obtain ⟨-, -, -, -, e10, e11, e20, e21, e30, e31, e40, e41⟩ := bn13_idx t
  show V c (Pipeline.arrRef spec13 1) (((cfg13.win 1).blk t).view.emb (ix2 0 q)) = V c (Pipeline.arrRef spec13 1) (ix2 0 q)
  refine congrArg _ (funext fun a => Fin.ext ?_)
  match a with
  | ⟨0, _⟩ => show win13_1.index t (0 : Fin 2) * 1 + 1 * 0 = 0; omega
  | ⟨1, _⟩ => show win13_1.index t (1 : Fin 2) * 256 + 1 * q.val = q.val; omega

/-- The variance window's block at any point is the one row of its array. -/
theorem bn13_row2 (c : Dev nD) (t : Fin cfg13.N) (q : Fin 256) :
    iblk13 V c 2 t (ix2 0 q) = V c (Pipeline.arrRef spec13 2) (ix2 0 q) := by
  obtain ⟨-, -, -, -, e10, e11, e20, e21, e30, e31, e40, e41⟩ := bn13_idx t
  show V c (Pipeline.arrRef spec13 2) (((cfg13.win 2).blk t).view.emb (ix2 0 q)) = V c (Pipeline.arrRef spec13 2) (ix2 0 q)
  refine congrArg _ (funext fun a => Fin.ext ?_)
  match a with
  | ⟨0, _⟩ => show win13_2.index t (0 : Fin 2) * 1 + 1 * 0 = 0; omega
  | ⟨1, _⟩ => show win13_2.index t (1 : Fin 2) * 256 + 1 * q.val = q.val; omega

/-- The scale window's block at any point is the one row of its array. -/
theorem bn13_row3 (c : Dev nD) (t : Fin cfg13.N) (q : Fin 256) :
    iblk13 V c 3 t (ix2 0 q) = V c (Pipeline.arrRef spec13 3) (ix2 0 q) := by
  obtain ⟨-, -, -, -, e10, e11, e20, e21, e30, e31, e40, e41⟩ := bn13_idx t
  show V c (Pipeline.arrRef spec13 3) (((cfg13.win 3).blk t).view.emb (ix2 0 q)) = V c (Pipeline.arrRef spec13 3) (ix2 0 q)
  refine congrArg _ (funext fun a => Fin.ext ?_)
  match a with
  | ⟨0, _⟩ => show win13_3.index t (0 : Fin 2) * 1 + 1 * 0 = 0; omega
  | ⟨1, _⟩ => show win13_3.index t (1 : Fin 2) * 256 + 1 * q.val = q.val; omega

/-- The shift window's block at any point is the one row of its array. -/
theorem bn13_row4 (c : Dev nD) (t : Fin cfg13.N) (q : Fin 256) :
    iblk13 V c 4 t (ix2 0 q) = V c (Pipeline.arrRef spec13 4) (ix2 0 q) := by
  obtain ⟨-, -, -, -, e10, e11, e20, e21, e30, e31, e40, e41⟩ := bn13_idx t
  show V c (Pipeline.arrRef spec13 4) (((cfg13.win 4).blk t).view.emb (ix2 0 q)) = V c (Pipeline.arrRef spec13 4) (ix2 0 q)
  refine congrArg _ (funext fun a => Fin.ext ?_)
  match a with
  | ⟨0, _⟩ => show win13_4.index t (0 : Fin 2) * 1 + 1 * 0 = 0; omega
  | ⟨1, _⟩ => show win13_4.index t (1 : Fin 2) * 256 + 1 * q.val = q.val; omega

/-- An entry of the output's block at point t keeps its column in the array. -/
theorem bn13_col (t : Fin cfg13.N) (j : ((cfg13.win 5).xblock (grid13.coords t)).Idx) :
    ((((cfg13.win 5).blk t).view.emb j) 1).val = (((cfg13.win 5).xinj (grid13.coords t) j) 1).val := by
  obtain ⟨-, -, e50, e51, -⟩ := bn13_idx t
  show win13_5.index t (1 : Fin 2) * 256 + 1 * (j 1).val = (j 1).val
  omega

/-- What point t writes back is block t of the whole-array result. -/
theorem bn13_flushed (c : Dev nD) (t : Fin cfg13.N) :
    (Gen.dat13 (F := Ideal) V c).flushed 5 t = ((cfg13.win 5).blk t).view.read (Elt Ideal) (bn13_G V c) := by
  show (cfg13.win 5).cut (grid13.coords t) ((Gen.dat13 (F := Ideal) V c).after 5 t) = _
  rw [after13_5]
  unfold out13_5
  rw [View.canon_unit_zero bn13_hz]
  simp only [View.ld_unit_zero (S := S1x256) bn13_hz, View.ld_unit_zero (S := S2000x256) bn13_hz]
  funext j
  exact bn13_point (V c (Pipeline.arrRef spec13 0)) (fun q => V c (Pipeline.arrRef spec13 1) (ix2 0 q))
    (fun q => V c (Pipeline.arrRef spec13 2) (ix2 0 q)) (fun q => V c (Pipeline.arrRef spec13 3) (ix2 0 q))
    (fun q => V c (Pipeline.arrRef spec13 4) (ix2 0 q)) (iblk13 V c 0 t) (iblk13 V c 1 t) (iblk13 V c 2 t) (iblk13 V c 3 t)
    (iblk13 V c 4 t) ((cfg13.win 5).xinj (grid13.coords t) j) (((cfg13.win 5).blk t).view.emb j)
    (bn13_xblk V c t j) (bn13_row1 V c t) (bn13_row2 V c t) (bn13_row3 V c t) (bn13_row4 V c t) (bn13_col t j)

/-- An entry of the array lies in point t's block iff, on each axis, its coordinate lies in the block's range. -/
theorem bn13_mem_blk (t : Fin cfg13.N) (i : S50000x256.Idx) :
    i ∈ ((cfg13.win 5).blk t).view.set ↔ ∀ a : Fin 2, win13_5.index t a * S2000x256.size a ≤ (i a).val
      ∧ (i a).val < win13_5.index t a * S2000x256.size a + S2000x256.size a := by
  show i ∈ ((View.whole main_v163).slice (win13_5.rect t)).set ↔ _
  rw [View.set_slice_whole, Rect.mem_set_unit]
  exact Iff.rfl

/-- The array after the region: every row r lies in the block of point r / 2000, so the 25 write-backs leave the
    whole-array result. -/
theorem bn13 (c : Dev nD) : (Gen.dat13 (F := Ideal) V c).arrAt 5 cfg13.N = Cert.Gcn.bn (V c (Pipeline.arrRef spec13 0)) (fun q => V c (Pipeline.arrRef spec13 1) (ix2 0 q)) (fun q => V c (Pipeline.arrRef spec13 2) (ix2 0 q)) (fun q => V c (Pipeline.arrRef spec13 3) (ix2 0 q)) (fun q => V c (Pipeline.arrRef spec13 4) (ix2 0 q)) (Ideal.ofBits .f32 0x3727C5AC#32) :=
  (Gen.dat13 (F := Ideal) V c).arrAt_eq_of_cover 5 (bn13_G V c) (fun t _ => bn13_flushed V c t) fun i => by
    have hi0 : (i 0).val < 50000 := (i 0).isLt
    have hi1 : (i 1).val < 256 := (i 1).isLt
    have hN : cfg13.N = 25 := N_13
    obtain ⟨t, ht⟩ : ∃ t : Fin cfg13.N, t.val = (i 0).val / 2000 := ⟨⟨(i 0).val / 2000, by rw [hN]; omega⟩, rfl⟩
    obtain ⟨-, -, e50, e51, -⟩ := bn13_idx t
    refine ⟨t, flush13_5 t, ?_⟩
    rw [bn13_mem_blk]
    intro a
    match a with
    | ⟨0, _⟩ =>
      show win13_5.index t (0 : Fin 2) * 2000 ≤ (i 0).val ∧ (i 0).val < win13_5.index t (0 : Fin 2) * 2000 + 2000
      omega
    | ⟨1, _⟩ =>
      show win13_5.index t (1 : Fin 2) * 256 ≤ (i 1).val ∧ (i 1).val < win13_5.index t (1 : Fin 2) * 256 + 256
      omega

end Cert.KernelIdeal.RegVal

end
-- ==== Proof.RegStatsSum.lean ====
/-
  Summing an array of 50000 entries block by block.  The rows 0 … 49999 are cut into 25 consecutive blocks of
  2000 rows; row p lies in block p / 2000 at position p % 2000, that is p = 2000 · t + r with t < 25, r < 2000.
  Summing each block and then summing the 25 block sums is the sum over all rows: the map (t, r) ↦ 2000 · t + r
  is a bijection from pairs onto rows, and a finite sum in a commutative monoid does not depend on the order.
-/
import Mathlib.Algebra.BigOperators.Fin
import Mathlib.Algebra.BigOperators.Group.Finset.Basic
import Mathlib.Logic.Equiv.Fin.Basic

noncomputable section

namespace Cert.BlockSum

open Finset

/-- Row r of block t, as a row of the whole array. -/
abbrev row (t : Fin 25) (r : Fin 2000) : Fin 50000 := ⟨2000 * t.val + r.val, by omega⟩

/-- The sum over the blocks of the sums inside each block is the sum over all rows. -/
theorem sum_blocks {M : Type*} [AddCommMonoid M] (f : Fin 50000 → M) :
    ∑ t : Fin 25, ∑ r : Fin 2000, f (row t r) = ∑ p : Fin 50000, f p := by
  rw [← Fintype.sum_prod_type' (f := fun (t : Fin 25) (r : Fin 2000) => f (row t r))]
  refine Fintype.sum_equiv (finProdFinEquiv (m := 25) (n := 2000)) _ _ fun x => ?_
  refine congrArg f (Fin.ext ?_)
  show 2000 * x.1.val + x.2.val = x.2.val + 2000 * x.1.val
  omega

/-- The partial sums over the first n + 1 blocks, for the induction over the blocks: a block index past the
    last block contributes nothing. -/
def blockTerm {M : Type*} [AddCommMonoid M] (g : Fin 25 → M) (s : ℕ) : M :=
  if h : s < 25 then g ⟨s, h⟩ else 0

theorem blockTerm_of_lt {M : Type*} [AddCommMonoid M] (g : Fin 25 → M) (s : ℕ) (h : s < 25) :
    blockTerm g s = g ⟨s, h⟩ := dif_pos h

/-- The partial sum over all 25 blocks is the sum over the blocks. -/
theorem sum_range_blockTerm {M : Type*} [AddCommMonoid M] (g : Fin 25 → M) :
    ∑ s ∈ range 25, blockTerm g s = ∑ t : Fin 25, g t := by
  rw [Finset.sum_range]
  exact Fintype.sum_congr _ _ fun t => blockTerm_of_lt g t.val t.isLt

end Cert.BlockSum

end
-- ==== Proof.RegStats1.lean ====
/-
  The convolution layer's combining step with column statistics, at width 128: the values its three output arrays
  hold after all 25 grid points.

  The [50000, 128] arrays are cut into 25 blocks of 2000 rows. At point t the body reads block t of the aggregated
  messages, of the transformed rows and of the self-loop weights (a column), and the bias row, and stores
  v = aggregated + transformed · weight + bias as block t of the output. It also keeps two [1, 128] rows, reset to zero at
  the first point: to one it adds the column sums of v, to the other the column sums of v · v.  Both rows are written
  back once, after the last point.

  So the output array is the combination of the whole input arrays, entry by entry; and after the last point the two
  rows hold, for each column, the sum over the 25 blocks of the block's 2000 terms, which is the sum over all
  50000 rows (the row p = 2000 · t + r is row r of block t).
-/
import proofs.«106426_j33148557590872_1_alg».proof.Proof.Gen.KernelIdeal.Frame
import proofs.«106426_j33148557590872_1_alg».proof.Proof.LibColumn
import proofs.«106426_j33148557590872_1_alg».proof.Proof.GcnSpec
import proofs.«106426_j33148557590872_1_alg».proof.Proof.RegStatsSum
import Idealize.ShloMosaic.Lib.ValueIdx
import Idealize.ShloMosaic.Lib.ValueLayout
import Idealize.ShloMosaic.Lib.Pipeline.Value
import Idealize.ShloMosaic.PureOps.Ideal.Laws
import Idealize.ShloMosaic.Lib.Tactic

set_option maxRecDepth 16384

noncomputable section

namespace Cert.KernelIdeal.RegVal

open Idealize.ShloMosaic Idealize.ShloMosaic.TcCoe Idealize.ShloMosaic.ValueIdx Idealize.SL.Sem Cert.KernelIdeal Cert.KernelIdeal.Gen
open Idealize.ShloMosaic.Pipeline (Dat)

/-! ## What each case of the body leaves in the three output buffers, as terms of the blocks it read -/

variable {F : FTy → Type} [FloatOps F]

theorem stats1_hz : (![0, 0] : Fin 2 → Nat) = fun _ => 0 := funext fun a => by fin_cases a <;> rfl

/-- At the first point the body leaves in the output block its one store's value, a function of the four input blocks. -/
theorem out1_A_4_eq (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (hc0 : cond1_0 i) (x0 : Vec F S2000x128 .f32) (x1 : Vec F S2000x128 .f32) (x2 : Vec F S2000x1 .f32) (x3 : Vec F S1x128 .f32) :
    out1_A_4 (F := F) c i arg1 harg1 arg2 harg2 arg3 harg3 arg4 harg4 arg5 harg5 arg6 harg6 arg7 harg7 hc0 x0 x1 x2 x3 = k1_pay1 x0 x1 x2 x3 := by
  unfold out1_A_4
  rw [View.read_writes_eq_canon _ _ _ (cover1_A_4 c i arg1 harg1 arg2 harg2 arg3 harg3 arg4 harg4 arg5 harg5 arg6 harg6 arg7 harg7 hc0 x0 x1 x2 x3)]
  unfold kernelRun1_A
  dsimp only
  rw [View.canon_unit_zero stats1_hz]
  simp only [View.readAt_eq_ld, harg1.read_unread, harg2.read_unread, harg3.read_unread, harg4.read_unread,
    View.ld_unit_zero (S := S2000x128) stats1_hz, View.ld_unit_zero (S := S2000x1) stats1_hz, View.ld_unit_zero (S := S1x128) stats1_hz]

/-- At a later point likewise: the output block does not depend on the running sums. -/
theorem out1_B_4_eq (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (hc0 : ¬cond1_0 i) (x0 : Vec F S2000x128 .f32) (x1 : Vec F S2000x128 .f32) (x2 : Vec F S2000x1 .f32) (x3 : Vec F S1x128 .f32) (xo5 : Vec F S1x128 .f32) (xo6 : Vec F S1x128 .f32) :
    out1_B_4 (F := F) c i arg1 harg1 arg2 harg2 arg3 harg3 arg4 harg4 arg5 harg5 arg6 harg6 arg7 harg7 hc0 x0 x1 x2 x3 xo5 xo6 = k1_pay1 x0 x1 x2 x3 := by
  unfold out1_B_4
  rw [View.read_writes_eq_canon _ _ _ (cover1_B_4 c i arg1 harg1 arg2 harg2 arg3 harg3 arg4 harg4 arg5 harg5 arg6 harg6 arg7 harg7 hc0 x0 x1 x2 x3 xo5 xo6)]
  unfold kernelRun1_B
  dsimp only
  rw [View.canon_unit_zero stats1_hz]
  simp only [View.readAt_eq_ld, harg1.read_unread, harg2.read_unread, harg3.read_unread, harg4.read_unread,
    View.ld_unit_zero (S := S2000x128) stats1_hz, View.ld_unit_zero (S := S2000x1) stats1_hz, View.ld_unit_zero (S := S1x128) stats1_hz]

/-- At the first point the running column sums are reset to the zero row, read back, and the block's column sums added. -/
theorem out1_A_5_eq (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (hc0 : cond1_0 i) (x0 : Vec F S2000x128 .f32) (x1 : Vec F S2000x128 .f32) (x2 : Vec F S2000x1 .f32) (x3 : Vec F S1x128 .f32) :
    out1_A_5 (F := F) c i arg1 harg1 arg2 harg2 arg3 harg3 arg4 harg4 arg5 harg5 arg6 harg6 arg7 harg7 hc0 x0 x1 x2 x3 = k1_pay4 x0 x1 x2 x3 k1_pay2 := by
  unfold out1_A_5
  rw [View.read_writes_eq_canon _ _ _ (cover1_A_5 c i arg1 harg1 arg2 harg2 arg3 harg3 arg4 harg4 arg5 harg5 arg6 harg6 arg7 harg7 hc0 x0 x1 x2 x3)]
  unfold kernelRun1_A
  dsimp only
  sl_unfold_words
  rw [View.canon_cons_unit_zero (S := S1x128) stats1_hz, View.readCov_unit_zero (S := S1x128) _ stats1_hz]
  simp only [View.readAt_eq_ld, harg1.read_unread, harg2.read_unread, harg3.read_unread, harg4.read_unread,
    View.ld_unit_zero (S := S2000x128) stats1_hz, View.ld_unit_zero (S := S2000x1) stats1_hz, View.ld_unit_zero (S := S1x128) stats1_hz]

/-- The same for the running column sums of squares. -/
theorem out1_A_6_eq (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (hc0 : cond1_0 i) (x0 : Vec F S2000x128 .f32) (x1 : Vec F S2000x128 .f32) (x2 : Vec F S2000x1 .f32) (x3 : Vec F S1x128 .f32) :
    out1_A_6 (F := F) c i arg1 harg1 arg2 harg2 arg3 harg3 arg4 harg4 arg5 harg5 arg6 harg6 arg7 harg7 hc0 x0 x1 x2 x3 = k1_pay5 x0 x1 x2 x3 k1_pay3 := by
  unfold out1_A_6
  rw [View.read_writes_eq_canon _ _ _ (cover1_A_6 c i arg1 harg1 arg2 harg2 arg3 harg3 arg4 harg4 arg5 harg5 arg6 harg6 arg7 harg7 hc0 x0 x1 x2 x3)]
  unfold kernelRun1_A
  dsimp only
  sl_unfold_words
  rw [View.canon_cons_unit_zero (S := S1x128) stats1_hz, View.readCov_unit_zero (S := S1x128) _ stats1_hz]
  simp only [View.readAt_eq_ld, harg1.read_unread, harg2.read_unread, harg3.read_unread, harg4.read_unread,
    View.ld_unit_zero (S := S2000x128) stats1_hz, View.ld_unit_zero (S := S2000x1) stats1_hz, View.ld_unit_zero (S := S1x128) stats1_hz]

/-- At a later point the block's column sums are added to what the running column sums held. -/
theorem out1_B_5_eq (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (hc0 : ¬cond1_0 i) (x0 : Vec F S2000x128 .f32) (x1 : Vec F S2000x128 .f32) (x2 : Vec F S2000x1 .f32) (x3 : Vec F S1x128 .f32) (xo5 : Vec F S1x128 .f32) (xo6 : Vec F S1x128 .f32) :
    out1_B_5 (F := F) c i arg1 harg1 arg2 harg2 arg3 harg3 arg4 harg4 arg5 harg5 arg6 harg6 arg7 harg7 hc0 x0 x1 x2 x3 xo5 xo6 = k1_pay4 x0 x1 x2 x3 xo5 := by
  unfold out1_B_5
  rw [View.read_writes_eq_canon _ _ _ (cover1_B_5 c i arg1 harg1 arg2 harg2 arg3 harg3 arg4 harg4 arg5 harg5 arg6 harg6 arg7 harg7 hc0 x0 x1 x2 x3 xo5 xo6)]
  unfold kernelRun1_B
  dsimp only
  rw [View.canon_unit_zero stats1_hz]
  simp only [View.readAt_eq_ld, harg1.read_unread, harg2.read_unread, harg3.read_unread, harg4.read_unread, harg6.read_unread,
    View.ld_unit_zero (S := S2000x128) stats1_hz, View.ld_unit_zero (S := S2000x1) stats1_hz, View.ld_unit_zero (S := S1x128) stats1_hz]

/-- The same for the running column sums of squares. -/
theorem out1_B_6_eq (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (hc0 : ¬cond1_0 i) (x0 : Vec F S2000x128 .f32) (x1 : Vec F S2000x128 .f32) (x2 : Vec F S2000x1 .f32) (x3 : Vec F S1x128 .f32) (xo5 : Vec F S1x128 .f32) (xo6 : Vec F S1x128 .f32) :
    out1_B_6 (F := F) c i arg1 harg1 arg2 harg2 arg3 harg3 arg4 harg4 arg5 harg5 arg6 harg6 arg7 harg7 hc0 x0 x1 x2 x3 xo5 xo6 = k1_pay5 x0 x1 x2 x3 xo6 := by
  unfold out1_B_6
  rw [View.read_writes_eq_canon _ _ _ (cover1_B_6 c i arg1 harg1 arg2 harg2 arg3 harg3 arg4 harg4 arg5 harg5 arg6 harg6 arg7 harg7 hc0 x0 x1 x2 x3 xo5 xo6)]
  unfold kernelRun1_B
  dsimp only
  rw [View.canon_unit_zero stats1_hz]
  simp only [View.readAt_eq_ld, harg1.read_unread, harg2.read_unread, harg3.read_unread, harg4.read_unread, harg7.read_unread,
    View.ld_unit_zero (S := S2000x128) stats1_hz, View.ld_unit_zero (S := S2000x1) stats1_hz, View.ld_unit_zero (S := S1x128) stats1_hz]

/-! ## The body's arithmetic at an index, over the extended reals -/

/-- One entry of the block the body stores: aggregated messages, plus the node's own row times its self-loop
    weight, plus the bias row. -/
theorem k1_pay1_apply (x0 x1 : Vec Ideal S2000x128 .f32) (x2 : Vec Ideal S2000x1 .f32) (x3 : Vec Ideal S1x128 .f32)
    (r : Fin 2000) (q : Fin 128) :
    k1_pay1 (F := Ideal) x0 x1 x2 x3 (ix2 r q) = (x0 (ix2 r q) + x1 (ix2 r q) * x2 (ix2 r 0)) + x3 (ix2 0 q) := by
  unfold k1_pay1
  rw [addf_apply, addf_apply, mulf_apply, shapeCast_self, shapeCast_self, shapeCast_self, shapeCast_self,
    Cert.Lib.broadcastTo_a1_ab_apply, broadcastTo_1b_ab_apply]

/-- The sum over the rows of a [2000, 128] block, kept as a [1, 128] row: at column q, the sum of that column. -/
theorem colsum_row1 (v : FVec Ideal S2000x128 .f32) (hacc : (0x00000000#32 : BitVec 32) = 0x00000000#32) (q : Fin 128) :
    shapeCast S1x128 (multiReduction (F := Ideal) .add [0] S128 v 0x00000000#32 reduces_S2000x128_S128 (.inl rfl) hacc)
      shapeCasts_S128_S1x128 (ix2 (0 : Fin 1) q) = ∑ r : Fin 2000, v (ix2 r q) := by
  rw [shapeCast_a_1a_apply]
  refine (Ideal.multiReduction_add_single v 0x00000000#32 reduces_S2000x128_S128 (.inl rfl) hacc (ix1 q)).trans ?_
  refine Finset.sum_congr rfl fun r _ => congrArg v (funext fun a => Fin.ext ?_)
  match a with
  | ⟨0, _⟩ => rfl
  | ⟨1, _⟩ => rfl

/-- The running column sums after a point: what they held, plus the column sums of the point's block. -/
theorem k1_pay4_apply (x0 x1 : Vec Ideal S2000x128 .f32) (x2 : Vec Ideal S2000x1 .f32) (x3 : Vec Ideal S1x128 .f32)
    (acc : Vec Ideal S1x128 .f32) (q : Fin 128) :
    k1_pay4 (F := Ideal) x0 x1 x2 x3 acc (ix2 0 q) = acc (ix2 0 q) + ∑ r : Fin 2000, k1_pay1 (F := Ideal) x0 x1 x2 x3 (ix2 r q) := by
  unfold k1_pay4
  rw [addf_apply, shapeCast_self, colsum_row1]

/-- The running column sums of squares after a point: what they held, plus those of the point's block. -/
theorem k1_pay5_apply (x0 x1 : Vec Ideal S2000x128 .f32) (x2 : Vec Ideal S2000x1 .f32) (x3 : Vec Ideal S1x128 .f32)
    (acc : Vec Ideal S1x128 .f32) (q : Fin 128) :
    k1_pay5 (F := Ideal) x0 x1 x2 x3 acc (ix2 0 q) = acc (ix2 0 q) + ∑ r : Fin 2000, k1_pay1 (F := Ideal) x0 x1 x2 x3 (ix2 r q) * k1_pay1 (F := Ideal) x0 x1 x2 x3 (ix2 r q) := by
  unfold k1_pay5
  rw [addf_apply, shapeCast_self, colsum_row1]
  rfl

/-- The row the first point resets the column sums to is zero. -/
theorem k1_pay2_apply (j : S1x128.Idx) : k1_pay2 (F := Ideal) j = 0 := by
  unfold k1_pay2
  show Ideal.ofBits .f32 0x00000000#32 = 0
  exact Ideal.ofBits_zero_f32

/-- The row the first point resets the column sums of squares to is zero. -/
theorem k1_pay3_apply (j : S1x128.Idx) : k1_pay3 (F := Ideal) j = 0 := by
  unfold k1_pay3
  show Ideal.ofBits .f32 0x00000000#32 = 0
  exact Ideal.ofBits_zero_f32

/-! ## The blocks as rows of the arrays, and the output array -/

section Values
variable (V : (c : Dev nD) → (b : Ref sig .tc) → Buf (Elt Ideal) ((c : Thread nD τ).loc b))

/-- The four input arrays as the region finds them: aggregated messages, transformed rows, self-loop weights (a
    column), bias (a row). -/
abbrev arr1_0 (c : Dev nD) : Cert.Gcn.Mat 50000 128 := V c (Pipeline.arrRef spec1 0)
abbrev arr1_1 (c : Dev nD) : Cert.Gcn.Mat 50000 128 := V c (Pipeline.arrRef spec1 1)
abbrev arr1_2 (c : Dev nD) : Cert.Gcn.Mat 50000 1 := V c (Pipeline.arrRef spec1 2)
abbrev arr1_3 (c : Dev nD) : Cert.Gcn.Mat 1 128 := V c (Pipeline.arrRef spec1 3)

/-- The whole output array: the combination of the four input arrays. -/
def OUT1 (c : Dev nD) : Cert.Gcn.Mat 50000 128 :=
  Cert.Gcn.combine (arr1_0 V c) (arr1_1 V c) (fun p => arr1_2 V c (ix2 p 0)) (fun q => arr1_3 V c (ix2 0 q))

theorem OUT1_apply (c : Dev nD) (p : Fin 50000) (q : Fin 128) :
    OUT1 V c (ix2 p q) = (arr1_0 V c (ix2 p q) + arr1_1 V c (ix2 p q) * arr1_2 V c (ix2 p 0)) + arr1_3 V c (ix2 0 q) := rfl

/-- The grid point as a block number below 25. -/
abbrev pt1 (t : Fin cfg1.N) : Fin 25 := ⟨t.val, lt_of_lt_of_eq t.isLt N_1⟩

/-- The block index of each window at each grid point: the row blocks move with the point, the bias row and the two
    rows of column statistics stay at block (0, 0). -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0 ∧ True :=
  (by decide +kernel : ∀ t : Fin grid1.N, _)

/-- Block t of the aggregated messages is rows 2000 t … 2000 t + 1999 of their array. -/
theorem blk1_0_apply (c : Dev nD) (t : Fin cfg1.N) (r : Fin 2000) (q : Fin 128) :
    (iblk1 V c 0 t : Vec Ideal S2000x128 .f32) (ix2 r q)
      = arr1_0 V c (ix2 (Cert.BlockSum.row (pt1 t) r) q) := by
  obtain ⟨e0, e1, -⟩ := idx_facts1 t
  unfold iblk1
  rw [View.read_apply]
  show V c (Pipeline.arrRef spec1 0) _ = V c (Pipeline.arrRef spec1 0) _
  congr 1
  funext a
  apply Fin.ext
  match a with
  | ⟨0, _⟩ => show win1_0.index t (0 : Fin 2) * 2000 + 1 * r.val = 2000 * t.val + r.val; rw [e0]; omega
  | ⟨1, _⟩ => show win1_0.index t (1 : Fin 2) * 128 + 1 * q.val = q.val; rw [e1]; omega

/-- Block t of the transformed rows is rows 2000 t … 2000 t + 1999 of their array. -/
theorem blk1_1_apply (c : Dev nD) (t : Fin cfg1.N) (r : Fin 2000) (q : Fin 128) :
    (iblk1 V c 1 t : Vec Ideal S2000x128 .f32) (ix2 r q)
      = arr1_1 V c (ix2 (Cert.BlockSum.row (pt1 t) r) q) := by
  obtain ⟨-, -, e0, e1, -⟩ := idx_facts1 t
  unfold iblk1
  rw [View.read_apply]
  show V c (Pipeline.arrRef spec1 1) _ = V c (Pipeline.arrRef spec1 1) _
  congr 1
  funext a
  apply Fin.ext
  match a with
  | ⟨0, _⟩ => show win1_1.index t (0 : Fin 2) * 2000 + 1 * r.val = 2000 * t.val + r.val; rw [e0]; omega
  | ⟨1, _⟩ => show win1_1.index t (1 : Fin 2) * 128 + 1 * q.val = q.val; rw [e1]; omega

/-- Block t of the self-loop weights is rows 2000 t … 2000 t + 1999 of their column. -/
theorem blk1_2_apply (c : Dev nD) (t : Fin cfg1.N) (r : Fin 2000) (u : Fin 1) :
    (iblk1 V c 2 t : Vec Ideal S2000x1 .f32) (ix2 r u)
      = arr1_2 V c (ix2 (Cert.BlockSum.row (pt1 t) r) 0) := by
  obtain ⟨-, -, -, -, e0, e1, -⟩ := idx_facts1 t
  unfold iblk1
  rw [View.read_apply]
  show V c (Pipeline.arrRef spec1 2) _ = V c (Pipeline.arrRef spec1 2) _
  congr 1
  funext a
  apply Fin.ext
  match a with
  | ⟨0, _⟩ => show win1_2.index t (0 : Fin 2) * 2000 + 1 * r.val = 2000 * t.val + r.val; rw [e0]; omega
  | ⟨1, _⟩ => show win1_2.index t (1 : Fin 2) * 1 + 1 * u.val = 0; rw [e1]; omega

/-- The bias row's block is, at every point, the whole row. -/
theorem blk1_3_apply (c : Dev nD) (t : Fin cfg1.N) (u : Fin 1) (q : Fin 128) :
    (iblk1 V c 3 t : Vec Ideal S1x128 .f32) (ix2 u q)
      = arr1_3 V c (ix2 0 q) := by
  obtain ⟨-, -, -, -, -, -, e0, e1, -⟩ := idx_facts1 t
  unfold iblk1
  rw [View.read_apply]
  show V c (Pipeline.arrRef spec1 3) _ = V c (Pipeline.arrRef spec1 3) _
  congr 1
  funext a
  apply Fin.ext
  match a with
  | ⟨0, _⟩ => show win1_3.index t (0 : Fin 2) * 1 + 1 * u.val = 0; rw [e0]; omega
  | ⟨1, _⟩ => show win1_3.index t (1 : Fin 2) * 128 + 1 * q.val = q.val; rw [e1]; omega

/-- What the body computes from the blocks at point t is, entry by entry, rows 2000 t … 2000 t + 1999 of the whole
    output array. -/
theorem blockval1 (c : Dev nD) (t : Fin cfg1.N) (r : Fin 2000) (q : Fin 128) :
    k1_pay1 (F := Ideal) (iblk1 V c 0 t) (iblk1 V c 1 t) (iblk1 V c 2 t) (iblk1 V c 3 t) (ix2 r q)
      = OUT1 V c (ix2 (Cert.BlockSum.row (pt1 t) r) q) := by
  refine (k1_pay1_apply (iblk1 V c 0 t) (iblk1 V c 1 t) (iblk1 V c 2 t) (iblk1 V c 3 t) r q).trans ?_
  rw [blk1_0_apply V c t r q, blk1_1_apply V c t r q, blk1_2_apply V c t r 0, blk1_3_apply V c t 0 q]
  rfl

/-- What the output's staging buffer holds after point t: the body's block value, at the first point and after. -/
theorem outs1_4 (c : Dev nD) (t : Fin cfg1.N) :
    (outsAt1 V c t.val t.isLt).1 = k1_pay1 (iblk1 V c 0 t) (iblk1 V c 1 t) (iblk1 V c 2 t) (iblk1 V c 3 t) := by
  by_cases h0 : t.val % 25 = 0
  · rw [outsAt1_A V c t h0]
    dsimp only
    exact out1_A_4_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) ((hcond1_0 t).mpr h0) (iblk1 V c 0 t) (iblk1 V c 1 t) (iblk1 V c 2 t) (iblk1 V c 3 t)
  · rw [outsAt1_B V c t h0]
    dsimp only
    exact out1_B_4_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2

/-- What point t writes back to the output array is block t of the whole output array. -/
theorem flushed1_4 (c : Dev nD) (t : Fin cfg1.N) :
    (dat1 V c).flushed 4 t = ((cfg1.win 4).blk t).view.read (Elt Ideal) (OUT1 V c) := by
  show (cfg1.win 4).cut (grid1.coords t) ((dat1 V c).after 4 t) = _
  rw [after1_4, outs1_4]
  obtain ⟨-, -, -, -, -, -, -, -, e0, e1, -⟩ := idx_facts1 t
  funext j
  obtain ⟨r, q, rfl⟩ : ∃ (r : Fin 2000) (q : Fin 128), j = ix2 r q := ⟨j 0, j 1, eq_ix2 j⟩
  show k1_pay1 (F := Ideal) (iblk1 V c 0 t) (iblk1 V c 1 t) (iblk1 V c 2 t) (iblk1 V c 3 t) (ix2 r q) = OUT1 V c (((cfg1.win 4).blk t).view.emb (ix2 r q))
  rw [blockval1 V c t r q]
  congr 1
  funext a
  apply Fin.ext
  match a with
  | ⟨0, _⟩ => show 2000 * t.val + r.val = win1_4.index t (0 : Fin 2) * 2000 + 1 * r.val; rw [e0]; omega
  | ⟨1, _⟩ => show q.val = win1_4.index t (1 : Fin 2) * 128 + 1 * q.val; rw [e1]; omega

/-- An index of the output array is in point t's block iff each coordinate is in the block's range on its axis. -/
theorem mem_blk1_4 (t : Fin cfg1.N) (i : S50000x128.Idx) :
    i ∈ ((cfg1.win 4).blk t).view.set ↔ ∀ a : Fin 2, win1_4.index t a * S2000x128.size a ≤ (i a).val ∧ (i a).val < win1_4.index t a * S2000x128.size a + S2000x128.size a := by
  show i ∈ ((View.whole main_v43_0).slice (win1_4.rect t)).set ↔ _
  rw [View.set_slice_whole, Rect.mem_set_unit]
  exact Iff.rfl

/-- The output array after the region is the combination of the input arrays: every row p lies in
    the block of point p / 2000, and every point writes its block of that one array. -/
theorem stats1_out (c : Dev nD) : (dat1 V c).arrAt 4 cfg1.N = OUT1 V c :=
  (dat1 V c).arrAt_eq_of_cover 4 (OUT1 V c) (fun t _ => flushed1_4 V c t) fun i => by
    have hi0 : (i 0).val < 50000 := (i 0).isLt
    have hi1 : (i 1).val < 128 := (i 1).isLt
    have hN : cfg1.N = 25 := N_1
    have ht : (i 0).val / 2000 < cfg1.N := by rw [hN]; omega
    obtain ⟨-, -, -, -, -, -, -, -, e0, e1, -⟩ := idx_facts1 ⟨(i 0).val / 2000, ht⟩
    refine ⟨⟨(i 0).val / 2000, ht⟩, flush1_4 _, ?_⟩
    rw [mem_blk1_4]
    intro a
    match a with
    | ⟨0, _⟩ => show win1_4.index ⟨(i 0).val / 2000, ht⟩ (0 : Fin 2) * 2000 ≤ (i 0).val ∧ (i 0).val < win1_4.index ⟨(i 0).val / 2000, ht⟩ (0 : Fin 2) * 2000 + 2000; rw [e0]; dsimp only; omega
    | ⟨1, _⟩ => show win1_4.index ⟨(i 0).val / 2000, ht⟩ (1 : Fin 2) * 128 ≤ (i 1).val ∧ (i 1).val < win1_4.index ⟨(i 0).val / 2000, ht⟩ (1 : Fin 2) * 128 + 128; rw [e1]; omega

/-! ## The two rows of column statistics -/

/-- The column sum of block t of the whole output array, column q. -/
def bsum1 (c : Dev nD) (q : Fin 128) : Fin 25 → EReal :=
  fun t => ∑ r : Fin 2000, OUT1 V c (ix2 (Cert.BlockSum.row t r) q)

/-- At the first point the running row is reset, so after it the row holds the first block's column sums. -/
theorem outs1_5_A (c : Dev nD) (t : Fin cfg1.N) (h0 : t.val % 25 = 0) (q : Fin 128) :
    (outsAt1 V c t.val t.isLt).2.1 (ix2 0 q) = bsum1 V c q (pt1 t) := by
  rw [outsAt1_A V c t h0]
  dsimp only
  refine (congrFun (out1_A_5_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) ((hcond1_0 t).mpr h0) (iblk1 V c 0 t) (iblk1 V c 1 t) (iblk1 V c 2 t) (iblk1 V c 3 t)) (ix2 0 q)).trans ?_
  refine (k1_pay4_apply (iblk1 V c 0 t) (iblk1 V c 1 t) (iblk1 V c 2 t) (iblk1 V c 3 t) (k1_pay2 (F := Ideal)) q).trans ?_
  rw [k1_pay2_apply, zero_add]
  exact Finset.sum_congr rfl fun r _ => blockval1 V c t r q

/-- At a later point the block's column sums are added to what the row held after the point before. -/
theorem outs1_5_B (c : Dev nD) (t : Fin cfg1.N) (h0 : ¬t.val % 25 = 0) (q : Fin 128) :
    (outsAt1 V c t.val t.isLt).2.1 (ix2 0 q)
      = (outsAt1 V c (t.val - 1) (Nat.lt_of_le_of_lt (Nat.sub_le _ _) t.isLt)).2.1 (ix2 0 q) + bsum1 V c q (pt1 t) := by
  rw [outsAt1_B V c t h0]
  dsimp only
  refine (congrFun (out1_B_5_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2) (ix2 0 q)).trans ?_
  refine (k1_pay4_apply (iblk1 V c 0 t) (iblk1 V c 1 t) (iblk1 V c 2 t) (iblk1 V c 3 t) (outsAt1 V c (t.val - 1) (Nat.lt_of_le_of_lt (Nat.sub_le _ _) t.isLt)).2.1 q).trans ?_
  refine congrArg ((outsAt1 V c (t.val - 1) (Nat.lt_of_le_of_lt (Nat.sub_le _ _) t.isLt)).2.1 (ix2 0 q) + ·) ?_
  exact Finset.sum_congr rfl fun r _ => blockval1 V c t r q

/-- After point n the running row holds the column sums of blocks 0 … n, added up in the grid's order. -/
theorem acc1_5 (c : Dev nD) (q : Fin 128) : ∀ (n : ℕ) (h : n < cfg1.N),
    (outsAt1 V c n h).2.1 (ix2 0 q) = ∑ s ∈ Finset.range (n + 1), Cert.BlockSum.blockTerm (bsum1 V c q) s
  | 0, h => by
    rw [Finset.sum_range_one, Cert.BlockSum.blockTerm_of_lt _ 0 (by omega)]
    exact outs1_5_A V c ⟨0, h⟩ rfl q
  | n + 1, h => by
    have hN : cfg1.N = 25 := N_1
    have hB : ¬(⟨n + 1, h⟩ : Fin cfg1.N).val % 25 = 0 := by dsimp only; omega
    rw [Finset.sum_range_succ, ← acc1_5 c q n (Nat.lt_of_succ_lt h), Cert.BlockSum.blockTerm_of_lt _ (n + 1) (by omega)]
    exact outs1_5_B V c ⟨n + 1, h⟩ hB q

/-- The row of column sums of the whole output array. -/
def SUM1 (c : Dev nD) : Cert.Gcn.Mat 1 128 := fun j => Cert.Gcn.colsum (OUT1 V c) (j 1)

/-- After the last point the running row holds the column sums of the whole output array: the 25 block sums added up
    are the sum over all 50000 rows. -/
theorem last1_5 (c : Dev nD) (t : Fin cfg1.N) (h25 : t.val + 1 = 25) :
    (outsAt1 V c t.val t.isLt).2.1 = (SUM1 V c : Vec Ideal S1x128 .f32) := by
  funext j
  obtain ⟨u, q, rfl⟩ : ∃ (u : Fin 1) (q : Fin 128), j = ix2 u q := ⟨j 0, j 1, eq_ix2 j⟩
  obtain rfl : u = 0 := Subsingleton.elim _ _
  show (outsAt1 V c t.val t.isLt).2.1 (ix2 (0 : Fin 1) q) = Cert.Gcn.colsum (OUT1 V c) q
  rw [acc1_5 V c q t.val t.isLt, h25, Cert.BlockSum.sum_range_blockTerm]
  exact Cert.BlockSum.sum_blocks (fun p => OUT1 V c (ix2 p q))

/-- The one write-back of the row, at the last point, writes that row: its block is the whole [1, 128] array. -/
theorem flushed1_5 (c : Dev nD) (t : Fin cfg1.N) (hf : (cfg1.win 5).flush t = true) :
    (dat1 V c).flushed 5 t = ((cfg1.win 5).blk t).view.read (Elt Ideal) (SUM1 V c) := by
  have hN : cfg1.N = 25 := N_1
  have h25 : t.val + 1 = 25 := by have := (flush1_5 t).mp hf; have := t.isLt; omega
  obtain ⟨-, -, -, -, -, -, -, -, -, -, e0, e1, -⟩ := idx_facts1 t
  show (cfg1.win 5).cut (grid1.coords t) ((dat1 V c).after 5 t) = _
  rw [after1_5, last1_5 V c t h25]
  have hz' : (fun a => win1_5.index t a * main_v43_1.ty.shape.size a) = fun _ => 0 := funext fun a => by
    match a with
    | ⟨0, _⟩ => show win1_5.index t (0 : Fin 2) * 1 = 0; rw [e0]
    | ⟨1, _⟩ => show win1_5.index t (1 : Fin 2) * 128 = 0; rw [e1]
  exact (Memref.read_access_unit_zero (Elt Ideal) main_v43_1 hz' (fun a => by rw [congrFun hz' a]; simp) (SUM1 V c)).symm

/-- An index of the row is in point t's block iff each coordinate is in the block's range on its axis. -/
theorem mem_blk1_5 (t : Fin cfg1.N) (i : S1x128.Idx) :
    i ∈ ((cfg1.win 5).blk t).view.set ↔ ∀ a : Fin 2, win1_5.index t a * S1x128.size a ≤ (i a).val ∧ (i a).val < win1_5.index t a * S1x128.size a + S1x128.size a := by
  show i ∈ ((View.whole main_v43_1).slice (win1_5.rect t)).set ↔ _
  rw [View.set_slice_whole, Rect.mem_set_unit]
  exact Iff.rfl

/-- The row of column sums after the region: the column sums of the whole output array (the last point's block is the whole row). -/
theorem stats1_sum (c : Dev nD) :
    (dat1 V c).arrAt 5 cfg1.N = fun j : S1x128.Idx => Cert.Gcn.colsum (OUT1 V c) (j 1) :=
  (dat1 V c).arrAt_eq_of_cover 5 (SUM1 V c) (flushed1_5 V c) fun i => by
    have hN : cfg1.N = 25 := N_1
    have hi0 : (i 0).val < 1 := (i 0).isLt
    have hi1 : (i 1).val < 128 := (i 1).isLt
    have h24 : 24 < cfg1.N := by rw [hN]; omega
    obtain ⟨-, -, -, -, -, -, -, -, -, -, e0, e1, -⟩ := idx_facts1 ⟨24, h24⟩
    refine ⟨⟨24, h24⟩, (flush1_5 _).mpr rfl, ?_⟩
    rw [mem_blk1_5]
    intro a
    match a with
    | ⟨0, _⟩ => show win1_5.index ⟨24, h24⟩ (0 : Fin 2) * 1 ≤ (i 0).val ∧ (i 0).val < win1_5.index ⟨24, h24⟩ (0 : Fin 2) * 1 + 1; rw [e0]; omega
    | ⟨1, _⟩ => show win1_5.index ⟨24, h24⟩ (1 : Fin 2) * 128 ≤ (i 1).val ∧ (i 1).val < win1_5.index ⟨24, h24⟩ (1 : Fin 2) * 128 + 128; rw [e1]; omega
/-- The column sum of squares of block t of the whole output array, column q. -/
def bsq1 (c : Dev nD) (q : Fin 128) : Fin 25 → EReal :=
  fun t => ∑ r : Fin 2000, OUT1 V c (ix2 (Cert.BlockSum.row t r) q) * OUT1 V c (ix2 (Cert.BlockSum.row t r) q)

/-- At the first point the running row is reset, so after it the row holds the first block's column sums of squares. -/
theorem outs1_6_A (c : Dev nD) (t : Fin cfg1.N) (h0 : t.val % 25 = 0) (q : Fin 128) :
    (outsAt1 V c t.val t.isLt).2.2 (ix2 0 q) = bsq1 V c q (pt1 t) := by
  rw [outsAt1_A V c t h0]
  dsimp only
  refine (congrFun (out1_A_6_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) ((hcond1_0 t).mpr h0) (iblk1 V c 0 t) (iblk1 V c 1 t) (iblk1 V c 2 t) (iblk1 V c 3 t)) (ix2 0 q)).trans ?_
  refine (k1_pay5_apply (iblk1 V c 0 t) (iblk1 V c 1 t) (iblk1 V c 2 t) (iblk1 V c 3 t) (k1_pay3 (F := Ideal)) q).trans ?_
  rw [k1_pay3_apply, zero_add]
  exact Finset.sum_congr rfl fun r _ => by rw [blockval1 V c t r q]

/-- At a later point the block's column sums of squares are added to what the row held after the point before. -/
theorem outs1_6_B (c : Dev nD) (t : Fin cfg1.N) (h0 : ¬t.val % 25 = 0) (q : Fin 128) :
    (outsAt1 V c t.val t.isLt).2.2 (ix2 0 q)
      = (outsAt1 V c (t.val - 1) (Nat.lt_of_le_of_lt (Nat.sub_le _ _) t.isLt)).2.2 (ix2 0 q) + bsq1 V c q (pt1 t) := by
  rw [outsAt1_B V c t h0]
  dsimp only
  refine (congrFun (out1_B_6_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2) (ix2 0 q)).trans ?_
  refine (k1_pay5_apply (iblk1 V c 0 t) (iblk1 V c 1 t) (iblk1 V c 2 t) (iblk1 V c 3 t) (outsAt1 V c (t.val - 1) (Nat.lt_of_le_of_lt (Nat.sub_le _ _) t.isLt)).2.2 q).trans ?_
  refine congrArg ((outsAt1 V c (t.val - 1) (Nat.lt_of_le_of_lt (Nat.sub_le _ _) t.isLt)).2.2 (ix2 0 q) + ·) ?_
  exact Finset.sum_congr rfl fun r _ => by rw [blockval1 V c t r q]

/-- After point n the running row holds the column sums of squares of blocks 0 … n, added up in the grid's order. -/
theorem acc1_6 (c : Dev nD) (q : Fin 128) : ∀ (n : ℕ) (h : n < cfg1.N),
    (outsAt1 V c n h).2.2 (ix2 0 q) = ∑ s ∈ Finset.range (n + 1), Cert.BlockSum.blockTerm (bsq1 V c q) s
  | 0, h => by
    rw [Finset.sum_range_one, Cert.BlockSum.blockTerm_of_lt _ 0 (by omega)]
    exact outs1_6_A V c ⟨0, h⟩ rfl q
  | n + 1, h => by
    have hN : cfg1.N = 25 := N_1
    have hB : ¬(⟨n + 1, h⟩ : Fin cfg1.N).val % 25 = 0 := by dsimp only; omega
    rw [Finset.sum_range_succ, ← acc1_6 c q n (Nat.lt_of_succ_lt h), Cert.BlockSum.blockTerm_of_lt _ (n + 1) (by omega)]
    exact outs1_6_B V c ⟨n + 1, h⟩ hB q

/-- The row of column sums of squares of the whole output array. -/
def SUMSQ1 (c : Dev nD) : Cert.Gcn.Mat 1 128 := fun j => Cert.Gcn.colsumsq (OUT1 V c) (j 1)

/-- After the last point the running row holds the column sums of squares of the whole output array: the 25 block sums added up
    are the sum over all 50000 rows. -/
theorem last1_6 (c : Dev nD) (t : Fin cfg1.N) (h25 : t.val + 1 = 25) :
    (outsAt1 V c t.val t.isLt).2.2 = (SUMSQ1 V c : Vec Ideal S1x128 .f32) := by
  funext j
  obtain ⟨u, q, rfl⟩ : ∃ (u : Fin 1) (q : Fin 128), j = ix2 u q := ⟨j 0, j 1, eq_ix2 j⟩
  obtain rfl : u = 0 := Subsingleton.elim _ _
  show (outsAt1 V c t.val t.isLt).2.2 (ix2 (0 : Fin 1) q) = Cert.Gcn.colsumsq (OUT1 V c) q
  rw [acc1_6 V c q t.val t.isLt, h25, Cert.BlockSum.sum_range_blockTerm]
  exact Cert.BlockSum.sum_blocks (fun p => OUT1 V c (ix2 p q) * OUT1 V c (ix2 p q))

/-- The one write-back of the row, at the last point, writes that row: its block is the whole [1, 128] array. -/
theorem flushed1_6 (c : Dev nD) (t : Fin cfg1.N) (hf : (cfg1.win 6).flush t = true) :
    (dat1 V c).flushed 6 t = ((cfg1.win 6).blk t).view.read (Elt Ideal) (SUMSQ1 V c) := by
  have hN : cfg1.N = 25 := N_1
  have h25 : t.val + 1 = 25 := by have := (flush1_6 t).mp hf; have := t.isLt; omega
  obtain ⟨-, -, -, -, -, -, -, -, -, -, -, -, e0, e1, -⟩ := idx_facts1 t
  show (cfg1.win 6).cut (grid1.coords t) ((dat1 V c).after 6 t) = _
  rw [after1_6, last1_6 V c t h25]
  have hz' : (fun a => win1_6.index t a * main_v43_2.ty.shape.size a) = fun _ => 0 := funext fun a => by
    match a with
    | ⟨0, _⟩ => show win1_6.index t (0 : Fin 2) * 1 = 0; rw [e0]
    | ⟨1, _⟩ => show win1_6.index t (1 : Fin 2) * 128 = 0; rw [e1]
  exact (Memref.read_access_unit_zero (Elt Ideal) main_v43_2 hz' (fun a => by rw [congrFun hz' a]; simp) (SUMSQ1 V c)).symm

/-- An index of the row is in point t's block iff each coordinate is in the block's range on its axis. -/
theorem mem_blk1_6 (t : Fin cfg1.N) (i : S1x128.Idx) :
    i ∈ ((cfg1.win 6).blk t).view.set ↔ ∀ a : Fin 2, win1_6.index t a * S1x128.size a ≤ (i a).val ∧ (i a).val < win1_6.index t a * S1x128.size a + S1x128.size a := by
  show i ∈ ((View.whole main_v43_2).slice (win1_6.rect t)).set ↔ _
  rw [View.set_slice_whole, Rect.mem_set_unit]
  exact Iff.rfl

/-- The row of column sums of squares after the region: the column sums of squares of the whole output array (the last point's block is the whole row). -/
theorem stats1_sumsq (c : Dev nD) :
    (dat1 V c).arrAt 6 cfg1.N = fun j : S1x128.Idx => Cert.Gcn.colsumsq (OUT1 V c) (j 1) :=
  (dat1 V c).arrAt_eq_of_cover 6 (SUMSQ1 V c) (flushed1_6 V c) fun i => by
    have hN : cfg1.N = 25 := N_1
    have hi0 : (i 0).val < 1 := (i 0).isLt
    have hi1 : (i 1).val < 128 := (i 1).isLt
    have h24 : 24 < cfg1.N := by rw [hN]; omega
    obtain ⟨-, -, -, -, -, -, -, -, -, -, -, -, e0, e1, -⟩ := idx_facts1 ⟨24, h24⟩
    refine ⟨⟨24, h24⟩, (flush1_6 _).mpr rfl, ?_⟩
    rw [mem_blk1_6]
    intro a
    match a with
    | ⟨0, _⟩ => show win1_6.index ⟨24, h24⟩ (0 : Fin 2) * 1 ≤ (i 0).val ∧ (i 0).val < win1_6.index ⟨24, h24⟩ (0 : Fin 2) * 1 + 1; rw [e0]; omega
    | ⟨1, _⟩ => show win1_6.index ⟨24, h24⟩ (1 : Fin 2) * 128 ≤ (i 1).val ∧ (i 1).val < win1_6.index ⟨24, h24⟩ (1 : Fin 2) * 128 + 128; rw [e1]; omega

end Values

end Cert.KernelIdeal.RegVal

end
-- ==== Proof.RegStats4.lean ====
/-
  The convolution layer's combining step with column statistics, at width 256: the values its three output arrays
  hold after all 25 grid points.

  The [50000, 256] arrays are cut into 25 blocks of 2000 rows. At point t the body reads block t of the aggregated
  messages, of the transformed rows and of the self-loop weights (a column), and the bias row, and stores
  v = aggregated + transformed · weight + bias as block t of the output. It also keeps two [1, 256] rows, reset to zero at
  the first point: to one it adds the column sums of v, to the other the column sums of v · v.  Both rows are written
  back once, after the last point.

  So the output array is the combination of the whole input arrays, entry by entry; and after the last point the two
  rows hold, for each column, the sum over the 25 blocks of the block's 2000 terms, which is the sum over all
  50000 rows (the row p = 2000 · t + r is row r of block t).
-/
import proofs.«106426_j33148557590872_1_alg».proof.Proof.Gen.KernelIdeal.Frame
import proofs.«106426_j33148557590872_1_alg».proof.Proof.LibColumn
import proofs.«106426_j33148557590872_1_alg».proof.Proof.GcnSpec
import proofs.«106426_j33148557590872_1_alg».proof.Proof.RegStatsSum
import Idealize.ShloMosaic.Lib.ValueIdx
import Idealize.ShloMosaic.Lib.ValueLayout
import Idealize.ShloMosaic.Lib.Pipeline.Value
import Idealize.ShloMosaic.PureOps.Ideal.Laws
import Idealize.ShloMosaic.Lib.Tactic

set_option maxRecDepth 16384

noncomputable section

namespace Cert.KernelIdeal.RegVal

open Idealize.ShloMosaic Idealize.ShloMosaic.TcCoe Idealize.ShloMosaic.ValueIdx Idealize.SL.Sem Cert.KernelIdeal Cert.KernelIdeal.Gen
open Idealize.ShloMosaic.Pipeline (Dat)

/-! ## What each case of the body leaves in the three output buffers, as terms of the blocks it read -/

variable {F : FTy → Type} [FloatOps F]

theorem stats4_hz : (![0, 0] : Fin 2 → Nat) = fun _ => 0 := funext fun a => by fin_cases a <;> rfl

/-- At the first point the body leaves in the output block its one store's value, a function of the four input blocks. -/
theorem out4_A_4_eq (c : Dev nD) (i : grid4.Coords) (arg1 : Memref sig .tc .vmem S2000x256 .f32) (harg1 : arg1.IsWhole) (arg2 : Memref sig .tc .vmem S2000x256 .f32) (harg2 : arg2.IsWhole) (arg3 : Memref sig .tc .vmem S2000x1 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : cond4_0 i) (x0 : Vec F S2000x256 .f32) (x1 : Vec F S2000x256 .f32) (x2 : Vec F S2000x1 .f32) (x3 : Vec F S1x256 .f32) :
    out4_A_4 (F := F) c i arg1 harg1 arg2 harg2 arg3 harg3 arg4 harg4 arg5 harg5 arg6 harg6 arg7 harg7 hc0 x0 x1 x2 x3 = k4_pay1 x0 x1 x2 x3 := by
  unfold out4_A_4
  rw [View.read_writes_eq_canon _ _ _ (cover4_A_4 c i arg1 harg1 arg2 harg2 arg3 harg3 arg4 harg4 arg5 harg5 arg6 harg6 arg7 harg7 hc0 x0 x1 x2 x3)]
  unfold kernelRun4_A
  dsimp only
  rw [View.canon_unit_zero stats4_hz]
  simp only [View.readAt_eq_ld, harg1.read_unread, harg2.read_unread, harg3.read_unread, harg4.read_unread,
    View.ld_unit_zero (S := S2000x256) stats4_hz, View.ld_unit_zero (S := S2000x1) stats4_hz, View.ld_unit_zero (S := S1x256) stats4_hz]

/-- At a later point likewise: the output block does not depend on the running sums. -/
theorem out4_B_4_eq (c : Dev nD) (i : grid4.Coords) (arg1 : Memref sig .tc .vmem S2000x256 .f32) (harg1 : arg1.IsWhole) (arg2 : Memref sig .tc .vmem S2000x256 .f32) (harg2 : arg2.IsWhole) (arg3 : Memref sig .tc .vmem S2000x1 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : ¬cond4_0 i) (x0 : Vec F S2000x256 .f32) (x1 : Vec F S2000x256 .f32) (x2 : Vec F S2000x1 .f32) (x3 : Vec F S1x256 .f32) (xo5 : Vec F S1x256 .f32) (xo6 : Vec F S1x256 .f32) :
    out4_B_4 (F := F) c i arg1 harg1 arg2 harg2 arg3 harg3 arg4 harg4 arg5 harg5 arg6 harg6 arg7 harg7 hc0 x0 x1 x2 x3 xo5 xo6 = k4_pay1 x0 x1 x2 x3 := by
  unfold out4_B_4
  rw [View.read_writes_eq_canon _ _ _ (cover4_B_4 c i arg1 harg1 arg2 harg2 arg3 harg3 arg4 harg4 arg5 harg5 arg6 harg6 arg7 harg7 hc0 x0 x1 x2 x3 xo5 xo6)]
  unfold kernelRun4_B
  dsimp only
  rw [View.canon_unit_zero stats4_hz]
  simp only [View.readAt_eq_ld, harg1.read_unread, harg2.read_unread, harg3.read_unread, harg4.read_unread,
    View.ld_unit_zero (S := S2000x256) stats4_hz, View.ld_unit_zero (S := S2000x1) stats4_hz, View.ld_unit_zero (S := S1x256) stats4_hz]

/-- At the first point the running column sums are reset to the zero row, read back, and the block's column sums added. -/
theorem out4_A_5_eq (c : Dev nD) (i : grid4.Coords) (arg1 : Memref sig .tc .vmem S2000x256 .f32) (harg1 : arg1.IsWhole) (arg2 : Memref sig .tc .vmem S2000x256 .f32) (harg2 : arg2.IsWhole) (arg3 : Memref sig .tc .vmem S2000x1 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : cond4_0 i) (x0 : Vec F S2000x256 .f32) (x1 : Vec F S2000x256 .f32) (x2 : Vec F S2000x1 .f32) (x3 : Vec F S1x256 .f32) :
    out4_A_5 (F := F) c i arg1 harg1 arg2 harg2 arg3 harg3 arg4 harg4 arg5 harg5 arg6 harg6 arg7 harg7 hc0 x0 x1 x2 x3 = k4_pay4 x0 x1 x2 x3 k4_pay2 := by
  unfold out4_A_5
  rw [View.read_writes_eq_canon _ _ _ (cover4_A_5 c i arg1 harg1 arg2 harg2 arg3 harg3 arg4 harg4 arg5 harg5 arg6 harg6 arg7 harg7 hc0 x0 x1 x2 x3)]
  unfold kernelRun4_A
  dsimp only
  sl_unfold_words
  rw [View.canon_cons_unit_zero (S := S1x256) stats4_hz, View.readCov_unit_zero (S := S1x256) _ stats4_hz]
  simp only [View.readAt_eq_ld, harg1.read_unread, harg2.read_unread, harg3.read_unread, harg4.read_unread,
    View.ld_unit_zero (S := S2000x256) stats4_hz, View.ld_unit_zero (S := S2000x1) stats4_hz, View.ld_unit_zero (S := S1x256) stats4_hz]

/-- The same for the running column sums of squares. -/
theorem out4_A_6_eq (c : Dev nD) (i : grid4.Coords) (arg1 : Memref sig .tc .vmem S2000x256 .f32) (harg1 : arg1.IsWhole) (arg2 : Memref sig .tc .vmem S2000x256 .f32) (harg2 : arg2.IsWhole) (arg3 : Memref sig .tc .vmem S2000x1 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : cond4_0 i) (x0 : Vec F S2000x256 .f32) (x1 : Vec F S2000x256 .f32) (x2 : Vec F S2000x1 .f32) (x3 : Vec F S1x256 .f32) :
    out4_A_6 (F := F) c i arg1 harg1 arg2 harg2 arg3 harg3 arg4 harg4 arg5 harg5 arg6 harg6 arg7 harg7 hc0 x0 x1 x2 x3 = k4_pay5 x0 x1 x2 x3 k4_pay3 := by
  unfold out4_A_6
  rw [View.read_writes_eq_canon _ _ _ (cover4_A_6 c i arg1 harg1 arg2 harg2 arg3 harg3 arg4 harg4 arg5 harg5 arg6 harg6 arg7 harg7 hc0 x0 x1 x2 x3)]
  unfold kernelRun4_A
  dsimp only
  sl_unfold_words
  rw [View.canon_cons_unit_zero (S := S1x256) stats4_hz, View.readCov_unit_zero (S := S1x256) _ stats4_hz]
  simp only [View.readAt_eq_ld, harg1.read_unread, harg2.read_unread, harg3.read_unread, harg4.read_unread,
    View.ld_unit_zero (S := S2000x256) stats4_hz, View.ld_unit_zero (S := S2000x1) stats4_hz, View.ld_unit_zero (S := S1x256) stats4_hz]

/-- At a later point the block's column sums are added to what the running column sums held. -/
theorem out4_B_5_eq (c : Dev nD) (i : grid4.Coords) (arg1 : Memref sig .tc .vmem S2000x256 .f32) (harg1 : arg1.IsWhole) (arg2 : Memref sig .tc .vmem S2000x256 .f32) (harg2 : arg2.IsWhole) (arg3 : Memref sig .tc .vmem S2000x1 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : ¬cond4_0 i) (x0 : Vec F S2000x256 .f32) (x1 : Vec F S2000x256 .f32) (x2 : Vec F S2000x1 .f32) (x3 : Vec F S1x256 .f32) (xo5 : Vec F S1x256 .f32) (xo6 : Vec F S1x256 .f32) :
    out4_B_5 (F := F) c i arg1 harg1 arg2 harg2 arg3 harg3 arg4 harg4 arg5 harg5 arg6 harg6 arg7 harg7 hc0 x0 x1 x2 x3 xo5 xo6 = k4_pay4 x0 x1 x2 x3 xo5 := by
  unfold out4_B_5
  rw [View.read_writes_eq_canon _ _ _ (cover4_B_5 c i arg1 harg1 arg2 harg2 arg3 harg3 arg4 harg4 arg5 harg5 arg6 harg6 arg7 harg7 hc0 x0 x1 x2 x3 xo5 xo6)]
  unfold kernelRun4_B
  dsimp only
  rw [View.canon_unit_zero stats4_hz]
  simp only [View.readAt_eq_ld, harg1.read_unread, harg2.read_unread, harg3.read_unread, harg4.read_unread, harg6.read_unread,
    View.ld_unit_zero (S := S2000x256) stats4_hz, View.ld_unit_zero (S := S2000x1) stats4_hz, View.ld_unit_zero (S := S1x256) stats4_hz]

/-- The same for the running column sums of squares. -/
theorem out4_B_6_eq (c : Dev nD) (i : grid4.Coords) (arg1 : Memref sig .tc .vmem S2000x256 .f32) (harg1 : arg1.IsWhole) (arg2 : Memref sig .tc .vmem S2000x256 .f32) (harg2 : arg2.IsWhole) (arg3 : Memref sig .tc .vmem S2000x1 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : ¬cond4_0 i) (x0 : Vec F S2000x256 .f32) (x1 : Vec F S2000x256 .f32) (x2 : Vec F S2000x1 .f32) (x3 : Vec F S1x256 .f32) (xo5 : Vec F S1x256 .f32) (xo6 : Vec F S1x256 .f32) :
    out4_B_6 (F := F) c i arg1 harg1 arg2 harg2 arg3 harg3 arg4 harg4 arg5 harg5 arg6 harg6 arg7 harg7 hc0 x0 x1 x2 x3 xo5 xo6 = k4_pay5 x0 x1 x2 x3 xo6 := by
  unfold out4_B_6
  rw [View.read_writes_eq_canon _ _ _ (cover4_B_6 c i arg1 harg1 arg2 harg2 arg3 harg3 arg4 harg4 arg5 harg5 arg6 harg6 arg7 harg7 hc0 x0 x1 x2 x3 xo5 xo6)]
  unfold kernelRun4_B
  dsimp only
  rw [View.canon_unit_zero stats4_hz]
  simp only [View.readAt_eq_ld, harg1.read_unread, harg2.read_unread, harg3.read_unread, harg4.read_unread, harg7.read_unread,
    View.ld_unit_zero (S := S2000x256) stats4_hz, View.ld_unit_zero (S := S2000x1) stats4_hz, View.ld_unit_zero (S := S1x256) stats4_hz]

/-! ## The body's arithmetic at an index, over the extended reals -/

/-- One entry of the block the body stores: aggregated messages, plus the node's own row times its self-loop
    weight, plus the bias row. -/
theorem k4_pay1_apply (x0 x1 : Vec Ideal S2000x256 .f32) (x2 : Vec Ideal S2000x1 .f32) (x3 : Vec Ideal S1x256 .f32)
    (r : Fin 2000) (q : Fin 256) :
    k4_pay1 (F := Ideal) x0 x1 x2 x3 (ix2 r q) = (x0 (ix2 r q) + x1 (ix2 r q) * x2 (ix2 r 0)) + x3 (ix2 0 q) := by
  unfold k4_pay1
  rw [addf_apply, addf_apply, mulf_apply, shapeCast_self, shapeCast_self, shapeCast_self, shapeCast_self,
    Cert.Lib.broadcastTo_a1_ab_apply, broadcastTo_1b_ab_apply]

/-- The sum over the rows of a [2000, 256] block, kept as a [1, 256] row: at column q, the sum of that column. -/
theorem colsum_row4 (v : FVec Ideal S2000x256 .f32) (hacc : (0x00000000#32 : BitVec 32) = 0x00000000#32) (q : Fin 256) :
    shapeCast S1x256 (multiReduction (F := Ideal) .add [0] S256 v 0x00000000#32 reduces_S2000x256_S256 (.inl rfl) hacc)
      shapeCasts_S256_S1x256 (ix2 (0 : Fin 1) q) = ∑ r : Fin 2000, v (ix2 r q) := by
  rw [shapeCast_a_1a_apply]
  refine (Ideal.multiReduction_add_single v 0x00000000#32 reduces_S2000x256_S256 (.inl rfl) hacc (ix1 q)).trans ?_
  refine Finset.sum_congr rfl fun r _ => congrArg v (funext fun a => Fin.ext ?_)
  match a with
  | ⟨0, _⟩ => rfl
  | ⟨1, _⟩ => rfl

/-- The running column sums after a point: what they held, plus the column sums of the point's block. -/
theorem k4_pay4_apply (x0 x1 : Vec Ideal S2000x256 .f32) (x2 : Vec Ideal S2000x1 .f32) (x3 : Vec Ideal S1x256 .f32)
    (acc : Vec Ideal S1x256 .f32) (q : Fin 256) :
    k4_pay4 (F := Ideal) x0 x1 x2 x3 acc (ix2 0 q) = acc (ix2 0 q) + ∑ r : Fin 2000, k4_pay1 (F := Ideal) x0 x1 x2 x3 (ix2 r q) := by
  unfold k4_pay4
  rw [addf_apply, shapeCast_self, colsum_row4]

/-- The running column sums of squares after a point: what they held, plus those of the point's block. -/
theorem k4_pay5_apply (x0 x1 : Vec Ideal S2000x256 .f32) (x2 : Vec Ideal S2000x1 .f32) (x3 : Vec Ideal S1x256 .f32)
    (acc : Vec Ideal S1x256 .f32) (q : Fin 256) :
    k4_pay5 (F := Ideal) x0 x1 x2 x3 acc (ix2 0 q) = acc (ix2 0 q) + ∑ r : Fin 2000, k4_pay1 (F := Ideal) x0 x1 x2 x3 (ix2 r q) * k4_pay1 (F := Ideal) x0 x1 x2 x3 (ix2 r q) := by
  unfold k4_pay5
  rw [addf_apply, shapeCast_self, colsum_row4]
  rfl

/-- The row the first point resets the column sums to is zero. -/
theorem k4_pay2_apply (j : S1x256.Idx) : k4_pay2 (F := Ideal) j = 0 := by
  unfold k4_pay2
  show Ideal.ofBits .f32 0x00000000#32 = 0
  exact Ideal.ofBits_zero_f32

/-- The row the first point resets the column sums of squares to is zero. -/
theorem k4_pay3_apply (j : S1x256.Idx) : k4_pay3 (F := Ideal) j = 0 := by
  unfold k4_pay3
  show Ideal.ofBits .f32 0x00000000#32 = 0
  exact Ideal.ofBits_zero_f32

/-! ## The blocks as rows of the arrays, and the output array -/

section Values
variable (V : (c : Dev nD) → (b : Ref sig .tc) → Buf (Elt Ideal) ((c : Thread nD τ).loc b))

/-- The four input arrays as the region finds them: aggregated messages, transformed rows, self-loop weights (a
    column), bias (a row). -/
abbrev arr4_0 (c : Dev nD) : Cert.Gcn.Mat 50000 256 := V c (Pipeline.arrRef spec4 0)
abbrev arr4_1 (c : Dev nD) : Cert.Gcn.Mat 50000 256 := V c (Pipeline.arrRef spec4 1)
abbrev arr4_2 (c : Dev nD) : Cert.Gcn.Mat 50000 1 := V c (Pipeline.arrRef spec4 2)
abbrev arr4_3 (c : Dev nD) : Cert.Gcn.Mat 1 256 := V c (Pipeline.arrRef spec4 3)

/-- The whole output array: the combination of the four input arrays. -/
def OUT4 (c : Dev nD) : Cert.Gcn.Mat 50000 256 :=
  Cert.Gcn.combine (arr4_0 V c) (arr4_1 V c) (fun p => arr4_2 V c (ix2 p 0)) (fun q => arr4_3 V c (ix2 0 q))

theorem OUT4_apply (c : Dev nD) (p : Fin 50000) (q : Fin 256) :
    OUT4 V c (ix2 p q) = (arr4_0 V c (ix2 p q) + arr4_1 V c (ix2 p q) * arr4_2 V c (ix2 p 0)) + arr4_3 V c (ix2 0 q) := rfl

/-- The grid point as a block number below 25. -/
abbrev pt4 (t : Fin cfg4.N) : Fin 25 := ⟨t.val, lt_of_lt_of_eq t.isLt N_4⟩

/-- The block index of each window at each grid point: the row blocks move with the point, the bias row and the two
    rows of column statistics stay at block (0, 0). -/
theorem idx_facts4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0 ∧ True :=
  (by decide +kernel : ∀ t : Fin grid4.N, _)

/-- Block t of the aggregated messages is rows 2000 t … 2000 t + 1999 of their array. -/
theorem blk4_0_apply (c : Dev nD) (t : Fin cfg4.N) (r : Fin 2000) (q : Fin 256) :
    (iblk4 V c 0 t : Vec Ideal S2000x256 .f32) (ix2 r q)
      = arr4_0 V c (ix2 (Cert.BlockSum.row (pt4 t) r) q) := by
  obtain ⟨e0, e1, -⟩ := idx_facts4 t
  unfold iblk4
  rw [View.read_apply]
  show V c (Pipeline.arrRef spec4 0) _ = V c (Pipeline.arrRef spec4 0) _
  congr 1
  funext a
  apply Fin.ext
  match a with
  | ⟨0, _⟩ => show win4_0.index t (0 : Fin 2) * 2000 + 1 * r.val = 2000 * t.val + r.val; rw [e0]; omega
  | ⟨1, _⟩ => show win4_0.index t (1 : Fin 2) * 256 + 1 * q.val = q.val; rw [e1]; omega

/-- Block t of the transformed rows is rows 2000 t … 2000 t + 1999 of their array. -/
theorem blk4_1_apply (c : Dev nD) (t : Fin cfg4.N) (r : Fin 2000) (q : Fin 256) :
    (iblk4 V c 1 t : Vec Ideal S2000x256 .f32) (ix2 r q)
      = arr4_1 V c (ix2 (Cert.BlockSum.row (pt4 t) r) q) := by
  obtain ⟨-, -, e0, e1, -⟩ := idx_facts4 t
  unfold iblk4
  rw [View.read_apply]
  show V c (Pipeline.arrRef spec4 1) _ = V c (Pipeline.arrRef spec4 1) _
  congr 1
  funext a
  apply Fin.ext
  match a with
  | ⟨0, _⟩ => show win4_1.index t (0 : Fin 2) * 2000 + 1 * r.val = 2000 * t.val + r.val; rw [e0]; omega
  | ⟨1, _⟩ => show win4_1.index t (1 : Fin 2) * 256 + 1 * q.val = q.val; rw [e1]; omega

/-- Block t of the self-loop weights is rows 2000 t … 2000 t + 1999 of their column. -/
theorem blk4_2_apply (c : Dev nD) (t : Fin cfg4.N) (r : Fin 2000) (u : Fin 1) :
    (iblk4 V c 2 t : Vec Ideal S2000x1 .f32) (ix2 r u)
      = arr4_2 V c (ix2 (Cert.BlockSum.row (pt4 t) r) 0) := by
  obtain ⟨-, -, -, -, e0, e1, -⟩ := idx_facts4 t
  unfold iblk4
  rw [View.read_apply]
  show V c (Pipeline.arrRef spec4 2) _ = V c (Pipeline.arrRef spec4 2) _
  congr 1
  funext a
  apply Fin.ext
  match a with
  | ⟨0, _⟩ => show win4_2.index t (0 : Fin 2) * 2000 + 1 * r.val = 2000 * t.val + r.val; rw [e0]; omega
  | ⟨1, _⟩ => show win4_2.index t (1 : Fin 2) * 1 + 1 * u.val = 0; rw [e1]; omega

/-- The bias row's block is, at every point, the whole row. -/
theorem blk4_3_apply (c : Dev nD) (t : Fin cfg4.N) (u : Fin 1) (q : Fin 256) :
    (iblk4 V c 3 t : Vec Ideal S1x256 .f32) (ix2 u q)
      = arr4_3 V c (ix2 0 q) := by
  obtain ⟨-, -, -, -, -, -, e0, e1, -⟩ := idx_facts4 t
  unfold iblk4
  rw [View.read_apply]
  show V c (Pipeline.arrRef spec4 3) _ = V c (Pipeline.arrRef spec4 3) _
  congr 1
  funext a
  apply Fin.ext
  match a with
  | ⟨0, _⟩ => show win4_3.index t (0 : Fin 2) * 1 + 1 * u.val = 0; rw [e0]; omega
  | ⟨1, _⟩ => show win4_3.index t (1 : Fin 2) * 256 + 1 * q.val = q.val; rw [e1]; omega

/-- What the body computes from the blocks at point t is, entry by entry, rows 2000 t … 2000 t + 1999 of the whole
    output array. -/
theorem blockval4 (c : Dev nD) (t : Fin cfg4.N) (r : Fin 2000) (q : Fin 256) :
    k4_pay1 (F := Ideal) (iblk4 V c 0 t) (iblk4 V c 1 t) (iblk4 V c 2 t) (iblk4 V c 3 t) (ix2 r q)
      = OUT4 V c (ix2 (Cert.BlockSum.row (pt4 t) r) q) := by
  refine (k4_pay1_apply (iblk4 V c 0 t) (iblk4 V c 1 t) (iblk4 V c 2 t) (iblk4 V c 3 t) r q).trans ?_
  rw [blk4_0_apply V c t r q, blk4_1_apply V c t r q, blk4_2_apply V c t r 0, blk4_3_apply V c t 0 q]
  rfl

/-- What the output's staging buffer holds after point t: the body's block value, at the first point and after. -/
theorem outs4_4 (c : Dev nD) (t : Fin cfg4.N) :
    (outsAt4 V c t.val t.isLt).1 = k4_pay1 (iblk4 V c 0 t) (iblk4 V c 1 t) (iblk4 V c 2 t) (iblk4 V c 3 t) := by
  by_cases h0 : t.val % 25 = 0
  · rw [outsAt4_A V c t h0]
    dsimp only
    exact out4_A_4_eq (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) ((hcond4_0 t).mpr h0) (iblk4 V c 0 t) (iblk4 V c 1 t) (iblk4 V c 2 t) (iblk4 V c 3 t)
  · rw [outsAt4_B V c t h0]
    dsimp only
    exact out4_B_4_eq (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (fun h => h0 ((hcond4_0 t).mp h)) (iblk4 V c 0 t) (iblk4 V c 1 t) (iblk4 V c 2 t) (iblk4 V c 3 t) (outsAt4 V c (t.val - 1) (Nat.lt_of_le_of_lt (Nat.sub_le _ _) t.isLt)).2.1 (outsAt4 V c (t.val - 1) (Nat.lt_of_le_of_lt (Nat.sub_le _ _) t.isLt)).2.2

/-- What point t writes back to the output array is block t of the whole output array. -/
theorem flushed4_4 (c : Dev nD) (t : Fin cfg4.N) :
    (dat4 V c).flushed 4 t = ((cfg4.win 4).blk t).view.read (Elt Ideal) (OUT4 V c) := by
  show (cfg4.win 4).cut (grid4.coords t) ((dat4 V c).after 4 t) = _
  rw [after4_4, outs4_4]
  obtain ⟨-, -, -, -, -, -, -, -, e0, e1, -⟩ := idx_facts4 t
  funext j
  obtain ⟨r, q, rfl⟩ : ∃ (r : Fin 2000) (q : Fin 256), j = ix2 r q := ⟨j 0, j 1, eq_ix2 j⟩
  show k4_pay1 (F := Ideal) (iblk4 V c 0 t) (iblk4 V c 1 t) (iblk4 V c 2 t) (iblk4 V c 3 t) (ix2 r q) = OUT4 V c (((cfg4.win 4).blk t).view.emb (ix2 r q))
  rw [blockval4 V c t r q]
  congr 1
  funext a
  apply Fin.ext
  match a with
  | ⟨0, _⟩ => show 2000 * t.val + r.val = win4_4.index t (0 : Fin 2) * 2000 + 1 * r.val; rw [e0]; omega
  | ⟨1, _⟩ => show q.val = win4_4.index t (1 : Fin 2) * 256 + 1 * q.val; rw [e1]; omega

/-- An index of the output array is in point t's block iff each coordinate is in the block's range on its axis. -/
theorem mem_blk4_4 (t : Fin cfg4.N) (i : S50000x256.Idx) :
    i ∈ ((cfg4.win 4).blk t).view.set ↔ ∀ a : Fin 2, win4_4.index t a * S2000x256.size a ≤ (i a).val ∧ (i a).val < win4_4.index t a * S2000x256.size a + S2000x256.size a := by
  show i ∈ ((View.whole main_v73_0).slice (win4_4.rect t)).set ↔ _
  rw [View.set_slice_whole, Rect.mem_set_unit]
  exact Iff.rfl

/-- The output array after the region is the combination of the input arrays: every row p lies in
    the block of point p / 2000, and every point writes its block of that one array. -/
theorem stats4_out (c : Dev nD) : (dat4 V c).arrAt 4 cfg4.N = OUT4 V c :=
  (dat4 V c).arrAt_eq_of_cover 4 (OUT4 V c) (fun t _ => flushed4_4 V c t) fun i => by
    have hi0 : (i 0).val < 50000 := (i 0).isLt
    have hi1 : (i 1).val < 256 := (i 1).isLt
    have hN : cfg4.N = 25 := N_4
    have ht : (i 0).val / 2000 < cfg4.N := by rw [hN]; omega
    obtain ⟨-, -, -, -, -, -, -, -, e0, e1, -⟩ := idx_facts4 ⟨(i 0).val / 2000, ht⟩
    refine ⟨⟨(i 0).val / 2000, ht⟩, flush4_4 _, ?_⟩
    rw [mem_blk4_4]
    intro a
    match a with
    | ⟨0, _⟩ => show win4_4.index ⟨(i 0).val / 2000, ht⟩ (0 : Fin 2) * 2000 ≤ (i 0).val ∧ (i 0).val < win4_4.index ⟨(i 0).val / 2000, ht⟩ (0 : Fin 2) * 2000 + 2000; rw [e0]; dsimp only; omega
    | ⟨1, _⟩ => show win4_4.index ⟨(i 0).val / 2000, ht⟩ (1 : Fin 2) * 256 ≤ (i 1).val ∧ (i 1).val < win4_4.index ⟨(i 0).val / 2000, ht⟩ (1 : Fin 2) * 256 + 256; rw [e1]; omega

/-! ## The two rows of column statistics -/

/-- The column sum of block t of the whole output array, column q. -/
def bsum4 (c : Dev nD) (q : Fin 256) : Fin 25 → EReal :=
  fun t => ∑ r : Fin 2000, OUT4 V c (ix2 (Cert.BlockSum.row t r) q)

/-- At the first point the running row is reset, so after it the row holds the first block's column sums. -/
theorem outs4_5_A (c : Dev nD) (t : Fin cfg4.N) (h0 : t.val % 25 = 0) (q : Fin 256) :
    (outsAt4 V c t.val t.isLt).2.1 (ix2 0 q) = bsum4 V c q (pt4 t) := by
  rw [outsAt4_A V c t h0]
  dsimp only
  refine (congrFun (out4_A_5_eq (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) ((hcond4_0 t).mpr h0) (iblk4 V c 0 t) (iblk4 V c 1 t) (iblk4 V c 2 t) (iblk4 V c 3 t)) (ix2 0 q)).trans ?_
  refine (k4_pay4_apply (iblk4 V c 0 t) (iblk4 V c 1 t) (iblk4 V c 2 t) (iblk4 V c 3 t) (k4_pay2 (F := Ideal)) q).trans ?_
  rw [k4_pay2_apply, zero_add]
  exact Finset.sum_congr rfl fun r _ => blockval4 V c t r q

/-- At a later point the block's column sums are added to what the row held after the point before. -/
theorem outs4_5_B (c : Dev nD) (t : Fin cfg4.N) (h0 : ¬t.val % 25 = 0) (q : Fin 256) :
    (outsAt4 V c t.val t.isLt).2.1 (ix2 0 q)
      = (outsAt4 V c (t.val - 1) (Nat.lt_of_le_of_lt (Nat.sub_le _ _) t.isLt)).2.1 (ix2 0 q) + bsum4 V c q (pt4 t) := by
  rw [outsAt4_B V c t h0]
  dsimp only
  refine (congrFun (out4_B_5_eq (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (fun h => h0 ((hcond4_0 t).mp h)) (iblk4 V c 0 t) (iblk4 V c 1 t) (iblk4 V c 2 t) (iblk4 V c 3 t) (outsAt4 V c (t.val - 1) (Nat.lt_of_le_of_lt (Nat.sub_le _ _) t.isLt)).2.1 (outsAt4 V c (t.val - 1) (Nat.lt_of_le_of_lt (Nat.sub_le _ _) t.isLt)).2.2) (ix2 0 q)).trans ?_
  refine (k4_pay4_apply (iblk4 V c 0 t) (iblk4 V c 1 t) (iblk4 V c 2 t) (iblk4 V c 3 t) (outsAt4 V c (t.val - 1) (Nat.lt_of_le_of_lt (Nat.sub_le _ _) t.isLt)).2.1 q).trans ?_
  refine congrArg ((outsAt4 V c (t.val - 1) (Nat.lt_of_le_of_lt (Nat.sub_le _ _) t.isLt)).2.1 (ix2 0 q) + ·) ?_
  exact Finset.sum_congr rfl fun r _ => blockval4 V c t r q

/-- After point n the running row holds the column sums of blocks 0 … n, added up in the grid's order. -/
theorem acc4_5 (c : Dev nD) (q : Fin 256) : ∀ (n : ℕ) (h : n < cfg4.N),
    (outsAt4 V c n h).2.1 (ix2 0 q) = ∑ s ∈ Finset.range (n + 1), Cert.BlockSum.blockTerm (bsum4 V c q) s
  | 0, h => by
    rw [Finset.sum_range_one, Cert.BlockSum.blockTerm_of_lt _ 0 (by omega)]
    exact outs4_5_A V c ⟨0, h⟩ rfl q
  | n + 1, h => by
    have hN : cfg4.N = 25 := N_4
    have hB : ¬(⟨n + 1, h⟩ : Fin cfg4.N).val % 25 = 0 := by dsimp only; omega
    rw [Finset.sum_range_succ, ← acc4_5 c q n (Nat.lt_of_succ_lt h), Cert.BlockSum.blockTerm_of_lt _ (n + 1) (by omega)]
    exact outs4_5_B V c ⟨n + 1, h⟩ hB q

/-- The row of column sums of the whole output array. -/
def SUM4 (c : Dev nD) : Cert.Gcn.Mat 1 256 := fun j => Cert.Gcn.colsum (OUT4 V c) (j 1)

/-- After the last point the running row holds the column sums of the whole output array: the 25 block sums added up
    are the sum over all 50000 rows. -/
theorem last4_5 (c : Dev nD) (t : Fin cfg4.N) (h25 : t.val + 1 = 25) :
    (outsAt4 V c t.val t.isLt).2.1 = (SUM4 V c : Vec Ideal S1x256 .f32) := by
  funext j
  obtain ⟨u, q, rfl⟩ : ∃ (u : Fin 1) (q : Fin 256), j = ix2 u q := ⟨j 0, j 1, eq_ix2 j⟩
  obtain rfl : u = 0 := Subsingleton.elim _ _
  show (outsAt4 V c t.val t.isLt).2.1 (ix2 (0 : Fin 1) q) = Cert.Gcn.colsum (OUT4 V c) q
  rw [acc4_5 V c q t.val t.isLt, h25, Cert.BlockSum.sum_range_blockTerm]
  exact Cert.BlockSum.sum_blocks (fun p => OUT4 V c (ix2 p q))

/-- The one write-back of the row, at the last point, writes that row: its block is the whole [1, 256] array. -/
theorem flushed4_5 (c : Dev nD) (t : Fin cfg4.N) (hf : (cfg4.win 5).flush t = true) :
    (dat4 V c).flushed 5 t = ((cfg4.win 5).blk t).view.read (Elt Ideal) (SUM4 V c) := by
  have hN : cfg4.N = 25 := N_4
  have h25 : t.val + 1 = 25 := by have := (flush4_5 t).mp hf; have := t.isLt; omega
  obtain ⟨-, -, -, -, -, -, -, -, -, -, e0, e1, -⟩ := idx_facts4 t
  show (cfg4.win 5).cut (grid4.coords t) ((dat4 V c).after 5 t) = _
  rw [after4_5, last4_5 V c t h25]
  have hz' : (fun a => win4_5.index t a * main_v73_1.ty.shape.size a) = fun _ => 0 := funext fun a => by
    match a with
    | ⟨0, _⟩ => show win4_5.index t (0 : Fin 2) * 1 = 0; rw [e0]
    | ⟨1, _⟩ => show win4_5.index t (1 : Fin 2) * 256 = 0; rw [e1]
  exact (Memref.read_access_unit_zero (Elt Ideal) main_v73_1 hz' (fun a => by rw [congrFun hz' a]; simp) (SUM4 V c)).symm

/-- An index of the row is in point t's block iff each coordinate is in the block's range on its axis. -/
theorem mem_blk4_5 (t : Fin cfg4.N) (i : S1x256.Idx) :
    i ∈ ((cfg4.win 5).blk t).view.set ↔ ∀ a : Fin 2, win4_5.index t a * S1x256.size a ≤ (i a).val ∧ (i a).val < win4_5.index t a * S1x256.size a + S1x256.size a := by
  show i ∈ ((View.whole main_v73_1).slice (win4_5.rect t)).set ↔ _
  rw [View.set_slice_whole, Rect.mem_set_unit]
  exact Iff.rfl

/-- The row of column sums after the region: the column sums of the whole output array (the last point's block is the whole row). -/
theorem stats4_sum (c : Dev nD) :
    (dat4 V c).arrAt 5 cfg4.N = fun j : S1x256.Idx => Cert.Gcn.colsum (OUT4 V c) (j 1) :=
  (dat4 V c).arrAt_eq_of_cover 5 (SUM4 V c) (flushed4_5 V c) fun i => by
    have hN : cfg4.N = 25 := N_4
    have hi0 : (i 0).val < 1 := (i 0).isLt
    have hi1 : (i 1).val < 256 := (i 1).isLt
    have h24 : 24 < cfg4.N := by rw [hN]; omega
    obtain ⟨-, -, -, -, -, -, -, -, -, -, e0, e1, -⟩ := idx_facts4 ⟨24, h24⟩
    refine ⟨⟨24, h24⟩, (flush4_5 _).mpr rfl, ?_⟩
    rw [mem_blk4_5]
    intro a
    match a with
    | ⟨0, _⟩ => show win4_5.index ⟨24, h24⟩ (0 : Fin 2) * 1 ≤ (i 0).val ∧ (i 0).val < win4_5.index ⟨24, h24⟩ (0 : Fin 2) * 1 + 1; rw [e0]; omega
    | ⟨1, _⟩ => show win4_5.index ⟨24, h24⟩ (1 : Fin 2) * 256 ≤ (i 1).val ∧ (i 1).val < win4_5.index ⟨24, h24⟩ (1 : Fin 2) * 256 + 256; rw [e1]; omega
/-- The column sum of squares of block t of the whole output array, column q. -/
def bsq4 (c : Dev nD) (q : Fin 256) : Fin 25 → EReal :=
  fun t => ∑ r : Fin 2000, OUT4 V c (ix2 (Cert.BlockSum.row t r) q) * OUT4 V c (ix2 (Cert.BlockSum.row t r) q)

/-- At the first point the running row is reset, so after it the row holds the first block's column sums of squares. -/
theorem outs4_6_A (c : Dev nD) (t : Fin cfg4.N) (h0 : t.val % 25 = 0) (q : Fin 256) :
    (outsAt4 V c t.val t.isLt).2.2 (ix2 0 q) = bsq4 V c q (pt4 t) := by
  rw [outsAt4_A V c t h0]
  dsimp only
  refine (congrFun (out4_A_6_eq (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) ((hcond4_0 t).mpr h0) (iblk4 V c 0 t) (iblk4 V c 1 t) (iblk4 V c 2 t) (iblk4 V c 3 t)) (ix2 0 q)).trans ?_
  refine (k4_pay5_apply (iblk4 V c 0 t) (iblk4 V c 1 t) (iblk4 V c 2 t) (iblk4 V c 3 t) (k4_pay3 (F := Ideal)) q).trans ?_
  rw [k4_pay3_apply, zero_add]
  exact Finset.sum_congr rfl fun r _ => by rw [blockval4 V c t r q]

/-- At a later point the block's column sums of squares are added to what the row held after the point before. -/
theorem outs4_6_B (c : Dev nD) (t : Fin cfg4.N) (h0 : ¬t.val % 25 = 0) (q : Fin 256) :
    (outsAt4 V c t.val t.isLt).2.2 (ix2 0 q)
      = (outsAt4 V c (t.val - 1) (Nat.lt_of_le_of_lt (Nat.sub_le _ _) t.isLt)).2.2 (ix2 0 q) + bsq4 V c q (pt4 t) := by
  rw [outsAt4_B V c t h0]
  dsimp only
  refine (congrFun (out4_B_6_eq (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (fun h => h0 ((hcond4_0 t).mp h)) (iblk4 V c 0 t) (iblk4 V c 1 t) (iblk4 V c 2 t) (iblk4 V c 3 t) (outsAt4 V c (t.val - 1) (Nat.lt_of_le_of_lt (Nat.sub_le _ _) t.isLt)).2.1 (outsAt4 V c (t.val - 1) (Nat.lt_of_le_of_lt (Nat.sub_le _ _) t.isLt)).2.2) (ix2 0 q)).trans ?_
  refine (k4_pay5_apply (iblk4 V c 0 t) (iblk4 V c 1 t) (iblk4 V c 2 t) (iblk4 V c 3 t) (outsAt4 V c (t.val - 1) (Nat.lt_of_le_of_lt (Nat.sub_le _ _) t.isLt)).2.2 q).trans ?_
  refine congrArg ((outsAt4 V c (t.val - 1) (Nat.lt_of_le_of_lt (Nat.sub_le _ _) t.isLt)).2.2 (ix2 0 q) + ·) ?_
  exact Finset.sum_congr rfl fun r _ => by rw [blockval4 V c t r q]

/-- After point n the running row holds the column sums of squares of blocks 0 … n, added up in the grid's order. -/
theorem acc4_6 (c : Dev nD) (q : Fin 256) : ∀ (n : ℕ) (h : n < cfg4.N),
    (outsAt4 V c n h).2.2 (ix2 0 q) = ∑ s ∈ Finset.range (n + 1), Cert.BlockSum.blockTerm (bsq4 V c q) s
  | 0, h => by
    rw [Finset.sum_range_one, Cert.BlockSum.blockTerm_of_lt _ 0 (by omega)]
    exact outs4_6_A V c ⟨0, h⟩ rfl q
  | n + 1, h => by
    have hN : cfg4.N = 25 := N_4
    have hB : ¬(⟨n + 1, h⟩ : Fin cfg4.N).val % 25 = 0 := by dsimp only; omega
    rw [Finset.sum_range_succ, ← acc4_6 c q n (Nat.lt_of_succ_lt h), Cert.BlockSum.blockTerm_of_lt _ (n + 1) (by omega)]
    exact outs4_6_B V c ⟨n + 1, h⟩ hB q

/-- The row of column sums of squares of the whole output array. -/
def SUMSQ4 (c : Dev nD) : Cert.Gcn.Mat 1 256 := fun j => Cert.Gcn.colsumsq (OUT4 V c) (j 1)

/-- After the last point the running row holds the column sums of squares of the whole output array: the 25 block sums added up
    are the sum over all 50000 rows. -/
theorem last4_6 (c : Dev nD) (t : Fin cfg4.N) (h25 : t.val + 1 = 25) :
    (outsAt4 V c t.val t.isLt).2.2 = (SUMSQ4 V c : Vec Ideal S1x256 .f32) := by
  funext j
  obtain ⟨u, q, rfl⟩ : ∃ (u : Fin 1) (q : Fin 256), j = ix2 u q := ⟨j 0, j 1, eq_ix2 j⟩
  obtain rfl : u = 0 := Subsingleton.elim _ _
  show (outsAt4 V c t.val t.isLt).2.2 (ix2 (0 : Fin 1) q) = Cert.Gcn.colsumsq (OUT4 V c) q
  rw [acc4_6 V c q t.val t.isLt, h25, Cert.BlockSum.sum_range_blockTerm]
  exact Cert.BlockSum.sum_blocks (fun p => OUT4 V c (ix2 p q) * OUT4 V c (ix2 p q))

/-- The one write-back of the row, at the last point, writes that row: its block is the whole [1, 256] array. -/
theorem flushed4_6 (c : Dev nD) (t : Fin cfg4.N) (hf : (cfg4.win 6).flush t = true) :
    (dat4 V c).flushed 6 t = ((cfg4.win 6).blk t).view.read (Elt Ideal) (SUMSQ4 V c) := by
  have hN : cfg4.N = 25 := N_4
  have h25 : t.val + 1 = 25 := by have := (flush4_6 t).mp hf; have := t.isLt; omega
  obtain ⟨-, -, -, -, -, -, -, -, -, -, -, -, e0, e1, -⟩ := idx_facts4 t
  show (cfg4.win 6).cut (grid4.coords t) ((dat4 V c).after 6 t) = _
  rw [after4_6, last4_6 V c t h25]
  have hz' : (fun a => win4_6.index t a * main_v73_2.ty.shape.size a) = fun _ => 0 := funext fun a => by
    match a with
    | ⟨0, _⟩ => show win4_6.index t (0 : Fin 2) * 1 = 0; rw [e0]
    | ⟨1, _⟩ => show win4_6.index t (1 : Fin 2) * 256 = 0; rw [e1]
  exact (Memref.read_access_unit_zero (Elt Ideal) main_v73_2 hz' (fun a => by rw [congrFun hz' a]; simp) (SUMSQ4 V c)).symm

/-- An index of the row is in point t's block iff each coordinate is in the block's range on its axis. -/
theorem mem_blk4_6 (t : Fin cfg4.N) (i : S1x256.Idx) :
    i ∈ ((cfg4.win 6).blk t).view.set ↔ ∀ a : Fin 2, win4_6.index t a * S1x256.size a ≤ (i a).val ∧ (i a).val < win4_6.index t a * S1x256.size a + S1x256.size a := by
  show i ∈ ((View.whole main_v73_2).slice (win4_6.rect t)).set ↔ _
  rw [View.set_slice_whole, Rect.mem_set_unit]
  exact Iff.rfl

/-- The row of column sums of squares after the region: the column sums of squares of the whole output array (the last point's block is the whole row). -/
theorem stats4_sumsq (c : Dev nD) :
    (dat4 V c).arrAt 6 cfg4.N = fun j : S1x256.Idx => Cert.Gcn.colsumsq (OUT4 V c) (j 1) :=
  (dat4 V c).arrAt_eq_of_cover 6 (SUMSQ4 V c) (flushed4_6 V c) fun i => by
    have hN : cfg4.N = 25 := N_4
    have hi0 : (i 0).val < 1 := (i 0).isLt
    have hi1 : (i 1).val < 256 := (i 1).isLt
    have h24 : 24 < cfg4.N := by rw [hN]; omega
    obtain ⟨-, -, -, -, -, -, -, -, -, -, -, -, e0, e1, -⟩ := idx_facts4 ⟨24, h24⟩
    refine ⟨⟨24, h24⟩, (flush4_6 _).mpr rfl, ?_⟩
    rw [mem_blk4_6]
    intro a
    match a with
    | ⟨0, _⟩ => show win4_6.index ⟨24, h24⟩ (0 : Fin 2) * 1 ≤ (i 0).val ∧ (i 0).val < win4_6.index ⟨24, h24⟩ (0 : Fin 2) * 1 + 1; rw [e0]; omega
    | ⟨1, _⟩ => show win4_6.index ⟨24, h24⟩ (1 : Fin 2) * 256 ≤ (i 1).val ∧ (i 1).val < win4_6.index ⟨24, h24⟩ (1 : Fin 2) * 256 + 256; rw [e1]; omega

end Values

end Cert.KernelIdeal.RegVal

end
-- ==== Proof.RegStats9.lean ====
/-
  The convolution layer's combining step with column statistics, at width 128: the values its three output arrays
  hold after all 25 grid points.

  The [50000, 128] arrays are cut into 25 blocks of 2000 rows. At point t the body reads block t of the aggregated
  messages, of the transformed rows and of the self-loop weights (a column), and the bias row, and stores
  v = max (aggregated + transformed · weight + bias, 0) as block t of the output. It also keeps two [1, 128] rows, reset to zero at
  the first point: to one it adds the column sums of v, to the other the column sums of v · v.  Both rows are written
  back once, after the last point.

  So the output array is the combination of the whole input arrays, entry by entry; and after the last point the two
  rows hold, for each column, the sum over the 25 blocks of the block's 2000 terms, which is the sum over all
  50000 rows (the row p = 2000 · t + r is row r of block t).
-/
import proofs.«106426_j33148557590872_1_alg».proof.Proof.Gen.KernelIdeal.Frame
import proofs.«106426_j33148557590872_1_alg».proof.Proof.LibColumn
import proofs.«106426_j33148557590872_1_alg».proof.Proof.GcnSpec
import proofs.«106426_j33148557590872_1_alg».proof.Proof.RegStatsSum
import Idealize.ShloMosaic.Lib.ValueIdx
import Idealize.ShloMosaic.Lib.ValueLayout
import Idealize.ShloMosaic.Lib.Pipeline.Value
import Idealize.ShloMosaic.PureOps.Ideal.Laws
import Idealize.ShloMosaic.Lib.Tactic

set_option maxRecDepth 16384

noncomputable section

namespace Cert.KernelIdeal.RegVal

open Idealize.ShloMosaic Idealize.ShloMosaic.TcCoe Idealize.ShloMosaic.ValueIdx Idealize.SL.Sem Cert.KernelIdeal Cert.KernelIdeal.Gen
open Idealize.ShloMosaic.Pipeline (Dat)

/-! ## What each case of the body leaves in the three output buffers, as terms of the blocks it read -/

variable {F : FTy → Type} [FloatOps F]

theorem stats9_hz : (![0, 0] : Fin 2 → Nat) = fun _ => 0 := funext fun a => by fin_cases a <;> rfl

/-- At the first point the body leaves in the output block its one store's value, a function of the four input blocks. -/
theorem out9_A_4_eq (c : Dev nD) (i : grid9.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (hc0 : cond9_0 i) (x0 : Vec F S2000x128 .f32) (x1 : Vec F S2000x128 .f32) (x2 : Vec F S2000x1 .f32) (x3 : Vec F S1x128 .f32) :
    out9_A_4 (F := F) c i arg1 harg1 arg2 harg2 arg3 harg3 arg4 harg4 arg5 harg5 arg6 harg6 arg7 harg7 hc0 x0 x1 x2 x3 = k9_pay1 x0 x1 x2 x3 := by
  unfold out9_A_4
  rw [View.read_writes_eq_canon _ _ _ (cover9_A_4 c i arg1 harg1 arg2 harg2 arg3 harg3 arg4 harg4 arg5 harg5 arg6 harg6 arg7 harg7 hc0 x0 x1 x2 x3)]
  unfold kernelRun9_A
  dsimp only
  rw [View.canon_unit_zero stats9_hz]
  simp only [View.readAt_eq_ld, harg1.read_unread, harg2.read_unread, harg3.read_unread, harg4.read_unread,
    View.ld_unit_zero (S := S2000x128) stats9_hz, View.ld_unit_zero (S := S2000x1) stats9_hz, View.ld_unit_zero (S := S1x128) stats9_hz]

/-- At a later point likewise: the output block does not depend on the running sums. -/
theorem out9_B_4_eq (c : Dev nD) (i : grid9.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (hc0 : ¬cond9_0 i) (x0 : Vec F S2000x128 .f32) (x1 : Vec F S2000x128 .f32) (x2 : Vec F S2000x1 .f32) (x3 : Vec F S1x128 .f32) (xo5 : Vec F S1x128 .f32) (xo6 : Vec F S1x128 .f32) :
    out9_B_4 (F := F) c i arg1 harg1 arg2 harg2 arg3 harg3 arg4 harg4 arg5 harg5 arg6 harg6 arg7 harg7 hc0 x0 x1 x2 x3 xo5 xo6 = k9_pay1 x0 x1 x2 x3 := by
  unfold out9_B_4
  rw [View.read_writes_eq_canon _ _ _ (cover9_B_4 c i arg1 harg1 arg2 harg2 arg3 harg3 arg4 harg4 arg5 harg5 arg6 harg6 arg7 harg7 hc0 x0 x1 x2 x3 xo5 xo6)]
  unfold kernelRun9_B
  dsimp only
  rw [View.canon_unit_zero stats9_hz]
  simp only [View.readAt_eq_ld, harg1.read_unread, harg2.read_unread, harg3.read_unread, harg4.read_unread,
    View.ld_unit_zero (S := S2000x128) stats9_hz, View.ld_unit_zero (S := S2000x1) stats9_hz, View.ld_unit_zero (S := S1x128) stats9_hz]

/-- At the first point the running column sums are reset to the zero row, read back, and the block's column sums added. -/
theorem out9_A_5_eq (c : Dev nD) (i : grid9.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (hc0 : cond9_0 i) (x0 : Vec F S2000x128 .f32) (x1 : Vec F S2000x128 .f32) (x2 : Vec F S2000x1 .f32) (x3 : Vec F S1x128 .f32) :
    out9_A_5 (F := F) c i arg1 harg1 arg2 harg2 arg3 harg3 arg4 harg4 arg5 harg5 arg6 harg6 arg7 harg7 hc0 x0 x1 x2 x3 = k9_pay4 x0 x1 x2 x3 k9_pay2 := by
  unfold out9_A_5
  rw [View.read_writes_eq_canon _ _ _ (cover9_A_5 c i arg1 harg1 arg2 harg2 arg3 harg3 arg4 harg4 arg5 harg5 arg6 harg6 arg7 harg7 hc0 x0 x1 x2 x3)]
  unfold kernelRun9_A
  dsimp only
  sl_unfold_words
  rw [View.canon_cons_unit_zero (S := S1x128) stats9_hz, View.readCov_unit_zero (S := S1x128) _ stats9_hz]
  simp only [View.readAt_eq_ld, harg1.read_unread, harg2.read_unread, harg3.read_unread, harg4.read_unread,
    View.ld_unit_zero (S := S2000x128) stats9_hz, View.ld_unit_zero (S := S2000x1) stats9_hz, View.ld_unit_zero (S := S1x128) stats9_hz]

/-- The same for the running column sums of squares. -/
theorem out9_A_6_eq (c : Dev nD) (i : grid9.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (hc0 : cond9_0 i) (x0 : Vec F S2000x128 .f32) (x1 : Vec F S2000x128 .f32) (x2 : Vec F S2000x1 .f32) (x3 : Vec F S1x128 .f32) :
    out9_A_6 (F := F) c i arg1 harg1 arg2 harg2 arg3 harg3 arg4 harg4 arg5 harg5 arg6 harg6 arg7 harg7 hc0 x0 x1 x2 x3 = k9_pay5 x0 x1 x2 x3 k9_pay3 := by
  unfold out9_A_6
  rw [View.read_writes_eq_canon _ _ _ (cover9_A_6 c i arg1 harg1 arg2 harg2 arg3 harg3 arg4 harg4 arg5 harg5 arg6 harg6 arg7 harg7 hc0 x0 x1 x2 x3)]
  unfold kernelRun9_A
  dsimp only
  sl_unfold_words
  rw [View.canon_cons_unit_zero (S := S1x128) stats9_hz, View.readCov_unit_zero (S := S1x128) _ stats9_hz]
  simp only [View.readAt_eq_ld, harg1.read_unread, harg2.read_unread, harg3.read_unread, harg4.read_unread,
    View.ld_unit_zero (S := S2000x128) stats9_hz, View.ld_unit_zero (S := S2000x1) stats9_hz, View.ld_unit_zero (S := S1x128) stats9_hz]

/-- At a later point the block's column sums are added to what the running column sums held. -/
theorem out9_B_5_eq (c : Dev nD) (i : grid9.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (hc0 : ¬cond9_0 i) (x0 : Vec F S2000x128 .f32) (x1 : Vec F S2000x128 .f32) (x2 : Vec F S2000x1 .f32) (x3 : Vec F S1x128 .f32) (xo5 : Vec F S1x128 .f32) (xo6 : Vec F S1x128 .f32) :
    out9_B_5 (F := F) c i arg1 harg1 arg2 harg2 arg3 harg3 arg4 harg4 arg5 harg5 arg6 harg6 arg7 harg7 hc0 x0 x1 x2 x3 xo5 xo6 = k9_pay4 x0 x1 x2 x3 xo5 := by
  unfold out9_B_5
  rw [View.read_writes_eq_canon _ _ _ (cover9_B_5 c i arg1 harg1 arg2 harg2 arg3 harg3 arg4 harg4 arg5 harg5 arg6 harg6 arg7 harg7 hc0 x0 x1 x2 x3 xo5 xo6)]
  unfold kernelRun9_B
  dsimp only
  rw [View.canon_unit_zero stats9_hz]
  simp only [View.readAt_eq_ld, harg1.read_unread, harg2.read_unread, harg3.read_unread, harg4.read_unread, harg6.read_unread,
    View.ld_unit_zero (S := S2000x128) stats9_hz, View.ld_unit_zero (S := S2000x1) stats9_hz, View.ld_unit_zero (S := S1x128) stats9_hz]

/-- The same for the running column sums of squares. -/
theorem out9_B_6_eq (c : Dev nD) (i : grid9.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (hc0 : ¬cond9_0 i) (x0 : Vec F S2000x128 .f32) (x1 : Vec F S2000x128 .f32) (x2 : Vec F S2000x1 .f32) (x3 : Vec F S1x128 .f32) (xo5 : Vec F S1x128 .f32) (xo6 : Vec F S1x128 .f32) :
    out9_B_6 (F := F) c i arg1 harg1 arg2 harg2 arg3 harg3 arg4 harg4 arg5 harg5 arg6 harg6 arg7 harg7 hc0 x0 x1 x2 x3 xo5 xo6 = k9_pay5 x0 x1 x2 x3 xo6 := by
  unfold out9_B_6
  rw [View.read_writes_eq_canon _ _ _ (cover9_B_6 c i arg1 harg1 arg2 harg2 arg3 harg3 arg4 harg4 arg5 harg5 arg6 harg6 arg7 harg7 hc0 x0 x1 x2 x3 xo5 xo6)]
  unfold kernelRun9_B
  dsimp only
  rw [View.canon_unit_zero stats9_hz]
  simp only [View.readAt_eq_ld, harg1.read_unread, harg2.read_unread, harg3.read_unread, harg4.read_unread, harg7.read_unread,
    View.ld_unit_zero (S := S2000x128) stats9_hz, View.ld_unit_zero (S := S2000x1) stats9_hz, View.ld_unit_zero (S := S1x128) stats9_hz]

/-! ## The body's arithmetic at an index, over the extended reals -/

/-- One entry of the block the body stores: aggregated messages, plus the node's own row times its self-loop
    weight, plus the bias row, and of that the positive part. -/
theorem k9_pay1_apply (x0 x1 : Vec Ideal S2000x128 .f32) (x2 : Vec Ideal S2000x1 .f32) (x3 : Vec Ideal S1x128 .f32)
    (r : Fin 2000) (q : Fin 128) :
    k9_pay1 (F := Ideal) x0 x1 x2 x3 (ix2 r q) = max ((x0 (ix2 r q) + x1 (ix2 r q) * x2 (ix2 r 0)) + x3 (ix2 0 q)) 0 := by
  unfold k9_pay1
  rw [maximumf_apply, broadcast_apply, addf_apply, addf_apply, mulf_apply, shapeCast_self, shapeCast_self, shapeCast_self, shapeCast_self,
    Cert.Lib.broadcastTo_a1_ab_apply, broadcastTo_1b_ab_apply]
  exact congrArg (max _) Ideal.ofBits_zero_f32

/-- The sum over the rows of a [2000, 128] block, kept as a [1, 128] row: at column q, the sum of that column. -/
theorem colsum_row9 (v : FVec Ideal S2000x128 .f32) (hacc : (0x00000000#32 : BitVec 32) = 0x00000000#32) (q : Fin 128) :
    shapeCast S1x128 (multiReduction (F := Ideal) .add [0] S128 v 0x00000000#32 reduces_S2000x128_S128 (.inl rfl) hacc)
      shapeCasts_S128_S1x128 (ix2 (0 : Fin 1) q) = ∑ r : Fin 2000, v (ix2 r q) := by
  rw [shapeCast_a_1a_apply]
  refine (Ideal.multiReduction_add_single v 0x00000000#32 reduces_S2000x128_S128 (.inl rfl) hacc (ix1 q)).trans ?_
  refine Finset.sum_congr rfl fun r _ => congrArg v (funext fun a => Fin.ext ?_)
  match a with
  | ⟨0, _⟩ => rfl
  | ⟨1, _⟩ => rfl

/-- The running column sums after a point: what they held, plus the column sums of the point's block. -/
theorem k9_pay4_apply (x0 x1 : Vec Ideal S2000x128 .f32) (x2 : Vec Ideal S2000x1 .f32) (x3 : Vec Ideal S1x128 .f32)
    (acc : Vec Ideal S1x128 .f32) (q : Fin 128) :
    k9_pay4 (F := Ideal) x0 x1 x2 x3 acc (ix2 0 q) = acc (ix2 0 q) + ∑ r : Fin 2000, k9_pay1 (F := Ideal) x0 x1 x2 x3 (ix2 r q) := by
  unfold k9_pay4
  rw [addf_apply, shapeCast_self, colsum_row9]

/-- The running column sums of squares after a point: what they held, plus those of the point's block. -/
theorem k9_pay5_apply (x0 x1 : Vec Ideal S2000x128 .f32) (x2 : Vec Ideal S2000x1 .f32) (x3 : Vec Ideal S1x128 .f32)
    (acc : Vec Ideal S1x128 .f32) (q : Fin 128) :
    k9_pay5 (F := Ideal) x0 x1 x2 x3 acc (ix2 0 q) = acc (ix2 0 q) + ∑ r : Fin 2000, k9_pay1 (F := Ideal) x0 x1 x2 x3 (ix2 r q) * k9_pay1 (F := Ideal) x0 x1 x2 x3 (ix2 r q) := by
  unfold k9_pay5
  rw [addf_apply, shapeCast_self, colsum_row9]
  rfl

/-- The row the first point resets the column sums to is zero. -/
theorem k9_pay2_apply (j : S1x128.Idx) : k9_pay2 (F := Ideal) j = 0 := by
  unfold k9_pay2
  show Ideal.ofBits .f32 0x00000000#32 = 0
  exact Ideal.ofBits_zero_f32

/-- The row the first point resets the column sums of squares to is zero. -/
theorem k9_pay3_apply (j : S1x128.Idx) : k9_pay3 (F := Ideal) j = 0 := by
  unfold k9_pay3
  show Ideal.ofBits .f32 0x00000000#32 = 0
  exact Ideal.ofBits_zero_f32

/-! ## The blocks as rows of the arrays, and the output array -/

section Values
variable (V : (c : Dev nD) → (b : Ref sig .tc) → Buf (Elt Ideal) ((c : Thread nD τ).loc b))

/-- The four input arrays as the region finds them: aggregated messages, transformed rows, self-loop weights (a
    column), bias (a row). -/
abbrev arr9_0 (c : Dev nD) : Cert.Gcn.Mat 50000 128 := V c (Pipeline.arrRef spec9 0)
abbrev arr9_1 (c : Dev nD) : Cert.Gcn.Mat 50000 128 := V c (Pipeline.arrRef spec9 1)
abbrev arr9_2 (c : Dev nD) : Cert.Gcn.Mat 50000 1 := V c (Pipeline.arrRef spec9 2)
abbrev arr9_3 (c : Dev nD) : Cert.Gcn.Mat 1 128 := V c (Pipeline.arrRef spec9 3)

/-- The whole output array: the combination, then the positive part, of the four input arrays. -/
def OUT9 (c : Dev nD) : Cert.Gcn.Mat 50000 128 :=
  Cert.Gcn.relu (Cert.Gcn.combine (arr9_0 V c) (arr9_1 V c) (fun p => arr9_2 V c (ix2 p 0)) (fun q => arr9_3 V c (ix2 0 q)))

theorem OUT9_apply (c : Dev nD) (p : Fin 50000) (q : Fin 128) :
    OUT9 V c (ix2 p q) = max ((arr9_0 V c (ix2 p q) + arr9_1 V c (ix2 p q) * arr9_2 V c (ix2 p 0)) + arr9_3 V c (ix2 0 q)) 0 := rfl

/-- The grid point as a block number below 25. -/
abbrev pt9 (t : Fin cfg9.N) : Fin 25 := ⟨t.val, lt_of_lt_of_eq t.isLt N_9⟩

/-- The block index of each window at each grid point: the row blocks move with the point, the bias row and the two
    rows of column statistics stay at block (0, 0). -/
theorem idx_facts9 : ∀ t : Fin cfg9.N,
    win9_0.index t (0 : Fin 2) = t.val ∧ win9_0.index t (1 : Fin 2) = 0
    ∧ win9_1.index t (0 : Fin 2) = t.val ∧ win9_1.index t (1 : Fin 2) = 0
    ∧ win9_2.index t (0 : Fin 2) = t.val ∧ win9_2.index t (1 : Fin 2) = 0
    ∧ win9_3.index t (0 : Fin 2) = 0 ∧ win9_3.index t (1 : Fin 2) = 0
    ∧ win9_4.index t (0 : Fin 2) = t.val ∧ win9_4.index t (1 : Fin 2) = 0
    ∧ win9_5.index t (0 : Fin 2) = 0 ∧ win9_5.index t (1 : Fin 2) = 0
    ∧ win9_6.index t (0 : Fin 2) = 0 ∧ win9_6.index t (1 : Fin 2) = 0 ∧ True :=
  (by decide +kernel : ∀ t : Fin grid9.N, _)

/-- Block t of the aggregated messages is rows 2000 t … 2000 t + 1999 of their array. -/
theorem blk9_0_apply (c : Dev nD) (t : Fin cfg9.N) (r : Fin 2000) (q : Fin 128) :
    (iblk9 V c 0 t : Vec Ideal S2000x128 .f32) (ix2 r q)
      = arr9_0 V c (ix2 (Cert.BlockSum.row (pt9 t) r) q) := by
  obtain ⟨e0, e1, -⟩ := idx_facts9 t
  unfold iblk9
  rw [View.read_apply]
  show V c (Pipeline.arrRef spec9 0) _ = V c (Pipeline.arrRef spec9 0) _
  congr 1
  funext a
  apply Fin.ext
  match a with
  | ⟨0, _⟩ => show win9_0.index t (0 : Fin 2) * 2000 + 1 * r.val = 2000 * t.val + r.val; rw [e0]; omega
  | ⟨1, _⟩ => show win9_0.index t (1 : Fin 2) * 128 + 1 * q.val = q.val; rw [e1]; omega

/-- Block t of the transformed rows is rows 2000 t … 2000 t + 1999 of their array. -/
theorem blk9_1_apply (c : Dev nD) (t : Fin cfg9.N) (r : Fin 2000) (q : Fin 128) :
    (iblk9 V c 1 t : Vec Ideal S2000x128 .f32) (ix2 r q)
      = arr9_1 V c (ix2 (Cert.BlockSum.row (pt9 t) r) q) := by
  obtain ⟨-, -, e0, e1, -⟩ := idx_facts9 t
  unfold iblk9
  rw [View.read_apply]
  show V c (Pipeline.arrRef spec9 1) _ = V c (Pipeline.arrRef spec9 1) _
  congr 1
  funext a
  apply Fin.ext
  match a with
  | ⟨0, _⟩ => show win9_1.index t (0 : Fin 2) * 2000 + 1 * r.val = 2000 * t.val + r.val; rw [e0]; omega
  | ⟨1, _⟩ => show win9_1.index t (1 : Fin 2) * 128 + 1 * q.val = q.val; rw [e1]; omega

/-- Block t of the self-loop weights is rows 2000 t … 2000 t + 1999 of their column. -/
theorem blk9_2_apply (c : Dev nD) (t : Fin cfg9.N) (r : Fin 2000) (u : Fin 1) :
    (iblk9 V c 2 t : Vec Ideal S2000x1 .f32) (ix2 r u)
      = arr9_2 V c (ix2 (Cert.BlockSum.row (pt9 t) r) 0) := by
  obtain ⟨-, -, -, -, e0, e1, -⟩ := idx_facts9 t
  unfold iblk9
  rw [View.read_apply]
  show V c (Pipeline.arrRef spec9 2) _ = V c (Pipeline.arrRef spec9 2) _
  congr 1
  funext a
  apply Fin.ext
  match a with
  | ⟨0, _⟩ => show win9_2.index t (0 : Fin 2) * 2000 + 1 * r.val = 2000 * t.val + r.val; rw [e0]; omega
  | ⟨1, _⟩ => show win9_2.index t (1 : Fin 2) * 1 + 1 * u.val = 0; rw [e1]; omega

/-- The bias row's block is, at every point, the whole row. -/
theorem blk9_3_apply (c : Dev nD) (t : Fin cfg9.N) (u : Fin 1) (q : Fin 128) :
    (iblk9 V c 3 t : Vec Ideal S1x128 .f32) (ix2 u q)
      = arr9_3 V c (ix2 0 q) := by
  obtain ⟨-, -, -, -, -, -, e0, e1, -⟩ := idx_facts9 t
  unfold iblk9
  rw [View.read_apply]
  show V c (Pipeline.arrRef spec9 3) _ = V c (Pipeline.arrRef spec9 3) _
  congr 1
  funext a
  apply Fin.ext
  match a with
  | ⟨0, _⟩ => show win9_3.index t (0 : Fin 2) * 1 + 1 * u.val = 0; rw [e0]; omega
  | ⟨1, _⟩ => show win9_3.index t (1 : Fin 2) * 128 + 1 * q.val = q.val; rw [e1]; omega

/-- What the body computes from the blocks at point t is, entry by entry, rows 2000 t … 2000 t + 1999 of the whole
    output array. -/
theorem blockval9 (c : Dev nD) (t : Fin cfg9.N) (r : Fin 2000) (q : Fin 128) :
    k9_pay1 (F := Ideal) (iblk9 V c 0 t) (iblk9 V c 1 t) (iblk9 V c 2 t) (iblk9 V c 3 t) (ix2 r q)
      = OUT9 V c (ix2 (Cert.BlockSum.row (pt9 t) r) q) := by
  refine (k9_pay1_apply (iblk9 V c 0 t) (iblk9 V c 1 t) (iblk9 V c 2 t) (iblk9 V c 3 t) r q).trans ?_
  rw [blk9_0_apply V c t r q, blk9_1_apply V c t r q, blk9_2_apply V c t r 0, blk9_3_apply V c t 0 q]
  rfl

/-- What the output's staging buffer holds after point t: the body's block value, at the first point and after. -/
theorem outs9_4 (c : Dev nD) (t : Fin cfg9.N) :
    (outsAt9 V c t.val t.isLt).1 = k9_pay1 (iblk9 V c 0 t) (iblk9 V c 1 t) (iblk9 V c 2 t) (iblk9 V c 3 t) := by
  by_cases h0 : t.val % 25 = 0
  · rw [outsAt9_A V c t h0]
    dsimp only
    exact out9_A_4_eq (F := Ideal) c (grid9.coords t) (ms9_0 t) (hs9_0 t) (ms9_1 t) (hs9_1 t) (ms9_2 t) (hs9_2 t) (ms9_3 t) (hs9_3 t) (ms9_4 t) (hs9_4 t) (ms9_5 t) (hs9_5 t) (ms9_6 t) (hs9_6 t) ((hcond9_0 t).mpr h0) (iblk9 V c 0 t) (iblk9 V c 1 t) (iblk9 V c 2 t) (iblk9 V c 3 t)
  · rw [outsAt9_B V c t h0]
    dsimp only
    exact out9_B_4_eq (F := Ideal) c (grid9.coords t) (ms9_0 t) (hs9_0 t) (ms9_1 t) (hs9_1 t) (ms9_2 t) (hs9_2 t) (ms9_3 t) (hs9_3 t) (ms9_4 t) (hs9_4 t) (ms9_5 t) (hs9_5 t) (ms9_6 t) (hs9_6 t) (fun h => h0 ((hcond9_0 t).mp h)) (iblk9 V c 0 t) (iblk9 V c 1 t) (iblk9 V c 2 t) (iblk9 V c 3 t) (outsAt9 V c (t.val - 1) (Nat.lt_of_le_of_lt (Nat.sub_le _ _) t.isLt)).2.1 (outsAt9 V c (t.val - 1) (Nat.lt_of_le_of_lt (Nat.sub_le _ _) t.isLt)).2.2

/-- What point t writes back to the output array is block t of the whole output array. -/
theorem flushed9_4 (c : Dev nD) (t : Fin cfg9.N) :
    (dat9 V c).flushed 4 t = ((cfg9.win 4).blk t).view.read (Elt Ideal) (OUT9 V c) := by
  show (cfg9.win 4).cut (grid9.coords t) ((dat9 V c).after 4 t) = _
  rw [after9_4, outs9_4]
  obtain ⟨-, -, -, -, -, -, -, -, e0, e1, -⟩ := idx_facts9 t
  funext j
  obtain ⟨r, q, rfl⟩ : ∃ (r : Fin 2000) (q : Fin 128), j = ix2 r q := ⟨j 0, j 1, eq_ix2 j⟩
  show k9_pay1 (F := Ideal) (iblk9 V c 0 t) (iblk9 V c 1 t) (iblk9 V c 2 t) (iblk9 V c 3 t) (ix2 r q) = OUT9 V c (((cfg9.win 4).blk t).view.emb (ix2 r q))
  rw [blockval9 V c t r q]
  congr 1
  funext a
  apply Fin.ext
  match a with
  | ⟨0, _⟩ => show 2000 * t.val + r.val = win9_4.index t (0 : Fin 2) * 2000 + 1 * r.val; rw [e0]; omega
  | ⟨1, _⟩ => show q.val = win9_4.index t (1 : Fin 2) * 128 + 1 * q.val; rw [e1]; omega

/-- An index of the output array is in point t's block iff each coordinate is in the block's range on its axis. -/
theorem mem_blk9_4 (t : Fin cfg9.N) (i : S50000x128.Idx) :
    i ∈ ((cfg9.win 4).blk t).view.set ↔ ∀ a : Fin 2, win9_4.index t a * S2000x128.size a ≤ (i a).val ∧ (i a).val < win9_4.index t a * S2000x128.size a + S2000x128.size a := by
  show i ∈ ((View.whole main_v120_0).slice (win9_4.rect t)).set ↔ _
  rw [View.set_slice_whole, Rect.mem_set_unit]
  exact Iff.rfl

/-- The output array after the region is the combination, then the positive part, of the input arrays: every row p lies in
    the block of point p / 2000, and every point writes its block of that one array. -/
theorem stats9_out (c : Dev nD) : (dat9 V c).arrAt 4 cfg9.N = OUT9 V c :=
  (dat9 V c).arrAt_eq_of_cover 4 (OUT9 V c) (fun t _ => flushed9_4 V c t) fun i => by
    have hi0 : (i 0).val < 50000 := (i 0).isLt
    have hi1 : (i 1).val < 128 := (i 1).isLt
    have hN : cfg9.N = 25 := N_9
    have ht : (i 0).val / 2000 < cfg9.N := by rw [hN]; omega
    obtain ⟨-, -, -, -, -, -, -, -, e0, e1, -⟩ := idx_facts9 ⟨(i 0).val / 2000, ht⟩
    refine ⟨⟨(i 0).val / 2000, ht⟩, flush9_4 _, ?_⟩
    rw [mem_blk9_4]
    intro a
    match a with
    | ⟨0, _⟩ => show win9_4.index ⟨(i 0).val / 2000, ht⟩ (0 : Fin 2) * 2000 ≤ (i 0).val ∧ (i 0).val < win9_4.index ⟨(i 0).val / 2000, ht⟩ (0 : Fin 2) * 2000 + 2000; rw [e0]; dsimp only; omega
    | ⟨1, _⟩ => show win9_4.index ⟨(i 0).val / 2000, ht⟩ (1 : Fin 2) * 128 ≤ (i 1).val ∧ (i 1).val < win9_4.index ⟨(i 0).val / 2000, ht⟩ (1 : Fin 2) * 128 + 128; rw [e1]; omega

/-! ## The two rows of column statistics -/

/-- The column sum of block t of the whole output array, column q. -/
def bsum9 (c : Dev nD) (q : Fin 128) : Fin 25 → EReal :=
  fun t => ∑ r : Fin 2000, OUT9 V c (ix2 (Cert.BlockSum.row t r) q)

/-- At the first point the running row is reset, so after it the row holds the first block's column sums. -/
theorem outs9_5_A (c : Dev nD) (t : Fin cfg9.N) (h0 : t.val % 25 = 0) (q : Fin 128) :
    (outsAt9 V c t.val t.isLt).2.1 (ix2 0 q) = bsum9 V c q (pt9 t) := by
  rw [outsAt9_A V c t h0]
  dsimp only
  refine (congrFun (out9_A_5_eq (F := Ideal) c (grid9.coords t) (ms9_0 t) (hs9_0 t) (ms9_1 t) (hs9_1 t) (ms9_2 t) (hs9_2 t) (ms9_3 t) (hs9_3 t) (ms9_4 t) (hs9_4 t) (ms9_5 t) (hs9_5 t) (ms9_6 t) (hs9_6 t) ((hcond9_0 t).mpr h0) (iblk9 V c 0 t) (iblk9 V c 1 t) (iblk9 V c 2 t) (iblk9 V c 3 t)) (ix2 0 q)).trans ?_
  refine (k9_pay4_apply (iblk9 V c 0 t) (iblk9 V c 1 t) (iblk9 V c 2 t) (iblk9 V c 3 t) (k9_pay2 (F := Ideal)) q).trans ?_
  rw [k9_pay2_apply, zero_add]
  exact Finset.sum_congr rfl fun r _ => blockval9 V c t r q

/-- At a later point the block's column sums are added to what the row held after the point before. -/
theorem outs9_5_B (c : Dev nD) (t : Fin cfg9.N) (h0 : ¬t.val % 25 = 0) (q : Fin 128) :
    (outsAt9 V c t.val t.isLt).2.1 (ix2 0 q)
      = (outsAt9 V c (t.val - 1) (Nat.lt_of_le_of_lt (Nat.sub_le _ _) t.isLt)).2.1 (ix2 0 q) + bsum9 V c q (pt9 t) := by
  rw [outsAt9_B V c t h0]
  dsimp only
  refine (congrFun (out9_B_5_eq (F := Ideal) c (grid9.coords t) (ms9_0 t) (hs9_0 t) (ms9_1 t) (hs9_1 t) (ms9_2 t) (hs9_2 t) (ms9_3 t) (hs9_3 t) (ms9_4 t) (hs9_4 t) (ms9_5 t) (hs9_5 t) (ms9_6 t) (hs9_6 t) (fun h => h0 ((hcond9_0 t).mp h)) (iblk9 V c 0 t) (iblk9 V c 1 t) (iblk9 V c 2 t) (iblk9 V c 3 t) (outsAt9 V c (t.val - 1) (Nat.lt_of_le_of_lt (Nat.sub_le _ _) t.isLt)).2.1 (outsAt9 V c (t.val - 1) (Nat.lt_of_le_of_lt (Nat.sub_le _ _) t.isLt)).2.2) (ix2 0 q)).trans ?_
  refine (k9_pay4_apply (iblk9 V c 0 t) (iblk9 V c 1 t) (iblk9 V c 2 t) (iblk9 V c 3 t) (outsAt9 V c (t.val - 1) (Nat.lt_of_le_of_lt (Nat.sub_le _ _) t.isLt)).2.1 q).trans ?_
  refine congrArg ((outsAt9 V c (t.val - 1) (Nat.lt_of_le_of_lt (Nat.sub_le _ _) t.isLt)).2.1 (ix2 0 q) + ·) ?_
  exact Finset.sum_congr rfl fun r _ => blockval9 V c t r q

/-- After point n the running row holds the column sums of blocks 0 … n, added up in the grid's order. -/
theorem acc9_5 (c : Dev nD) (q : Fin 128) : ∀ (n : ℕ) (h : n < cfg9.N),
    (outsAt9 V c n h).2.1 (ix2 0 q) = ∑ s ∈ Finset.range (n + 1), Cert.BlockSum.blockTerm (bsum9 V c q) s
  | 0, h => by
    rw [Finset.sum_range_one, Cert.BlockSum.blockTerm_of_lt _ 0 (by omega)]
    exact outs9_5_A V c ⟨0, h⟩ rfl q
  | n + 1, h => by
    have hN : cfg9.N = 25 := N_9
    have hB : ¬(⟨n + 1, h⟩ : Fin cfg9.N).val % 25 = 0 := by dsimp only; omega
    rw [Finset.sum_range_succ, ← acc9_5 c q n (Nat.lt_of_succ_lt h), Cert.BlockSum.blockTerm_of_lt _ (n + 1) (by omega)]
    exact outs9_5_B V c ⟨n + 1, h⟩ hB q

/-- The row of column sums of the whole output array. -/
def SUM9 (c : Dev nD) : Cert.Gcn.Mat 1 128 := fun j => Cert.Gcn.colsum (OUT9 V c) (j 1)

/-- After the last point the running row holds the column sums of the whole output array: the 25 block sums added up
    are the sum over all 50000 rows. -/
theorem last9_5 (c : Dev nD) (t : Fin cfg9.N) (h25 : t.val + 1 = 25) :
    (outsAt9 V c t.val t.isLt).2.1 = (SUM9 V c : Vec Ideal S1x128 .f32) := by
  funext j
  obtain ⟨u, q, rfl⟩ : ∃ (u : Fin 1) (q : Fin 128), j = ix2 u q := ⟨j 0, j 1, eq_ix2 j⟩
  obtain rfl : u = 0 := Subsingleton.elim _ _
  show (outsAt9 V c t.val t.isLt).2.1 (ix2 (0 : Fin 1) q) = Cert.Gcn.colsum (OUT9 V c) q
  rw [acc9_5 V c q t.val t.isLt, h25, Cert.BlockSum.sum_range_blockTerm]
  exact Cert.BlockSum.sum_blocks (fun p => OUT9 V c (ix2 p q))

/-- The one write-back of the row, at the last point, writes that row: its block is the whole [1, 128] array. -/
theorem flushed9_5 (c : Dev nD) (t : Fin cfg9.N) (hf : (cfg9.win 5).flush t = true) :
    (dat9 V c).flushed 5 t = ((cfg9.win 5).blk t).view.read (Elt Ideal) (SUM9 V c) := by
  have hN : cfg9.N = 25 := N_9
  have h25 : t.val + 1 = 25 := by have := (flush9_5 t).mp hf; have := t.isLt; omega
  obtain ⟨-, -, -, -, -, -, -, -, -, -, e0, e1, -⟩ := idx_facts9 t
  show (cfg9.win 5).cut (grid9.coords t) ((dat9 V c).after 5 t) = _
  rw [after9_5, last9_5 V c t h25]
  have hz' : (fun a => win9_5.index t a * main_v120_1.ty.shape.size a) = fun _ => 0 := funext fun a => by
    match a with
    | ⟨0, _⟩ => show win9_5.index t (0 : Fin 2) * 1 = 0; rw [e0]
    | ⟨1, _⟩ => show win9_5.index t (1 : Fin 2) * 128 = 0; rw [e1]
  exact (Memref.read_access_unit_zero (Elt Ideal) main_v120_1 hz' (fun a => by rw [congrFun hz' a]; simp) (SUM9 V c)).symm

/-- An index of the row is in point t's block iff each coordinate is in the block's range on its axis. -/
theorem mem_blk9_5 (t : Fin cfg9.N) (i : S1x128.Idx) :
    i ∈ ((cfg9.win 5).blk t).view.set ↔ ∀ a : Fin 2, win9_5.index t a * S1x128.size a ≤ (i a).val ∧ (i a).val < win9_5.index t a * S1x128.size a + S1x128.size a := by
  show i ∈ ((View.whole main_v120_1).slice (win9_5.rect t)).set ↔ _
  rw [View.set_slice_whole, Rect.mem_set_unit]
  exact Iff.rfl

/-- The row of column sums after the region: the column sums of the whole output array (the last point's block is the whole row). -/
theorem stats9_sum (c : Dev nD) :
    (dat9 V c).arrAt 5 cfg9.N = fun j : S1x128.Idx => Cert.Gcn.colsum (OUT9 V c) (j 1) :=
  (dat9 V c).arrAt_eq_of_cover 5 (SUM9 V c) (flushed9_5 V c) fun i => by
    have hN : cfg9.N = 25 := N_9
    have hi0 : (i 0).val < 1 := (i 0).isLt
    have hi1 : (i 1).val < 128 := (i 1).isLt
    have h24 : 24 < cfg9.N := by rw [hN]; omega
    obtain ⟨-, -, -, -, -, -, -, -, -, -, e0, e1, -⟩ := idx_facts9 ⟨24, h24⟩
    refine ⟨⟨24, h24⟩, (flush9_5 _).mpr rfl, ?_⟩
    rw [mem_blk9_5]
    intro a
    match a with
    | ⟨0, _⟩ => show win9_5.index ⟨24, h24⟩ (0 : Fin 2) * 1 ≤ (i 0).val ∧ (i 0).val < win9_5.index ⟨24, h24⟩ (0 : Fin 2) * 1 + 1; rw [e0]; omega
    | ⟨1, _⟩ => show win9_5.index ⟨24, h24⟩ (1 : Fin 2) * 128 ≤ (i 1).val ∧ (i 1).val < win9_5.index ⟨24, h24⟩ (1 : Fin 2) * 128 + 128; rw [e1]; omega
/-- The column sum of squares of block t of the whole output array, column q. -/
def bsq9 (c : Dev nD) (q : Fin 128) : Fin 25 → EReal :=
  fun t => ∑ r : Fin 2000, OUT9 V c (ix2 (Cert.BlockSum.row t r) q) * OUT9 V c (ix2 (Cert.BlockSum.row t r) q)

/-- At the first point the running row is reset, so after it the row holds the first block's column sums of squares. -/
theorem outs9_6_A (c : Dev nD) (t : Fin cfg9.N) (h0 : t.val % 25 = 0) (q : Fin 128) :
    (outsAt9 V c t.val t.isLt).2.2 (ix2 0 q) = bsq9 V c q (pt9 t) := by
  rw [outsAt9_A V c t h0]
  dsimp only
  refine (congrFun (out9_A_6_eq (F := Ideal) c (grid9.coords t) (ms9_0 t) (hs9_0 t) (ms9_1 t) (hs9_1 t) (ms9_2 t) (hs9_2 t) (ms9_3 t) (hs9_3 t) (ms9_4 t) (hs9_4 t) (ms9_5 t) (hs9_5 t) (ms9_6 t) (hs9_6 t) ((hcond9_0 t).mpr h0) (iblk9 V c 0 t) (iblk9 V c 1 t) (iblk9 V c 2 t) (iblk9 V c 3 t)) (ix2 0 q)).trans ?_
  refine (k9_pay5_apply (iblk9 V c 0 t) (iblk9 V c 1 t) (iblk9 V c 2 t) (iblk9 V c 3 t) (k9_pay3 (F := Ideal)) q).trans ?_
  rw [k9_pay3_apply, zero_add]
  exact Finset.sum_congr rfl fun r _ => by rw [blockval9 V c t r q]

/-- At a later point the block's column sums of squares are added to what the row held after the point before. -/
theorem outs9_6_B (c : Dev nD) (t : Fin cfg9.N) (h0 : ¬t.val % 25 = 0) (q : Fin 128) :
    (outsAt9 V c t.val t.isLt).2.2 (ix2 0 q)
      = (outsAt9 V c (t.val - 1) (Nat.lt_of_le_of_lt (Nat.sub_le _ _) t.isLt)).2.2 (ix2 0 q) + bsq9 V c q (pt9 t) := by
  rw [outsAt9_B V c t h0]
  dsimp only
  refine (congrFun (out9_B_6_eq (F := Ideal) c (grid9.coords t) (ms9_0 t) (hs9_0 t) (ms9_1 t) (hs9_1 t) (ms9_2 t) (hs9_2 t) (ms9_3 t) (hs9_3 t) (ms9_4 t) (hs9_4 t) (ms9_5 t) (hs9_5 t) (ms9_6 t) (hs9_6 t) (fun h => h0 ((hcond9_0 t).mp h)) (iblk9 V c 0 t) (iblk9 V c 1 t) (iblk9 V c 2 t) (iblk9 V c 3 t) (outsAt9 V c (t.val - 1) (Nat.lt_of_le_of_lt (Nat.sub_le _ _) t.isLt)).2.1 (outsAt9 V c (t.val - 1) (Nat.lt_of_le_of_lt (Nat.sub_le _ _) t.isLt)).2.2) (ix2 0 q)).trans ?_
  refine (k9_pay5_apply (iblk9 V c 0 t) (iblk9 V c 1 t) (iblk9 V c 2 t) (iblk9 V c 3 t) (outsAt9 V c (t.val - 1) (Nat.lt_of_le_of_lt (Nat.sub_le _ _) t.isLt)).2.2 q).trans ?_
  refine congrArg ((outsAt9 V c (t.val - 1) (Nat.lt_of_le_of_lt (Nat.sub_le _ _) t.isLt)).2.2 (ix2 0 q) + ·) ?_
  exact Finset.sum_congr rfl fun r _ => by rw [blockval9 V c t r q]

/-- After point n the running row holds the column sums of squares of blocks 0 … n, added up in the grid's order. -/
theorem acc9_6 (c : Dev nD) (q : Fin 128) : ∀ (n : ℕ) (h : n < cfg9.N),
    (outsAt9 V c n h).2.2 (ix2 0 q) = ∑ s ∈ Finset.range (n + 1), Cert.BlockSum.blockTerm (bsq9 V c q) s
  | 0, h => by
    rw [Finset.sum_range_one, Cert.BlockSum.blockTerm_of_lt _ 0 (by omega)]
    exact outs9_6_A V c ⟨0, h⟩ rfl q
  | n + 1, h => by
    have hN : cfg9.N = 25 := N_9
    have hB : ¬(⟨n + 1, h⟩ : Fin cfg9.N).val % 25 = 0 := by dsimp only; omega
    rw [Finset.sum_range_succ, ← acc9_6 c q n (Nat.lt_of_succ_lt h), Cert.BlockSum.blockTerm_of_lt _ (n + 1) (by omega)]
    exact outs9_6_B V c ⟨n + 1, h⟩ hB q

/-- The row of column sums of squares of the whole output array. -/
def SUMSQ9 (c : Dev nD) : Cert.Gcn.Mat 1 128 := fun j => Cert.Gcn.colsumsq (OUT9 V c) (j 1)

/-- After the last point the running row holds the column sums of squares of the whole output array: the 25 block sums added up
    are the sum over all 50000 rows. -/
theorem last9_6 (c : Dev nD) (t : Fin cfg9.N) (h25 : t.val + 1 = 25) :
    (outsAt9 V c t.val t.isLt).2.2 = (SUMSQ9 V c : Vec Ideal S1x128 .f32) := by
  funext j
  obtain ⟨u, q, rfl⟩ : ∃ (u : Fin 1) (q : Fin 128), j = ix2 u q := ⟨j 0, j 1, eq_ix2 j⟩
  obtain rfl : u = 0 := Subsingleton.elim _ _
  show (outsAt9 V c t.val t.isLt).2.2 (ix2 (0 : Fin 1) q) = Cert.Gcn.colsumsq (OUT9 V c) q
  rw [acc9_6 V c q t.val t.isLt, h25, Cert.BlockSum.sum_range_blockTerm]
  exact Cert.BlockSum.sum_blocks (fun p => OUT9 V c (ix2 p q) * OUT9 V c (ix2 p q))

/-- The one write-back of the row, at the last point, writes that row: its block is the whole [1, 128] array. -/
theorem flushed9_6 (c : Dev nD) (t : Fin cfg9.N) (hf : (cfg9.win 6).flush t = true) :
    (dat9 V c).flushed 6 t = ((cfg9.win 6).blk t).view.read (Elt Ideal) (SUMSQ9 V c) := by
  have hN : cfg9.N = 25 := N_9
  have h25 : t.val + 1 = 25 := by have := (flush9_6 t).mp hf; have := t.isLt; omega
  obtain ⟨-, -, -, -, -, -, -, -, -, -, -, -, e0, e1, -⟩ := idx_facts9 t
  show (cfg9.win 6).cut (grid9.coords t) ((dat9 V c).after 6 t) = _
  rw [after9_6, last9_6 V c t h25]
  have hz' : (fun a => win9_6.index t a * main_v120_2.ty.shape.size a) = fun _ => 0 := funext fun a => by
    match a with
    | ⟨0, _⟩ => show win9_6.index t (0 : Fin 2) * 1 = 0; rw [e0]
    | ⟨1, _⟩ => show win9_6.index t (1 : Fin 2) * 128 = 0; rw [e1]
  exact (Memref.read_access_unit_zero (Elt Ideal) main_v120_2 hz' (fun a => by rw [congrFun hz' a]; simp) (SUMSQ9 V c)).symm

/-- An index of the row is in point t's block iff each coordinate is in the block's range on its axis. -/
theorem mem_blk9_6 (t : Fin cfg9.N) (i : S1x128.Idx) :
    i ∈ ((cfg9.win 6).blk t).view.set ↔ ∀ a : Fin 2, win9_6.index t a * S1x128.size a ≤ (i a).val ∧ (i a).val < win9_6.index t a * S1x128.size a + S1x128.size a := by
  show i ∈ ((View.whole main_v120_2).slice (win9_6.rect t)).set ↔ _
  rw [View.set_slice_whole, Rect.mem_set_unit]
  exact Iff.rfl

/-- The row of column sums of squares after the region: the column sums of squares of the whole output array (the last point's block is the whole row). -/
theorem stats9_sumsq (c : Dev nD) :
    (dat9 V c).arrAt 6 cfg9.N = fun j : S1x128.Idx => Cert.Gcn.colsumsq (OUT9 V c) (j 1) :=
  (dat9 V c).arrAt_eq_of_cover 6 (SUMSQ9 V c) (flushed9_6 V c) fun i => by
    have hN : cfg9.N = 25 := N_9
    have hi0 : (i 0).val < 1 := (i 0).isLt
    have hi1 : (i 1).val < 128 := (i 1).isLt
    have h24 : 24 < cfg9.N := by rw [hN]; omega
    obtain ⟨-, -, -, -, -, -, -, -, -, -, -, -, e0, e1, -⟩ := idx_facts9 ⟨24, h24⟩
    refine ⟨⟨24, h24⟩, (flush9_6 _).mpr rfl, ?_⟩
    rw [mem_blk9_6]
    intro a
    match a with
    | ⟨0, _⟩ => show win9_6.index ⟨24, h24⟩ (0 : Fin 2) * 1 ≤ (i 0).val ∧ (i 0).val < win9_6.index ⟨24, h24⟩ (0 : Fin 2) * 1 + 1; rw [e0]; omega
    | ⟨1, _⟩ => show win9_6.index ⟨24, h24⟩ (1 : Fin 2) * 128 ≤ (i 1).val ∧ (i 1).val < win9_6.index ⟨24, h24⟩ (1 : Fin 2) * 128 + 128; rw [e1]; omega

end Values

end Cert.KernelIdeal.RegVal

end
-- ==== Proof.RegStats12.lean ====
/-
  The convolution layer's combining step with column statistics, at width 256: the values its three output arrays
  hold after all 25 grid points.

  The [50000, 256] arrays are cut into 25 blocks of 2000 rows. At point t the body reads block t of the aggregated
  messages, of the transformed rows and of the self-loop weights (a column), and the bias row, and stores
  v = max (aggregated + transformed · weight + bias, 0) as block t of the output. It also keeps two [1, 256] rows, reset to zero at
  the first point: to one it adds the column sums of v, to the other the column sums of v · v.  Both rows are written
  back once, after the last point.

  So the output array is the combination of the whole input arrays, entry by entry; and after the last point the two
  rows hold, for each column, the sum over the 25 blocks of the block's 2000 terms, which is the sum over all
  50000 rows (the row p = 2000 · t + r is row r of block t).
-/
import proofs.«106426_j33148557590872_1_alg».proof.Proof.Gen.KernelIdeal.Frame
import proofs.«106426_j33148557590872_1_alg».proof.Proof.LibColumn
import proofs.«106426_j33148557590872_1_alg».proof.Proof.GcnSpec
import proofs.«106426_j33148557590872_1_alg».proof.Proof.RegStatsSum
import Idealize.ShloMosaic.Lib.ValueIdx
import Idealize.ShloMosaic.Lib.ValueLayout
import Idealize.ShloMosaic.Lib.Pipeline.Value
import Idealize.ShloMosaic.PureOps.Ideal.Laws
import Idealize.ShloMosaic.Lib.Tactic

set_option maxRecDepth 16384

noncomputable section

namespace Cert.KernelIdeal.RegVal

open Idealize.ShloMosaic Idealize.ShloMosaic.TcCoe Idealize.ShloMosaic.ValueIdx Idealize.SL.Sem Cert.KernelIdeal Cert.KernelIdeal.Gen
open Idealize.ShloMosaic.Pipeline (Dat)

/-! ## What each case of the body leaves in the three output buffers, as terms of the blocks it read -/

variable {F : FTy → Type} [FloatOps F]

theorem stats12_hz : (![0, 0] : Fin 2 → Nat) = fun _ => 0 := funext fun a => by fin_cases a <;> rfl

/-- At the first point the body leaves in the output block its one store's value, a function of the four input blocks. -/
theorem out12_A_4_eq (c : Dev nD) (i : grid12.Coords) (arg1 : Memref sig .tc .vmem S2000x256 .f32) (harg1 : arg1.IsWhole) (arg2 : Memref sig .tc .vmem S2000x256 .f32) (harg2 : arg2.IsWhole) (arg3 : Memref sig .tc .vmem S2000x1 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : cond12_0 i) (x0 : Vec F S2000x256 .f32) (x1 : Vec F S2000x256 .f32) (x2 : Vec F S2000x1 .f32) (x3 : Vec F S1x256 .f32) :
    out12_A_4 (F := F) c i arg1 harg1 arg2 harg2 arg3 harg3 arg4 harg4 arg5 harg5 arg6 harg6 arg7 harg7 hc0 x0 x1 x2 x3 = k12_pay1 x0 x1 x2 x3 := by
  unfold out12_A_4
  rw [View.read_writes_eq_canon _ _ _ (cover12_A_4 c i arg1 harg1 arg2 harg2 arg3 harg3 arg4 harg4 arg5 harg5 arg6 harg6 arg7 harg7 hc0 x0 x1 x2 x3)]
  unfold kernelRun12_A
  dsimp only
  rw [View.canon_unit_zero stats12_hz]
  simp only [View.readAt_eq_ld, harg1.read_unread, harg2.read_unread, harg3.read_unread, harg4.read_unread,
    View.ld_unit_zero (S := S2000x256) stats12_hz, View.ld_unit_zero (S := S2000x1) stats12_hz, View.ld_unit_zero (S := S1x256) stats12_hz]

/-- At a later point likewise: the output block does not depend on the running sums. -/
theorem out12_B_4_eq (c : Dev nD) (i : grid12.Coords) (arg1 : Memref sig .tc .vmem S2000x256 .f32) (harg1 : arg1.IsWhole) (arg2 : Memref sig .tc .vmem S2000x256 .f32) (harg2 : arg2.IsWhole) (arg3 : Memref sig .tc .vmem S2000x1 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : ¬cond12_0 i) (x0 : Vec F S2000x256 .f32) (x1 : Vec F S2000x256 .f32) (x2 : Vec F S2000x1 .f32) (x3 : Vec F S1x256 .f32) (xo5 : Vec F S1x256 .f32) (xo6 : Vec F S1x256 .f32) :
    out12_B_4 (F := F) c i arg1 harg1 arg2 harg2 arg3 harg3 arg4 harg4 arg5 harg5 arg6 harg6 arg7 harg7 hc0 x0 x1 x2 x3 xo5 xo6 = k12_pay1 x0 x1 x2 x3 := by
  unfold out12_B_4
  rw [View.read_writes_eq_canon _ _ _ (cover12_B_4 c i arg1 harg1 arg2 harg2 arg3 harg3 arg4 harg4 arg5 harg5 arg6 harg6 arg7 harg7 hc0 x0 x1 x2 x3 xo5 xo6)]
  unfold kernelRun12_B
  dsimp only
  rw [View.canon_unit_zero stats12_hz]
  simp only [View.readAt_eq_ld, harg1.read_unread, harg2.read_unread, harg3.read_unread, harg4.read_unread,
    View.ld_unit_zero (S := S2000x256) stats12_hz, View.ld_unit_zero (S := S2000x1) stats12_hz, View.ld_unit_zero (S := S1x256) stats12_hz]

/-- At the first point the running column sums are reset to the zero row, read back, and the block's column sums added. -/
theorem out12_A_5_eq (c : Dev nD) (i : grid12.Coords) (arg1 : Memref sig .tc .vmem S2000x256 .f32) (harg1 : arg1.IsWhole) (arg2 : Memref sig .tc .vmem S2000x256 .f32) (harg2 : arg2.IsWhole) (arg3 : Memref sig .tc .vmem S2000x1 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : cond12_0 i) (x0 : Vec F S2000x256 .f32) (x1 : Vec F S2000x256 .f32) (x2 : Vec F S2000x1 .f32) (x3 : Vec F S1x256 .f32) :
    out12_A_5 (F := F) c i arg1 harg1 arg2 harg2 arg3 harg3 arg4 harg4 arg5 harg5 arg6 harg6 arg7 harg7 hc0 x0 x1 x2 x3 = k12_pay4 x0 x1 x2 x3 k12_pay2 := by
  unfold out12_A_5
  rw [View.read_writes_eq_canon _ _ _ (cover12_A_5 c i arg1 harg1 arg2 harg2 arg3 harg3 arg4 harg4 arg5 harg5 arg6 harg6 arg7 harg7 hc0 x0 x1 x2 x3)]
  unfold kernelRun12_A
  dsimp only
  sl_unfold_words
  rw [View.canon_cons_unit_zero (S := S1x256) stats12_hz, View.readCov_unit_zero (S := S1x256) _ stats12_hz]
  simp only [View.readAt_eq_ld, harg1.read_unread, harg2.read_unread, harg3.read_unread, harg4.read_unread,
    View.ld_unit_zero (S := S2000x256) stats12_hz, View.ld_unit_zero (S := S2000x1) stats12_hz, View.ld_unit_zero (S := S1x256) stats12_hz]

/-- The same for the running column sums of squares. -/
theorem out12_A_6_eq (c : Dev nD) (i : grid12.Coords) (arg1 : Memref sig .tc .vmem S2000x256 .f32) (harg1 : arg1.IsWhole) (arg2 : Memref sig .tc .vmem S2000x256 .f32) (harg2 : arg2.IsWhole) (arg3 : Memref sig .tc .vmem S2000x1 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : cond12_0 i) (x0 : Vec F S2000x256 .f32) (x1 : Vec F S2000x256 .f32) (x2 : Vec F S2000x1 .f32) (x3 : Vec F S1x256 .f32) :
    out12_A_6 (F := F) c i arg1 harg1 arg2 harg2 arg3 harg3 arg4 harg4 arg5 harg5 arg6 harg6 arg7 harg7 hc0 x0 x1 x2 x3 = k12_pay5 x0 x1 x2 x3 k12_pay3 := by
  unfold out12_A_6
  rw [View.read_writes_eq_canon _ _ _ (cover12_A_6 c i arg1 harg1 arg2 harg2 arg3 harg3 arg4 harg4 arg5 harg5 arg6 harg6 arg7 harg7 hc0 x0 x1 x2 x3)]
  unfold kernelRun12_A
  dsimp only
  sl_unfold_words
  rw [View.canon_cons_unit_zero (S := S1x256) stats12_hz, View.readCov_unit_zero (S := S1x256) _ stats12_hz]
  simp only [View.readAt_eq_ld, harg1.read_unread, harg2.read_unread, harg3.read_unread, harg4.read_unread,
    View.ld_unit_zero (S := S2000x256) stats12_hz, View.ld_unit_zero (S := S2000x1) stats12_hz, View.ld_unit_zero (S := S1x256) stats12_hz]

/-- At a later point the block's column sums are added to what the running column sums held. -/
theorem out12_B_5_eq (c : Dev nD) (i : grid12.Coords) (arg1 : Memref sig .tc .vmem S2000x256 .f32) (harg1 : arg1.IsWhole) (arg2 : Memref sig .tc .vmem S2000x256 .f32) (harg2 : arg2.IsWhole) (arg3 : Memref sig .tc .vmem S2000x1 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : ¬cond12_0 i) (x0 : Vec F S2000x256 .f32) (x1 : Vec F S2000x256 .f32) (x2 : Vec F S2000x1 .f32) (x3 : Vec F S1x256 .f32) (xo5 : Vec F S1x256 .f32) (xo6 : Vec F S1x256 .f32) :
    out12_B_5 (F := F) c i arg1 harg1 arg2 harg2 arg3 harg3 arg4 harg4 arg5 harg5 arg6 harg6 arg7 harg7 hc0 x0 x1 x2 x3 xo5 xo6 = k12_pay4 x0 x1 x2 x3 xo5 := by
  unfold out12_B_5
  rw [View.read_writes_eq_canon _ _ _ (cover12_B_5 c i arg1 harg1 arg2 harg2 arg3 harg3 arg4 harg4 arg5 harg5 arg6 harg6 arg7 harg7 hc0 x0 x1 x2 x3 xo5 xo6)]
  unfold kernelRun12_B
  dsimp only
  rw [View.canon_unit_zero stats12_hz]
  simp only [View.readAt_eq_ld, harg1.read_unread, harg2.read_unread, harg3.read_unread, harg4.read_unread, harg6.read_unread,
    View.ld_unit_zero (S := S2000x256) stats12_hz, View.ld_unit_zero (S := S2000x1) stats12_hz, View.ld_unit_zero (S := S1x256) stats12_hz]

/-- The same for the running column sums of squares. -/
theorem out12_B_6_eq (c : Dev nD) (i : grid12.Coords) (arg1 : Memref sig .tc .vmem S2000x256 .f32) (harg1 : arg1.IsWhole) (arg2 : Memref sig .tc .vmem S2000x256 .f32) (harg2 : arg2.IsWhole) (arg3 : Memref sig .tc .vmem S2000x1 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : ¬cond12_0 i) (x0 : Vec F S2000x256 .f32) (x1 : Vec F S2000x256 .f32) (x2 : Vec F S2000x1 .f32) (x3 : Vec F S1x256 .f32) (xo5 : Vec F S1x256 .f32) (xo6 : Vec F S1x256 .f32) :
    out12_B_6 (F := F) c i arg1 harg1 arg2 harg2 arg3 harg3 arg4 harg4 arg5 harg5 arg6 harg6 arg7 harg7 hc0 x0 x1 x2 x3 xo5 xo6 = k12_pay5 x0 x1 x2 x3 xo6 := by
  unfold out12_B_6
  rw [View.read_writes_eq_canon _ _ _ (cover12_B_6 c i arg1 harg1 arg2 harg2 arg3 harg3 arg4 harg4 arg5 harg5 arg6 harg6 arg7 harg7 hc0 x0 x1 x2 x3 xo5 xo6)]
  unfold kernelRun12_B
  dsimp only
  rw [View.canon_unit_zero stats12_hz]
  simp only [View.readAt_eq_ld, harg1.read_unread, harg2.read_unread, harg3.read_unread, harg4.read_unread, harg7.read_unread,
    View.ld_unit_zero (S := S2000x256) stats12_hz, View.ld_unit_zero (S := S2000x1) stats12_hz, View.ld_unit_zero (S := S1x256) stats12_hz]

/-! ## The body's arithmetic at an index, over the extended reals -/

/-- One entry of the block the body stores: aggregated messages, plus the node's own row times its self-loop
    weight, plus the bias row, and of that the positive part. -/
theorem k12_pay1_apply (x0 x1 : Vec Ideal S2000x256 .f32) (x2 : Vec Ideal S2000x1 .f32) (x3 : Vec Ideal S1x256 .f32)
    (r : Fin 2000) (q : Fin 256) :
    k12_pay1 (F := Ideal) x0 x1 x2 x3 (ix2 r q) = max ((x0 (ix2 r q) + x1 (ix2 r q) * x2 (ix2 r 0)) + x3 (ix2 0 q)) 0 := by
  unfold k12_pay1
  rw [maximumf_apply, broadcast_apply, addf_apply, addf_apply, mulf_apply, shapeCast_self, shapeCast_self, shapeCast_self, shapeCast_self,
    Cert.Lib.broadcastTo_a1_ab_apply, broadcastTo_1b_ab_apply]
  exact congrArg (max _) Ideal.ofBits_zero_f32

/-- The sum over the rows of a [2000, 256] block, kept as a [1, 256] row: at column q, the sum of that column. -/
theorem colsum_row12 (v : FVec Ideal S2000x256 .f32) (hacc : (0x00000000#32 : BitVec 32) = 0x00000000#32) (q : Fin 256) :
    shapeCast S1x256 (multiReduction (F := Ideal) .add [0] S256 v 0x00000000#32 reduces_S2000x256_S256 (.inl rfl) hacc)
      shapeCasts_S256_S1x256 (ix2 (0 : Fin 1) q) = ∑ r : Fin 2000, v (ix2 r q) := by
  rw [shapeCast_a_1a_apply]
  refine (Ideal.multiReduction_add_single v 0x00000000#32 reduces_S2000x256_S256 (.inl rfl) hacc (ix1 q)).trans ?_
  refine Finset.sum_congr rfl fun r _ => congrArg v (funext fun a => Fin.ext ?_)
  match a with
  | ⟨0, _⟩ => rfl
  | ⟨1, _⟩ => rfl

/-- The running column sums after a point: what they held, plus the column sums of the point's block. -/
theorem k12_pay4_apply (x0 x1 : Vec Ideal S2000x256 .f32) (x2 : Vec Ideal S2000x1 .f32) (x3 : Vec Ideal S1x256 .f32)
    (acc : Vec Ideal S1x256 .f32) (q : Fin 256) :
    k12_pay4 (F := Ideal) x0 x1 x2 x3 acc (ix2 0 q) = acc (ix2 0 q) + ∑ r : Fin 2000, k12_pay1 (F := Ideal) x0 x1 x2 x3 (ix2 r q) := by
  unfold k12_pay4
  rw [addf_apply, shapeCast_self, colsum_row12]

/-- The running column sums of squares after a point: what they held, plus those of the point's block. -/
theorem k12_pay5_apply (x0 x1 : Vec Ideal S2000x256 .f32) (x2 : Vec Ideal S2000x1 .f32) (x3 : Vec Ideal S1x256 .f32)
    (acc : Vec Ideal S1x256 .f32) (q : Fin 256) :
    k12_pay5 (F := Ideal) x0 x1 x2 x3 acc (ix2 0 q) = acc (ix2 0 q) + ∑ r : Fin 2000, k12_pay1 (F := Ideal) x0 x1 x2 x3 (ix2 r q) * k12_pay1 (F := Ideal) x0 x1 x2 x3 (ix2 r q) := by
  unfold k12_pay5
  rw [addf_apply, shapeCast_self, colsum_row12]
  rfl

/-- The row the first point resets the column sums to is zero. -/
theorem k12_pay2_apply (j : S1x256.Idx) : k12_pay2 (F := Ideal) j = 0 := by
  unfold k12_pay2
  show Ideal.ofBits .f32 0x00000000#32 = 0
  exact Ideal.ofBits_zero_f32

/-- The row the first point resets the column sums of squares to is zero. -/
theorem k12_pay3_apply (j : S1x256.Idx) : k12_pay3 (F := Ideal) j = 0 := by
  unfold k12_pay3
  show Ideal.ofBits .f32 0x00000000#32 = 0
  exact Ideal.ofBits_zero_f32

/-! ## The blocks as rows of the arrays, and the output array -/

section Values
variable (V : (c : Dev nD) → (b : Ref sig .tc) → Buf (Elt Ideal) ((c : Thread nD τ).loc b))

/-- The four input arrays as the region finds them: aggregated messages, transformed rows, self-loop weights (a
    column), bias (a row). -/
abbrev arr12_0 (c : Dev nD) : Cert.Gcn.Mat 50000 256 := V c (Pipeline.arrRef spec12 0)
abbrev arr12_1 (c : Dev nD) : Cert.Gcn.Mat 50000 256 := V c (Pipeline.arrRef spec12 1)
abbrev arr12_2 (c : Dev nD) : Cert.Gcn.Mat 50000 1 := V c (Pipeline.arrRef spec12 2)
abbrev arr12_3 (c : Dev nD) : Cert.Gcn.Mat 1 256 := V c (Pipeline.arrRef spec12 3)

/-- The whole output array: the combination, then the positive part, of the four input arrays. -/
def OUT12 (c : Dev nD) : Cert.Gcn.Mat 50000 256 :=
  Cert.Gcn.relu (Cert.Gcn.combine (arr12_0 V c) (arr12_1 V c) (fun p => arr12_2 V c (ix2 p 0)) (fun q => arr12_3 V c (ix2 0 q)))

theorem OUT12_apply (c : Dev nD) (p : Fin 50000) (q : Fin 256) :
    OUT12 V c (ix2 p q) = max ((arr12_0 V c (ix2 p q) + arr12_1 V c (ix2 p q) * arr12_2 V c (ix2 p 0)) + arr12_3 V c (ix2 0 q)) 0 := rfl

/-- The grid point as a block number below 25. -/
abbrev pt12 (t : Fin cfg12.N) : Fin 25 := ⟨t.val, lt_of_lt_of_eq t.isLt N_12⟩

/-- The block index of each window at each grid point: the row blocks move with the point, the bias row and the two
    rows of column statistics stay at block (0, 0). -/
theorem idx_facts12 : ∀ t : Fin cfg12.N,
    win12_0.index t (0 : Fin 2) = t.val ∧ win12_0.index t (1 : Fin 2) = 0
    ∧ win12_1.index t (0 : Fin 2) = t.val ∧ win12_1.index t (1 : Fin 2) = 0
    ∧ win12_2.index t (0 : Fin 2) = t.val ∧ win12_2.index t (1 : Fin 2) = 0
    ∧ win12_3.index t (0 : Fin 2) = 0 ∧ win12_3.index t (1 : Fin 2) = 0
    ∧ win12_4.index t (0 : Fin 2) = t.val ∧ win12_4.index t (1 : Fin 2) = 0
    ∧ win12_5.index t (0 : Fin 2) = 0 ∧ win12_5.index t (1 : Fin 2) = 0
    ∧ win12_6.index t (0 : Fin 2) = 0 ∧ win12_6.index t (1 : Fin 2) = 0 ∧ True :=
  (by decide +kernel : ∀ t : Fin grid12.N, _)

/-- Block t of the aggregated messages is rows 2000 t … 2000 t + 1999 of their array. -/
theorem blk12_0_apply (c : Dev nD) (t : Fin cfg12.N) (r : Fin 2000) (q : Fin 256) :
    (iblk12 V c 0 t : Vec Ideal S2000x256 .f32) (ix2 r q)
      = arr12_0 V c (ix2 (Cert.BlockSum.row (pt12 t) r) q) := by
  obtain ⟨e0, e1, -⟩ := idx_facts12 t
  unfold iblk12
  rw [View.read_apply]
  show V c (Pipeline.arrRef spec12 0) _ = V c (Pipeline.arrRef spec12 0) _
  congr 1
  funext a
  apply Fin.ext
  match a with
  | ⟨0, _⟩ => show win12_0.index t (0 : Fin 2) * 2000 + 1 * r.val = 2000 * t.val + r.val; rw [e0]; omega
  | ⟨1, _⟩ => show win12_0.index t (1 : Fin 2) * 256 + 1 * q.val = q.val; rw [e1]; omega

/-- Block t of the transformed rows is rows 2000 t … 2000 t + 1999 of their array. -/
theorem blk12_1_apply (c : Dev nD) (t : Fin cfg12.N) (r : Fin 2000) (q : Fin 256) :
    (iblk12 V c 1 t : Vec Ideal S2000x256 .f32) (ix2 r q)
      = arr12_1 V c (ix2 (Cert.BlockSum.row (pt12 t) r) q) := by
  obtain ⟨-, -, e0, e1, -⟩ := idx_facts12 t
  unfold iblk12
  rw [View.read_apply]
  show V c (Pipeline.arrRef spec12 1) _ = V c (Pipeline.arrRef spec12 1) _
  congr 1
  funext a
  apply Fin.ext
  match a with
  | ⟨0, _⟩ => show win12_1.index t (0 : Fin 2) * 2000 + 1 * r.val = 2000 * t.val + r.val; rw [e0]; omega
  | ⟨1, _⟩ => show win12_1.index t (1 : Fin 2) * 256 + 1 * q.val = q.val; rw [e1]; omega

/-- Block t of the self-loop weights is rows 2000 t … 2000 t + 1999 of their column. -/
theorem blk12_2_apply (c : Dev nD) (t : Fin cfg12.N) (r : Fin 2000) (u : Fin 1) :
    (iblk12 V c 2 t : Vec Ideal S2000x1 .f32) (ix2 r u)
      = arr12_2 V c (ix2 (Cert.BlockSum.row (pt12 t) r) 0) := by
  obtain ⟨-, -, -, -, e0, e1, -⟩ := idx_facts12 t
  unfold iblk12
  rw [View.read_apply]
  show V c (Pipeline.arrRef spec12 2) _ = V c (Pipeline.arrRef spec12 2) _
  congr 1
  funext a
  apply Fin.ext
  match a with
  | ⟨0, _⟩ => show win12_2.index t (0 : Fin 2) * 2000 + 1 * r.val = 2000 * t.val + r.val; rw [e0]; omega
  | ⟨1, _⟩ => show win12_2.index t (1 : Fin 2) * 1 + 1 * u.val = 0; rw [e1]; omega

/-- The bias row's block is, at every point, the whole row. -/
theorem blk12_3_apply (c : Dev nD) (t : Fin cfg12.N) (u : Fin 1) (q : Fin 256) :
    (iblk12 V c 3 t : Vec Ideal S1x256 .f32) (ix2 u q)
      = arr12_3 V c (ix2 0 q) := by
  obtain ⟨-, -, -, -, -, -, e0, e1, -⟩ := idx_facts12 t
  unfold iblk12
  rw [View.read_apply]
  show V c (Pipeline.arrRef spec12 3) _ = V c (Pipeline.arrRef spec12 3) _
  congr 1
  funext a
  apply Fin.ext
  match a with
  | ⟨0, _⟩ => show win12_3.index t (0 : Fin 2) * 1 + 1 * u.val = 0; rw [e0]; omega
  | ⟨1, _⟩ => show win12_3.index t (1 : Fin 2) * 256 + 1 * q.val = q.val; rw [e1]; omega

/-- What the body computes from the blocks at point t is, entry by entry, rows 2000 t … 2000 t + 1999 of the whole
    output array. -/
theorem blockval12 (c : Dev nD) (t : Fin cfg12.N) (r : Fin 2000) (q : Fin 256) :
    k12_pay1 (F := Ideal) (iblk12 V c 0 t) (iblk12 V c 1 t) (iblk12 V c 2 t) (iblk12 V c 3 t) (ix2 r q)
      = OUT12 V c (ix2 (Cert.BlockSum.row (pt12 t) r) q) := by
  refine (k12_pay1_apply (iblk12 V c 0 t) (iblk12 V c 1 t) (iblk12 V c 2 t) (iblk12 V c 3 t) r q).trans ?_
  rw [blk12_0_apply V c t r q, blk12_1_apply V c t r q, blk12_2_apply V c t r 0, blk12_3_apply V c t 0 q]
  rfl

/-- What the output's staging buffer holds after point t: the body's block value, at the first point and after. -/
theorem outs12_4 (c : Dev nD) (t : Fin cfg12.N) :
    (outsAt12 V c t.val t.isLt).1 = k12_pay1 (iblk12 V c 0 t) (iblk12 V c 1 t) (iblk12 V c 2 t) (iblk12 V c 3 t) := by
  by_cases h0 : t.val % 25 = 0
  · rw [outsAt12_A V c t h0]
    dsimp only
    exact out12_A_4_eq (F := Ideal) c (grid12.coords t) (ms12_0 t) (hs12_0 t) (ms12_1 t) (hs12_1 t) (ms12_2 t) (hs12_2 t) (ms12_3 t) (hs12_3 t) (ms12_4 t) (hs12_4 t) (ms12_5 t) (hs12_5 t) (ms12_6 t) (hs12_6 t) ((hcond12_0 t).mpr h0) (iblk12 V c 0 t) (iblk12 V c 1 t) (iblk12 V c 2 t) (iblk12 V c 3 t)
  · rw [outsAt12_B V c t h0]
    dsimp only
    exact out12_B_4_eq (F := Ideal) c (grid12.coords t) (ms12_0 t) (hs12_0 t) (ms12_1 t) (hs12_1 t) (ms12_2 t) (hs12_2 t) (ms12_3 t) (hs12_3 t) (ms12_4 t) (hs12_4 t) (ms12_5 t) (hs12_5 t) (ms12_6 t) (hs12_6 t) (fun h => h0 ((hcond12_0 t).mp h)) (iblk12 V c 0 t) (iblk12 V c 1 t) (iblk12 V c 2 t) (iblk12 V c 3 t) (outsAt12 V c (t.val - 1) (Nat.lt_of_le_of_lt (Nat.sub_le _ _) t.isLt)).2.1 (outsAt12 V c (t.val - 1) (Nat.lt_of_le_of_lt (Nat.sub_le _ _) t.isLt)).2.2

/-- What point t writes back to the output array is block t of the whole output array. -/
theorem flushed12_4 (c : Dev nD) (t : Fin cfg12.N) :
    (dat12 V c).flushed 4 t = ((cfg12.win 4).blk t).view.read (Elt Ideal) (OUT12 V c) := by
  show (cfg12.win 4).cut (grid12.coords t) ((dat12 V c).after 4 t) = _
  rw [after12_4, outs12_4]
  obtain ⟨-, -, -, -, -, -, -, -, e0, e1, -⟩ := idx_facts12 t
  funext j
  obtain ⟨r, q, rfl⟩ : ∃ (r : Fin 2000) (q : Fin 256), j = ix2 r q := ⟨j 0, j 1, eq_ix2 j⟩
  show k12_pay1 (F := Ideal) (iblk12 V c 0 t) (iblk12 V c 1 t) (iblk12 V c 2 t) (iblk12 V c 3 t) (ix2 r q) = OUT12 V c (((cfg12.win 4).blk t).view.emb (ix2 r q))
  rw [blockval12 V c t r q]
  congr 1
  funext a
  apply Fin.ext
  match a with
  | ⟨0, _⟩ => show 2000 * t.val + r.val = win12_4.index t (0 : Fin 2) * 2000 + 1 * r.val; rw [e0]; omega
  | ⟨1, _⟩ => show q.val = win12_4.index t (1 : Fin 2) * 256 + 1 * q.val; rw [e1]; omega

/-- An index of the output array is in point t's block iff each coordinate is in the block's range on its axis. -/
theorem mem_blk12_4 (t : Fin cfg12.N) (i : S50000x256.Idx) :
    i ∈ ((cfg12.win 4).blk t).view.set ↔ ∀ a : Fin 2, win12_4.index t a * S2000x256.size a ≤ (i a).val ∧ (i a).val < win12_4.index t a * S2000x256.size a + S2000x256.size a := by
  show i ∈ ((View.whole main_v150_0).slice (win12_4.rect t)).set ↔ _
  rw [View.set_slice_whole, Rect.mem_set_unit]
  exact Iff.rfl

/-- The output array after the region is the combination, then the positive part, of the input arrays: every row p lies in
    the block of point p / 2000, and every point writes its block of that one array. -/
theorem stats12_out (c : Dev nD) : (dat12 V c).arrAt 4 cfg12.N = OUT12 V c :=
  (dat12 V c).arrAt_eq_of_cover 4 (OUT12 V c) (fun t _ => flushed12_4 V c t) fun i => by
    have hi0 : (i 0).val < 50000 := (i 0).isLt
    have hi1 : (i 1).val < 256 := (i 1).isLt
    have hN : cfg12.N = 25 := N_12
    have ht : (i 0).val / 2000 < cfg12.N := by rw [hN]; omega
    obtain ⟨-, -, -, -, -, -, -, -, e0, e1, -⟩ := idx_facts12 ⟨(i 0).val / 2000, ht⟩
    refine ⟨⟨(i 0).val / 2000, ht⟩, flush12_4 _, ?_⟩
    rw [mem_blk12_4]
    intro a
    match a with
    | ⟨0, _⟩ => show win12_4.index ⟨(i 0).val / 2000, ht⟩ (0 : Fin 2) * 2000 ≤ (i 0).val ∧ (i 0).val < win12_4.index ⟨(i 0).val / 2000, ht⟩ (0 : Fin 2) * 2000 + 2000; rw [e0]; dsimp only; omega
    | ⟨1, _⟩ => show win12_4.index ⟨(i 0).val / 2000, ht⟩ (1 : Fin 2) * 256 ≤ (i 1).val ∧ (i 1).val < win12_4.index ⟨(i 0).val / 2000, ht⟩ (1 : Fin 2) * 256 + 256; rw [e1]; omega

/-! ## The two rows of column statistics -/

/-- The column sum of block t of the whole output array, column q. -/
def bsum12 (c : Dev nD) (q : Fin 256) : Fin 25 → EReal :=
  fun t => ∑ r : Fin 2000, OUT12 V c (ix2 (Cert.BlockSum.row t r) q)

/-- At the first point the running row is reset, so after it the row holds the first block's column sums. -/
theorem outs12_5_A (c : Dev nD) (t : Fin cfg12.N) (h0 : t.val % 25 = 0) (q : Fin 256) :
    (outsAt12 V c t.val t.isLt).2.1 (ix2 0 q) = bsum12 V c q (pt12 t) := by
  rw [outsAt12_A V c t h0]
  dsimp only
  refine (congrFun (out12_A_5_eq (F := Ideal) c (grid12.coords t) (ms12_0 t) (hs12_0 t) (ms12_1 t) (hs12_1 t) (ms12_2 t) (hs12_2 t) (ms12_3 t) (hs12_3 t) (ms12_4 t) (hs12_4 t) (ms12_5 t) (hs12_5 t) (ms12_6 t) (hs12_6 t) ((hcond12_0 t).mpr h0) (iblk12 V c 0 t) (iblk12 V c 1 t) (iblk12 V c 2 t) (iblk12 V c 3 t)) (ix2 0 q)).trans ?_
  refine (k12_pay4_apply (iblk12 V c 0 t) (iblk12 V c 1 t) (iblk12 V c 2 t) (iblk12 V c 3 t) (k12_pay2 (F := Ideal)) q).trans ?_
  rw [k12_pay2_apply, zero_add]
  exact Finset.sum_congr rfl fun r _ => blockval12 V c t r q

/-- At a later point the block's column sums are added to what the row held after the point before. -/
theorem outs12_5_B (c : Dev nD) (t : Fin cfg12.N) (h0 : ¬t.val % 25 = 0) (q : Fin 256) :
    (outsAt12 V c t.val t.isLt).2.1 (ix2 0 q)
      = (outsAt12 V c (t.val - 1) (Nat.lt_of_le_of_lt (Nat.sub_le _ _) t.isLt)).2.1 (ix2 0 q) + bsum12 V c q (pt12 t) := by
  rw [outsAt12_B V c t h0]
  dsimp only
  refine (congrFun (out12_B_5_eq (F := Ideal) c (grid12.coords t) (ms12_0 t) (hs12_0 t) (ms12_1 t) (hs12_1 t) (ms12_2 t) (hs12_2 t) (ms12_3 t) (hs12_3 t) (ms12_4 t) (hs12_4 t) (ms12_5 t) (hs12_5 t) (ms12_6 t) (hs12_6 t) (fun h => h0 ((hcond12_0 t).mp h)) (iblk12 V c 0 t) (iblk12 V c 1 t) (iblk12 V c 2 t) (iblk12 V c 3 t) (outsAt12 V c (t.val - 1) (Nat.lt_of_le_of_lt (Nat.sub_le _ _) t.isLt)).2.1 (outsAt12 V c (t.val - 1) (Nat.lt_of_le_of_lt (Nat.sub_le _ _) t.isLt)).2.2) (ix2 0 q)).trans ?_
  refine (k12_pay4_apply (iblk12 V c 0 t) (iblk12 V c 1 t) (iblk12 V c 2 t) (iblk12 V c 3 t) (outsAt12 V c (t.val - 1) (Nat.lt_of_le_of_lt (Nat.sub_le _ _) t.isLt)).2.1 q).trans ?_
  refine congrArg ((outsAt12 V c (t.val - 1) (Nat.lt_of_le_of_lt (Nat.sub_le _ _) t.isLt)).2.1 (ix2 0 q) + ·) ?_
  exact Finset.sum_congr rfl fun r _ => blockval12 V c t r q

/-- After point n the running row holds the column sums of blocks 0 … n, added up in the grid's order. -/
theorem acc12_5 (c : Dev nD) (q : Fin 256) : ∀ (n : ℕ) (h : n < cfg12.N),
    (outsAt12 V c n h).2.1 (ix2 0 q) = ∑ s ∈ Finset.range (n + 1), Cert.BlockSum.blockTerm (bsum12 V c q) s
  | 0, h => by
    rw [Finset.sum_range_one, Cert.BlockSum.blockTerm_of_lt _ 0 (by omega)]
    exact outs12_5_A V c ⟨0, h⟩ rfl q
  | n + 1, h => by
    have hN : cfg12.N = 25 := N_12
    have hB : ¬(⟨n + 1, h⟩ : Fin cfg12.N).val % 25 = 0 := by dsimp only; omega
    rw [Finset.sum_range_succ, ← acc12_5 c q n (Nat.lt_of_succ_lt h), Cert.BlockSum.blockTerm_of_lt _ (n + 1) (by omega)]
    exact outs12_5_B V c ⟨n + 1, h⟩ hB q

/-- The row of column sums of the whole output array. -/
def SUM12 (c : Dev nD) : Cert.Gcn.Mat 1 256 := fun j => Cert.Gcn.colsum (OUT12 V c) (j 1)

/-- After the last point the running row holds the column sums of the whole output array: the 25 block sums added up
    are the sum over all 50000 rows. -/
theorem last12_5 (c : Dev nD) (t : Fin cfg12.N) (h25 : t.val + 1 = 25) :
    (outsAt12 V c t.val t.isLt).2.1 = (SUM12 V c : Vec Ideal S1x256 .f32) := by
  funext j
  obtain ⟨u, q, rfl⟩ : ∃ (u : Fin 1) (q : Fin 256), j = ix2 u q := ⟨j 0, j 1, eq_ix2 j⟩
  obtain rfl : u = 0 := Subsingleton.elim _ _
  show (outsAt12 V c t.val t.isLt).2.1 (ix2 (0 : Fin 1) q) = Cert.Gcn.colsum (OUT12 V c) q
  rw [acc12_5 V c q t.val t.isLt, h25, Cert.BlockSum.sum_range_blockTerm]
  exact Cert.BlockSum.sum_blocks (fun p => OUT12 V c (ix2 p q))

/-- The one write-back of the row, at the last point, writes that row: its block is the whole [1, 256] array. -/
theorem flushed12_5 (c : Dev nD) (t : Fin cfg12.N) (hf : (cfg12.win 5).flush t = true) :
    (dat12 V c).flushed 5 t = ((cfg12.win 5).blk t).view.read (Elt Ideal) (SUM12 V c) := by
  have hN : cfg12.N = 25 := N_12
  have h25 : t.val + 1 = 25 := by have := (flush12_5 t).mp hf; have := t.isLt; omega
  obtain ⟨-, -, -, -, -, -, -, -, -, -, e0, e1, -⟩ := idx_facts12 t
  show (cfg12.win 5).cut (grid12.coords t) ((dat12 V c).after 5 t) = _
  rw [after12_5, last12_5 V c t h25]
  have hz' : (fun a => win12_5.index t a * main_v150_1.ty.shape.size a) = fun _ => 0 := funext fun a => by
    match a with
    | ⟨0, _⟩ => show win12_5.index t (0 : Fin 2) * 1 = 0; rw [e0]
    | ⟨1, _⟩ => show win12_5.index t (1 : Fin 2) * 256 = 0; rw [e1]
  exact (Memref.read_access_unit_zero (Elt Ideal) main_v150_1 hz' (fun a => by rw [congrFun hz' a]; simp) (SUM12 V c)).symm

/-- An index of the row is in point t's block iff each coordinate is in the block's range on its axis. -/
theorem mem_blk12_5 (t : Fin cfg12.N) (i : S1x256.Idx) :
    i ∈ ((cfg12.win 5).blk t).view.set ↔ ∀ a : Fin 2, win12_5.index t a * S1x256.size a ≤ (i a).val ∧ (i a).val < win12_5.index t a * S1x256.size a + S1x256.size a := by
  show i ∈ ((View.whole main_v150_1).slice (win12_5.rect t)).set ↔ _
  rw [View.set_slice_whole, Rect.mem_set_unit]
  exact Iff.rfl

/-- The row of column sums after the region: the column sums of the whole output array (the last point's block is the whole row). -/
theorem stats12_sum (c : Dev nD) :
    (dat12 V c).arrAt 5 cfg12.N = fun j : S1x256.Idx => Cert.Gcn.colsum (OUT12 V c) (j 1) :=
  (dat12 V c).arrAt_eq_of_cover 5 (SUM12 V c) (flushed12_5 V c) fun i => by
    have hN : cfg12.N = 25 := N_12
    have hi0 : (i 0).val < 1 := (i 0).isLt
    have hi1 : (i 1).val < 256 := (i 1).isLt
    have h24 : 24 < cfg12.N := by rw [hN]; omega
    obtain ⟨-, -, -, -, -, -, -, -, -, -, e0, e1, -⟩ := idx_facts12 ⟨24, h24⟩
    refine ⟨⟨24, h24⟩, (flush12_5 _).mpr rfl, ?_⟩
    rw [mem_blk12_5]
    intro a
    match a with
    | ⟨0, _⟩ => show win12_5.index ⟨24, h24⟩ (0 : Fin 2) * 1 ≤ (i 0).val ∧ (i 0).val < win12_5.index ⟨24, h24⟩ (0 : Fin 2) * 1 + 1; rw [e0]; omega
    | ⟨1, _⟩ => show win12_5.index ⟨24, h24⟩ (1 : Fin 2) * 256 ≤ (i 1).val ∧ (i 1).val < win12_5.index ⟨24, h24⟩ (1 : Fin 2) * 256 + 256; rw [e1]; omega
/-- The column sum of squares of block t of the whole output array, column q. -/
def bsq12 (c : Dev nD) (q : Fin 256) : Fin 25 → EReal :=
  fun t => ∑ r : Fin 2000, OUT12 V c (ix2 (Cert.BlockSum.row t r) q) * OUT12 V c (ix2 (Cert.BlockSum.row t r) q)

/-- At the first point the running row is reset, so after it the row holds the first block's column sums of squares. -/
theorem outs12_6_A (c : Dev nD) (t : Fin cfg12.N) (h0 : t.val % 25 = 0) (q : Fin 256) :
    (outsAt12 V c t.val t.isLt).2.2 (ix2 0 q) = bsq12 V c q (pt12 t) := by
  rw [outsAt12_A V c t h0]
  dsimp only
  refine (congrFun (out12_A_6_eq (F := Ideal) c (grid12.coords t) (ms12_0 t) (hs12_0 t) (ms12_1 t) (hs12_1 t) (ms12_2 t) (hs12_2 t) (ms12_3 t) (hs12_3 t) (ms12_4 t) (hs12_4 t) (ms12_5 t) (hs12_5 t) (ms12_6 t) (hs12_6 t) ((hcond12_0 t).mpr h0) (iblk12 V c 0 t) (iblk12 V c 1 t) (iblk12 V c 2 t) (iblk12 V c 3 t)) (ix2 0 q)).trans ?_
  refine (k12_pay5_apply (iblk12 V c 0 t) (iblk12 V c 1 t) (iblk12 V c 2 t) (iblk12 V c 3 t) (k12_pay3 (F := Ideal)) q).trans ?_
  rw [k12_pay3_apply, zero_add]
  exact Finset.sum_congr rfl fun r _ => by rw [blockval12 V c t r q]

/-- At a later point the block's column sums of squares are added to what the row held after the point before. -/
theorem outs12_6_B (c : Dev nD) (t : Fin cfg12.N) (h0 : ¬t.val % 25 = 0) (q : Fin 256) :
    (outsAt12 V c t.val t.isLt).2.2 (ix2 0 q)
      = (outsAt12 V c (t.val - 1) (Nat.lt_of_le_of_lt (Nat.sub_le _ _) t.isLt)).2.2 (ix2 0 q) + bsq12 V c q (pt12 t) := by
  rw [outsAt12_B V c t h0]
  dsimp only
  refine (congrFun (out12_B_6_eq (F := Ideal) c (grid12.coords t) (ms12_0 t) (hs12_0 t) (ms12_1 t) (hs12_1 t) (ms12_2 t) (hs12_2 t) (ms12_3 t) (hs12_3 t) (ms12_4 t) (hs12_4 t) (ms12_5 t) (hs12_5 t) (ms12_6 t) (hs12_6 t) (fun h => h0 ((hcond12_0 t).mp h)) (iblk12 V c 0 t) (iblk12 V c 1 t) (iblk12 V c 2 t) (iblk12 V c 3 t) (outsAt12 V c (t.val - 1) (Nat.lt_of_le_of_lt (Nat.sub_le _ _) t.isLt)).2.1 (outsAt12 V c (t.val - 1) (Nat.lt_of_le_of_lt (Nat.sub_le _ _) t.isLt)).2.2) (ix2 0 q)).trans ?_
  refine (k12_pay5_apply (iblk12 V c 0 t) (iblk12 V c 1 t) (iblk12 V c 2 t) (iblk12 V c 3 t) (outsAt12 V c (t.val - 1) (Nat.lt_of_le_of_lt (Nat.sub_le _ _) t.isLt)).2.2 q).trans ?_
  refine congrArg ((outsAt12 V c (t.val - 1) (Nat.lt_of_le_of_lt (Nat.sub_le _ _) t.isLt)).2.2 (ix2 0 q) + ·) ?_
  exact Finset.sum_congr rfl fun r _ => by rw [blockval12 V c t r q]

/-- After point n the running row holds the column sums of squares of blocks 0 … n, added up in the grid's order. -/
theorem acc12_6 (c : Dev nD) (q : Fin 256) : ∀ (n : ℕ) (h : n < cfg12.N),
    (outsAt12 V c n h).2.2 (ix2 0 q) = ∑ s ∈ Finset.range (n + 1), Cert.BlockSum.blockTerm (bsq12 V c q) s
  | 0, h => by
    rw [Finset.sum_range_one, Cert.BlockSum.blockTerm_of_lt _ 0 (by omega)]
    exact outs12_6_A V c ⟨0, h⟩ rfl q
  | n + 1, h => by
    have hN : cfg12.N = 25 := N_12
    have hB : ¬(⟨n + 1, h⟩ : Fin cfg12.N).val % 25 = 0 := by dsimp only; omega
    rw [Finset.sum_range_succ, ← acc12_6 c q n (Nat.lt_of_succ_lt h), Cert.BlockSum.blockTerm_of_lt _ (n + 1) (by omega)]
    exact outs12_6_B V c ⟨n + 1, h⟩ hB q

/-- The row of column sums of squares of the whole output array. -/
def SUMSQ12 (c : Dev nD) : Cert.Gcn.Mat 1 256 := fun j => Cert.Gcn.colsumsq (OUT12 V c) (j 1)

/-- After the last point the running row holds the column sums of squares of the whole output array: the 25 block sums added up
    are the sum over all 50000 rows. -/
theorem last12_6 (c : Dev nD) (t : Fin cfg12.N) (h25 : t.val + 1 = 25) :
    (outsAt12 V c t.val t.isLt).2.2 = (SUMSQ12 V c : Vec Ideal S1x256 .f32) := by
  funext j
  obtain ⟨u, q, rfl⟩ : ∃ (u : Fin 1) (q : Fin 256), j = ix2 u q := ⟨j 0, j 1, eq_ix2 j⟩
  obtain rfl : u = 0 := Subsingleton.elim _ _
  show (outsAt12 V c t.val t.isLt).2.2 (ix2 (0 : Fin 1) q) = Cert.Gcn.colsumsq (OUT12 V c) q
  rw [acc12_6 V c q t.val t.isLt, h25, Cert.BlockSum.sum_range_blockTerm]
  exact Cert.BlockSum.sum_blocks (fun p => OUT12 V c (ix2 p q) * OUT12 V c (ix2 p q))

/-- The one write-back of the row, at the last point, writes that row: its block is the whole [1, 256] array. -/
theorem flushed12_6 (c : Dev nD) (t : Fin cfg12.N) (hf : (cfg12.win 6).flush t = true) :
    (dat12 V c).flushed 6 t = ((cfg12.win 6).blk t).view.read (Elt Ideal) (SUMSQ12 V c) := by
  have hN : cfg12.N = 25 := N_12
  have h25 : t.val + 1 = 25 := by have := (flush12_6 t).mp hf; have := t.isLt; omega
  obtain ⟨-, -, -, -, -, -, -, -, -, -, -, -, e0, e1, -⟩ := idx_facts12 t
  show (cfg12.win 6).cut (grid12.coords t) ((dat12 V c).after 6 t) = _
  rw [after12_6, last12_6 V c t h25]
  have hz' : (fun a => win12_6.index t a * main_v150_2.ty.shape.size a) = fun _ => 0 := funext fun a => by
    match a with
    | ⟨0, _⟩ => show win12_6.index t (0 : Fin 2) * 1 = 0; rw [e0]
    | ⟨1, _⟩ => show win12_6.index t (1 : Fin 2) * 256 = 0; rw [e1]
  exact (Memref.read_access_unit_zero (Elt Ideal) main_v150_2 hz' (fun a => by rw [congrFun hz' a]; simp) (SUMSQ12 V c)).symm

/-- An index of the row is in point t's block iff each coordinate is in the block's range on its axis. -/
theorem mem_blk12_6 (t : Fin cfg12.N) (i : S1x256.Idx) :
    i ∈ ((cfg12.win 6).blk t).view.set ↔ ∀ a : Fin 2, win12_6.index t a * S1x256.size a ≤ (i a).val ∧ (i a).val < win12_6.index t a * S1x256.size a + S1x256.size a := by
  show i ∈ ((View.whole main_v150_2).slice (win12_6.rect t)).set ↔ _
  rw [View.set_slice_whole, Rect.mem_set_unit]
  exact Iff.rfl

/-- The row of column sums of squares after the region: the column sums of squares of the whole output array (the last point's block is the whole row). -/
theorem stats12_sumsq (c : Dev nD) :
    (dat12 V c).arrAt 6 cfg12.N = fun j : S1x256.Idx => Cert.Gcn.colsumsq (OUT12 V c) (j 1) :=
  (dat12 V c).arrAt_eq_of_cover 6 (SUMSQ12 V c) (flushed12_6 V c) fun i => by
    have hN : cfg12.N = 25 := N_12
    have hi0 : (i 0).val < 1 := (i 0).isLt
    have hi1 : (i 1).val < 256 := (i 1).isLt
    have h24 : 24 < cfg12.N := by rw [hN]; omega
    obtain ⟨-, -, -, -, -, -, -, -, -, -, -, -, e0, e1, -⟩ := idx_facts12 ⟨24, h24⟩
    refine ⟨⟨24, h24⟩, (flush12_6 _).mpr rfl, ?_⟩
    rw [mem_blk12_6]
    intro a
    match a with
    | ⟨0, _⟩ => show win12_6.index ⟨24, h24⟩ (0 : Fin 2) * 1 ≤ (i 0).val ∧ (i 0).val < win12_6.index ⟨24, h24⟩ (0 : Fin 2) * 1 + 1; rw [e0]; omega
    | ⟨1, _⟩ => show win12_6.index ⟨24, h24⟩ (1 : Fin 2) * 256 ≤ (i 1).val ∧ (i 1).val < win12_6.index ⟨24, h24⟩ (1 : Fin 2) * 256 + 256; rw [e1]; omega

end Values

end Cert.KernelIdeal.RegVal

end
-- ==== Proof.KFold.lean ====
/-
  The kernel program's buffers, boundary by boundary.  @main is 27 segments (host stretches and regions);
  the fold of their effects from the launch memory gives each boundary's contents.  Here every buffer that a
  later segment reads is followed through the fold: an argument keeps its launch contents, the four buffers
  of the graph part keep what the first stretch leaves, and each computed buffer is the encoder's
  intermediate it stands for (the transformed rows x · W, the convolution, its column statistics, the
  normalised layer).  The last boundary has the two results.
-/
import proofs.«106426_j33148557590872_1_alg».proof.Proof.KRun
import proofs.«106426_j33148557590872_1_alg».proof.Proof.GcnSpec
import proofs.«106426_j33148557590872_1_alg».proof.Proof.KStageMsg
import proofs.«106426_j33148557590872_1_alg».proof.Proof.KStageStat
import proofs.«106426_j33148557590872_1_alg».proof.Proof.Keep0
import proofs.«106426_j33148557590872_1_alg».proof.Proof.Keep1
import proofs.«106426_j33148557590872_1_alg».proof.Proof.Keep2
import proofs.«106426_j33148557590872_1_alg».proof.Proof.Keep3
import proofs.«106426_j33148557590872_1_alg».proof.Proof.RegMM0
import proofs.«106426_j33148557590872_1_alg».proof.Proof.RegMM3
import proofs.«106426_j33148557590872_1_alg».proof.Proof.RegMM6
import proofs.«106426_j33148557590872_1_alg».proof.Proof.RegMM8
import proofs.«106426_j33148557590872_1_alg».proof.Proof.RegMM11
import proofs.«106426_j33148557590872_1_alg».proof.Proof.RegMM14
import proofs.«106426_j33148557590872_1_alg».proof.Proof.RegPlain7
import proofs.«106426_j33148557590872_1_alg».proof.Proof.RegPlain15
import proofs.«106426_j33148557590872_1_alg».proof.Proof.RegBn2
import proofs.«106426_j33148557590872_1_alg».proof.Proof.RegBn5
import proofs.«106426_j33148557590872_1_alg».proof.Proof.RegBn10
import proofs.«106426_j33148557590872_1_alg».proof.Proof.RegBn13
import proofs.«106426_j33148557590872_1_alg».proof.Proof.RegStats1
import proofs.«106426_j33148557590872_1_alg».proof.Proof.RegStats4
import proofs.«106426_j33148557590872_1_alg».proof.Proof.RegStats9
import proofs.«106426_j33148557590872_1_alg».proof.Proof.RegStats12

set_option maxRecDepth 16384

noncomputable section

namespace Cert.KernelIdeal.KFold

open Cert.KernelIdeal Cert.KernelIdeal.Gen
open Idealize.ShloMosaic Idealize.ShloMosaic.TcCoe Idealize.ShloMosaic.StableHlo Idealize.ShloMosaic.ValueIdx Idealize.SL.Sem
open Cert.Gcn Cert.KernelIdeal.KStage Cert.KernelIdeal.KStageStat
open Cert.KernelIdeal.Keep0 Cert.KernelIdeal.Keep1 Cert.KernelIdeal.Keep2 Cert.KernelIdeal.Keep3

theorem combine_congr {n d : Nat} {a a' x x' : Mat n d} {s s' : Fin n → EReal} {b b' : Fin d → EReal}
    (ha : a = a') (hx : x = x') (hs : s = s') (hb : b = b') : combine a x s b = combine a' x' s' b' := by
  subst ha hx hs hb; rfl

theorem bn_congr {n d : Nat} {x x' : Mat n d} {mu mu' v v' g g' be be' : Fin d → EReal} (eps : EReal)
    (hx : x = x') (hmu : mu = mu') (hv : v = v') (hg : g = g') (hbe : be = be') :
    bn x mu v g be eps = bn x' mu' v' g' be' eps := by
  subst hx hmu hv hg hbe; rfl

/-- The graph side, from what the first host stretch leaves. -/
def G (m : (ℓ : Loc nD τ sig) → Buf (Elt Ideal) ℓ) (ρ : Dev nD → PrngReg) (c : Dev nD) : Graph 50000 800000 :=
  kgraph (W1 (F := Ideal) m ρ c (Proc.devRef .tc main_v1)) (W1 (F := Ideal) m ρ c (Proc.devRef .tc main_v3))
    (W1 (F := Ideal) m ρ c (Proc.devRef .tc main_v25)) (W1 (F := Ideal) m ρ c (Proc.devRef .tc main_v26))

def XW1 (m : (ℓ : Loc nD τ sig) → Buf (Elt Ideal) ℓ) (ρ : Dev nD → PrngReg) (c : Dev nD) : Mat 50000 128 := mm ((m ((c : Thread nD τ).loc main_arg0)) : Mat 50000 64) ((m ((c : Thread nD τ).loc main_arg2)) : Mat 64 128)

def C1 (m : (ℓ : Loc nD τ sig) → Buf (Elt Ideal) ℓ) (ρ : Dev nD → PrngReg) (c : Dev nD) : Mat 50000 128 := conv (G m ρ c).g128 (G m ρ c).s128 (G m ρ c).ne (G m ρ c).ns (XW1 m ρ c) (fun q => ((m ((c : Thread nD τ).loc main_arg3)) : S128.Idx → EReal) (ix1 q))

def H1 (m : (ℓ : Loc nD τ sig) → Buf (Elt Ideal) ℓ) (ρ : Dev nD → PrngReg) (c : Dev nD) : Mat 50000 128 := relu (bn (C1 m ρ c) (mean (C1 m ρ c) (Ideal.ofBits .f32 0x47435000#32)) (varSq (C1 m ρ c) (Ideal.ofBits .f32 0x47435000#32)) (fun q => ((m ((c : Thread nD τ).loc main_arg4)) : S128.Idx → EReal) (ix1 q)) (fun q => ((m ((c : Thread nD τ).loc main_arg5)) : S128.Idx → EReal) (ix1 q)) (Ideal.ofBits .f32 0x3727C5AC#32))

def XW2 (m : (ℓ : Loc nD τ sig) → Buf (Elt Ideal) ℓ) (ρ : Dev nD → PrngReg) (c : Dev nD) : Mat 50000 256 := mm (H1 m ρ c) ((m ((c : Thread nD τ).loc main_arg6)) : Mat 128 256)

def C2 (m : (ℓ : Loc nD τ sig) → Buf (Elt Ideal) ℓ) (ρ : Dev nD → PrngReg) (c : Dev nD) : Mat 50000 256 := conv (G m ρ c).g256 (G m ρ c).s256 (G m ρ c).ne (G m ρ c).ns (XW2 m ρ c) (fun q => ((m ((c : Thread nD τ).loc main_arg7)) : S256.Idx → EReal) (ix1 q))

def H2 (m : (ℓ : Loc nD τ sig) → Buf (Elt Ideal) ℓ) (ρ : Dev nD → PrngReg) (c : Dev nD) : Mat 50000 256 := relu (bn (C2 m ρ c) (mean (C2 m ρ c) (Ideal.ofBits .f32 0x47435000#32)) (varSq (C2 m ρ c) (Ideal.ofBits .f32 0x47435000#32)) (fun q => ((m ((c : Thread nD τ).loc main_arg8)) : S256.Idx → EReal) (ix1 q)) (fun q => ((m ((c : Thread nD τ).loc main_arg9)) : S256.Idx → EReal) (ix1 q)) (Ideal.ofBits .f32 0x3727C5AC#32))

def XW3 (m : (ℓ : Loc nD τ sig) → Buf (Elt Ideal) ℓ) (ρ : Dev nD → PrngReg) (c : Dev nD) : Mat 50000 64 := mm (H2 m ρ c) ((m ((c : Thread nD τ).loc main_arg10)) : Mat 256 64)

def MU (m : (ℓ : Loc nD τ sig) → Buf (Elt Ideal) ℓ) (ρ : Dev nD → PrngReg) (c : Dev nD) : Mat 50000 64 := conv (G m ρ c).g64 (G m ρ c).s64 (G m ρ c).ne (G m ρ c).ns (XW3 m ρ c) (fun q => ((m ((c : Thread nD τ).loc main_arg11)) : S64.Idx → EReal) (ix1 q))

def YW1 (m : (ℓ : Loc nD τ sig) → Buf (Elt Ideal) ℓ) (ρ : Dev nD → PrngReg) (c : Dev nD) : Mat 50000 128 := mm ((m ((c : Thread nD τ).loc main_arg0)) : Mat 50000 64) ((m ((c : Thread nD τ).loc main_arg12)) : Mat 64 128)

def D1 (m : (ℓ : Loc nD τ sig) → Buf (Elt Ideal) ℓ) (ρ : Dev nD → PrngReg) (c : Dev nD) : Mat 50000 128 := relu (conv (G m ρ c).g128 (G m ρ c).s128 (G m ρ c).ne (G m ρ c).ns (YW1 m ρ c) (fun q => ((m ((c : Thread nD τ).loc main_arg13)) : S128.Idx → EReal) (ix1 q)))

def K1 (m : (ℓ : Loc nD τ sig) → Buf (Elt Ideal) ℓ) (ρ : Dev nD → PrngReg) (c : Dev nD) : Mat 50000 128 := bn (D1 m ρ c) (mean (D1 m ρ c) (Ideal.ofBits .f32 0x47435000#32)) (varSq (D1 m ρ c) (Ideal.ofBits .f32 0x47435000#32)) (fun q => ((m ((c : Thread nD τ).loc main_arg14)) : S128.Idx → EReal) (ix1 q)) (fun q => ((m ((c : Thread nD τ).loc main_arg15)) : S128.Idx → EReal) (ix1 q)) (Ideal.ofBits .f32 0x3727C5AC#32)

def YW2 (m : (ℓ : Loc nD τ sig) → Buf (Elt Ideal) ℓ) (ρ : Dev nD → PrngReg) (c : Dev nD) : Mat 50000 256 := mm (K1 m ρ c) ((m ((c : Thread nD τ).loc main_arg16)) : Mat 128 256)

def D2 (m : (ℓ : Loc nD τ sig) → Buf (Elt Ideal) ℓ) (ρ : Dev nD → PrngReg) (c : Dev nD) : Mat 50000 256 := relu (conv (G m ρ c).g256 (G m ρ c).s256 (G m ρ c).ne (G m ρ c).ns (YW2 m ρ c) (fun q => ((m ((c : Thread nD τ).loc main_arg17)) : S256.Idx → EReal) (ix1 q)))

def K2 (m : (ℓ : Loc nD τ sig) → Buf (Elt Ideal) ℓ) (ρ : Dev nD → PrngReg) (c : Dev nD) : Mat 50000 256 := bn (D2 m ρ c) (mean (D2 m ρ c) (Ideal.ofBits .f32 0x47435000#32)) (varSq (D2 m ρ c) (Ideal.ofBits .f32 0x47435000#32)) (fun q => ((m ((c : Thread nD τ).loc main_arg18)) : S256.Idx → EReal) (ix1 q)) (fun q => ((m ((c : Thread nD τ).loc main_arg19)) : S256.Idx → EReal) (ix1 q)) (Ideal.ofBits .f32 0x3727C5AC#32)

def YW3 (m : (ℓ : Loc nD τ sig) → Buf (Elt Ideal) ℓ) (ρ : Dev nD → PrngReg) (c : Dev nD) : Mat 50000 64 := mm (K2 m ρ c) ((m ((c : Thread nD τ).loc main_arg20)) : Mat 256 64)

def LOG (m : (ℓ : Loc nD τ sig) → Buf (Elt Ideal) ℓ) (ρ : Dev nD → PrngReg) (c : Dev nD) : Mat 50000 64 := conv (G m ρ c).g64 (G m ρ c).s64 (G m ρ c).ne (G m ρ c).ns (YW3 m ρ c) (fun q => ((m ((c : Thread nD τ).loc main_arg21)) : S64.Idx → EReal) (ix1 q))

variable (m : (ℓ : Loc nD τ sig) → Buf (Elt Ideal) ℓ) (ρ : Dev nD → PrngReg) (c : Dev nD)

/-! ## The launch -/

theorem at0_arg21 : W0 (F := Ideal) m ρ c (Proc.devRef .tc main_arg21) = (m ((c : Thread nD τ).loc main_arg21)) := rfl

theorem at0_arg20 : W0 (F := Ideal) m ρ c (Proc.devRef .tc main_arg20) = (m ((c : Thread nD τ).loc main_arg20)) := rfl

theorem at0_arg18 : W0 (F := Ideal) m ρ c (Proc.devRef .tc main_arg18) = (m ((c : Thread nD τ).loc main_arg18)) := rfl

theorem at0_arg19 : W0 (F := Ideal) m ρ c (Proc.devRef .tc main_arg19) = (m ((c : Thread nD τ).loc main_arg19)) := rfl

theorem at0_arg17 : W0 (F := Ideal) m ρ c (Proc.devRef .tc main_arg17) = (m ((c : Thread nD τ).loc main_arg17)) := rfl

theorem at0_arg16 : W0 (F := Ideal) m ρ c (Proc.devRef .tc main_arg16) = (m ((c : Thread nD τ).loc main_arg16)) := rfl

theorem at0_arg14 : W0 (F := Ideal) m ρ c (Proc.devRef .tc main_arg14) = (m ((c : Thread nD τ).loc main_arg14)) := rfl

theorem at0_arg15 : W0 (F := Ideal) m ρ c (Proc.devRef .tc main_arg15) = (m ((c : Thread nD τ).loc main_arg15)) := rfl

theorem at0_arg13 : W0 (F := Ideal) m ρ c (Proc.devRef .tc main_arg13) = (m ((c : Thread nD τ).loc main_arg13)) := rfl

theorem at0_arg0 : W0 (F := Ideal) m ρ c (Proc.devRef .tc main_arg0) = (m ((c : Thread nD τ).loc main_arg0)) := rfl

theorem at0_arg12 : W0 (F := Ideal) m ρ c (Proc.devRef .tc main_arg12) = (m ((c : Thread nD τ).loc main_arg12)) := rfl

theorem at0_arg11 : W0 (F := Ideal) m ρ c (Proc.devRef .tc main_arg11) = (m ((c : Thread nD τ).loc main_arg11)) := rfl

theorem at0_arg10 : W0 (F := Ideal) m ρ c (Proc.devRef .tc main_arg10) = (m ((c : Thread nD τ).loc main_arg10)) := rfl

theorem at0_arg8 : W0 (F := Ideal) m ρ c (Proc.devRef .tc main_arg8) = (m ((c : Thread nD τ).loc main_arg8)) := rfl

theorem at0_arg9 : W0 (F := Ideal) m ρ c (Proc.devRef .tc main_arg9) = (m ((c : Thread nD τ).loc main_arg9)) := rfl

theorem at0_arg7 : W0 (F := Ideal) m ρ c (Proc.devRef .tc main_arg7) = (m ((c : Thread nD τ).loc main_arg7)) := rfl

theorem at0_arg6 : W0 (F := Ideal) m ρ c (Proc.devRef .tc main_arg6) = (m ((c : Thread nD τ).loc main_arg6)) := rfl

theorem at0_arg4 : W0 (F := Ideal) m ρ c (Proc.devRef .tc main_arg4) = (m ((c : Thread nD τ).loc main_arg4)) := rfl

theorem at0_arg5 : W0 (F := Ideal) m ρ c (Proc.devRef .tc main_arg5) = (m ((c : Thread nD τ).loc main_arg5)) := rfl

theorem at0_arg3 : W0 (F := Ideal) m ρ c (Proc.devRef .tc main_arg3) = (m ((c : Thread nD τ).loc main_arg3)) := rfl

theorem at0_arg2 : W0 (F := Ideal) m ρ c (Proc.devRef .tc main_arg2) = (m ((c : Thread nD τ).loc main_arg2)) := rfl

theorem at0_arg1 : W0 (F := Ideal) m ρ c (Proc.devRef .tc main_arg1) = (m ((c : Thread nD τ).loc main_arg1)) := rfl

/-! ## Boundary 1 -/

theorem at1_v1 : W1 (F := Ideal) m ρ c (Proc.devRef .tc main_v1) = W1 (F := Ideal) m ρ c (Proc.devRef .tc main_v1) :=
  rfl

theorem at1_v3 : W1 (F := Ideal) m ρ c (Proc.devRef .tc main_v3) = W1 (F := Ideal) m ρ c (Proc.devRef .tc main_v3) :=
  rfl

theorem at1_v25 : W1 (F := Ideal) m ρ c (Proc.devRef .tc main_v25) = W1 (F := Ideal) m ρ c (Proc.devRef .tc main_v25) :=
  rfl

theorem at1_v26 : W1 (F := Ideal) m ρ c (Proc.devRef .tc main_v26) = W1 (F := Ideal) m ρ c (Proc.devRef .tc main_v26) :=
  rfl

theorem at1_arg21 : W1 (F := Ideal) m ρ c (Proc.devRef .tc main_arg21) = (m ((c : Thread nD τ).loc main_arg21)) :=
  (keep_hostOps0_arg21 (W0 (F := Ideal) m ρ c)).trans (at0_arg21 m ρ c)

theorem at1_arg20 : W1 (F := Ideal) m ρ c (Proc.devRef .tc main_arg20) = (m ((c : Thread nD τ).loc main_arg20)) :=
  (keep_hostOps0_arg20 (W0 (F := Ideal) m ρ c)).trans (at0_arg20 m ρ c)

theorem at1_arg18 : W1 (F := Ideal) m ρ c (Proc.devRef .tc main_arg18) = (m ((c : Thread nD τ).loc main_arg18)) :=
  (keep_hostOps0_arg18 (W0 (F := Ideal) m ρ c)).trans (at0_arg18 m ρ c)

theorem at1_arg19 : W1 (F := Ideal) m ρ c (Proc.devRef .tc main_arg19) = (m ((c : Thread nD τ).loc main_arg19)) :=
  (keep_hostOps0_arg19 (W0 (F := Ideal) m ρ c)).trans (at0_arg19 m ρ c)

theorem at1_arg17 : W1 (F := Ideal) m ρ c (Proc.devRef .tc main_arg17) = (m ((c : Thread nD τ).loc main_arg17)) :=
  (keep_hostOps0_arg17 (W0 (F := Ideal) m ρ c)).trans (at0_arg17 m ρ c)

theorem at1_arg16 : W1 (F := Ideal) m ρ c (Proc.devRef .tc main_arg16) = (m ((c : Thread nD τ).loc main_arg16)) :=
  (keep_hostOps0_arg16 (W0 (F := Ideal) m ρ c)).trans (at0_arg16 m ρ c)

theorem at1_arg14 : W1 (F := Ideal) m ρ c (Proc.devRef .tc main_arg14) = (m ((c : Thread nD τ).loc main_arg14)) :=
  (keep_hostOps0_arg14 (W0 (F := Ideal) m ρ c)).trans (at0_arg14 m ρ c)

theorem at1_arg15 : W1 (F := Ideal) m ρ c (Proc.devRef .tc main_arg15) = (m ((c : Thread nD τ).loc main_arg15)) :=
  (keep_hostOps0_arg15 (W0 (F := Ideal) m ρ c)).trans (at0_arg15 m ρ c)

theorem at1_arg13 : W1 (F := Ideal) m ρ c (Proc.devRef .tc main_arg13) = (m ((c : Thread nD τ).loc main_arg13)) :=
  (keep_hostOps0_arg13 (W0 (F := Ideal) m ρ c)).trans (at0_arg13 m ρ c)

theorem at1_arg0 : W1 (F := Ideal) m ρ c (Proc.devRef .tc main_arg0) = (m ((c : Thread nD τ).loc main_arg0)) :=
  (keep_hostOps0_arg0 (W0 (F := Ideal) m ρ c)).trans (at0_arg0 m ρ c)

theorem at1_arg12 : W1 (F := Ideal) m ρ c (Proc.devRef .tc main_arg12) = (m ((c : Thread nD τ).loc main_arg12)) :=
  (keep_hostOps0_arg12 (W0 (F := Ideal) m ρ c)).trans (at0_arg12 m ρ c)

theorem at1_arg11 : W1 (F := Ideal) m ρ c (Proc.devRef .tc main_arg11) = (m ((c : Thread nD τ).loc main_arg11)) :=
  (keep_hostOps0_arg11 (W0 (F := Ideal) m ρ c)).trans (at0_arg11 m ρ c)

theorem at1_arg10 : W1 (F := Ideal) m ρ c (Proc.devRef .tc main_arg10) = (m ((c : Thread nD τ).loc main_arg10)) :=
  (keep_hostOps0_arg10 (W0 (F := Ideal) m ρ c)).trans (at0_arg10 m ρ c)

theorem at1_arg8 : W1 (F := Ideal) m ρ c (Proc.devRef .tc main_arg8) = (m ((c : Thread nD τ).loc main_arg8)) :=
  (keep_hostOps0_arg8 (W0 (F := Ideal) m ρ c)).trans (at0_arg8 m ρ c)

theorem at1_arg9 : W1 (F := Ideal) m ρ c (Proc.devRef .tc main_arg9) = (m ((c : Thread nD τ).loc main_arg9)) :=
  (keep_hostOps0_arg9 (W0 (F := Ideal) m ρ c)).trans (at0_arg9 m ρ c)

theorem at1_arg7 : W1 (F := Ideal) m ρ c (Proc.devRef .tc main_arg7) = (m ((c : Thread nD τ).loc main_arg7)) :=
  (keep_hostOps0_arg7 (W0 (F := Ideal) m ρ c)).trans (at0_arg7 m ρ c)

theorem at1_arg6 : W1 (F := Ideal) m ρ c (Proc.devRef .tc main_arg6) = (m ((c : Thread nD τ).loc main_arg6)) :=
  (keep_hostOps0_arg6 (W0 (F := Ideal) m ρ c)).trans (at0_arg6 m ρ c)

theorem at1_arg4 : W1 (F := Ideal) m ρ c (Proc.devRef .tc main_arg4) = (m ((c : Thread nD τ).loc main_arg4)) :=
  (keep_hostOps0_arg4 (W0 (F := Ideal) m ρ c)).trans (at0_arg4 m ρ c)

theorem at1_arg5 : W1 (F := Ideal) m ρ c (Proc.devRef .tc main_arg5) = (m ((c : Thread nD τ).loc main_arg5)) :=
  (keep_hostOps0_arg5 (W0 (F := Ideal) m ρ c)).trans (at0_arg5 m ρ c)

theorem at1_arg3 : W1 (F := Ideal) m ρ c (Proc.devRef .tc main_arg3) = (m ((c : Thread nD τ).loc main_arg3)) :=
  (keep_hostOps0_arg3 (W0 (F := Ideal) m ρ c)).trans (at0_arg3 m ρ c)

theorem at1_arg2 : W1 (F := Ideal) m ρ c (Proc.devRef .tc main_arg2) = (m ((c : Thread nD τ).loc main_arg2)) :=
  (keep_hostOps0_arg2 (W0 (F := Ideal) m ρ c)).trans (at0_arg2 m ρ c)

/-! ## Boundary 2 -/

theorem at2_v1 : W2 (F := Ideal) m ρ c (Proc.devRef .tc main_v1) = W1 (F := Ideal) m ρ c (Proc.devRef .tc main_v1) :=
  (W2_of_ne (F := Ideal) m ρ c main_v1 (by decide)).trans (at1_v1 m ρ c)

theorem at2_v3 : W2 (F := Ideal) m ρ c (Proc.devRef .tc main_v3) = W1 (F := Ideal) m ρ c (Proc.devRef .tc main_v3) :=
  (W2_of_ne (F := Ideal) m ρ c main_v3 (by decide)).trans (at1_v3 m ρ c)

theorem at2_v25 : W2 (F := Ideal) m ρ c (Proc.devRef .tc main_v25) = W1 (F := Ideal) m ρ c (Proc.devRef .tc main_v25) :=
  (W2_of_ne (F := Ideal) m ρ c main_v25 (by decide)).trans (at1_v25 m ρ c)

theorem at2_v26 : W2 (F := Ideal) m ρ c (Proc.devRef .tc main_v26) = W1 (F := Ideal) m ρ c (Proc.devRef .tc main_v26) :=
  (W2_of_ne (F := Ideal) m ρ c main_v26 (by decide)).trans (at1_v26 m ρ c)

theorem at2_arg21 : W2 (F := Ideal) m ρ c (Proc.devRef .tc main_arg21) = (m ((c : Thread nD τ).loc main_arg21)) :=
  (W2_of_ne (F := Ideal) m ρ c main_arg21 (by decide)).trans (at1_arg21 m ρ c)

theorem at2_arg20 : W2 (F := Ideal) m ρ c (Proc.devRef .tc main_arg20) = (m ((c : Thread nD τ).loc main_arg20)) :=
  (W2_of_ne (F := Ideal) m ρ c main_arg20 (by decide)).trans (at1_arg20 m ρ c)

theorem at2_arg18 : W2 (F := Ideal) m ρ c (Proc.devRef .tc main_arg18) = (m ((c : Thread nD τ).loc main_arg18)) :=
  (W2_of_ne (F := Ideal) m ρ c main_arg18 (by decide)).trans (at1_arg18 m ρ c)

theorem at2_arg19 : W2 (F := Ideal) m ρ c (Proc.devRef .tc main_arg19) = (m ((c : Thread nD τ).loc main_arg19)) :=
  (W2_of_ne (F := Ideal) m ρ c main_arg19 (by decide)).trans (at1_arg19 m ρ c)

theorem at2_arg17 : W2 (F := Ideal) m ρ c (Proc.devRef .tc main_arg17) = (m ((c : Thread nD τ).loc main_arg17)) :=
  (W2_of_ne (F := Ideal) m ρ c main_arg17 (by decide)).trans (at1_arg17 m ρ c)

theorem at2_arg16 : W2 (F := Ideal) m ρ c (Proc.devRef .tc main_arg16) = (m ((c : Thread nD τ).loc main_arg16)) :=
  (W2_of_ne (F := Ideal) m ρ c main_arg16 (by decide)).trans (at1_arg16 m ρ c)

theorem at2_arg14 : W2 (F := Ideal) m ρ c (Proc.devRef .tc main_arg14) = (m ((c : Thread nD τ).loc main_arg14)) :=
  (W2_of_ne (F := Ideal) m ρ c main_arg14 (by decide)).trans (at1_arg14 m ρ c)

theorem at2_arg15 : W2 (F := Ideal) m ρ c (Proc.devRef .tc main_arg15) = (m ((c : Thread nD τ).loc main_arg15)) :=
  (W2_of_ne (F := Ideal) m ρ c main_arg15 (by decide)).trans (at1_arg15 m ρ c)

theorem at2_arg13 : W2 (F := Ideal) m ρ c (Proc.devRef .tc main_arg13) = (m ((c : Thread nD τ).loc main_arg13)) :=
  (W2_of_ne (F := Ideal) m ρ c main_arg13 (by decide)).trans (at1_arg13 m ρ c)

theorem at2_arg0 : W2 (F := Ideal) m ρ c (Proc.devRef .tc main_arg0) = (m ((c : Thread nD τ).loc main_arg0)) :=
  ((W2_arr (F := Ideal) m ρ c 0).trans (((dat0 (V1 (F := Ideal) m ρ) c).arrAt_in 0 rfl _).trans (A_eq0 (V1 (F := Ideal) m ρ) c 0))).trans (at1_arg0 m ρ c)

theorem at2_arg12 : W2 (F := Ideal) m ρ c (Proc.devRef .tc main_arg12) = (m ((c : Thread nD τ).loc main_arg12)) :=
  (W2_of_ne (F := Ideal) m ρ c main_arg12 (by decide)).trans (at1_arg12 m ρ c)

theorem at2_arg11 : W2 (F := Ideal) m ρ c (Proc.devRef .tc main_arg11) = (m ((c : Thread nD τ).loc main_arg11)) :=
  (W2_of_ne (F := Ideal) m ρ c main_arg11 (by decide)).trans (at1_arg11 m ρ c)

theorem at2_arg10 : W2 (F := Ideal) m ρ c (Proc.devRef .tc main_arg10) = (m ((c : Thread nD τ).loc main_arg10)) :=
  (W2_of_ne (F := Ideal) m ρ c main_arg10 (by decide)).trans (at1_arg10 m ρ c)

theorem at2_arg8 : W2 (F := Ideal) m ρ c (Proc.devRef .tc main_arg8) = (m ((c : Thread nD τ).loc main_arg8)) :=
  (W2_of_ne (F := Ideal) m ρ c main_arg8 (by decide)).trans (at1_arg8 m ρ c)

theorem at2_arg9 : W2 (F := Ideal) m ρ c (Proc.devRef .tc main_arg9) = (m ((c : Thread nD τ).loc main_arg9)) :=
  (W2_of_ne (F := Ideal) m ρ c main_arg9 (by decide)).trans (at1_arg9 m ρ c)

theorem at2_arg7 : W2 (F := Ideal) m ρ c (Proc.devRef .tc main_arg7) = (m ((c : Thread nD τ).loc main_arg7)) :=
  (W2_of_ne (F := Ideal) m ρ c main_arg7 (by decide)).trans (at1_arg7 m ρ c)

theorem at2_arg6 : W2 (F := Ideal) m ρ c (Proc.devRef .tc main_arg6) = (m ((c : Thread nD τ).loc main_arg6)) :=
  (W2_of_ne (F := Ideal) m ρ c main_arg6 (by decide)).trans (at1_arg6 m ρ c)

theorem at2_arg4 : W2 (F := Ideal) m ρ c (Proc.devRef .tc main_arg4) = (m ((c : Thread nD τ).loc main_arg4)) :=
  (W2_of_ne (F := Ideal) m ρ c main_arg4 (by decide)).trans (at1_arg4 m ρ c)

theorem at2_arg5 : W2 (F := Ideal) m ρ c (Proc.devRef .tc main_arg5) = (m ((c : Thread nD τ).loc main_arg5)) :=
  (W2_of_ne (F := Ideal) m ρ c main_arg5 (by decide)).trans (at1_arg5 m ρ c)

theorem at2_v27 : W2 (F := Ideal) m ρ c (Proc.devRef .tc main_v27) = XW1 m ρ c :=
  (W2_arr (F := Ideal) m ρ c 2).trans ((RegVal.mm0 (V1 (F := Ideal) m ρ) c).trans (by unfold XW1; exact congrArg₂ mm (at1_arg0 m ρ c) (at1_arg2 m ρ c)))

theorem at2_arg3 : W2 (F := Ideal) m ρ c (Proc.devRef .tc main_arg3) = (m ((c : Thread nD τ).loc main_arg3)) :=
  (W2_of_ne (F := Ideal) m ρ c main_arg3 (by decide)).trans (at1_arg3 m ρ c)

/-! ## Boundary 3 -/

theorem at3_v1 : W3 (F := Ideal) m ρ c (Proc.devRef .tc main_v1) = W1 (F := Ideal) m ρ c (Proc.devRef .tc main_v1) :=
  (keep_hostOps1_v1 (W2 (F := Ideal) m ρ c)).trans (at2_v1 m ρ c)

theorem at3_v3 : W3 (F := Ideal) m ρ c (Proc.devRef .tc main_v3) = W1 (F := Ideal) m ρ c (Proc.devRef .tc main_v3) :=
  (keep_hostOps1_v3 (W2 (F := Ideal) m ρ c)).trans (at2_v3 m ρ c)

theorem at3_v25 : W3 (F := Ideal) m ρ c (Proc.devRef .tc main_v25) = W1 (F := Ideal) m ρ c (Proc.devRef .tc main_v25) :=
  (keep_hostOps1_v25 (W2 (F := Ideal) m ρ c)).trans (at2_v25 m ρ c)

theorem at3_v26 : W3 (F := Ideal) m ρ c (Proc.devRef .tc main_v26) = W1 (F := Ideal) m ρ c (Proc.devRef .tc main_v26) :=
  (keep_hostOps1_v26 (W2 (F := Ideal) m ρ c)).trans (at2_v26 m ρ c)

theorem at3_arg21 : W3 (F := Ideal) m ρ c (Proc.devRef .tc main_arg21) = (m ((c : Thread nD τ).loc main_arg21)) :=
  (keep_hostOps1_arg21 (W2 (F := Ideal) m ρ c)).trans (at2_arg21 m ρ c)

theorem at3_arg20 : W3 (F := Ideal) m ρ c (Proc.devRef .tc main_arg20) = (m ((c : Thread nD τ).loc main_arg20)) :=
  (keep_hostOps1_arg20 (W2 (F := Ideal) m ρ c)).trans (at2_arg20 m ρ c)

theorem at3_arg18 : W3 (F := Ideal) m ρ c (Proc.devRef .tc main_arg18) = (m ((c : Thread nD τ).loc main_arg18)) :=
  (keep_hostOps1_arg18 (W2 (F := Ideal) m ρ c)).trans (at2_arg18 m ρ c)

theorem at3_arg19 : W3 (F := Ideal) m ρ c (Proc.devRef .tc main_arg19) = (m ((c : Thread nD τ).loc main_arg19)) :=
  (keep_hostOps1_arg19 (W2 (F := Ideal) m ρ c)).trans (at2_arg19 m ρ c)

theorem at3_arg17 : W3 (F := Ideal) m ρ c (Proc.devRef .tc main_arg17) = (m ((c : Thread nD τ).loc main_arg17)) :=
  (keep_hostOps1_arg17 (W2 (F := Ideal) m ρ c)).trans (at2_arg17 m ρ c)

theorem at3_arg16 : W3 (F := Ideal) m ρ c (Proc.devRef .tc main_arg16) = (m ((c : Thread nD τ).loc main_arg16)) :=
  (keep_hostOps1_arg16 (W2 (F := Ideal) m ρ c)).trans (at2_arg16 m ρ c)

theorem at3_arg14 : W3 (F := Ideal) m ρ c (Proc.devRef .tc main_arg14) = (m ((c : Thread nD τ).loc main_arg14)) :=
  (keep_hostOps1_arg14 (W2 (F := Ideal) m ρ c)).trans (at2_arg14 m ρ c)

theorem at3_arg15 : W3 (F := Ideal) m ρ c (Proc.devRef .tc main_arg15) = (m ((c : Thread nD τ).loc main_arg15)) :=
  (keep_hostOps1_arg15 (W2 (F := Ideal) m ρ c)).trans (at2_arg15 m ρ c)

theorem at3_arg13 : W3 (F := Ideal) m ρ c (Proc.devRef .tc main_arg13) = (m ((c : Thread nD τ).loc main_arg13)) :=
  (keep_hostOps1_arg13 (W2 (F := Ideal) m ρ c)).trans (at2_arg13 m ρ c)

theorem at3_arg0 : W3 (F := Ideal) m ρ c (Proc.devRef .tc main_arg0) = (m ((c : Thread nD τ).loc main_arg0)) :=
  (keep_hostOps1_arg0 (W2 (F := Ideal) m ρ c)).trans (at2_arg0 m ρ c)

theorem at3_arg12 : W3 (F := Ideal) m ρ c (Proc.devRef .tc main_arg12) = (m ((c : Thread nD τ).loc main_arg12)) :=
  (keep_hostOps1_arg12 (W2 (F := Ideal) m ρ c)).trans (at2_arg12 m ρ c)

theorem at3_arg11 : W3 (F := Ideal) m ρ c (Proc.devRef .tc main_arg11) = (m ((c : Thread nD τ).loc main_arg11)) :=
  (keep_hostOps1_arg11 (W2 (F := Ideal) m ρ c)).trans (at2_arg11 m ρ c)

theorem at3_arg10 : W3 (F := Ideal) m ρ c (Proc.devRef .tc main_arg10) = (m ((c : Thread nD τ).loc main_arg10)) :=
  (keep_hostOps1_arg10 (W2 (F := Ideal) m ρ c)).trans (at2_arg10 m ρ c)

theorem at3_arg8 : W3 (F := Ideal) m ρ c (Proc.devRef .tc main_arg8) = (m ((c : Thread nD τ).loc main_arg8)) :=
  (keep_hostOps1_arg8 (W2 (F := Ideal) m ρ c)).trans (at2_arg8 m ρ c)

theorem at3_arg9 : W3 (F := Ideal) m ρ c (Proc.devRef .tc main_arg9) = (m ((c : Thread nD τ).loc main_arg9)) :=
  (keep_hostOps1_arg9 (W2 (F := Ideal) m ρ c)).trans (at2_arg9 m ρ c)

theorem at3_arg7 : W3 (F := Ideal) m ρ c (Proc.devRef .tc main_arg7) = (m ((c : Thread nD τ).loc main_arg7)) :=
  (keep_hostOps1_arg7 (W2 (F := Ideal) m ρ c)).trans (at2_arg7 m ρ c)

theorem at3_arg6 : W3 (F := Ideal) m ρ c (Proc.devRef .tc main_arg6) = (m ((c : Thread nD τ).loc main_arg6)) :=
  (keep_hostOps1_arg6 (W2 (F := Ideal) m ρ c)).trans (at2_arg6 m ρ c)

theorem at3_arg4 : W3 (F := Ideal) m ρ c (Proc.devRef .tc main_arg4) = (m ((c : Thread nD τ).loc main_arg4)) :=
  (keep_hostOps1_arg4 (W2 (F := Ideal) m ρ c)).trans (at2_arg4 m ρ c)

theorem at3_arg5 : W3 (F := Ideal) m ρ c (Proc.devRef .tc main_arg5) = (m ((c : Thread nD τ).loc main_arg5)) :=
  (keep_hostOps1_arg5 (W2 (F := Ideal) m ρ c)).trans (at2_arg5 m ρ c)

theorem at3_v40 : W3 (F := Ideal) m ρ c (Proc.devRef .tc main_v40) = aggregate (G m ρ c).g128 (G m ρ c).s128 (G m ρ c).ne (XW1 m ρ c) :=
  by
  show StableHlo.after (hostOps1 (F := Ideal)) (W2 (F := Ideal) m ρ c) (Proc.devRef .tc main_v40) = _
  rw [msg1, at2_v1 m ρ c, at2_v3 m ρ c, at2_v25 m ρ c, at2_v27 m ρ c]
  rfl

theorem at3_v27 : W3 (F := Ideal) m ρ c (Proc.devRef .tc main_v27) = XW1 m ρ c :=
  (keep_hostOps1_v27 (W2 (F := Ideal) m ρ c)).trans (at2_v27 m ρ c)

theorem at3_v41 : ∀ p : Fin 50000, (W3 (F := Ideal) m ρ c (Proc.devRef .tc main_v41) : Mat 50000 1) (ix2 p 0) = (G m ρ c).ns p :=
  fun p => (msg1_ns (W2 (F := Ideal) m ρ c) p).trans (by rw [at2_v26 m ρ c]; rfl)

theorem at3_v42 : ∀ q : Fin 128, (W3 (F := Ideal) m ρ c (Proc.devRef .tc main_v42) : Mat 1 128) (ix2 0 q) = (fun q => ((m ((c : Thread nD τ).loc main_arg3)) : S128.Idx → EReal) (ix1 q)) q :=
  fun q => (msg1_b (W2 (F := Ideal) m ρ c) q).trans (by rw [at2_arg3 m ρ c])

/-! ## Boundary 4 -/

theorem at4_v1 : W4 (F := Ideal) m ρ c (Proc.devRef .tc main_v1) = W1 (F := Ideal) m ρ c (Proc.devRef .tc main_v1) :=
  (W4_of_ne (F := Ideal) m ρ c main_v1 (by decide)).trans (at3_v1 m ρ c)

theorem at4_v3 : W4 (F := Ideal) m ρ c (Proc.devRef .tc main_v3) = W1 (F := Ideal) m ρ c (Proc.devRef .tc main_v3) :=
  (W4_of_ne (F := Ideal) m ρ c main_v3 (by decide)).trans (at3_v3 m ρ c)

theorem at4_v25 : W4 (F := Ideal) m ρ c (Proc.devRef .tc main_v25) = W1 (F := Ideal) m ρ c (Proc.devRef .tc main_v25) :=
  (W4_of_ne (F := Ideal) m ρ c main_v25 (by decide)).trans (at3_v25 m ρ c)

theorem at4_v26 : W4 (F := Ideal) m ρ c (Proc.devRef .tc main_v26) = W1 (F := Ideal) m ρ c (Proc.devRef .tc main_v26) :=
  (W4_of_ne (F := Ideal) m ρ c main_v26 (by decide)).trans (at3_v26 m ρ c)

theorem at4_arg21 : W4 (F := Ideal) m ρ c (Proc.devRef .tc main_arg21) = (m ((c : Thread nD τ).loc main_arg21)) :=
  (W4_of_ne (F := Ideal) m ρ c main_arg21 (by decide)).trans (at3_arg21 m ρ c)

theorem at4_arg20 : W4 (F := Ideal) m ρ c (Proc.devRef .tc main_arg20) = (m ((c : Thread nD τ).loc main_arg20)) :=
  (W4_of_ne (F := Ideal) m ρ c main_arg20 (by decide)).trans (at3_arg20 m ρ c)

theorem at4_arg18 : W4 (F := Ideal) m ρ c (Proc.devRef .tc main_arg18) = (m ((c : Thread nD τ).loc main_arg18)) :=
  (W4_of_ne (F := Ideal) m ρ c main_arg18 (by decide)).trans (at3_arg18 m ρ c)

theorem at4_arg19 : W4 (F := Ideal) m ρ c (Proc.devRef .tc main_arg19) = (m ((c : Thread nD τ).loc main_arg19)) :=
  (W4_of_ne (F := Ideal) m ρ c main_arg19 (by decide)).trans (at3_arg19 m ρ c)

theorem at4_arg17 : W4 (F := Ideal) m ρ c (Proc.devRef .tc main_arg17) = (m ((c : Thread nD τ).loc main_arg17)) :=
  (W4_of_ne (F := Ideal) m ρ c main_arg17 (by decide)).trans (at3_arg17 m ρ c)

theorem at4_arg16 : W4 (F := Ideal) m ρ c (Proc.devRef .tc main_arg16) = (m ((c : Thread nD τ).loc main_arg16)) :=
  (W4_of_ne (F := Ideal) m ρ c main_arg16 (by decide)).trans (at3_arg16 m ρ c)

theorem at4_arg14 : W4 (F := Ideal) m ρ c (Proc.devRef .tc main_arg14) = (m ((c : Thread nD τ).loc main_arg14)) :=
  (W4_of_ne (F := Ideal) m ρ c main_arg14 (by decide)).trans (at3_arg14 m ρ c)

theorem at4_arg15 : W4 (F := Ideal) m ρ c (Proc.devRef .tc main_arg15) = (m ((c : Thread nD τ).loc main_arg15)) :=
  (W4_of_ne (F := Ideal) m ρ c main_arg15 (by decide)).trans (at3_arg15 m ρ c)

theorem at4_arg13 : W4 (F := Ideal) m ρ c (Proc.devRef .tc main_arg13) = (m ((c : Thread nD τ).loc main_arg13)) :=
  (W4_of_ne (F := Ideal) m ρ c main_arg13 (by decide)).trans (at3_arg13 m ρ c)

theorem at4_arg0 : W4 (F := Ideal) m ρ c (Proc.devRef .tc main_arg0) = (m ((c : Thread nD τ).loc main_arg0)) :=
  (W4_of_ne (F := Ideal) m ρ c main_arg0 (by decide)).trans (at3_arg0 m ρ c)

theorem at4_arg12 : W4 (F := Ideal) m ρ c (Proc.devRef .tc main_arg12) = (m ((c : Thread nD τ).loc main_arg12)) :=
  (W4_of_ne (F := Ideal) m ρ c main_arg12 (by decide)).trans (at3_arg12 m ρ c)

theorem at4_arg11 : W4 (F := Ideal) m ρ c (Proc.devRef .tc main_arg11) = (m ((c : Thread nD τ).loc main_arg11)) :=
  (W4_of_ne (F := Ideal) m ρ c main_arg11 (by decide)).trans (at3_arg11 m ρ c)

theorem at4_arg10 : W4 (F := Ideal) m ρ c (Proc.devRef .tc main_arg10) = (m ((c : Thread nD τ).loc main_arg10)) :=
  (W4_of_ne (F := Ideal) m ρ c main_arg10 (by decide)).trans (at3_arg10 m ρ c)

theorem at4_arg8 : W4 (F := Ideal) m ρ c (Proc.devRef .tc main_arg8) = (m ((c : Thread nD τ).loc main_arg8)) :=
  (W4_of_ne (F := Ideal) m ρ c main_arg8 (by decide)).trans (at3_arg8 m ρ c)

theorem at4_arg9 : W4 (F := Ideal) m ρ c (Proc.devRef .tc main_arg9) = (m ((c : Thread nD τ).loc main_arg9)) :=
  (W4_of_ne (F := Ideal) m ρ c main_arg9 (by decide)).trans (at3_arg9 m ρ c)

theorem at4_arg7 : W4 (F := Ideal) m ρ c (Proc.devRef .tc main_arg7) = (m ((c : Thread nD τ).loc main_arg7)) :=
  (W4_of_ne (F := Ideal) m ρ c main_arg7 (by decide)).trans (at3_arg7 m ρ c)

theorem at4_arg6 : W4 (F := Ideal) m ρ c (Proc.devRef .tc main_arg6) = (m ((c : Thread nD τ).loc main_arg6)) :=
  (W4_of_ne (F := Ideal) m ρ c main_arg6 (by decide)).trans (at3_arg6 m ρ c)

theorem at4_v43_0 : W4 (F := Ideal) m ρ c (Proc.devRef .tc main_v43_0) = C1 m ρ c :=
  (W4_arr (F := Ideal) m ρ c 4).trans ((RegVal.stats1_out (V3 (F := Ideal) m ρ) c).trans (show RegVal.OUT1 (V3 (F := Ideal) m ρ) c = C1 m ρ c from by unfold RegVal.OUT1 C1 conv; exact combine_congr (at3_v40 m ρ c) (at3_v27 m ρ c) (funext (at3_v41 m ρ c)) (funext (at3_v42 m ρ c))))

theorem at4_v43_1 : ∀ q : Fin 128, (W4 (F := Ideal) m ρ c (Proc.devRef .tc main_v43_1) : Mat 1 128) (ix2 0 q) = colsum (C1 m ρ c) q :=
  fun q => by
  rw [show W4 (F := Ideal) m ρ c (Proc.devRef .tc main_v43_1) = _ from (W4_arr (F := Ideal) m ρ c 5), RegVal.stats1_sum (V3 (F := Ideal) m ρ) c, (show RegVal.OUT1 (V3 (F := Ideal) m ρ) c = C1 m ρ c from by unfold RegVal.OUT1 C1 conv; exact combine_congr (at3_v40 m ρ c) (at3_v27 m ρ c) (funext (at3_v41 m ρ c)) (funext (at3_v42 m ρ c)))]

theorem at4_v43_2 : ∀ q : Fin 128, (W4 (F := Ideal) m ρ c (Proc.devRef .tc main_v43_2) : Mat 1 128) (ix2 0 q) = colsumsq (C1 m ρ c) q :=
  fun q => by
  rw [show W4 (F := Ideal) m ρ c (Proc.devRef .tc main_v43_2) = _ from (W4_arr (F := Ideal) m ρ c 6), RegVal.stats1_sumsq (V3 (F := Ideal) m ρ) c, (show RegVal.OUT1 (V3 (F := Ideal) m ρ) c = C1 m ρ c from by unfold RegVal.OUT1 C1 conv; exact combine_congr (at3_v40 m ρ c) (at3_v27 m ρ c) (funext (at3_v41 m ρ c)) (funext (at3_v42 m ρ c)))]

theorem at4_arg4 : W4 (F := Ideal) m ρ c (Proc.devRef .tc main_arg4) = (m ((c : Thread nD τ).loc main_arg4)) :=
  (W4_of_ne (F := Ideal) m ρ c main_arg4 (by decide)).trans (at3_arg4 m ρ c)

theorem at4_arg5 : W4 (F := Ideal) m ρ c (Proc.devRef .tc main_arg5) = (m ((c : Thread nD τ).loc main_arg5)) :=
  (W4_of_ne (F := Ideal) m ρ c main_arg5 (by decide)).trans (at3_arg5 m ρ c)

/-! ## Boundary 5 -/

theorem at5_v1 : W5 (F := Ideal) m ρ c (Proc.devRef .tc main_v1) = W1 (F := Ideal) m ρ c (Proc.devRef .tc main_v1) :=
  (keep_hostOps2_v1 (W4 (F := Ideal) m ρ c)).trans (at4_v1 m ρ c)

theorem at5_v3 : W5 (F := Ideal) m ρ c (Proc.devRef .tc main_v3) = W1 (F := Ideal) m ρ c (Proc.devRef .tc main_v3) :=
  (keep_hostOps2_v3 (W4 (F := Ideal) m ρ c)).trans (at4_v3 m ρ c)

theorem at5_v25 : W5 (F := Ideal) m ρ c (Proc.devRef .tc main_v25) = W1 (F := Ideal) m ρ c (Proc.devRef .tc main_v25) :=
  (keep_hostOps2_v25 (W4 (F := Ideal) m ρ c)).trans (at4_v25 m ρ c)

theorem at5_v26 : W5 (F := Ideal) m ρ c (Proc.devRef .tc main_v26) = W1 (F := Ideal) m ρ c (Proc.devRef .tc main_v26) :=
  (keep_hostOps2_v26 (W4 (F := Ideal) m ρ c)).trans (at4_v26 m ρ c)

theorem at5_arg21 : W5 (F := Ideal) m ρ c (Proc.devRef .tc main_arg21) = (m ((c : Thread nD τ).loc main_arg21)) :=
  (keep_hostOps2_arg21 (W4 (F := Ideal) m ρ c)).trans (at4_arg21 m ρ c)

theorem at5_arg20 : W5 (F := Ideal) m ρ c (Proc.devRef .tc main_arg20) = (m ((c : Thread nD τ).loc main_arg20)) :=
  (keep_hostOps2_arg20 (W4 (F := Ideal) m ρ c)).trans (at4_arg20 m ρ c)

theorem at5_arg18 : W5 (F := Ideal) m ρ c (Proc.devRef .tc main_arg18) = (m ((c : Thread nD τ).loc main_arg18)) :=
  (keep_hostOps2_arg18 (W4 (F := Ideal) m ρ c)).trans (at4_arg18 m ρ c)

theorem at5_arg19 : W5 (F := Ideal) m ρ c (Proc.devRef .tc main_arg19) = (m ((c : Thread nD τ).loc main_arg19)) :=
  (keep_hostOps2_arg19 (W4 (F := Ideal) m ρ c)).trans (at4_arg19 m ρ c)

theorem at5_arg17 : W5 (F := Ideal) m ρ c (Proc.devRef .tc main_arg17) = (m ((c : Thread nD τ).loc main_arg17)) :=
  (keep_hostOps2_arg17 (W4 (F := Ideal) m ρ c)).trans (at4_arg17 m ρ c)

theorem at5_arg16 : W5 (F := Ideal) m ρ c (Proc.devRef .tc main_arg16) = (m ((c : Thread nD τ).loc main_arg16)) :=
  (keep_hostOps2_arg16 (W4 (F := Ideal) m ρ c)).trans (at4_arg16 m ρ c)

theorem at5_arg14 : W5 (F := Ideal) m ρ c (Proc.devRef .tc main_arg14) = (m ((c : Thread nD τ).loc main_arg14)) :=
  (keep_hostOps2_arg14 (W4 (F := Ideal) m ρ c)).trans (at4_arg14 m ρ c)

theorem at5_arg15 : W5 (F := Ideal) m ρ c (Proc.devRef .tc main_arg15) = (m ((c : Thread nD τ).loc main_arg15)) :=
  (keep_hostOps2_arg15 (W4 (F := Ideal) m ρ c)).trans (at4_arg15 m ρ c)

theorem at5_arg13 : W5 (F := Ideal) m ρ c (Proc.devRef .tc main_arg13) = (m ((c : Thread nD τ).loc main_arg13)) :=
  (keep_hostOps2_arg13 (W4 (F := Ideal) m ρ c)).trans (at4_arg13 m ρ c)

theorem at5_arg0 : W5 (F := Ideal) m ρ c (Proc.devRef .tc main_arg0) = (m ((c : Thread nD τ).loc main_arg0)) :=
  (keep_hostOps2_arg0 (W4 (F := Ideal) m ρ c)).trans (at4_arg0 m ρ c)

theorem at5_arg12 : W5 (F := Ideal) m ρ c (Proc.devRef .tc main_arg12) = (m ((c : Thread nD τ).loc main_arg12)) :=
  (keep_hostOps2_arg12 (W4 (F := Ideal) m ρ c)).trans (at4_arg12 m ρ c)

theorem at5_arg11 : W5 (F := Ideal) m ρ c (Proc.devRef .tc main_arg11) = (m ((c : Thread nD τ).loc main_arg11)) :=
  (keep_hostOps2_arg11 (W4 (F := Ideal) m ρ c)).trans (at4_arg11 m ρ c)

theorem at5_arg10 : W5 (F := Ideal) m ρ c (Proc.devRef .tc main_arg10) = (m ((c : Thread nD τ).loc main_arg10)) :=
  (keep_hostOps2_arg10 (W4 (F := Ideal) m ρ c)).trans (at4_arg10 m ρ c)

theorem at5_arg8 : W5 (F := Ideal) m ρ c (Proc.devRef .tc main_arg8) = (m ((c : Thread nD τ).loc main_arg8)) :=
  (keep_hostOps2_arg8 (W4 (F := Ideal) m ρ c)).trans (at4_arg8 m ρ c)

theorem at5_arg9 : W5 (F := Ideal) m ρ c (Proc.devRef .tc main_arg9) = (m ((c : Thread nD τ).loc main_arg9)) :=
  (keep_hostOps2_arg9 (W4 (F := Ideal) m ρ c)).trans (at4_arg9 m ρ c)

theorem at5_arg7 : W5 (F := Ideal) m ρ c (Proc.devRef .tc main_arg7) = (m ((c : Thread nD τ).loc main_arg7)) :=
  (keep_hostOps2_arg7 (W4 (F := Ideal) m ρ c)).trans (at4_arg7 m ρ c)

theorem at5_arg6 : W5 (F := Ideal) m ρ c (Proc.devRef .tc main_arg6) = (m ((c : Thread nD τ).loc main_arg6)) :=
  (keep_hostOps2_arg6 (W4 (F := Ideal) m ρ c)).trans (at4_arg6 m ρ c)

theorem at5_v43_0 : W5 (F := Ideal) m ρ c (Proc.devRef .tc main_v43_0) = C1 m ρ c :=
  (keep_hostOps2_v43_0 (W4 (F := Ideal) m ρ c)).trans (at4_v43_0 m ρ c)

theorem at5_v52 : ∀ q : Fin 128, (W5 (F := Ideal) m ρ c (Proc.devRef .tc main_v52) : Mat 1 128) (ix2 0 q) = mean (C1 m ρ c) (Ideal.ofBits .f32 0x47435000#32) q :=
  fun q => (stat2_mean (W4 (F := Ideal) m ρ c) q).trans (by rw [at4_v43_1 m ρ c q]; rfl)

theorem at5_v53 : ∀ q : Fin 128, (W5 (F := Ideal) m ρ c (Proc.devRef .tc main_v53) : Mat 1 128) (ix2 0 q) = varSq (C1 m ρ c) (Ideal.ofBits .f32 0x47435000#32) q :=
  fun q => (stat2_var (W4 (F := Ideal) m ρ c) q).trans (by rw [at4_v43_2 m ρ c q, at4_v43_1 m ρ c q]; rfl)

theorem at5_v54 : ∀ q : Fin 128, (W5 (F := Ideal) m ρ c (Proc.devRef .tc main_v54) : Mat 1 128) (ix2 0 q) = (fun q => ((m ((c : Thread nD τ).loc main_arg4)) : S128.Idx → EReal) (ix1 q)) q :=
  fun q => (stat2_g (W4 (F := Ideal) m ρ c) q).trans (by rw [at4_arg4 m ρ c])

theorem at5_v55 : ∀ q : Fin 128, (W5 (F := Ideal) m ρ c (Proc.devRef .tc main_v55) : Mat 1 128) (ix2 0 q) = (fun q => ((m ((c : Thread nD τ).loc main_arg5)) : S128.Idx → EReal) (ix1 q)) q :=
  fun q => (stat2_be (W4 (F := Ideal) m ρ c) q).trans (by rw [at4_arg5 m ρ c])

/-! ## Boundary 6 -/

theorem at6_v1 : W6 (F := Ideal) m ρ c (Proc.devRef .tc main_v1) = W1 (F := Ideal) m ρ c (Proc.devRef .tc main_v1) :=
  (W6_of_ne (F := Ideal) m ρ c main_v1 (by decide)).trans (at5_v1 m ρ c)

theorem at6_v3 : W6 (F := Ideal) m ρ c (Proc.devRef .tc main_v3) = W1 (F := Ideal) m ρ c (Proc.devRef .tc main_v3) :=
  (W6_of_ne (F := Ideal) m ρ c main_v3 (by decide)).trans (at5_v3 m ρ c)

theorem at6_v25 : W6 (F := Ideal) m ρ c (Proc.devRef .tc main_v25) = W1 (F := Ideal) m ρ c (Proc.devRef .tc main_v25) :=
  (W6_of_ne (F := Ideal) m ρ c main_v25 (by decide)).trans (at5_v25 m ρ c)

theorem at6_v26 : W6 (F := Ideal) m ρ c (Proc.devRef .tc main_v26) = W1 (F := Ideal) m ρ c (Proc.devRef .tc main_v26) :=
  (W6_of_ne (F := Ideal) m ρ c main_v26 (by decide)).trans (at5_v26 m ρ c)

theorem at6_arg21 : W6 (F := Ideal) m ρ c (Proc.devRef .tc main_arg21) = (m ((c : Thread nD τ).loc main_arg21)) :=
  (W6_of_ne (F := Ideal) m ρ c main_arg21 (by decide)).trans (at5_arg21 m ρ c)

theorem at6_arg20 : W6 (F := Ideal) m ρ c (Proc.devRef .tc main_arg20) = (m ((c : Thread nD τ).loc main_arg20)) :=
  (W6_of_ne (F := Ideal) m ρ c main_arg20 (by decide)).trans (at5_arg20 m ρ c)

theorem at6_arg18 : W6 (F := Ideal) m ρ c (Proc.devRef .tc main_arg18) = (m ((c : Thread nD τ).loc main_arg18)) :=
  (W6_of_ne (F := Ideal) m ρ c main_arg18 (by decide)).trans (at5_arg18 m ρ c)

theorem at6_arg19 : W6 (F := Ideal) m ρ c (Proc.devRef .tc main_arg19) = (m ((c : Thread nD τ).loc main_arg19)) :=
  (W6_of_ne (F := Ideal) m ρ c main_arg19 (by decide)).trans (at5_arg19 m ρ c)

theorem at6_arg17 : W6 (F := Ideal) m ρ c (Proc.devRef .tc main_arg17) = (m ((c : Thread nD τ).loc main_arg17)) :=
  (W6_of_ne (F := Ideal) m ρ c main_arg17 (by decide)).trans (at5_arg17 m ρ c)

theorem at6_arg16 : W6 (F := Ideal) m ρ c (Proc.devRef .tc main_arg16) = (m ((c : Thread nD τ).loc main_arg16)) :=
  (W6_of_ne (F := Ideal) m ρ c main_arg16 (by decide)).trans (at5_arg16 m ρ c)

theorem at6_arg14 : W6 (F := Ideal) m ρ c (Proc.devRef .tc main_arg14) = (m ((c : Thread nD τ).loc main_arg14)) :=
  (W6_of_ne (F := Ideal) m ρ c main_arg14 (by decide)).trans (at5_arg14 m ρ c)

theorem at6_arg15 : W6 (F := Ideal) m ρ c (Proc.devRef .tc main_arg15) = (m ((c : Thread nD τ).loc main_arg15)) :=
  (W6_of_ne (F := Ideal) m ρ c main_arg15 (by decide)).trans (at5_arg15 m ρ c)

theorem at6_arg13 : W6 (F := Ideal) m ρ c (Proc.devRef .tc main_arg13) = (m ((c : Thread nD τ).loc main_arg13)) :=
  (W6_of_ne (F := Ideal) m ρ c main_arg13 (by decide)).trans (at5_arg13 m ρ c)

theorem at6_arg0 : W6 (F := Ideal) m ρ c (Proc.devRef .tc main_arg0) = (m ((c : Thread nD τ).loc main_arg0)) :=
  (W6_of_ne (F := Ideal) m ρ c main_arg0 (by decide)).trans (at5_arg0 m ρ c)

theorem at6_arg12 : W6 (F := Ideal) m ρ c (Proc.devRef .tc main_arg12) = (m ((c : Thread nD τ).loc main_arg12)) :=
  (W6_of_ne (F := Ideal) m ρ c main_arg12 (by decide)).trans (at5_arg12 m ρ c)

theorem at6_arg11 : W6 (F := Ideal) m ρ c (Proc.devRef .tc main_arg11) = (m ((c : Thread nD τ).loc main_arg11)) :=
  (W6_of_ne (F := Ideal) m ρ c main_arg11 (by decide)).trans (at5_arg11 m ρ c)

theorem at6_arg10 : W6 (F := Ideal) m ρ c (Proc.devRef .tc main_arg10) = (m ((c : Thread nD τ).loc main_arg10)) :=
  (W6_of_ne (F := Ideal) m ρ c main_arg10 (by decide)).trans (at5_arg10 m ρ c)

theorem at6_arg8 : W6 (F := Ideal) m ρ c (Proc.devRef .tc main_arg8) = (m ((c : Thread nD τ).loc main_arg8)) :=
  (W6_of_ne (F := Ideal) m ρ c main_arg8 (by decide)).trans (at5_arg8 m ρ c)

theorem at6_arg9 : W6 (F := Ideal) m ρ c (Proc.devRef .tc main_arg9) = (m ((c : Thread nD τ).loc main_arg9)) :=
  (W6_of_ne (F := Ideal) m ρ c main_arg9 (by decide)).trans (at5_arg9 m ρ c)

theorem at6_arg7 : W6 (F := Ideal) m ρ c (Proc.devRef .tc main_arg7) = (m ((c : Thread nD τ).loc main_arg7)) :=
  (W6_of_ne (F := Ideal) m ρ c main_arg7 (by decide)).trans (at5_arg7 m ρ c)

theorem at6_v56 : W6 (F := Ideal) m ρ c (Proc.devRef .tc main_v56) = H1 m ρ c :=
  (W6_arr (F := Ideal) m ρ c 5).trans ((RegVal.bn2 (V5 (F := Ideal) m ρ) c).trans (by unfold H1; exact congrArg relu (bn_congr _ (at5_v43_0 m ρ c) (funext (at5_v52 m ρ c)) (funext (at5_v53 m ρ c)) (funext (at5_v54 m ρ c)) (funext (at5_v55 m ρ c)))))

theorem at6_arg6 : W6 (F := Ideal) m ρ c (Proc.devRef .tc main_arg6) = (m ((c : Thread nD τ).loc main_arg6)) :=
  (W6_of_ne (F := Ideal) m ρ c main_arg6 (by decide)).trans (at5_arg6 m ρ c)

/-! ## Boundary 7 -/

theorem at7_v1 : W7 (F := Ideal) m ρ c (Proc.devRef .tc main_v1) = W1 (F := Ideal) m ρ c (Proc.devRef .tc main_v1) :=
  (W7_of_ne (F := Ideal) m ρ c main_v1 (by decide)).trans (at6_v1 m ρ c)

theorem at7_v3 : W7 (F := Ideal) m ρ c (Proc.devRef .tc main_v3) = W1 (F := Ideal) m ρ c (Proc.devRef .tc main_v3) :=
  (W7_of_ne (F := Ideal) m ρ c main_v3 (by decide)).trans (at6_v3 m ρ c)

theorem at7_v25 : W7 (F := Ideal) m ρ c (Proc.devRef .tc main_v25) = W1 (F := Ideal) m ρ c (Proc.devRef .tc main_v25) :=
  (W7_of_ne (F := Ideal) m ρ c main_v25 (by decide)).trans (at6_v25 m ρ c)

theorem at7_v26 : W7 (F := Ideal) m ρ c (Proc.devRef .tc main_v26) = W1 (F := Ideal) m ρ c (Proc.devRef .tc main_v26) :=
  (W7_of_ne (F := Ideal) m ρ c main_v26 (by decide)).trans (at6_v26 m ρ c)

theorem at7_arg21 : W7 (F := Ideal) m ρ c (Proc.devRef .tc main_arg21) = (m ((c : Thread nD τ).loc main_arg21)) :=
  (W7_of_ne (F := Ideal) m ρ c main_arg21 (by decide)).trans (at6_arg21 m ρ c)

theorem at7_arg20 : W7 (F := Ideal) m ρ c (Proc.devRef .tc main_arg20) = (m ((c : Thread nD τ).loc main_arg20)) :=
  (W7_of_ne (F := Ideal) m ρ c main_arg20 (by decide)).trans (at6_arg20 m ρ c)

theorem at7_arg18 : W7 (F := Ideal) m ρ c (Proc.devRef .tc main_arg18) = (m ((c : Thread nD τ).loc main_arg18)) :=
  (W7_of_ne (F := Ideal) m ρ c main_arg18 (by decide)).trans (at6_arg18 m ρ c)

theorem at7_arg19 : W7 (F := Ideal) m ρ c (Proc.devRef .tc main_arg19) = (m ((c : Thread nD τ).loc main_arg19)) :=
  (W7_of_ne (F := Ideal) m ρ c main_arg19 (by decide)).trans (at6_arg19 m ρ c)

theorem at7_arg17 : W7 (F := Ideal) m ρ c (Proc.devRef .tc main_arg17) = (m ((c : Thread nD τ).loc main_arg17)) :=
  (W7_of_ne (F := Ideal) m ρ c main_arg17 (by decide)).trans (at6_arg17 m ρ c)

theorem at7_arg16 : W7 (F := Ideal) m ρ c (Proc.devRef .tc main_arg16) = (m ((c : Thread nD τ).loc main_arg16)) :=
  (W7_of_ne (F := Ideal) m ρ c main_arg16 (by decide)).trans (at6_arg16 m ρ c)

theorem at7_arg14 : W7 (F := Ideal) m ρ c (Proc.devRef .tc main_arg14) = (m ((c : Thread nD τ).loc main_arg14)) :=
  (W7_of_ne (F := Ideal) m ρ c main_arg14 (by decide)).trans (at6_arg14 m ρ c)

theorem at7_arg15 : W7 (F := Ideal) m ρ c (Proc.devRef .tc main_arg15) = (m ((c : Thread nD τ).loc main_arg15)) :=
  (W7_of_ne (F := Ideal) m ρ c main_arg15 (by decide)).trans (at6_arg15 m ρ c)

theorem at7_arg13 : W7 (F := Ideal) m ρ c (Proc.devRef .tc main_arg13) = (m ((c : Thread nD τ).loc main_arg13)) :=
  (W7_of_ne (F := Ideal) m ρ c main_arg13 (by decide)).trans (at6_arg13 m ρ c)

theorem at7_arg0 : W7 (F := Ideal) m ρ c (Proc.devRef .tc main_arg0) = (m ((c : Thread nD τ).loc main_arg0)) :=
  (W7_of_ne (F := Ideal) m ρ c main_arg0 (by decide)).trans (at6_arg0 m ρ c)

theorem at7_arg12 : W7 (F := Ideal) m ρ c (Proc.devRef .tc main_arg12) = (m ((c : Thread nD τ).loc main_arg12)) :=
  (W7_of_ne (F := Ideal) m ρ c main_arg12 (by decide)).trans (at6_arg12 m ρ c)

theorem at7_arg11 : W7 (F := Ideal) m ρ c (Proc.devRef .tc main_arg11) = (m ((c : Thread nD τ).loc main_arg11)) :=
  (W7_of_ne (F := Ideal) m ρ c main_arg11 (by decide)).trans (at6_arg11 m ρ c)

theorem at7_arg10 : W7 (F := Ideal) m ρ c (Proc.devRef .tc main_arg10) = (m ((c : Thread nD τ).loc main_arg10)) :=
  (W7_of_ne (F := Ideal) m ρ c main_arg10 (by decide)).trans (at6_arg10 m ρ c)

theorem at7_arg8 : W7 (F := Ideal) m ρ c (Proc.devRef .tc main_arg8) = (m ((c : Thread nD τ).loc main_arg8)) :=
  (W7_of_ne (F := Ideal) m ρ c main_arg8 (by decide)).trans (at6_arg8 m ρ c)

theorem at7_arg9 : W7 (F := Ideal) m ρ c (Proc.devRef .tc main_arg9) = (m ((c : Thread nD τ).loc main_arg9)) :=
  (W7_of_ne (F := Ideal) m ρ c main_arg9 (by decide)).trans (at6_arg9 m ρ c)

theorem at7_v57 : W7 (F := Ideal) m ρ c (Proc.devRef .tc main_v57) = XW2 m ρ c :=
  (W7_arr (F := Ideal) m ρ c 2).trans ((RegVal.mm3 (V6 (F := Ideal) m ρ) c).trans (by unfold XW2; exact congrArg₂ mm (at6_v56 m ρ c) (at6_arg6 m ρ c)))

theorem at7_arg7 : W7 (F := Ideal) m ρ c (Proc.devRef .tc main_arg7) = (m ((c : Thread nD τ).loc main_arg7)) :=
  (W7_of_ne (F := Ideal) m ρ c main_arg7 (by decide)).trans (at6_arg7 m ρ c)

/-! ## Boundary 8 -/

theorem at8_v1 : W8 (F := Ideal) m ρ c (Proc.devRef .tc main_v1) = W1 (F := Ideal) m ρ c (Proc.devRef .tc main_v1) :=
  (keep_hostOps4_v1 (W7 (F := Ideal) m ρ c)).trans (at7_v1 m ρ c)

theorem at8_v3 : W8 (F := Ideal) m ρ c (Proc.devRef .tc main_v3) = W1 (F := Ideal) m ρ c (Proc.devRef .tc main_v3) :=
  (keep_hostOps4_v3 (W7 (F := Ideal) m ρ c)).trans (at7_v3 m ρ c)

theorem at8_v25 : W8 (F := Ideal) m ρ c (Proc.devRef .tc main_v25) = W1 (F := Ideal) m ρ c (Proc.devRef .tc main_v25) :=
  (keep_hostOps4_v25 (W7 (F := Ideal) m ρ c)).trans (at7_v25 m ρ c)

theorem at8_v26 : W8 (F := Ideal) m ρ c (Proc.devRef .tc main_v26) = W1 (F := Ideal) m ρ c (Proc.devRef .tc main_v26) :=
  (keep_hostOps4_v26 (W7 (F := Ideal) m ρ c)).trans (at7_v26 m ρ c)

theorem at8_arg21 : W8 (F := Ideal) m ρ c (Proc.devRef .tc main_arg21) = (m ((c : Thread nD τ).loc main_arg21)) :=
  (keep_hostOps4_arg21 (W7 (F := Ideal) m ρ c)).trans (at7_arg21 m ρ c)

theorem at8_arg20 : W8 (F := Ideal) m ρ c (Proc.devRef .tc main_arg20) = (m ((c : Thread nD τ).loc main_arg20)) :=
  (keep_hostOps4_arg20 (W7 (F := Ideal) m ρ c)).trans (at7_arg20 m ρ c)

theorem at8_arg18 : W8 (F := Ideal) m ρ c (Proc.devRef .tc main_arg18) = (m ((c : Thread nD τ).loc main_arg18)) :=
  (keep_hostOps4_arg18 (W7 (F := Ideal) m ρ c)).trans (at7_arg18 m ρ c)

theorem at8_arg19 : W8 (F := Ideal) m ρ c (Proc.devRef .tc main_arg19) = (m ((c : Thread nD τ).loc main_arg19)) :=
  (keep_hostOps4_arg19 (W7 (F := Ideal) m ρ c)).trans (at7_arg19 m ρ c)

theorem at8_arg17 : W8 (F := Ideal) m ρ c (Proc.devRef .tc main_arg17) = (m ((c : Thread nD τ).loc main_arg17)) :=
  (keep_hostOps4_arg17 (W7 (F := Ideal) m ρ c)).trans (at7_arg17 m ρ c)

theorem at8_arg16 : W8 (F := Ideal) m ρ c (Proc.devRef .tc main_arg16) = (m ((c : Thread nD τ).loc main_arg16)) :=
  (keep_hostOps4_arg16 (W7 (F := Ideal) m ρ c)).trans (at7_arg16 m ρ c)

theorem at8_arg14 : W8 (F := Ideal) m ρ c (Proc.devRef .tc main_arg14) = (m ((c : Thread nD τ).loc main_arg14)) :=
  (keep_hostOps4_arg14 (W7 (F := Ideal) m ρ c)).trans (at7_arg14 m ρ c)

theorem at8_arg15 : W8 (F := Ideal) m ρ c (Proc.devRef .tc main_arg15) = (m ((c : Thread nD τ).loc main_arg15)) :=
  (keep_hostOps4_arg15 (W7 (F := Ideal) m ρ c)).trans (at7_arg15 m ρ c)

theorem at8_arg13 : W8 (F := Ideal) m ρ c (Proc.devRef .tc main_arg13) = (m ((c : Thread nD τ).loc main_arg13)) :=
  (keep_hostOps4_arg13 (W7 (F := Ideal) m ρ c)).trans (at7_arg13 m ρ c)

theorem at8_arg0 : W8 (F := Ideal) m ρ c (Proc.devRef .tc main_arg0) = (m ((c : Thread nD τ).loc main_arg0)) :=
  (keep_hostOps4_arg0 (W7 (F := Ideal) m ρ c)).trans (at7_arg0 m ρ c)

theorem at8_arg12 : W8 (F := Ideal) m ρ c (Proc.devRef .tc main_arg12) = (m ((c : Thread nD τ).loc main_arg12)) :=
  (keep_hostOps4_arg12 (W7 (F := Ideal) m ρ c)).trans (at7_arg12 m ρ c)

theorem at8_arg11 : W8 (F := Ideal) m ρ c (Proc.devRef .tc main_arg11) = (m ((c : Thread nD τ).loc main_arg11)) :=
  (keep_hostOps4_arg11 (W7 (F := Ideal) m ρ c)).trans (at7_arg11 m ρ c)

theorem at8_arg10 : W8 (F := Ideal) m ρ c (Proc.devRef .tc main_arg10) = (m ((c : Thread nD τ).loc main_arg10)) :=
  (keep_hostOps4_arg10 (W7 (F := Ideal) m ρ c)).trans (at7_arg10 m ρ c)

theorem at8_arg8 : W8 (F := Ideal) m ρ c (Proc.devRef .tc main_arg8) = (m ((c : Thread nD τ).loc main_arg8)) :=
  (keep_hostOps4_arg8 (W7 (F := Ideal) m ρ c)).trans (at7_arg8 m ρ c)

theorem at8_arg9 : W8 (F := Ideal) m ρ c (Proc.devRef .tc main_arg9) = (m ((c : Thread nD τ).loc main_arg9)) :=
  (keep_hostOps4_arg9 (W7 (F := Ideal) m ρ c)).trans (at7_arg9 m ρ c)

theorem at8_v70 : W8 (F := Ideal) m ρ c (Proc.devRef .tc main_v70) = aggregate (G m ρ c).g256 (G m ρ c).s256 (G m ρ c).ne (XW2 m ρ c) :=
  by
  show StableHlo.after (hostOps4 (F := Ideal)) (W7 (F := Ideal) m ρ c) (Proc.devRef .tc main_v70) = _
  rw [msg4, at7_v1 m ρ c, at7_v3 m ρ c, at7_v25 m ρ c, at7_v57 m ρ c]
  rfl

theorem at8_v57 : W8 (F := Ideal) m ρ c (Proc.devRef .tc main_v57) = XW2 m ρ c :=
  (keep_hostOps4_v57 (W7 (F := Ideal) m ρ c)).trans (at7_v57 m ρ c)

theorem at8_v71 : ∀ p : Fin 50000, (W8 (F := Ideal) m ρ c (Proc.devRef .tc main_v71) : Mat 50000 1) (ix2 p 0) = (G m ρ c).ns p :=
  fun p => (msg4_ns (W7 (F := Ideal) m ρ c) p).trans (by rw [at7_v26 m ρ c]; rfl)

theorem at8_v72 : ∀ q : Fin 256, (W8 (F := Ideal) m ρ c (Proc.devRef .tc main_v72) : Mat 1 256) (ix2 0 q) = (fun q => ((m ((c : Thread nD τ).loc main_arg7)) : S256.Idx → EReal) (ix1 q)) q :=
  fun q => (msg4_b (W7 (F := Ideal) m ρ c) q).trans (by rw [at7_arg7 m ρ c])

/-! ## Boundary 9 -/

theorem at9_v1 : W9 (F := Ideal) m ρ c (Proc.devRef .tc main_v1) = W1 (F := Ideal) m ρ c (Proc.devRef .tc main_v1) :=
  (W9_of_ne (F := Ideal) m ρ c main_v1 (by decide)).trans (at8_v1 m ρ c)

theorem at9_v3 : W9 (F := Ideal) m ρ c (Proc.devRef .tc main_v3) = W1 (F := Ideal) m ρ c (Proc.devRef .tc main_v3) :=
  (W9_of_ne (F := Ideal) m ρ c main_v3 (by decide)).trans (at8_v3 m ρ c)

theorem at9_v25 : W9 (F := Ideal) m ρ c (Proc.devRef .tc main_v25) = W1 (F := Ideal) m ρ c (Proc.devRef .tc main_v25) :=
  (W9_of_ne (F := Ideal) m ρ c main_v25 (by decide)).trans (at8_v25 m ρ c)

theorem at9_v26 : W9 (F := Ideal) m ρ c (Proc.devRef .tc main_v26) = W1 (F := Ideal) m ρ c (Proc.devRef .tc main_v26) :=
  (W9_of_ne (F := Ideal) m ρ c main_v26 (by decide)).trans (at8_v26 m ρ c)

theorem at9_arg21 : W9 (F := Ideal) m ρ c (Proc.devRef .tc main_arg21) = (m ((c : Thread nD τ).loc main_arg21)) :=
  (W9_of_ne (F := Ideal) m ρ c main_arg21 (by decide)).trans (at8_arg21 m ρ c)

theorem at9_arg20 : W9 (F := Ideal) m ρ c (Proc.devRef .tc main_arg20) = (m ((c : Thread nD τ).loc main_arg20)) :=
  (W9_of_ne (F := Ideal) m ρ c main_arg20 (by decide)).trans (at8_arg20 m ρ c)

theorem at9_arg18 : W9 (F := Ideal) m ρ c (Proc.devRef .tc main_arg18) = (m ((c : Thread nD τ).loc main_arg18)) :=
  (W9_of_ne (F := Ideal) m ρ c main_arg18 (by decide)).trans (at8_arg18 m ρ c)

theorem at9_arg19 : W9 (F := Ideal) m ρ c (Proc.devRef .tc main_arg19) = (m ((c : Thread nD τ).loc main_arg19)) :=
  (W9_of_ne (F := Ideal) m ρ c main_arg19 (by decide)).trans (at8_arg19 m ρ c)

theorem at9_arg17 : W9 (F := Ideal) m ρ c (Proc.devRef .tc main_arg17) = (m ((c : Thread nD τ).loc main_arg17)) :=
  (W9_of_ne (F := Ideal) m ρ c main_arg17 (by decide)).trans (at8_arg17 m ρ c)

theorem at9_arg16 : W9 (F := Ideal) m ρ c (Proc.devRef .tc main_arg16) = (m ((c : Thread nD τ).loc main_arg16)) :=
  (W9_of_ne (F := Ideal) m ρ c main_arg16 (by decide)).trans (at8_arg16 m ρ c)

theorem at9_arg14 : W9 (F := Ideal) m ρ c (Proc.devRef .tc main_arg14) = (m ((c : Thread nD τ).loc main_arg14)) :=
  (W9_of_ne (F := Ideal) m ρ c main_arg14 (by decide)).trans (at8_arg14 m ρ c)

theorem at9_arg15 : W9 (F := Ideal) m ρ c (Proc.devRef .tc main_arg15) = (m ((c : Thread nD τ).loc main_arg15)) :=
  (W9_of_ne (F := Ideal) m ρ c main_arg15 (by decide)).trans (at8_arg15 m ρ c)

theorem at9_arg13 : W9 (F := Ideal) m ρ c (Proc.devRef .tc main_arg13) = (m ((c : Thread nD τ).loc main_arg13)) :=
  (W9_of_ne (F := Ideal) m ρ c main_arg13 (by decide)).trans (at8_arg13 m ρ c)

theorem at9_arg0 : W9 (F := Ideal) m ρ c (Proc.devRef .tc main_arg0) = (m ((c : Thread nD τ).loc main_arg0)) :=
  (W9_of_ne (F := Ideal) m ρ c main_arg0 (by decide)).trans (at8_arg0 m ρ c)

theorem at9_arg12 : W9 (F := Ideal) m ρ c (Proc.devRef .tc main_arg12) = (m ((c : Thread nD τ).loc main_arg12)) :=
  (W9_of_ne (F := Ideal) m ρ c main_arg12 (by decide)).trans (at8_arg12 m ρ c)

theorem at9_arg11 : W9 (F := Ideal) m ρ c (Proc.devRef .tc main_arg11) = (m ((c : Thread nD τ).loc main_arg11)) :=
  (W9_of_ne (F := Ideal) m ρ c main_arg11 (by decide)).trans (at8_arg11 m ρ c)

theorem at9_arg10 : W9 (F := Ideal) m ρ c (Proc.devRef .tc main_arg10) = (m ((c : Thread nD τ).loc main_arg10)) :=
  (W9_of_ne (F := Ideal) m ρ c main_arg10 (by decide)).trans (at8_arg10 m ρ c)

theorem at9_v73_0 : W9 (F := Ideal) m ρ c (Proc.devRef .tc main_v73_0) = C2 m ρ c :=
  (W9_arr (F := Ideal) m ρ c 4).trans ((RegVal.stats4_out (V8 (F := Ideal) m ρ) c).trans (show RegVal.OUT4 (V8 (F := Ideal) m ρ) c = C2 m ρ c from by unfold RegVal.OUT4 C2 conv; exact combine_congr (at8_v70 m ρ c) (at8_v57 m ρ c) (funext (at8_v71 m ρ c)) (funext (at8_v72 m ρ c))))

theorem at9_v73_1 : ∀ q : Fin 256, (W9 (F := Ideal) m ρ c (Proc.devRef .tc main_v73_1) : Mat 1 256) (ix2 0 q) = colsum (C2 m ρ c) q :=
  fun q => by
  rw [show W9 (F := Ideal) m ρ c (Proc.devRef .tc main_v73_1) = _ from (W9_arr (F := Ideal) m ρ c 5), RegVal.stats4_sum (V8 (F := Ideal) m ρ) c, (show RegVal.OUT4 (V8 (F := Ideal) m ρ) c = C2 m ρ c from by unfold RegVal.OUT4 C2 conv; exact combine_congr (at8_v70 m ρ c) (at8_v57 m ρ c) (funext (at8_v71 m ρ c)) (funext (at8_v72 m ρ c)))]

theorem at9_v73_2 : ∀ q : Fin 256, (W9 (F := Ideal) m ρ c (Proc.devRef .tc main_v73_2) : Mat 1 256) (ix2 0 q) = colsumsq (C2 m ρ c) q :=
  fun q => by
  rw [show W9 (F := Ideal) m ρ c (Proc.devRef .tc main_v73_2) = _ from (W9_arr (F := Ideal) m ρ c 6), RegVal.stats4_sumsq (V8 (F := Ideal) m ρ) c, (show RegVal.OUT4 (V8 (F := Ideal) m ρ) c = C2 m ρ c from by unfold RegVal.OUT4 C2 conv; exact combine_congr (at8_v70 m ρ c) (at8_v57 m ρ c) (funext (at8_v71 m ρ c)) (funext (at8_v72 m ρ c)))]

theorem at9_arg8 : W9 (F := Ideal) m ρ c (Proc.devRef .tc main_arg8) = (m ((c : Thread nD τ).loc main_arg8)) :=
  (W9_of_ne (F := Ideal) m ρ c main_arg8 (by decide)).trans (at8_arg8 m ρ c)

theorem at9_arg9 : W9 (F := Ideal) m ρ c (Proc.devRef .tc main_arg9) = (m ((c : Thread nD τ).loc main_arg9)) :=
  (W9_of_ne (F := Ideal) m ρ c main_arg9 (by decide)).trans (at8_arg9 m ρ c)

/-! ## Boundary 10 -/

theorem at10_v1 : W10 (F := Ideal) m ρ c (Proc.devRef .tc main_v1) = W1 (F := Ideal) m ρ c (Proc.devRef .tc main_v1) :=
  (keep_hostOps5_v1 (W9 (F := Ideal) m ρ c)).trans (at9_v1 m ρ c)

theorem at10_v3 : W10 (F := Ideal) m ρ c (Proc.devRef .tc main_v3) = W1 (F := Ideal) m ρ c (Proc.devRef .tc main_v3) :=
  (keep_hostOps5_v3 (W9 (F := Ideal) m ρ c)).trans (at9_v3 m ρ c)

theorem at10_v25 : W10 (F := Ideal) m ρ c (Proc.devRef .tc main_v25) = W1 (F := Ideal) m ρ c (Proc.devRef .tc main_v25) :=
  (keep_hostOps5_v25 (W9 (F := Ideal) m ρ c)).trans (at9_v25 m ρ c)

theorem at10_v26 : W10 (F := Ideal) m ρ c (Proc.devRef .tc main_v26) = W1 (F := Ideal) m ρ c (Proc.devRef .tc main_v26) :=
  (keep_hostOps5_v26 (W9 (F := Ideal) m ρ c)).trans (at9_v26 m ρ c)

theorem at10_arg21 : W10 (F := Ideal) m ρ c (Proc.devRef .tc main_arg21) = (m ((c : Thread nD τ).loc main_arg21)) :=
  (keep_hostOps5_arg21 (W9 (F := Ideal) m ρ c)).trans (at9_arg21 m ρ c)

theorem at10_arg20 : W10 (F := Ideal) m ρ c (Proc.devRef .tc main_arg20) = (m ((c : Thread nD τ).loc main_arg20)) :=
  (keep_hostOps5_arg20 (W9 (F := Ideal) m ρ c)).trans (at9_arg20 m ρ c)

theorem at10_arg18 : W10 (F := Ideal) m ρ c (Proc.devRef .tc main_arg18) = (m ((c : Thread nD τ).loc main_arg18)) :=
  (keep_hostOps5_arg18 (W9 (F := Ideal) m ρ c)).trans (at9_arg18 m ρ c)

theorem at10_arg19 : W10 (F := Ideal) m ρ c (Proc.devRef .tc main_arg19) = (m ((c : Thread nD τ).loc main_arg19)) :=
  (keep_hostOps5_arg19 (W9 (F := Ideal) m ρ c)).trans (at9_arg19 m ρ c)

theorem at10_arg17 : W10 (F := Ideal) m ρ c (Proc.devRef .tc main_arg17) = (m ((c : Thread nD τ).loc main_arg17)) :=
  (keep_hostOps5_arg17 (W9 (F := Ideal) m ρ c)).trans (at9_arg17 m ρ c)

theorem at10_arg16 : W10 (F := Ideal) m ρ c (Proc.devRef .tc main_arg16) = (m ((c : Thread nD τ).loc main_arg16)) :=
  (keep_hostOps5_arg16 (W9 (F := Ideal) m ρ c)).trans (at9_arg16 m ρ c)

theorem at10_arg14 : W10 (F := Ideal) m ρ c (Proc.devRef .tc main_arg14) = (m ((c : Thread nD τ).loc main_arg14)) :=
  (keep_hostOps5_arg14 (W9 (F := Ideal) m ρ c)).trans (at9_arg14 m ρ c)

theorem at10_arg15 : W10 (F := Ideal) m ρ c (Proc.devRef .tc main_arg15) = (m ((c : Thread nD τ).loc main_arg15)) :=
  (keep_hostOps5_arg15 (W9 (F := Ideal) m ρ c)).trans (at9_arg15 m ρ c)

theorem at10_arg13 : W10 (F := Ideal) m ρ c (Proc.devRef .tc main_arg13) = (m ((c : Thread nD τ).loc main_arg13)) :=
  (keep_hostOps5_arg13 (W9 (F := Ideal) m ρ c)).trans (at9_arg13 m ρ c)

theorem at10_arg0 : W10 (F := Ideal) m ρ c (Proc.devRef .tc main_arg0) = (m ((c : Thread nD τ).loc main_arg0)) :=
  (keep_hostOps5_arg0 (W9 (F := Ideal) m ρ c)).trans (at9_arg0 m ρ c)

theorem at10_arg12 : W10 (F := Ideal) m ρ c (Proc.devRef .tc main_arg12) = (m ((c : Thread nD τ).loc main_arg12)) :=
  (keep_hostOps5_arg12 (W9 (F := Ideal) m ρ c)).trans (at9_arg12 m ρ c)

theorem at10_arg11 : W10 (F := Ideal) m ρ c (Proc.devRef .tc main_arg11) = (m ((c : Thread nD τ).loc main_arg11)) :=
  (keep_hostOps5_arg11 (W9 (F := Ideal) m ρ c)).trans (at9_arg11 m ρ c)

theorem at10_arg10 : W10 (F := Ideal) m ρ c (Proc.devRef .tc main_arg10) = (m ((c : Thread nD τ).loc main_arg10)) :=
  (keep_hostOps5_arg10 (W9 (F := Ideal) m ρ c)).trans (at9_arg10 m ρ c)

theorem at10_v73_0 : W10 (F := Ideal) m ρ c (Proc.devRef .tc main_v73_0) = C2 m ρ c :=
  (keep_hostOps5_v73_0 (W9 (F := Ideal) m ρ c)).trans (at9_v73_0 m ρ c)

theorem at10_v82 : ∀ q : Fin 256, (W10 (F := Ideal) m ρ c (Proc.devRef .tc main_v82) : Mat 1 256) (ix2 0 q) = mean (C2 m ρ c) (Ideal.ofBits .f32 0x47435000#32) q :=
  fun q => (stat5_mean (W9 (F := Ideal) m ρ c) q).trans (by rw [at9_v73_1 m ρ c q]; rfl)

theorem at10_v83 : ∀ q : Fin 256, (W10 (F := Ideal) m ρ c (Proc.devRef .tc main_v83) : Mat 1 256) (ix2 0 q) = varSq (C2 m ρ c) (Ideal.ofBits .f32 0x47435000#32) q :=
  fun q => (stat5_var (W9 (F := Ideal) m ρ c) q).trans (by rw [at9_v73_2 m ρ c q, at9_v73_1 m ρ c q]; rfl)

theorem at10_v84 : ∀ q : Fin 256, (W10 (F := Ideal) m ρ c (Proc.devRef .tc main_v84) : Mat 1 256) (ix2 0 q) = (fun q => ((m ((c : Thread nD τ).loc main_arg8)) : S256.Idx → EReal) (ix1 q)) q :=
  fun q => (stat5_g (W9 (F := Ideal) m ρ c) q).trans (by rw [at9_arg8 m ρ c])

theorem at10_v85 : ∀ q : Fin 256, (W10 (F := Ideal) m ρ c (Proc.devRef .tc main_v85) : Mat 1 256) (ix2 0 q) = (fun q => ((m ((c : Thread nD τ).loc main_arg9)) : S256.Idx → EReal) (ix1 q)) q :=
  fun q => (stat5_be (W9 (F := Ideal) m ρ c) q).trans (by rw [at9_arg9 m ρ c])

/-! ## Boundary 11 -/

theorem at11_v1 : W11 (F := Ideal) m ρ c (Proc.devRef .tc main_v1) = W1 (F := Ideal) m ρ c (Proc.devRef .tc main_v1) :=
  (W11_of_ne (F := Ideal) m ρ c main_v1 (by decide)).trans (at10_v1 m ρ c)

theorem at11_v3 : W11 (F := Ideal) m ρ c (Proc.devRef .tc main_v3) = W1 (F := Ideal) m ρ c (Proc.devRef .tc main_v3) :=
  (W11_of_ne (F := Ideal) m ρ c main_v3 (by decide)).trans (at10_v3 m ρ c)

theorem at11_v25 : W11 (F := Ideal) m ρ c (Proc.devRef .tc main_v25) = W1 (F := Ideal) m ρ c (Proc.devRef .tc main_v25) :=
  (W11_of_ne (F := Ideal) m ρ c main_v25 (by decide)).trans (at10_v25 m ρ c)

theorem at11_v26 : W11 (F := Ideal) m ρ c (Proc.devRef .tc main_v26) = W1 (F := Ideal) m ρ c (Proc.devRef .tc main_v26) :=
  (W11_of_ne (F := Ideal) m ρ c main_v26 (by decide)).trans (at10_v26 m ρ c)

theorem at11_arg21 : W11 (F := Ideal) m ρ c (Proc.devRef .tc main_arg21) = (m ((c : Thread nD τ).loc main_arg21)) :=
  (W11_of_ne (F := Ideal) m ρ c main_arg21 (by decide)).trans (at10_arg21 m ρ c)

theorem at11_arg20 : W11 (F := Ideal) m ρ c (Proc.devRef .tc main_arg20) = (m ((c : Thread nD τ).loc main_arg20)) :=
  (W11_of_ne (F := Ideal) m ρ c main_arg20 (by decide)).trans (at10_arg20 m ρ c)

theorem at11_arg18 : W11 (F := Ideal) m ρ c (Proc.devRef .tc main_arg18) = (m ((c : Thread nD τ).loc main_arg18)) :=
  (W11_of_ne (F := Ideal) m ρ c main_arg18 (by decide)).trans (at10_arg18 m ρ c)

theorem at11_arg19 : W11 (F := Ideal) m ρ c (Proc.devRef .tc main_arg19) = (m ((c : Thread nD τ).loc main_arg19)) :=
  (W11_of_ne (F := Ideal) m ρ c main_arg19 (by decide)).trans (at10_arg19 m ρ c)

theorem at11_arg17 : W11 (F := Ideal) m ρ c (Proc.devRef .tc main_arg17) = (m ((c : Thread nD τ).loc main_arg17)) :=
  (W11_of_ne (F := Ideal) m ρ c main_arg17 (by decide)).trans (at10_arg17 m ρ c)

theorem at11_arg16 : W11 (F := Ideal) m ρ c (Proc.devRef .tc main_arg16) = (m ((c : Thread nD τ).loc main_arg16)) :=
  (W11_of_ne (F := Ideal) m ρ c main_arg16 (by decide)).trans (at10_arg16 m ρ c)

theorem at11_arg14 : W11 (F := Ideal) m ρ c (Proc.devRef .tc main_arg14) = (m ((c : Thread nD τ).loc main_arg14)) :=
  (W11_of_ne (F := Ideal) m ρ c main_arg14 (by decide)).trans (at10_arg14 m ρ c)

theorem at11_arg15 : W11 (F := Ideal) m ρ c (Proc.devRef .tc main_arg15) = (m ((c : Thread nD τ).loc main_arg15)) :=
  (W11_of_ne (F := Ideal) m ρ c main_arg15 (by decide)).trans (at10_arg15 m ρ c)

theorem at11_arg13 : W11 (F := Ideal) m ρ c (Proc.devRef .tc main_arg13) = (m ((c : Thread nD τ).loc main_arg13)) :=
  (W11_of_ne (F := Ideal) m ρ c main_arg13 (by decide)).trans (at10_arg13 m ρ c)

theorem at11_arg0 : W11 (F := Ideal) m ρ c (Proc.devRef .tc main_arg0) = (m ((c : Thread nD τ).loc main_arg0)) :=
  (W11_of_ne (F := Ideal) m ρ c main_arg0 (by decide)).trans (at10_arg0 m ρ c)

theorem at11_arg12 : W11 (F := Ideal) m ρ c (Proc.devRef .tc main_arg12) = (m ((c : Thread nD τ).loc main_arg12)) :=
  (W11_of_ne (F := Ideal) m ρ c main_arg12 (by decide)).trans (at10_arg12 m ρ c)

theorem at11_arg11 : W11 (F := Ideal) m ρ c (Proc.devRef .tc main_arg11) = (m ((c : Thread nD τ).loc main_arg11)) :=
  (W11_of_ne (F := Ideal) m ρ c main_arg11 (by decide)).trans (at10_arg11 m ρ c)

theorem at11_v86 : W11 (F := Ideal) m ρ c (Proc.devRef .tc main_v86) = H2 m ρ c :=
  (W11_arr (F := Ideal) m ρ c 5).trans ((RegVal.bn5 (V10 (F := Ideal) m ρ) c).trans (by unfold H2; exact congrArg relu (bn_congr _ (at10_v73_0 m ρ c) (funext (at10_v82 m ρ c)) (funext (at10_v83 m ρ c)) (funext (at10_v84 m ρ c)) (funext (at10_v85 m ρ c)))))

theorem at11_arg10 : W11 (F := Ideal) m ρ c (Proc.devRef .tc main_arg10) = (m ((c : Thread nD τ).loc main_arg10)) :=
  (W11_of_ne (F := Ideal) m ρ c main_arg10 (by decide)).trans (at10_arg10 m ρ c)

/-! ## Boundary 12 -/

theorem at12_v1 : W12 (F := Ideal) m ρ c (Proc.devRef .tc main_v1) = W1 (F := Ideal) m ρ c (Proc.devRef .tc main_v1) :=
  (W12_of_ne (F := Ideal) m ρ c main_v1 (by decide)).trans (at11_v1 m ρ c)

theorem at12_v3 : W12 (F := Ideal) m ρ c (Proc.devRef .tc main_v3) = W1 (F := Ideal) m ρ c (Proc.devRef .tc main_v3) :=
  (W12_of_ne (F := Ideal) m ρ c main_v3 (by decide)).trans (at11_v3 m ρ c)

theorem at12_v25 : W12 (F := Ideal) m ρ c (Proc.devRef .tc main_v25) = W1 (F := Ideal) m ρ c (Proc.devRef .tc main_v25) :=
  (W12_of_ne (F := Ideal) m ρ c main_v25 (by decide)).trans (at11_v25 m ρ c)

theorem at12_v26 : W12 (F := Ideal) m ρ c (Proc.devRef .tc main_v26) = W1 (F := Ideal) m ρ c (Proc.devRef .tc main_v26) :=
  (W12_of_ne (F := Ideal) m ρ c main_v26 (by decide)).trans (at11_v26 m ρ c)

theorem at12_arg21 : W12 (F := Ideal) m ρ c (Proc.devRef .tc main_arg21) = (m ((c : Thread nD τ).loc main_arg21)) :=
  (W12_of_ne (F := Ideal) m ρ c main_arg21 (by decide)).trans (at11_arg21 m ρ c)

theorem at12_arg20 : W12 (F := Ideal) m ρ c (Proc.devRef .tc main_arg20) = (m ((c : Thread nD τ).loc main_arg20)) :=
  (W12_of_ne (F := Ideal) m ρ c main_arg20 (by decide)).trans (at11_arg20 m ρ c)

theorem at12_arg18 : W12 (F := Ideal) m ρ c (Proc.devRef .tc main_arg18) = (m ((c : Thread nD τ).loc main_arg18)) :=
  (W12_of_ne (F := Ideal) m ρ c main_arg18 (by decide)).trans (at11_arg18 m ρ c)

theorem at12_arg19 : W12 (F := Ideal) m ρ c (Proc.devRef .tc main_arg19) = (m ((c : Thread nD τ).loc main_arg19)) :=
  (W12_of_ne (F := Ideal) m ρ c main_arg19 (by decide)).trans (at11_arg19 m ρ c)

theorem at12_arg17 : W12 (F := Ideal) m ρ c (Proc.devRef .tc main_arg17) = (m ((c : Thread nD τ).loc main_arg17)) :=
  (W12_of_ne (F := Ideal) m ρ c main_arg17 (by decide)).trans (at11_arg17 m ρ c)

theorem at12_arg16 : W12 (F := Ideal) m ρ c (Proc.devRef .tc main_arg16) = (m ((c : Thread nD τ).loc main_arg16)) :=
  (W12_of_ne (F := Ideal) m ρ c main_arg16 (by decide)).trans (at11_arg16 m ρ c)

theorem at12_arg14 : W12 (F := Ideal) m ρ c (Proc.devRef .tc main_arg14) = (m ((c : Thread nD τ).loc main_arg14)) :=
  (W12_of_ne (F := Ideal) m ρ c main_arg14 (by decide)).trans (at11_arg14 m ρ c)

theorem at12_arg15 : W12 (F := Ideal) m ρ c (Proc.devRef .tc main_arg15) = (m ((c : Thread nD τ).loc main_arg15)) :=
  (W12_of_ne (F := Ideal) m ρ c main_arg15 (by decide)).trans (at11_arg15 m ρ c)

theorem at12_arg13 : W12 (F := Ideal) m ρ c (Proc.devRef .tc main_arg13) = (m ((c : Thread nD τ).loc main_arg13)) :=
  (W12_of_ne (F := Ideal) m ρ c main_arg13 (by decide)).trans (at11_arg13 m ρ c)

theorem at12_arg0 : W12 (F := Ideal) m ρ c (Proc.devRef .tc main_arg0) = (m ((c : Thread nD τ).loc main_arg0)) :=
  (W12_of_ne (F := Ideal) m ρ c main_arg0 (by decide)).trans (at11_arg0 m ρ c)

theorem at12_arg12 : W12 (F := Ideal) m ρ c (Proc.devRef .tc main_arg12) = (m ((c : Thread nD τ).loc main_arg12)) :=
  (W12_of_ne (F := Ideal) m ρ c main_arg12 (by decide)).trans (at11_arg12 m ρ c)

theorem at12_v87 : W12 (F := Ideal) m ρ c (Proc.devRef .tc main_v87) = XW3 m ρ c :=
  (W12_arr (F := Ideal) m ρ c 2).trans ((RegVal.mm6 (V11 (F := Ideal) m ρ) c).trans (by unfold XW3; exact congrArg₂ mm (at11_v86 m ρ c) (at11_arg10 m ρ c)))

theorem at12_arg11 : W12 (F := Ideal) m ρ c (Proc.devRef .tc main_arg11) = (m ((c : Thread nD τ).loc main_arg11)) :=
  (W12_of_ne (F := Ideal) m ρ c main_arg11 (by decide)).trans (at11_arg11 m ρ c)

/-! ## Boundary 13 -/

theorem at13_v1 : W13 (F := Ideal) m ρ c (Proc.devRef .tc main_v1) = W1 (F := Ideal) m ρ c (Proc.devRef .tc main_v1) :=
  (keep_hostOps7_v1 (W12 (F := Ideal) m ρ c)).trans (at12_v1 m ρ c)

theorem at13_v3 : W13 (F := Ideal) m ρ c (Proc.devRef .tc main_v3) = W1 (F := Ideal) m ρ c (Proc.devRef .tc main_v3) :=
  (keep_hostOps7_v3 (W12 (F := Ideal) m ρ c)).trans (at12_v3 m ρ c)

theorem at13_v25 : W13 (F := Ideal) m ρ c (Proc.devRef .tc main_v25) = W1 (F := Ideal) m ρ c (Proc.devRef .tc main_v25) :=
  (keep_hostOps7_v25 (W12 (F := Ideal) m ρ c)).trans (at12_v25 m ρ c)

theorem at13_v26 : W13 (F := Ideal) m ρ c (Proc.devRef .tc main_v26) = W1 (F := Ideal) m ρ c (Proc.devRef .tc main_v26) :=
  (keep_hostOps7_v26 (W12 (F := Ideal) m ρ c)).trans (at12_v26 m ρ c)

theorem at13_arg21 : W13 (F := Ideal) m ρ c (Proc.devRef .tc main_arg21) = (m ((c : Thread nD τ).loc main_arg21)) :=
  (keep_hostOps7_arg21 (W12 (F := Ideal) m ρ c)).trans (at12_arg21 m ρ c)

theorem at13_arg20 : W13 (F := Ideal) m ρ c (Proc.devRef .tc main_arg20) = (m ((c : Thread nD τ).loc main_arg20)) :=
  (keep_hostOps7_arg20 (W12 (F := Ideal) m ρ c)).trans (at12_arg20 m ρ c)

theorem at13_arg18 : W13 (F := Ideal) m ρ c (Proc.devRef .tc main_arg18) = (m ((c : Thread nD τ).loc main_arg18)) :=
  (keep_hostOps7_arg18 (W12 (F := Ideal) m ρ c)).trans (at12_arg18 m ρ c)

theorem at13_arg19 : W13 (F := Ideal) m ρ c (Proc.devRef .tc main_arg19) = (m ((c : Thread nD τ).loc main_arg19)) :=
  (keep_hostOps7_arg19 (W12 (F := Ideal) m ρ c)).trans (at12_arg19 m ρ c)

theorem at13_arg17 : W13 (F := Ideal) m ρ c (Proc.devRef .tc main_arg17) = (m ((c : Thread nD τ).loc main_arg17)) :=
  (keep_hostOps7_arg17 (W12 (F := Ideal) m ρ c)).trans (at12_arg17 m ρ c)

theorem at13_arg16 : W13 (F := Ideal) m ρ c (Proc.devRef .tc main_arg16) = (m ((c : Thread nD τ).loc main_arg16)) :=
  (keep_hostOps7_arg16 (W12 (F := Ideal) m ρ c)).trans (at12_arg16 m ρ c)

theorem at13_arg14 : W13 (F := Ideal) m ρ c (Proc.devRef .tc main_arg14) = (m ((c : Thread nD τ).loc main_arg14)) :=
  (keep_hostOps7_arg14 (W12 (F := Ideal) m ρ c)).trans (at12_arg14 m ρ c)

theorem at13_arg15 : W13 (F := Ideal) m ρ c (Proc.devRef .tc main_arg15) = (m ((c : Thread nD τ).loc main_arg15)) :=
  (keep_hostOps7_arg15 (W12 (F := Ideal) m ρ c)).trans (at12_arg15 m ρ c)

theorem at13_arg13 : W13 (F := Ideal) m ρ c (Proc.devRef .tc main_arg13) = (m ((c : Thread nD τ).loc main_arg13)) :=
  (keep_hostOps7_arg13 (W12 (F := Ideal) m ρ c)).trans (at12_arg13 m ρ c)

theorem at13_arg0 : W13 (F := Ideal) m ρ c (Proc.devRef .tc main_arg0) = (m ((c : Thread nD τ).loc main_arg0)) :=
  (keep_hostOps7_arg0 (W12 (F := Ideal) m ρ c)).trans (at12_arg0 m ρ c)

theorem at13_arg12 : W13 (F := Ideal) m ρ c (Proc.devRef .tc main_arg12) = (m ((c : Thread nD τ).loc main_arg12)) :=
  (keep_hostOps7_arg12 (W12 (F := Ideal) m ρ c)).trans (at12_arg12 m ρ c)

theorem at13_v100 : W13 (F := Ideal) m ρ c (Proc.devRef .tc main_v100) = aggregate (G m ρ c).g64 (G m ρ c).s64 (G m ρ c).ne (XW3 m ρ c) :=
  by
  show StableHlo.after (hostOps7 (F := Ideal)) (W12 (F := Ideal) m ρ c) (Proc.devRef .tc main_v100) = _
  rw [msg7, at12_v1 m ρ c, at12_v3 m ρ c, at12_v25 m ρ c, at12_v87 m ρ c]
  rfl

theorem at13_v87 : W13 (F := Ideal) m ρ c (Proc.devRef .tc main_v87) = XW3 m ρ c :=
  (keep_hostOps7_v87 (W12 (F := Ideal) m ρ c)).trans (at12_v87 m ρ c)

theorem at13_v101 : ∀ p : Fin 50000, (W13 (F := Ideal) m ρ c (Proc.devRef .tc main_v101) : Mat 50000 1) (ix2 p 0) = (G m ρ c).ns p :=
  fun p => (msg7_ns (W12 (F := Ideal) m ρ c) p).trans (by rw [at12_v26 m ρ c]; rfl)

theorem at13_v102 : ∀ q : Fin 64, (W13 (F := Ideal) m ρ c (Proc.devRef .tc main_v102) : Mat 1 64) (ix2 0 q) = (fun q => ((m ((c : Thread nD τ).loc main_arg11)) : S64.Idx → EReal) (ix1 q)) q :=
  fun q => (msg7_b (W12 (F := Ideal) m ρ c) q).trans (by rw [at12_arg11 m ρ c])

/-! ## Boundary 14 -/

theorem at14_v103 : W14 (F := Ideal) m ρ c (Proc.devRef .tc main_v103) = MU m ρ c :=
  (W14_arr (F := Ideal) m ρ c 4).trans ((RegVal.plain7 (V13 (F := Ideal) m ρ) c).trans (by unfold MU conv; exact combine_congr (at13_v100 m ρ c) (at13_v87 m ρ c) (funext (at13_v101 m ρ c)) (funext (at13_v102 m ρ c))))

theorem at14_v1 : W14 (F := Ideal) m ρ c (Proc.devRef .tc main_v1) = W1 (F := Ideal) m ρ c (Proc.devRef .tc main_v1) :=
  (W14_of_ne (F := Ideal) m ρ c main_v1 (by decide)).trans (at13_v1 m ρ c)

theorem at14_v3 : W14 (F := Ideal) m ρ c (Proc.devRef .tc main_v3) = W1 (F := Ideal) m ρ c (Proc.devRef .tc main_v3) :=
  (W14_of_ne (F := Ideal) m ρ c main_v3 (by decide)).trans (at13_v3 m ρ c)

theorem at14_v25 : W14 (F := Ideal) m ρ c (Proc.devRef .tc main_v25) = W1 (F := Ideal) m ρ c (Proc.devRef .tc main_v25) :=
  (W14_of_ne (F := Ideal) m ρ c main_v25 (by decide)).trans (at13_v25 m ρ c)

theorem at14_v26 : W14 (F := Ideal) m ρ c (Proc.devRef .tc main_v26) = W1 (F := Ideal) m ρ c (Proc.devRef .tc main_v26) :=
  (W14_of_ne (F := Ideal) m ρ c main_v26 (by decide)).trans (at13_v26 m ρ c)

theorem at14_arg21 : W14 (F := Ideal) m ρ c (Proc.devRef .tc main_arg21) = (m ((c : Thread nD τ).loc main_arg21)) :=
  (W14_of_ne (F := Ideal) m ρ c main_arg21 (by decide)).trans (at13_arg21 m ρ c)

theorem at14_arg20 : W14 (F := Ideal) m ρ c (Proc.devRef .tc main_arg20) = (m ((c : Thread nD τ).loc main_arg20)) :=
  (W14_of_ne (F := Ideal) m ρ c main_arg20 (by decide)).trans (at13_arg20 m ρ c)

theorem at14_arg18 : W14 (F := Ideal) m ρ c (Proc.devRef .tc main_arg18) = (m ((c : Thread nD τ).loc main_arg18)) :=
  (W14_of_ne (F := Ideal) m ρ c main_arg18 (by decide)).trans (at13_arg18 m ρ c)

theorem at14_arg19 : W14 (F := Ideal) m ρ c (Proc.devRef .tc main_arg19) = (m ((c : Thread nD τ).loc main_arg19)) :=
  (W14_of_ne (F := Ideal) m ρ c main_arg19 (by decide)).trans (at13_arg19 m ρ c)

theorem at14_arg17 : W14 (F := Ideal) m ρ c (Proc.devRef .tc main_arg17) = (m ((c : Thread nD τ).loc main_arg17)) :=
  (W14_of_ne (F := Ideal) m ρ c main_arg17 (by decide)).trans (at13_arg17 m ρ c)

theorem at14_arg16 : W14 (F := Ideal) m ρ c (Proc.devRef .tc main_arg16) = (m ((c : Thread nD τ).loc main_arg16)) :=
  (W14_of_ne (F := Ideal) m ρ c main_arg16 (by decide)).trans (at13_arg16 m ρ c)

theorem at14_arg14 : W14 (F := Ideal) m ρ c (Proc.devRef .tc main_arg14) = (m ((c : Thread nD τ).loc main_arg14)) :=
  (W14_of_ne (F := Ideal) m ρ c main_arg14 (by decide)).trans (at13_arg14 m ρ c)

theorem at14_arg15 : W14 (F := Ideal) m ρ c (Proc.devRef .tc main_arg15) = (m ((c : Thread nD τ).loc main_arg15)) :=
  (W14_of_ne (F := Ideal) m ρ c main_arg15 (by decide)).trans (at13_arg15 m ρ c)

theorem at14_arg13 : W14 (F := Ideal) m ρ c (Proc.devRef .tc main_arg13) = (m ((c : Thread nD τ).loc main_arg13)) :=
  (W14_of_ne (F := Ideal) m ρ c main_arg13 (by decide)).trans (at13_arg13 m ρ c)

theorem at14_arg0 : W14 (F := Ideal) m ρ c (Proc.devRef .tc main_arg0) = (m ((c : Thread nD τ).loc main_arg0)) :=
  (W14_of_ne (F := Ideal) m ρ c main_arg0 (by decide)).trans (at13_arg0 m ρ c)

theorem at14_arg12 : W14 (F := Ideal) m ρ c (Proc.devRef .tc main_arg12) = (m ((c : Thread nD τ).loc main_arg12)) :=
  (W14_of_ne (F := Ideal) m ρ c main_arg12 (by decide)).trans (at13_arg12 m ρ c)

/-! ## Boundary 15 -/

theorem at15_v103 : W15 (F := Ideal) m ρ c (Proc.devRef .tc main_v103) = MU m ρ c :=
  (W15_of_ne (F := Ideal) m ρ c main_v103 (by decide)).trans (at14_v103 m ρ c)

theorem at15_v1 : W15 (F := Ideal) m ρ c (Proc.devRef .tc main_v1) = W1 (F := Ideal) m ρ c (Proc.devRef .tc main_v1) :=
  (W15_of_ne (F := Ideal) m ρ c main_v1 (by decide)).trans (at14_v1 m ρ c)

theorem at15_v3 : W15 (F := Ideal) m ρ c (Proc.devRef .tc main_v3) = W1 (F := Ideal) m ρ c (Proc.devRef .tc main_v3) :=
  (W15_of_ne (F := Ideal) m ρ c main_v3 (by decide)).trans (at14_v3 m ρ c)

theorem at15_v25 : W15 (F := Ideal) m ρ c (Proc.devRef .tc main_v25) = W1 (F := Ideal) m ρ c (Proc.devRef .tc main_v25) :=
  (W15_of_ne (F := Ideal) m ρ c main_v25 (by decide)).trans (at14_v25 m ρ c)

theorem at15_v26 : W15 (F := Ideal) m ρ c (Proc.devRef .tc main_v26) = W1 (F := Ideal) m ρ c (Proc.devRef .tc main_v26) :=
  (W15_of_ne (F := Ideal) m ρ c main_v26 (by decide)).trans (at14_v26 m ρ c)

theorem at15_arg21 : W15 (F := Ideal) m ρ c (Proc.devRef .tc main_arg21) = (m ((c : Thread nD τ).loc main_arg21)) :=
  (W15_of_ne (F := Ideal) m ρ c main_arg21 (by decide)).trans (at14_arg21 m ρ c)

theorem at15_arg20 : W15 (F := Ideal) m ρ c (Proc.devRef .tc main_arg20) = (m ((c : Thread nD τ).loc main_arg20)) :=
  (W15_of_ne (F := Ideal) m ρ c main_arg20 (by decide)).trans (at14_arg20 m ρ c)

theorem at15_arg18 : W15 (F := Ideal) m ρ c (Proc.devRef .tc main_arg18) = (m ((c : Thread nD τ).loc main_arg18)) :=
  (W15_of_ne (F := Ideal) m ρ c main_arg18 (by decide)).trans (at14_arg18 m ρ c)

theorem at15_arg19 : W15 (F := Ideal) m ρ c (Proc.devRef .tc main_arg19) = (m ((c : Thread nD τ).loc main_arg19)) :=
  (W15_of_ne (F := Ideal) m ρ c main_arg19 (by decide)).trans (at14_arg19 m ρ c)

theorem at15_arg17 : W15 (F := Ideal) m ρ c (Proc.devRef .tc main_arg17) = (m ((c : Thread nD τ).loc main_arg17)) :=
  (W15_of_ne (F := Ideal) m ρ c main_arg17 (by decide)).trans (at14_arg17 m ρ c)

theorem at15_arg16 : W15 (F := Ideal) m ρ c (Proc.devRef .tc main_arg16) = (m ((c : Thread nD τ).loc main_arg16)) :=
  (W15_of_ne (F := Ideal) m ρ c main_arg16 (by decide)).trans (at14_arg16 m ρ c)

theorem at15_arg14 : W15 (F := Ideal) m ρ c (Proc.devRef .tc main_arg14) = (m ((c : Thread nD τ).loc main_arg14)) :=
  (W15_of_ne (F := Ideal) m ρ c main_arg14 (by decide)).trans (at14_arg14 m ρ c)

theorem at15_arg15 : W15 (F := Ideal) m ρ c (Proc.devRef .tc main_arg15) = (m ((c : Thread nD τ).loc main_arg15)) :=
  (W15_of_ne (F := Ideal) m ρ c main_arg15 (by decide)).trans (at14_arg15 m ρ c)

theorem at15_v104 : W15 (F := Ideal) m ρ c (Proc.devRef .tc main_v104) = YW1 m ρ c :=
  (W15_arr (F := Ideal) m ρ c 2).trans ((RegVal.mm8 (V14 (F := Ideal) m ρ) c).trans (by unfold YW1; exact congrArg₂ mm (at14_arg0 m ρ c) (at14_arg12 m ρ c)))

theorem at15_arg13 : W15 (F := Ideal) m ρ c (Proc.devRef .tc main_arg13) = (m ((c : Thread nD τ).loc main_arg13)) :=
  (W15_of_ne (F := Ideal) m ρ c main_arg13 (by decide)).trans (at14_arg13 m ρ c)

/-! ## Boundary 16 -/

theorem at16_v103 : W16 (F := Ideal) m ρ c (Proc.devRef .tc main_v103) = MU m ρ c :=
  (keep_hostOps9_v103 (W15 (F := Ideal) m ρ c)).trans (at15_v103 m ρ c)

theorem at16_v1 : W16 (F := Ideal) m ρ c (Proc.devRef .tc main_v1) = W1 (F := Ideal) m ρ c (Proc.devRef .tc main_v1) :=
  (keep_hostOps9_v1 (W15 (F := Ideal) m ρ c)).trans (at15_v1 m ρ c)

theorem at16_v3 : W16 (F := Ideal) m ρ c (Proc.devRef .tc main_v3) = W1 (F := Ideal) m ρ c (Proc.devRef .tc main_v3) :=
  (keep_hostOps9_v3 (W15 (F := Ideal) m ρ c)).trans (at15_v3 m ρ c)

theorem at16_v25 : W16 (F := Ideal) m ρ c (Proc.devRef .tc main_v25) = W1 (F := Ideal) m ρ c (Proc.devRef .tc main_v25) :=
  (keep_hostOps9_v25 (W15 (F := Ideal) m ρ c)).trans (at15_v25 m ρ c)

theorem at16_v26 : W16 (F := Ideal) m ρ c (Proc.devRef .tc main_v26) = W1 (F := Ideal) m ρ c (Proc.devRef .tc main_v26) :=
  (keep_hostOps9_v26 (W15 (F := Ideal) m ρ c)).trans (at15_v26 m ρ c)

theorem at16_arg21 : W16 (F := Ideal) m ρ c (Proc.devRef .tc main_arg21) = (m ((c : Thread nD τ).loc main_arg21)) :=
  (keep_hostOps9_arg21 (W15 (F := Ideal) m ρ c)).trans (at15_arg21 m ρ c)

theorem at16_arg20 : W16 (F := Ideal) m ρ c (Proc.devRef .tc main_arg20) = (m ((c : Thread nD τ).loc main_arg20)) :=
  (keep_hostOps9_arg20 (W15 (F := Ideal) m ρ c)).trans (at15_arg20 m ρ c)

theorem at16_arg18 : W16 (F := Ideal) m ρ c (Proc.devRef .tc main_arg18) = (m ((c : Thread nD τ).loc main_arg18)) :=
  (keep_hostOps9_arg18 (W15 (F := Ideal) m ρ c)).trans (at15_arg18 m ρ c)

theorem at16_arg19 : W16 (F := Ideal) m ρ c (Proc.devRef .tc main_arg19) = (m ((c : Thread nD τ).loc main_arg19)) :=
  (keep_hostOps9_arg19 (W15 (F := Ideal) m ρ c)).trans (at15_arg19 m ρ c)

theorem at16_arg17 : W16 (F := Ideal) m ρ c (Proc.devRef .tc main_arg17) = (m ((c : Thread nD τ).loc main_arg17)) :=
  (keep_hostOps9_arg17 (W15 (F := Ideal) m ρ c)).trans (at15_arg17 m ρ c)

theorem at16_arg16 : W16 (F := Ideal) m ρ c (Proc.devRef .tc main_arg16) = (m ((c : Thread nD τ).loc main_arg16)) :=
  (keep_hostOps9_arg16 (W15 (F := Ideal) m ρ c)).trans (at15_arg16 m ρ c)

theorem at16_arg14 : W16 (F := Ideal) m ρ c (Proc.devRef .tc main_arg14) = (m ((c : Thread nD τ).loc main_arg14)) :=
  (keep_hostOps9_arg14 (W15 (F := Ideal) m ρ c)).trans (at15_arg14 m ρ c)

theorem at16_arg15 : W16 (F := Ideal) m ρ c (Proc.devRef .tc main_arg15) = (m ((c : Thread nD τ).loc main_arg15)) :=
  (keep_hostOps9_arg15 (W15 (F := Ideal) m ρ c)).trans (at15_arg15 m ρ c)

theorem at16_v117 : W16 (F := Ideal) m ρ c (Proc.devRef .tc main_v117) = aggregate (G m ρ c).g128 (G m ρ c).s128 (G m ρ c).ne (YW1 m ρ c) :=
  by
  show StableHlo.after (hostOps9 (F := Ideal)) (W15 (F := Ideal) m ρ c) (Proc.devRef .tc main_v117) = _
  rw [msg9, at15_v1 m ρ c, at15_v3 m ρ c, at15_v25 m ρ c, at15_v104 m ρ c]
  rfl

theorem at16_v104 : W16 (F := Ideal) m ρ c (Proc.devRef .tc main_v104) = YW1 m ρ c :=
  (keep_hostOps9_v104 (W15 (F := Ideal) m ρ c)).trans (at15_v104 m ρ c)

theorem at16_v118 : ∀ p : Fin 50000, (W16 (F := Ideal) m ρ c (Proc.devRef .tc main_v118) : Mat 50000 1) (ix2 p 0) = (G m ρ c).ns p :=
  fun p => (msg9_ns (W15 (F := Ideal) m ρ c) p).trans (by rw [at15_v26 m ρ c]; rfl)

theorem at16_v119 : ∀ q : Fin 128, (W16 (F := Ideal) m ρ c (Proc.devRef .tc main_v119) : Mat 1 128) (ix2 0 q) = (fun q => ((m ((c : Thread nD τ).loc main_arg13)) : S128.Idx → EReal) (ix1 q)) q :=
  fun q => (msg9_b (W15 (F := Ideal) m ρ c) q).trans (by rw [at15_arg13 m ρ c])

/-! ## Boundary 17 -/

theorem at17_v103 : W17 (F := Ideal) m ρ c (Proc.devRef .tc main_v103) = MU m ρ c :=
  (W17_of_ne (F := Ideal) m ρ c main_v103 (by decide)).trans (at16_v103 m ρ c)

theorem at17_v1 : W17 (F := Ideal) m ρ c (Proc.devRef .tc main_v1) = W1 (F := Ideal) m ρ c (Proc.devRef .tc main_v1) :=
  (W17_of_ne (F := Ideal) m ρ c main_v1 (by decide)).trans (at16_v1 m ρ c)

theorem at17_v3 : W17 (F := Ideal) m ρ c (Proc.devRef .tc main_v3) = W1 (F := Ideal) m ρ c (Proc.devRef .tc main_v3) :=
  (W17_of_ne (F := Ideal) m ρ c main_v3 (by decide)).trans (at16_v3 m ρ c)

theorem at17_v25 : W17 (F := Ideal) m ρ c (Proc.devRef .tc main_v25) = W1 (F := Ideal) m ρ c (Proc.devRef .tc main_v25) :=
  (W17_of_ne (F := Ideal) m ρ c main_v25 (by decide)).trans (at16_v25 m ρ c)

theorem at17_v26 : W17 (F := Ideal) m ρ c (Proc.devRef .tc main_v26) = W1 (F := Ideal) m ρ c (Proc.devRef .tc main_v26) :=
  (W17_of_ne (F := Ideal) m ρ c main_v26 (by decide)).trans (at16_v26 m ρ c)

theorem at17_arg21 : W17 (F := Ideal) m ρ c (Proc.devRef .tc main_arg21) = (m ((c : Thread nD τ).loc main_arg21)) :=
  (W17_of_ne (F := Ideal) m ρ c main_arg21 (by decide)).trans (at16_arg21 m ρ c)

theorem at17_arg20 : W17 (F := Ideal) m ρ c (Proc.devRef .tc main_arg20) = (m ((c : Thread nD τ).loc main_arg20)) :=
  (W17_of_ne (F := Ideal) m ρ c main_arg20 (by decide)).trans (at16_arg20 m ρ c)

theorem at17_arg18 : W17 (F := Ideal) m ρ c (Proc.devRef .tc main_arg18) = (m ((c : Thread nD τ).loc main_arg18)) :=
  (W17_of_ne (F := Ideal) m ρ c main_arg18 (by decide)).trans (at16_arg18 m ρ c)

theorem at17_arg19 : W17 (F := Ideal) m ρ c (Proc.devRef .tc main_arg19) = (m ((c : Thread nD τ).loc main_arg19)) :=
  (W17_of_ne (F := Ideal) m ρ c main_arg19 (by decide)).trans (at16_arg19 m ρ c)

theorem at17_arg17 : W17 (F := Ideal) m ρ c (Proc.devRef .tc main_arg17) = (m ((c : Thread nD τ).loc main_arg17)) :=
  (W17_of_ne (F := Ideal) m ρ c main_arg17 (by decide)).trans (at16_arg17 m ρ c)

theorem at17_arg16 : W17 (F := Ideal) m ρ c (Proc.devRef .tc main_arg16) = (m ((c : Thread nD τ).loc main_arg16)) :=
  (W17_of_ne (F := Ideal) m ρ c main_arg16 (by decide)).trans (at16_arg16 m ρ c)

theorem at17_v120_0 : W17 (F := Ideal) m ρ c (Proc.devRef .tc main_v120_0) = D1 m ρ c :=
  (W17_arr (F := Ideal) m ρ c 4).trans ((RegVal.stats9_out (V16 (F := Ideal) m ρ) c).trans (show RegVal.OUT9 (V16 (F := Ideal) m ρ) c = D1 m ρ c from by unfold RegVal.OUT9 D1 conv; exact congrArg relu (combine_congr (at16_v117 m ρ c) (at16_v104 m ρ c) (funext (at16_v118 m ρ c)) (funext (at16_v119 m ρ c)))))

theorem at17_v120_1 : ∀ q : Fin 128, (W17 (F := Ideal) m ρ c (Proc.devRef .tc main_v120_1) : Mat 1 128) (ix2 0 q) = colsum (D1 m ρ c) q :=
  fun q => by
  rw [show W17 (F := Ideal) m ρ c (Proc.devRef .tc main_v120_1) = _ from (W17_arr (F := Ideal) m ρ c 5), RegVal.stats9_sum (V16 (F := Ideal) m ρ) c, (show RegVal.OUT9 (V16 (F := Ideal) m ρ) c = D1 m ρ c from by unfold RegVal.OUT9 D1 conv; exact congrArg relu (combine_congr (at16_v117 m ρ c) (at16_v104 m ρ c) (funext (at16_v118 m ρ c)) (funext (at16_v119 m ρ c))))]

theorem at17_v120_2 : ∀ q : Fin 128, (W17 (F := Ideal) m ρ c (Proc.devRef .tc main_v120_2) : Mat 1 128) (ix2 0 q) = colsumsq (D1 m ρ c) q :=
  fun q => by
  rw [show W17 (F := Ideal) m ρ c (Proc.devRef .tc main_v120_2) = _ from (W17_arr (F := Ideal) m ρ c 6), RegVal.stats9_sumsq (V16 (F := Ideal) m ρ) c, (show RegVal.OUT9 (V16 (F := Ideal) m ρ) c = D1 m ρ c from by unfold RegVal.OUT9 D1 conv; exact congrArg relu (combine_congr (at16_v117 m ρ c) (at16_v104 m ρ c) (funext (at16_v118 m ρ c)) (funext (at16_v119 m ρ c))))]

theorem at17_arg14 : W17 (F := Ideal) m ρ c (Proc.devRef .tc main_arg14) = (m ((c : Thread nD τ).loc main_arg14)) :=
  (W17_of_ne (F := Ideal) m ρ c main_arg14 (by decide)).trans (at16_arg14 m ρ c)

theorem at17_arg15 : W17 (F := Ideal) m ρ c (Proc.devRef .tc main_arg15) = (m ((c : Thread nD τ).loc main_arg15)) :=
  (W17_of_ne (F := Ideal) m ρ c main_arg15 (by decide)).trans (at16_arg15 m ρ c)

/-! ## Boundary 18 -/

theorem at18_v103 : W18 (F := Ideal) m ρ c (Proc.devRef .tc main_v103) = MU m ρ c :=
  (keep_hostOps10_v103 (W17 (F := Ideal) m ρ c)).trans (at17_v103 m ρ c)

theorem at18_v1 : W18 (F := Ideal) m ρ c (Proc.devRef .tc main_v1) = W1 (F := Ideal) m ρ c (Proc.devRef .tc main_v1) :=
  (keep_hostOps10_v1 (W17 (F := Ideal) m ρ c)).trans (at17_v1 m ρ c)

theorem at18_v3 : W18 (F := Ideal) m ρ c (Proc.devRef .tc main_v3) = W1 (F := Ideal) m ρ c (Proc.devRef .tc main_v3) :=
  (keep_hostOps10_v3 (W17 (F := Ideal) m ρ c)).trans (at17_v3 m ρ c)

theorem at18_v25 : W18 (F := Ideal) m ρ c (Proc.devRef .tc main_v25) = W1 (F := Ideal) m ρ c (Proc.devRef .tc main_v25) :=
  (keep_hostOps10_v25 (W17 (F := Ideal) m ρ c)).trans (at17_v25 m ρ c)

theorem at18_v26 : W18 (F := Ideal) m ρ c (Proc.devRef .tc main_v26) = W1 (F := Ideal) m ρ c (Proc.devRef .tc main_v26) :=
  (keep_hostOps10_v26 (W17 (F := Ideal) m ρ c)).trans (at17_v26 m ρ c)

theorem at18_arg21 : W18 (F := Ideal) m ρ c (Proc.devRef .tc main_arg21) = (m ((c : Thread nD τ).loc main_arg21)) :=
  (keep_hostOps10_arg21 (W17 (F := Ideal) m ρ c)).trans (at17_arg21 m ρ c)

theorem at18_arg20 : W18 (F := Ideal) m ρ c (Proc.devRef .tc main_arg20) = (m ((c : Thread nD τ).loc main_arg20)) :=
  (keep_hostOps10_arg20 (W17 (F := Ideal) m ρ c)).trans (at17_arg20 m ρ c)

theorem at18_arg18 : W18 (F := Ideal) m ρ c (Proc.devRef .tc main_arg18) = (m ((c : Thread nD τ).loc main_arg18)) :=
  (keep_hostOps10_arg18 (W17 (F := Ideal) m ρ c)).trans (at17_arg18 m ρ c)

theorem at18_arg19 : W18 (F := Ideal) m ρ c (Proc.devRef .tc main_arg19) = (m ((c : Thread nD τ).loc main_arg19)) :=
  (keep_hostOps10_arg19 (W17 (F := Ideal) m ρ c)).trans (at17_arg19 m ρ c)

theorem at18_arg17 : W18 (F := Ideal) m ρ c (Proc.devRef .tc main_arg17) = (m ((c : Thread nD τ).loc main_arg17)) :=
  (keep_hostOps10_arg17 (W17 (F := Ideal) m ρ c)).trans (at17_arg17 m ρ c)

theorem at18_arg16 : W18 (F := Ideal) m ρ c (Proc.devRef .tc main_arg16) = (m ((c : Thread nD τ).loc main_arg16)) :=
  (keep_hostOps10_arg16 (W17 (F := Ideal) m ρ c)).trans (at17_arg16 m ρ c)

theorem at18_v120_0 : W18 (F := Ideal) m ρ c (Proc.devRef .tc main_v120_0) = D1 m ρ c :=
  (keep_hostOps10_v120_0 (W17 (F := Ideal) m ρ c)).trans (at17_v120_0 m ρ c)

theorem at18_v129 : ∀ q : Fin 128, (W18 (F := Ideal) m ρ c (Proc.devRef .tc main_v129) : Mat 1 128) (ix2 0 q) = mean (D1 m ρ c) (Ideal.ofBits .f32 0x47435000#32) q :=
  fun q => (stat10_mean (W17 (F := Ideal) m ρ c) q).trans (by rw [at17_v120_1 m ρ c q]; rfl)

theorem at18_v130 : ∀ q : Fin 128, (W18 (F := Ideal) m ρ c (Proc.devRef .tc main_v130) : Mat 1 128) (ix2 0 q) = varSq (D1 m ρ c) (Ideal.ofBits .f32 0x47435000#32) q :=
  fun q => (stat10_var (W17 (F := Ideal) m ρ c) q).trans (by rw [at17_v120_2 m ρ c q, at17_v120_1 m ρ c q]; rfl)

theorem at18_v131 : ∀ q : Fin 128, (W18 (F := Ideal) m ρ c (Proc.devRef .tc main_v131) : Mat 1 128) (ix2 0 q) = (fun q => ((m ((c : Thread nD τ).loc main_arg14)) : S128.Idx → EReal) (ix1 q)) q :=
  fun q => (stat10_g (W17 (F := Ideal) m ρ c) q).trans (by rw [at17_arg14 m ρ c])

theorem at18_v132 : ∀ q : Fin 128, (W18 (F := Ideal) m ρ c (Proc.devRef .tc main_v132) : Mat 1 128) (ix2 0 q) = (fun q => ((m ((c : Thread nD τ).loc main_arg15)) : S128.Idx → EReal) (ix1 q)) q :=
  fun q => (stat10_be (W17 (F := Ideal) m ρ c) q).trans (by rw [at17_arg15 m ρ c])

/-! ## Boundary 19 -/

theorem at19_v103 : W19 (F := Ideal) m ρ c (Proc.devRef .tc main_v103) = MU m ρ c :=
  (W19_of_ne (F := Ideal) m ρ c main_v103 (by decide)).trans (at18_v103 m ρ c)

theorem at19_v1 : W19 (F := Ideal) m ρ c (Proc.devRef .tc main_v1) = W1 (F := Ideal) m ρ c (Proc.devRef .tc main_v1) :=
  (W19_of_ne (F := Ideal) m ρ c main_v1 (by decide)).trans (at18_v1 m ρ c)

theorem at19_v3 : W19 (F := Ideal) m ρ c (Proc.devRef .tc main_v3) = W1 (F := Ideal) m ρ c (Proc.devRef .tc main_v3) :=
  (W19_of_ne (F := Ideal) m ρ c main_v3 (by decide)).trans (at18_v3 m ρ c)

theorem at19_v25 : W19 (F := Ideal) m ρ c (Proc.devRef .tc main_v25) = W1 (F := Ideal) m ρ c (Proc.devRef .tc main_v25) :=
  (W19_of_ne (F := Ideal) m ρ c main_v25 (by decide)).trans (at18_v25 m ρ c)

theorem at19_v26 : W19 (F := Ideal) m ρ c (Proc.devRef .tc main_v26) = W1 (F := Ideal) m ρ c (Proc.devRef .tc main_v26) :=
  (W19_of_ne (F := Ideal) m ρ c main_v26 (by decide)).trans (at18_v26 m ρ c)

theorem at19_arg21 : W19 (F := Ideal) m ρ c (Proc.devRef .tc main_arg21) = (m ((c : Thread nD τ).loc main_arg21)) :=
  (W19_of_ne (F := Ideal) m ρ c main_arg21 (by decide)).trans (at18_arg21 m ρ c)

theorem at19_arg20 : W19 (F := Ideal) m ρ c (Proc.devRef .tc main_arg20) = (m ((c : Thread nD τ).loc main_arg20)) :=
  (W19_of_ne (F := Ideal) m ρ c main_arg20 (by decide)).trans (at18_arg20 m ρ c)

theorem at19_arg18 : W19 (F := Ideal) m ρ c (Proc.devRef .tc main_arg18) = (m ((c : Thread nD τ).loc main_arg18)) :=
  (W19_of_ne (F := Ideal) m ρ c main_arg18 (by decide)).trans (at18_arg18 m ρ c)

theorem at19_arg19 : W19 (F := Ideal) m ρ c (Proc.devRef .tc main_arg19) = (m ((c : Thread nD τ).loc main_arg19)) :=
  (W19_of_ne (F := Ideal) m ρ c main_arg19 (by decide)).trans (at18_arg19 m ρ c)

theorem at19_arg17 : W19 (F := Ideal) m ρ c (Proc.devRef .tc main_arg17) = (m ((c : Thread nD τ).loc main_arg17)) :=
  (W19_of_ne (F := Ideal) m ρ c main_arg17 (by decide)).trans (at18_arg17 m ρ c)

theorem at19_v133 : W19 (F := Ideal) m ρ c (Proc.devRef .tc main_v133) = K1 m ρ c :=
  (W19_arr (F := Ideal) m ρ c 5).trans ((RegVal.bn10 (V18 (F := Ideal) m ρ) c).trans (by unfold K1; exact bn_congr _ (at18_v120_0 m ρ c) (funext (at18_v129 m ρ c)) (funext (at18_v130 m ρ c)) (funext (at18_v131 m ρ c)) (funext (at18_v132 m ρ c))))

theorem at19_arg16 : W19 (F := Ideal) m ρ c (Proc.devRef .tc main_arg16) = (m ((c : Thread nD τ).loc main_arg16)) :=
  (W19_of_ne (F := Ideal) m ρ c main_arg16 (by decide)).trans (at18_arg16 m ρ c)

/-! ## Boundary 20 -/

theorem at20_v103 : W20 (F := Ideal) m ρ c (Proc.devRef .tc main_v103) = MU m ρ c :=
  (W20_of_ne (F := Ideal) m ρ c main_v103 (by decide)).trans (at19_v103 m ρ c)

theorem at20_v1 : W20 (F := Ideal) m ρ c (Proc.devRef .tc main_v1) = W1 (F := Ideal) m ρ c (Proc.devRef .tc main_v1) :=
  (W20_of_ne (F := Ideal) m ρ c main_v1 (by decide)).trans (at19_v1 m ρ c)

theorem at20_v3 : W20 (F := Ideal) m ρ c (Proc.devRef .tc main_v3) = W1 (F := Ideal) m ρ c (Proc.devRef .tc main_v3) :=
  (W20_of_ne (F := Ideal) m ρ c main_v3 (by decide)).trans (at19_v3 m ρ c)

theorem at20_v25 : W20 (F := Ideal) m ρ c (Proc.devRef .tc main_v25) = W1 (F := Ideal) m ρ c (Proc.devRef .tc main_v25) :=
  (W20_of_ne (F := Ideal) m ρ c main_v25 (by decide)).trans (at19_v25 m ρ c)

theorem at20_v26 : W20 (F := Ideal) m ρ c (Proc.devRef .tc main_v26) = W1 (F := Ideal) m ρ c (Proc.devRef .tc main_v26) :=
  (W20_of_ne (F := Ideal) m ρ c main_v26 (by decide)).trans (at19_v26 m ρ c)

theorem at20_arg21 : W20 (F := Ideal) m ρ c (Proc.devRef .tc main_arg21) = (m ((c : Thread nD τ).loc main_arg21)) :=
  (W20_of_ne (F := Ideal) m ρ c main_arg21 (by decide)).trans (at19_arg21 m ρ c)

theorem at20_arg20 : W20 (F := Ideal) m ρ c (Proc.devRef .tc main_arg20) = (m ((c : Thread nD τ).loc main_arg20)) :=
  (W20_of_ne (F := Ideal) m ρ c main_arg20 (by decide)).trans (at19_arg20 m ρ c)

theorem at20_arg18 : W20 (F := Ideal) m ρ c (Proc.devRef .tc main_arg18) = (m ((c : Thread nD τ).loc main_arg18)) :=
  (W20_of_ne (F := Ideal) m ρ c main_arg18 (by decide)).trans (at19_arg18 m ρ c)

theorem at20_arg19 : W20 (F := Ideal) m ρ c (Proc.devRef .tc main_arg19) = (m ((c : Thread nD τ).loc main_arg19)) :=
  (W20_of_ne (F := Ideal) m ρ c main_arg19 (by decide)).trans (at19_arg19 m ρ c)

theorem at20_v134 : W20 (F := Ideal) m ρ c (Proc.devRef .tc main_v134) = YW2 m ρ c :=
  (W20_arr (F := Ideal) m ρ c 2).trans ((RegVal.mm11 (V19 (F := Ideal) m ρ) c).trans (by unfold YW2; exact congrArg₂ mm (at19_v133 m ρ c) (at19_arg16 m ρ c)))

theorem at20_arg17 : W20 (F := Ideal) m ρ c (Proc.devRef .tc main_arg17) = (m ((c : Thread nD τ).loc main_arg17)) :=
  (W20_of_ne (F := Ideal) m ρ c main_arg17 (by decide)).trans (at19_arg17 m ρ c)

/-! ## Boundary 21 -/

theorem at21_v103 : W21 (F := Ideal) m ρ c (Proc.devRef .tc main_v103) = MU m ρ c :=
  (keep_hostOps12_v103 (W20 (F := Ideal) m ρ c)).trans (at20_v103 m ρ c)

theorem at21_v1 : W21 (F := Ideal) m ρ c (Proc.devRef .tc main_v1) = W1 (F := Ideal) m ρ c (Proc.devRef .tc main_v1) :=
  (keep_hostOps12_v1 (W20 (F := Ideal) m ρ c)).trans (at20_v1 m ρ c)

theorem at21_v3 : W21 (F := Ideal) m ρ c (Proc.devRef .tc main_v3) = W1 (F := Ideal) m ρ c (Proc.devRef .tc main_v3) :=
  (keep_hostOps12_v3 (W20 (F := Ideal) m ρ c)).trans (at20_v3 m ρ c)

theorem at21_v25 : W21 (F := Ideal) m ρ c (Proc.devRef .tc main_v25) = W1 (F := Ideal) m ρ c (Proc.devRef .tc main_v25) :=
  (keep_hostOps12_v25 (W20 (F := Ideal) m ρ c)).trans (at20_v25 m ρ c)

theorem at21_v26 : W21 (F := Ideal) m ρ c (Proc.devRef .tc main_v26) = W1 (F := Ideal) m ρ c (Proc.devRef .tc main_v26) :=
  (keep_hostOps12_v26 (W20 (F := Ideal) m ρ c)).trans (at20_v26 m ρ c)

theorem at21_arg21 : W21 (F := Ideal) m ρ c (Proc.devRef .tc main_arg21) = (m ((c : Thread nD τ).loc main_arg21)) :=
  (keep_hostOps12_arg21 (W20 (F := Ideal) m ρ c)).trans (at20_arg21 m ρ c)

theorem at21_arg20 : W21 (F := Ideal) m ρ c (Proc.devRef .tc main_arg20) = (m ((c : Thread nD τ).loc main_arg20)) :=
  (keep_hostOps12_arg20 (W20 (F := Ideal) m ρ c)).trans (at20_arg20 m ρ c)

theorem at21_arg18 : W21 (F := Ideal) m ρ c (Proc.devRef .tc main_arg18) = (m ((c : Thread nD τ).loc main_arg18)) :=
  (keep_hostOps12_arg18 (W20 (F := Ideal) m ρ c)).trans (at20_arg18 m ρ c)

theorem at21_arg19 : W21 (F := Ideal) m ρ c (Proc.devRef .tc main_arg19) = (m ((c : Thread nD τ).loc main_arg19)) :=
  (keep_hostOps12_arg19 (W20 (F := Ideal) m ρ c)).trans (at20_arg19 m ρ c)

theorem at21_v147 : W21 (F := Ideal) m ρ c (Proc.devRef .tc main_v147) = aggregate (G m ρ c).g256 (G m ρ c).s256 (G m ρ c).ne (YW2 m ρ c) :=
  by
  show StableHlo.after (hostOps12 (F := Ideal)) (W20 (F := Ideal) m ρ c) (Proc.devRef .tc main_v147) = _
  rw [msg12, at20_v1 m ρ c, at20_v3 m ρ c, at20_v25 m ρ c, at20_v134 m ρ c]
  rfl

theorem at21_v134 : W21 (F := Ideal) m ρ c (Proc.devRef .tc main_v134) = YW2 m ρ c :=
  (keep_hostOps12_v134 (W20 (F := Ideal) m ρ c)).trans (at20_v134 m ρ c)

theorem at21_v148 : ∀ p : Fin 50000, (W21 (F := Ideal) m ρ c (Proc.devRef .tc main_v148) : Mat 50000 1) (ix2 p 0) = (G m ρ c).ns p :=
  fun p => (msg12_ns (W20 (F := Ideal) m ρ c) p).trans (by rw [at20_v26 m ρ c]; rfl)

theorem at21_v149 : ∀ q : Fin 256, (W21 (F := Ideal) m ρ c (Proc.devRef .tc main_v149) : Mat 1 256) (ix2 0 q) = (fun q => ((m ((c : Thread nD τ).loc main_arg17)) : S256.Idx → EReal) (ix1 q)) q :=
  fun q => (msg12_b (W20 (F := Ideal) m ρ c) q).trans (by rw [at20_arg17 m ρ c])

/-! ## Boundary 22 -/

theorem at22_v103 : W22 (F := Ideal) m ρ c (Proc.devRef .tc main_v103) = MU m ρ c :=
  (W22_of_ne (F := Ideal) m ρ c main_v103 (by decide)).trans (at21_v103 m ρ c)

theorem at22_v1 : W22 (F := Ideal) m ρ c (Proc.devRef .tc main_v1) = W1 (F := Ideal) m ρ c (Proc.devRef .tc main_v1) :=
  (W22_of_ne (F := Ideal) m ρ c main_v1 (by decide)).trans (at21_v1 m ρ c)

theorem at22_v3 : W22 (F := Ideal) m ρ c (Proc.devRef .tc main_v3) = W1 (F := Ideal) m ρ c (Proc.devRef .tc main_v3) :=
  (W22_of_ne (F := Ideal) m ρ c main_v3 (by decide)).trans (at21_v3 m ρ c)

theorem at22_v25 : W22 (F := Ideal) m ρ c (Proc.devRef .tc main_v25) = W1 (F := Ideal) m ρ c (Proc.devRef .tc main_v25) :=
  (W22_of_ne (F := Ideal) m ρ c main_v25 (by decide)).trans (at21_v25 m ρ c)

theorem at22_v26 : W22 (F := Ideal) m ρ c (Proc.devRef .tc main_v26) = W1 (F := Ideal) m ρ c (Proc.devRef .tc main_v26) :=
  (W22_of_ne (F := Ideal) m ρ c main_v26 (by decide)).trans (at21_v26 m ρ c)

theorem at22_arg21 : W22 (F := Ideal) m ρ c (Proc.devRef .tc main_arg21) = (m ((c : Thread nD τ).loc main_arg21)) :=
  (W22_of_ne (F := Ideal) m ρ c main_arg21 (by decide)).trans (at21_arg21 m ρ c)

theorem at22_arg20 : W22 (F := Ideal) m ρ c (Proc.devRef .tc main_arg20) = (m ((c : Thread nD τ).loc main_arg20)) :=
  (W22_of_ne (F := Ideal) m ρ c main_arg20 (by decide)).trans (at21_arg20 m ρ c)

theorem at22_v150_0 : W22 (F := Ideal) m ρ c (Proc.devRef .tc main_v150_0) = D2 m ρ c :=
  (W22_arr (F := Ideal) m ρ c 4).trans ((RegVal.stats12_out (V21 (F := Ideal) m ρ) c).trans (show RegVal.OUT12 (V21 (F := Ideal) m ρ) c = D2 m ρ c from by unfold RegVal.OUT12 D2 conv; exact congrArg relu (combine_congr (at21_v147 m ρ c) (at21_v134 m ρ c) (funext (at21_v148 m ρ c)) (funext (at21_v149 m ρ c)))))

theorem at22_v150_1 : ∀ q : Fin 256, (W22 (F := Ideal) m ρ c (Proc.devRef .tc main_v150_1) : Mat 1 256) (ix2 0 q) = colsum (D2 m ρ c) q :=
  fun q => by
  rw [show W22 (F := Ideal) m ρ c (Proc.devRef .tc main_v150_1) = _ from (W22_arr (F := Ideal) m ρ c 5), RegVal.stats12_sum (V21 (F := Ideal) m ρ) c, (show RegVal.OUT12 (V21 (F := Ideal) m ρ) c = D2 m ρ c from by unfold RegVal.OUT12 D2 conv; exact congrArg relu (combine_congr (at21_v147 m ρ c) (at21_v134 m ρ c) (funext (at21_v148 m ρ c)) (funext (at21_v149 m ρ c))))]

theorem at22_v150_2 : ∀ q : Fin 256, (W22 (F := Ideal) m ρ c (Proc.devRef .tc main_v150_2) : Mat 1 256) (ix2 0 q) = colsumsq (D2 m ρ c) q :=
  fun q => by
  rw [show W22 (F := Ideal) m ρ c (Proc.devRef .tc main_v150_2) = _ from (W22_arr (F := Ideal) m ρ c 6), RegVal.stats12_sumsq (V21 (F := Ideal) m ρ) c, (show RegVal.OUT12 (V21 (F := Ideal) m ρ) c = D2 m ρ c from by unfold RegVal.OUT12 D2 conv; exact congrArg relu (combine_congr (at21_v147 m ρ c) (at21_v134 m ρ c) (funext (at21_v148 m ρ c)) (funext (at21_v149 m ρ c))))]

theorem at22_arg18 : W22 (F := Ideal) m ρ c (Proc.devRef .tc main_arg18) = (m ((c : Thread nD τ).loc main_arg18)) :=
  (W22_of_ne (F := Ideal) m ρ c main_arg18 (by decide)).trans (at21_arg18 m ρ c)

theorem at22_arg19 : W22 (F := Ideal) m ρ c (Proc.devRef .tc main_arg19) = (m ((c : Thread nD τ).loc main_arg19)) :=
  (W22_of_ne (F := Ideal) m ρ c main_arg19 (by decide)).trans (at21_arg19 m ρ c)

/-! ## Boundary 23 -/

theorem at23_v103 : W23 (F := Ideal) m ρ c (Proc.devRef .tc main_v103) = MU m ρ c :=
  (keep_hostOps13_v103 (W22 (F := Ideal) m ρ c)).trans (at22_v103 m ρ c)

theorem at23_v1 : W23 (F := Ideal) m ρ c (Proc.devRef .tc main_v1) = W1 (F := Ideal) m ρ c (Proc.devRef .tc main_v1) :=
  (keep_hostOps13_v1 (W22 (F := Ideal) m ρ c)).trans (at22_v1 m ρ c)

theorem at23_v3 : W23 (F := Ideal) m ρ c (Proc.devRef .tc main_v3) = W1 (F := Ideal) m ρ c (Proc.devRef .tc main_v3) :=
  (keep_hostOps13_v3 (W22 (F := Ideal) m ρ c)).trans (at22_v3 m ρ c)

theorem at23_v25 : W23 (F := Ideal) m ρ c (Proc.devRef .tc main_v25) = W1 (F := Ideal) m ρ c (Proc.devRef .tc main_v25) :=
  (keep_hostOps13_v25 (W22 (F := Ideal) m ρ c)).trans (at22_v25 m ρ c)

theorem at23_v26 : W23 (F := Ideal) m ρ c (Proc.devRef .tc main_v26) = W1 (F := Ideal) m ρ c (Proc.devRef .tc main_v26) :=
  (keep_hostOps13_v26 (W22 (F := Ideal) m ρ c)).trans (at22_v26 m ρ c)

theorem at23_arg21 : W23 (F := Ideal) m ρ c (Proc.devRef .tc main_arg21) = (m ((c : Thread nD τ).loc main_arg21)) :=
  (keep_hostOps13_arg21 (W22 (F := Ideal) m ρ c)).trans (at22_arg21 m ρ c)

theorem at23_arg20 : W23 (F := Ideal) m ρ c (Proc.devRef .tc main_arg20) = (m ((c : Thread nD τ).loc main_arg20)) :=
  (keep_hostOps13_arg20 (W22 (F := Ideal) m ρ c)).trans (at22_arg20 m ρ c)

theorem at23_v150_0 : W23 (F := Ideal) m ρ c (Proc.devRef .tc main_v150_0) = D2 m ρ c :=
  (keep_hostOps13_v150_0 (W22 (F := Ideal) m ρ c)).trans (at22_v150_0 m ρ c)

theorem at23_v159 : ∀ q : Fin 256, (W23 (F := Ideal) m ρ c (Proc.devRef .tc main_v159) : Mat 1 256) (ix2 0 q) = mean (D2 m ρ c) (Ideal.ofBits .f32 0x47435000#32) q :=
  fun q => (stat13_mean (W22 (F := Ideal) m ρ c) q).trans (by rw [at22_v150_1 m ρ c q]; rfl)

theorem at23_v160 : ∀ q : Fin 256, (W23 (F := Ideal) m ρ c (Proc.devRef .tc main_v160) : Mat 1 256) (ix2 0 q) = varSq (D2 m ρ c) (Ideal.ofBits .f32 0x47435000#32) q :=
  fun q => (stat13_var (W22 (F := Ideal) m ρ c) q).trans (by rw [at22_v150_2 m ρ c q, at22_v150_1 m ρ c q]; rfl)

theorem at23_v161 : ∀ q : Fin 256, (W23 (F := Ideal) m ρ c (Proc.devRef .tc main_v161) : Mat 1 256) (ix2 0 q) = (fun q => ((m ((c : Thread nD τ).loc main_arg18)) : S256.Idx → EReal) (ix1 q)) q :=
  fun q => (stat13_g (W22 (F := Ideal) m ρ c) q).trans (by rw [at22_arg18 m ρ c])

theorem at23_v162 : ∀ q : Fin 256, (W23 (F := Ideal) m ρ c (Proc.devRef .tc main_v162) : Mat 1 256) (ix2 0 q) = (fun q => ((m ((c : Thread nD τ).loc main_arg19)) : S256.Idx → EReal) (ix1 q)) q :=
  fun q => (stat13_be (W22 (F := Ideal) m ρ c) q).trans (by rw [at22_arg19 m ρ c])

/-! ## Boundary 24 -/

theorem at24_v103 : W24 (F := Ideal) m ρ c (Proc.devRef .tc main_v103) = MU m ρ c :=
  (W24_of_ne (F := Ideal) m ρ c main_v103 (by decide)).trans (at23_v103 m ρ c)

theorem at24_v1 : W24 (F := Ideal) m ρ c (Proc.devRef .tc main_v1) = W1 (F := Ideal) m ρ c (Proc.devRef .tc main_v1) :=
  (W24_of_ne (F := Ideal) m ρ c main_v1 (by decide)).trans (at23_v1 m ρ c)

theorem at24_v3 : W24 (F := Ideal) m ρ c (Proc.devRef .tc main_v3) = W1 (F := Ideal) m ρ c (Proc.devRef .tc main_v3) :=
  (W24_of_ne (F := Ideal) m ρ c main_v3 (by decide)).trans (at23_v3 m ρ c)

theorem at24_v25 : W24 (F := Ideal) m ρ c (Proc.devRef .tc main_v25) = W1 (F := Ideal) m ρ c (Proc.devRef .tc main_v25) :=
  (W24_of_ne (F := Ideal) m ρ c main_v25 (by decide)).trans (at23_v25 m ρ c)

theorem at24_v26 : W24 (F := Ideal) m ρ c (Proc.devRef .tc main_v26) = W1 (F := Ideal) m ρ c (Proc.devRef .tc main_v26) :=
  (W24_of_ne (F := Ideal) m ρ c main_v26 (by decide)).trans (at23_v26 m ρ c)

theorem at24_arg21 : W24 (F := Ideal) m ρ c (Proc.devRef .tc main_arg21) = (m ((c : Thread nD τ).loc main_arg21)) :=
  (W24_of_ne (F := Ideal) m ρ c main_arg21 (by decide)).trans (at23_arg21 m ρ c)

theorem at24_v163 : W24 (F := Ideal) m ρ c (Proc.devRef .tc main_v163) = K2 m ρ c :=
  (W24_arr (F := Ideal) m ρ c 5).trans ((RegVal.bn13 (V23 (F := Ideal) m ρ) c).trans (by unfold K2; exact bn_congr _ (at23_v150_0 m ρ c) (funext (at23_v159 m ρ c)) (funext (at23_v160 m ρ c)) (funext (at23_v161 m ρ c)) (funext (at23_v162 m ρ c))))

theorem at24_arg20 : W24 (F := Ideal) m ρ c (Proc.devRef .tc main_arg20) = (m ((c : Thread nD τ).loc main_arg20)) :=
  (W24_of_ne (F := Ideal) m ρ c main_arg20 (by decide)).trans (at23_arg20 m ρ c)

/-! ## Boundary 25 -/

theorem at25_v103 : W25 (F := Ideal) m ρ c (Proc.devRef .tc main_v103) = MU m ρ c :=
  (W25_of_ne (F := Ideal) m ρ c main_v103 (by decide)).trans (at24_v103 m ρ c)

theorem at25_v164 : W25 (F := Ideal) m ρ c (Proc.devRef .tc main_v164) = YW3 m ρ c :=
  (W25_arr (F := Ideal) m ρ c 2).trans ((RegVal.mm14 (V24 (F := Ideal) m ρ) c).trans (by unfold YW3; exact congrArg₂ mm (at24_v163 m ρ c) (at24_arg20 m ρ c)))

theorem at25_v1 : W25 (F := Ideal) m ρ c (Proc.devRef .tc main_v1) = W1 (F := Ideal) m ρ c (Proc.devRef .tc main_v1) :=
  (W25_of_ne (F := Ideal) m ρ c main_v1 (by decide)).trans (at24_v1 m ρ c)

theorem at25_v3 : W25 (F := Ideal) m ρ c (Proc.devRef .tc main_v3) = W1 (F := Ideal) m ρ c (Proc.devRef .tc main_v3) :=
  (W25_of_ne (F := Ideal) m ρ c main_v3 (by decide)).trans (at24_v3 m ρ c)

theorem at25_v25 : W25 (F := Ideal) m ρ c (Proc.devRef .tc main_v25) = W1 (F := Ideal) m ρ c (Proc.devRef .tc main_v25) :=
  (W25_of_ne (F := Ideal) m ρ c main_v25 (by decide)).trans (at24_v25 m ρ c)

theorem at25_v26 : W25 (F := Ideal) m ρ c (Proc.devRef .tc main_v26) = W1 (F := Ideal) m ρ c (Proc.devRef .tc main_v26) :=
  (W25_of_ne (F := Ideal) m ρ c main_v26 (by decide)).trans (at24_v26 m ρ c)

theorem at25_arg21 : W25 (F := Ideal) m ρ c (Proc.devRef .tc main_arg21) = (m ((c : Thread nD τ).loc main_arg21)) :=
  (W25_of_ne (F := Ideal) m ρ c main_arg21 (by decide)).trans (at24_arg21 m ρ c)

/-! ## Boundary 26 -/

theorem at26_v103 : W26 (F := Ideal) m ρ c (Proc.devRef .tc main_v103) = MU m ρ c :=
  (keep_hostOps15_v103 (W25 (F := Ideal) m ρ c)).trans (at25_v103 m ρ c)

theorem at26_v177 : W26 (F := Ideal) m ρ c (Proc.devRef .tc main_v177) = aggregate (G m ρ c).g64 (G m ρ c).s64 (G m ρ c).ne (YW3 m ρ c) :=
  by
  show StableHlo.after (hostOps15 (F := Ideal)) (W25 (F := Ideal) m ρ c) (Proc.devRef .tc main_v177) = _
  rw [msg15, at25_v1 m ρ c, at25_v3 m ρ c, at25_v25 m ρ c, at25_v164 m ρ c]
  rfl

theorem at26_v164 : W26 (F := Ideal) m ρ c (Proc.devRef .tc main_v164) = YW3 m ρ c :=
  (keep_hostOps15_v164 (W25 (F := Ideal) m ρ c)).trans (at25_v164 m ρ c)

theorem at26_v178 : ∀ p : Fin 50000, (W26 (F := Ideal) m ρ c (Proc.devRef .tc main_v178) : Mat 50000 1) (ix2 p 0) = (G m ρ c).ns p :=
  fun p => (msg15_ns (W25 (F := Ideal) m ρ c) p).trans (by rw [at25_v26 m ρ c]; rfl)

theorem at26_v179 : ∀ q : Fin 64, (W26 (F := Ideal) m ρ c (Proc.devRef .tc main_v179) : Mat 1 64) (ix2 0 q) = (fun q => ((m ((c : Thread nD τ).loc main_arg21)) : S64.Idx → EReal) (ix1 q)) q :=
  fun q => (msg15_b (W25 (F := Ideal) m ρ c) q).trans (by rw [at25_arg21 m ρ c])

/-! ## Boundary 27 -/

theorem at27_v103 : W27 (F := Ideal) m ρ c (Proc.devRef .tc main_v103) = MU m ρ c :=
  (W27_of_ne (F := Ideal) m ρ c main_v103 (by decide)).trans (at26_v103 m ρ c)

theorem at27_v180 : W27 (F := Ideal) m ρ c (Proc.devRef .tc main_v180) = LOG m ρ c :=
  (W27_arr (F := Ideal) m ρ c 4).trans ((RegVal.plain15 (V26 (F := Ideal) m ρ) c).trans (by unfold LOG conv; exact combine_congr (at26_v177 m ρ c) (at26_v164 m ρ c) (funext (at26_v178 m ρ c)) (funext (at26_v179 m ρ c))))

/-! ## The two results as the encoders of the specification -/

theorem MU_eq : MU m ρ c = encMu (G m ρ c) (fun _ => varSq) (Ideal.ofBits .f32 0x47435000#32) (Ideal.ofBits .f32 0x3727C5AC#32)
    ((m ((c : Thread nD τ).loc main_arg0)) : Mat 50000 64) ((m ((c : Thread nD τ).loc main_arg2)) : Mat 64 128) (fun q => ((m ((c : Thread nD τ).loc main_arg3)) : S128.Idx → EReal) (ix1 q)) (fun q => ((m ((c : Thread nD τ).loc main_arg4)) : S128.Idx → EReal) (ix1 q)) (fun q => ((m ((c : Thread nD τ).loc main_arg5)) : S128.Idx → EReal) (ix1 q)) ((m ((c : Thread nD τ).loc main_arg6)) : Mat 128 256) (fun q => ((m ((c : Thread nD τ).loc main_arg7)) : S256.Idx → EReal) (ix1 q)) (fun q => ((m ((c : Thread nD τ).loc main_arg8)) : S256.Idx → EReal) (ix1 q)) (fun q => ((m ((c : Thread nD τ).loc main_arg9)) : S256.Idx → EReal) (ix1 q)) ((m ((c : Thread nD τ).loc main_arg10)) : Mat 256 64) (fun q => ((m ((c : Thread nD τ).loc main_arg11)) : S64.Idx → EReal) (ix1 q)) := rfl

theorem LOG_eq : LOG m ρ c = encLog (G m ρ c) (fun _ => varSq) (Ideal.ofBits .f32 0x47435000#32) (Ideal.ofBits .f32 0x3727C5AC#32)
    ((m ((c : Thread nD τ).loc main_arg0)) : Mat 50000 64) ((m ((c : Thread nD τ).loc main_arg12)) : Mat 64 128) (fun q => ((m ((c : Thread nD τ).loc main_arg13)) : S128.Idx → EReal) (ix1 q)) (fun q => ((m ((c : Thread nD τ).loc main_arg14)) : S128.Idx → EReal) (ix1 q)) (fun q => ((m ((c : Thread nD τ).loc main_arg15)) : S128.Idx → EReal) (ix1 q)) ((m ((c : Thread nD τ).loc main_arg16)) : Mat 128 256) (fun q => ((m ((c : Thread nD τ).loc main_arg17)) : S256.Idx → EReal) (ix1 q)) (fun q => ((m ((c : Thread nD τ).loc main_arg18)) : S256.Idx → EReal) (ix1 q)) (fun q => ((m ((c : Thread nD τ).loc main_arg19)) : S256.Idx → EReal) (ix1 q)) ((m ((c : Thread nD τ).loc main_arg20)) : Mat 256 64) (fun q => ((m ((c : Thread nD τ).loc main_arg21)) : S64.Idx → EReal) (ix1 q)) := rfl

end Cert.KernelIdeal.KFold

end
-- ==== Proof.KValue.lean ====
/-
  The kernel program's run with its two results named: every weakly fair execution terminates, the two result
  buffers hold the two encoders of the specification (variance as mean of squares minus squared mean) over the
  launch contents of the arguments, and the arguments end unchanged.
-/
import proofs.«106426_j33148557590872_1_alg».proof.Proof.KRun
import proofs.«106426_j33148557590872_1_alg».proof.Proof.KFold

set_option maxRecDepth 16384

noncomputable section

namespace Cert.KernelIdeal.KValue

open Cert.KernelIdeal Cert.KernelIdeal.Gen Cert.KernelIdeal.KFold
open Idealize.ShloMosaic Idealize.ShloMosaic.TcCoe Idealize.SL.Sem

theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v103) = MU m ρ c
      ∧ r.2.mem ((c.tc : Thread nD τ).loc main_v180) = LOG m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run (defs (F := Ideal)) _ _).mono (fun r h c =>
    ⟨(h c _ (mem_uc main_v103 (by decide))).trans (at27_v103 m ρ c),
     (h c _ (mem_uc main_v180 (by decide))).trans (at27_v180 m ρ c),
     (h c _ (mem_uc main_arg0 (by decide))).trans (W27_main_arg0 m ρ c),
     (h c _ (mem_uc main_arg1 (by decide))).trans (W27_main_arg1 m ρ c),
     (h c _ (mem_uc main_arg2 (by decide))).trans (W27_main_arg2 m ρ c),
     (h c _ (mem_uc main_arg3 (by decide))).trans (W27_main_arg3 m ρ c),
     (h c _ (mem_uc main_arg4 (by decide))).trans (W27_main_arg4 m ρ c),
     (h c _ (mem_uc main_arg5 (by decide))).trans (W27_main_arg5 m ρ c),
     (h c _ (mem_uc main_arg6 (by decide))).trans (W27_main_arg6 m ρ c),
     (h c _ (mem_uc main_arg7 (by decide))).trans (W27_main_arg7 m ρ c),
     (h c _ (mem_uc main_arg8 (by decide))).trans (W27_main_arg8 m ρ c),
     (h c _ (mem_uc main_arg9 (by decide))).trans (W27_main_arg9 m ρ c),
     (h c _ (mem_uc main_arg10 (by decide))).trans (W27_main_arg10 m ρ c),
     (h c _ (mem_uc main_arg11 (by decide))).trans (W27_main_arg11 m ρ c),
     (h c _ (mem_uc main_arg12 (by decide))).trans (W27_main_arg12 m ρ c),
     (h c _ (mem_uc main_arg13 (by decide))).trans (W27_main_arg13 m ρ c),
     (h c _ (mem_uc main_arg14 (by decide))).trans (W27_main_arg14 m ρ c),
     (h c _ (mem_uc main_arg15 (by decide))).trans (W27_main_arg15 m ρ c),
     (h c _ (mem_uc main_arg16 (by decide))).trans (W27_main_arg16 m ρ c),
     (h c _ (mem_uc main_arg17 (by decide))).trans (W27_main_arg17 m ρ c),
     (h c _ (mem_uc main_arg18 (by decide))).trans (W27_main_arg18 m ρ c),
     (h c _ (mem_uc main_arg19 (by decide))).trans (W27_main_arg19 m ρ c),
     (h c _ (mem_uc main_arg20 (by decide))).trans (W27_main_arg20 m ρ c),
     (h c _ (mem_uc main_arg21 (by decide))).trans (W27_main_arg21 m ρ c)⟩)
    (KRun.run (F := Ideal) m ρ)

end Cert.KernelIdeal.KValue

end
-- ==== Proof.RefRunPre.lean ====
/-
  The typed-reference operation builders touch TensorCore references only: the untyped builders' facts, restated
  at the typed builders so that they apply to an operation named by a definition.
-/
import Idealize.ShloMosaic.Lib.StableHlo.Run

noncomputable section

namespace Cert.ReferenceIdeal.RefRun

open Idealize.ShloMosaic Idealize.ShloMosaic.TcCoe Idealize.SL.Sem Idealize.ShloMosaic.StableHlo

variable {τ : Topo} {sig : RefSig} {Val : EltTy → Type} {Tx Ta Tb Tc Ty : BufTy}

theorem tnullary_sub (y : TRef sig Ty) (v : Ty.Contents Val) : (TRef.nullary (τ := τ) y v).bufs ⊆ tcRefs τ sig :=
  nullary_bufs_sub y.ref (y.toBuf v) y.dev
theorem tunary_sub (x : TRef sig Tx) (y : TRef sig Ty) (f : Tx.Contents Val → Ty.Contents Val) :
    (TRef.unary (τ := τ) x y f).bufs ⊆ tcRefs τ sig :=
  unary_bufs_sub x.ref y.ref _ x.dev y.dev
theorem tbinary_sub (a : TRef sig Ta) (b : TRef sig Tb) (y : TRef sig Ty) (f : Ta.Contents Val → Tb.Contents Val → Ty.Contents Val) :
    (TRef.binary (τ := τ) a b y f).bufs ⊆ tcRefs τ sig :=
  binary_bufs_sub a.ref b.ref y.ref _ a.dev b.dev y.dev
theorem tternary_sub (c : TRef sig Tc) (a : TRef sig Ta) (b : TRef sig Tb) (y : TRef sig Ty)
    (f : Tc.Contents Val → Ta.Contents Val → Tb.Contents Val → Ty.Contents Val) :
    (TRef.ternary (τ := τ) c a b y f).bufs ⊆ tcRefs τ sig :=
  ternary_bufs_sub a.ref b.ref c.ref y.ref _ c.dev a.dev b.dev y.dev

end Cert.ReferenceIdeal.RefRun

end
-- ==== Proof.RefRunW0.lean ====
/-
  The reference program's statements 0 … 59 (of 366, the outlined functions' bodies written out at their calls),
  each as a named operation, and the program's window number 0 as the straight line of them.
-/
import proofs.«106426_j33148557590872_1_alg».proof.Proof.Gen.ReferenceIdeal
import Idealize.ShloMosaic.Lib.StableHlo.Run
import proofs.«106426_j33148557590872_1_alg».proof.Proof.RefRunPre

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

def o0 : HloOp τ sig (Elt F) :=
  unary main_arg1 main_v0 ((extractStridedSlice S1x800000 ![0, 0] · slices_S2x800000_S1x800000_0_0) : (⟨S2x800000, .i32⟩ : BufTy).Contents (Elt F) → (⟨S1x800000, .i32⟩ : BufTy).Contents (Elt F))
theorem o0_sub : (o0 (F := F)).bufs ⊆ tcRefs τ sig := unary_bufs_sub ..

def o1 : HloOp τ sig (Elt F) :=
  reshape main_v0 main_v1 rfl shapeCasts_S1x800000_S800000
theorem o1_sub : (o1 (F := F)).bufs ⊆ tcRefs τ sig := reshape_bufs_sub ..

def o2 : HloOp τ sig (Elt F) :=
  unary main_arg1 main_v2 ((extractStridedSlice S1x800000 ![1, 0] · slices_S2x800000_S1x800000_1_0) : (⟨S2x800000, .i32⟩ : BufTy).Contents (Elt F) → (⟨S1x800000, .i32⟩ : BufTy).Contents (Elt F))
theorem o2_sub : (o2 (F := F)).bufs ⊆ tcRefs τ sig := unary_bufs_sub ..

def o3 : HloOp τ sig (Elt F) :=
  reshape main_v2 main_v3 rfl shapeCasts_S1x800000_S800000
theorem o3_sub : (o3 (F := F)).bufs ⊆ tcRefs τ sig := reshape_bufs_sub ..

def o4 : HloOp τ sig (Elt F) :=
  nullary main_cst (constant S_ .f32 0x3F800000#32)
theorem o4_sub : (o4 (F := F)).bufs ⊆ tcRefs τ sig := nullary_bufs_sub ..

def o5 : HloOp τ sig (Elt F) :=
  unary main_cst main_v4 (broadcastInDim S800000 ![] bcast_S_S800000 : (⟨S_, .f32⟩ : BufTy).Contents (Elt F) → (⟨S800000, .f32⟩ : BufTy).Contents (Elt F))
theorem o5_sub : (o5 (F := F)).bufs ⊆ tcRefs τ sig := unary_bufs_sub ..

def o6 : HloOp τ sig (Elt F) :=
  nullary main_cst_0 (constant S_ .f32 0x00000000#32)
theorem o6_sub : (o6 (F := F)).bufs ⊆ tcRefs τ sig := nullary_bufs_sub ..

def o7 : HloOp τ sig (Elt F) :=
  unary main_cst_0 main_v5 (broadcastInDim S50000 ![] bcast_S_S50000 : (⟨S_, .f32⟩ : BufTy).Contents (Elt F) → (⟨S50000, .f32⟩ : BufTy).Contents (Elt F))
theorem o7_sub : (o7 (F := F)).bufs ⊆ tcRefs τ sig := unary_bufs_sub ..

def o8 : HloOp τ sig (Elt F) :=
  unary main_v3 main_v6 (broadcastInDim S800000x1 ![0] bcast_S800000_S800000x1_0 : (⟨S800000, .i32⟩ : BufTy).Contents (Elt F) → (⟨S800000x1, .i32⟩ : BufTy).Contents (Elt F))
theorem o8_sub : (o8 (F := F)).bufs ⊆ tcRefs τ sig := unary_bufs_sub ..

def o9 : HloOp τ sig (Elt F) :=
  ternary main_v5 main_v6 main_v4 main_v7 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F))
theorem o9_sub : (o9 (F := F)).bufs ⊆ tcRefs τ sig := ternary_bufs_sub ..

def o10 : HloOp τ sig (Elt F) :=
  nullary main_cst_1 (constant S_ .f32 0x3F800000#32)
theorem o10_sub : (o10 (F := F)).bufs ⊆ tcRefs τ sig := nullary_bufs_sub ..

def o11 : HloOp τ sig (Elt F) :=
  unary main_cst_1 main_v8 (broadcastInDim S50000 ![] bcast_S_S50000 : (⟨S_, .f32⟩ : BufTy).Contents (Elt F) → (⟨S50000, .f32⟩ : BufTy).Contents (Elt F))
theorem o11_sub : (o11 (F := F)).bufs ⊆ tcRefs τ sig := unary_bufs_sub ..

def o12 : HloOp τ sig (Elt F) :=
  binary main_v8 main_v7 main_v9 (addf : (⟨S50000, .f32⟩ : BufTy).Contents (Elt F) → (⟨S50000, .f32⟩ : BufTy).Contents (Elt F) → (⟨S50000, .f32⟩ : BufTy).Contents (Elt F))
theorem o12_sub : (o12 (F := F)).bufs ⊆ tcRefs τ sig := binary_bufs_sub ..

def o13 : HloOp τ sig (Elt F) :=
  unary main_v9 main_v10 (Host.rsqrt : (⟨S50000, .f32⟩ : BufTy).Contents (Elt F) → (⟨S50000, .f32⟩ : BufTy).Contents (Elt F))
theorem o13_sub : (o13 (F := F)).bufs ⊆ tcRefs τ sig := unary_bufs_sub ..

def o14 : HloOp τ sig (Elt F) :=
  nullary main_c (constantI S_ 32 0#32)
theorem o14_sub : (o14 (F := F)).bufs ⊆ tcRefs τ sig := nullary_bufs_sub ..

def o15 : HloOp τ sig (Elt F) :=
  unary main_c main_v11 (broadcastInDim S800000 ![] bcast_S_S800000 : (⟨S_, .i32⟩ : BufTy).Contents (Elt F) → (⟨S800000, .i32⟩ : BufTy).Contents (Elt F))
theorem o15_sub : (o15 (F := F)).bufs ⊆ tcRefs τ sig := unary_bufs_sub ..

def o16 : HloOp τ sig (Elt F) :=
  binary main_v1 main_v11 main_v12 (cmpi .slt : (⟨S800000, .i32⟩ : BufTy).Contents (Elt F) → (⟨S800000, .i32⟩ : BufTy).Contents (Elt F) → (⟨S800000, .i1⟩ : BufTy).Contents (Elt F))
theorem o16_sub : (o16 (F := F)).bufs ⊆ tcRefs τ sig := binary_bufs_sub ..

def o17 : HloOp τ sig (Elt F) :=
  nullary main_c_2 (constantI S_ 32 50000#32)
theorem o17_sub : (o17 (F := F)).bufs ⊆ tcRefs τ sig := nullary_bufs_sub ..

def o18 : HloOp τ sig (Elt F) :=
  unary main_c_2 main_v13 (broadcastInDim S800000 ![] bcast_S_S800000 : (⟨S_, .i32⟩ : BufTy).Contents (Elt F) → (⟨S800000, .i32⟩ : BufTy).Contents (Elt F))
theorem o18_sub : (o18 (F := F)).bufs ⊆ tcRefs τ sig := unary_bufs_sub ..

def o19 : HloOp τ sig (Elt F) :=
  binary main_v1 main_v13 main_v14 (addi : (⟨S800000, .i32⟩ : BufTy).Contents (Elt F) → (⟨S800000, .i32⟩ : BufTy).Contents (Elt F) → (⟨S800000, .i32⟩ : BufTy).Contents (Elt F))
theorem o19_sub : (o19 (F := F)).bufs ⊆ tcRefs τ sig := binary_bufs_sub ..

def o20 : HloOp τ sig (Elt F) :=
  ternary main_v12 main_v14 main_v1 main_v15 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F))
theorem o20_sub : (o20 (F := F)).bufs ⊆ tcRefs τ sig := ternary_bufs_sub ..

def o21 : HloOp τ sig (Elt F) :=
  unary main_v15 main_v16 (broadcastInDim S800000x1 ![0] bcast_S800000_S800000x1_0 : (⟨S800000, .i32⟩ : BufTy).Contents (Elt F) → (⟨S800000x1, .i32⟩ : BufTy).Contents (Elt F))
theorem o21_sub : (o21 (F := F)).bufs ⊆ tcRefs τ sig := unary_bufs_sub ..

def o22 : HloOp τ sig (Elt F) :=
  binary main_v10 main_v16 main_v17 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F))
theorem o22_sub : (o22 (F := F)).bufs ⊆ tcRefs τ sig := binary_bufs_sub ..

def o23 : HloOp τ sig (Elt F) :=
  nullary main_c_3 (constantI S_ 32 0#32)
theorem o23_sub : (o23 (F := F)).bufs ⊆ tcRefs τ sig := nullary_bufs_sub ..

def o24 : HloOp τ sig (Elt F) :=
  unary main_c_3 main_v18 (broadcastInDim S800000 ![] bcast_S_S800000 : (⟨S_, .i32⟩ : BufTy).Contents (Elt F) → (⟨S800000, .i32⟩ : BufTy).Contents (Elt F))
theorem o24_sub : (o24 (F := F)).bufs ⊆ tcRefs τ sig := unary_bufs_sub ..

def o25 : HloOp τ sig (Elt F) :=
  binary main_v3 main_v18 main_v19 (cmpi .slt : (⟨S800000, .i32⟩ : BufTy).Contents (Elt F) → (⟨S800000, .i32⟩ : BufTy).Contents (Elt F) → (⟨S800000, .i1⟩ : BufTy).Contents (Elt F))
theorem o25_sub : (o25 (F := F)).bufs ⊆ tcRefs τ sig := binary_bufs_sub ..

def o26 : HloOp τ sig (Elt F) :=
  nullary main_c_4 (constantI S_ 32 50000#32)
theorem o26_sub : (o26 (F := F)).bufs ⊆ tcRefs τ sig := nullary_bufs_sub ..

def o27 : HloOp τ sig (Elt F) :=
  unary main_c_4 main_v20 (broadcastInDim S800000 ![] bcast_S_S800000 : (⟨S_, .i32⟩ : BufTy).Contents (Elt F) → (⟨S800000, .i32⟩ : BufTy).Contents (Elt F))
theorem o27_sub : (o27 (F := F)).bufs ⊆ tcRefs τ sig := unary_bufs_sub ..

def o28 : HloOp τ sig (Elt F) :=
  binary main_v3 main_v20 main_v21 (addi : (⟨S800000, .i32⟩ : BufTy).Contents (Elt F) → (⟨S800000, .i32⟩ : BufTy).Contents (Elt F) → (⟨S800000, .i32⟩ : BufTy).Contents (Elt F))
theorem o28_sub : (o28 (F := F)).bufs ⊆ tcRefs τ sig := binary_bufs_sub ..

def o29 : HloOp τ sig (Elt F) :=
  ternary main_v19 main_v21 main_v3 main_v22 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F))
theorem o29_sub : (o29 (F := F)).bufs ⊆ tcRefs τ sig := ternary_bufs_sub ..

def o30 : HloOp τ sig (Elt F) :=
  unary main_v22 main_v23 (broadcastInDim S800000x1 ![0] bcast_S800000_S800000x1_0 : (⟨S800000, .i32⟩ : BufTy).Contents (Elt F) → (⟨S800000x1, .i32⟩ : BufTy).Contents (Elt F))
theorem o30_sub : (o30 (F := F)).bufs ⊆ tcRefs τ sig := unary_bufs_sub ..

def o31 : HloOp τ sig (Elt F) :=
  binary main_v10 main_v23 main_v24 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F))
theorem o31_sub : (o31 (F := F)).bufs ⊆ tcRefs τ sig := binary_bufs_sub ..

def o32 : HloOp τ sig (Elt F) :=
  binary main_v17 main_v24 main_v25 (mulf : (⟨S800000, .f32⟩ : BufTy).Contents (Elt F) → (⟨S800000, .f32⟩ : BufTy).Contents (Elt F) → (⟨S800000, .f32⟩ : BufTy).Contents (Elt F))
theorem o32_sub : (o32 (F := F)).bufs ⊆ tcRefs τ sig := binary_bufs_sub ..

def o33 : HloOp τ sig (Elt F) :=
  binary main_v10 main_v10 main_v26 (mulf : (⟨S50000, .f32⟩ : BufTy).Contents (Elt F) → (⟨S50000, .f32⟩ : BufTy).Contents (Elt F) → (⟨S50000, .f32⟩ : BufTy).Contents (Elt F))
theorem o33_sub : (o33 (F := F)).bufs ⊆ tcRefs τ sig := binary_bufs_sub ..

def o34 : HloOp τ sig (Elt F) :=
  binary main_arg0 main_arg2 main_v27 ((fun l r => Host.dotGeneral dot_S50000x64_S64x128_S50000x128_1_0_0_1_n_n none l r) : (⟨S50000x64, .f32⟩ : BufTy).Contents (Elt F) → (⟨S64x128, .f32⟩ : BufTy).Contents (Elt F) → (⟨S50000x128, .f32⟩ : BufTy).Contents (Elt F))
theorem o34_sub : (o34 (F := F)).bufs ⊆ tcRefs τ sig := binary_bufs_sub ..

def o35 : HloOp τ sig (Elt F) :=
  nullary main_c_5 (constantI S_ 32 0#32)
theorem o35_sub : (o35 (F := F)).bufs ⊆ tcRefs τ sig := nullary_bufs_sub ..

def o36 : HloOp τ sig (Elt F) :=
  unary main_c_5 main_v28 (broadcastInDim S800000 ![] bcast_S_S800000 : (⟨S_, .i32⟩ : BufTy).Contents (Elt F) → (⟨S800000, .i32⟩ : BufTy).Contents (Elt F))
theorem o36_sub : (o36 (F := F)).bufs ⊆ tcRefs τ sig := unary_bufs_sub ..

def o37 : HloOp τ sig (Elt F) :=
  binary main_v1 main_v28 main_v29 (cmpi .slt : (⟨S800000, .i32⟩ : BufTy).Contents (Elt F) → (⟨S800000, .i32⟩ : BufTy).Contents (Elt F) → (⟨S800000, .i1⟩ : BufTy).Contents (Elt F))
theorem o37_sub : (o37 (F := F)).bufs ⊆ tcRefs τ sig := binary_bufs_sub ..

def o38 : HloOp τ sig (Elt F) :=
  nullary main_c_6 (constantI S_ 32 50000#32)
theorem o38_sub : (o38 (F := F)).bufs ⊆ tcRefs τ sig := nullary_bufs_sub ..

def o39 : HloOp τ sig (Elt F) :=
  unary main_c_6 main_v30 (broadcastInDim S800000 ![] bcast_S_S800000 : (⟨S_, .i32⟩ : BufTy).Contents (Elt F) → (⟨S800000, .i32⟩ : BufTy).Contents (Elt F))
theorem o39_sub : (o39 (F := F)).bufs ⊆ tcRefs τ sig := unary_bufs_sub ..

def o40 : HloOp τ sig (Elt F) :=
  binary main_v1 main_v30 main_v31 (addi : (⟨S800000, .i32⟩ : BufTy).Contents (Elt F) → (⟨S800000, .i32⟩ : BufTy).Contents (Elt F) → (⟨S800000, .i32⟩ : BufTy).Contents (Elt F))
theorem o40_sub : (o40 (F := F)).bufs ⊆ tcRefs τ sig := binary_bufs_sub ..

def o41 : HloOp τ sig (Elt F) :=
  ternary main_v29 main_v31 main_v1 main_v32 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F))
theorem o41_sub : (o41 (F := F)).bufs ⊆ tcRefs τ sig := ternary_bufs_sub ..

def o42 : HloOp τ sig (Elt F) :=
  unary main_v32 main_v33 (broadcastInDim S800000x1 ![0] bcast_S800000_S800000x1_0 : (⟨S800000, .i32⟩ : BufTy).Contents (Elt F) → (⟨S800000x1, .i32⟩ : BufTy).Contents (Elt F))
theorem o42_sub : (o42 (F := F)).bufs ⊆ tcRefs τ sig := unary_bufs_sub ..

def o43 : HloOp τ sig (Elt F) :=
  binary main_v27 main_v33 main_v34 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F))
theorem o43_sub : (o43 (F := F)).bufs ⊆ tcRefs τ sig := binary_bufs_sub ..

def o44 : HloOp τ sig (Elt F) :=
  unary main_v25 main_v35 (broadcastInDim S800000x1 ![0] bcast_S800000_S800000x1_0 : (⟨S800000, .f32⟩ : BufTy).Contents (Elt F) → (⟨S800000x1, .f32⟩ : BufTy).Contents (Elt F))
theorem o44_sub : (o44 (F := F)).bufs ⊆ tcRefs τ sig := unary_bufs_sub ..

def o45 : HloOp τ sig (Elt F) :=
  unary main_v35 main_v36 (broadcastInDim S800000x128 ![0, 1] bcast_S800000x1_S800000x128_0_1 : (⟨S800000x1, .f32⟩ : BufTy).Contents (Elt F) → (⟨S800000x128, .f32⟩ : BufTy).Contents (Elt F))
theorem o45_sub : (o45 (F := F)).bufs ⊆ tcRefs τ sig := unary_bufs_sub ..

def o46 : HloOp τ sig (Elt F) :=
  binary main_v34 main_v36 main_v37 (mulf : (⟨S800000x128, .f32⟩ : BufTy).Contents (Elt F) → (⟨S800000x128, .f32⟩ : BufTy).Contents (Elt F) → (⟨S800000x128, .f32⟩ : BufTy).Contents (Elt F))
theorem o46_sub : (o46 (F := F)).bufs ⊆ tcRefs τ sig := binary_bufs_sub ..

def o47 : HloOp τ sig (Elt F) :=
  nullary main_cst_7 (constant S_ .f32 0x00000000#32)
theorem o47_sub : (o47 (F := F)).bufs ⊆ tcRefs τ sig := nullary_bufs_sub ..

def o48 : HloOp τ sig (Elt F) :=
  unary main_cst_7 main_v38 (broadcastInDim S50000x128 ![] bcast_S_S50000x128 : (⟨S_, .f32⟩ : BufTy).Contents (Elt F) → (⟨S50000x128, .f32⟩ : BufTy).Contents (Elt F))
theorem o48_sub : (o48 (F := F)).bufs ⊆ tcRefs τ sig := unary_bufs_sub ..

def o49 : HloOp τ sig (Elt F) :=
  unary main_v3 main_v39 (broadcastInDim S800000x1 ![0] bcast_S800000_S800000x1_0 : (⟨S800000, .i32⟩ : BufTy).Contents (Elt F) → (⟨S800000x1, .i32⟩ : BufTy).Contents (Elt F))
theorem o49_sub : (o49 (F := F)).bufs ⊆ tcRefs τ sig := unary_bufs_sub ..

def o50 : HloOp τ sig (Elt F) :=
  ternary main_v38 main_v39 main_v37 main_v40 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F))
theorem o50_sub : (o50 (F := F)).bufs ⊆ tcRefs τ sig := ternary_bufs_sub ..

def o51 : HloOp τ sig (Elt F) :=
  unary main_v26 main_v41 (broadcastInDim S50000x1 ![0] bcast_S50000_S50000x1_0 : (⟨S50000, .f32⟩ : BufTy).Contents (Elt F) → (⟨S50000x1, .f32⟩ : BufTy).Contents (Elt F))
theorem o51_sub : (o51 (F := F)).bufs ⊆ tcRefs τ sig := unary_bufs_sub ..

def o52 : HloOp τ sig (Elt F) :=
  unary main_v41 main_v42 (broadcastInDim S50000x128 ![0, 1] bcast_S50000x1_S50000x128_0_1 : (⟨S50000x1, .f32⟩ : BufTy).Contents (Elt F) → (⟨S50000x128, .f32⟩ : BufTy).Contents (Elt F))
theorem o52_sub : (o52 (F := F)).bufs ⊆ tcRefs τ sig := unary_bufs_sub ..

def o53 : HloOp τ sig (Elt F) :=
  binary main_v27 main_v42 main_v43 (mulf : (⟨S50000x128, .f32⟩ : BufTy).Contents (Elt F) → (⟨S50000x128, .f32⟩ : BufTy).Contents (Elt F) → (⟨S50000x128, .f32⟩ : BufTy).Contents (Elt F))
theorem o53_sub : (o53 (F := F)).bufs ⊆ tcRefs τ sig := binary_bufs_sub ..

def o54 : HloOp τ sig (Elt F) :=
  binary main_v40 main_v43 main_v44 (addf : (⟨S50000x128, .f32⟩ : BufTy).Contents (Elt F) → (⟨S50000x128, .f32⟩ : BufTy).Contents (Elt F) → (⟨S50000x128, .f32⟩ : BufTy).Contents (Elt F))
theorem o54_sub : (o54 (F := F)).bufs ⊆ tcRefs τ sig := binary_bufs_sub ..

def o55 : HloOp τ sig (Elt F) :=
  unary main_arg3 main_v45 (broadcastInDim S1x128 ![1] bcast_S128_S1x128_1 : (⟨S128, .f32⟩ : BufTy).Contents (Elt F) → (⟨S1x128, .f32⟩ : BufTy).Contents (Elt F))
theorem o55_sub : (o55 (F := F)).bufs ⊆ tcRefs τ sig := unary_bufs_sub ..

def o56 : HloOp τ sig (Elt F) :=
  unary main_v45 main_v46 (broadcastInDim S50000x128 ![0, 1] bcast_S1x128_S50000x128_0_1 : (⟨S1x128, .f32⟩ : BufTy).Contents (Elt F) → (⟨S50000x128, .f32⟩ : BufTy).Contents (Elt F))
theorem o56_sub : (o56 (F := F)).bufs ⊆ tcRefs τ sig := unary_bufs_sub ..

def o57 : HloOp τ sig (Elt F) :=
  binary main_v44 main_v46 main_v47 (addf : (⟨S50000x128, .f32⟩ : BufTy).Contents (Elt F) → (⟨S50000x128, .f32⟩ : BufTy).Contents (Elt F) → (⟨S50000x128, .f32⟩ : BufTy).Contents (Elt F))
theorem o57_sub : (o57 (F := F)).bufs ⊆ tcRefs τ sig := binary_bufs_sub ..

def o58 : HloOp τ sig (Elt F) :=
  nullary main_cst_8 (constant S_ .f32 0x00000000#32)
theorem o58_sub : (o58 (F := F)).bufs ⊆ tcRefs τ sig := nullary_bufs_sub ..

def o59 : HloOp τ sig (Elt F) :=
  binary main_v47 main_cst_8 main_v48 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F))
theorem o59_sub : (o59 (F := F)).bufs ⊆ tcRefs τ sig := binary_bufs_sub ..

/-- The window's operations, in order. -/
def w0 : List (HloOp τ sig (Elt F)) :=
  [o0, o1, o2, o3, o4, o5, o6, o7, o8, o9, o10, o11, o12, o13, o14, o15, o16, o17, o18, o19, o20, o21, o22, o23, o24, o25, o26, o27, o28, o29, o30, o31, o32, o33, o34, o35, o36, o37, o38, o39, o40, o41, o42, o43, o44, o45, o46, o47, o48, o49, o50, o51, o52, o53, o54, o55, o56, o57, o58, o59]

set_option maxRecDepth 8192 in
set_option maxHeartbeats 4000000 in
/-- The window is that straight line: the called functions' definitions unfolded at their calls. -/
theorem part0_eq (c : Dev nD) : main_part0 (F := F) c = seq w0 := rfl

theorem w0_sub : (w0 : List (HloOp τ sig (Elt F))).Forall fun op => op.bufs ⊆ tcRefs τ sig :=
  ⟨o0_sub, o1_sub, o2_sub, o3_sub, o4_sub, o5_sub, o6_sub, o7_sub, o8_sub, o9_sub, o10_sub, o11_sub, o12_sub, o13_sub, o14_sub, o15_sub, o16_sub, o17_sub, o18_sub, o19_sub, o20_sub, o21_sub, o22_sub, o23_sub, o24_sub, o25_sub, o26_sub, o27_sub, o28_sub, o29_sub, o30_sub, o31_sub, o32_sub, o33_sub, o34_sub, o35_sub, o36_sub, o37_sub, o38_sub, o39_sub, o40_sub, o41_sub, o42_sub, o43_sub, o44_sub, o45_sub, o46_sub, o47_sub, o48_sub, o49_sub, o50_sub, o51_sub, o52_sub, o53_sub, o54_sub, o55_sub, o56_sub, o57_sub, o58_sub, o59_sub⟩

theorem w0_fresh : (w0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

end Cert.ReferenceIdeal.RefRun

end
-- ==== Proof.RefRunW1.lean ====
/-
  The reference program's statements 60 … 163 (of 366, the outlined functions' bodies written out at their calls),
  each as a named operation, and the program's window number 1 as the straight line of them.
-/
import proofs.«106426_j33148557590872_1_alg».proof.Proof.Gen.ReferenceIdeal
import Idealize.ShloMosaic.Lib.StableHlo.Run
import proofs.«106426_j33148557590872_1_alg».proof.Proof.RefRunPre

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

def o60 : HloOp τ sig (Elt F) :=
  nullary main_cst_9 (constant S_ .f32 0x47435000#32)
theorem o60_sub : (o60 (F := F)).bufs ⊆ tcRefs τ sig := nullary_bufs_sub ..

def o61 : HloOp τ sig (Elt F) :=
  unary main_cst_9 main_v49 (broadcastInDim S128 ![] bcast_S_S128 : (⟨S_, .f32⟩ : BufTy).Contents (Elt F) → (⟨S128, .f32⟩ : BufTy).Contents (Elt F))
theorem o61_sub : (o61 (F := F)).bufs ⊆ tcRefs τ sig := unary_bufs_sub ..

def o62 : HloOp τ sig (Elt F) :=
  binary main_v48 main_v49 main_v50 (Host.divf : (⟨S128, .f32⟩ : BufTy).Contents (Elt F) → (⟨S128, .f32⟩ : BufTy).Contents (Elt F) → (⟨S128, .f32⟩ : BufTy).Contents (Elt F))
theorem o62_sub : (o62 (F := F)).bufs ⊆ tcRefs τ sig := binary_bufs_sub ..

def o63 : HloOp τ sig (Elt F) :=
  nullary main_c_10 (constantI S_ 32 0#32)
theorem o63_sub : (o63 (F := F)).bufs ⊆ tcRefs τ sig := nullary_bufs_sub ..

def o64 : HloOp τ sig (Elt F) :=
  TRef.nullary main_call0.cst (constant S_ .f32 0x00000000#32)
theorem o64_sub : (o64 (F := F)).bufs ⊆ tcRefs τ sig := tnullary_sub (Val := Elt F) main_call0.cst (constant S_ .f32 0x00000000#32)

def o65 : HloOp τ sig (Elt F) :=
  TRef.binary (.of main_v47) main_call0.cst main_call0.v0 (fun x v => Host.reduceAdd x v reducesTo_S50000x128_S128_d0 h_S_)
theorem o65_sub : (o65 (F := F)).bufs ⊆ tcRefs τ sig := tbinary_sub (Val := Elt F) (.of main_v47) main_call0.cst main_call0.v0 (fun x v => Host.reduceAdd x v reducesTo_S50000x128_S128_d0 h_S_)

def o66 : HloOp τ sig (Elt F) :=
  TRef.unary main_call0.v0 main_call0.v1 (broadcastInDim S1x128 ![1] bcast_S128_S1x128_1)
theorem o66_sub : (o66 (F := F)).bufs ⊆ tcRefs τ sig := tunary_sub (Val := Elt F) main_call0.v0 main_call0.v1 (broadcastInDim S1x128 ![1] bcast_S128_S1x128_1)

def o67 : HloOp τ sig (Elt F) :=
  TRef.nullary main_call0.cst_0 (constant S_ .f32 0x47435000#32)
theorem o67_sub : (o67 (F := F)).bufs ⊆ tcRefs τ sig := tnullary_sub (Val := Elt F) main_call0.cst_0 (constant S_ .f32 0x47435000#32)

def o68 : HloOp τ sig (Elt F) :=
  TRef.unary main_call0.cst_0 main_call0.v2 (broadcastInDim S1x128 ![] bcast_S_S1x128)
theorem o68_sub : (o68 (F := F)).bufs ⊆ tcRefs τ sig := tunary_sub (Val := Elt F) main_call0.cst_0 main_call0.v2 (broadcastInDim S1x128 ![] bcast_S_S1x128)

def o69 : HloOp τ sig (Elt F) :=
  TRef.binary main_call0.v1 main_call0.v2 main_call0.v3 Host.divf
theorem o69_sub : (o69 (F := F)).bufs ⊆ tcRefs τ sig := tbinary_sub (Val := Elt F) main_call0.v1 main_call0.v2 main_call0.v3 Host.divf

def o70 : HloOp τ sig (Elt F) :=
  TRef.unary main_call0.v3 main_call0.v4 (broadcastInDim S50000x128 ![0, 1] bcast_S1x128_S50000x128_0_1)
theorem o70_sub : (o70 (F := F)).bufs ⊆ tcRefs τ sig := tunary_sub (Val := Elt F) main_call0.v3 main_call0.v4 (broadcastInDim S50000x128 ![0, 1] bcast_S1x128_S50000x128_0_1)

def o71 : HloOp τ sig (Elt F) :=
  TRef.binary (.of main_v47) main_call0.v4 main_call0.v5 subf
theorem o71_sub : (o71 (F := F)).bufs ⊆ tcRefs τ sig := tbinary_sub (Val := Elt F) (.of main_v47) main_call0.v4 main_call0.v5 subf

def o72 : HloOp τ sig (Elt F) :=
  TRef.binary main_call0.v5 main_call0.v5 main_call0.v6 mulf
theorem o72_sub : (o72 (F := F)).bufs ⊆ tcRefs τ sig := tbinary_sub (Val := Elt F) main_call0.v5 main_call0.v5 main_call0.v6 mulf

def o73 : HloOp τ sig (Elt F) :=
  TRef.unary (.of main_c_10) main_call0.v7 (sitofp .f32)
theorem o73_sub : (o73 (F := F)).bufs ⊆ tcRefs τ sig := tunary_sub (Val := Elt F) (.of main_c_10) main_call0.v7 (sitofp .f32)

def o74 : HloOp τ sig (Elt F) :=
  TRef.nullary main_call0.cst_1 (constant S_ .f32 0x47435000#32)
theorem o74_sub : (o74 (F := F)).bufs ⊆ tcRefs τ sig := tnullary_sub (Val := Elt F) main_call0.cst_1 (constant S_ .f32 0x47435000#32)

def o75 : HloOp τ sig (Elt F) :=
  TRef.binary main_call0.cst_1 main_call0.v7 main_call0.v8 subf
theorem o75_sub : (o75 (F := F)).bufs ⊆ tcRefs τ sig := tbinary_sub (Val := Elt F) main_call0.cst_1 main_call0.v7 main_call0.v8 subf

def o76 : HloOp τ sig (Elt F) :=
  TRef.nullary main_call0.cst_2 (constant S_ .f32 0x00000000#32)
theorem o76_sub : (o76 (F := F)).bufs ⊆ tcRefs τ sig := tnullary_sub (Val := Elt F) main_call0.cst_2 (constant S_ .f32 0x00000000#32)

def o77 : HloOp τ sig (Elt F) :=
  TRef.binary main_call0.v6 main_call0.cst_2 main_call0.v9 (fun x v => Host.reduceAdd x v reducesTo_S50000x128_S128_d0 h_S_)
theorem o77_sub : (o77 (F := F)).bufs ⊆ tcRefs τ sig := tbinary_sub (Val := Elt F) main_call0.v6 main_call0.cst_2 main_call0.v9 (fun x v => Host.reduceAdd x v reducesTo_S50000x128_S128_d0 h_S_)

def o78 : HloOp τ sig (Elt F) :=
  TRef.unary main_call0.v8 main_call0.v10 (broadcastInDim S128 ![] bcast_S_S128)
theorem o78_sub : (o78 (F := F)).bufs ⊆ tcRefs τ sig := tunary_sub (Val := Elt F) main_call0.v8 main_call0.v10 (broadcastInDim S128 ![] bcast_S_S128)

def o79 : HloOp τ sig (Elt F) :=
  TRef.binary main_call0.v9 main_call0.v10 main_call0.v11 Host.divf
theorem o79_sub : (o79 (F := F)).bufs ⊆ tcRefs τ sig := tbinary_sub (Val := Elt F) main_call0.v9 main_call0.v10 main_call0.v11 Host.divf

def o80 : HloOp τ sig (Elt F) :=
  TRef.nullary main_call0.cst_3 (constant S_ .f32 0x00000000#32)
theorem o80_sub : (o80 (F := F)).bufs ⊆ tcRefs τ sig := tnullary_sub (Val := Elt F) main_call0.cst_3 (constant S_ .f32 0x00000000#32)

def o81 : HloOp τ sig (Elt F) :=
  TRef.binary main_call0.v8 main_call0.cst_3 main_call0.v12 (cmpf .ogt)
theorem o81_sub : (o81 (F := F)).bufs ⊆ tcRefs τ sig := tbinary_sub (Val := Elt F) main_call0.v8 main_call0.cst_3 main_call0.v12 (cmpf .ogt)

def o82 : HloOp τ sig (Elt F) :=
  TRef.nullary main_call0.cst_4 (constant S_ .f32 0x7FC00000#32)
theorem o82_sub : (o82 (F := F)).bufs ⊆ tcRefs τ sig := tnullary_sub (Val := Elt F) main_call0.cst_4 (constant S_ .f32 0x7FC00000#32)

def o83 : HloOp τ sig (Elt F) :=
  TRef.unary main_call0.cst_4 main_call0.call0.v0 id
theorem o83_sub : (o83 (F := F)).bufs ⊆ tcRefs τ sig := tunary_sub (Val := Elt F) main_call0.cst_4 main_call0.call0.v0 id

def o84 : HloOp τ sig (Elt F) :=
  TRef.unary main_call0.call0.v0 main_call0.call0.v1 (broadcastInDim S128 ![] bcast_S_S128)
theorem o84_sub : (o84 (F := F)).bufs ⊆ tcRefs τ sig := tunary_sub (Val := Elt F) main_call0.call0.v0 main_call0.call0.v1 (broadcastInDim S128 ![] bcast_S_S128)

def o85 : HloOp τ sig (Elt F) :=
  TRef.ternary main_call0.v12 main_call0.v11 main_call0.call0.v1 main_call0.call0.v2 (fun p a b => select (broadcastInDim S128 ![] bcast_S_S128 p) a b)
theorem o85_sub : (o85 (F := F)).bufs ⊆ tcRefs τ sig := tternary_sub (Val := Elt F) main_call0.v12 main_call0.v11 main_call0.call0.v1 main_call0.call0.v2 (fun p a b => select (broadcastInDim S128 ![] bcast_S_S128 p) a b)

def o86 : HloOp τ sig (Elt F) :=
  unary main_v50 main_v52 (broadcastInDim S1x128 ![1] bcast_S128_S1x128_1 : (⟨S128, .f32⟩ : BufTy).Contents (Elt F) → (⟨S1x128, .f32⟩ : BufTy).Contents (Elt F))
theorem o86_sub : (o86 (F := F)).bufs ⊆ tcRefs τ sig := unary_bufs_sub ..

def o87 : HloOp τ sig (Elt F) :=
  unary main_v52 main_v53 (broadcastInDim S50000x128 ![0, 1] bcast_S1x128_S50000x128_0_1 : (⟨S1x128, .f32⟩ : BufTy).Contents (Elt F) → (⟨S50000x128, .f32⟩ : BufTy).Contents (Elt F))
theorem o87_sub : (o87 (F := F)).bufs ⊆ tcRefs τ sig := unary_bufs_sub ..

def o88 : HloOp τ sig (Elt F) :=
  binary main_v47 main_v53 main_v54 (subf : (⟨S50000x128, .f32⟩ : BufTy).Contents (Elt F) → (⟨S50000x128, .f32⟩ : BufTy).Contents (Elt F) → (⟨S50000x128, .f32⟩ : BufTy).Contents (Elt F))
theorem o88_sub : (o88 (F := F)).bufs ⊆ tcRefs τ sig := binary_bufs_sub ..

def o89 : HloOp τ sig (Elt F) :=
  nullary main_cst_11 (constant S_ .f32 0x3727C5AC#32)
theorem o89_sub : (o89 (F := F)).bufs ⊆ tcRefs τ sig := nullary_bufs_sub ..

def o90 : HloOp τ sig (Elt F) :=
  unary main_cst_11 main_v55 (broadcastInDim S128 ![] bcast_S_S128 : (⟨S_, .f32⟩ : BufTy).Contents (Elt F) → (⟨S128, .f32⟩ : BufTy).Contents (Elt F))
theorem o90_sub : (o90 (F := F)).bufs ⊆ tcRefs τ sig := unary_bufs_sub ..

def o91 : HloOp τ sig (Elt F) :=
  binary main_v51 main_v55 main_v56 (addf : (⟨S128, .f32⟩ : BufTy).Contents (Elt F) → (⟨S128, .f32⟩ : BufTy).Contents (Elt F) → (⟨S128, .f32⟩ : BufTy).Contents (Elt F))
theorem o91_sub : (o91 (F := F)).bufs ⊆ tcRefs τ sig := binary_bufs_sub ..

def o92 : HloOp τ sig (Elt F) :=
  unary main_v56 main_v57 (Host.rsqrt : (⟨S128, .f32⟩ : BufTy).Contents (Elt F) → (⟨S128, .f32⟩ : BufTy).Contents (Elt F))
theorem o92_sub : (o92 (F := F)).bufs ⊆ tcRefs τ sig := unary_bufs_sub ..

def o93 : HloOp τ sig (Elt F) :=
  unary main_v57 main_v58 (broadcastInDim S1x128 ![1] bcast_S128_S1x128_1 : (⟨S128, .f32⟩ : BufTy).Contents (Elt F) → (⟨S1x128, .f32⟩ : BufTy).Contents (Elt F))
theorem o93_sub : (o93 (F := F)).bufs ⊆ tcRefs τ sig := unary_bufs_sub ..

def o94 : HloOp τ sig (Elt F) :=
  unary main_v58 main_v59 (broadcastInDim S50000x128 ![0, 1] bcast_S1x128_S50000x128_0_1 : (⟨S1x128, .f32⟩ : BufTy).Contents (Elt F) → (⟨S50000x128, .f32⟩ : BufTy).Contents (Elt F))
theorem o94_sub : (o94 (F := F)).bufs ⊆ tcRefs τ sig := unary_bufs_sub ..

def o95 : HloOp τ sig (Elt F) :=
  binary main_v54 main_v59 main_v60 (mulf : (⟨S50000x128, .f32⟩ : BufTy).Contents (Elt F) → (⟨S50000x128, .f32⟩ : BufTy).Contents (Elt F) → (⟨S50000x128, .f32⟩ : BufTy).Contents (Elt F))
theorem o95_sub : (o95 (F := F)).bufs ⊆ tcRefs τ sig := binary_bufs_sub ..

def o96 : HloOp τ sig (Elt F) :=
  unary main_arg4 main_v61 (broadcastInDim S1x128 ![1] bcast_S128_S1x128_1 : (⟨S128, .f32⟩ : BufTy).Contents (Elt F) → (⟨S1x128, .f32⟩ : BufTy).Contents (Elt F))
theorem o96_sub : (o96 (F := F)).bufs ⊆ tcRefs τ sig := unary_bufs_sub ..

def o97 : HloOp τ sig (Elt F) :=
  unary main_v61 main_v62 (broadcastInDim S50000x128 ![0, 1] bcast_S1x128_S50000x128_0_1 : (⟨S1x128, .f32⟩ : BufTy).Contents (Elt F) → (⟨S50000x128, .f32⟩ : BufTy).Contents (Elt F))
theorem o97_sub : (o97 (F := F)).bufs ⊆ tcRefs τ sig := unary_bufs_sub ..

def o98 : HloOp τ sig (Elt F) :=
  binary main_v60 main_v62 main_v63 (mulf : (⟨S50000x128, .f32⟩ : BufTy).Contents (Elt F) → (⟨S50000x128, .f32⟩ : BufTy).Contents (Elt F) → (⟨S50000x128, .f32⟩ : BufTy).Contents (Elt F))
theorem o98_sub : (o98 (F := F)).bufs ⊆ tcRefs τ sig := binary_bufs_sub ..

def o99 : HloOp τ sig (Elt F) :=
  unary main_arg5 main_v64 (broadcastInDim S1x128 ![1] bcast_S128_S1x128_1 : (⟨S128, .f32⟩ : BufTy).Contents (Elt F) → (⟨S1x128, .f32⟩ : BufTy).Contents (Elt F))
theorem o99_sub : (o99 (F := F)).bufs ⊆ tcRefs τ sig := unary_bufs_sub ..

def o100 : HloOp τ sig (Elt F) :=
  unary main_v64 main_v65 (broadcastInDim S50000x128 ![0, 1] bcast_S1x128_S50000x128_0_1 : (⟨S1x128, .f32⟩ : BufTy).Contents (Elt F) → (⟨S50000x128, .f32⟩ : BufTy).Contents (Elt F))
theorem o100_sub : (o100 (F := F)).bufs ⊆ tcRefs τ sig := unary_bufs_sub ..

def o101 : HloOp τ sig (Elt F) :=
  binary main_v63 main_v65 main_v66 (addf : (⟨S50000x128, .f32⟩ : BufTy).Contents (Elt F) → (⟨S50000x128, .f32⟩ : BufTy).Contents (Elt F) → (⟨S50000x128, .f32⟩ : BufTy).Contents (Elt F))
theorem o101_sub : (o101 (F := F)).bufs ⊆ tcRefs τ sig := binary_bufs_sub ..

def o102 : HloOp τ sig (Elt F) :=
  TRef.nullary main_call1.cst (constant S_ .f32 0x00000000#32)
theorem o102_sub : (o102 (F := F)).bufs ⊆ tcRefs τ sig := tnullary_sub (Val := Elt F) main_call1.cst (constant S_ .f32 0x00000000#32)

def o103 : HloOp τ sig (Elt F) :=
  TRef.unary main_call1.cst main_call1.v0 (broadcastInDim S50000x128 ![] bcast_S_S50000x128)
theorem o103_sub : (o103 (F := F)).bufs ⊆ tcRefs τ sig := tunary_sub (Val := Elt F) main_call1.cst main_call1.v0 (broadcastInDim S50000x128 ![] bcast_S_S50000x128)

def o104 : HloOp τ sig (Elt F) :=
  TRef.binary (.of main_v66) main_call1.v0 main_call1.v1 maximumf
theorem o104_sub : (o104 (F := F)).bufs ⊆ tcRefs τ sig := tbinary_sub (Val := Elt F) (.of main_v66) main_call1.v0 main_call1.v1 maximumf

def o105 : HloOp τ sig (Elt F) :=
  binary main_v67 main_arg6 main_v68 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F))
theorem o105_sub : (o105 (F := F)).bufs ⊆ tcRefs τ sig := binary_bufs_sub ..

def o106 : HloOp τ sig (Elt F) :=
  nullary main_c_12 (constantI S_ 32 0#32)
theorem o106_sub : (o106 (F := F)).bufs ⊆ tcRefs τ sig := nullary_bufs_sub ..

def o107 : HloOp τ sig (Elt F) :=
  unary main_c_12 main_v69 (broadcastInDim S800000 ![] bcast_S_S800000 : (⟨S_, .i32⟩ : BufTy).Contents (Elt F) → (⟨S800000, .i32⟩ : BufTy).Contents (Elt F))
theorem o107_sub : (o107 (F := F)).bufs ⊆ tcRefs τ sig := unary_bufs_sub ..

def o108 : HloOp τ sig (Elt F) :=
  binary main_v1 main_v69 main_v70 (cmpi .slt : (⟨S800000, .i32⟩ : BufTy).Contents (Elt F) → (⟨S800000, .i32⟩ : BufTy).Contents (Elt F) → (⟨S800000, .i1⟩ : BufTy).Contents (Elt F))
theorem o108_sub : (o108 (F := F)).bufs ⊆ tcRefs τ sig := binary_bufs_sub ..

def o109 : HloOp τ sig (Elt F) :=
  nullary main_c_13 (constantI S_ 32 50000#32)
theorem o109_sub : (o109 (F := F)).bufs ⊆ tcRefs τ sig := nullary_bufs_sub ..

def o110 : HloOp τ sig (Elt F) :=
  unary main_c_13 main_v71 (broadcastInDim S800000 ![] bcast_S_S800000 : (⟨S_, .i32⟩ : BufTy).Contents (Elt F) → (⟨S800000, .i32⟩ : BufTy).Contents (Elt F))
theorem o110_sub : (o110 (F := F)).bufs ⊆ tcRefs τ sig := unary_bufs_sub ..

def o111 : HloOp τ sig (Elt F) :=
  binary main_v1 main_v71 main_v72 (addi : (⟨S800000, .i32⟩ : BufTy).Contents (Elt F) → (⟨S800000, .i32⟩ : BufTy).Contents (Elt F) → (⟨S800000, .i32⟩ : BufTy).Contents (Elt F))
theorem o111_sub : (o111 (F := F)).bufs ⊆ tcRefs τ sig := binary_bufs_sub ..

def o112 : HloOp τ sig (Elt F) :=
  ternary main_v70 main_v72 main_v1 main_v73 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F))
theorem o112_sub : (o112 (F := F)).bufs ⊆ tcRefs τ sig := ternary_bufs_sub ..

def o113 : HloOp τ sig (Elt F) :=
  unary main_v73 main_v74 (broadcastInDim S800000x1 ![0] bcast_S800000_S800000x1_0 : (⟨S800000, .i32⟩ : BufTy).Contents (Elt F) → (⟨S800000x1, .i32⟩ : BufTy).Contents (Elt F))
theorem o113_sub : (o113 (F := F)).bufs ⊆ tcRefs τ sig := unary_bufs_sub ..

def o114 : HloOp τ sig (Elt F) :=
  binary main_v68 main_v74 main_v75 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F))
theorem o114_sub : (o114 (F := F)).bufs ⊆ tcRefs τ sig := binary_bufs_sub ..

def o115 : HloOp τ sig (Elt F) :=
  unary main_v25 main_v76 (broadcastInDim S800000x1 ![0] bcast_S800000_S800000x1_0 : (⟨S800000, .f32⟩ : BufTy).Contents (Elt F) → (⟨S800000x1, .f32⟩ : BufTy).Contents (Elt F))
theorem o115_sub : (o115 (F := F)).bufs ⊆ tcRefs τ sig := unary_bufs_sub ..

def o116 : HloOp τ sig (Elt F) :=
  unary main_v76 main_v77 (broadcastInDim S800000x256 ![0, 1] bcast_S800000x1_S800000x256_0_1 : (⟨S800000x1, .f32⟩ : BufTy).Contents (Elt F) → (⟨S800000x256, .f32⟩ : BufTy).Contents (Elt F))
theorem o116_sub : (o116 (F := F)).bufs ⊆ tcRefs τ sig := unary_bufs_sub ..

def o117 : HloOp τ sig (Elt F) :=
  binary main_v75 main_v77 main_v78 (mulf : (⟨S800000x256, .f32⟩ : BufTy).Contents (Elt F) → (⟨S800000x256, .f32⟩ : BufTy).Contents (Elt F) → (⟨S800000x256, .f32⟩ : BufTy).Contents (Elt F))
theorem o117_sub : (o117 (F := F)).bufs ⊆ tcRefs τ sig := binary_bufs_sub ..

def o118 : HloOp τ sig (Elt F) :=
  nullary main_cst_14 (constant S_ .f32 0x00000000#32)
theorem o118_sub : (o118 (F := F)).bufs ⊆ tcRefs τ sig := nullary_bufs_sub ..

def o119 : HloOp τ sig (Elt F) :=
  unary main_cst_14 main_v79 (broadcastInDim S50000x256 ![] bcast_S_S50000x256 : (⟨S_, .f32⟩ : BufTy).Contents (Elt F) → (⟨S50000x256, .f32⟩ : BufTy).Contents (Elt F))
theorem o119_sub : (o119 (F := F)).bufs ⊆ tcRefs τ sig := unary_bufs_sub ..

def o120 : HloOp τ sig (Elt F) :=
  unary main_v3 main_v80 (broadcastInDim S800000x1 ![0] bcast_S800000_S800000x1_0 : (⟨S800000, .i32⟩ : BufTy).Contents (Elt F) → (⟨S800000x1, .i32⟩ : BufTy).Contents (Elt F))
theorem o120_sub : (o120 (F := F)).bufs ⊆ tcRefs τ sig := unary_bufs_sub ..

def o121 : HloOp τ sig (Elt F) :=
  ternary main_v79 main_v80 main_v78 main_v81 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F))
theorem o121_sub : (o121 (F := F)).bufs ⊆ tcRefs τ sig := ternary_bufs_sub ..

def o122 : HloOp τ sig (Elt F) :=
  unary main_v26 main_v82 (broadcastInDim S50000x1 ![0] bcast_S50000_S50000x1_0 : (⟨S50000, .f32⟩ : BufTy).Contents (Elt F) → (⟨S50000x1, .f32⟩ : BufTy).Contents (Elt F))
theorem o122_sub : (o122 (F := F)).bufs ⊆ tcRefs τ sig := unary_bufs_sub ..

def o123 : HloOp τ sig (Elt F) :=
  unary main_v82 main_v83 (broadcastInDim S50000x256 ![0, 1] bcast_S50000x1_S50000x256_0_1 : (⟨S50000x1, .f32⟩ : BufTy).Contents (Elt F) → (⟨S50000x256, .f32⟩ : BufTy).Contents (Elt F))
theorem o123_sub : (o123 (F := F)).bufs ⊆ tcRefs τ sig := unary_bufs_sub ..

def o124 : HloOp τ sig (Elt F) :=
  binary main_v68 main_v83 main_v84 (mulf : (⟨S50000x256, .f32⟩ : BufTy).Contents (Elt F) → (⟨S50000x256, .f32⟩ : BufTy).Contents (Elt F) → (⟨S50000x256, .f32⟩ : BufTy).Contents (Elt F))
theorem o124_sub : (o124 (F := F)).bufs ⊆ tcRefs τ sig := binary_bufs_sub ..

def o125 : HloOp τ sig (Elt F) :=
  binary main_v81 main_v84 main_v85 (addf : (⟨S50000x256, .f32⟩ : BufTy).Contents (Elt F) → (⟨S50000x256, .f32⟩ : BufTy).Contents (Elt F) → (⟨S50000x256, .f32⟩ : BufTy).Contents (Elt F))
theorem o125_sub : (o125 (F := F)).bufs ⊆ tcRefs τ sig := binary_bufs_sub ..

def o126 : HloOp τ sig (Elt F) :=
  unary main_arg7 main_v86 (broadcastInDim S1x256 ![1] bcast_S256_S1x256_1 : (⟨S256, .f32⟩ : BufTy).Contents (Elt F) → (⟨S1x256, .f32⟩ : BufTy).Contents (Elt F))
theorem o126_sub : (o126 (F := F)).bufs ⊆ tcRefs τ sig := unary_bufs_sub ..

def o127 : HloOp τ sig (Elt F) :=
  unary main_v86 main_v87 (broadcastInDim S50000x256 ![0, 1] bcast_S1x256_S50000x256_0_1 : (⟨S1x256, .f32⟩ : BufTy).Contents (Elt F) → (⟨S50000x256, .f32⟩ : BufTy).Contents (Elt F))
theorem o127_sub : (o127 (F := F)).bufs ⊆ tcRefs τ sig := unary_bufs_sub ..

def o128 : HloOp τ sig (Elt F) :=
  binary main_v85 main_v87 main_v88 (addf : (⟨S50000x256, .f32⟩ : BufTy).Contents (Elt F) → (⟨S50000x256, .f32⟩ : BufTy).Contents (Elt F) → (⟨S50000x256, .f32⟩ : BufTy).Contents (Elt F))
theorem o128_sub : (o128 (F := F)).bufs ⊆ tcRefs τ sig := binary_bufs_sub ..

def o129 : HloOp τ sig (Elt F) :=
  nullary main_cst_15 (constant S_ .f32 0x00000000#32)
theorem o129_sub : (o129 (F := F)).bufs ⊆ tcRefs τ sig := nullary_bufs_sub ..

def o130 : HloOp τ sig (Elt F) :=
  binary main_v88 main_cst_15 main_v89 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F))
theorem o130_sub : (o130 (F := F)).bufs ⊆ tcRefs τ sig := binary_bufs_sub ..

def o131 : HloOp τ sig (Elt F) :=
  nullary main_cst_16 (constant S_ .f32 0x47435000#32)
theorem o131_sub : (o131 (F := F)).bufs ⊆ tcRefs τ sig := nullary_bufs_sub ..

def o132 : HloOp τ sig (Elt F) :=
  unary main_cst_16 main_v90 (broadcastInDim S256 ![] bcast_S_S256 : (⟨S_, .f32⟩ : BufTy).Contents (Elt F) → (⟨S256, .f32⟩ : BufTy).Contents (Elt F))
theorem o132_sub : (o132 (F := F)).bufs ⊆ tcRefs τ sig := unary_bufs_sub ..

def o133 : HloOp τ sig (Elt F) :=
  binary main_v89 main_v90 main_v91 (Host.divf : (⟨S256, .f32⟩ : BufTy).Contents (Elt F) → (⟨S256, .f32⟩ : BufTy).Contents (Elt F) → (⟨S256, .f32⟩ : BufTy).Contents (Elt F))
theorem o133_sub : (o133 (F := F)).bufs ⊆ tcRefs τ sig := binary_bufs_sub ..

def o134 : HloOp τ sig (Elt F) :=
  nullary main_c_17 (constantI S_ 32 0#32)
theorem o134_sub : (o134 (F := F)).bufs ⊆ tcRefs τ sig := nullary_bufs_sub ..

def o135 : HloOp τ sig (Elt F) :=
  TRef.nullary main_call2.cst (constant S_ .f32 0x00000000#32)
theorem o135_sub : (o135 (F := F)).bufs ⊆ tcRefs τ sig := tnullary_sub (Val := Elt F) main_call2.cst (constant S_ .f32 0x00000000#32)

def o136 : HloOp τ sig (Elt F) :=
  TRef.binary (.of main_v88) main_call2.cst main_call2.v0 (fun x v => Host.reduceAdd x v reducesTo_S50000x256_S256_d0 h_S_)
theorem o136_sub : (o136 (F := F)).bufs ⊆ tcRefs τ sig := tbinary_sub (Val := Elt F) (.of main_v88) main_call2.cst main_call2.v0 (fun x v => Host.reduceAdd x v reducesTo_S50000x256_S256_d0 h_S_)

def o137 : HloOp τ sig (Elt F) :=
  TRef.unary main_call2.v0 main_call2.v1 (broadcastInDim S1x256 ![1] bcast_S256_S1x256_1)
theorem o137_sub : (o137 (F := F)).bufs ⊆ tcRefs τ sig := tunary_sub (Val := Elt F) main_call2.v0 main_call2.v1 (broadcastInDim S1x256 ![1] bcast_S256_S1x256_1)

def o138 : HloOp τ sig (Elt F) :=
  TRef.nullary main_call2.cst_0 (constant S_ .f32 0x47435000#32)
theorem o138_sub : (o138 (F := F)).bufs ⊆ tcRefs τ sig := tnullary_sub (Val := Elt F) main_call2.cst_0 (constant S_ .f32 0x47435000#32)

def o139 : HloOp τ sig (Elt F) :=
  TRef.unary main_call2.cst_0 main_call2.v2 (broadcastInDim S1x256 ![] bcast_S_S1x256)
theorem o139_sub : (o139 (F := F)).bufs ⊆ tcRefs τ sig := tunary_sub (Val := Elt F) main_call2.cst_0 main_call2.v2 (broadcastInDim S1x256 ![] bcast_S_S1x256)

def o140 : HloOp τ sig (Elt F) :=
  TRef.binary main_call2.v1 main_call2.v2 main_call2.v3 Host.divf
theorem o140_sub : (o140 (F := F)).bufs ⊆ tcRefs τ sig := tbinary_sub (Val := Elt F) main_call2.v1 main_call2.v2 main_call2.v3 Host.divf

def o141 : HloOp τ sig (Elt F) :=
  TRef.unary main_call2.v3 main_call2.v4 (broadcastInDim S50000x256 ![0, 1] bcast_S1x256_S50000x256_0_1)
theorem o141_sub : (o141 (F := F)).bufs ⊆ tcRefs τ sig := tunary_sub (Val := Elt F) main_call2.v3 main_call2.v4 (broadcastInDim S50000x256 ![0, 1] bcast_S1x256_S50000x256_0_1)

def o142 : HloOp τ sig (Elt F) :=
  TRef.binary (.of main_v88) main_call2.v4 main_call2.v5 subf
theorem o142_sub : (o142 (F := F)).bufs ⊆ tcRefs τ sig := tbinary_sub (Val := Elt F) (.of main_v88) main_call2.v4 main_call2.v5 subf

def o143 : HloOp τ sig (Elt F) :=
  TRef.binary main_call2.v5 main_call2.v5 main_call2.v6 mulf
theorem o143_sub : (o143 (F := F)).bufs ⊆ tcRefs τ sig := tbinary_sub (Val := Elt F) main_call2.v5 main_call2.v5 main_call2.v6 mulf

def o144 : HloOp τ sig (Elt F) :=
  TRef.unary (.of main_c_17) main_call2.v7 (sitofp .f32)
theorem o144_sub : (o144 (F := F)).bufs ⊆ tcRefs τ sig := tunary_sub (Val := Elt F) (.of main_c_17) main_call2.v7 (sitofp .f32)

def o145 : HloOp τ sig (Elt F) :=
  TRef.nullary main_call2.cst_1 (constant S_ .f32 0x47435000#32)
theorem o145_sub : (o145 (F := F)).bufs ⊆ tcRefs τ sig := tnullary_sub (Val := Elt F) main_call2.cst_1 (constant S_ .f32 0x47435000#32)

def o146 : HloOp τ sig (Elt F) :=
  TRef.binary main_call2.cst_1 main_call2.v7 main_call2.v8 subf
theorem o146_sub : (o146 (F := F)).bufs ⊆ tcRefs τ sig := tbinary_sub (Val := Elt F) main_call2.cst_1 main_call2.v7 main_call2.v8 subf

def o147 : HloOp τ sig (Elt F) :=
  TRef.nullary main_call2.cst_2 (constant S_ .f32 0x00000000#32)
theorem o147_sub : (o147 (F := F)).bufs ⊆ tcRefs τ sig := tnullary_sub (Val := Elt F) main_call2.cst_2 (constant S_ .f32 0x00000000#32)

def o148 : HloOp τ sig (Elt F) :=
  TRef.binary main_call2.v6 main_call2.cst_2 main_call2.v9 (fun x v => Host.reduceAdd x v reducesTo_S50000x256_S256_d0 h_S_)
theorem o148_sub : (o148 (F := F)).bufs ⊆ tcRefs τ sig := tbinary_sub (Val := Elt F) main_call2.v6 main_call2.cst_2 main_call2.v9 (fun x v => Host.reduceAdd x v reducesTo_S50000x256_S256_d0 h_S_)

def o149 : HloOp τ sig (Elt F) :=
  TRef.unary main_call2.v8 main_call2.v10 (broadcastInDim S256 ![] bcast_S_S256)
theorem o149_sub : (o149 (F := F)).bufs ⊆ tcRefs τ sig := tunary_sub (Val := Elt F) main_call2.v8 main_call2.v10 (broadcastInDim S256 ![] bcast_S_S256)

def o150 : HloOp τ sig (Elt F) :=
  TRef.binary main_call2.v9 main_call2.v10 main_call2.v11 Host.divf
theorem o150_sub : (o150 (F := F)).bufs ⊆ tcRefs τ sig := tbinary_sub (Val := Elt F) main_call2.v9 main_call2.v10 main_call2.v11 Host.divf

def o151 : HloOp τ sig (Elt F) :=
  TRef.nullary main_call2.cst_3 (constant S_ .f32 0x00000000#32)
theorem o151_sub : (o151 (F := F)).bufs ⊆ tcRefs τ sig := tnullary_sub (Val := Elt F) main_call2.cst_3 (constant S_ .f32 0x00000000#32)

def o152 : HloOp τ sig (Elt F) :=
  TRef.binary main_call2.v8 main_call2.cst_3 main_call2.v12 (cmpf .ogt)
theorem o152_sub : (o152 (F := F)).bufs ⊆ tcRefs τ sig := tbinary_sub (Val := Elt F) main_call2.v8 main_call2.cst_3 main_call2.v12 (cmpf .ogt)

def o153 : HloOp τ sig (Elt F) :=
  TRef.nullary main_call2.cst_4 (constant S_ .f32 0x7FC00000#32)
theorem o153_sub : (o153 (F := F)).bufs ⊆ tcRefs τ sig := tnullary_sub (Val := Elt F) main_call2.cst_4 (constant S_ .f32 0x7FC00000#32)

def o154 : HloOp τ sig (Elt F) :=
  TRef.unary main_call2.cst_4 main_call2.call0.v0 id
theorem o154_sub : (o154 (F := F)).bufs ⊆ tcRefs τ sig := tunary_sub (Val := Elt F) main_call2.cst_4 main_call2.call0.v0 id

def o155 : HloOp τ sig (Elt F) :=
  TRef.unary main_call2.call0.v0 main_call2.call0.v1 (broadcastInDim S256 ![] bcast_S_S256)
theorem o155_sub : (o155 (F := F)).bufs ⊆ tcRefs τ sig := tunary_sub (Val := Elt F) main_call2.call0.v0 main_call2.call0.v1 (broadcastInDim S256 ![] bcast_S_S256)

def o156 : HloOp τ sig (Elt F) :=
  TRef.ternary main_call2.v12 main_call2.v11 main_call2.call0.v1 main_call2.call0.v2 (fun p a b => select (broadcastInDim S256 ![] bcast_S_S256 p) a b)
theorem o156_sub : (o156 (F := F)).bufs ⊆ tcRefs τ sig := tternary_sub (Val := Elt F) main_call2.v12 main_call2.v11 main_call2.call0.v1 main_call2.call0.v2 (fun p a b => select (broadcastInDim S256 ![] bcast_S_S256 p) a b)

def o157 : HloOp τ sig (Elt F) :=
  unary main_v91 main_v93 (broadcastInDim S1x256 ![1] bcast_S256_S1x256_1 : (⟨S256, .f32⟩ : BufTy).Contents (Elt F) → (⟨S1x256, .f32⟩ : BufTy).Contents (Elt F))
theorem o157_sub : (o157 (F := F)).bufs ⊆ tcRefs τ sig := unary_bufs_sub ..

def o158 : HloOp τ sig (Elt F) :=
  unary main_v93 main_v94 (broadcastInDim S50000x256 ![0, 1] bcast_S1x256_S50000x256_0_1 : (⟨S1x256, .f32⟩ : BufTy).Contents (Elt F) → (⟨S50000x256, .f32⟩ : BufTy).Contents (Elt F))
theorem o158_sub : (o158 (F := F)).bufs ⊆ tcRefs τ sig := unary_bufs_sub ..

def o159 : HloOp τ sig (Elt F) :=
  binary main_v88 main_v94 main_v95 (subf : (⟨S50000x256, .f32⟩ : BufTy).Contents (Elt F) → (⟨S50000x256, .f32⟩ : BufTy).Contents (Elt F) → (⟨S50000x256, .f32⟩ : BufTy).Contents (Elt F))
theorem o159_sub : (o159 (F := F)).bufs ⊆ tcRefs τ sig := binary_bufs_sub ..

def o160 : HloOp τ sig (Elt F) :=
  nullary main_cst_18 (constant S_ .f32 0x3727C5AC#32)
theorem o160_sub : (o160 (F := F)).bufs ⊆ tcRefs τ sig := nullary_bufs_sub ..

def o161 : HloOp τ sig (Elt F) :=
  unary main_cst_18 main_v96 (broadcastInDim S256 ![] bcast_S_S256 : (⟨S_, .f32⟩ : BufTy).Contents (Elt F) → (⟨S256, .f32⟩ : BufTy).Contents (Elt F))
theorem o161_sub : (o161 (F := F)).bufs ⊆ tcRefs τ sig := unary_bufs_sub ..

def o162 : HloOp τ sig (Elt F) :=
  binary main_v92 main_v96 main_v97 (addf : (⟨S256, .f32⟩ : BufTy).Contents (Elt F) → (⟨S256, .f32⟩ : BufTy).Contents (Elt F) → (⟨S256, .f32⟩ : BufTy).Contents (Elt F))
theorem o162_sub : (o162 (F := F)).bufs ⊆ tcRefs τ sig := binary_bufs_sub ..

def o163 : HloOp τ sig (Elt F) :=
  unary main_v97 main_v98 (Host.rsqrt : (⟨S256, .f32⟩ : BufTy).Contents (Elt F) → (⟨S256, .f32⟩ : BufTy).Contents (Elt F))
theorem o163_sub : (o163 (F := F)).bufs ⊆ tcRefs τ sig := unary_bufs_sub ..

/-- The window's operations, in order. -/
def w1 : List (HloOp τ sig (Elt F)) :=
  [o60, o61, o62, o63, o64, o65, o66, o67, o68, o69, o70, o71, o72, o73, o74, o75, o76, o77, o78, o79, o80, o81, o82, o83, o84, o85, o86, o87, o88, o89, o90, o91, o92, o93, o94, o95, o96, o97, o98, o99, o100, o101, o102, o103, o104, o105, o106, o107, o108, o109, o110, o111, o112, o113, o114, o115, o116, o117, o118, o119, o120, o121, o122, o123, o124, o125, o126, o127, o128, o129, o130, o131, o132, o133, o134, o135, o136, o137, o138, o139, o140, o141, o142, o143, o144, o145, o146, o147, o148, o149, o150, o151, o152, o153, o154, o155, o156, o157, o158, o159, o160, o161, o162, o163]

set_option maxRecDepth 8192 in
set_option maxHeartbeats 4000000 in
/-- The window is that straight line: the called functions' definitions unfolded at their calls. -/
theorem part1_eq (c : Dev nD) : main_part1 (F := F) c = seq w1 := by
  simp only [main_part1, fn_var.body, fn_var_0.body, fn_where.body, fn_where_1.body, fn_relu.body, fn_relu_2.body, seq, w1, bind_assoc, pure_bind]
  rfl

theorem w1_sub : (w1 : List (HloOp τ sig (Elt F))).Forall fun op => op.bufs ⊆ tcRefs τ sig :=
  ⟨o60_sub, o61_sub, o62_sub, o63_sub, o64_sub, o65_sub, o66_sub, o67_sub, o68_sub, o69_sub, o70_sub, o71_sub, o72_sub, o73_sub, o74_sub, o75_sub, o76_sub, o77_sub, o78_sub, o79_sub, o80_sub, o81_sub, o82_sub, o83_sub, o84_sub, o85_sub, o86_sub, o87_sub, o88_sub, o89_sub, o90_sub, o91_sub, o92_sub, o93_sub, o94_sub, o95_sub, o96_sub, o97_sub, o98_sub, o99_sub, o100_sub, o101_sub, o102_sub, o103_sub, o104_sub, o105_sub, o106_sub, o107_sub, o108_sub, o109_sub, o110_sub, o111_sub, o112_sub, o113_sub, o114_sub, o115_sub, o116_sub, o117_sub, o118_sub, o119_sub, o120_sub, o121_sub, o122_sub, o123_sub, o124_sub, o125_sub, o126_sub, o127_sub, o128_sub, o129_sub, o130_sub, o131_sub, o132_sub, o133_sub, o134_sub, o135_sub, o136_sub, o137_sub, o138_sub, o139_sub, o140_sub, o141_sub, o142_sub, o143_sub, o144_sub, o145_sub, o146_sub, o147_sub, o148_sub, o149_sub, o150_sub, o151_sub, o152_sub, o153_sub, o154_sub, o155_sub, o156_sub, o157_sub, o158_sub, o159_sub, o160_sub, o161_sub, o162_sub, o163_sub⟩

theorem w1_fresh : (w1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

end Cert.ReferenceIdeal.RefRun

end
-- ==== Proof.RefRunW2.lean ====
/-
  The reference program's statements 164 … 227 (of 366, the outlined functions' bodies written out at their calls),
  each as a named operation, and the program's window number 2 as the straight line of them.
-/
import proofs.«106426_j33148557590872_1_alg».proof.Proof.Gen.ReferenceIdeal
import Idealize.ShloMosaic.Lib.StableHlo.Run
import proofs.«106426_j33148557590872_1_alg».proof.Proof.RefRunPre

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

def o164 : HloOp τ sig (Elt F) :=
  unary main_v98 main_v99 (broadcastInDim S1x256 ![1] bcast_S256_S1x256_1 : (⟨S256, .f32⟩ : BufTy).Contents (Elt F) → (⟨S1x256, .f32⟩ : BufTy).Contents (Elt F))
theorem o164_sub : (o164 (F := F)).bufs ⊆ tcRefs τ sig := unary_bufs_sub ..

def o165 : HloOp τ sig (Elt F) :=
  unary main_v99 main_v100 (broadcastInDim S50000x256 ![0, 1] bcast_S1x256_S50000x256_0_1 : (⟨S1x256, .f32⟩ : BufTy).Contents (Elt F) → (⟨S50000x256, .f32⟩ : BufTy).Contents (Elt F))
theorem o165_sub : (o165 (F := F)).bufs ⊆ tcRefs τ sig := unary_bufs_sub ..

def o166 : HloOp τ sig (Elt F) :=
  binary main_v95 main_v100 main_v101 (mulf : (⟨S50000x256, .f32⟩ : BufTy).Contents (Elt F) → (⟨S50000x256, .f32⟩ : BufTy).Contents (Elt F) → (⟨S50000x256, .f32⟩ : BufTy).Contents (Elt F))
theorem o166_sub : (o166 (F := F)).bufs ⊆ tcRefs τ sig := binary_bufs_sub ..

def o167 : HloOp τ sig (Elt F) :=
  unary main_arg8 main_v102 (broadcastInDim S1x256 ![1] bcast_S256_S1x256_1 : (⟨S256, .f32⟩ : BufTy).Contents (Elt F) → (⟨S1x256, .f32⟩ : BufTy).Contents (Elt F))
theorem o167_sub : (o167 (F := F)).bufs ⊆ tcRefs τ sig := unary_bufs_sub ..

def o168 : HloOp τ sig (Elt F) :=
  unary main_v102 main_v103 (broadcastInDim S50000x256 ![0, 1] bcast_S1x256_S50000x256_0_1 : (⟨S1x256, .f32⟩ : BufTy).Contents (Elt F) → (⟨S50000x256, .f32⟩ : BufTy).Contents (Elt F))
theorem o168_sub : (o168 (F := F)).bufs ⊆ tcRefs τ sig := unary_bufs_sub ..

def o169 : HloOp τ sig (Elt F) :=
  binary main_v101 main_v103 main_v104 (mulf : (⟨S50000x256, .f32⟩ : BufTy).Contents (Elt F) → (⟨S50000x256, .f32⟩ : BufTy).Contents (Elt F) → (⟨S50000x256, .f32⟩ : BufTy).Contents (Elt F))
theorem o169_sub : (o169 (F := F)).bufs ⊆ tcRefs τ sig := binary_bufs_sub ..

def o170 : HloOp τ sig (Elt F) :=
  unary main_arg9 main_v105 (broadcastInDim S1x256 ![1] bcast_S256_S1x256_1 : (⟨S256, .f32⟩ : BufTy).Contents (Elt F) → (⟨S1x256, .f32⟩ : BufTy).Contents (Elt F))
theorem o170_sub : (o170 (F := F)).bufs ⊆ tcRefs τ sig := unary_bufs_sub ..

def o171 : HloOp τ sig (Elt F) :=
  unary main_v105 main_v106 (broadcastInDim S50000x256 ![0, 1] bcast_S1x256_S50000x256_0_1 : (⟨S1x256, .f32⟩ : BufTy).Contents (Elt F) → (⟨S50000x256, .f32⟩ : BufTy).Contents (Elt F))
theorem o171_sub : (o171 (F := F)).bufs ⊆ tcRefs τ sig := unary_bufs_sub ..

def o172 : HloOp τ sig (Elt F) :=
  binary main_v104 main_v106 main_v107 (addf : (⟨S50000x256, .f32⟩ : BufTy).Contents (Elt F) → (⟨S50000x256, .f32⟩ : BufTy).Contents (Elt F) → (⟨S50000x256, .f32⟩ : BufTy).Contents (Elt F))
theorem o172_sub : (o172 (F := F)).bufs ⊆ tcRefs τ sig := binary_bufs_sub ..

def o173 : HloOp τ sig (Elt F) :=
  TRef.nullary main_call3.cst (constant S_ .f32 0x00000000#32)
theorem o173_sub : (o173 (F := F)).bufs ⊆ tcRefs τ sig := tnullary_sub (Val := Elt F) main_call3.cst (constant S_ .f32 0x00000000#32)

def o174 : HloOp τ sig (Elt F) :=
  TRef.unary main_call3.cst main_call3.v0 (broadcastInDim S50000x256 ![] bcast_S_S50000x256)
theorem o174_sub : (o174 (F := F)).bufs ⊆ tcRefs τ sig := tunary_sub (Val := Elt F) main_call3.cst main_call3.v0 (broadcastInDim S50000x256 ![] bcast_S_S50000x256)

def o175 : HloOp τ sig (Elt F) :=
  TRef.binary (.of main_v107) main_call3.v0 main_call3.v1 maximumf
theorem o175_sub : (o175 (F := F)).bufs ⊆ tcRefs τ sig := tbinary_sub (Val := Elt F) (.of main_v107) main_call3.v0 main_call3.v1 maximumf

def o176 : HloOp τ sig (Elt F) :=
  binary main_v108 main_arg10 main_v109 ((fun l r => Host.dotGeneral dot_S50000x256_S256x64_S50000x64_1_0_0_1_n_n none l r) : (⟨S50000x256, .f32⟩ : BufTy).Contents (Elt F) → (⟨S256x64, .f32⟩ : BufTy).Contents (Elt F) → (⟨S50000x64, .f32⟩ : BufTy).Contents (Elt F))
theorem o176_sub : (o176 (F := F)).bufs ⊆ tcRefs τ sig := binary_bufs_sub ..

def o177 : HloOp τ sig (Elt F) :=
  nullary main_c_19 (constantI S_ 32 0#32)
theorem o177_sub : (o177 (F := F)).bufs ⊆ tcRefs τ sig := nullary_bufs_sub ..

def o178 : HloOp τ sig (Elt F) :=
  unary main_c_19 main_v110 (broadcastInDim S800000 ![] bcast_S_S800000 : (⟨S_, .i32⟩ : BufTy).Contents (Elt F) → (⟨S800000, .i32⟩ : BufTy).Contents (Elt F))
theorem o178_sub : (o178 (F := F)).bufs ⊆ tcRefs τ sig := unary_bufs_sub ..

def o179 : HloOp τ sig (Elt F) :=
  binary main_v1 main_v110 main_v111 (cmpi .slt : (⟨S800000, .i32⟩ : BufTy).Contents (Elt F) → (⟨S800000, .i32⟩ : BufTy).Contents (Elt F) → (⟨S800000, .i1⟩ : BufTy).Contents (Elt F))
theorem o179_sub : (o179 (F := F)).bufs ⊆ tcRefs τ sig := binary_bufs_sub ..

def o180 : HloOp τ sig (Elt F) :=
  nullary main_c_20 (constantI S_ 32 50000#32)
theorem o180_sub : (o180 (F := F)).bufs ⊆ tcRefs τ sig := nullary_bufs_sub ..

def o181 : HloOp τ sig (Elt F) :=
  unary main_c_20 main_v112 (broadcastInDim S800000 ![] bcast_S_S800000 : (⟨S_, .i32⟩ : BufTy).Contents (Elt F) → (⟨S800000, .i32⟩ : BufTy).Contents (Elt F))
theorem o181_sub : (o181 (F := F)).bufs ⊆ tcRefs τ sig := unary_bufs_sub ..

def o182 : HloOp τ sig (Elt F) :=
  binary main_v1 main_v112 main_v113 (addi : (⟨S800000, .i32⟩ : BufTy).Contents (Elt F) → (⟨S800000, .i32⟩ : BufTy).Contents (Elt F) → (⟨S800000, .i32⟩ : BufTy).Contents (Elt F))
theorem o182_sub : (o182 (F := F)).bufs ⊆ tcRefs τ sig := binary_bufs_sub ..

def o183 : HloOp τ sig (Elt F) :=
  ternary main_v111 main_v113 main_v1 main_v114 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F))
theorem o183_sub : (o183 (F := F)).bufs ⊆ tcRefs τ sig := ternary_bufs_sub ..

def o184 : HloOp τ sig (Elt F) :=
  unary main_v114 main_v115 (broadcastInDim S800000x1 ![0] bcast_S800000_S800000x1_0 : (⟨S800000, .i32⟩ : BufTy).Contents (Elt F) → (⟨S800000x1, .i32⟩ : BufTy).Contents (Elt F))
theorem o184_sub : (o184 (F := F)).bufs ⊆ tcRefs τ sig := unary_bufs_sub ..

def o185 : HloOp τ sig (Elt F) :=
  binary main_v109 main_v115 main_v116 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F))
theorem o185_sub : (o185 (F := F)).bufs ⊆ tcRefs τ sig := binary_bufs_sub ..

def o186 : HloOp τ sig (Elt F) :=
  unary main_v25 main_v117 (broadcastInDim S800000x1 ![0] bcast_S800000_S800000x1_0 : (⟨S800000, .f32⟩ : BufTy).Contents (Elt F) → (⟨S800000x1, .f32⟩ : BufTy).Contents (Elt F))
theorem o186_sub : (o186 (F := F)).bufs ⊆ tcRefs τ sig := unary_bufs_sub ..

def o187 : HloOp τ sig (Elt F) :=
  unary main_v117 main_v118 (broadcastInDim S800000x64 ![0, 1] bcast_S800000x1_S800000x64_0_1 : (⟨S800000x1, .f32⟩ : BufTy).Contents (Elt F) → (⟨S800000x64, .f32⟩ : BufTy).Contents (Elt F))
theorem o187_sub : (o187 (F := F)).bufs ⊆ tcRefs τ sig := unary_bufs_sub ..

def o188 : HloOp τ sig (Elt F) :=
  binary main_v116 main_v118 main_v119 (mulf : (⟨S800000x64, .f32⟩ : BufTy).Contents (Elt F) → (⟨S800000x64, .f32⟩ : BufTy).Contents (Elt F) → (⟨S800000x64, .f32⟩ : BufTy).Contents (Elt F))
theorem o188_sub : (o188 (F := F)).bufs ⊆ tcRefs τ sig := binary_bufs_sub ..

def o189 : HloOp τ sig (Elt F) :=
  nullary main_cst_21 (constant S_ .f32 0x00000000#32)
theorem o189_sub : (o189 (F := F)).bufs ⊆ tcRefs τ sig := nullary_bufs_sub ..

def o190 : HloOp τ sig (Elt F) :=
  unary main_cst_21 main_v120 (broadcastInDim S50000x64 ![] bcast_S_S50000x64 : (⟨S_, .f32⟩ : BufTy).Contents (Elt F) → (⟨S50000x64, .f32⟩ : BufTy).Contents (Elt F))
theorem o190_sub : (o190 (F := F)).bufs ⊆ tcRefs τ sig := unary_bufs_sub ..

def o191 : HloOp τ sig (Elt F) :=
  unary main_v3 main_v121 (broadcastInDim S800000x1 ![0] bcast_S800000_S800000x1_0 : (⟨S800000, .i32⟩ : BufTy).Contents (Elt F) → (⟨S800000x1, .i32⟩ : BufTy).Contents (Elt F))
theorem o191_sub : (o191 (F := F)).bufs ⊆ tcRefs τ sig := unary_bufs_sub ..

def o192 : HloOp τ sig (Elt F) :=
  ternary main_v120 main_v121 main_v119 main_v122 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F))
theorem o192_sub : (o192 (F := F)).bufs ⊆ tcRefs τ sig := ternary_bufs_sub ..

def o193 : HloOp τ sig (Elt F) :=
  unary main_v26 main_v123 (broadcastInDim S50000x1 ![0] bcast_S50000_S50000x1_0 : (⟨S50000, .f32⟩ : BufTy).Contents (Elt F) → (⟨S50000x1, .f32⟩ : BufTy).Contents (Elt F))
theorem o193_sub : (o193 (F := F)).bufs ⊆ tcRefs τ sig := unary_bufs_sub ..

def o194 : HloOp τ sig (Elt F) :=
  unary main_v123 main_v124 (broadcastInDim S50000x64 ![0, 1] bcast_S50000x1_S50000x64_0_1 : (⟨S50000x1, .f32⟩ : BufTy).Contents (Elt F) → (⟨S50000x64, .f32⟩ : BufTy).Contents (Elt F))
theorem o194_sub : (o194 (F := F)).bufs ⊆ tcRefs τ sig := unary_bufs_sub ..

def o195 : HloOp τ sig (Elt F) :=
  binary main_v109 main_v124 main_v125 (mulf : (⟨S50000x64, .f32⟩ : BufTy).Contents (Elt F) → (⟨S50000x64, .f32⟩ : BufTy).Contents (Elt F) → (⟨S50000x64, .f32⟩ : BufTy).Contents (Elt F))
theorem o195_sub : (o195 (F := F)).bufs ⊆ tcRefs τ sig := binary_bufs_sub ..

def o196 : HloOp τ sig (Elt F) :=
  binary main_v122 main_v125 main_v126 (addf : (⟨S50000x64, .f32⟩ : BufTy).Contents (Elt F) → (⟨S50000x64, .f32⟩ : BufTy).Contents (Elt F) → (⟨S50000x64, .f32⟩ : BufTy).Contents (Elt F))
theorem o196_sub : (o196 (F := F)).bufs ⊆ tcRefs τ sig := binary_bufs_sub ..

def o197 : HloOp τ sig (Elt F) :=
  unary main_arg11 main_v127 (broadcastInDim S1x64 ![1] bcast_S64_S1x64_1 : (⟨S64, .f32⟩ : BufTy).Contents (Elt F) → (⟨S1x64, .f32⟩ : BufTy).Contents (Elt F))
theorem o197_sub : (o197 (F := F)).bufs ⊆ tcRefs τ sig := unary_bufs_sub ..

def o198 : HloOp τ sig (Elt F) :=
  unary main_v127 main_v128 (broadcastInDim S50000x64 ![0, 1] bcast_S1x64_S50000x64_0_1 : (⟨S1x64, .f32⟩ : BufTy).Contents (Elt F) → (⟨S50000x64, .f32⟩ : BufTy).Contents (Elt F))
theorem o198_sub : (o198 (F := F)).bufs ⊆ tcRefs τ sig := unary_bufs_sub ..

def o199 : HloOp τ sig (Elt F) :=
  binary main_v126 main_v128 main_v129 (addf : (⟨S50000x64, .f32⟩ : BufTy).Contents (Elt F) → (⟨S50000x64, .f32⟩ : BufTy).Contents (Elt F) → (⟨S50000x64, .f32⟩ : BufTy).Contents (Elt F))
theorem o199_sub : (o199 (F := F)).bufs ⊆ tcRefs τ sig := binary_bufs_sub ..

def o200 : HloOp τ sig (Elt F) :=
  binary main_arg0 main_arg12 main_v130 ((fun l r => Host.dotGeneral dot_S50000x64_S64x128_S50000x128_1_0_0_1_n_n none l r) : (⟨S50000x64, .f32⟩ : BufTy).Contents (Elt F) → (⟨S64x128, .f32⟩ : BufTy).Contents (Elt F) → (⟨S50000x128, .f32⟩ : BufTy).Contents (Elt F))
theorem o200_sub : (o200 (F := F)).bufs ⊆ tcRefs τ sig := binary_bufs_sub ..

def o201 : HloOp τ sig (Elt F) :=
  nullary main_c_22 (constantI S_ 32 0#32)
theorem o201_sub : (o201 (F := F)).bufs ⊆ tcRefs τ sig := nullary_bufs_sub ..

def o202 : HloOp τ sig (Elt F) :=
  unary main_c_22 main_v131 (broadcastInDim S800000 ![] bcast_S_S800000 : (⟨S_, .i32⟩ : BufTy).Contents (Elt F) → (⟨S800000, .i32⟩ : BufTy).Contents (Elt F))
theorem o202_sub : (o202 (F := F)).bufs ⊆ tcRefs τ sig := unary_bufs_sub ..

def o203 : HloOp τ sig (Elt F) :=
  binary main_v1 main_v131 main_v132 (cmpi .slt : (⟨S800000, .i32⟩ : BufTy).Contents (Elt F) → (⟨S800000, .i32⟩ : BufTy).Contents (Elt F) → (⟨S800000, .i1⟩ : BufTy).Contents (Elt F))
theorem o203_sub : (o203 (F := F)).bufs ⊆ tcRefs τ sig := binary_bufs_sub ..

def o204 : HloOp τ sig (Elt F) :=
  nullary main_c_23 (constantI S_ 32 50000#32)
theorem o204_sub : (o204 (F := F)).bufs ⊆ tcRefs τ sig := nullary_bufs_sub ..

def o205 : HloOp τ sig (Elt F) :=
  unary main_c_23 main_v133 (broadcastInDim S800000 ![] bcast_S_S800000 : (⟨S_, .i32⟩ : BufTy).Contents (Elt F) → (⟨S800000, .i32⟩ : BufTy).Contents (Elt F))
theorem o205_sub : (o205 (F := F)).bufs ⊆ tcRefs τ sig := unary_bufs_sub ..

def o206 : HloOp τ sig (Elt F) :=
  binary main_v1 main_v133 main_v134 (addi : (⟨S800000, .i32⟩ : BufTy).Contents (Elt F) → (⟨S800000, .i32⟩ : BufTy).Contents (Elt F) → (⟨S800000, .i32⟩ : BufTy).Contents (Elt F))
theorem o206_sub : (o206 (F := F)).bufs ⊆ tcRefs τ sig := binary_bufs_sub ..

def o207 : HloOp τ sig (Elt F) :=
  ternary main_v132 main_v134 main_v1 main_v135 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F))
theorem o207_sub : (o207 (F := F)).bufs ⊆ tcRefs τ sig := ternary_bufs_sub ..

def o208 : HloOp τ sig (Elt F) :=
  unary main_v135 main_v136 (broadcastInDim S800000x1 ![0] bcast_S800000_S800000x1_0 : (⟨S800000, .i32⟩ : BufTy).Contents (Elt F) → (⟨S800000x1, .i32⟩ : BufTy).Contents (Elt F))
theorem o208_sub : (o208 (F := F)).bufs ⊆ tcRefs τ sig := unary_bufs_sub ..

def o209 : HloOp τ sig (Elt F) :=
  binary main_v130 main_v136 main_v137 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F))
theorem o209_sub : (o209 (F := F)).bufs ⊆ tcRefs τ sig := binary_bufs_sub ..

def o210 : HloOp τ sig (Elt F) :=
  unary main_v25 main_v138 (broadcastInDim S800000x1 ![0] bcast_S800000_S800000x1_0 : (⟨S800000, .f32⟩ : BufTy).Contents (Elt F) → (⟨S800000x1, .f32⟩ : BufTy).Contents (Elt F))
theorem o210_sub : (o210 (F := F)).bufs ⊆ tcRefs τ sig := unary_bufs_sub ..

def o211 : HloOp τ sig (Elt F) :=
  unary main_v138 main_v139 (broadcastInDim S800000x128 ![0, 1] bcast_S800000x1_S800000x128_0_1 : (⟨S800000x1, .f32⟩ : BufTy).Contents (Elt F) → (⟨S800000x128, .f32⟩ : BufTy).Contents (Elt F))
theorem o211_sub : (o211 (F := F)).bufs ⊆ tcRefs τ sig := unary_bufs_sub ..

def o212 : HloOp τ sig (Elt F) :=
  binary main_v137 main_v139 main_v140 (mulf : (⟨S800000x128, .f32⟩ : BufTy).Contents (Elt F) → (⟨S800000x128, .f32⟩ : BufTy).Contents (Elt F) → (⟨S800000x128, .f32⟩ : BufTy).Contents (Elt F))
theorem o212_sub : (o212 (F := F)).bufs ⊆ tcRefs τ sig := binary_bufs_sub ..

def o213 : HloOp τ sig (Elt F) :=
  nullary main_cst_24 (constant S_ .f32 0x00000000#32)
theorem o213_sub : (o213 (F := F)).bufs ⊆ tcRefs τ sig := nullary_bufs_sub ..

def o214 : HloOp τ sig (Elt F) :=
  unary main_cst_24 main_v141 (broadcastInDim S50000x128 ![] bcast_S_S50000x128 : (⟨S_, .f32⟩ : BufTy).Contents (Elt F) → (⟨S50000x128, .f32⟩ : BufTy).Contents (Elt F))
theorem o214_sub : (o214 (F := F)).bufs ⊆ tcRefs τ sig := unary_bufs_sub ..

def o215 : HloOp τ sig (Elt F) :=
  unary main_v3 main_v142 (broadcastInDim S800000x1 ![0] bcast_S800000_S800000x1_0 : (⟨S800000, .i32⟩ : BufTy).Contents (Elt F) → (⟨S800000x1, .i32⟩ : BufTy).Contents (Elt F))
theorem o215_sub : (o215 (F := F)).bufs ⊆ tcRefs τ sig := unary_bufs_sub ..

def o216 : HloOp τ sig (Elt F) :=
  ternary main_v141 main_v142 main_v140 main_v143 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F))
theorem o216_sub : (o216 (F := F)).bufs ⊆ tcRefs τ sig := ternary_bufs_sub ..

def o217 : HloOp τ sig (Elt F) :=
  unary main_v26 main_v144 (broadcastInDim S50000x1 ![0] bcast_S50000_S50000x1_0 : (⟨S50000, .f32⟩ : BufTy).Contents (Elt F) → (⟨S50000x1, .f32⟩ : BufTy).Contents (Elt F))
theorem o217_sub : (o217 (F := F)).bufs ⊆ tcRefs τ sig := unary_bufs_sub ..

def o218 : HloOp τ sig (Elt F) :=
  unary main_v144 main_v145 (broadcastInDim S50000x128 ![0, 1] bcast_S50000x1_S50000x128_0_1 : (⟨S50000x1, .f32⟩ : BufTy).Contents (Elt F) → (⟨S50000x128, .f32⟩ : BufTy).Contents (Elt F))
theorem o218_sub : (o218 (F := F)).bufs ⊆ tcRefs τ sig := unary_bufs_sub ..

def o219 : HloOp τ sig (Elt F) :=
  binary main_v130 main_v145 main_v146 (mulf : (⟨S50000x128, .f32⟩ : BufTy).Contents (Elt F) → (⟨S50000x128, .f32⟩ : BufTy).Contents (Elt F) → (⟨S50000x128, .f32⟩ : BufTy).Contents (Elt F))
theorem o219_sub : (o219 (F := F)).bufs ⊆ tcRefs τ sig := binary_bufs_sub ..

def o220 : HloOp τ sig (Elt F) :=
  binary main_v143 main_v146 main_v147 (addf : (⟨S50000x128, .f32⟩ : BufTy).Contents (Elt F) → (⟨S50000x128, .f32⟩ : BufTy).Contents (Elt F) → (⟨S50000x128, .f32⟩ : BufTy).Contents (Elt F))
theorem o220_sub : (o220 (F := F)).bufs ⊆ tcRefs τ sig := binary_bufs_sub ..

def o221 : HloOp τ sig (Elt F) :=
  unary main_arg13 main_v148 (broadcastInDim S1x128 ![1] bcast_S128_S1x128_1 : (⟨S128, .f32⟩ : BufTy).Contents (Elt F) → (⟨S1x128, .f32⟩ : BufTy).Contents (Elt F))
theorem o221_sub : (o221 (F := F)).bufs ⊆ tcRefs τ sig := unary_bufs_sub ..

def o222 : HloOp τ sig (Elt F) :=
  unary main_v148 main_v149 (broadcastInDim S50000x128 ![0, 1] bcast_S1x128_S50000x128_0_1 : (⟨S1x128, .f32⟩ : BufTy).Contents (Elt F) → (⟨S50000x128, .f32⟩ : BufTy).Contents (Elt F))
theorem o222_sub : (o222 (F := F)).bufs ⊆ tcRefs τ sig := unary_bufs_sub ..

def o223 : HloOp τ sig (Elt F) :=
  binary main_v147 main_v149 main_v150 (addf : (⟨S50000x128, .f32⟩ : BufTy).Contents (Elt F) → (⟨S50000x128, .f32⟩ : BufTy).Contents (Elt F) → (⟨S50000x128, .f32⟩ : BufTy).Contents (Elt F))
theorem o223_sub : (o223 (F := F)).bufs ⊆ tcRefs τ sig := binary_bufs_sub ..

def o224 : HloOp τ sig (Elt F) :=
  TRef.nullary main_call4.cst (constant S_ .f32 0x00000000#32)
theorem o224_sub : (o224 (F := F)).bufs ⊆ tcRefs τ sig := tnullary_sub (Val := Elt F) main_call4.cst (constant S_ .f32 0x00000000#32)

def o225 : HloOp τ sig (Elt F) :=
  TRef.unary main_call4.cst main_call4.v0 (broadcastInDim S50000x128 ![] bcast_S_S50000x128)
theorem o225_sub : (o225 (F := F)).bufs ⊆ tcRefs τ sig := tunary_sub (Val := Elt F) main_call4.cst main_call4.v0 (broadcastInDim S50000x128 ![] bcast_S_S50000x128)

def o226 : HloOp τ sig (Elt F) :=
  TRef.binary (.of main_v150) main_call4.v0 main_call4.v1 maximumf
theorem o226_sub : (o226 (F := F)).bufs ⊆ tcRefs τ sig := tbinary_sub (Val := Elt F) (.of main_v150) main_call4.v0 main_call4.v1 maximumf

def o227 : HloOp τ sig (Elt F) :=
  nullary main_cst_25 (constant S_ .f32 0x00000000#32)
theorem o227_sub : (o227 (F := F)).bufs ⊆ tcRefs τ sig := nullary_bufs_sub ..

/-- The window's operations, in order. -/
def w2 : List (HloOp τ sig (Elt F)) :=
  [o164, o165, o166, o167, o168, o169, o170, o171, o172, o173, o174, o175, o176, o177, o178, o179, o180, o181, o182, o183, o184, o185, o186, o187, o188, o189, o190, o191, o192, o193, o194, o195, o196, o197, o198, o199, o200, o201, o202, o203, o204, o205, o206, o207, o208, o209, o210, o211, o212, o213, o214, o215, o216, o217, o218, o219, o220, o221, o222, o223, o224, o225, o226, o227]

set_option maxRecDepth 8192 in
set_option maxHeartbeats 4000000 in
/-- The window is that straight line: the called functions' definitions unfolded at their calls. -/
theorem part2_eq (c : Dev nD) : main_part2 (F := F) c = seq w2 := by
  simp only [main_part2, fn_var.body, fn_var_0.body, fn_where.body, fn_where_1.body, fn_relu.body, fn_relu_2.body, seq, w2, bind_assoc, pure_bind]
  rfl

theorem w2_sub : (w2 : List (HloOp τ sig (Elt F))).Forall fun op => op.bufs ⊆ tcRefs τ sig :=
  ⟨o164_sub, o165_sub, o166_sub, o167_sub, o168_sub, o169_sub, o170_sub, o171_sub, o172_sub, o173_sub, o174_sub, o175_sub, o176_sub, o177_sub, o178_sub, o179_sub, o180_sub, o181_sub, o182_sub, o183_sub, o184_sub, o185_sub, o186_sub, o187_sub, o188_sub, o189_sub, o190_sub, o191_sub, o192_sub, o193_sub, o194_sub, o195_sub, o196_sub, o197_sub, o198_sub, o199_sub, o200_sub, o201_sub, o202_sub, o203_sub, o204_sub, o205_sub, o206_sub, o207_sub, o208_sub, o209_sub, o210_sub, o211_sub, o212_sub, o213_sub, o214_sub, o215_sub, o216_sub, o217_sub, o218_sub, o219_sub, o220_sub, o221_sub, o222_sub, o223_sub, o224_sub, o225_sub, o226_sub, o227_sub⟩

theorem w2_fresh : (w2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

end Cert.ReferenceIdeal.RefRun

end
-- ==== Proof.RefRunW3.lean ====
/-
  The reference program's statements 228 … 331 (of 366, the outlined functions' bodies written out at their calls),
  each as a named operation, and the program's window number 3 as the straight line of them.
-/
import proofs.«106426_j33148557590872_1_alg».proof.Proof.Gen.ReferenceIdeal
import Idealize.ShloMosaic.Lib.StableHlo.Run
import proofs.«106426_j33148557590872_1_alg».proof.Proof.RefRunPre

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

def o228 : HloOp τ sig (Elt F) :=
  binary main_v151 main_cst_25 main_v152 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F))
theorem o228_sub : (o228 (F := F)).bufs ⊆ tcRefs τ sig := binary_bufs_sub ..

def o229 : HloOp τ sig (Elt F) :=
  nullary main_cst_26 (constant S_ .f32 0x47435000#32)
theorem o229_sub : (o229 (F := F)).bufs ⊆ tcRefs τ sig := nullary_bufs_sub ..

def o230 : HloOp τ sig (Elt F) :=
  unary main_cst_26 main_v153 (broadcastInDim S128 ![] bcast_S_S128 : (⟨S_, .f32⟩ : BufTy).Contents (Elt F) → (⟨S128, .f32⟩ : BufTy).Contents (Elt F))
theorem o230_sub : (o230 (F := F)).bufs ⊆ tcRefs τ sig := unary_bufs_sub ..

def o231 : HloOp τ sig (Elt F) :=
  binary main_v152 main_v153 main_v154 (Host.divf : (⟨S128, .f32⟩ : BufTy).Contents (Elt F) → (⟨S128, .f32⟩ : BufTy).Contents (Elt F) → (⟨S128, .f32⟩ : BufTy).Contents (Elt F))
theorem o231_sub : (o231 (F := F)).bufs ⊆ tcRefs τ sig := binary_bufs_sub ..

def o232 : HloOp τ sig (Elt F) :=
  nullary main_c_27 (constantI S_ 32 0#32)
theorem o232_sub : (o232 (F := F)).bufs ⊆ tcRefs τ sig := nullary_bufs_sub ..

def o233 : HloOp τ sig (Elt F) :=
  TRef.nullary main_call5.cst (constant S_ .f32 0x00000000#32)
theorem o233_sub : (o233 (F := F)).bufs ⊆ tcRefs τ sig := tnullary_sub (Val := Elt F) main_call5.cst (constant S_ .f32 0x00000000#32)

def o234 : HloOp τ sig (Elt F) :=
  TRef.binary (.of main_v151) main_call5.cst main_call5.v0 (fun x v => Host.reduceAdd x v reducesTo_S50000x128_S128_d0 h_S_)
theorem o234_sub : (o234 (F := F)).bufs ⊆ tcRefs τ sig := tbinary_sub (Val := Elt F) (.of main_v151) main_call5.cst main_call5.v0 (fun x v => Host.reduceAdd x v reducesTo_S50000x128_S128_d0 h_S_)

def o235 : HloOp τ sig (Elt F) :=
  TRef.unary main_call5.v0 main_call5.v1 (broadcastInDim S1x128 ![1] bcast_S128_S1x128_1)
theorem o235_sub : (o235 (F := F)).bufs ⊆ tcRefs τ sig := tunary_sub (Val := Elt F) main_call5.v0 main_call5.v1 (broadcastInDim S1x128 ![1] bcast_S128_S1x128_1)

def o236 : HloOp τ sig (Elt F) :=
  TRef.nullary main_call5.cst_0 (constant S_ .f32 0x47435000#32)
theorem o236_sub : (o236 (F := F)).bufs ⊆ tcRefs τ sig := tnullary_sub (Val := Elt F) main_call5.cst_0 (constant S_ .f32 0x47435000#32)

def o237 : HloOp τ sig (Elt F) :=
  TRef.unary main_call5.cst_0 main_call5.v2 (broadcastInDim S1x128 ![] bcast_S_S1x128)
theorem o237_sub : (o237 (F := F)).bufs ⊆ tcRefs τ sig := tunary_sub (Val := Elt F) main_call5.cst_0 main_call5.v2 (broadcastInDim S1x128 ![] bcast_S_S1x128)

def o238 : HloOp τ sig (Elt F) :=
  TRef.binary main_call5.v1 main_call5.v2 main_call5.v3 Host.divf
theorem o238_sub : (o238 (F := F)).bufs ⊆ tcRefs τ sig := tbinary_sub (Val := Elt F) main_call5.v1 main_call5.v2 main_call5.v3 Host.divf

def o239 : HloOp τ sig (Elt F) :=
  TRef.unary main_call5.v3 main_call5.v4 (broadcastInDim S50000x128 ![0, 1] bcast_S1x128_S50000x128_0_1)
theorem o239_sub : (o239 (F := F)).bufs ⊆ tcRefs τ sig := tunary_sub (Val := Elt F) main_call5.v3 main_call5.v4 (broadcastInDim S50000x128 ![0, 1] bcast_S1x128_S50000x128_0_1)

def o240 : HloOp τ sig (Elt F) :=
  TRef.binary (.of main_v151) main_call5.v4 main_call5.v5 subf
theorem o240_sub : (o240 (F := F)).bufs ⊆ tcRefs τ sig := tbinary_sub (Val := Elt F) (.of main_v151) main_call5.v4 main_call5.v5 subf

def o241 : HloOp τ sig (Elt F) :=
  TRef.binary main_call5.v5 main_call5.v5 main_call5.v6 mulf
theorem o241_sub : (o241 (F := F)).bufs ⊆ tcRefs τ sig := tbinary_sub (Val := Elt F) main_call5.v5 main_call5.v5 main_call5.v6 mulf

def o242 : HloOp τ sig (Elt F) :=
  TRef.unary (.of main_c_27) main_call5.v7 (sitofp .f32)
theorem o242_sub : (o242 (F := F)).bufs ⊆ tcRefs τ sig := tunary_sub (Val := Elt F) (.of main_c_27) main_call5.v7 (sitofp .f32)

def o243 : HloOp τ sig (Elt F) :=
  TRef.nullary main_call5.cst_1 (constant S_ .f32 0x47435000#32)
theorem o243_sub : (o243 (F := F)).bufs ⊆ tcRefs τ sig := tnullary_sub (Val := Elt F) main_call5.cst_1 (constant S_ .f32 0x47435000#32)

def o244 : HloOp τ sig (Elt F) :=
  TRef.binary main_call5.cst_1 main_call5.v7 main_call5.v8 subf
theorem o244_sub : (o244 (F := F)).bufs ⊆ tcRefs τ sig := tbinary_sub (Val := Elt F) main_call5.cst_1 main_call5.v7 main_call5.v8 subf

def o245 : HloOp τ sig (Elt F) :=
  TRef.nullary main_call5.cst_2 (constant S_ .f32 0x00000000#32)
theorem o245_sub : (o245 (F := F)).bufs ⊆ tcRefs τ sig := tnullary_sub (Val := Elt F) main_call5.cst_2 (constant S_ .f32 0x00000000#32)

def o246 : HloOp τ sig (Elt F) :=
  TRef.binary main_call5.v6 main_call5.cst_2 main_call5.v9 (fun x v => Host.reduceAdd x v reducesTo_S50000x128_S128_d0 h_S_)
theorem o246_sub : (o246 (F := F)).bufs ⊆ tcRefs τ sig := tbinary_sub (Val := Elt F) main_call5.v6 main_call5.cst_2 main_call5.v9 (fun x v => Host.reduceAdd x v reducesTo_S50000x128_S128_d0 h_S_)

def o247 : HloOp τ sig (Elt F) :=
  TRef.unary main_call5.v8 main_call5.v10 (broadcastInDim S128 ![] bcast_S_S128)
theorem o247_sub : (o247 (F := F)).bufs ⊆ tcRefs τ sig := tunary_sub (Val := Elt F) main_call5.v8 main_call5.v10 (broadcastInDim S128 ![] bcast_S_S128)

def o248 : HloOp τ sig (Elt F) :=
  TRef.binary main_call5.v9 main_call5.v10 main_call5.v11 Host.divf
theorem o248_sub : (o248 (F := F)).bufs ⊆ tcRefs τ sig := tbinary_sub (Val := Elt F) main_call5.v9 main_call5.v10 main_call5.v11 Host.divf

def o249 : HloOp τ sig (Elt F) :=
  TRef.nullary main_call5.cst_3 (constant S_ .f32 0x00000000#32)
theorem o249_sub : (o249 (F := F)).bufs ⊆ tcRefs τ sig := tnullary_sub (Val := Elt F) main_call5.cst_3 (constant S_ .f32 0x00000000#32)

def o250 : HloOp τ sig (Elt F) :=
  TRef.binary main_call5.v8 main_call5.cst_3 main_call5.v12 (cmpf .ogt)
theorem o250_sub : (o250 (F := F)).bufs ⊆ tcRefs τ sig := tbinary_sub (Val := Elt F) main_call5.v8 main_call5.cst_3 main_call5.v12 (cmpf .ogt)

def o251 : HloOp τ sig (Elt F) :=
  TRef.nullary main_call5.cst_4 (constant S_ .f32 0x7FC00000#32)
theorem o251_sub : (o251 (F := F)).bufs ⊆ tcRefs τ sig := tnullary_sub (Val := Elt F) main_call5.cst_4 (constant S_ .f32 0x7FC00000#32)

def o252 : HloOp τ sig (Elt F) :=
  TRef.unary main_call5.cst_4 main_call5.call0.v0 id
theorem o252_sub : (o252 (F := F)).bufs ⊆ tcRefs τ sig := tunary_sub (Val := Elt F) main_call5.cst_4 main_call5.call0.v0 id

def o253 : HloOp τ sig (Elt F) :=
  TRef.unary main_call5.call0.v0 main_call5.call0.v1 (broadcastInDim S128 ![] bcast_S_S128)
theorem o253_sub : (o253 (F := F)).bufs ⊆ tcRefs τ sig := tunary_sub (Val := Elt F) main_call5.call0.v0 main_call5.call0.v1 (broadcastInDim S128 ![] bcast_S_S128)

def o254 : HloOp τ sig (Elt F) :=
  TRef.ternary main_call5.v12 main_call5.v11 main_call5.call0.v1 main_call5.call0.v2 (fun p a b => select (broadcastInDim S128 ![] bcast_S_S128 p) a b)
theorem o254_sub : (o254 (F := F)).bufs ⊆ tcRefs τ sig := tternary_sub (Val := Elt F) main_call5.v12 main_call5.v11 main_call5.call0.v1 main_call5.call0.v2 (fun p a b => select (broadcastInDim S128 ![] bcast_S_S128 p) a b)

def o255 : HloOp τ sig (Elt F) :=
  unary main_v154 main_v156 (broadcastInDim S1x128 ![1] bcast_S128_S1x128_1 : (⟨S128, .f32⟩ : BufTy).Contents (Elt F) → (⟨S1x128, .f32⟩ : BufTy).Contents (Elt F))
theorem o255_sub : (o255 (F := F)).bufs ⊆ tcRefs τ sig := unary_bufs_sub ..

def o256 : HloOp τ sig (Elt F) :=
  unary main_v156 main_v157 (broadcastInDim S50000x128 ![0, 1] bcast_S1x128_S50000x128_0_1 : (⟨S1x128, .f32⟩ : BufTy).Contents (Elt F) → (⟨S50000x128, .f32⟩ : BufTy).Contents (Elt F))
theorem o256_sub : (o256 (F := F)).bufs ⊆ tcRefs τ sig := unary_bufs_sub ..

def o257 : HloOp τ sig (Elt F) :=
  binary main_v151 main_v157 main_v158 (subf : (⟨S50000x128, .f32⟩ : BufTy).Contents (Elt F) → (⟨S50000x128, .f32⟩ : BufTy).Contents (Elt F) → (⟨S50000x128, .f32⟩ : BufTy).Contents (Elt F))
theorem o257_sub : (o257 (F := F)).bufs ⊆ tcRefs τ sig := binary_bufs_sub ..

def o258 : HloOp τ sig (Elt F) :=
  nullary main_cst_28 (constant S_ .f32 0x3727C5AC#32)
theorem o258_sub : (o258 (F := F)).bufs ⊆ tcRefs τ sig := nullary_bufs_sub ..

def o259 : HloOp τ sig (Elt F) :=
  unary main_cst_28 main_v159 (broadcastInDim S128 ![] bcast_S_S128 : (⟨S_, .f32⟩ : BufTy).Contents (Elt F) → (⟨S128, .f32⟩ : BufTy).Contents (Elt F))
theorem o259_sub : (o259 (F := F)).bufs ⊆ tcRefs τ sig := unary_bufs_sub ..

def o260 : HloOp τ sig (Elt F) :=
  binary main_v155 main_v159 main_v160 (addf : (⟨S128, .f32⟩ : BufTy).Contents (Elt F) → (⟨S128, .f32⟩ : BufTy).Contents (Elt F) → (⟨S128, .f32⟩ : BufTy).Contents (Elt F))
theorem o260_sub : (o260 (F := F)).bufs ⊆ tcRefs τ sig := binary_bufs_sub ..

def o261 : HloOp τ sig (Elt F) :=
  unary main_v160 main_v161 (Host.rsqrt : (⟨S128, .f32⟩ : BufTy).Contents (Elt F) → (⟨S128, .f32⟩ : BufTy).Contents (Elt F))
theorem o261_sub : (o261 (F := F)).bufs ⊆ tcRefs τ sig := unary_bufs_sub ..

def o262 : HloOp τ sig (Elt F) :=
  unary main_v161 main_v162 (broadcastInDim S1x128 ![1] bcast_S128_S1x128_1 : (⟨S128, .f32⟩ : BufTy).Contents (Elt F) → (⟨S1x128, .f32⟩ : BufTy).Contents (Elt F))
theorem o262_sub : (o262 (F := F)).bufs ⊆ tcRefs τ sig := unary_bufs_sub ..

def o263 : HloOp τ sig (Elt F) :=
  unary main_v162 main_v163 (broadcastInDim S50000x128 ![0, 1] bcast_S1x128_S50000x128_0_1 : (⟨S1x128, .f32⟩ : BufTy).Contents (Elt F) → (⟨S50000x128, .f32⟩ : BufTy).Contents (Elt F))
theorem o263_sub : (o263 (F := F)).bufs ⊆ tcRefs τ sig := unary_bufs_sub ..

def o264 : HloOp τ sig (Elt F) :=
  binary main_v158 main_v163 main_v164 (mulf : (⟨S50000x128, .f32⟩ : BufTy).Contents (Elt F) → (⟨S50000x128, .f32⟩ : BufTy).Contents (Elt F) → (⟨S50000x128, .f32⟩ : BufTy).Contents (Elt F))
theorem o264_sub : (o264 (F := F)).bufs ⊆ tcRefs τ sig := binary_bufs_sub ..

def o265 : HloOp τ sig (Elt F) :=
  unary main_arg14 main_v165 (broadcastInDim S1x128 ![1] bcast_S128_S1x128_1 : (⟨S128, .f32⟩ : BufTy).Contents (Elt F) → (⟨S1x128, .f32⟩ : BufTy).Contents (Elt F))
theorem o265_sub : (o265 (F := F)).bufs ⊆ tcRefs τ sig := unary_bufs_sub ..

def o266 : HloOp τ sig (Elt F) :=
  unary main_v165 main_v166 (broadcastInDim S50000x128 ![0, 1] bcast_S1x128_S50000x128_0_1 : (⟨S1x128, .f32⟩ : BufTy).Contents (Elt F) → (⟨S50000x128, .f32⟩ : BufTy).Contents (Elt F))
theorem o266_sub : (o266 (F := F)).bufs ⊆ tcRefs τ sig := unary_bufs_sub ..

def o267 : HloOp τ sig (Elt F) :=
  binary main_v164 main_v166 main_v167 (mulf : (⟨S50000x128, .f32⟩ : BufTy).Contents (Elt F) → (⟨S50000x128, .f32⟩ : BufTy).Contents (Elt F) → (⟨S50000x128, .f32⟩ : BufTy).Contents (Elt F))
theorem o267_sub : (o267 (F := F)).bufs ⊆ tcRefs τ sig := binary_bufs_sub ..

def o268 : HloOp τ sig (Elt F) :=
  unary main_arg15 main_v168 (broadcastInDim S1x128 ![1] bcast_S128_S1x128_1 : (⟨S128, .f32⟩ : BufTy).Contents (Elt F) → (⟨S1x128, .f32⟩ : BufTy).Contents (Elt F))
theorem o268_sub : (o268 (F := F)).bufs ⊆ tcRefs τ sig := unary_bufs_sub ..

def o269 : HloOp τ sig (Elt F) :=
  unary main_v168 main_v169 (broadcastInDim S50000x128 ![0, 1] bcast_S1x128_S50000x128_0_1 : (⟨S1x128, .f32⟩ : BufTy).Contents (Elt F) → (⟨S50000x128, .f32⟩ : BufTy).Contents (Elt F))
theorem o269_sub : (o269 (F := F)).bufs ⊆ tcRefs τ sig := unary_bufs_sub ..

def o270 : HloOp τ sig (Elt F) :=
  binary main_v167 main_v169 main_v170 (addf : (⟨S50000x128, .f32⟩ : BufTy).Contents (Elt F) → (⟨S50000x128, .f32⟩ : BufTy).Contents (Elt F) → (⟨S50000x128, .f32⟩ : BufTy).Contents (Elt F))
theorem o270_sub : (o270 (F := F)).bufs ⊆ tcRefs τ sig := binary_bufs_sub ..

def o271 : HloOp τ sig (Elt F) :=
  binary main_v170 main_arg16 main_v171 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F))
theorem o271_sub : (o271 (F := F)).bufs ⊆ tcRefs τ sig := binary_bufs_sub ..

def o272 : HloOp τ sig (Elt F) :=
  nullary main_c_29 (constantI S_ 32 0#32)
theorem o272_sub : (o272 (F := F)).bufs ⊆ tcRefs τ sig := nullary_bufs_sub ..

def o273 : HloOp τ sig (Elt F) :=
  unary main_c_29 main_v172 (broadcastInDim S800000 ![] bcast_S_S800000 : (⟨S_, .i32⟩ : BufTy).Contents (Elt F) → (⟨S800000, .i32⟩ : BufTy).Contents (Elt F))
theorem o273_sub : (o273 (F := F)).bufs ⊆ tcRefs τ sig := unary_bufs_sub ..

def o274 : HloOp τ sig (Elt F) :=
  binary main_v1 main_v172 main_v173 (cmpi .slt : (⟨S800000, .i32⟩ : BufTy).Contents (Elt F) → (⟨S800000, .i32⟩ : BufTy).Contents (Elt F) → (⟨S800000, .i1⟩ : BufTy).Contents (Elt F))
theorem o274_sub : (o274 (F := F)).bufs ⊆ tcRefs τ sig := binary_bufs_sub ..

def o275 : HloOp τ sig (Elt F) :=
  nullary main_c_30 (constantI S_ 32 50000#32)
theorem o275_sub : (o275 (F := F)).bufs ⊆ tcRefs τ sig := nullary_bufs_sub ..

def o276 : HloOp τ sig (Elt F) :=
  unary main_c_30 main_v174 (broadcastInDim S800000 ![] bcast_S_S800000 : (⟨S_, .i32⟩ : BufTy).Contents (Elt F) → (⟨S800000, .i32⟩ : BufTy).Contents (Elt F))
theorem o276_sub : (o276 (F := F)).bufs ⊆ tcRefs τ sig := unary_bufs_sub ..

def o277 : HloOp τ sig (Elt F) :=
  binary main_v1 main_v174 main_v175 (addi : (⟨S800000, .i32⟩ : BufTy).Contents (Elt F) → (⟨S800000, .i32⟩ : BufTy).Contents (Elt F) → (⟨S800000, .i32⟩ : BufTy).Contents (Elt F))
theorem o277_sub : (o277 (F := F)).bufs ⊆ tcRefs τ sig := binary_bufs_sub ..

def o278 : HloOp τ sig (Elt F) :=
  ternary main_v173 main_v175 main_v1 main_v176 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F))
theorem o278_sub : (o278 (F := F)).bufs ⊆ tcRefs τ sig := ternary_bufs_sub ..

def o279 : HloOp τ sig (Elt F) :=
  unary main_v176 main_v177 (broadcastInDim S800000x1 ![0] bcast_S800000_S800000x1_0 : (⟨S800000, .i32⟩ : BufTy).Contents (Elt F) → (⟨S800000x1, .i32⟩ : BufTy).Contents (Elt F))
theorem o279_sub : (o279 (F := F)).bufs ⊆ tcRefs τ sig := unary_bufs_sub ..

def o280 : HloOp τ sig (Elt F) :=
  binary main_v171 main_v177 main_v178 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F))
theorem o280_sub : (o280 (F := F)).bufs ⊆ tcRefs τ sig := binary_bufs_sub ..

def o281 : HloOp τ sig (Elt F) :=
  unary main_v25 main_v179 (broadcastInDim S800000x1 ![0] bcast_S800000_S800000x1_0 : (⟨S800000, .f32⟩ : BufTy).Contents (Elt F) → (⟨S800000x1, .f32⟩ : BufTy).Contents (Elt F))
theorem o281_sub : (o281 (F := F)).bufs ⊆ tcRefs τ sig := unary_bufs_sub ..

def o282 : HloOp τ sig (Elt F) :=
  unary main_v179 main_v180 (broadcastInDim S800000x256 ![0, 1] bcast_S800000x1_S800000x256_0_1 : (⟨S800000x1, .f32⟩ : BufTy).Contents (Elt F) → (⟨S800000x256, .f32⟩ : BufTy).Contents (Elt F))
theorem o282_sub : (o282 (F := F)).bufs ⊆ tcRefs τ sig := unary_bufs_sub ..

def o283 : HloOp τ sig (Elt F) :=
  binary main_v178 main_v180 main_v181 (mulf : (⟨S800000x256, .f32⟩ : BufTy).Contents (Elt F) → (⟨S800000x256, .f32⟩ : BufTy).Contents (Elt F) → (⟨S800000x256, .f32⟩ : BufTy).Contents (Elt F))
theorem o283_sub : (o283 (F := F)).bufs ⊆ tcRefs τ sig := binary_bufs_sub ..

def o284 : HloOp τ sig (Elt F) :=
  nullary main_cst_31 (constant S_ .f32 0x00000000#32)
theorem o284_sub : (o284 (F := F)).bufs ⊆ tcRefs τ sig := nullary_bufs_sub ..

def o285 : HloOp τ sig (Elt F) :=
  unary main_cst_31 main_v182 (broadcastInDim S50000x256 ![] bcast_S_S50000x256 : (⟨S_, .f32⟩ : BufTy).Contents (Elt F) → (⟨S50000x256, .f32⟩ : BufTy).Contents (Elt F))
theorem o285_sub : (o285 (F := F)).bufs ⊆ tcRefs τ sig := unary_bufs_sub ..

def o286 : HloOp τ sig (Elt F) :=
  unary main_v3 main_v183 (broadcastInDim S800000x1 ![0] bcast_S800000_S800000x1_0 : (⟨S800000, .i32⟩ : BufTy).Contents (Elt F) → (⟨S800000x1, .i32⟩ : BufTy).Contents (Elt F))
theorem o286_sub : (o286 (F := F)).bufs ⊆ tcRefs τ sig := unary_bufs_sub ..

def o287 : HloOp τ sig (Elt F) :=
  ternary main_v182 main_v183 main_v181 main_v184 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F))
theorem o287_sub : (o287 (F := F)).bufs ⊆ tcRefs τ sig := ternary_bufs_sub ..

def o288 : HloOp τ sig (Elt F) :=
  unary main_v26 main_v185 (broadcastInDim S50000x1 ![0] bcast_S50000_S50000x1_0 : (⟨S50000, .f32⟩ : BufTy).Contents (Elt F) → (⟨S50000x1, .f32⟩ : BufTy).Contents (Elt F))
theorem o288_sub : (o288 (F := F)).bufs ⊆ tcRefs τ sig := unary_bufs_sub ..

def o289 : HloOp τ sig (Elt F) :=
  unary main_v185 main_v186 (broadcastInDim S50000x256 ![0, 1] bcast_S50000x1_S50000x256_0_1 : (⟨S50000x1, .f32⟩ : BufTy).Contents (Elt F) → (⟨S50000x256, .f32⟩ : BufTy).Contents (Elt F))
theorem o289_sub : (o289 (F := F)).bufs ⊆ tcRefs τ sig := unary_bufs_sub ..

def o290 : HloOp τ sig (Elt F) :=
  binary main_v171 main_v186 main_v187 (mulf : (⟨S50000x256, .f32⟩ : BufTy).Contents (Elt F) → (⟨S50000x256, .f32⟩ : BufTy).Contents (Elt F) → (⟨S50000x256, .f32⟩ : BufTy).Contents (Elt F))
theorem o290_sub : (o290 (F := F)).bufs ⊆ tcRefs τ sig := binary_bufs_sub ..

def o291 : HloOp τ sig (Elt F) :=
  binary main_v184 main_v187 main_v188 (addf : (⟨S50000x256, .f32⟩ : BufTy).Contents (Elt F) → (⟨S50000x256, .f32⟩ : BufTy).Contents (Elt F) → (⟨S50000x256, .f32⟩ : BufTy).Contents (Elt F))
theorem o291_sub : (o291 (F := F)).bufs ⊆ tcRefs τ sig := binary_bufs_sub ..

def o292 : HloOp τ sig (Elt F) :=
  unary main_arg17 main_v189 (broadcastInDim S1x256 ![1] bcast_S256_S1x256_1 : (⟨S256, .f32⟩ : BufTy).Contents (Elt F) → (⟨S1x256, .f32⟩ : BufTy).Contents (Elt F))
theorem o292_sub : (o292 (F := F)).bufs ⊆ tcRefs τ sig := unary_bufs_sub ..

def o293 : HloOp τ sig (Elt F) :=
  unary main_v189 main_v190 (broadcastInDim S50000x256 ![0, 1] bcast_S1x256_S50000x256_0_1 : (⟨S1x256, .f32⟩ : BufTy).Contents (Elt F) → (⟨S50000x256, .f32⟩ : BufTy).Contents (Elt F))
theorem o293_sub : (o293 (F := F)).bufs ⊆ tcRefs τ sig := unary_bufs_sub ..

def o294 : HloOp τ sig (Elt F) :=
  binary main_v188 main_v190 main_v191 (addf : (⟨S50000x256, .f32⟩ : BufTy).Contents (Elt F) → (⟨S50000x256, .f32⟩ : BufTy).Contents (Elt F) → (⟨S50000x256, .f32⟩ : BufTy).Contents (Elt F))
theorem o294_sub : (o294 (F := F)).bufs ⊆ tcRefs τ sig := binary_bufs_sub ..

def o295 : HloOp τ sig (Elt F) :=
  TRef.nullary main_call6.cst (constant S_ .f32 0x00000000#32)
theorem o295_sub : (o295 (F := F)).bufs ⊆ tcRefs τ sig := tnullary_sub (Val := Elt F) main_call6.cst (constant S_ .f32 0x00000000#32)

def o296 : HloOp τ sig (Elt F) :=
  TRef.unary main_call6.cst main_call6.v0 (broadcastInDim S50000x256 ![] bcast_S_S50000x256)
theorem o296_sub : (o296 (F := F)).bufs ⊆ tcRefs τ sig := tunary_sub (Val := Elt F) main_call6.cst main_call6.v0 (broadcastInDim S50000x256 ![] bcast_S_S50000x256)

def o297 : HloOp τ sig (Elt F) :=
  TRef.binary (.of main_v191) main_call6.v0 main_call6.v1 maximumf
theorem o297_sub : (o297 (F := F)).bufs ⊆ tcRefs τ sig := tbinary_sub (Val := Elt F) (.of main_v191) main_call6.v0 main_call6.v1 maximumf

def o298 : HloOp τ sig (Elt F) :=
  nullary main_cst_32 (constant S_ .f32 0x00000000#32)
theorem o298_sub : (o298 (F := F)).bufs ⊆ tcRefs τ sig := nullary_bufs_sub ..

def o299 : HloOp τ sig (Elt F) :=
  binary main_v192 main_cst_32 main_v193 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F))
theorem o299_sub : (o299 (F := F)).bufs ⊆ tcRefs τ sig := binary_bufs_sub ..

def o300 : HloOp τ sig (Elt F) :=
  nullary main_cst_33 (constant S_ .f32 0x47435000#32)
theorem o300_sub : (o300 (F := F)).bufs ⊆ tcRefs τ sig := nullary_bufs_sub ..

def o301 : HloOp τ sig (Elt F) :=
  unary main_cst_33 main_v194 (broadcastInDim S256 ![] bcast_S_S256 : (⟨S_, .f32⟩ : BufTy).Contents (Elt F) → (⟨S256, .f32⟩ : BufTy).Contents (Elt F))
theorem o301_sub : (o301 (F := F)).bufs ⊆ tcRefs τ sig := unary_bufs_sub ..

def o302 : HloOp τ sig (Elt F) :=
  binary main_v193 main_v194 main_v195 (Host.divf : (⟨S256, .f32⟩ : BufTy).Contents (Elt F) → (⟨S256, .f32⟩ : BufTy).Contents (Elt F) → (⟨S256, .f32⟩ : BufTy).Contents (Elt F))
theorem o302_sub : (o302 (F := F)).bufs ⊆ tcRefs τ sig := binary_bufs_sub ..

def o303 : HloOp τ sig (Elt F) :=
  nullary main_c_34 (constantI S_ 32 0#32)
theorem o303_sub : (o303 (F := F)).bufs ⊆ tcRefs τ sig := nullary_bufs_sub ..

def o304 : HloOp τ sig (Elt F) :=
  TRef.nullary main_call7.cst (constant S_ .f32 0x00000000#32)
theorem o304_sub : (o304 (F := F)).bufs ⊆ tcRefs τ sig := tnullary_sub (Val := Elt F) main_call7.cst (constant S_ .f32 0x00000000#32)

def o305 : HloOp τ sig (Elt F) :=
  TRef.binary (.of main_v192) main_call7.cst main_call7.v0 (fun x v => Host.reduceAdd x v reducesTo_S50000x256_S256_d0 h_S_)
theorem o305_sub : (o305 (F := F)).bufs ⊆ tcRefs τ sig := tbinary_sub (Val := Elt F) (.of main_v192) main_call7.cst main_call7.v0 (fun x v => Host.reduceAdd x v reducesTo_S50000x256_S256_d0 h_S_)

def o306 : HloOp τ sig (Elt F) :=
  TRef.unary main_call7.v0 main_call7.v1 (broadcastInDim S1x256 ![1] bcast_S256_S1x256_1)
theorem o306_sub : (o306 (F := F)).bufs ⊆ tcRefs τ sig := tunary_sub (Val := Elt F) main_call7.v0 main_call7.v1 (broadcastInDim S1x256 ![1] bcast_S256_S1x256_1)

def o307 : HloOp τ sig (Elt F) :=
  TRef.nullary main_call7.cst_0 (constant S_ .f32 0x47435000#32)
theorem o307_sub : (o307 (F := F)).bufs ⊆ tcRefs τ sig := tnullary_sub (Val := Elt F) main_call7.cst_0 (constant S_ .f32 0x47435000#32)

def o308 : HloOp τ sig (Elt F) :=
  TRef.unary main_call7.cst_0 main_call7.v2 (broadcastInDim S1x256 ![] bcast_S_S1x256)
theorem o308_sub : (o308 (F := F)).bufs ⊆ tcRefs τ sig := tunary_sub (Val := Elt F) main_call7.cst_0 main_call7.v2 (broadcastInDim S1x256 ![] bcast_S_S1x256)

def o309 : HloOp τ sig (Elt F) :=
  TRef.binary main_call7.v1 main_call7.v2 main_call7.v3 Host.divf
theorem o309_sub : (o309 (F := F)).bufs ⊆ tcRefs τ sig := tbinary_sub (Val := Elt F) main_call7.v1 main_call7.v2 main_call7.v3 Host.divf

def o310 : HloOp τ sig (Elt F) :=
  TRef.unary main_call7.v3 main_call7.v4 (broadcastInDim S50000x256 ![0, 1] bcast_S1x256_S50000x256_0_1)
theorem o310_sub : (o310 (F := F)).bufs ⊆ tcRefs τ sig := tunary_sub (Val := Elt F) main_call7.v3 main_call7.v4 (broadcastInDim S50000x256 ![0, 1] bcast_S1x256_S50000x256_0_1)

def o311 : HloOp τ sig (Elt F) :=
  TRef.binary (.of main_v192) main_call7.v4 main_call7.v5 subf
theorem o311_sub : (o311 (F := F)).bufs ⊆ tcRefs τ sig := tbinary_sub (Val := Elt F) (.of main_v192) main_call7.v4 main_call7.v5 subf

def o312 : HloOp τ sig (Elt F) :=
  TRef.binary main_call7.v5 main_call7.v5 main_call7.v6 mulf
theorem o312_sub : (o312 (F := F)).bufs ⊆ tcRefs τ sig := tbinary_sub (Val := Elt F) main_call7.v5 main_call7.v5 main_call7.v6 mulf

def o313 : HloOp τ sig (Elt F) :=
  TRef.unary (.of main_c_34) main_call7.v7 (sitofp .f32)
theorem o313_sub : (o313 (F := F)).bufs ⊆ tcRefs τ sig := tunary_sub (Val := Elt F) (.of main_c_34) main_call7.v7 (sitofp .f32)

def o314 : HloOp τ sig (Elt F) :=
  TRef.nullary main_call7.cst_1 (constant S_ .f32 0x47435000#32)
theorem o314_sub : (o314 (F := F)).bufs ⊆ tcRefs τ sig := tnullary_sub (Val := Elt F) main_call7.cst_1 (constant S_ .f32 0x47435000#32)

def o315 : HloOp τ sig (Elt F) :=
  TRef.binary main_call7.cst_1 main_call7.v7 main_call7.v8 subf
theorem o315_sub : (o315 (F := F)).bufs ⊆ tcRefs τ sig := tbinary_sub (Val := Elt F) main_call7.cst_1 main_call7.v7 main_call7.v8 subf

def o316 : HloOp τ sig (Elt F) :=
  TRef.nullary main_call7.cst_2 (constant S_ .f32 0x00000000#32)
theorem o316_sub : (o316 (F := F)).bufs ⊆ tcRefs τ sig := tnullary_sub (Val := Elt F) main_call7.cst_2 (constant S_ .f32 0x00000000#32)

def o317 : HloOp τ sig (Elt F) :=
  TRef.binary main_call7.v6 main_call7.cst_2 main_call7.v9 (fun x v => Host.reduceAdd x v reducesTo_S50000x256_S256_d0 h_S_)
theorem o317_sub : (o317 (F := F)).bufs ⊆ tcRefs τ sig := tbinary_sub (Val := Elt F) main_call7.v6 main_call7.cst_2 main_call7.v9 (fun x v => Host.reduceAdd x v reducesTo_S50000x256_S256_d0 h_S_)

def o318 : HloOp τ sig (Elt F) :=
  TRef.unary main_call7.v8 main_call7.v10 (broadcastInDim S256 ![] bcast_S_S256)
theorem o318_sub : (o318 (F := F)).bufs ⊆ tcRefs τ sig := tunary_sub (Val := Elt F) main_call7.v8 main_call7.v10 (broadcastInDim S256 ![] bcast_S_S256)

def o319 : HloOp τ sig (Elt F) :=
  TRef.binary main_call7.v9 main_call7.v10 main_call7.v11 Host.divf
theorem o319_sub : (o319 (F := F)).bufs ⊆ tcRefs τ sig := tbinary_sub (Val := Elt F) main_call7.v9 main_call7.v10 main_call7.v11 Host.divf

def o320 : HloOp τ sig (Elt F) :=
  TRef.nullary main_call7.cst_3 (constant S_ .f32 0x00000000#32)
theorem o320_sub : (o320 (F := F)).bufs ⊆ tcRefs τ sig := tnullary_sub (Val := Elt F) main_call7.cst_3 (constant S_ .f32 0x00000000#32)

def o321 : HloOp τ sig (Elt F) :=
  TRef.binary main_call7.v8 main_call7.cst_3 main_call7.v12 (cmpf .ogt)
theorem o321_sub : (o321 (F := F)).bufs ⊆ tcRefs τ sig := tbinary_sub (Val := Elt F) main_call7.v8 main_call7.cst_3 main_call7.v12 (cmpf .ogt)

def o322 : HloOp τ sig (Elt F) :=
  TRef.nullary main_call7.cst_4 (constant S_ .f32 0x7FC00000#32)
theorem o322_sub : (o322 (F := F)).bufs ⊆ tcRefs τ sig := tnullary_sub (Val := Elt F) main_call7.cst_4 (constant S_ .f32 0x7FC00000#32)

def o323 : HloOp τ sig (Elt F) :=
  TRef.unary main_call7.cst_4 main_call7.call0.v0 id
theorem o323_sub : (o323 (F := F)).bufs ⊆ tcRefs τ sig := tunary_sub (Val := Elt F) main_call7.cst_4 main_call7.call0.v0 id

def o324 : HloOp τ sig (Elt F) :=
  TRef.unary main_call7.call0.v0 main_call7.call0.v1 (broadcastInDim S256 ![] bcast_S_S256)
theorem o324_sub : (o324 (F := F)).bufs ⊆ tcRefs τ sig := tunary_sub (Val := Elt F) main_call7.call0.v0 main_call7.call0.v1 (broadcastInDim S256 ![] bcast_S_S256)

def o325 : HloOp τ sig (Elt F) :=
  TRef.ternary main_call7.v12 main_call7.v11 main_call7.call0.v1 main_call7.call0.v2 (fun p a b => select (broadcastInDim S256 ![] bcast_S_S256 p) a b)
theorem o325_sub : (o325 (F := F)).bufs ⊆ tcRefs τ sig := tternary_sub (Val := Elt F) main_call7.v12 main_call7.v11 main_call7.call0.v1 main_call7.call0.v2 (fun p a b => select (broadcastInDim S256 ![] bcast_S_S256 p) a b)

def o326 : HloOp τ sig (Elt F) :=
  unary main_v195 main_v197 (broadcastInDim S1x256 ![1] bcast_S256_S1x256_1 : (⟨S256, .f32⟩ : BufTy).Contents (Elt F) → (⟨S1x256, .f32⟩ : BufTy).Contents (Elt F))
theorem o326_sub : (o326 (F := F)).bufs ⊆ tcRefs τ sig := unary_bufs_sub ..

def o327 : HloOp τ sig (Elt F) :=
  unary main_v197 main_v198 (broadcastInDim S50000x256 ![0, 1] bcast_S1x256_S50000x256_0_1 : (⟨S1x256, .f32⟩ : BufTy).Contents (Elt F) → (⟨S50000x256, .f32⟩ : BufTy).Contents (Elt F))
theorem o327_sub : (o327 (F := F)).bufs ⊆ tcRefs τ sig := unary_bufs_sub ..

def o328 : HloOp τ sig (Elt F) :=
  binary main_v192 main_v198 main_v199 (subf : (⟨S50000x256, .f32⟩ : BufTy).Contents (Elt F) → (⟨S50000x256, .f32⟩ : BufTy).Contents (Elt F) → (⟨S50000x256, .f32⟩ : BufTy).Contents (Elt F))
theorem o328_sub : (o328 (F := F)).bufs ⊆ tcRefs τ sig := binary_bufs_sub ..

def o329 : HloOp τ sig (Elt F) :=
  nullary main_cst_35 (constant S_ .f32 0x3727C5AC#32)
theorem o329_sub : (o329 (F := F)).bufs ⊆ tcRefs τ sig := nullary_bufs_sub ..

def o330 : HloOp τ sig (Elt F) :=
  unary main_cst_35 main_v200 (broadcastInDim S256 ![] bcast_S_S256 : (⟨S_, .f32⟩ : BufTy).Contents (Elt F) → (⟨S256, .f32⟩ : BufTy).Contents (Elt F))
theorem o330_sub : (o330 (F := F)).bufs ⊆ tcRefs τ sig := unary_bufs_sub ..

def o331 : HloOp τ sig (Elt F) :=
  binary main_v196 main_v200 main_v201 (addf : (⟨S256, .f32⟩ : BufTy).Contents (Elt F) → (⟨S256, .f32⟩ : BufTy).Contents (Elt F) → (⟨S256, .f32⟩ : BufTy).Contents (Elt F))
theorem o331_sub : (o331 (F := F)).bufs ⊆ tcRefs τ sig := binary_bufs_sub ..

/-- The window's operations, in order. -/
def w3 : List (HloOp τ sig (Elt F)) :=
  [o228, o229, o230, o231, o232, o233, o234, o235, o236, o237, o238, o239, o240, o241, o242, o243, o244, o245, o246, o247, o248, o249, o250, o251, o252, o253, o254, o255, o256, o257, o258, o259, o260, o261, o262, o263, o264, o265, o266, o267, o268, o269, o270, o271, o272, o273, o274, o275, o276, o277, o278, o279, o280, o281, o282, o283, o284, o285, o286, o287, o288, o289, o290, o291, o292, o293, o294, o295, o296, o297, o298, o299, o300, o301, o302, o303, o304, o305, o306, o307, o308, o309, o310, o311, o312, o313, o314, o315, o316, o317, o318, o319, o320, o321, o322, o323, o324, o325, o326, o327, o328, o329, o330, o331]

set_option maxRecDepth 8192 in
set_option maxHeartbeats 4000000 in
/-- The window is that straight line: the called functions' definitions unfolded at their calls. -/
theorem part3_eq (c : Dev nD) : main_part3 (F := F) c = seq w3 := by
  simp only [main_part3, fn_var.body, fn_var_0.body, fn_where.body, fn_where_1.body, fn_relu.body, fn_relu_2.body, seq, w3, bind_assoc, pure_bind]
  rfl

theorem w3_sub : (w3 : List (HloOp τ sig (Elt F))).Forall fun op => op.bufs ⊆ tcRefs τ sig :=
  ⟨o228_sub, o229_sub, o230_sub, o231_sub, o232_sub, o233_sub, o234_sub, o235_sub, o236_sub, o237_sub, o238_sub, o239_sub, o240_sub, o241_sub, o242_sub, o243_sub, o244_sub, o245_sub, o246_sub, o247_sub, o248_sub, o249_sub, o250_sub, o251_sub, o252_sub, o253_sub, o254_sub, o255_sub, o256_sub, o257_sub, o258_sub, o259_sub, o260_sub, o261_sub, o262_sub, o263_sub, o264_sub, o265_sub, o266_sub, o267_sub, o268_sub, o269_sub, o270_sub, o271_sub, o272_sub, o273_sub, o274_sub, o275_sub, o276_sub, o277_sub, o278_sub, o279_sub, o280_sub, o281_sub, o282_sub, o283_sub, o284_sub, o285_sub, o286_sub, o287_sub, o288_sub, o289_sub, o290_sub, o291_sub, o292_sub, o293_sub, o294_sub, o295_sub, o296_sub, o297_sub, o298_sub, o299_sub, o300_sub, o301_sub, o302_sub, o303_sub, o304_sub, o305_sub, o306_sub, o307_sub, o308_sub, o309_sub, o310_sub, o311_sub, o312_sub, o313_sub, o314_sub, o315_sub, o316_sub, o317_sub, o318_sub, o319_sub, o320_sub, o321_sub, o322_sub, o323_sub, o324_sub, o325_sub, o326_sub, o327_sub, o328_sub, o329_sub, o330_sub, o331_sub⟩

theorem w3_fresh : (w3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

end Cert.ReferenceIdeal.RefRun

end
-- ==== Proof.RefRunW4.lean ====
/-
  The reference program's statements 332 … 365 (of 366, the outlined functions' bodies written out at their calls),
  each as a named operation, and the program's window number 4 as the straight line of them.
-/
import proofs.«106426_j33148557590872_1_alg».proof.Proof.Gen.ReferenceIdeal
import Idealize.ShloMosaic.Lib.StableHlo.Run
import proofs.«106426_j33148557590872_1_alg».proof.Proof.RefRunPre

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

def o332 : HloOp τ sig (Elt F) :=
  unary main_v201 main_v202 (Host.rsqrt : (⟨S256, .f32⟩ : BufTy).Contents (Elt F) → (⟨S256, .f32⟩ : BufTy).Contents (Elt F))
theorem o332_sub : (o332 (F := F)).bufs ⊆ tcRefs τ sig := unary_bufs_sub ..

def o333 : HloOp τ sig (Elt F) :=
  unary main_v202 main_v203 (broadcastInDim S1x256 ![1] bcast_S256_S1x256_1 : (⟨S256, .f32⟩ : BufTy).Contents (Elt F) → (⟨S1x256, .f32⟩ : BufTy).Contents (Elt F))
theorem o333_sub : (o333 (F := F)).bufs ⊆ tcRefs τ sig := unary_bufs_sub ..

def o334 : HloOp τ sig (Elt F) :=
  unary main_v203 main_v204 (broadcastInDim S50000x256 ![0, 1] bcast_S1x256_S50000x256_0_1 : (⟨S1x256, .f32⟩ : BufTy).Contents (Elt F) → (⟨S50000x256, .f32⟩ : BufTy).Contents (Elt F))
theorem o334_sub : (o334 (F := F)).bufs ⊆ tcRefs τ sig := unary_bufs_sub ..

def o335 : HloOp τ sig (Elt F) :=
  binary main_v199 main_v204 main_v205 (mulf : (⟨S50000x256, .f32⟩ : BufTy).Contents (Elt F) → (⟨S50000x256, .f32⟩ : BufTy).Contents (Elt F) → (⟨S50000x256, .f32⟩ : BufTy).Contents (Elt F))
theorem o335_sub : (o335 (F := F)).bufs ⊆ tcRefs τ sig := binary_bufs_sub ..

def o336 : HloOp τ sig (Elt F) :=
  unary main_arg18 main_v206 (broadcastInDim S1x256 ![1] bcast_S256_S1x256_1 : (⟨S256, .f32⟩ : BufTy).Contents (Elt F) → (⟨S1x256, .f32⟩ : BufTy).Contents (Elt F))
theorem o336_sub : (o336 (F := F)).bufs ⊆ tcRefs τ sig := unary_bufs_sub ..

def o337 : HloOp τ sig (Elt F) :=
  unary main_v206 main_v207 (broadcastInDim S50000x256 ![0, 1] bcast_S1x256_S50000x256_0_1 : (⟨S1x256, .f32⟩ : BufTy).Contents (Elt F) → (⟨S50000x256, .f32⟩ : BufTy).Contents (Elt F))
theorem o337_sub : (o337 (F := F)).bufs ⊆ tcRefs τ sig := unary_bufs_sub ..

def o338 : HloOp τ sig (Elt F) :=
  binary main_v205 main_v207 main_v208 (mulf : (⟨S50000x256, .f32⟩ : BufTy).Contents (Elt F) → (⟨S50000x256, .f32⟩ : BufTy).Contents (Elt F) → (⟨S50000x256, .f32⟩ : BufTy).Contents (Elt F))
theorem o338_sub : (o338 (F := F)).bufs ⊆ tcRefs τ sig := binary_bufs_sub ..

def o339 : HloOp τ sig (Elt F) :=
  unary main_arg19 main_v209 (broadcastInDim S1x256 ![1] bcast_S256_S1x256_1 : (⟨S256, .f32⟩ : BufTy).Contents (Elt F) → (⟨S1x256, .f32⟩ : BufTy).Contents (Elt F))
theorem o339_sub : (o339 (F := F)).bufs ⊆ tcRefs τ sig := unary_bufs_sub ..

def o340 : HloOp τ sig (Elt F) :=
  unary main_v209 main_v210 (broadcastInDim S50000x256 ![0, 1] bcast_S1x256_S50000x256_0_1 : (⟨S1x256, .f32⟩ : BufTy).Contents (Elt F) → (⟨S50000x256, .f32⟩ : BufTy).Contents (Elt F))
theorem o340_sub : (o340 (F := F)).bufs ⊆ tcRefs τ sig := unary_bufs_sub ..

def o341 : HloOp τ sig (Elt F) :=
  binary main_v208 main_v210 main_v211 (addf : (⟨S50000x256, .f32⟩ : BufTy).Contents (Elt F) → (⟨S50000x256, .f32⟩ : BufTy).Contents (Elt F) → (⟨S50000x256, .f32⟩ : BufTy).Contents (Elt F))
theorem o341_sub : (o341 (F := F)).bufs ⊆ tcRefs τ sig := binary_bufs_sub ..

def o342 : HloOp τ sig (Elt F) :=
  binary main_v211 main_arg20 main_v212 ((fun l r => Host.dotGeneral dot_S50000x256_S256x64_S50000x64_1_0_0_1_n_n none l r) : (⟨S50000x256, .f32⟩ : BufTy).Contents (Elt F) → (⟨S256x64, .f32⟩ : BufTy).Contents (Elt F) → (⟨S50000x64, .f32⟩ : BufTy).Contents (Elt F))
theorem o342_sub : (o342 (F := F)).bufs ⊆ tcRefs τ sig := binary_bufs_sub ..

def o343 : HloOp τ sig (Elt F) :=
  nullary main_c_36 (constantI S_ 32 0#32)
theorem o343_sub : (o343 (F := F)).bufs ⊆ tcRefs τ sig := nullary_bufs_sub ..

def o344 : HloOp τ sig (Elt F) :=
  unary main_c_36 main_v213 (broadcastInDim S800000 ![] bcast_S_S800000 : (⟨S_, .i32⟩ : BufTy).Contents (Elt F) → (⟨S800000, .i32⟩ : BufTy).Contents (Elt F))
theorem o344_sub : (o344 (F := F)).bufs ⊆ tcRefs τ sig := unary_bufs_sub ..

def o345 : HloOp τ sig (Elt F) :=
  binary main_v1 main_v213 main_v214 (cmpi .slt : (⟨S800000, .i32⟩ : BufTy).Contents (Elt F) → (⟨S800000, .i32⟩ : BufTy).Contents (Elt F) → (⟨S800000, .i1⟩ : BufTy).Contents (Elt F))
theorem o345_sub : (o345 (F := F)).bufs ⊆ tcRefs τ sig := binary_bufs_sub ..

def o346 : HloOp τ sig (Elt F) :=
  nullary main_c_37 (constantI S_ 32 50000#32)
theorem o346_sub : (o346 (F := F)).bufs ⊆ tcRefs τ sig := nullary_bufs_sub ..

def o347 : HloOp τ sig (Elt F) :=
  unary main_c_37 main_v215 (broadcastInDim S800000 ![] bcast_S_S800000 : (⟨S_, .i32⟩ : BufTy).Contents (Elt F) → (⟨S800000, .i32⟩ : BufTy).Contents (Elt F))
theorem o347_sub : (o347 (F := F)).bufs ⊆ tcRefs τ sig := unary_bufs_sub ..

def o348 : HloOp τ sig (Elt F) :=
  binary main_v1 main_v215 main_v216 (addi : (⟨S800000, .i32⟩ : BufTy).Contents (Elt F) → (⟨S800000, .i32⟩ : BufTy).Contents (Elt F) → (⟨S800000, .i32⟩ : BufTy).Contents (Elt F))
theorem o348_sub : (o348 (F := F)).bufs ⊆ tcRefs τ sig := binary_bufs_sub ..

def o349 : HloOp τ sig (Elt F) :=
  ternary main_v214 main_v216 main_v1 main_v217 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F))
theorem o349_sub : (o349 (F := F)).bufs ⊆ tcRefs τ sig := ternary_bufs_sub ..

def o350 : HloOp τ sig (Elt F) :=
  unary main_v217 main_v218 (broadcastInDim S800000x1 ![0] bcast_S800000_S800000x1_0 : (⟨S800000, .i32⟩ : BufTy).Contents (Elt F) → (⟨S800000x1, .i32⟩ : BufTy).Contents (Elt F))
theorem o350_sub : (o350 (F := F)).bufs ⊆ tcRefs τ sig := unary_bufs_sub ..

def o351 : HloOp τ sig (Elt F) :=
  binary main_v212 main_v218 main_v219 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F))
theorem o351_sub : (o351 (F := F)).bufs ⊆ tcRefs τ sig := binary_bufs_sub ..

def o352 : HloOp τ sig (Elt F) :=
  unary main_v25 main_v220 (broadcastInDim S800000x1 ![0] bcast_S800000_S800000x1_0 : (⟨S800000, .f32⟩ : BufTy).Contents (Elt F) → (⟨S800000x1, .f32⟩ : BufTy).Contents (Elt F))
theorem o352_sub : (o352 (F := F)).bufs ⊆ tcRefs τ sig := unary_bufs_sub ..

def o353 : HloOp τ sig (Elt F) :=
  unary main_v220 main_v221 (broadcastInDim S800000x64 ![0, 1] bcast_S800000x1_S800000x64_0_1 : (⟨S800000x1, .f32⟩ : BufTy).Contents (Elt F) → (⟨S800000x64, .f32⟩ : BufTy).Contents (Elt F))
theorem o353_sub : (o353 (F := F)).bufs ⊆ tcRefs τ sig := unary_bufs_sub ..

def o354 : HloOp τ sig (Elt F) :=
  binary main_v219 main_v221 main_v222 (mulf : (⟨S800000x64, .f32⟩ : BufTy).Contents (Elt F) → (⟨S800000x64, .f32⟩ : BufTy).Contents (Elt F) → (⟨S800000x64, .f32⟩ : BufTy).Contents (Elt F))
theorem o354_sub : (o354 (F := F)).bufs ⊆ tcRefs τ sig := binary_bufs_sub ..

def o355 : HloOp τ sig (Elt F) :=
  nullary main_cst_38 (constant S_ .f32 0x00000000#32)
theorem o355_sub : (o355 (F := F)).bufs ⊆ tcRefs τ sig := nullary_bufs_sub ..

def o356 : HloOp τ sig (Elt F) :=
  unary main_cst_38 main_v223 (broadcastInDim S50000x64 ![] bcast_S_S50000x64 : (⟨S_, .f32⟩ : BufTy).Contents (Elt F) → (⟨S50000x64, .f32⟩ : BufTy).Contents (Elt F))
theorem o356_sub : (o356 (F := F)).bufs ⊆ tcRefs τ sig := unary_bufs_sub ..

def o357 : HloOp τ sig (Elt F) :=
  unary main_v3 main_v224 (broadcastInDim S800000x1 ![0] bcast_S800000_S800000x1_0 : (⟨S800000, .i32⟩ : BufTy).Contents (Elt F) → (⟨S800000x1, .i32⟩ : BufTy).Contents (Elt F))
theorem o357_sub : (o357 (F := F)).bufs ⊆ tcRefs τ sig := unary_bufs_sub ..

def o358 : HloOp τ sig (Elt F) :=
  ternary main_v223 main_v224 main_v222 main_v225 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F))
theorem o358_sub : (o358 (F := F)).bufs ⊆ tcRefs τ sig := ternary_bufs_sub ..

def o359 : HloOp τ sig (Elt F) :=
  unary main_v26 main_v226 (broadcastInDim S50000x1 ![0] bcast_S50000_S50000x1_0 : (⟨S50000, .f32⟩ : BufTy).Contents (Elt F) → (⟨S50000x1, .f32⟩ : BufTy).Contents (Elt F))
theorem o359_sub : (o359 (F := F)).bufs ⊆ tcRefs τ sig := unary_bufs_sub ..

def o360 : HloOp τ sig (Elt F) :=
  unary main_v226 main_v227 (broadcastInDim S50000x64 ![0, 1] bcast_S50000x1_S50000x64_0_1 : (⟨S50000x1, .f32⟩ : BufTy).Contents (Elt F) → (⟨S50000x64, .f32⟩ : BufTy).Contents (Elt F))
theorem o360_sub : (o360 (F := F)).bufs ⊆ tcRefs τ sig := unary_bufs_sub ..

def o361 : HloOp τ sig (Elt F) :=
  binary main_v212 main_v227 main_v228 (mulf : (⟨S50000x64, .f32⟩ : BufTy).Contents (Elt F) → (⟨S50000x64, .f32⟩ : BufTy).Contents (Elt F) → (⟨S50000x64, .f32⟩ : BufTy).Contents (Elt F))
theorem o361_sub : (o361 (F := F)).bufs ⊆ tcRefs τ sig := binary_bufs_sub ..

def o362 : HloOp τ sig (Elt F) :=
  binary main_v225 main_v228 main_v229 (addf : (⟨S50000x64, .f32⟩ : BufTy).Contents (Elt F) → (⟨S50000x64, .f32⟩ : BufTy).Contents (Elt F) → (⟨S50000x64, .f32⟩ : BufTy).Contents (Elt F))
theorem o362_sub : (o362 (F := F)).bufs ⊆ tcRefs τ sig := binary_bufs_sub ..

def o363 : HloOp τ sig (Elt F) :=
  unary main_arg21 main_v230 (broadcastInDim S1x64 ![1] bcast_S64_S1x64_1 : (⟨S64, .f32⟩ : BufTy).Contents (Elt F) → (⟨S1x64, .f32⟩ : BufTy).Contents (Elt F))
theorem o363_sub : (o363 (F := F)).bufs ⊆ tcRefs τ sig := unary_bufs_sub ..

def o364 : HloOp τ sig (Elt F) :=
  unary main_v230 main_v231 (broadcastInDim S50000x64 ![0, 1] bcast_S1x64_S50000x64_0_1 : (⟨S1x64, .f32⟩ : BufTy).Contents (Elt F) → (⟨S50000x64, .f32⟩ : BufTy).Contents (Elt F))
theorem o364_sub : (o364 (F := F)).bufs ⊆ tcRefs τ sig := unary_bufs_sub ..

def o365 : HloOp τ sig (Elt F) :=
  binary main_v229 main_v231 main_v232 (addf : (⟨S50000x64, .f32⟩ : BufTy).Contents (Elt F) → (⟨S50000x64, .f32⟩ : BufTy).Contents (Elt F) → (⟨S50000x64, .f32⟩ : BufTy).Contents (Elt F))
theorem o365_sub : (o365 (F := F)).bufs ⊆ tcRefs τ sig := binary_bufs_sub ..

/-- The window's operations, in order. -/
def w4 : List (HloOp τ sig (Elt F)) :=
  [o332, o333, o334, o335, o336, o337, o338, o339, o340, o341, o342, o343, o344, o345, o346, o347, o348, o349, o350, o351, o352, o353, o354, o355, o356, o357, o358, o359, o360, o361, o362, o363, o364, o365]

set_option maxRecDepth 8192 in
set_option maxHeartbeats 4000000 in
/-- The window is that straight line: the called functions' definitions unfolded at their calls. -/
theorem part4_eq (c : Dev nD) : main_part4 (F := F) c = seq w4 := rfl

theorem w4_sub : (w4 : List (HloOp τ sig (Elt F))).Forall fun op => op.bufs ⊆ tcRefs τ sig :=
  ⟨o332_sub, o333_sub, o334_sub, o335_sub, o336_sub, o337_sub, o338_sub, o339_sub, o340_sub, o341_sub, o342_sub, o343_sub, o344_sub, o345_sub, o346_sub, o347_sub, o348_sub, o349_sub, o350_sub, o351_sub, o352_sub, o353_sub, o354_sub, o355_sub, o356_sub, o357_sub, o358_sub, o359_sub, o360_sub, o361_sub, o362_sub, o363_sub, o364_sub, o365_sub⟩

theorem w4_fresh : (w4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

end Cert.ReferenceIdeal.RefRun

end
-- ==== Proof.RefRunMain.lean ====
/-
  The reference program as ONE straight line of its 366 operations (the five windows appended), and its run:
  every weakly fair execution terminates with every buffer at the operations' fold over the launch contents.
-/
import proofs.«106426_j33148557590872_1_alg».proof.Proof.RefRunW0
import proofs.«106426_j33148557590872_1_alg».proof.Proof.RefRunW1
import proofs.«106426_j33148557590872_1_alg».proof.Proof.RefRunW2
import proofs.«106426_j33148557590872_1_alg».proof.Proof.RefRunW3
import proofs.«106426_j33148557590872_1_alg».proof.Proof.RefRunW4

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Running two lines one after the other is running their concatenation. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- All the operations, in order. -/
def ops : List (HloOp τ sig (Elt F)) := w0 ++ (w1 ++ (w2 ++ (w3 ++ w4)))

theorem main_eq (c : Dev nD) : main (F := F) c = seq ops := by
  unfold ops
  rw [seq_append, seq_append, seq_append, seq_append, ← part0_eq c, ← part1_eq c, ← part2_eq c, ← part3_eq c, ← part4_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  rw [List.forall_iff_forall_mem]
  intro op h
  simp only [ops, List.mem_append] at h
  rcases h with h | h | h | h | h
  · exact List.forall_iff_forall_mem.1 w0_sub op h
  · exact List.forall_iff_forall_mem.1 w1_sub op h
  · exact List.forall_iff_forall_mem.1 w2_sub op h
  · exact List.forall_iff_forall_mem.1 w3_sub op h
  · exact List.forall_iff_forall_mem.1 w4_sub op h

theorem ops_fresh : ∀ op ∈ (ops : List (HloOp τ sig (Elt F))), op.fresh = ∅ := by
  intro op h
  simp only [ops, List.mem_append] at h
  rcases h with h | h | h | h | h
  · exact List.forall_iff_forall_mem.1 w0_fresh op h
  · exact List.forall_iff_forall_mem.1 w1_fresh op h
  · exact List.forall_iff_forall_mem.1 w2_fresh op h
  · exact List.forall_iff_forall_mem.1 w3_fresh op h
  · exact List.forall_iff_forall_mem.1 w4_fresh op h

/-- On every device, for any float values, from any memory with zero counters: every weakly fair execution of
    the program terminates, and every final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.RefRun

end
-- ==== Proof.RefRunChunks.lean ====
/-
  The reference program's operations grouped by stage: the graph part, then per layer the matrix product, the messages
  (gather, weight, sum into destinations), the combination (self-loop term and bias), the positive part where it comes
  first, the column mean, the column variance, the normalisation. The whole line is the stages appended.
-/
import proofs.«106426_j33148557590872_1_alg».proof.Proof.RefRunMain

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

def cG : List (HloOp τ sig (Elt F)) := [o0, o1, o2, o3, o4, o5, o6, o7, o8, o9, o10, o11, o12, o13, o14, o15, o16, o17, o18, o19, o20, o21, o22, o23, o24, o25, o26, o27, o28, o29, o30, o31, o32, o33]

def cm1D : List (HloOp τ sig (Elt F)) := [o34]

def cm1M : List (HloOp τ sig (Elt F)) := [o35, o36, o37, o38, o39, o40, o41, o42, o43, o44, o45, o46, o47, o48, o49, o50]

def cm1C : List (HloOp τ sig (Elt F)) := [o51, o52, o53, o54, o55, o56, o57]

def cm1S : List (HloOp τ sig (Elt F)) := [o58, o59, o60, o61, o62]

def cm1V : List (HloOp τ sig (Elt F)) := [o63, o64, o65, o66, o67, o68, o69, o70, o71, o72, o73, o74, o75, o76, o77, o78, o79, o80, o81, o82, o83, o84, o85]

def cm1N : List (HloOp τ sig (Elt F)) := [o86, o87, o88, o89, o90, o91, o92, o93, o94, o95, o96, o97, o98, o99, o100, o101, o102, o103, o104]

def cm2D : List (HloOp τ sig (Elt F)) := [o105]

def cm2M : List (HloOp τ sig (Elt F)) := [o106, o107, o108, o109, o110, o111, o112, o113, o114, o115, o116, o117, o118, o119, o120, o121]

def cm2C : List (HloOp τ sig (Elt F)) := [o122, o123, o124, o125, o126, o127, o128]

def cm2S : List (HloOp τ sig (Elt F)) := [o129, o130, o131, o132, o133]

def cm2V : List (HloOp τ sig (Elt F)) := [o134, o135, o136, o137, o138, o139, o140, o141, o142, o143, o144, o145, o146, o147, o148, o149, o150, o151, o152, o153, o154, o155, o156]

def cm2N : List (HloOp τ sig (Elt F)) := [o157, o158, o159, o160, o161, o162, o163, o164, o165, o166, o167, o168, o169, o170, o171, o172, o173, o174, o175]

def cm3D : List (HloOp τ sig (Elt F)) := [o176]

def cm3M : List (HloOp τ sig (Elt F)) := [o177, o178, o179, o180, o181, o182, o183, o184, o185, o186, o187, o188, o189, o190, o191, o192]

def cm3C : List (HloOp τ sig (Elt F)) := [o193, o194, o195, o196, o197, o198, o199]

def cl1D : List (HloOp τ sig (Elt F)) := [o200]

def cl1M : List (HloOp τ sig (Elt F)) := [o201, o202, o203, o204, o205, o206, o207, o208, o209, o210, o211, o212, o213, o214, o215, o216]

def cl1C : List (HloOp τ sig (Elt F)) := [o217, o218, o219, o220, o221, o222, o223]

def cl1R : List (HloOp τ sig (Elt F)) := [o224, o225, o226]

def cl1S : List (HloOp τ sig (Elt F)) := [o227, o228, o229, o230, o231]

def cl1V : List (HloOp τ sig (Elt F)) := [o232, o233, o234, o235, o236, o237, o238, o239, o240, o241, o242, o243, o244, o245, o246, o247, o248, o249, o250, o251, o252, o253, o254]

def cl1N : List (HloOp τ sig (Elt F)) := [o255, o256, o257, o258, o259, o260, o261, o262, o263, o264, o265, o266, o267, o268, o269, o270]

def cl2D : List (HloOp τ sig (Elt F)) := [o271]

def cl2M : List (HloOp τ sig (Elt F)) := [o272, o273, o274, o275, o276, o277, o278, o279, o280, o281, o282, o283, o284, o285, o286, o287]

def cl2C : List (HloOp τ sig (Elt F)) := [o288, o289, o290, o291, o292, o293, o294]

def cl2R : List (HloOp τ sig (Elt F)) := [o295, o296, o297]

def cl2S : List (HloOp τ sig (Elt F)) := [o298, o299, o300, o301, o302]

def cl2V : List (HloOp τ sig (Elt F)) := [o303, o304, o305, o306, o307, o308, o309, o310, o311, o312, o313, o314, o315, o316, o317, o318, o319, o320, o321, o322, o323, o324, o325]

def cl2N : List (HloOp τ sig (Elt F)) := [o326, o327, o328, o329, o330, o331, o332, o333, o334, o335, o336, o337, o338, o339, o340, o341]

def cl3D : List (HloOp τ sig (Elt F)) := [o342]

def cl3M : List (HloOp τ sig (Elt F)) := [o343, o344, o345, o346, o347, o348, o349, o350, o351, o352, o353, o354, o355, o356, o357, o358]

def cl3C : List (HloOp τ sig (Elt F)) := [o359, o360, o361, o362, o363, o364, o365]

/-- The whole line is the stages, in order. -/
theorem ops_eq : (ops : List (HloOp τ sig (Elt F))) = cG ++ (cm1D ++ (cm1M ++ (cm1C ++ (cm1S ++ (cm1V ++ (cm1N ++ (cm2D ++ (cm2M ++ (cm2C ++ (cm2S ++ (cm2V ++ (cm2N ++ (cm3D ++ (cm3M ++ (cm3C ++ (cl1D ++ (cl1M ++ (cl1C ++ (cl1R ++ (cl1S ++ (cl1V ++ (cl1N ++ (cl2D ++ (cl2M ++ (cl2C ++ (cl2R ++ (cl2S ++ (cl2V ++ (cl2N ++ (cl3D ++ (cl3M ++ (cl3C)))))))))))))))))))))))))))))))) := rfl

end Cert.ReferenceIdeal.RefRun

end
-- ==== Proof.RefRunStG.lean ====
/-
  The graph part of the program: what it writes, that it leaves every other buffer alone, and its results (the two rows
  of the edge array, the edge weights, the self-loop weights) as the composed terms of the edge array.
-/
import proofs.«106426_j33148557590872_1_alg».proof.Proof.RefRunChunks
import Idealize.ShloMosaic.PureOps.Ideal

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The buffers the stage writes. -/
abbrev cG_W : List (Ref sig .tc) := [main_v0, main_v1, main_v2, main_v3, main_cst, main_v4, main_cst_0, main_v5, main_v6, main_v7, main_cst_1, main_v8, main_v9, main_v10, main_c, main_v11, main_v12, main_c_2, main_v13, main_v14, main_v15, main_v16, main_v17, main_c_3, main_v18, main_v19, main_c_4, main_v20, main_v21, main_v22, main_v23, main_v24, main_v25, main_v26]

theorem cG_writes : (cG : List (HloOp τ sig (Elt F))).Forall fun op => op.writes ⊆ (cG_W.map (Proc.devRef (τ := τ) .tc)).toFinset := by
  simp only [cG, List.Forall]
  exact ⟨by simp only [o0, nullary_writes, unary_writes, binary_writes, ternary_writes, reshape_writes, Finset.singleton_subset_iff, List.mem_toFinset]; exact List.mem_map_of_mem (by decide),
    by simp only [o1, nullary_writes, unary_writes, binary_writes, ternary_writes, reshape_writes, Finset.singleton_subset_iff, List.mem_toFinset]; exact List.mem_map_of_mem (by decide),
    by simp only [o2, nullary_writes, unary_writes, binary_writes, ternary_writes, reshape_writes, Finset.singleton_subset_iff, List.mem_toFinset]; exact List.mem_map_of_mem (by decide),
    by simp only [o3, nullary_writes, unary_writes, binary_writes, ternary_writes, reshape_writes, Finset.singleton_subset_iff, List.mem_toFinset]; exact List.mem_map_of_mem (by decide),
    by simp only [o4, nullary_writes, unary_writes, binary_writes, ternary_writes, reshape_writes, Finset.singleton_subset_iff, List.mem_toFinset]; exact List.mem_map_of_mem (by decide),
    by simp only [o5, nullary_writes, unary_writes, binary_writes, ternary_writes, reshape_writes, Finset.singleton_subset_iff, List.mem_toFinset]; exact List.mem_map_of_mem (by decide),
    by simp only [o6, nullary_writes, unary_writes, binary_writes, ternary_writes, reshape_writes, Finset.singleton_subset_iff, List.mem_toFinset]; exact List.mem_map_of_mem (by decide),
    by simp only [o7, nullary_writes, unary_writes, binary_writes, ternary_writes, reshape_writes, Finset.singleton_subset_iff, List.mem_toFinset]; exact List.mem_map_of_mem (by decide),
    by simp only [o8, nullary_writes, unary_writes, binary_writes, ternary_writes, reshape_writes, Finset.singleton_subset_iff, List.mem_toFinset]; exact List.mem_map_of_mem (by decide),
    by simp only [o9, nullary_writes, unary_writes, binary_writes, ternary_writes, reshape_writes, Finset.singleton_subset_iff, List.mem_toFinset]; exact List.mem_map_of_mem (by decide),
    by simp only [o10, nullary_writes, unary_writes, binary_writes, ternary_writes, reshape_writes, Finset.singleton_subset_iff, List.mem_toFinset]; exact List.mem_map_of_mem (by decide),
    by simp only [o11, nullary_writes, unary_writes, binary_writes, ternary_writes, reshape_writes, Finset.singleton_subset_iff, List.mem_toFinset]; exact List.mem_map_of_mem (by decide),
    by simp only [o12, nullary_writes, unary_writes, binary_writes, ternary_writes, reshape_writes, Finset.singleton_subset_iff, List.mem_toFinset]; exact List.mem_map_of_mem (by decide),
    by simp only [o13, nullary_writes, unary_writes, binary_writes, ternary_writes, reshape_writes, Finset.singleton_subset_iff, List.mem_toFinset]; exact List.mem_map_of_mem (by decide),
    by simp only [o14, nullary_writes, unary_writes, binary_writes, ternary_writes, reshape_writes, Finset.singleton_subset_iff, List.mem_toFinset]; exact List.mem_map_of_mem (by decide),
    by simp only [o15, nullary_writes, unary_writes, binary_writes, ternary_writes, reshape_writes, Finset.singleton_subset_iff, List.mem_toFinset]; exact List.mem_map_of_mem (by decide),
    by simp only [o16, nullary_writes, unary_writes, binary_writes, ternary_writes, reshape_writes, Finset.singleton_subset_iff, List.mem_toFinset]; exact List.mem_map_of_mem (by decide),
    by simp only [o17, nullary_writes, unary_writes, binary_writes, ternary_writes, reshape_writes, Finset.singleton_subset_iff, List.mem_toFinset]; exact List.mem_map_of_mem (by decide),
    by simp only [o18, nullary_writes, unary_writes, binary_writes, ternary_writes, reshape_writes, Finset.singleton_subset_iff, List.mem_toFinset]; exact List.mem_map_of_mem (by decide),
    by simp only [o19, nullary_writes, unary_writes, binary_writes, ternary_writes, reshape_writes, Finset.singleton_subset_iff, List.mem_toFinset]; exact List.mem_map_of_mem (by decide),
    by simp only [o20, nullary_writes, unary_writes, binary_writes, ternary_writes, reshape_writes, Finset.singleton_subset_iff, List.mem_toFinset]; exact List.mem_map_of_mem (by decide),
    by simp only [o21, nullary_writes, unary_writes, binary_writes, ternary_writes, reshape_writes, Finset.singleton_subset_iff, List.mem_toFinset]; exact List.mem_map_of_mem (by decide),
    by simp only [o22, nullary_writes, unary_writes, binary_writes, ternary_writes, reshape_writes, Finset.singleton_subset_iff, List.mem_toFinset]; exact List.mem_map_of_mem (by decide),
    by simp only [o23, nullary_writes, unary_writes, binary_writes, ternary_writes, reshape_writes, Finset.singleton_subset_iff, List.mem_toFinset]; exact List.mem_map_of_mem (by decide),
    by simp only [o24, nullary_writes, unary_writes, binary_writes, ternary_writes, reshape_writes, Finset.singleton_subset_iff, List.mem_toFinset]; exact List.mem_map_of_mem (by decide),
    by simp only [o25, nullary_writes, unary_writes, binary_writes, ternary_writes, reshape_writes, Finset.singleton_subset_iff, List.mem_toFinset]; exact List.mem_map_of_mem (by decide),
    by simp only [o26, nullary_writes, unary_writes, binary_writes, ternary_writes, reshape_writes, Finset.singleton_subset_iff, List.mem_toFinset]; exact List.mem_map_of_mem (by decide),
    by simp only [o27, nullary_writes, unary_writes, binary_writes, ternary_writes, reshape_writes, Finset.singleton_subset_iff, List.mem_toFinset]; exact List.mem_map_of_mem (by decide),
    by simp only [o28, nullary_writes, unary_writes, binary_writes, ternary_writes, reshape_writes, Finset.singleton_subset_iff, List.mem_toFinset]; exact List.mem_map_of_mem (by decide),
    by simp only [o29, nullary_writes, unary_writes, binary_writes, ternary_writes, reshape_writes, Finset.singleton_subset_iff, List.mem_toFinset]; exact List.mem_map_of_mem (by decide),
    by simp only [o30, nullary_writes, unary_writes, binary_writes, ternary_writes, reshape_writes, Finset.singleton_subset_iff, List.mem_toFinset]; exact List.mem_map_of_mem (by decide),
    by simp only [o31, nullary_writes, unary_writes, binary_writes, ternary_writes, reshape_writes, Finset.singleton_subset_iff, List.mem_toFinset]; exact List.mem_map_of_mem (by decide),
    by simp only [o32, nullary_writes, unary_writes, binary_writes, ternary_writes, reshape_writes, Finset.singleton_subset_iff, List.mem_toFinset]; exact List.mem_map_of_mem (by decide),
    by simp only [o33, nullary_writes, unary_writes, binary_writes, ternary_writes, reshape_writes, Finset.singleton_subset_iff, List.mem_toFinset]; exact List.mem_map_of_mem (by decide)⟩

/-- A buffer the stage does not write keeps its contents through it. -/
theorem cG_keep (W : Valuation τ sig (Elt F)) (r : Ref sig .tc) (h : r ∉ cG_W) :
    after cG W (no_index (Proc.devRef .tc r)) = W (Proc.devRef .tc r) :=
  after_of_writes_sub cG W cG_writes h

set_option maxRecDepth 8192 in
set_option maxHeartbeats 2000000 in
/-- The stage's result, as the operations' composed term of the contents going in. -/
theorem cG_out_v1 (W : Valuation τ sig (Elt Ideal)) :
    after (cG (F := Ideal)) W (no_index (Proc.devRef .tc main_v1))
      = (shapeCast S800000 (extractStridedSlice S1x800000 ![0, 0] (W (main_arg1 : DevRef τ sig) : IVec S2x800000 32) slices_S2x800000_S1x800000_0_0) shapeCasts_S1x800000_S800000) := by
  simp only [cG, o0, o1, o2, o3, o4, o5, o6, o7, o8, o9, o10, o11, o12, o13, o14, o15, o16, o17, o18, o19, o20, o21, o22, o23, o24, o25, o26, o27, o28, o29, o30, o31, o32, o33]
  after_results_simp
  try rfl

set_option maxRecDepth 8192 in
set_option maxHeartbeats 2000000 in
/-- The stage's result, as the operations' composed term of the contents going in. -/
theorem cG_out_v25 (W : Valuation τ sig (Elt Ideal)) :
    after (cG (F := Ideal)) W (no_index (Proc.devRef .tc main_v25))
      = (mulf (F := Ideal) (φ := .f32) (Host.gather gather_S50000_S800000x1_S800000_n_0_n_n_0_1_1 (Host.rsqrt (F := Ideal) (φ := .f32) (addf (F := Ideal) (φ := .f32) (broadcastInDim S50000 ![] bcast_S_S50000 (constant (F := Ideal) S_ .f32 0x3F800000#32)) (Host.scatterAdd (F := Ideal) (φ := .f32) scatter_S50000_S800000x1_S800000_n_0_0_1 (broadcastInDim S50000 ![] bcast_S_S50000 (constant (F := Ideal) S_ .f32 0x00000000#32)) (broadcastInDim S800000x1 ![0] bcast_S800000_S800000x1_0 (shapeCast S800000 (extractStridedSlice S1x800000 ![1, 0] (W (main_arg1 : DevRef τ sig) : IVec S2x800000 32) slices_S2x800000_S1x800000_1_0) shapeCasts_S1x800000_S800000)) (broadcastInDim S800000 ![] bcast_S_S800000 (constant (F := Ideal) S_ .f32 0x3F800000#32))))) (broadcastInDim S800000x1 ![0] bcast_S800000_S800000x1_0 (select (cmpi .slt (shapeCast S800000 (extractStridedSlice S1x800000 ![0, 0] (W (main_arg1 : DevRef τ sig) : IVec S2x800000 32) slices_S2x800000_S1x800000_0_0) shapeCasts_S1x800000_S800000) (broadcastInDim S800000 ![] bcast_S_S800000 (constantI S_ 32 0#32))) (addi (shapeCast S800000 (extractStridedSlice S1x800000 ![0, 0] (W (main_arg1 : DevRef τ sig) : IVec S2x800000 32) slices_S2x800000_S1x800000_0_0) shapeCasts_S1x800000_S800000) (broadcastInDim S800000 ![] bcast_S_S800000 (constantI S_ 32 50000#32))) (shapeCast S800000 (extractStridedSlice S1x800000 ![0, 0] (W (main_arg1 : DevRef τ sig) : IVec S2x800000 32) slices_S2x800000_S1x800000_0_0) shapeCasts_S1x800000_S800000)))) (Host.gather gather_S50000_S800000x1_S800000_n_0_n_n_0_1_1 (Host.rsqrt (F := Ideal) (φ := .f32) (addf (F := Ideal) (φ := .f32) (broadcastInDim S50000 ![] bcast_S_S50000 (constant (F := Ideal) S_ .f32 0x3F800000#32)) (Host.scatterAdd (F := Ideal) (φ := .f32) scatter_S50000_S800000x1_S800000_n_0_0_1 (broadcastInDim S50000 ![] bcast_S_S50000 (constant (F := Ideal) S_ .f32 0x00000000#32)) (broadcastInDim S800000x1 ![0] bcast_S800000_S800000x1_0 (shapeCast S800000 (extractStridedSlice S1x800000 ![1, 0] (W (main_arg1 : DevRef τ sig) : IVec S2x800000 32) slices_S2x800000_S1x800000_1_0) shapeCasts_S1x800000_S800000)) (broadcastInDim S800000 ![] bcast_S_S800000 (constant (F := Ideal) S_ .f32 0x3F800000#32))))) (broadcastInDim S800000x1 ![0] bcast_S800000_S800000x1_0 (select (cmpi .slt (shapeCast S800000 (extractStridedSlice S1x800000 ![1, 0] (W (main_arg1 : DevRef τ sig) : IVec S2x800000 32) slices_S2x800000_S1x800000_1_0) shapeCasts_S1x800000_S800000) (broadcastInDim S800000 ![] bcast_S_S800000 (constantI S_ 32 0#32))) (addi (shapeCast S800000 (extractStridedSlice S1x800000 ![1, 0] (W (main_arg1 : DevRef τ sig) : IVec S2x800000 32) slices_S2x800000_S1x800000_1_0) shapeCasts_S1x800000_S800000) (broadcastInDim S800000 ![] bcast_S_S800000 (constantI S_ 32 50000#32))) (shapeCast S800000 (extractStridedSlice S1x800000 ![1, 0] (W (main_arg1 : DevRef τ sig) : IVec S2x800000 32) slices_S2x800000_S1x800000_1_0) shapeCasts_S1x800000_S800000))))) := by
  simp only [cG, o0, o1, o2, o3, o4, o5, o6, o7, o8, o9, o10, o11, o12, o13, o14, o15, o16, o17, o18, o19, o20, o21, o22, o23, o24, o25, o26, o27, o28, o29, o30, o31, o32, o33]
  after_results_simp
  try rfl

set_option maxRecDepth 8192 in
set_option maxHeartbeats 2000000 in
/-- The stage's result, as the operations' composed term of the contents going in. -/
theorem cG_out_v3 (W : Valuation τ sig (Elt Ideal)) :
    after (cG (F := Ideal)) W (no_index (Proc.devRef .tc main_v3))
      = (shapeCast S800000 (extractStridedSlice S1x800000 ![1, 0] (W (main_arg1 : DevRef τ sig) : IVec S2x800000 32) slices_S2x800000_S1x800000_1_0) shapeCasts_S1x800000_S800000) := by
  simp only [cG, o0, o1, o2, o3, o4, o5, o6, o7, o8, o9, o10, o11, o12, o13, o14, o15, o16, o17, o18, o19, o20, o21, o22, o23, o24, o25, o26, o27, o28, o29, o30, o31, o32, o33]
  after_results_simp
  try rfl

set_option maxRecDepth 8192 in
set_option maxHeartbeats 2000000 in
/-- The stage's result, as the operations' composed term of the contents going in. -/
theorem cG_out_v26 (W : Valuation τ sig (Elt Ideal)) :
    after (cG (F := Ideal)) W (no_index (Proc.devRef .tc main_v26))
      = (mulf (F := Ideal) (φ := .f32) (Host.rsqrt (F := Ideal) (φ := .f32) (addf (F := Ideal) (φ := .f32) (broadcastInDim S50000 ![] bcast_S_S50000 (constant (F := Ideal) S_ .f32 0x3F800000#32)) (Host.scatterAdd (F := Ideal) (φ := .f32) scatter_S50000_S800000x1_S800000_n_0_0_1 (broadcastInDim S50000 ![] bcast_S_S50000 (constant (F := Ideal) S_ .f32 0x00000000#32)) (broadcastInDim S800000x1 ![0] bcast_S800000_S800000x1_0 (shapeCast S800000 (extractStridedSlice S1x800000 ![1, 0] (W (main_arg1 : DevRef τ sig) : IVec S2x800000 32) slices_S2x800000_S1x800000_1_0) shapeCasts_S1x800000_S800000)) (broadcastInDim S800000 ![] bcast_S_S800000 (constant (F := Ideal) S_ .f32 0x3F800000#32))))) (Host.rsqrt (F := Ideal) (φ := .f32) (addf (F := Ideal) (φ := .f32) (broadcastInDim S50000 ![] bcast_S_S50000 (constant (F := Ideal) S_ .f32 0x3F800000#32)) (Host.scatterAdd (F := Ideal) (φ := .f32) scatter_S50000_S800000x1_S800000_n_0_0_1 (broadcastInDim S50000 ![] bcast_S_S50000 (constant (F := Ideal) S_ .f32 0x00000000#32)) (broadcastInDim S800000x1 ![0] bcast_S800000_S800000x1_0 (shapeCast S800000 (extractStridedSlice S1x800000 ![1, 0] (W (main_arg1 : DevRef τ sig) : IVec S2x800000 32) slices_S2x800000_S1x800000_1_0) shapeCasts_S1x800000_S800000)) (broadcastInDim S800000 ![] bcast_S_S800000 (constant (F := Ideal) S_ .f32 0x3F800000#32)))))) := by
  simp only [cG, o0, o1, o2, o3, o4, o5, o6, o7, o8, o9, o10, o11, o12, o13, o14, o15, o16, o17, o18, o19, o20, o21, o22, o23, o24, o25, o26, o27, o28, o29, o30, o31, o32, o33]
  after_results_simp
  try rfl

end Cert.ReferenceIdeal.RefRun

end
-- ==== Proof.RefRunStM1.lean ====
/-
  The first layer of the first encoder, stage by stage: what each stage writes, that it leaves every other buffer
  alone, and its result as the composed term of the contents going in.
-/
import proofs.«106426_j33148557590872_1_alg».proof.Proof.RefRunChunks
import Idealize.ShloMosaic.PureOps.Ideal

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The buffers the stage writes. -/
abbrev cm1D_W : List (Ref sig .tc) := [main_v27]

theorem cm1D_writes : (cm1D : List (HloOp τ sig (Elt F))).Forall fun op => op.writes ⊆ (cm1D_W.map (Proc.devRef (τ := τ) .tc)).toFinset := by
  simp only [cm1D, List.Forall]
  exact (by simp only [o34, nullary_writes, unary_writes, binary_writes, ternary_writes, reshape_writes, Finset.singleton_subset_iff, List.mem_toFinset]; exact List.mem_map_of_mem (by decide))

/-- A buffer the stage does not write keeps its contents through it. -/
theorem cm1D_keep (W : Valuation τ sig (Elt F)) (r : Ref sig .tc) (h : r ∉ cm1D_W) :
    after cm1D W (no_index (Proc.devRef .tc r)) = W (Proc.devRef .tc r) :=
  after_of_writes_sub cm1D W cm1D_writes h

set_option maxRecDepth 8192 in
set_option maxHeartbeats 2000000 in
/-- The stage's result, as the operations' composed term of the contents going in. -/
theorem cm1D_out_v27 (W : Valuation τ sig (Elt Ideal)) :
    after (cm1D (F := Ideal)) W (no_index (Proc.devRef .tc main_v27))
      = (Host.dotGeneral (F := Ideal) (φ₁ := .f32) (φ₂ := .f32) dot_S50000x64_S64x128_S50000x128_1_0_0_1_n_n none (W (main_arg0 : DevRef τ sig) : FVec Ideal S50000x64 .f32) (W (main_arg2 : DevRef τ sig) : FVec Ideal S64x128 .f32)) := by
  simp only [cm1D, o34]
  after_results_simp
  try rfl

/-- The buffers the stage writes. -/
abbrev cm1M_W : List (Ref sig .tc) := [main_c_5, main_v28, main_v29, main_c_6, main_v30, main_v31, main_v32, main_v33, main_v34, main_v35, main_v36, main_v37, main_cst_7, main_v38, main_v39, main_v40]

theorem cm1M_writes : (cm1M : List (HloOp τ sig (Elt F))).Forall fun op => op.writes ⊆ (cm1M_W.map (Proc.devRef (τ := τ) .tc)).toFinset := by
  simp only [cm1M, List.Forall]
  exact ⟨by simp only [o35, nullary_writes, unary_writes, binary_writes, ternary_writes, reshape_writes, Finset.singleton_subset_iff, List.mem_toFinset]; exact List.mem_map_of_mem (by decide),
    by simp only [o36, nullary_writes, unary_writes, binary_writes, ternary_writes, reshape_writes, Finset.singleton_subset_iff, List.mem_toFinset]; exact List.mem_map_of_mem (by decide),
    by simp only [o37, nullary_writes, unary_writes, binary_writes, ternary_writes, reshape_writes, Finset.singleton_subset_iff, List.mem_toFinset]; exact List.mem_map_of_mem (by decide),
    by simp only [o38, nullary_writes, unary_writes, binary_writes, ternary_writes, reshape_writes, Finset.singleton_subset_iff, List.mem_toFinset]; exact List.mem_map_of_mem (by decide),
    by simp only [o39, nullary_writes, unary_writes, binary_writes, ternary_writes, reshape_writes, Finset.singleton_subset_iff, List.mem_toFinset]; exact List.mem_map_of_mem (by decide),
    by simp only [o40, nullary_writes, unary_writes, binary_writes, ternary_writes, reshape_writes, Finset.singleton_subset_iff, List.mem_toFinset]; exact List.mem_map_of_mem (by decide),
    by simp only [o41, nullary_writes, unary_writes, binary_writes, ternary_writes, reshape_writes, Finset.singleton_subset_iff, List.mem_toFinset]; exact List.mem_map_of_mem (by decide),
    by simp only [o42, nullary_writes, unary_writes, binary_writes, ternary_writes, reshape_writes, Finset.singleton_subset_iff, List.mem_toFinset]; exact List.mem_map_of_mem (by decide),
    by simp only [o43, nullary_writes, unary_writes, binary_writes, ternary_writes, reshape_writes, Finset.singleton_subset_iff, List.mem_toFinset]; exact List.mem_map_of_mem (by decide),
    by simp only [o44, nullary_writes, unary_writes, binary_writes, ternary_writes, reshape_writes, Finset.singleton_subset_iff, List.mem_toFinset]; exact List.mem_map_of_mem (by decide),
    by simp only [o45, nullary_writes, unary_writes, binary_writes, ternary_writes, reshape_writes, Finset.singleton_subset_iff, List.mem_toFinset]; exact List.mem_map_of_mem (by decide),
    by simp only [o46, nullary_writes, unary_writes, binary_writes, ternary_writes, reshape_writes, Finset.singleton_subset_iff, List.mem_toFinset]; exact List.mem_map_of_mem (by decide),
    by simp only [o47, nullary_writes, unary_writes, binary_writes, ternary_writes, reshape_writes, Finset.singleton_subset_iff, List.mem_toFinset]; exact List.mem_map_of_mem (by decide),
    by simp only [o48, nullary_writes, unary_writes, binary_writes, ternary_writes, reshape_writes, Finset.singleton_subset_iff, List.mem_toFinset]; exact List.mem_map_of_mem (by decide),
    by simp only [o49, nullary_writes, unary_writes, binary_writes, ternary_writes, reshape_writes, Finset.singleton_subset_iff, List.mem_toFinset]; exact List.mem_map_of_mem (by decide),
    by simp only [o50, nullary_writes, unary_writes, binary_writes, ternary_writes, reshape_writes, Finset.singleton_subset_iff, List.mem_toFinset]; exact List.mem_map_of_mem (by decide)⟩

/-- A buffer the stage does not write keeps its contents through it. -/
theorem cm1M_keep (W : Valuation τ sig (Elt F)) (r : Ref sig .tc) (h : r ∉ cm1M_W) :
    after cm1M W (no_index (Proc.devRef .tc r)) = W (Proc.devRef .tc r) :=
  after_of_writes_sub cm1M W cm1M_writes h

set_option maxRecDepth 8192 in
set_option maxHeartbeats 2000000 in
/-- The stage's result, as the operations' composed term of the contents going in. -/
theorem cm1M_out_v40 (W : Valuation τ sig (Elt Ideal)) :
    after (cm1M (F := Ideal)) W (no_index (Proc.devRef .tc main_v40))
      = (Host.scatterAdd (F := Ideal) (φ := .f32) scatter_S50000x128_S800000x1_S800000x128_1_0_0_1 (broadcastInDim S50000x128 ![] bcast_S_S50000x128 (constant (F := Ideal) S_ .f32 0x00000000#32)) (broadcastInDim S800000x1 ![0] bcast_S800000_S800000x1_0 (W (main_v3 : DevRef τ sig) : IVec S800000 32)) (mulf (F := Ideal) (φ := .f32) (Host.gather gather_S50000x128_S800000x1_S800000x128_1_0_n_n_0_1_1128 (W (main_v27 : DevRef τ sig) : FVec Ideal S50000x128 .f32) (broadcastInDim S800000x1 ![0] bcast_S800000_S800000x1_0 (select (cmpi .slt (W (main_v1 : DevRef τ sig) : IVec S800000 32) (broadcastInDim S800000 ![] bcast_S_S800000 (constantI S_ 32 0#32))) (addi (W (main_v1 : DevRef τ sig) : IVec S800000 32) (broadcastInDim S800000 ![] bcast_S_S800000 (constantI S_ 32 50000#32))) (W (main_v1 : DevRef τ sig) : IVec S800000 32)))) (broadcastInDim S800000x128 ![0, 1] bcast_S800000x1_S800000x128_0_1 (broadcastInDim S800000x1 ![0] bcast_S800000_S800000x1_0 (W (main_v25 : DevRef τ sig) : FVec Ideal S800000 .f32))))) := by
  simp only [cm1M, o35, o36, o37, o38, o39, o40, o41, o42, o43, o44, o45, o46, o47, o48, o49, o50]
  after_results_simp
  try rfl

/-- The buffers the stage writes. -/
abbrev cm1C_W : List (Ref sig .tc) := [main_v41, main_v42, main_v43, main_v44, main_v45, main_v46, main_v47]

theorem cm1C_writes : (cm1C : List (HloOp τ sig (Elt F))).Forall fun op => op.writes ⊆ (cm1C_W.map (Proc.devRef (τ := τ) .tc)).toFinset := by
  simp only [cm1C, List.Forall]
  exact ⟨by simp only [o51, nullary_writes, unary_writes, binary_writes, ternary_writes, reshape_writes, Finset.singleton_subset_iff, List.mem_toFinset]; exact List.mem_map_of_mem (by decide),
    by simp only [o52, nullary_writes, unary_writes, binary_writes, ternary_writes, reshape_writes, Finset.singleton_subset_iff, List.mem_toFinset]; exact List.mem_map_of_mem (by decide),
    by simp only [o53, nullary_writes, unary_writes, binary_writes, ternary_writes, reshape_writes, Finset.singleton_subset_iff, List.mem_toFinset]; exact List.mem_map_of_mem (by decide),
    by simp only [o54, nullary_writes, unary_writes, binary_writes, ternary_writes, reshape_writes, Finset.singleton_subset_iff, List.mem_toFinset]; exact List.mem_map_of_mem (by decide),
    by simp only [o55, nullary_writes, unary_writes, binary_writes, ternary_writes, reshape_writes, Finset.singleton_subset_iff, List.mem_toFinset]; exact List.mem_map_of_mem (by decide),
    by simp only [o56, nullary_writes, unary_writes, binary_writes, ternary_writes, reshape_writes, Finset.singleton_subset_iff, List.mem_toFinset]; exact List.mem_map_of_mem (by decide),
    by simp only [o57, nullary_writes, unary_writes, binary_writes, ternary_writes, reshape_writes, Finset.singleton_subset_iff, List.mem_toFinset]; exact List.mem_map_of_mem (by decide)⟩

/-- A buffer the stage does not write keeps its contents through it. -/
theorem cm1C_keep (W : Valuation τ sig (Elt F)) (r : Ref sig .tc) (h : r ∉ cm1C_W) :
    after cm1C W (no_index (Proc.devRef .tc r)) = W (Proc.devRef .tc r) :=
  after_of_writes_sub cm1C W cm1C_writes h

set_option maxRecDepth 8192 in
set_option maxHeartbeats 2000000 in
/-- The stage's result, as the operations' composed term of the contents going in. -/
theorem cm1C_out_v47 (W : Valuation τ sig (Elt Ideal)) :
    after (cm1C (F := Ideal)) W (no_index (Proc.devRef .tc main_v47))
      = (addf (F := Ideal) (φ := .f32) (addf (F := Ideal) (φ := .f32) (W (main_v40 : DevRef τ sig) : FVec Ideal S50000x128 .f32) (mulf (F := Ideal) (φ := .f32) (W (main_v27 : DevRef τ sig) : FVec Ideal S50000x128 .f32) (broadcastInDim S50000x128 ![0, 1] bcast_S50000x1_S50000x128_0_1 (broadcastInDim S50000x1 ![0] bcast_S50000_S50000x1_0 (W (main_v26 : DevRef τ sig) : FVec Ideal S50000 .f32))))) (broadcastInDim S50000x128 ![0, 1] bcast_S1x128_S50000x128_0_1 (broadcastInDim S1x128 ![1] bcast_S128_S1x128_1 (W (main_arg3 : DevRef τ sig) : FVec Ideal S128 .f32)))) := by
  simp only [cm1C, o51, o52, o53, o54, o55, o56, o57]
  after_results_simp
  try rfl

/-- The buffers the stage writes. -/
abbrev cm1S_W : List (Ref sig .tc) := [main_cst_8, main_v48, main_cst_9, main_v49, main_v50]

theorem cm1S_writes : (cm1S : List (HloOp τ sig (Elt F))).Forall fun op => op.writes ⊆ (cm1S_W.map (Proc.devRef (τ := τ) .tc)).toFinset := by
  simp only [cm1S, List.Forall]
  exact ⟨by simp only [o58, nullary_writes, unary_writes, binary_writes, ternary_writes, reshape_writes, Finset.singleton_subset_iff, List.mem_toFinset]; exact List.mem_map_of_mem (by decide),
    by simp only [o59, nullary_writes, unary_writes, binary_writes, ternary_writes, reshape_writes, Finset.singleton_subset_iff, List.mem_toFinset]; exact List.mem_map_of_mem (by decide),
    by simp only [o60, nullary_writes, unary_writes, binary_writes, ternary_writes, reshape_writes, Finset.singleton_subset_iff, List.mem_toFinset]; exact List.mem_map_of_mem (by decide),
    by simp only [o61, nullary_writes, unary_writes, binary_writes, ternary_writes, reshape_writes, Finset.singleton_subset_iff, List.mem_toFinset]; exact List.mem_map_of_mem (by decide),
    by simp only [o62, nullary_writes, unary_writes, binary_writes, ternary_writes, reshape_writes, Finset.singleton_subset_iff, List.mem_toFinset]; exact List.mem_map_of_mem (by decide)⟩

/-- A buffer the stage does not write keeps its contents through it. -/
theorem cm1S_keep (W : Valuation τ sig (Elt F)) (r : Ref sig .tc) (h : r ∉ cm1S_W) :
    after cm1S W (no_index (Proc.devRef .tc r)) = W (Proc.devRef .tc r) :=
  after_of_writes_sub cm1S W cm1S_writes h

set_option maxRecDepth 8192 in
set_option maxHeartbeats 2000000 in
/-- The stage's result, as the operations' composed term of the contents going in. -/
theorem cm1S_out_v50 (W : Valuation τ sig (Elt Ideal)) :
    after (cm1S (F := Ideal)) W (no_index (Proc.devRef .tc main_v50))
      = (Host.divf (F := Ideal) (φ := .f32) (Host.reduceAdd (F := Ideal) (φ := .f32) (W (main_v47 : DevRef τ sig) : FVec Ideal S50000x128 .f32) (constant (F := Ideal) S_ .f32 0x00000000#32) reducesTo_S50000x128_S128_d0 h_S_) (broadcastInDim S128 ![] bcast_S_S128 (constant (F := Ideal) S_ .f32 0x47435000#32))) := by
  simp only [cm1S, o58, o59, o60, o61, o62]
  after_results_simp
  try rfl

/-- The buffers the stage writes. -/
abbrev cm1V_W : List (Ref sig .tc) := [main_c_10, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v51]

theorem cm1V_writes : (cm1V : List (HloOp τ sig (Elt F))).Forall fun op => op.writes ⊆ (cm1V_W.map (Proc.devRef (τ := τ) .tc)).toFinset := by
  simp only [cm1V, List.Forall]
  exact ⟨by simp only [o63, nullary_writes, unary_writes, binary_writes, ternary_writes, reshape_writes, Finset.singleton_subset_iff, List.mem_toFinset]; exact List.mem_map_of_mem (by decide),
    by simp only [o64, nullary_writes, unary_writes, binary_writes, ternary_writes, reshape_writes, Finset.singleton_subset_iff, List.mem_toFinset]; exact List.mem_map_of_mem (by decide),
    by simp only [o65, nullary_writes, unary_writes, binary_writes, ternary_writes, reshape_writes, Finset.singleton_subset_iff, List.mem_toFinset]; exact List.mem_map_of_mem (by decide),
    by simp only [o66, nullary_writes, unary_writes, binary_writes, ternary_writes, reshape_writes, Finset.singleton_subset_iff, List.mem_toFinset]; exact List.mem_map_of_mem (by decide),
    by simp only [o67, nullary_writes, unary_writes, binary_writes, ternary_writes, reshape_writes, Finset.singleton_subset_iff, List.mem_toFinset]; exact List.mem_map_of_mem (by decide),
    by simp only [o68, nullary_writes, unary_writes, binary_writes, ternary_writes, reshape_writes, Finset.singleton_subset_iff, List.mem_toFinset]; exact List.mem_map_of_mem (by decide),
    by simp only [o69, nullary_writes, unary_writes, binary_writes, ternary_writes, reshape_writes, Finset.singleton_subset_iff, List.mem_toFinset]; exact List.mem_map_of_mem (by decide),
    by simp only [o70, nullary_writes, unary_writes, binary_writes, ternary_writes, reshape_writes, Finset.singleton_subset_iff, List.mem_toFinset]; exact List.mem_map_of_mem (by decide),
    by simp only [o71, nullary_writes, unary_writes, binary_writes, ternary_writes, reshape_writes, Finset.singleton_subset_iff, List.mem_toFinset]; exact List.mem_map_of_mem (by decide),
    by simp only [o72, nullary_writes, unary_writes, binary_writes, ternary_writes, reshape_writes, Finset.singleton_subset_iff, List.mem_toFinset]; exact List.mem_map_of_mem (by decide),
    by simp only [o73, nullary_writes, unary_writes, binary_writes, ternary_writes, reshape_writes, Finset.singleton_subset_iff, List.mem_toFinset]; exact List.mem_map_of_mem (by decide),
    by simp only [o74, nullary_writes, unary_writes, binary_writes, ternary_writes, reshape_writes, Finset.singleton_subset_iff, List.mem_toFinset]; exact List.mem_map_of_mem (by decide),
    by simp only [o75, nullary_writes, unary_writes, binary_writes, ternary_writes, reshape_writes, Finset.singleton_subset_iff, List.mem_toFinset]; exact List.mem_map_of_mem (by decide),
    by simp only [o76, nullary_writes, unary_writes, binary_writes, ternary_writes, reshape_writes, Finset.singleton_subset_iff, List.mem_toFinset]; exact List.mem_map_of_mem (by decide),
    by simp only [o77, nullary_writes, unary_writes, binary_writes, ternary_writes, reshape_writes, Finset.singleton_subset_iff, List.mem_toFinset]; exact List.mem_map_of_mem (by decide),
    by simp only [o78, nullary_writes, unary_writes, binary_writes, ternary_writes, reshape_writes, Finset.singleton_subset_iff, List.mem_toFinset]; exact List.mem_map_of_mem (by decide),
    by simp only [o79, nullary_writes, unary_writes, binary_writes, ternary_writes, reshape_writes, Finset.singleton_subset_iff, List.mem_toFinset]; exact List.mem_map_of_mem (by decide),
    by simp only [o80, nullary_writes, unary_writes, binary_writes, ternary_writes, reshape_writes, Finset.singleton_subset_iff, List.mem_toFinset]; exact List.mem_map_of_mem (by decide),
    by simp only [o81, nullary_writes, unary_writes, binary_writes, ternary_writes, reshape_writes, Finset.singleton_subset_iff, List.mem_toFinset]; exact List.mem_map_of_mem (by decide),
    by simp only [o82, nullary_writes, unary_writes, binary_writes, ternary_writes, reshape_writes, Finset.singleton_subset_iff, List.mem_toFinset]; exact List.mem_map_of_mem (by decide),
    by simp only [o83, nullary_writes, unary_writes, binary_writes, ternary_writes, reshape_writes, Finset.singleton_subset_iff, List.mem_toFinset]; exact List.mem_map_of_mem (by decide),
    by simp only [o84, nullary_writes, unary_writes, binary_writes, ternary_writes, reshape_writes, Finset.singleton_subset_iff, List.mem_toFinset]; exact List.mem_map_of_mem (by decide),
    by simp only [o85, nullary_writes, unary_writes, binary_writes, ternary_writes, reshape_writes, Finset.singleton_subset_iff, List.mem_toFinset]; exact List.mem_map_of_mem (by decide)⟩

/-- A buffer the stage does not write keeps its contents through it. -/
theorem cm1V_keep (W : Valuation τ sig (Elt F)) (r : Ref sig .tc) (h : r ∉ cm1V_W) :
    after cm1V W (no_index (Proc.devRef .tc r)) = W (Proc.devRef .tc r) :=
  after_of_writes_sub cm1V W cm1V_writes h

set_option maxRecDepth 8192 in
set_option maxHeartbeats 2000000 in
/-- The stage's result, as the operations' composed term of the contents going in. -/
theorem cm1V_out_v51 (W : Valuation τ sig (Elt Ideal)) :
    after (cm1V (F := Ideal)) W (no_index (Proc.devRef .tc main_v51))
      = (select (broadcastInDim S128 ![] bcast_S_S128 (cmpf (F := Ideal) (φ := .f32) .ogt (subf (F := Ideal) (φ := .f32) (constant (F := Ideal) S_ .f32 0x47435000#32) (sitofp (F := Ideal) .f32 (constantI S_ 32 0#32))) (constant (F := Ideal) S_ .f32 0x00000000#32))) (Host.divf (F := Ideal) (φ := .f32) (Host.reduceAdd (F := Ideal) (φ := .f32) (mulf (F := Ideal) (φ := .f32) (subf (F := Ideal) (φ := .f32) (W (main_v47 : DevRef τ sig) : FVec Ideal S50000x128 .f32) (broadcastInDim S50000x128 ![0, 1] bcast_S1x128_S50000x128_0_1 (Host.divf (F := Ideal) (φ := .f32) (broadcastInDim S1x128 ![1] bcast_S128_S1x128_1 (Host.reduceAdd (F := Ideal) (φ := .f32) (W (main_v47 : DevRef τ sig) : FVec Ideal S50000x128 .f32) (constant (F := Ideal) S_ .f32 0x00000000#32) reducesTo_S50000x128_S128_d0 h_S_)) (broadcastInDim S1x128 ![] bcast_S_S1x128 (constant (F := Ideal) S_ .f32 0x47435000#32))))) (subf (F := Ideal) (φ := .f32) (W (main_v47 : DevRef τ sig) : FVec Ideal S50000x128 .f32) (broadcastInDim S50000x128 ![0, 1] bcast_S1x128_S50000x128_0_1 (Host.divf (F := Ideal) (φ := .f32) (broadcastInDim S1x128 ![1] bcast_S128_S1x128_1 (Host.reduceAdd (F := Ideal) (φ := .f32) (W (main_v47 : DevRef τ sig) : FVec Ideal S50000x128 .f32) (constant (F := Ideal) S_ .f32 0x00000000#32) reducesTo_S50000x128_S128_d0 h_S_)) (broadcastInDim S1x128 ![] bcast_S_S1x128 (constant (F := Ideal) S_ .f32 0x47435000#32)))))) (constant (F := Ideal) S_ .f32 0x00000000#32) reducesTo_S50000x128_S128_d0 h_S_) (broadcastInDim S128 ![] bcast_S_S128 (subf (F := Ideal) (φ := .f32) (constant (F := Ideal) S_ .f32 0x47435000#32) (sitofp (F := Ideal) .f32 (constantI S_ 32 0#32))))) (broadcastInDim S128 ![] bcast_S_S128 (id (constant (F := Ideal) S_ .f32 0x7FC00000#32)))) := by
  simp only [cm1V, o63, o64, o65, o66, o67, o68, o69, o70, o71, o72, o73, o74, o75, o76, o77, o78, o79, o80, o81, o82, o83, o84, o85]
  after_results_simp
  try rfl

/-- The buffers the stage writes. -/
abbrev cm1N_W : List (Ref sig .tc) := [main_v52, main_v53, main_v54, main_cst_11, main_v55, main_v56, main_v57, main_v58, main_v59, main_v60, main_v61, main_v62, main_v63, main_v64, main_v65, main_v66, main_call1_cst, main_call1_v0, main_v67]

theorem cm1N_writes : (cm1N : List (HloOp τ sig (Elt F))).Forall fun op => op.writes ⊆ (cm1N_W.map (Proc.devRef (τ := τ) .tc)).toFinset := by
  simp only [cm1N, List.Forall]
  exact ⟨by simp only [o86, nullary_writes, unary_writes, binary_writes, ternary_writes, reshape_writes, Finset.singleton_subset_iff, List.mem_toFinset]; exact List.mem_map_of_mem (by decide),
    by simp only [o87, nullary_writes, unary_writes, binary_writes, ternary_writes, reshape_writes, Finset.singleton_subset_iff, List.mem_toFinset]; exact List.mem_map_of_mem (by decide),
    by simp only [o88, nullary_writes, unary_writes, binary_writes, ternary_writes, reshape_writes, Finset.singleton_subset_iff, List.mem_toFinset]; exact List.mem_map_of_mem (by decide),
    by simp only [o89, nullary_writes, unary_writes, binary_writes, ternary_writes, reshape_writes, Finset.singleton_subset_iff, List.mem_toFinset]; exact List.mem_map_of_mem (by decide),
    by simp only [o90, nullary_writes, unary_writes, binary_writes, ternary_writes, reshape_writes, Finset.singleton_subset_iff, List.mem_toFinset]; exact List.mem_map_of_mem (by decide),
    by simp only [o91, nullary_writes, unary_writes, binary_writes, ternary_writes, reshape_writes, Finset.singleton_subset_iff, List.mem_toFinset]; exact List.mem_map_of_mem (by decide),
    by simp only [o92, nullary_writes, unary_writes, binary_writes, ternary_writes, reshape_writes, Finset.singleton_subset_iff, List.mem_toFinset]; exact List.mem_map_of_mem (by decide),
    by simp only [o93, nullary_writes, unary_writes, binary_writes, ternary_writes, reshape_writes, Finset.singleton_subset_iff, List.mem_toFinset]; exact List.mem_map_of_mem (by decide),
    by simp only [o94, nullary_writes, unary_writes, binary_writes, ternary_writes, reshape_writes, Finset.singleton_subset_iff, List.mem_toFinset]; exact List.mem_map_of_mem (by decide),
    by simp only [o95, nullary_writes, unary_writes, binary_writes, ternary_writes, reshape_writes, Finset.singleton_subset_iff, List.mem_toFinset]; exact List.mem_map_of_mem (by decide),
    by simp only [o96, nullary_writes, unary_writes, binary_writes, ternary_writes, reshape_writes, Finset.singleton_subset_iff, List.mem_toFinset]; exact List.mem_map_of_mem (by decide),
    by simp only [o97, nullary_writes, unary_writes, binary_writes, ternary_writes, reshape_writes, Finset.singleton_subset_iff, List.mem_toFinset]; exact List.mem_map_of_mem (by decide),
    by simp only [o98, nullary_writes, unary_writes, binary_writes, ternary_writes, reshape_writes, Finset.singleton_subset_iff, List.mem_toFinset]; exact List.mem_map_of_mem (by decide),
    by simp only [o99, nullary_writes, unary_writes, binary_writes, ternary_writes, reshape_writes, Finset.singleton_subset_iff, List.mem_toFinset]; exact List.mem_map_of_mem (by decide),
    by simp only [o100, nullary_writes, unary_writes, binary_writes, ternary_writes, reshape_writes, Finset.singleton_subset_iff, List.mem_toFinset]; exact List.mem_map_of_mem (by decide),
    by simp only [o101, nullary_writes, unary_writes, binary_writes, ternary_writes, reshape_writes, Finset.singleton_subset_iff, List.mem_toFinset]; exact List.mem_map_of_mem (by decide),
    by simp only [o102, nullary_writes, unary_writes, binary_writes, ternary_writes, reshape_writes, Finset.singleton_subset_iff, List.mem_toFinset]; exact List.mem_map_of_mem (by decide),
    by simp only [o103, nullary_writes, unary_writes, binary_writes, ternary_writes, reshape_writes, Finset.singleton_subset_iff, List.mem_toFinset]; exact List.mem_map_of_mem (by decide),
    by simp only [o104, nullary_writes, unary_writes, binary_writes, ternary_writes, reshape_writes, Finset.singleton_subset_iff, List.mem_toFinset]; exact List.mem_map_of_mem (by decide)⟩

/-- A buffer the stage does not write keeps its contents through it. -/
theorem cm1N_keep (W : Valuation τ sig (Elt F)) (r : Ref sig .tc) (h : r ∉ cm1N_W) :
    after cm1N W (no_index (Proc.devRef .tc r)) = W (Proc.devRef .tc r) :=
  after_of_writes_sub cm1N W cm1N_writes h

set_option maxRecDepth 8192 in
set_option maxHeartbeats 2000000 in
/-- The stage's result, as the operations' composed term of the contents going in. -/
theorem cm1N_out_v67 (W : Valuation τ sig (Elt Ideal)) :
    after (cm1N (F := Ideal)) W (no_index (Proc.devRef .tc main_v67))
      = (maximumf (F := Ideal) (φ := .f32) (addf (F := Ideal) (φ := .f32) (mulf (F := Ideal) (φ := .f32) (mulf (F := Ideal) (φ := .f32) (subf (F := Ideal) (φ := .f32) (W (main_v47 : DevRef τ sig) : FVec Ideal S50000x128 .f32) (broadcastInDim S50000x128 ![0, 1] bcast_S1x128_S50000x128_0_1 (broadcastInDim S1x128 ![1] bcast_S128_S1x128_1 (W (main_v50 : DevRef τ sig) : FVec Ideal S128 .f32)))) (broadcastInDim S50000x128 ![0, 1] bcast_S1x128_S50000x128_0_1 (broadcastInDim S1x128 ![1] bcast_S128_S1x128_1 (Host.rsqrt (F := Ideal) (φ := .f32) (addf (F := Ideal) (φ := .f32) (W (main_v51 : DevRef τ sig) : FVec Ideal S128 .f32) (broadcastInDim S128 ![] bcast_S_S128 (constant (F := Ideal) S_ .f32 0x3727C5AC#32))))))) (broadcastInDim S50000x128 ![0, 1] bcast_S1x128_S50000x128_0_1 (broadcastInDim S1x128 ![1] bcast_S128_S1x128_1 (W (main_arg4 : DevRef τ sig) : FVec Ideal S128 .f32)))) (broadcastInDim S50000x128 ![0, 1] bcast_S1x128_S50000x128_0_1 (broadcastInDim S1x128 ![1] bcast_S128_S1x128_1 (W (main_arg5 : DevRef τ sig) : FVec Ideal S128 .f32)))) (broadcastInDim S50000x128 ![] bcast_S_S50000x128 (constant (F := Ideal) S_ .f32 0x00000000#32))) := by
  simp only [cm1N, o86, o87, o88, o89, o90, o91, o92, o93, o94, o95, o96, o97, o98, o99, o100, o101, o102, o103, o104]
  after_results_simp
  try rfl

end Cert.ReferenceIdeal.RefRun

end
-- ==== Proof.RefRunStM2.lean ====
/-
  The second layer of the first encoder, stage by stage: what each stage writes, that it leaves every other buffer
  alone, and its result as the composed term of the contents going in.
-/
import proofs.«106426_j33148557590872_1_alg».proof.Proof.RefRunChunks
import Idealize.ShloMosaic.PureOps.Ideal

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The buffers the stage writes. -/
abbrev cm2D_W : List (Ref sig .tc) := [main_v68]

theorem cm2D_writes : (cm2D : List (HloOp τ sig (Elt F))).Forall fun op => op.writes ⊆ (cm2D_W.map (Proc.devRef (τ := τ) .tc)).toFinset := by
  simp only [cm2D, List.Forall]
  exact (by simp only [o105, nullary_writes, unary_writes, binary_writes, ternary_writes, reshape_writes, Finset.singleton_subset_iff, List.mem_toFinset]; exact List.mem_map_of_mem (by decide))

/-- A buffer the stage does not write keeps its contents through it. -/
theorem cm2D_keep (W : Valuation τ sig (Elt F)) (r : Ref sig .tc) (h : r ∉ cm2D_W) :
    after cm2D W (no_index (Proc.devRef .tc r)) = W (Proc.devRef .tc r) :=
  after_of_writes_sub cm2D W cm2D_writes h

set_option maxRecDepth 8192 in
set_option maxHeartbeats 2000000 in
/-- The stage's result, as the operations' composed term of the contents going in. -/
theorem cm2D_out_v68 (W : Valuation τ sig (Elt Ideal)) :
    after (cm2D (F := Ideal)) W (no_index (Proc.devRef .tc main_v68))
      = (Host.dotGeneral (F := Ideal) (φ₁ := .f32) (φ₂ := .f32) dot_S50000x128_S128x256_S50000x256_1_0_0_1_n_n none (W (main_v67 : DevRef τ sig) : FVec Ideal S50000x128 .f32) (W (main_arg6 : DevRef τ sig) : FVec Ideal S128x256 .f32)) := by
  simp only [cm2D, o105]
  after_results_simp
  try rfl

/-- The buffers the stage writes. -/
abbrev cm2M_W : List (Ref sig .tc) := [main_c_12, main_v69, main_v70, main_c_13, main_v71, main_v72, main_v73, main_v74, main_v75, main_v76, main_v77, main_v78, main_cst_14, main_v79, main_v80, main_v81]

theorem cm2M_writes : (cm2M : List (HloOp τ sig (Elt F))).Forall fun op => op.writes ⊆ (cm2M_W.map (Proc.devRef (τ := τ) .tc)).toFinset := by
  simp only [cm2M, List.Forall]
  exact ⟨by simp only [o106, nullary_writes, unary_writes, binary_writes, ternary_writes, reshape_writes, Finset.singleton_subset_iff, List.mem_toFinset]; exact List.mem_map_of_mem (by decide),
    by simp only [o107, nullary_writes, unary_writes, binary_writes, ternary_writes, reshape_writes, Finset.singleton_subset_iff, List.mem_toFinset]; exact List.mem_map_of_mem (by decide),
    by simp only [o108, nullary_writes, unary_writes, binary_writes, ternary_writes, reshape_writes, Finset.singleton_subset_iff, List.mem_toFinset]; exact List.mem_map_of_mem (by decide),
    by simp only [o109, nullary_writes, unary_writes, binary_writes, ternary_writes, reshape_writes, Finset.singleton_subset_iff, List.mem_toFinset]; exact List.mem_map_of_mem (by decide),
    by simp only [o110, nullary_writes, unary_writes, binary_writes, ternary_writes, reshape_writes, Finset.singleton_subset_iff, List.mem_toFinset]; exact List.mem_map_of_mem (by decide),
    by simp only [o111, nullary_writes, unary_writes, binary_writes, ternary_writes, reshape_writes, Finset.singleton_subset_iff, List.mem_toFinset]; exact List.mem_map_of_mem (by decide),
    by simp only [o112, nullary_writes, unary_writes, binary_writes, ternary_writes, reshape_writes, Finset.singleton_subset_iff, List.mem_toFinset]; exact List.mem_map_of_mem (by decide),
    by simp only [o113, nullary_writes, unary_writes, binary_writes, ternary_writes, reshape_writes, Finset.singleton_subset_iff, List.mem_toFinset]; exact List.mem_map_of_mem (by decide),
    by simp only [o114, nullary_writes, unary_writes, binary_writes, ternary_writes, reshape_writes, Finset.singleton_subset_iff, List.mem_toFinset]; exact List.mem_map_of_mem (by decide),
    by simp only [o115, nullary_writes, unary_writes, binary_writes, ternary_writes, reshape_writes, Finset.singleton_subset_iff, List.mem_toFinset]; exact List.mem_map_of_mem (by decide),
    by simp only [o116, nullary_writes, unary_writes, binary_writes, ternary_writes, reshape_writes, Finset.singleton_subset_iff, List.mem_toFinset]; exact List.mem_map_of_mem (by decide),
    by simp only [o117, nullary_writes, unary_writes, binary_writes, ternary_writes, reshape_writes, Finset.singleton_subset_iff, List.mem_toFinset]; exact List.mem_map_of_mem (by decide),
    by simp only [o118, nullary_writes, unary_writes, binary_writes, ternary_writes, reshape_writes, Finset.singleton_subset_iff, List.mem_toFinset]; exact List.mem_map_of_mem (by decide),
    by simp only [o119, nullary_writes, unary_writes, binary_writes, ternary_writes, reshape_writes, Finset.singleton_subset_iff, List.mem_toFinset]; exact List.mem_map_of_mem (by decide),
    by simp only [o120, nullary_writes, unary_writes, binary_writes, ternary_writes, reshape_writes, Finset.singleton_subset_iff, List.mem_toFinset]; exact List.mem_map_of_mem (by decide),
    by simp only [o121, nullary_writes, unary_writes, binary_writes, ternary_writes, reshape_writes, Finset.singleton_subset_iff, List.mem_toFinset]; exact List.mem_map_of_mem (by decide)⟩

/-- A buffer the stage does not write keeps its contents through it. -/
theorem cm2M_keep (W : Valuation τ sig (Elt F)) (r : Ref sig .tc) (h : r ∉ cm2M_W) :
    after cm2M W (no_index (Proc.devRef .tc r)) = W (Proc.devRef .tc r) :=
  after_of_writes_sub cm2M W cm2M_writes h

set_option maxRecDepth 8192 in
set_option maxHeartbeats 2000000 in
/-- The stage's result, as the operations' composed term of the contents going in. -/
theorem cm2M_out_v81 (W : Valuation τ sig (Elt Ideal)) :
    after (cm2M (F := Ideal)) W (no_index (Proc.devRef .tc main_v81))
      = (Host.scatterAdd (F := Ideal) (φ := .f32) scatter_S50000x256_S800000x1_S800000x256_1_0_0_1 (broadcastInDim S50000x256 ![] bcast_S_S50000x256 (constant (F := Ideal) S_ .f32 0x00000000#32)) (broadcastInDim S800000x1 ![0] bcast_S800000_S800000x1_0 (W (main_v3 : DevRef τ sig) : IVec S800000 32)) (mulf (F := Ideal) (φ := .f32) (Host.gather gather_S50000x256_S800000x1_S800000x256_1_0_n_n_0_1_1256 (W (main_v68 : DevRef τ sig) : FVec Ideal S50000x256 .f32) (broadcastInDim S800000x1 ![0] bcast_S800000_S800000x1_0 (select (cmpi .slt (W (main_v1 : DevRef τ sig) : IVec S800000 32) (broadcastInDim S800000 ![] bcast_S_S800000 (constantI S_ 32 0#32))) (addi (W (main_v1 : DevRef τ sig) : IVec S800000 32) (broadcastInDim S800000 ![] bcast_S_S800000 (constantI S_ 32 50000#32))) (W (main_v1 : DevRef τ sig) : IVec S800000 32)))) (broadcastInDim S800000x256 ![0, 1] bcast_S800000x1_S800000x256_0_1 (broadcastInDim S800000x1 ![0] bcast_S800000_S800000x1_0 (W (main_v25 : DevRef τ sig) : FVec Ideal S800000 .f32))))) := by
  simp only [cm2M, o106, o107, o108, o109, o110, o111, o112, o113, o114, o115, o116, o117, o118, o119, o120, o121]
  after_results_simp
  try rfl

/-- The buffers the stage writes. -/
abbrev cm2C_W : List (Ref sig .tc) := [main_v82, main_v83, main_v84, main_v85, main_v86, main_v87, main_v88]

theorem cm2C_writes : (cm2C : List (HloOp τ sig (Elt F))).Forall fun op => op.writes ⊆ (cm2C_W.map (Proc.devRef (τ := τ) .tc)).toFinset := by
  simp only [cm2C, List.Forall]
  exact ⟨by simp only [o122, nullary_writes, unary_writes, binary_writes, ternary_writes, reshape_writes, Finset.singleton_subset_iff, List.mem_toFinset]; exact List.mem_map_of_mem (by decide),
    by simp only [o123, nullary_writes, unary_writes, binary_writes, ternary_writes, reshape_writes, Finset.singleton_subset_iff, List.mem_toFinset]; exact List.mem_map_of_mem (by decide),
    by simp only [o124, nullary_writes, unary_writes, binary_writes, ternary_writes, reshape_writes, Finset.singleton_subset_iff, List.mem_toFinset]; exact List.mem_map_of_mem (by decide),
    by simp only [o125, nullary_writes, unary_writes, binary_writes, ternary_writes, reshape_writes, Finset.singleton_subset_iff, List.mem_toFinset]; exact List.mem_map_of_mem (by decide),
    by simp only [o126, nullary_writes, unary_writes, binary_writes, ternary_writes, reshape_writes, Finset.singleton_subset_iff, List.mem_toFinset]; exact List.mem_map_of_mem (by decide),
    by simp only [o127, nullary_writes, unary_writes, binary_writes, ternary_writes, reshape_writes, Finset.singleton_subset_iff, List.mem_toFinset]; exact List.mem_map_of_mem (by decide),
    by simp only [o128, nullary_writes, unary_writes, binary_writes, ternary_writes, reshape_writes, Finset.singleton_subset_iff, List.mem_toFinset]; exact List.mem_map_of_mem (by decide)⟩

/-- A buffer the stage does not write keeps its contents through it. -/
theorem cm2C_keep (W : Valuation τ sig (Elt F)) (r : Ref sig .tc) (h : r ∉ cm2C_W) :
    after cm2C W (no_index (Proc.devRef .tc r)) = W (Proc.devRef .tc r) :=
  after_of_writes_sub cm2C W cm2C_writes h

set_option maxRecDepth 8192 in
set_option maxHeartbeats 2000000 in
/-- The stage's result, as the operations' composed term of the contents going in. -/
theorem cm2C_out_v88 (W : Valuation τ sig (Elt Ideal)) :
    after (cm2C (F := Ideal)) W (no_index (Proc.devRef .tc main_v88))
      = (addf (F := Ideal) (φ := .f32) (addf (F := Ideal) (φ := .f32) (W (main_v81 : DevRef τ sig) : FVec Ideal S50000x256 .f32) (mulf (F := Ideal) (φ := .f32) (W (main_v68 : DevRef τ sig) : FVec Ideal S50000x256 .f32) (broadcastInDim S50000x256 ![0, 1] bcast_S50000x1_S50000x256_0_1 (broadcastInDim S50000x1 ![0] bcast_S50000_S50000x1_0 (W (main_v26 : DevRef τ sig) : FVec Ideal S50000 .f32))))) (broadcastInDim S50000x256 ![0, 1] bcast_S1x256_S50000x256_0_1 (broadcastInDim S1x256 ![1] bcast_S256_S1x256_1 (W (main_arg7 : DevRef τ sig) : FVec Ideal S256 .f32)))) := by
  simp only [cm2C, o122, o123, o124, o125, o126, o127, o128]
  after_results_simp
  try rfl

/-- The buffers the stage writes. -/
abbrev cm2S_W : List (Ref sig .tc) := [main_cst_15, main_v89, main_cst_16, main_v90, main_v91]

theorem cm2S_writes : (cm2S : List (HloOp τ sig (Elt F))).Forall fun op => op.writes ⊆ (cm2S_W.map (Proc.devRef (τ := τ) .tc)).toFinset := by
  simp only [cm2S, List.Forall]
  exact ⟨by simp only [o129, nullary_writes, unary_writes, binary_writes, ternary_writes, reshape_writes, Finset.singleton_subset_iff, List.mem_toFinset]; exact List.mem_map_of_mem (by decide),
    by simp only [o130, nullary_writes, unary_writes, binary_writes, ternary_writes, reshape_writes, Finset.singleton_subset_iff, List.mem_toFinset]; exact List.mem_map_of_mem (by decide),
    by simp only [o131, nullary_writes, unary_writes, binary_writes, ternary_writes, reshape_writes, Finset.singleton_subset_iff, List.mem_toFinset]; exact List.mem_map_of_mem (by decide),
    by simp only [o132, nullary_writes, unary_writes, binary_writes, ternary_writes, reshape_writes, Finset.singleton_subset_iff, List.mem_toFinset]; exact List.mem_map_of_mem (by decide),
    by simp only [o133, nullary_writes, unary_writes, binary_writes, ternary_writes, reshape_writes, Finset.singleton_subset_iff, List.mem_toFinset]; exact List.mem_map_of_mem (by decide)⟩

/-- A buffer the stage does not write keeps its contents through it. -/
theorem cm2S_keep (W : Valuation τ sig (Elt F)) (r : Ref sig .tc) (h : r ∉ cm2S_W) :
    after cm2S W (no_index (Proc.devRef .tc r)) = W (Proc.devRef .tc r) :=
  after_of_writes_sub cm2S W cm2S_writes h

set_option maxRecDepth 8192 in
set_option maxHeartbeats 2000000 in
/-- The stage's result, as the operations' composed term of the contents going in. -/
theorem cm2S_out_v91 (W : Valuation τ sig (Elt Ideal)) :
    after (cm2S (F := Ideal)) W (no_index (Proc.devRef .tc main_v91))
      = (Host.divf (F := Ideal) (φ := .f32) (Host.reduceAdd (F := Ideal) (φ := .f32) (W (main_v88 : DevRef τ sig) : FVec Ideal S50000x256 .f32) (constant (F := Ideal) S_ .f32 0x00000000#32) reducesTo_S50000x256_S256_d0 h_S_) (broadcastInDim S256 ![] bcast_S_S256 (constant (F := Ideal) S_ .f32 0x47435000#32))) := by
  simp only [cm2S, o129, o130, o131, o132, o133]
  after_results_simp
  try rfl

/-- The buffers the stage writes. -/
abbrev cm2V_W : List (Ref sig .tc) := [main_c_17, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v92]

theorem cm2V_writes : (cm2V : List (HloOp τ sig (Elt F))).Forall fun op => op.writes ⊆ (cm2V_W.map (Proc.devRef (τ := τ) .tc)).toFinset := by
  simp only [cm2V, List.Forall]
  exact ⟨by simp only [o134, nullary_writes, unary_writes, binary_writes, ternary_writes, reshape_writes, Finset.singleton_subset_iff, List.mem_toFinset]; exact List.mem_map_of_mem (by decide),
    by simp only [o135, nullary_writes, unary_writes, binary_writes, ternary_writes, reshape_writes, Finset.singleton_subset_iff, List.mem_toFinset]; exact List.mem_map_of_mem (by decide),
    by simp only [o136, nullary_writes, unary_writes, binary_writes, ternary_writes, reshape_writes, Finset.singleton_subset_iff, List.mem_toFinset]; exact List.mem_map_of_mem (by decide),
    by simp only [o137, nullary_writes, unary_writes, binary_writes, ternary_writes, reshape_writes, Finset.singleton_subset_iff, List.mem_toFinset]; exact List.mem_map_of_mem (by decide),
    by simp only [o138, nullary_writes, unary_writes, binary_writes, ternary_writes, reshape_writes, Finset.singleton_subset_iff, List.mem_toFinset]; exact List.mem_map_of_mem (by decide),
    by simp only [o139, nullary_writes, unary_writes, binary_writes, ternary_writes, reshape_writes, Finset.singleton_subset_iff, List.mem_toFinset]; exact List.mem_map_of_mem (by decide),
    by simp only [o140, nullary_writes, unary_writes, binary_writes, ternary_writes, reshape_writes, Finset.singleton_subset_iff, List.mem_toFinset]; exact List.mem_map_of_mem (by decide),
    by simp only [o141, nullary_writes, unary_writes, binary_writes, ternary_writes, reshape_writes, Finset.singleton_subset_iff, List.mem_toFinset]; exact List.mem_map_of_mem (by decide),
    by simp only [o142, nullary_writes, unary_writes, binary_writes, ternary_writes, reshape_writes, Finset.singleton_subset_iff, List.mem_toFinset]; exact List.mem_map_of_mem (by decide),
    by simp only [o143, nullary_writes, unary_writes, binary_writes, ternary_writes, reshape_writes, Finset.singleton_subset_iff, List.mem_toFinset]; exact List.mem_map_of_mem (by decide),
    by simp only [o144, nullary_writes, unary_writes, binary_writes, ternary_writes, reshape_writes, Finset.singleton_subset_iff, List.mem_toFinset]; exact List.mem_map_of_mem (by decide),
    by simp only [o145, nullary_writes, unary_writes, binary_writes, ternary_writes, reshape_writes, Finset.singleton_subset_iff, List.mem_toFinset]; exact List.mem_map_of_mem (by decide),
    by simp only [o146, nullary_writes, unary_writes, binary_writes, ternary_writes, reshape_writes, Finset.singleton_subset_iff, List.mem_toFinset]; exact List.mem_map_of_mem (by decide),
    by simp only [o147, nullary_writes, unary_writes, binary_writes, ternary_writes, reshape_writes, Finset.singleton_subset_iff, List.mem_toFinset]; exact List.mem_map_of_mem (by decide),
    by simp only [o148, nullary_writes, unary_writes, binary_writes, ternary_writes, reshape_writes, Finset.singleton_subset_iff, List.mem_toFinset]; exact List.mem_map_of_mem (by decide),
    by simp only [o149, nullary_writes, unary_writes, binary_writes, ternary_writes, reshape_writes, Finset.singleton_subset_iff, List.mem_toFinset]; exact List.mem_map_of_mem (by decide),
    by simp only [o150, nullary_writes, unary_writes, binary_writes, ternary_writes, reshape_writes, Finset.singleton_subset_iff, List.mem_toFinset]; exact List.mem_map_of_mem (by decide),
    by simp only [o151, nullary_writes, unary_writes, binary_writes, ternary_writes, reshape_writes, Finset.singleton_subset_iff, List.mem_toFinset]; exact List.mem_map_of_mem (by decide),
    by simp only [o152, nullary_writes, unary_writes, binary_writes, ternary_writes, reshape_writes, Finset.singleton_subset_iff, List.mem_toFinset]; exact List.mem_map_of_mem (by decide),
    by simp only [o153, nullary_writes, unary_writes, binary_writes, ternary_writes, reshape_writes, Finset.singleton_subset_iff, List.mem_toFinset]; exact List.mem_map_of_mem (by decide),
    by simp only [o154, nullary_writes, unary_writes, binary_writes, ternary_writes, reshape_writes, Finset.singleton_subset_iff, List.mem_toFinset]; exact List.mem_map_of_mem (by decide),
    by simp only [o155, nullary_writes, unary_writes, binary_writes, ternary_writes, reshape_writes, Finset.singleton_subset_iff, List.mem_toFinset]; exact List.mem_map_of_mem (by decide),
    by simp only [o156, nullary_writes, unary_writes, binary_writes, ternary_writes, reshape_writes, Finset.singleton_subset_iff, List.mem_toFinset]; exact List.mem_map_of_mem (by decide)⟩

/-- A buffer the stage does not write keeps its contents through it. -/
theorem cm2V_keep (W : Valuation τ sig (Elt F)) (r : Ref sig .tc) (h : r ∉ cm2V_W) :
    after cm2V W (no_index (Proc.devRef .tc r)) = W (Proc.devRef .tc r) :=
  after_of_writes_sub cm2V W cm2V_writes h

set_option maxRecDepth 8192 in
set_option maxHeartbeats 2000000 in
/-- The stage's result, as the operations' composed term of the contents going in. -/
theorem cm2V_out_v92 (W : Valuation τ sig (Elt Ideal)) :
    after (cm2V (F := Ideal)) W (no_index (Proc.devRef .tc main_v92))
      = (select (broadcastInDim S256 ![] bcast_S_S256 (cmpf (F := Ideal) (φ := .f32) .ogt (subf (F := Ideal) (φ := .f32) (constant (F := Ideal) S_ .f32 0x47435000#32) (sitofp (F := Ideal) .f32 (constantI S_ 32 0#32))) (constant (F := Ideal) S_ .f32 0x00000000#32))) (Host.divf (F := Ideal) (φ := .f32) (Host.reduceAdd (F := Ideal) (φ := .f32) (mulf (F := Ideal) (φ := .f32) (subf (F := Ideal) (φ := .f32) (W (main_v88 : DevRef τ sig) : FVec Ideal S50000x256 .f32) (broadcastInDim S50000x256 ![0, 1] bcast_S1x256_S50000x256_0_1 (Host.divf (F := Ideal) (φ := .f32) (broadcastInDim S1x256 ![1] bcast_S256_S1x256_1 (Host.reduceAdd (F := Ideal) (φ := .f32) (W (main_v88 : DevRef τ sig) : FVec Ideal S50000x256 .f32) (constant (F := Ideal) S_ .f32 0x00000000#32) reducesTo_S50000x256_S256_d0 h_S_)) (broadcastInDim S1x256 ![] bcast_S_S1x256 (constant (F := Ideal) S_ .f32 0x47435000#32))))) (subf (F := Ideal) (φ := .f32) (W (main_v88 : DevRef τ sig) : FVec Ideal S50000x256 .f32) (broadcastInDim S50000x256 ![0, 1] bcast_S1x256_S50000x256_0_1 (Host.divf (F := Ideal) (φ := .f32) (broadcastInDim S1x256 ![1] bcast_S256_S1x256_1 (Host.reduceAdd (F := Ideal) (φ := .f32) (W (main_v88 : DevRef τ sig) : FVec Ideal S50000x256 .f32) (constant (F := Ideal) S_ .f32 0x00000000#32) reducesTo_S50000x256_S256_d0 h_S_)) (broadcastInDim S1x256 ![] bcast_S_S1x256 (constant (F := Ideal) S_ .f32 0x47435000#32)))))) (constant (F := Ideal) S_ .f32 0x00000000#32) reducesTo_S50000x256_S256_d0 h_S_) (broadcastInDim S256 ![] bcast_S_S256 (subf (F := Ideal) (φ := .f32) (constant (F := Ideal) S_ .f32 0x47435000#32) (sitofp (F := Ideal) .f32 (constantI S_ 32 0#32))))) (broadcastInDim S256 ![] bcast_S_S256 (id (constant (F := Ideal) S_ .f32 0x7FC00000#32)))) := by
  simp only [cm2V, o134, o135, o136, o137, o138, o139, o140, o141, o142, o143, o144, o145, o146, o147, o148, o149, o150, o151, o152, o153, o154, o155, o156]
  after_results_simp
  try rfl

/-- The buffers the stage writes. -/
abbrev cm2N_W : List (Ref sig .tc) := [main_v93, main_v94, main_v95, main_cst_18, main_v96, main_v97, main_v98, main_v99, main_v100, main_v101, main_v102, main_v103, main_v104, main_v105, main_v106, main_v107, main_call3_cst, main_call3_v0, main_v108]

theorem cm2N_writes : (cm2N : List (HloOp τ sig (Elt F))).Forall fun op => op.writes ⊆ (cm2N_W.map (Proc.devRef (τ := τ) .tc)).toFinset := by
  simp only [cm2N, List.Forall]
  exact ⟨by simp only [o157, nullary_writes, unary_writes, binary_writes, ternary_writes, reshape_writes, Finset.singleton_subset_iff, List.mem_toFinset]; exact List.mem_map_of_mem (by decide),
    by simp only [o158, nullary_writes, unary_writes, binary_writes, ternary_writes, reshape_writes, Finset.singleton_subset_iff, List.mem_toFinset]; exact List.mem_map_of_mem (by decide),
    by simp only [o159, nullary_writes, unary_writes, binary_writes, ternary_writes, reshape_writes, Finset.singleton_subset_iff, List.mem_toFinset]; exact List.mem_map_of_mem (by decide),
    by simp only [o160, nullary_writes, unary_writes, binary_writes, ternary_writes, reshape_writes, Finset.singleton_subset_iff, List.mem_toFinset]; exact List.mem_map_of_mem (by decide),
    by simp only [o161, nullary_writes, unary_writes, binary_writes, ternary_writes, reshape_writes, Finset.singleton_subset_iff, List.mem_toFinset]; exact List.mem_map_of_mem (by decide),
    by simp only [o162, nullary_writes, unary_writes, binary_writes, ternary_writes, reshape_writes, Finset.singleton_subset_iff, List.mem_toFinset]; exact List.mem_map_of_mem (by decide),
    by simp only [o163, nullary_writes, unary_writes, binary_writes, ternary_writes, reshape_writes, Finset.singleton_subset_iff, List.mem_toFinset]; exact List.mem_map_of_mem (by decide),
    by simp only [o164, nullary_writes, unary_writes, binary_writes, ternary_writes, reshape_writes, Finset.singleton_subset_iff, List.mem_toFinset]; exact List.mem_map_of_mem (by decide),
    by simp only [o165, nullary_writes, unary_writes, binary_writes, ternary_writes, reshape_writes, Finset.singleton_subset_iff, List.mem_toFinset]; exact List.mem_map_of_mem (by decide),
    by simp only [o166, nullary_writes, unary_writes, binary_writes, ternary_writes, reshape_writes, Finset.singleton_subset_iff, List.mem_toFinset]; exact List.mem_map_of_mem (by decide),
    by simp only [o167, nullary_writes, unary_writes, binary_writes, ternary_writes, reshape_writes, Finset.singleton_subset_iff, List.mem_toFinset]; exact List.mem_map_of_mem (by decide),
    by simp only [o168, nullary_writes, unary_writes, binary_writes, ternary_writes, reshape_writes, Finset.singleton_subset_iff, List.mem_toFinset]; exact List.mem_map_of_mem (by decide),
    by simp only [o169, nullary_writes, unary_writes, binary_writes, ternary_writes, reshape_writes, Finset.singleton_subset_iff, List.mem_toFinset]; exact List.mem_map_of_mem (by decide),
    by simp only [o170, nullary_writes, unary_writes, binary_writes, ternary_writes, reshape_writes, Finset.singleton_subset_iff, List.mem_toFinset]; exact List.mem_map_of_mem (by decide),
    by simp only [o171, nullary_writes, unary_writes, binary_writes, ternary_writes, reshape_writes, Finset.singleton_subset_iff, List.mem_toFinset]; exact List.mem_map_of_mem (by decide),
    by simp only [o172, nullary_writes, unary_writes, binary_writes, ternary_writes, reshape_writes, Finset.singleton_subset_iff, List.mem_toFinset]; exact List.mem_map_of_mem (by decide),
    by simp only [o173, nullary_writes, unary_writes, binary_writes, ternary_writes, reshape_writes, Finset.singleton_subset_iff, List.mem_toFinset]; exact List.mem_map_of_mem (by decide),
    by simp only [o174, nullary_writes, unary_writes, binary_writes, ternary_writes, reshape_writes, Finset.singleton_subset_iff, List.mem_toFinset]; exact List.mem_map_of_mem (by decide),
    by simp only [o175, nullary_writes, unary_writes, binary_writes, ternary_writes, reshape_writes, Finset.singleton_subset_iff, List.mem_toFinset]; exact List.mem_map_of_mem (by decide)⟩

/-- A buffer the stage does not write keeps its contents through it. -/
theorem cm2N_keep (W : Valuation τ sig (Elt F)) (r : Ref sig .tc) (h : r ∉ cm2N_W) :
    after cm2N W (no_index (Proc.devRef .tc r)) = W (Proc.devRef .tc r) :=
  after_of_writes_sub cm2N W cm2N_writes h

set_option maxRecDepth 8192 in
set_option maxHeartbeats 2000000 in
/-- The stage's result, as the operations' composed term of the contents going in. -/
theorem cm2N_out_v108 (W : Valuation τ sig (Elt Ideal)) :
    after (cm2N (F := Ideal)) W (no_index (Proc.devRef .tc main_v108))
      = (maximumf (F := Ideal) (φ := .f32) (addf (F := Ideal) (φ := .f32) (mulf (F := Ideal) (φ := .f32) (mulf (F := Ideal) (φ := .f32) (subf (F := Ideal) (φ := .f32) (W (main_v88 : DevRef τ sig) : FVec Ideal S50000x256 .f32) (broadcastInDim S50000x256 ![0, 1] bcast_S1x256_S50000x256_0_1 (broadcastInDim S1x256 ![1] bcast_S256_S1x256_1 (W (main_v91 : DevRef τ sig) : FVec Ideal S256 .f32)))) (broadcastInDim S50000x256 ![0, 1] bcast_S1x256_S50000x256_0_1 (broadcastInDim S1x256 ![1] bcast_S256_S1x256_1 (Host.rsqrt (F := Ideal) (φ := .f32) (addf (F := Ideal) (φ := .f32) (W (main_v92 : DevRef τ sig) : FVec Ideal S256 .f32) (broadcastInDim S256 ![] bcast_S_S256 (constant (F := Ideal) S_ .f32 0x3727C5AC#32))))))) (broadcastInDim S50000x256 ![0, 1] bcast_S1x256_S50000x256_0_1 (broadcastInDim S1x256 ![1] bcast_S256_S1x256_1 (W (main_arg8 : DevRef τ sig) : FVec Ideal S256 .f32)))) (broadcastInDim S50000x256 ![0, 1] bcast_S1x256_S50000x256_0_1 (broadcastInDim S1x256 ![1] bcast_S256_S1x256_1 (W (main_arg9 : DevRef τ sig) : FVec Ideal S256 .f32)))) (broadcastInDim S50000x256 ![] bcast_S_S50000x256 (constant (F := Ideal) S_ .f32 0x00000000#32))) := by
  simp only [cm2N, o157, o158, o159, o160, o161, o162, o163, o164, o165, o166, o167, o168, o169, o170, o171, o172, o173, o174, o175]
  after_results_simp
  try rfl

end Cert.ReferenceIdeal.RefRun

end
-- ==== Proof.RefRunStM3.lean ====
/-
  The third layer of the first encoder, stage by stage: what each stage writes, that it leaves every other buffer
  alone, and its result as the composed term of the contents going in.
-/
import proofs.«106426_j33148557590872_1_alg».proof.Proof.RefRunChunks
import Idealize.ShloMosaic.PureOps.Ideal

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The buffers the stage writes. -/
abbrev cm3D_W : List (Ref sig .tc) := [main_v109]

theorem cm3D_writes : (cm3D : List (HloOp τ sig (Elt F))).Forall fun op => op.writes ⊆ (cm3D_W.map (Proc.devRef (τ := τ) .tc)).toFinset := by
  simp only [cm3D, List.Forall]
  exact (by simp only [o176, nullary_writes, unary_writes, binary_writes, ternary_writes, reshape_writes, Finset.singleton_subset_iff, List.mem_toFinset]; exact List.mem_map_of_mem (by decide))

/-- A buffer the stage does not write keeps its contents through it. -/
theorem cm3D_keep (W : Valuation τ sig (Elt F)) (r : Ref sig .tc) (h : r ∉ cm3D_W) :
    after cm3D W (no_index (Proc.devRef .tc r)) = W (Proc.devRef .tc r) :=
  after_of_writes_sub cm3D W cm3D_writes h

set_option maxRecDepth 8192 in
set_option maxHeartbeats 2000000 in
/-- The stage's result, as the operations' composed term of the contents going in. -/
theorem cm3D_out_v109 (W : Valuation τ sig (Elt Ideal)) :
    after (cm3D (F := Ideal)) W (no_index (Proc.devRef .tc main_v109))
      = (Host.dotGeneral (F := Ideal) (φ₁ := .f32) (φ₂ := .f32) dot_S50000x256_S256x64_S50000x64_1_0_0_1_n_n none (W (main_v108 : DevRef τ sig) : FVec Ideal S50000x256 .f32) (W (main_arg10 : DevRef τ sig) : FVec Ideal S256x64 .f32)) := by
  simp only [cm3D, o176]
  after_results_simp
  try rfl

/-- The buffers the stage writes. -/
abbrev cm3M_W : List (Ref sig .tc) := [main_c_19, main_v110, main_v111, main_c_20, main_v112, main_v113, main_v114, main_v115, main_v116, main_v117, main_v118, main_v119, main_cst_21, main_v120, main_v121, main_v122]

theorem cm3M_writes : (cm3M : List (HloOp τ sig (Elt F))).Forall fun op => op.writes ⊆ (cm3M_W.map (Proc.devRef (τ := τ) .tc)).toFinset := by
  simp only [cm3M, List.Forall]
  exact ⟨by simp only [o177, nullary_writes, unary_writes, binary_writes, ternary_writes, reshape_writes, Finset.singleton_subset_iff, List.mem_toFinset]; exact List.mem_map_of_mem (by decide),
    by simp only [o178, nullary_writes, unary_writes, binary_writes, ternary_writes, reshape_writes, Finset.singleton_subset_iff, List.mem_toFinset]; exact List.mem_map_of_mem (by decide),
    by simp only [o179, nullary_writes, unary_writes, binary_writes, ternary_writes, reshape_writes, Finset.singleton_subset_iff, List.mem_toFinset]; exact List.mem_map_of_mem (by decide),
    by simp only [o180, nullary_writes, unary_writes, binary_writes, ternary_writes, reshape_writes, Finset.singleton_subset_iff, List.mem_toFinset]; exact List.mem_map_of_mem (by decide),
    by simp only [o181, nullary_writes, unary_writes, binary_writes, ternary_writes, reshape_writes, Finset.singleton_subset_iff, List.mem_toFinset]; exact List.mem_map_of_mem (by decide),
    by simp only [o182, nullary_writes, unary_writes, binary_writes, ternary_writes, reshape_writes, Finset.singleton_subset_iff, List.mem_toFinset]; exact List.mem_map_of_mem (by decide),
    by simp only [o183, nullary_writes, unary_writes, binary_writes, ternary_writes, reshape_writes, Finset.singleton_subset_iff, List.mem_toFinset]; exact List.mem_map_of_mem (by decide),
    by simp only [o184, nullary_writes, unary_writes, binary_writes, ternary_writes, reshape_writes, Finset.singleton_subset_iff, List.mem_toFinset]; exact List.mem_map_of_mem (by decide),
    by simp only [o185, nullary_writes, unary_writes, binary_writes, ternary_writes, reshape_writes, Finset.singleton_subset_iff, List.mem_toFinset]; exact List.mem_map_of_mem (by decide),
    by simp only [o186, nullary_writes, unary_writes, binary_writes, ternary_writes, reshape_writes, Finset.singleton_subset_iff, List.mem_toFinset]; exact List.mem_map_of_mem (by decide),
    by simp only [o187, nullary_writes, unary_writes, binary_writes, ternary_writes, reshape_writes, Finset.singleton_subset_iff, List.mem_toFinset]; exact List.mem_map_of_mem (by decide),
    by simp only [o188, nullary_writes, unary_writes, binary_writes, ternary_writes, reshape_writes, Finset.singleton_subset_iff, List.mem_toFinset]; exact List.mem_map_of_mem (by decide),
    by simp only [o189, nullary_writes, unary_writes, binary_writes, ternary_writes, reshape_writes, Finset.singleton_subset_iff, List.mem_toFinset]; exact List.mem_map_of_mem (by decide),
    by simp only [o190, nullary_writes, unary_writes, binary_writes, ternary_writes, reshape_writes, Finset.singleton_subset_iff, List.mem_toFinset]; exact List.mem_map_of_mem (by decide),
    by simp only [o191, nullary_writes, unary_writes, binary_writes, ternary_writes, reshape_writes, Finset.singleton_subset_iff, List.mem_toFinset]; exact List.mem_map_of_mem (by decide),
    by simp only [o192, nullary_writes, unary_writes, binary_writes, ternary_writes, reshape_writes, Finset.singleton_subset_iff, List.mem_toFinset]; exact List.mem_map_of_mem (by decide)⟩

/-- A buffer the stage does not write keeps its contents through it. -/
theorem cm3M_keep (W : Valuation τ sig (Elt F)) (r : Ref sig .tc) (h : r ∉ cm3M_W) :
    after cm3M W (no_index (Proc.devRef .tc r)) = W (Proc.devRef .tc r) :=
  after_of_writes_sub cm3M W cm3M_writes h

set_option maxRecDepth 8192 in
set_option maxHeartbeats 2000000 in
/-- The stage's result, as the operations' composed term of the contents going in. -/
theorem cm3M_out_v122 (W : Valuation τ sig (Elt Ideal)) :
    after (cm3M (F := Ideal)) W (no_index (Proc.devRef .tc main_v122))
      = (Host.scatterAdd (F := Ideal) (φ := .f32) scatter_S50000x64_S800000x1_S800000x64_1_0_0_1 (broadcastInDim S50000x64 ![] bcast_S_S50000x64 (constant (F := Ideal) S_ .f32 0x00000000#32)) (broadcastInDim S800000x1 ![0] bcast_S800000_S800000x1_0 (W (main_v3 : DevRef τ sig) : IVec S800000 32)) (mulf (F := Ideal) (φ := .f32) (Host.gather gather_S50000x64_S800000x1_S800000x64_1_0_n_n_0_1_164 (W (main_v109 : DevRef τ sig) : FVec Ideal S50000x64 .f32) (broadcastInDim S800000x1 ![0] bcast_S800000_S800000x1_0 (select (cmpi .slt (W (main_v1 : DevRef τ sig) : IVec S800000 32) (broadcastInDim S800000 ![] bcast_S_S800000 (constantI S_ 32 0#32))) (addi (W (main_v1 : DevRef τ sig) : IVec S800000 32) (broadcastInDim S800000 ![] bcast_S_S800000 (constantI S_ 32 50000#32))) (W (main_v1 : DevRef τ sig) : IVec S800000 32)))) (broadcastInDim S800000x64 ![0, 1] bcast_S800000x1_S800000x64_0_1 (broadcastInDim S800000x1 ![0] bcast_S800000_S800000x1_0 (W (main_v25 : DevRef τ sig) : FVec Ideal S800000 .f32))))) := by
  simp only [cm3M, o177, o178, o179, o180, o181, o182, o183, o184, o185, o186, o187, o188, o189, o190, o191, o192]
  after_results_simp
  try rfl

/-- The buffers the stage writes. -/
abbrev cm3C_W : List (Ref sig .tc) := [main_v123, main_v124, main_v125, main_v126, main_v127, main_v128, main_v129]

theorem cm3C_writes : (cm3C : List (HloOp τ sig (Elt F))).Forall fun op => op.writes ⊆ (cm3C_W.map (Proc.devRef (τ := τ) .tc)).toFinset := by
  simp only [cm3C, List.Forall]
  exact ⟨by simp only [o193, nullary_writes, unary_writes, binary_writes, ternary_writes, reshape_writes, Finset.singleton_subset_iff, List.mem_toFinset]; exact List.mem_map_of_mem (by decide),
    by simp only [o194, nullary_writes, unary_writes, binary_writes, ternary_writes, reshape_writes, Finset.singleton_subset_iff, List.mem_toFinset]; exact List.mem_map_of_mem (by decide),
    by simp only [o195, nullary_writes, unary_writes, binary_writes, ternary_writes, reshape_writes, Finset.singleton_subset_iff, List.mem_toFinset]; exact List.mem_map_of_mem (by decide),
    by simp only [o196, nullary_writes, unary_writes, binary_writes, ternary_writes, reshape_writes, Finset.singleton_subset_iff, List.mem_toFinset]; exact List.mem_map_of_mem (by decide),
    by simp only [o197, nullary_writes, unary_writes, binary_writes, ternary_writes, reshape_writes, Finset.singleton_subset_iff, List.mem_toFinset]; exact List.mem_map_of_mem (by decide),
    by simp only [o198, nullary_writes, unary_writes, binary_writes, ternary_writes, reshape_writes, Finset.singleton_subset_iff, List.mem_toFinset]; exact List.mem_map_of_mem (by decide),
    by simp only [o199, nullary_writes, unary_writes, binary_writes, ternary_writes, reshape_writes, Finset.singleton_subset_iff, List.mem_toFinset]; exact List.mem_map_of_mem (by decide)⟩

/-- A buffer the stage does not write keeps its contents through it. -/
theorem cm3C_keep (W : Valuation τ sig (Elt F)) (r : Ref sig .tc) (h : r ∉ cm3C_W) :
    after cm3C W (no_index (Proc.devRef .tc r)) = W (Proc.devRef .tc r) :=
  after_of_writes_sub cm3C W cm3C_writes h

set_option maxRecDepth 8192 in
set_option maxHeartbeats 2000000 in
/-- The stage's result, as the operations' composed term of the contents going in. -/
theorem cm3C_out_v129 (W : Valuation τ sig (Elt Ideal)) :
    after (cm3C (F := Ideal)) W (no_index (Proc.devRef .tc main_v129))
      = (addf (F := Ideal) (φ := .f32) (addf (F := Ideal) (φ := .f32) (W (main_v122 : DevRef τ sig) : FVec Ideal S50000x64 .f32) (mulf (F := Ideal) (φ := .f32) (W (main_v109 : DevRef τ sig) : FVec Ideal S50000x64 .f32) (broadcastInDim S50000x64 ![0, 1] bcast_S50000x1_S50000x64_0_1 (broadcastInDim S50000x1 ![0] bcast_S50000_S50000x1_0 (W (main_v26 : DevRef τ sig) : FVec Ideal S50000 .f32))))) (broadcastInDim S50000x64 ![0, 1] bcast_S1x64_S50000x64_0_1 (broadcastInDim S1x64 ![1] bcast_S64_S1x64_1 (W (main_arg11 : DevRef τ sig) : FVec Ideal S64 .f32)))) := by
  simp only [cm3C, o193, o194, o195, o196, o197, o198, o199]
  after_results_simp
  try rfl

end Cert.ReferenceIdeal.RefRun

end
-- ==== Proof.RefRunStL1.lean ====
/-
  The first layer of the second encoder, stage by stage: what each stage writes, that it leaves every other buffer
  alone, and its result as the composed term of the contents going in.
-/
import proofs.«106426_j33148557590872_1_alg».proof.Proof.RefRunChunks
import Idealize.ShloMosaic.PureOps.Ideal

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The buffers the stage writes. -/
abbrev cl1D_W : List (Ref sig .tc) := [main_v130]

theorem cl1D_writes : (cl1D : List (HloOp τ sig (Elt F))).Forall fun op => op.writes ⊆ (cl1D_W.map (Proc.devRef (τ := τ) .tc)).toFinset := by
  simp only [cl1D, List.Forall]
  exact (by simp only [o200, nullary_writes, unary_writes, binary_writes, ternary_writes, reshape_writes, Finset.singleton_subset_iff, List.mem_toFinset]; exact List.mem_map_of_mem (by decide))

/-- A buffer the stage does not write keeps its contents through it. -/
theorem cl1D_keep (W : Valuation τ sig (Elt F)) (r : Ref sig .tc) (h : r ∉ cl1D_W) :
    after cl1D W (no_index (Proc.devRef .tc r)) = W (Proc.devRef .tc r) :=
  after_of_writes_sub cl1D W cl1D_writes h

set_option maxRecDepth 8192 in
set_option maxHeartbeats 2000000 in
/-- The stage's result, as the operations' composed term of the contents going in. -/
theorem cl1D_out_v130 (W : Valuation τ sig (Elt Ideal)) :
    after (cl1D (F := Ideal)) W (no_index (Proc.devRef .tc main_v130))
      = (Host.dotGeneral (F := Ideal) (φ₁ := .f32) (φ₂ := .f32) dot_S50000x64_S64x128_S50000x128_1_0_0_1_n_n none (W (main_arg0 : DevRef τ sig) : FVec Ideal S50000x64 .f32) (W (main_arg12 : DevRef τ sig) : FVec Ideal S64x128 .f32)) := by
  simp only [cl1D, o200]
  after_results_simp
  try rfl

/-- The buffers the stage writes. -/
abbrev cl1M_W : List (Ref sig .tc) := [main_c_22, main_v131, main_v132, main_c_23, main_v133, main_v134, main_v135, main_v136, main_v137, main_v138, main_v139, main_v140, main_cst_24, main_v141, main_v142, main_v143]

theorem cl1M_writes : (cl1M : List (HloOp τ sig (Elt F))).Forall fun op => op.writes ⊆ (cl1M_W.map (Proc.devRef (τ := τ) .tc)).toFinset := by
  simp only [cl1M, List.Forall]
  exact ⟨by simp only [o201, nullary_writes, unary_writes, binary_writes, ternary_writes, reshape_writes, Finset.singleton_subset_iff, List.mem_toFinset]; exact List.mem_map_of_mem (by decide),
    by simp only [o202, nullary_writes, unary_writes, binary_writes, ternary_writes, reshape_writes, Finset.singleton_subset_iff, List.mem_toFinset]; exact List.mem_map_of_mem (by decide),
    by simp only [o203, nullary_writes, unary_writes, binary_writes, ternary_writes, reshape_writes, Finset.singleton_subset_iff, List.mem_toFinset]; exact List.mem_map_of_mem (by decide),
    by simp only [o204, nullary_writes, unary_writes, binary_writes, ternary_writes, reshape_writes, Finset.singleton_subset_iff, List.mem_toFinset]; exact List.mem_map_of_mem (by decide),
    by simp only [o205, nullary_writes, unary_writes, binary_writes, ternary_writes, reshape_writes, Finset.singleton_subset_iff, List.mem_toFinset]; exact List.mem_map_of_mem (by decide),
    by simp only [o206, nullary_writes, unary_writes, binary_writes, ternary_writes, reshape_writes, Finset.singleton_subset_iff, List.mem_toFinset]; exact List.mem_map_of_mem (by decide),
    by simp only [o207, nullary_writes, unary_writes, binary_writes, ternary_writes, reshape_writes, Finset.singleton_subset_iff, List.mem_toFinset]; exact List.mem_map_of_mem (by decide),
    by simp only [o208, nullary_writes, unary_writes, binary_writes, ternary_writes, reshape_writes, Finset.singleton_subset_iff, List.mem_toFinset]; exact List.mem_map_of_mem (by decide),
    by simp only [o209, nullary_writes, unary_writes, binary_writes, ternary_writes, reshape_writes, Finset.singleton_subset_iff, List.mem_toFinset]; exact List.mem_map_of_mem (by decide),
    by simp only [o210, nullary_writes, unary_writes, binary_writes, ternary_writes, reshape_writes, Finset.singleton_subset_iff, List.mem_toFinset]; exact List.mem_map_of_mem (by decide),
    by simp only [o211, nullary_writes, unary_writes, binary_writes, ternary_writes, reshape_writes, Finset.singleton_subset_iff, List.mem_toFinset]; exact List.mem_map_of_mem (by decide),
    by simp only [o212, nullary_writes, unary_writes, binary_writes, ternary_writes, reshape_writes, Finset.singleton_subset_iff, List.mem_toFinset]; exact List.mem_map_of_mem (by decide),
    by simp only [o213, nullary_writes, unary_writes, binary_writes, ternary_writes, reshape_writes, Finset.singleton_subset_iff, List.mem_toFinset]; exact List.mem_map_of_mem (by decide),
    by simp only [o214, nullary_writes, unary_writes, binary_writes, ternary_writes, reshape_writes, Finset.singleton_subset_iff, List.mem_toFinset]; exact List.mem_map_of_mem (by decide),
    by simp only [o215, nullary_writes, unary_writes, binary_writes, ternary_writes, reshape_writes, Finset.singleton_subset_iff, List.mem_toFinset]; exact List.mem_map_of_mem (by decide),
    by simp only [o216, nullary_writes, unary_writes, binary_writes, ternary_writes, reshape_writes, Finset.singleton_subset_iff, List.mem_toFinset]; exact List.mem_map_of_mem (by decide)⟩

/-- A buffer the stage does not write keeps its contents through it. -/
theorem cl1M_keep (W : Valuation τ sig (Elt F)) (r : Ref sig .tc) (h : r ∉ cl1M_W) :
    after cl1M W (no_index (Proc.devRef .tc r)) = W (Proc.devRef .tc r) :=
  after_of_writes_sub cl1M W cl1M_writes h

set_option maxRecDepth 8192 in
set_option maxHeartbeats 2000000 in
/-- The stage's result, as the operations' composed term of the contents going in. -/
theorem cl1M_out_v143 (W : Valuation τ sig (Elt Ideal)) :
    after (cl1M (F := Ideal)) W (no_index (Proc.devRef .tc main_v143))
      = (Host.scatterAdd (F := Ideal) (φ := .f32) scatter_S50000x128_S800000x1_S800000x128_1_0_0_1 (broadcastInDim S50000x128 ![] bcast_S_S50000x128 (constant (F := Ideal) S_ .f32 0x00000000#32)) (broadcastInDim S800000x1 ![0] bcast_S800000_S800000x1_0 (W (main_v3 : DevRef τ sig) : IVec S800000 32)) (mulf (F := Ideal) (φ := .f32) (Host.gather gather_S50000x128_S800000x1_S800000x128_1_0_n_n_0_1_1128 (W (main_v130 : DevRef τ sig) : FVec Ideal S50000x128 .f32) (broadcastInDim S800000x1 ![0] bcast_S800000_S800000x1_0 (select (cmpi .slt (W (main_v1 : DevRef τ sig) : IVec S800000 32) (broadcastInDim S800000 ![] bcast_S_S800000 (constantI S_ 32 0#32))) (addi (W (main_v1 : DevRef τ sig) : IVec S800000 32) (broadcastInDim S800000 ![] bcast_S_S800000 (constantI S_ 32 50000#32))) (W (main_v1 : DevRef τ sig) : IVec S800000 32)))) (broadcastInDim S800000x128 ![0, 1] bcast_S800000x1_S800000x128_0_1 (broadcastInDim S800000x1 ![0] bcast_S800000_S800000x1_0 (W (main_v25 : DevRef τ sig) : FVec Ideal S800000 .f32))))) := by
  simp only [cl1M, o201, o202, o203, o204, o205, o206, o207, o208, o209, o210, o211, o212, o213, o214, o215, o216]
  after_results_simp
  try rfl

/-- The buffers the stage writes. -/
abbrev cl1C_W : List (Ref sig .tc) := [main_v144, main_v145, main_v146, main_v147, main_v148, main_v149, main_v150]

theorem cl1C_writes : (cl1C : List (HloOp τ sig (Elt F))).Forall fun op => op.writes ⊆ (cl1C_W.map (Proc.devRef (τ := τ) .tc)).toFinset := by
  simp only [cl1C, List.Forall]
  exact ⟨by simp only [o217, nullary_writes, unary_writes, binary_writes, ternary_writes, reshape_writes, Finset.singleton_subset_iff, List.mem_toFinset]; exact List.mem_map_of_mem (by decide),
    by simp only [o218, nullary_writes, unary_writes, binary_writes, ternary_writes, reshape_writes, Finset.singleton_subset_iff, List.mem_toFinset]; exact List.mem_map_of_mem (by decide),
    by simp only [o219, nullary_writes, unary_writes, binary_writes, ternary_writes, reshape_writes, Finset.singleton_subset_iff, List.mem_toFinset]; exact List.mem_map_of_mem (by decide),
    by simp only [o220, nullary_writes, unary_writes, binary_writes, ternary_writes, reshape_writes, Finset.singleton_subset_iff, List.mem_toFinset]; exact List.mem_map_of_mem (by decide),
    by simp only [o221, nullary_writes, unary_writes, binary_writes, ternary_writes, reshape_writes, Finset.singleton_subset_iff, List.mem_toFinset]; exact List.mem_map_of_mem (by decide),
    by simp only [o222, nullary_writes, unary_writes, binary_writes, ternary_writes, reshape_writes, Finset.singleton_subset_iff, List.mem_toFinset]; exact List.mem_map_of_mem (by decide),
    by simp only [o223, nullary_writes, unary_writes, binary_writes, ternary_writes, reshape_writes, Finset.singleton_subset_iff, List.mem_toFinset]; exact List.mem_map_of_mem (by decide)⟩

/-- A buffer the stage does not write keeps its contents through it. -/
theorem cl1C_keep (W : Valuation τ sig (Elt F)) (r : Ref sig .tc) (h : r ∉ cl1C_W) :
    after cl1C W (no_index (Proc.devRef .tc r)) = W (Proc.devRef .tc r) :=
  after_of_writes_sub cl1C W cl1C_writes h

set_option maxRecDepth 8192 in
set_option maxHeartbeats 2000000 in
/-- The stage's result, as the operations' composed term of the contents going in. -/
theorem cl1C_out_v150 (W : Valuation τ sig (Elt Ideal)) :
    after (cl1C (F := Ideal)) W (no_index (Proc.devRef .tc main_v150))
      = (addf (F := Ideal) (φ := .f32) (addf (F := Ideal) (φ := .f32) (W (main_v143 : DevRef τ sig) : FVec Ideal S50000x128 .f32) (mulf (F := Ideal) (φ := .f32) (W (main_v130 : DevRef τ sig) : FVec Ideal S50000x128 .f32) (broadcastInDim S50000x128 ![0, 1] bcast_S50000x1_S50000x128_0_1 (broadcastInDim S50000x1 ![0] bcast_S50000_S50000x1_0 (W (main_v26 : DevRef τ sig) : FVec Ideal S50000 .f32))))) (broadcastInDim S50000x128 ![0, 1] bcast_S1x128_S50000x128_0_1 (broadcastInDim S1x128 ![1] bcast_S128_S1x128_1 (W (main_arg13 : DevRef τ sig) : FVec Ideal S128 .f32)))) := by
  simp only [cl1C, o217, o218, o219, o220, o221, o222, o223]
  after_results_simp
  try rfl

/-- The buffers the stage writes. -/
abbrev cl1R_W : List (Ref sig .tc) := [main_call4_cst, main_call4_v0, main_v151]

theorem cl1R_writes : (cl1R : List (HloOp τ sig (Elt F))).Forall fun op => op.writes ⊆ (cl1R_W.map (Proc.devRef (τ := τ) .tc)).toFinset := by
  simp only [cl1R, List.Forall]
  exact ⟨by simp only [o224, nullary_writes, unary_writes, binary_writes, ternary_writes, reshape_writes, Finset.singleton_subset_iff, List.mem_toFinset]; exact List.mem_map_of_mem (by decide),
    by simp only [o225, nullary_writes, unary_writes, binary_writes, ternary_writes, reshape_writes, Finset.singleton_subset_iff, List.mem_toFinset]; exact List.mem_map_of_mem (by decide),
    by simp only [o226, nullary_writes, unary_writes, binary_writes, ternary_writes, reshape_writes, Finset.singleton_subset_iff, List.mem_toFinset]; exact List.mem_map_of_mem (by decide)⟩

/-- A buffer the stage does not write keeps its contents through it. -/
theorem cl1R_keep (W : Valuation τ sig (Elt F)) (r : Ref sig .tc) (h : r ∉ cl1R_W) :
    after cl1R W (no_index (Proc.devRef .tc r)) = W (Proc.devRef .tc r) :=
  after_of_writes_sub cl1R W cl1R_writes h

set_option maxRecDepth 8192 in
set_option maxHeartbeats 2000000 in
/-- The stage's result, as the operations' composed term of the contents going in. -/
theorem cl1R_out_v151 (W : Valuation τ sig (Elt Ideal)) :
    after (cl1R (F := Ideal)) W (no_index (Proc.devRef .tc main_v151))
      = (maximumf (F := Ideal) (φ := .f32) (W (main_v150 : DevRef τ sig) : FVec Ideal S50000x128 .f32) (broadcastInDim S50000x128 ![] bcast_S_S50000x128 (constant (F := Ideal) S_ .f32 0x00000000#32))) := by
  simp only [cl1R, o224, o225, o226]
  after_results_simp
  try rfl

/-- The buffers the stage writes. -/
abbrev cl1S_W : List (Ref sig .tc) := [main_cst_25, main_v152, main_cst_26, main_v153, main_v154]

theorem cl1S_writes : (cl1S : List (HloOp τ sig (Elt F))).Forall fun op => op.writes ⊆ (cl1S_W.map (Proc.devRef (τ := τ) .tc)).toFinset := by
  simp only [cl1S, List.Forall]
  exact ⟨by simp only [o227, nullary_writes, unary_writes, binary_writes, ternary_writes, reshape_writes, Finset.singleton_subset_iff, List.mem_toFinset]; exact List.mem_map_of_mem (by decide),
    by simp only [o228, nullary_writes, unary_writes, binary_writes, ternary_writes, reshape_writes, Finset.singleton_subset_iff, List.mem_toFinset]; exact List.mem_map_of_mem (by decide),
    by simp only [o229, nullary_writes, unary_writes, binary_writes, ternary_writes, reshape_writes, Finset.singleton_subset_iff, List.mem_toFinset]; exact List.mem_map_of_mem (by decide),
    by simp only [o230, nullary_writes, unary_writes, binary_writes, ternary_writes, reshape_writes, Finset.singleton_subset_iff, List.mem_toFinset]; exact List.mem_map_of_mem (by decide),
    by simp only [o231, nullary_writes, unary_writes, binary_writes, ternary_writes, reshape_writes, Finset.singleton_subset_iff, List.mem_toFinset]; exact List.mem_map_of_mem (by decide)⟩

/-- A buffer the stage does not write keeps its contents through it. -/
theorem cl1S_keep (W : Valuation τ sig (Elt F)) (r : Ref sig .tc) (h : r ∉ cl1S_W) :
    after cl1S W (no_index (Proc.devRef .tc r)) = W (Proc.devRef .tc r) :=
  after_of_writes_sub cl1S W cl1S_writes h

set_option maxRecDepth 8192 in
set_option maxHeartbeats 2000000 in
/-- The stage's result, as the operations' composed term of the contents going in. -/
theorem cl1S_out_v154 (W : Valuation τ sig (Elt Ideal)) :
    after (cl1S (F := Ideal)) W (no_index (Proc.devRef .tc main_v154))
      = (Host.divf (F := Ideal) (φ := .f32) (Host.reduceAdd (F := Ideal) (φ := .f32) (W (main_v151 : DevRef τ sig) : FVec Ideal S50000x128 .f32) (constant (F := Ideal) S_ .f32 0x00000000#32) reducesTo_S50000x128_S128_d0 h_S_) (broadcastInDim S128 ![] bcast_S_S128 (constant (F := Ideal) S_ .f32 0x47435000#32))) := by
  simp only [cl1S, o227, o228, o229, o230, o231]
  after_results_simp
  try rfl

/-- The buffers the stage writes. -/
abbrev cl1V_W : List (Ref sig .tc) := [main_c_27, main_call5_cst, main_call5_v0, main_call5_v1, main_call5_cst_0, main_call5_v2, main_call5_v3, main_call5_v4, main_call5_v5, main_call5_v6, main_call5_v7, main_call5_cst_1, main_call5_v8, main_call5_cst_2, main_call5_v9, main_call5_v10, main_call5_v11, main_call5_cst_3, main_call5_v12, main_call5_cst_4, main_call5_call0_v0, main_call5_call0_v1, main_v155]

theorem cl1V_writes : (cl1V : List (HloOp τ sig (Elt F))).Forall fun op => op.writes ⊆ (cl1V_W.map (Proc.devRef (τ := τ) .tc)).toFinset := by
  simp only [cl1V, List.Forall]
  exact ⟨by simp only [o232, nullary_writes, unary_writes, binary_writes, ternary_writes, reshape_writes, Finset.singleton_subset_iff, List.mem_toFinset]; exact List.mem_map_of_mem (by decide),
    by simp only [o233, nullary_writes, unary_writes, binary_writes, ternary_writes, reshape_writes, Finset.singleton_subset_iff, List.mem_toFinset]; exact List.mem_map_of_mem (by decide),
    by simp only [o234, nullary_writes, unary_writes, binary_writes, ternary_writes, reshape_writes, Finset.singleton_subset_iff, List.mem_toFinset]; exact List.mem_map_of_mem (by decide),
    by simp only [o235, nullary_writes, unary_writes, binary_writes, ternary_writes, reshape_writes, Finset.singleton_subset_iff, List.mem_toFinset]; exact List.mem_map_of_mem (by decide),
    by simp only [o236, nullary_writes, unary_writes, binary_writes, ternary_writes, reshape_writes, Finset.singleton_subset_iff, List.mem_toFinset]; exact List.mem_map_of_mem (by decide),
    by simp only [o237, nullary_writes, unary_writes, binary_writes, ternary_writes, reshape_writes, Finset.singleton_subset_iff, List.mem_toFinset]; exact List.mem_map_of_mem (by decide),
    by simp only [o238, nullary_writes, unary_writes, binary_writes, ternary_writes, reshape_writes, Finset.singleton_subset_iff, List.mem_toFinset]; exact List.mem_map_of_mem (by decide),
    by simp only [o239, nullary_writes, unary_writes, binary_writes, ternary_writes, reshape_writes, Finset.singleton_subset_iff, List.mem_toFinset]; exact List.mem_map_of_mem (by decide),
    by simp only [o240, nullary_writes, unary_writes, binary_writes, ternary_writes, reshape_writes, Finset.singleton_subset_iff, List.mem_toFinset]; exact List.mem_map_of_mem (by decide),
    by simp only [o241, nullary_writes, unary_writes, binary_writes, ternary_writes, reshape_writes, Finset.singleton_subset_iff, List.mem_toFinset]; exact List.mem_map_of_mem (by decide),
    by simp only [o242, nullary_writes, unary_writes, binary_writes, ternary_writes, reshape_writes, Finset.singleton_subset_iff, List.mem_toFinset]; exact List.mem_map_of_mem (by decide),
    by simp only [o243, nullary_writes, unary_writes, binary_writes, ternary_writes, reshape_writes, Finset.singleton_subset_iff, List.mem_toFinset]; exact List.mem_map_of_mem (by decide),
    by simp only [o244, nullary_writes, unary_writes, binary_writes, ternary_writes, reshape_writes, Finset.singleton_subset_iff, List.mem_toFinset]; exact List.mem_map_of_mem (by decide),
    by simp only [o245, nullary_writes, unary_writes, binary_writes, ternary_writes, reshape_writes, Finset.singleton_subset_iff, List.mem_toFinset]; exact List.mem_map_of_mem (by decide),
    by simp only [o246, nullary_writes, unary_writes, binary_writes, ternary_writes, reshape_writes, Finset.singleton_subset_iff, List.mem_toFinset]; exact List.mem_map_of_mem (by decide),
    by simp only [o247, nullary_writes, unary_writes, binary_writes, ternary_writes, reshape_writes, Finset.singleton_subset_iff, List.mem_toFinset]; exact List.mem_map_of_mem (by decide),
    by simp only [o248, nullary_writes, unary_writes, binary_writes, ternary_writes, reshape_writes, Finset.singleton_subset_iff, List.mem_toFinset]; exact List.mem_map_of_mem (by decide),
    by simp only [o249, nullary_writes, unary_writes, binary_writes, ternary_writes, reshape_writes, Finset.singleton_subset_iff, List.mem_toFinset]; exact List.mem_map_of_mem (by decide),
    by simp only [o250, nullary_writes, unary_writes, binary_writes, ternary_writes, reshape_writes, Finset.singleton_subset_iff, List.mem_toFinset]; exact List.mem_map_of_mem (by decide),
    by simp only [o251, nullary_writes, unary_writes, binary_writes, ternary_writes, reshape_writes, Finset.singleton_subset_iff, List.mem_toFinset]; exact List.mem_map_of_mem (by decide),
    by simp only [o252, nullary_writes, unary_writes, binary_writes, ternary_writes, reshape_writes, Finset.singleton_subset_iff, List.mem_toFinset]; exact List.mem_map_of_mem (by decide),
    by simp only [o253, nullary_writes, unary_writes, binary_writes, ternary_writes, reshape_writes, Finset.singleton_subset_iff, List.mem_toFinset]; exact List.mem_map_of_mem (by decide),
    by simp only [o254, nullary_writes, unary_writes, binary_writes, ternary_writes, reshape_writes, Finset.singleton_subset_iff, List.mem_toFinset]; exact List.mem_map_of_mem (by decide)⟩

/-- A buffer the stage does not write keeps its contents through it. -/
theorem cl1V_keep (W : Valuation τ sig (Elt F)) (r : Ref sig .tc) (h : r ∉ cl1V_W) :
    after cl1V W (no_index (Proc.devRef .tc r)) = W (Proc.devRef .tc r) :=
  after_of_writes_sub cl1V W cl1V_writes h

set_option maxRecDepth 8192 in
set_option maxHeartbeats 2000000 in
/-- The stage's result, as the operations' composed term of the contents going in. -/
theorem cl1V_out_v155 (W : Valuation τ sig (Elt Ideal)) :
    after (cl1V (F := Ideal)) W (no_index (Proc.devRef .tc main_v155))
      = (select (broadcastInDim S128 ![] bcast_S_S128 (cmpf (F := Ideal) (φ := .f32) .ogt (subf (F := Ideal) (φ := .f32) (constant (F := Ideal) S_ .f32 0x47435000#32) (sitofp (F := Ideal) .f32 (constantI S_ 32 0#32))) (constant (F := Ideal) S_ .f32 0x00000000#32))) (Host.divf (F := Ideal) (φ := .f32) (Host.reduceAdd (F := Ideal) (φ := .f32) (mulf (F := Ideal) (φ := .f32) (subf (F := Ideal) (φ := .f32) (W (main_v151 : DevRef τ sig) : FVec Ideal S50000x128 .f32) (broadcastInDim S50000x128 ![0, 1] bcast_S1x128_S50000x128_0_1 (Host.divf (F := Ideal) (φ := .f32) (broadcastInDim S1x128 ![1] bcast_S128_S1x128_1 (Host.reduceAdd (F := Ideal) (φ := .f32) (W (main_v151 : DevRef τ sig) : FVec Ideal S50000x128 .f32) (constant (F := Ideal) S_ .f32 0x00000000#32) reducesTo_S50000x128_S128_d0 h_S_)) (broadcastInDim S1x128 ![] bcast_S_S1x128 (constant (F := Ideal) S_ .f32 0x47435000#32))))) (subf (F := Ideal) (φ := .f32) (W (main_v151 : DevRef τ sig) : FVec Ideal S50000x128 .f32) (broadcastInDim S50000x128 ![0, 1] bcast_S1x128_S50000x128_0_1 (Host.divf (F := Ideal) (φ := .f32) (broadcastInDim S1x128 ![1] bcast_S128_S1x128_1 (Host.reduceAdd (F := Ideal) (φ := .f32) (W (main_v151 : DevRef τ sig) : FVec Ideal S50000x128 .f32) (constant (F := Ideal) S_ .f32 0x00000000#32) reducesTo_S50000x128_S128_d0 h_S_)) (broadcastInDim S1x128 ![] bcast_S_S1x128 (constant (F := Ideal) S_ .f32 0x47435000#32)))))) (constant (F := Ideal) S_ .f32 0x00000000#32) reducesTo_S50000x128_S128_d0 h_S_) (broadcastInDim S128 ![] bcast_S_S128 (subf (F := Ideal) (φ := .f32) (constant (F := Ideal) S_ .f32 0x47435000#32) (sitofp (F := Ideal) .f32 (constantI S_ 32 0#32))))) (broadcastInDim S128 ![] bcast_S_S128 (id (constant (F := Ideal) S_ .f32 0x7FC00000#32)))) := by
  simp only [cl1V, o232, o233, o234, o235, o236, o237, o238, o239, o240, o241, o242, o243, o244, o245, o246, o247, o248, o249, o250, o251, o252, o253, o254]
  after_results_simp
  try rfl

/-- The buffers the stage writes. -/
abbrev cl1N_W : List (Ref sig .tc) := [main_v156, main_v157, main_v158, main_cst_28, main_v159, main_v160, main_v161, main_v162, main_v163, main_v164, main_v165, main_v166, main_v167, main_v168, main_v169, main_v170]

theorem cl1N_writes : (cl1N : List (HloOp τ sig (Elt F))).Forall fun op => op.writes ⊆ (cl1N_W.map (Proc.devRef (τ := τ) .tc)).toFinset := by
  simp only [cl1N, List.Forall]
  exact ⟨by simp only [o255, nullary_writes, unary_writes, binary_writes, ternary_writes, reshape_writes, Finset.singleton_subset_iff, List.mem_toFinset]; exact List.mem_map_of_mem (by decide),
    by simp only [o256, nullary_writes, unary_writes, binary_writes, ternary_writes, reshape_writes, Finset.singleton_subset_iff, List.mem_toFinset]; exact List.mem_map_of_mem (by decide),
    by simp only [o257, nullary_writes, unary_writes, binary_writes, ternary_writes, reshape_writes, Finset.singleton_subset_iff, List.mem_toFinset]; exact List.mem_map_of_mem (by decide),
    by simp only [o258, nullary_writes, unary_writes, binary_writes, ternary_writes, reshape_writes, Finset.singleton_subset_iff, List.mem_toFinset]; exact List.mem_map_of_mem (by decide),
    by simp only [o259, nullary_writes, unary_writes, binary_writes, ternary_writes, reshape_writes, Finset.singleton_subset_iff, List.mem_toFinset]; exact List.mem_map_of_mem (by decide),
    by simp only [o260, nullary_writes, unary_writes, binary_writes, ternary_writes, reshape_writes, Finset.singleton_subset_iff, List.mem_toFinset]; exact List.mem_map_of_mem (by decide),
    by simp only [o261, nullary_writes, unary_writes, binary_writes, ternary_writes, reshape_writes, Finset.singleton_subset_iff, List.mem_toFinset]; exact List.mem_map_of_mem (by decide),
    by simp only [o262, nullary_writes, unary_writes, binary_writes, ternary_writes, reshape_writes, Finset.singleton_subset_iff, List.mem_toFinset]; exact List.mem_map_of_mem (by decide),
    by simp only [o263, nullary_writes, unary_writes, binary_writes, ternary_writes, reshape_writes, Finset.singleton_subset_iff, List.mem_toFinset]; exact List.mem_map_of_mem (by decide),
    by simp only [o264, nullary_writes, unary_writes, binary_writes, ternary_writes, reshape_writes, Finset.singleton_subset_iff, List.mem_toFinset]; exact List.mem_map_of_mem (by decide),
    by simp only [o265, nullary_writes, unary_writes, binary_writes, ternary_writes, reshape_writes, Finset.singleton_subset_iff, List.mem_toFinset]; exact List.mem_map_of_mem (by decide),
    by simp only [o266, nullary_writes, unary_writes, binary_writes, ternary_writes, reshape_writes, Finset.singleton_subset_iff, List.mem_toFinset]; exact List.mem_map_of_mem (by decide),
    by simp only [o267, nullary_writes, unary_writes, binary_writes, ternary_writes, reshape_writes, Finset.singleton_subset_iff, List.mem_toFinset]; exact List.mem_map_of_mem (by decide),
    by simp only [o268, nullary_writes, unary_writes, binary_writes, ternary_writes, reshape_writes, Finset.singleton_subset_iff, List.mem_toFinset]; exact List.mem_map_of_mem (by decide),
    by simp only [o269, nullary_writes, unary_writes, binary_writes, ternary_writes, reshape_writes, Finset.singleton_subset_iff, List.mem_toFinset]; exact List.mem_map_of_mem (by decide),
    by simp only [o270, nullary_writes, unary_writes, binary_writes, ternary_writes, reshape_writes, Finset.singleton_subset_iff, List.mem_toFinset]; exact List.mem_map_of_mem (by decide)⟩

/-- A buffer the stage does not write keeps its contents through it. -/
theorem cl1N_keep (W : Valuation τ sig (Elt F)) (r : Ref sig .tc) (h : r ∉ cl1N_W) :
    after cl1N W (no_index (Proc.devRef .tc r)) = W (Proc.devRef .tc r) :=
  after_of_writes_sub cl1N W cl1N_writes h

set_option maxRecDepth 8192 in
set_option maxHeartbeats 2000000 in
/-- The stage's result, as the operations' composed term of the contents going in. -/
theorem cl1N_out_v170 (W : Valuation τ sig (Elt Ideal)) :
    after (cl1N (F := Ideal)) W (no_index (Proc.devRef .tc main_v170))
      = (addf (F := Ideal) (φ := .f32) (mulf (F := Ideal) (φ := .f32) (mulf (F := Ideal) (φ := .f32) (subf (F := Ideal) (φ := .f32) (W (main_v151 : DevRef τ sig) : FVec Ideal S50000x128 .f32) (broadcastInDim S50000x128 ![0, 1] bcast_S1x128_S50000x128_0_1 (broadcastInDim S1x128 ![1] bcast_S128_S1x128_1 (W (main_v154 : DevRef τ sig) : FVec Ideal S128 .f32)))) (broadcastInDim S50000x128 ![0, 1] bcast_S1x128_S50000x128_0_1 (broadcastInDim S1x128 ![1] bcast_S128_S1x128_1 (Host.rsqrt (F := Ideal) (φ := .f32) (addf (F := Ideal) (φ := .f32) (W (main_v155 : DevRef τ sig) : FVec Ideal S128 .f32) (broadcastInDim S128 ![] bcast_S_S128 (constant (F := Ideal) S_ .f32 0x3727C5AC#32))))))) (broadcastInDim S50000x128 ![0, 1] bcast_S1x128_S50000x128_0_1 (broadcastInDim S1x128 ![1] bcast_S128_S1x128_1 (W (main_arg14 : DevRef τ sig) : FVec Ideal S128 .f32)))) (broadcastInDim S50000x128 ![0, 1] bcast_S1x128_S50000x128_0_1 (broadcastInDim S1x128 ![1] bcast_S128_S1x128_1 (W (main_arg15 : DevRef τ sig) : FVec Ideal S128 .f32)))) := by
  simp only [cl1N, o255, o256, o257, o258, o259, o260, o261, o262, o263, o264, o265, o266, o267, o268, o269, o270]
  after_results_simp
  try rfl

end Cert.ReferenceIdeal.RefRun

end
-- ==== Proof.RefRunStL2.lean ====
/-
  The second layer of the second encoder, stage by stage: what each stage writes, that it leaves every other buffer
  alone, and its result as the composed term of the contents going in.
-/
import proofs.«106426_j33148557590872_1_alg».proof.Proof.RefRunChunks
import Idealize.ShloMosaic.PureOps.Ideal

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The buffers the stage writes. -/
abbrev cl2D_W : List (Ref sig .tc) := [main_v171]

theorem cl2D_writes : (cl2D : List (HloOp τ sig (Elt F))).Forall fun op => op.writes ⊆ (cl2D_W.map (Proc.devRef (τ := τ) .tc)).toFinset := by
  simp only [cl2D, List.Forall]
  exact (by simp only [o271, nullary_writes, unary_writes, binary_writes, ternary_writes, reshape_writes, Finset.singleton_subset_iff, List.mem_toFinset]; exact List.mem_map_of_mem (by decide))

/-- A buffer the stage does not write keeps its contents through it. -/
theorem cl2D_keep (W : Valuation τ sig (Elt F)) (r : Ref sig .tc) (h : r ∉ cl2D_W) :
    after cl2D W (no_index (Proc.devRef .tc r)) = W (Proc.devRef .tc r) :=
  after_of_writes_sub cl2D W cl2D_writes h

set_option maxRecDepth 8192 in
set_option maxHeartbeats 2000000 in
/-- The stage's result, as the operations' composed term of the contents going in. -/
theorem cl2D_out_v171 (W : Valuation τ sig (Elt Ideal)) :
    after (cl2D (F := Ideal)) W (no_index (Proc.devRef .tc main_v171))
      = (Host.dotGeneral (F := Ideal) (φ₁ := .f32) (φ₂ := .f32) dot_S50000x128_S128x256_S50000x256_1_0_0_1_n_n none (W (main_v170 : DevRef τ sig) : FVec Ideal S50000x128 .f32) (W (main_arg16 : DevRef τ sig) : FVec Ideal S128x256 .f32)) := by
  simp only [cl2D, o271]
  after_results_simp
  try rfl

/-- The buffers the stage writes. -/
abbrev cl2M_W : List (Ref sig .tc) := [main_c_29, main_v172, main_v173, main_c_30, main_v174, main_v175, main_v176, main_v177, main_v178, main_v179, main_v180, main_v181, main_cst_31, main_v182, main_v183, main_v184]

theorem cl2M_writes : (cl2M : List (HloOp τ sig (Elt F))).Forall fun op => op.writes ⊆ (cl2M_W.map (Proc.devRef (τ := τ) .tc)).toFinset := by
  simp only [cl2M, List.Forall]
  exact ⟨by simp only [o272, nullary_writes, unary_writes, binary_writes, ternary_writes, reshape_writes, Finset.singleton_subset_iff, List.mem_toFinset]; exact List.mem_map_of_mem (by decide),
    by simp only [o273, nullary_writes, unary_writes, binary_writes, ternary_writes, reshape_writes, Finset.singleton_subset_iff, List.mem_toFinset]; exact List.mem_map_of_mem (by decide),
    by simp only [o274, nullary_writes, unary_writes, binary_writes, ternary_writes, reshape_writes, Finset.singleton_subset_iff, List.mem_toFinset]; exact List.mem_map_of_mem (by decide),
    by simp only [o275, nullary_writes, unary_writes, binary_writes, ternary_writes, reshape_writes, Finset.singleton_subset_iff, List.mem_toFinset]; exact List.mem_map_of_mem (by decide),
    by simp only [o276, nullary_writes, unary_writes, binary_writes, ternary_writes, reshape_writes, Finset.singleton_subset_iff, List.mem_toFinset]; exact List.mem_map_of_mem (by decide),
    by simp only [o277, nullary_writes, unary_writes, binary_writes, ternary_writes, reshape_writes, Finset.singleton_subset_iff, List.mem_toFinset]; exact List.mem_map_of_mem (by decide),
    by simp only [o278, nullary_writes, unary_writes, binary_writes, ternary_writes, reshape_writes, Finset.singleton_subset_iff, List.mem_toFinset]; exact List.mem_map_of_mem (by decide),
    by simp only [o279, nullary_writes, unary_writes, binary_writes, ternary_writes, reshape_writes, Finset.singleton_subset_iff, List.mem_toFinset]; exact List.mem_map_of_mem (by decide),
    by simp only [o280, nullary_writes, unary_writes, binary_writes, ternary_writes, reshape_writes, Finset.singleton_subset_iff, List.mem_toFinset]; exact List.mem_map_of_mem (by decide),
    by simp only [o281, nullary_writes, unary_writes, binary_writes, ternary_writes, reshape_writes, Finset.singleton_subset_iff, List.mem_toFinset]; exact List.mem_map_of_mem (by decide),
    by simp only [o282, nullary_writes, unary_writes, binary_writes, ternary_writes, reshape_writes, Finset.singleton_subset_iff, List.mem_toFinset]; exact List.mem_map_of_mem (by decide),
    by simp only [o283, nullary_writes, unary_writes, binary_writes, ternary_writes, reshape_writes, Finset.singleton_subset_iff, List.mem_toFinset]; exact List.mem_map_of_mem (by decide),
    by simp only [o284, nullary_writes, unary_writes, binary_writes, ternary_writes, reshape_writes, Finset.singleton_subset_iff, List.mem_toFinset]; exact List.mem_map_of_mem (by decide),
    by simp only [o285, nullary_writes, unary_writes, binary_writes, ternary_writes, reshape_writes, Finset.singleton_subset_iff, List.mem_toFinset]; exact List.mem_map_of_mem (by decide),
    by simp only [o286, nullary_writes, unary_writes, binary_writes, ternary_writes, reshape_writes, Finset.singleton_subset_iff, List.mem_toFinset]; exact List.mem_map_of_mem (by decide),
    by simp only [o287, nullary_writes, unary_writes, binary_writes, ternary_writes, reshape_writes, Finset.singleton_subset_iff, List.mem_toFinset]; exact List.mem_map_of_mem (by decide)⟩

/-- A buffer the stage does not write keeps its contents through it. -/
theorem cl2M_keep (W : Valuation τ sig (Elt F)) (r : Ref sig .tc) (h : r ∉ cl2M_W) :
    after cl2M W (no_index (Proc.devRef .tc r)) = W (Proc.devRef .tc r) :=
  after_of_writes_sub cl2M W cl2M_writes h

set_option maxRecDepth 8192 in
set_option maxHeartbeats 2000000 in
/-- The stage's result, as the operations' composed term of the contents going in. -/
theorem cl2M_out_v184 (W : Valuation τ sig (Elt Ideal)) :
    after (cl2M (F := Ideal)) W (no_index (Proc.devRef .tc main_v184))
      = (Host.scatterAdd (F := Ideal) (φ := .f32) scatter_S50000x256_S800000x1_S800000x256_1_0_0_1 (broadcastInDim S50000x256 ![] bcast_S_S50000x256 (constant (F := Ideal) S_ .f32 0x00000000#32)) (broadcastInDim S800000x1 ![0] bcast_S800000_S800000x1_0 (W (main_v3 : DevRef τ sig) : IVec S800000 32)) (mulf (F := Ideal) (φ := .f32) (Host.gather gather_S50000x256_S800000x1_S800000x256_1_0_n_n_0_1_1256 (W (main_v171 : DevRef τ sig) : FVec Ideal S50000x256 .f32) (broadcastInDim S800000x1 ![0] bcast_S800000_S800000x1_0 (select (cmpi .slt (W (main_v1 : DevRef τ sig) : IVec S800000 32) (broadcastInDim S800000 ![] bcast_S_S800000 (constantI S_ 32 0#32))) (addi (W (main_v1 : DevRef τ sig) : IVec S800000 32) (broadcastInDim S800000 ![] bcast_S_S800000 (constantI S_ 32 50000#32))) (W (main_v1 : DevRef τ sig) : IVec S800000 32)))) (broadcastInDim S800000x256 ![0, 1] bcast_S800000x1_S800000x256_0_1 (broadcastInDim S800000x1 ![0] bcast_S800000_S800000x1_0 (W (main_v25 : DevRef τ sig) : FVec Ideal S800000 .f32))))) := by
  simp only [cl2M, o272, o273, o274, o275, o276, o277, o278, o279, o280, o281, o282, o283, o284, o285, o286, o287]
  after_results_simp
  try rfl

/-- The buffers the stage writes. -/
abbrev cl2C_W : List (Ref sig .tc) := [main_v185, main_v186, main_v187, main_v188, main_v189, main_v190, main_v191]

theorem cl2C_writes : (cl2C : List (HloOp τ sig (Elt F))).Forall fun op => op.writes ⊆ (cl2C_W.map (Proc.devRef (τ := τ) .tc)).toFinset := by
  simp only [cl2C, List.Forall]
  exact ⟨by simp only [o288, nullary_writes, unary_writes, binary_writes, ternary_writes, reshape_writes, Finset.singleton_subset_iff, List.mem_toFinset]; exact List.mem_map_of_mem (by decide),
    by simp only [o289, nullary_writes, unary_writes, binary_writes, ternary_writes, reshape_writes, Finset.singleton_subset_iff, List.mem_toFinset]; exact List.mem_map_of_mem (by decide),
    by simp only [o290, nullary_writes, unary_writes, binary_writes, ternary_writes, reshape_writes, Finset.singleton_subset_iff, List.mem_toFinset]; exact List.mem_map_of_mem (by decide),
    by simp only [o291, nullary_writes, unary_writes, binary_writes, ternary_writes, reshape_writes, Finset.singleton_subset_iff, List.mem_toFinset]; exact List.mem_map_of_mem (by decide),
    by simp only [o292, nullary_writes, unary_writes, binary_writes, ternary_writes, reshape_writes, Finset.singleton_subset_iff, List.mem_toFinset]; exact List.mem_map_of_mem (by decide),
    by simp only [o293, nullary_writes, unary_writes, binary_writes, ternary_writes, reshape_writes, Finset.singleton_subset_iff, List.mem_toFinset]; exact List.mem_map_of_mem (by decide),
    by simp only [o294, nullary_writes, unary_writes, binary_writes, ternary_writes, reshape_writes, Finset.singleton_subset_iff, List.mem_toFinset]; exact List.mem_map_of_mem (by decide)⟩

/-- A buffer the stage does not write keeps its contents through it. -/
theorem cl2C_keep (W : Valuation τ sig (Elt F)) (r : Ref sig .tc) (h : r ∉ cl2C_W) :
    after cl2C W (no_index (Proc.devRef .tc r)) = W (Proc.devRef .tc r) :=
  after_of_writes_sub cl2C W cl2C_writes h

set_option maxRecDepth 8192 in
set_option maxHeartbeats 2000000 in
/-- The stage's result, as the operations' composed term of the contents going in. -/
theorem cl2C_out_v191 (W : Valuation τ sig (Elt Ideal)) :
    after (cl2C (F := Ideal)) W (no_index (Proc.devRef .tc main_v191))
      = (addf (F := Ideal) (φ := .f32) (addf (F := Ideal) (φ := .f32) (W (main_v184 : DevRef τ sig) : FVec Ideal S50000x256 .f32) (mulf (F := Ideal) (φ := .f32) (W (main_v171 : DevRef τ sig) : FVec Ideal S50000x256 .f32) (broadcastInDim S50000x256 ![0, 1] bcast_S50000x1_S50000x256_0_1 (broadcastInDim S50000x1 ![0] bcast_S50000_S50000x1_0 (W (main_v26 : DevRef τ sig) : FVec Ideal S50000 .f32))))) (broadcastInDim S50000x256 ![0, 1] bcast_S1x256_S50000x256_0_1 (broadcastInDim S1x256 ![1] bcast_S256_S1x256_1 (W (main_arg17 : DevRef τ sig) : FVec Ideal S256 .f32)))) := by
  simp only [cl2C, o288, o289, o290, o291, o292, o293, o294]
  after_results_simp
  try rfl

/-- The buffers the stage writes. -/
abbrev cl2R_W : List (Ref sig .tc) := [main_call6_cst, main_call6_v0, main_v192]

theorem cl2R_writes : (cl2R : List (HloOp τ sig (Elt F))).Forall fun op => op.writes ⊆ (cl2R_W.map (Proc.devRef (τ := τ) .tc)).toFinset := by
  simp only [cl2R, List.Forall]
  exact ⟨by simp only [o295, nullary_writes, unary_writes, binary_writes, ternary_writes, reshape_writes, Finset.singleton_subset_iff, List.mem_toFinset]; exact List.mem_map_of_mem (by decide),
    by simp only [o296, nullary_writes, unary_writes, binary_writes, ternary_writes, reshape_writes, Finset.singleton_subset_iff, List.mem_toFinset]; exact List.mem_map_of_mem (by decide),
    by simp only [o297, nullary_writes, unary_writes, binary_writes, ternary_writes, reshape_writes, Finset.singleton_subset_iff, List.mem_toFinset]; exact List.mem_map_of_mem (by decide)⟩

/-- A buffer the stage does not write keeps its contents through it. -/
theorem cl2R_keep (W : Valuation τ sig (Elt F)) (r : Ref sig .tc) (h : r ∉ cl2R_W) :
    after cl2R W (no_index (Proc.devRef .tc r)) = W (Proc.devRef .tc r) :=
  after_of_writes_sub cl2R W cl2R_writes h

set_option maxRecDepth 8192 in
set_option maxHeartbeats 2000000 in
/-- The stage's result, as the operations' composed term of the contents going in. -/
theorem cl2R_out_v192 (W : Valuation τ sig (Elt Ideal)) :
    after (cl2R (F := Ideal)) W (no_index (Proc.devRef .tc main_v192))
      = (maximumf (F := Ideal) (φ := .f32) (W (main_v191 : DevRef τ sig) : FVec Ideal S50000x256 .f32) (broadcastInDim S50000x256 ![] bcast_S_S50000x256 (constant (F := Ideal) S_ .f32 0x00000000#32))) := by
  simp only [cl2R, o295, o296, o297]
  after_results_simp
  try rfl

/-- The buffers the stage writes. -/
abbrev cl2S_W : List (Ref sig .tc) := [main_cst_32, main_v193, main_cst_33, main_v194, main_v195]

theorem cl2S_writes : (cl2S : List (HloOp τ sig (Elt F))).Forall fun op => op.writes ⊆ (cl2S_W.map (Proc.devRef (τ := τ) .tc)).toFinset := by
  simp only [cl2S, List.Forall]
  exact ⟨by simp only [o298, nullary_writes, unary_writes, binary_writes, ternary_writes, reshape_writes, Finset.singleton_subset_iff, List.mem_toFinset]; exact List.mem_map_of_mem (by decide),
    by simp only [o299, nullary_writes, unary_writes, binary_writes, ternary_writes, reshape_writes, Finset.singleton_subset_iff, List.mem_toFinset]; exact List.mem_map_of_mem (by decide),
    by simp only [o300, nullary_writes, unary_writes, binary_writes, ternary_writes, reshape_writes, Finset.singleton_subset_iff, List.mem_toFinset]; exact List.mem_map_of_mem (by decide),
    by simp only [o301, nullary_writes, unary_writes, binary_writes, ternary_writes, reshape_writes, Finset.singleton_subset_iff, List.mem_toFinset]; exact List.mem_map_of_mem (by decide),
    by simp only [o302, nullary_writes, unary_writes, binary_writes, ternary_writes, reshape_writes, Finset.singleton_subset_iff, List.mem_toFinset]; exact List.mem_map_of_mem (by decide)⟩

/-- A buffer the stage does not write keeps its contents through it. -/
theorem cl2S_keep (W : Valuation τ sig (Elt F)) (r : Ref sig .tc) (h : r ∉ cl2S_W) :
    after cl2S W (no_index (Proc.devRef .tc r)) = W (Proc.devRef .tc r) :=
  after_of_writes_sub cl2S W cl2S_writes h

set_option maxRecDepth 8192 in
set_option maxHeartbeats 2000000 in
/-- The stage's result, as the operations' composed term of the contents going in. -/
theorem cl2S_out_v195 (W : Valuation τ sig (Elt Ideal)) :
    after (cl2S (F := Ideal)) W (no_index (Proc.devRef .tc main_v195))
      = (Host.divf (F := Ideal) (φ := .f32) (Host.reduceAdd (F := Ideal) (φ := .f32) (W (main_v192 : DevRef τ sig) : FVec Ideal S50000x256 .f32) (constant (F := Ideal) S_ .f32 0x00000000#32) reducesTo_S50000x256_S256_d0 h_S_) (broadcastInDim S256 ![] bcast_S_S256 (constant (F := Ideal) S_ .f32 0x47435000#32))) := by
  simp only [cl2S, o298, o299, o300, o301, o302]
  after_results_simp
  try rfl

/-- The buffers the stage writes. -/
abbrev cl2V_W : List (Ref sig .tc) := [main_c_34, main_call7_cst, main_call7_v0, main_call7_v1, main_call7_cst_0, main_call7_v2, main_call7_v3, main_call7_v4, main_call7_v5, main_call7_v6, main_call7_v7, main_call7_cst_1, main_call7_v8, main_call7_cst_2, main_call7_v9, main_call7_v10, main_call7_v11, main_call7_cst_3, main_call7_v12, main_call7_cst_4, main_call7_call0_v0, main_call7_call0_v1, main_v196]

theorem cl2V_writes : (cl2V : List (HloOp τ sig (Elt F))).Forall fun op => op.writes ⊆ (cl2V_W.map (Proc.devRef (τ := τ) .tc)).toFinset := by
  simp only [cl2V, List.Forall]
  exact ⟨by simp only [o303, nullary_writes, unary_writes, binary_writes, ternary_writes, reshape_writes, Finset.singleton_subset_iff, List.mem_toFinset]; exact List.mem_map_of_mem (by decide),
    by simp only [o304, nullary_writes, unary_writes, binary_writes, ternary_writes, reshape_writes, Finset.singleton_subset_iff, List.mem_toFinset]; exact List.mem_map_of_mem (by decide),
    by simp only [o305, nullary_writes, unary_writes, binary_writes, ternary_writes, reshape_writes, Finset.singleton_subset_iff, List.mem_toFinset]; exact List.mem_map_of_mem (by decide),
    by simp only [o306, nullary_writes, unary_writes, binary_writes, ternary_writes, reshape_writes, Finset.singleton_subset_iff, List.mem_toFinset]; exact List.mem_map_of_mem (by decide),
    by simp only [o307, nullary_writes, unary_writes, binary_writes, ternary_writes, reshape_writes, Finset.singleton_subset_iff, List.mem_toFinset]; exact List.mem_map_of_mem (by decide),
    by simp only [o308, nullary_writes, unary_writes, binary_writes, ternary_writes, reshape_writes, Finset.singleton_subset_iff, List.mem_toFinset]; exact List.mem_map_of_mem (by decide),
    by simp only [o309, nullary_writes, unary_writes, binary_writes, ternary_writes, reshape_writes, Finset.singleton_subset_iff, List.mem_toFinset]; exact List.mem_map_of_mem (by decide),
    by simp only [o310, nullary_writes, unary_writes, binary_writes, ternary_writes, reshape_writes, Finset.singleton_subset_iff, List.mem_toFinset]; exact List.mem_map_of_mem (by decide),
    by simp only [o311, nullary_writes, unary_writes, binary_writes, ternary_writes, reshape_writes, Finset.singleton_subset_iff, List.mem_toFinset]; exact List.mem_map_of_mem (by decide),
    by simp only [o312, nullary_writes, unary_writes, binary_writes, ternary_writes, reshape_writes, Finset.singleton_subset_iff, List.mem_toFinset]; exact List.mem_map_of_mem (by decide),
    by simp only [o313, nullary_writes, unary_writes, binary_writes, ternary_writes, reshape_writes, Finset.singleton_subset_iff, List.mem_toFinset]; exact List.mem_map_of_mem (by decide),
    by simp only [o314, nullary_writes, unary_writes, binary_writes, ternary_writes, reshape_writes, Finset.singleton_subset_iff, List.mem_toFinset]; exact List.mem_map_of_mem (by decide),
    by simp only [o315, nullary_writes, unary_writes, binary_writes, ternary_writes, reshape_writes, Finset.singleton_subset_iff, List.mem_toFinset]; exact List.mem_map_of_mem (by decide),
    by simp only [o316, nullary_writes, unary_writes, binary_writes, ternary_writes, reshape_writes, Finset.singleton_subset_iff, List.mem_toFinset]; exact List.mem_map_of_mem (by decide),
    by simp only [o317, nullary_writes, unary_writes, binary_writes, ternary_writes, reshape_writes, Finset.singleton_subset_iff, List.mem_toFinset]; exact List.mem_map_of_mem (by decide),
    by simp only [o318, nullary_writes, unary_writes, binary_writes, ternary_writes, reshape_writes, Finset.singleton_subset_iff, List.mem_toFinset]; exact List.mem_map_of_mem (by decide),
    by simp only [o319, nullary_writes, unary_writes, binary_writes, ternary_writes, reshape_writes, Finset.singleton_subset_iff, List.mem_toFinset]; exact List.mem_map_of_mem (by decide),
    by simp only [o320, nullary_writes, unary_writes, binary_writes, ternary_writes, reshape_writes, Finset.singleton_subset_iff, List.mem_toFinset]; exact List.mem_map_of_mem (by decide),
    by simp only [o321, nullary_writes, unary_writes, binary_writes, ternary_writes, reshape_writes, Finset.singleton_subset_iff, List.mem_toFinset]; exact List.mem_map_of_mem (by decide),
    by simp only [o322, nullary_writes, unary_writes, binary_writes, ternary_writes, reshape_writes, Finset.singleton_subset_iff, List.mem_toFinset]; exact List.mem_map_of_mem (by decide),
    by simp only [o323, nullary_writes, unary_writes, binary_writes, ternary_writes, reshape_writes, Finset.singleton_subset_iff, List.mem_toFinset]; exact List.mem_map_of_mem (by decide),
    by simp only [o324, nullary_writes, unary_writes, binary_writes, ternary_writes, reshape_writes, Finset.singleton_subset_iff, List.mem_toFinset]; exact List.mem_map_of_mem (by decide),
    by simp only [o325, nullary_writes, unary_writes, binary_writes, ternary_writes, reshape_writes, Finset.singleton_subset_iff, List.mem_toFinset]; exact List.mem_map_of_mem (by decide)⟩

/-- A buffer the stage does not write keeps its contents through it. -/
theorem cl2V_keep (W : Valuation τ sig (Elt F)) (r : Ref sig .tc) (h : r ∉ cl2V_W) :
    after cl2V W (no_index (Proc.devRef .tc r)) = W (Proc.devRef .tc r) :=
  after_of_writes_sub cl2V W cl2V_writes h

set_option maxRecDepth 8192 in
set_option maxHeartbeats 2000000 in
/-- The stage's result, as the operations' composed term of the contents going in. -/
theorem cl2V_out_v196 (W : Valuation τ sig (Elt Ideal)) :
    after (cl2V (F := Ideal)) W (no_index (Proc.devRef .tc main_v196))
      = (select (broadcastInDim S256 ![] bcast_S_S256 (cmpf (F := Ideal) (φ := .f32) .ogt (subf (F := Ideal) (φ := .f32) (constant (F := Ideal) S_ .f32 0x47435000#32) (sitofp (F := Ideal) .f32 (constantI S_ 32 0#32))) (constant (F := Ideal) S_ .f32 0x00000000#32))) (Host.divf (F := Ideal) (φ := .f32) (Host.reduceAdd (F := Ideal) (φ := .f32) (mulf (F := Ideal) (φ := .f32) (subf (F := Ideal) (φ := .f32) (W (main_v192 : DevRef τ sig) : FVec Ideal S50000x256 .f32) (broadcastInDim S50000x256 ![0, 1] bcast_S1x256_S50000x256_0_1 (Host.divf (F := Ideal) (φ := .f32) (broadcastInDim S1x256 ![1] bcast_S256_S1x256_1 (Host.reduceAdd (F := Ideal) (φ := .f32) (W (main_v192 : DevRef τ sig) : FVec Ideal S50000x256 .f32) (constant (F := Ideal) S_ .f32 0x00000000#32) reducesTo_S50000x256_S256_d0 h_S_)) (broadcastInDim S1x256 ![] bcast_S_S1x256 (constant (F := Ideal) S_ .f32 0x47435000#32))))) (subf (F := Ideal) (φ := .f32) (W (main_v192 : DevRef τ sig) : FVec Ideal S50000x256 .f32) (broadcastInDim S50000x256 ![0, 1] bcast_S1x256_S50000x256_0_1 (Host.divf (F := Ideal) (φ := .f32) (broadcastInDim S1x256 ![1] bcast_S256_S1x256_1 (Host.reduceAdd (F := Ideal) (φ := .f32) (W (main_v192 : DevRef τ sig) : FVec Ideal S50000x256 .f32) (constant (F := Ideal) S_ .f32 0x00000000#32) reducesTo_S50000x256_S256_d0 h_S_)) (broadcastInDim S1x256 ![] bcast_S_S1x256 (constant (F := Ideal) S_ .f32 0x47435000#32)))))) (constant (F := Ideal) S_ .f32 0x00000000#32) reducesTo_S50000x256_S256_d0 h_S_) (broadcastInDim S256 ![] bcast_S_S256 (subf (F := Ideal) (φ := .f32) (constant (F := Ideal) S_ .f32 0x47435000#32) (sitofp (F := Ideal) .f32 (constantI S_ 32 0#32))))) (broadcastInDim S256 ![] bcast_S_S256 (id (constant (F := Ideal) S_ .f32 0x7FC00000#32)))) := by
  simp only [cl2V, o303, o304, o305, o306, o307, o308, o309, o310, o311, o312, o313, o314, o315, o316, o317, o318, o319, o320, o321, o322, o323, o324, o325]
  after_results_simp
  try rfl

/-- The buffers the stage writes. -/
abbrev cl2N_W : List (Ref sig .tc) := [main_v197, main_v198, main_v199, main_cst_35, main_v200, main_v201, main_v202, main_v203, main_v204, main_v205, main_v206, main_v207, main_v208, main_v209, main_v210, main_v211]

theorem cl2N_writes : (cl2N : List (HloOp τ sig (Elt F))).Forall fun op => op.writes ⊆ (cl2N_W.map (Proc.devRef (τ := τ) .tc)).toFinset := by
  simp only [cl2N, List.Forall]
  exact ⟨by simp only [o326, nullary_writes, unary_writes, binary_writes, ternary_writes, reshape_writes, Finset.singleton_subset_iff, List.mem_toFinset]; exact List.mem_map_of_mem (by decide),
    by simp only [o327, nullary_writes, unary_writes, binary_writes, ternary_writes, reshape_writes, Finset.singleton_subset_iff, List.mem_toFinset]; exact List.mem_map_of_mem (by decide),
    by simp only [o328, nullary_writes, unary_writes, binary_writes, ternary_writes, reshape_writes, Finset.singleton_subset_iff, List.mem_toFinset]; exact List.mem_map_of_mem (by decide),
    by simp only [o329, nullary_writes, unary_writes, binary_writes, ternary_writes, reshape_writes, Finset.singleton_subset_iff, List.mem_toFinset]; exact List.mem_map_of_mem (by decide),
    by simp only [o330, nullary_writes, unary_writes, binary_writes, ternary_writes, reshape_writes, Finset.singleton_subset_iff, List.mem_toFinset]; exact List.mem_map_of_mem (by decide),
    by simp only [o331, nullary_writes, unary_writes, binary_writes, ternary_writes, reshape_writes, Finset.singleton_subset_iff, List.mem_toFinset]; exact List.mem_map_of_mem (by decide),
    by simp only [o332, nullary_writes, unary_writes, binary_writes, ternary_writes, reshape_writes, Finset.singleton_subset_iff, List.mem_toFinset]; exact List.mem_map_of_mem (by decide),
    by simp only [o333, nullary_writes, unary_writes, binary_writes, ternary_writes, reshape_writes, Finset.singleton_subset_iff, List.mem_toFinset]; exact List.mem_map_of_mem (by decide),
    by simp only [o334, nullary_writes, unary_writes, binary_writes, ternary_writes, reshape_writes, Finset.singleton_subset_iff, List.mem_toFinset]; exact List.mem_map_of_mem (by decide),
    by simp only [o335, nullary_writes, unary_writes, binary_writes, ternary_writes, reshape_writes, Finset.singleton_subset_iff, List.mem_toFinset]; exact List.mem_map_of_mem (by decide),
    by simp only [o336, nullary_writes, unary_writes, binary_writes, ternary_writes, reshape_writes, Finset.singleton_subset_iff, List.mem_toFinset]; exact List.mem_map_of_mem (by decide),
    by simp only [o337, nullary_writes, unary_writes, binary_writes, ternary_writes, reshape_writes, Finset.singleton_subset_iff, List.mem_toFinset]; exact List.mem_map_of_mem (by decide),
    by simp only [o338, nullary_writes, unary_writes, binary_writes, ternary_writes, reshape_writes, Finset.singleton_subset_iff, List.mem_toFinset]; exact List.mem_map_of_mem (by decide),
    by simp only [o339, nullary_writes, unary_writes, binary_writes, ternary_writes, reshape_writes, Finset.singleton_subset_iff, List.mem_toFinset]; exact List.mem_map_of_mem (by decide),
    by simp only [o340, nullary_writes, unary_writes, binary_writes, ternary_writes, reshape_writes, Finset.singleton_subset_iff, List.mem_toFinset]; exact List.mem_map_of_mem (by decide),
    by simp only [o341, nullary_writes, unary_writes, binary_writes, ternary_writes, reshape_writes, Finset.singleton_subset_iff, List.mem_toFinset]; exact List.mem_map_of_mem (by decide)⟩

/-- A buffer the stage does not write keeps its contents through it. -/
theorem cl2N_keep (W : Valuation τ sig (Elt F)) (r : Ref sig .tc) (h : r ∉ cl2N_W) :
    after cl2N W (no_index (Proc.devRef .tc r)) = W (Proc.devRef .tc r) :=
  after_of_writes_sub cl2N W cl2N_writes h

set_option maxRecDepth 8192 in
set_option maxHeartbeats 2000000 in
/-- The stage's result, as the operations' composed term of the contents going in. -/
theorem cl2N_out_v211 (W : Valuation τ sig (Elt Ideal)) :
    after (cl2N (F := Ideal)) W (no_index (Proc.devRef .tc main_v211))
      = (addf (F := Ideal) (φ := .f32) (mulf (F := Ideal) (φ := .f32) (mulf (F := Ideal) (φ := .f32) (subf (F := Ideal) (φ := .f32) (W (main_v192 : DevRef τ sig) : FVec Ideal S50000x256 .f32) (broadcastInDim S50000x256 ![0, 1] bcast_S1x256_S50000x256_0_1 (broadcastInDim S1x256 ![1] bcast_S256_S1x256_1 (W (main_v195 : DevRef τ sig) : FVec Ideal S256 .f32)))) (broadcastInDim S50000x256 ![0, 1] bcast_S1x256_S50000x256_0_1 (broadcastInDim S1x256 ![1] bcast_S256_S1x256_1 (Host.rsqrt (F := Ideal) (φ := .f32) (addf (F := Ideal) (φ := .f32) (W (main_v196 : DevRef τ sig) : FVec Ideal S256 .f32) (broadcastInDim S256 ![] bcast_S_S256 (constant (F := Ideal) S_ .f32 0x3727C5AC#32))))))) (broadcastInDim S50000x256 ![0, 1] bcast_S1x256_S50000x256_0_1 (broadcastInDim S1x256 ![1] bcast_S256_S1x256_1 (W (main_arg18 : DevRef τ sig) : FVec Ideal S256 .f32)))) (broadcastInDim S50000x256 ![0, 1] bcast_S1x256_S50000x256_0_1 (broadcastInDim S1x256 ![1] bcast_S256_S1x256_1 (W (main_arg19 : DevRef τ sig) : FVec Ideal S256 .f32)))) := by
  simp only [cl2N, o326, o327, o328, o329, o330, o331, o332, o333, o334, o335, o336, o337, o338, o339, o340, o341]
  after_results_simp
  try rfl

end Cert.ReferenceIdeal.RefRun

end
-- ==== Proof.RefRunStL3.lean ====
/-
  The third layer of the second encoder, stage by stage: what each stage writes, that it leaves every other buffer
  alone, and its result as the composed term of the contents going in.
-/
import proofs.«106426_j33148557590872_1_alg».proof.Proof.RefRunChunks
import Idealize.ShloMosaic.PureOps.Ideal

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The buffers the stage writes. -/
abbrev cl3D_W : List (Ref sig .tc) := [main_v212]

theorem cl3D_writes : (cl3D : List (HloOp τ sig (Elt F))).Forall fun op => op.writes ⊆ (cl3D_W.map (Proc.devRef (τ := τ) .tc)).toFinset := by
  simp only [cl3D, List.Forall]
  exact (by simp only [o342, nullary_writes, unary_writes, binary_writes, ternary_writes, reshape_writes, Finset.singleton_subset_iff, List.mem_toFinset]; exact List.mem_map_of_mem (by decide))

/-- A buffer the stage does not write keeps its contents through it. -/
theorem cl3D_keep (W : Valuation τ sig (Elt F)) (r : Ref sig .tc) (h : r ∉ cl3D_W) :
    after cl3D W (no_index (Proc.devRef .tc r)) = W (Proc.devRef .tc r) :=
  after_of_writes_sub cl3D W cl3D_writes h

set_option maxRecDepth 8192 in
set_option maxHeartbeats 2000000 in
/-- The stage's result, as the operations' composed term of the contents going in. -/
theorem cl3D_out_v212 (W : Valuation τ sig (Elt Ideal)) :
    after (cl3D (F := Ideal)) W (no_index (Proc.devRef .tc main_v212))
      = (Host.dotGeneral (F := Ideal) (φ₁ := .f32) (φ₂ := .f32) dot_S50000x256_S256x64_S50000x64_1_0_0_1_n_n none (W (main_v211 : DevRef τ sig) : FVec Ideal S50000x256 .f32) (W (main_arg20 : DevRef τ sig) : FVec Ideal S256x64 .f32)) := by
  simp only [cl3D, o342]
  after_results_simp
  try rfl

/-- The buffers the stage writes. -/
abbrev cl3M_W : List (Ref sig .tc) := [main_c_36, main_v213, main_v214, main_c_37, main_v215, main_v216, main_v217, main_v218, main_v219, main_v220, main_v221, main_v222, main_cst_38, main_v223, main_v224, main_v225]

theorem cl3M_writes : (cl3M : List (HloOp τ sig (Elt F))).Forall fun op => op.writes ⊆ (cl3M_W.map (Proc.devRef (τ := τ) .tc)).toFinset := by
  simp only [cl3M, List.Forall]
  exact ⟨by simp only [o343, nullary_writes, unary_writes, binary_writes, ternary_writes, reshape_writes, Finset.singleton_subset_iff, List.mem_toFinset]; exact List.mem_map_of_mem (by decide),
    by simp only [o344, nullary_writes, unary_writes, binary_writes, ternary_writes, reshape_writes, Finset.singleton_subset_iff, List.mem_toFinset]; exact List.mem_map_of_mem (by decide),
    by simp only [o345, nullary_writes, unary_writes, binary_writes, ternary_writes, reshape_writes, Finset.singleton_subset_iff, List.mem_toFinset]; exact List.mem_map_of_mem (by decide),
    by simp only [o346, nullary_writes, unary_writes, binary_writes, ternary_writes, reshape_writes, Finset.singleton_subset_iff, List.mem_toFinset]; exact List.mem_map_of_mem (by decide),
    by simp only [o347, nullary_writes, unary_writes, binary_writes, ternary_writes, reshape_writes, Finset.singleton_subset_iff, List.mem_toFinset]; exact List.mem_map_of_mem (by decide),
    by simp only [o348, nullary_writes, unary_writes, binary_writes, ternary_writes, reshape_writes, Finset.singleton_subset_iff, List.mem_toFinset]; exact List.mem_map_of_mem (by decide),
    by simp only [o349, nullary_writes, unary_writes, binary_writes, ternary_writes, reshape_writes, Finset.singleton_subset_iff, List.mem_toFinset]; exact List.mem_map_of_mem (by decide),
    by simp only [o350, nullary_writes, unary_writes, binary_writes, ternary_writes, reshape_writes, Finset.singleton_subset_iff, List.mem_toFinset]; exact List.mem_map_of_mem (by decide),
    by simp only [o351, nullary_writes, unary_writes, binary_writes, ternary_writes, reshape_writes, Finset.singleton_subset_iff, List.mem_toFinset]; exact List.mem_map_of_mem (by decide),
    by simp only [o352, nullary_writes, unary_writes, binary_writes, ternary_writes, reshape_writes, Finset.singleton_subset_iff, List.mem_toFinset]; exact List.mem_map_of_mem (by decide),
    by simp only [o353, nullary_writes, unary_writes, binary_writes, ternary_writes, reshape_writes, Finset.singleton_subset_iff, List.mem_toFinset]; exact List.mem_map_of_mem (by decide),
    by simp only [o354, nullary_writes, unary_writes, binary_writes, ternary_writes, reshape_writes, Finset.singleton_subset_iff, List.mem_toFinset]; exact List.mem_map_of_mem (by decide),
    by simp only [o355, nullary_writes, unary_writes, binary_writes, ternary_writes, reshape_writes, Finset.singleton_subset_iff, List.mem_toFinset]; exact List.mem_map_of_mem (by decide),
    by simp only [o356, nullary_writes, unary_writes, binary_writes, ternary_writes, reshape_writes, Finset.singleton_subset_iff, List.mem_toFinset]; exact List.mem_map_of_mem (by decide),
    by simp only [o357, nullary_writes, unary_writes, binary_writes, ternary_writes, reshape_writes, Finset.singleton_subset_iff, List.mem_toFinset]; exact List.mem_map_of_mem (by decide),
    by simp only [o358, nullary_writes, unary_writes, binary_writes, ternary_writes, reshape_writes, Finset.singleton_subset_iff, List.mem_toFinset]; exact List.mem_map_of_mem (by decide)⟩

/-- A buffer the stage does not write keeps its contents through it. -/
theorem cl3M_keep (W : Valuation τ sig (Elt F)) (r : Ref sig .tc) (h : r ∉ cl3M_W) :
    after cl3M W (no_index (Proc.devRef .tc r)) = W (Proc.devRef .tc r) :=
  after_of_writes_sub cl3M W cl3M_writes h

set_option maxRecDepth 8192 in
set_option maxHeartbeats 2000000 in
/-- The stage's result, as the operations' composed term of the contents going in. -/
theorem cl3M_out_v225 (W : Valuation τ sig (Elt Ideal)) :
    after (cl3M (F := Ideal)) W (no_index (Proc.devRef .tc main_v225))
      = (Host.scatterAdd (F := Ideal) (φ := .f32) scatter_S50000x64_S800000x1_S800000x64_1_0_0_1 (broadcastInDim S50000x64 ![] bcast_S_S50000x64 (constant (F := Ideal) S_ .f32 0x00000000#32)) (broadcastInDim S800000x1 ![0] bcast_S800000_S800000x1_0 (W (main_v3 : DevRef τ sig) : IVec S800000 32)) (mulf (F := Ideal) (φ := .f32) (Host.gather gather_S50000x64_S800000x1_S800000x64_1_0_n_n_0_1_164 (W (main_v212 : DevRef τ sig) : FVec Ideal S50000x64 .f32) (broadcastInDim S800000x1 ![0] bcast_S800000_S800000x1_0 (select (cmpi .slt (W (main_v1 : DevRef τ sig) : IVec S800000 32) (broadcastInDim S800000 ![] bcast_S_S800000 (constantI S_ 32 0#32))) (addi (W (main_v1 : DevRef τ sig) : IVec S800000 32) (broadcastInDim S800000 ![] bcast_S_S800000 (constantI S_ 32 50000#32))) (W (main_v1 : DevRef τ sig) : IVec S800000 32)))) (broadcastInDim S800000x64 ![0, 1] bcast_S800000x1_S800000x64_0_1 (broadcastInDim S800000x1 ![0] bcast_S800000_S800000x1_0 (W (main_v25 : DevRef τ sig) : FVec Ideal S800000 .f32))))) := by
  simp only [cl3M, o343, o344, o345, o346, o347, o348, o349, o350, o351, o352, o353, o354, o355, o356, o357, o358]
  after_results_simp
  try rfl

/-- The buffers the stage writes. -/
abbrev cl3C_W : List (Ref sig .tc) := [main_v226, main_v227, main_v228, main_v229, main_v230, main_v231, main_v232]

theorem cl3C_writes : (cl3C : List (HloOp τ sig (Elt F))).Forall fun op => op.writes ⊆ (cl3C_W.map (Proc.devRef (τ := τ) .tc)).toFinset := by
  simp only [cl3C, List.Forall]
  exact ⟨by simp only [o359, nullary_writes, unary_writes, binary_writes, ternary_writes, reshape_writes, Finset.singleton_subset_iff, List.mem_toFinset]; exact List.mem_map_of_mem (by decide),
    by simp only [o360, nullary_writes, unary_writes, binary_writes, ternary_writes, reshape_writes, Finset.singleton_subset_iff, List.mem_toFinset]; exact List.mem_map_of_mem (by decide),
    by simp only [o361, nullary_writes, unary_writes, binary_writes, ternary_writes, reshape_writes, Finset.singleton_subset_iff, List.mem_toFinset]; exact List.mem_map_of_mem (by decide),
    by simp only [o362, nullary_writes, unary_writes, binary_writes, ternary_writes, reshape_writes, Finset.singleton_subset_iff, List.mem_toFinset]; exact List.mem_map_of_mem (by decide),
    by simp only [o363, nullary_writes, unary_writes, binary_writes, ternary_writes, reshape_writes, Finset.singleton_subset_iff, List.mem_toFinset]; exact List.mem_map_of_mem (by decide),
    by simp only [o364, nullary_writes, unary_writes, binary_writes, ternary_writes, reshape_writes, Finset.singleton_subset_iff, List.mem_toFinset]; exact List.mem_map_of_mem (by decide),
    by simp only [o365, nullary_writes, unary_writes, binary_writes, ternary_writes, reshape_writes, Finset.singleton_subset_iff, List.mem_toFinset]; exact List.mem_map_of_mem (by decide)⟩

/-- A buffer the stage does not write keeps its contents through it. -/
theorem cl3C_keep (W : Valuation τ sig (Elt F)) (r : Ref sig .tc) (h : r ∉ cl3C_W) :
    after cl3C W (no_index (Proc.devRef .tc r)) = W (Proc.devRef .tc r) :=
  after_of_writes_sub cl3C W cl3C_writes h

set_option maxRecDepth 8192 in
set_option maxHeartbeats 2000000 in
/-- The stage's result, as the operations' composed term of the contents going in. -/
theorem cl3C_out_v232 (W : Valuation τ sig (Elt Ideal)) :
    after (cl3C (F := Ideal)) W (no_index (Proc.devRef .tc main_v232))
      = (addf (F := Ideal) (φ := .f32) (addf (F := Ideal) (φ := .f32) (W (main_v225 : DevRef τ sig) : FVec Ideal S50000x64 .f32) (mulf (F := Ideal) (φ := .f32) (W (main_v212 : DevRef τ sig) : FVec Ideal S50000x64 .f32) (broadcastInDim S50000x64 ![0, 1] bcast_S50000x1_S50000x64_0_1 (broadcastInDim S50000x1 ![0] bcast_S50000_S50000x1_0 (W (main_v26 : DevRef τ sig) : FVec Ideal S50000 .f32))))) (broadcastInDim S50000x64 ![0, 1] bcast_S1x64_S50000x64_0_1 (broadcastInDim S1x64 ![1] bcast_S64_S1x64_1 (W (main_arg21 : DevRef τ sig) : FVec Ideal S64 .f32)))) := by
  simp only [cl3C, o359, o360, o361, o362, o363, o364, o365]
  after_results_simp
  try rfl

end Cert.ReferenceIdeal.RefRun

end
-- ==== Proof.LibBnRead.lean ====
/-
  Reading a batch-normalisation's affine map at an index, in the form a host program spells it.

  A per-feature vector of length d (a mean, a reciprocal standard deviation, a scale, a shift) is applied to an
  [N, d] array by broadcasting it first to one row, [1, d], and then along the rows, [N, d]. Read at (p, k), each
  such broadcast is the vector's entry k, whatever the row p; a scalar broadcast to any shape is the scalar. So the
  normalised array at (p, k) is  ((z (p, k) − mean k) · rsqrt (var k + ε)) · g k + b k  on the extended reals, every
  operation the pointwise one. Independent of any program.
-/
import Idealize.ShloMosaic.Lib.ValueIdx
import Idealize.ShloMosaic.Lib.Pipeline.Value
import Idealize.ShloMosaic.PureOps.Ideal
import Idealize.ShloMosaic.PureOps.Ideal.Laws

noncomputable section

namespace Cert.Lib

open Idealize.ShloMosaic Idealize.ShloMosaic.ValueIdx

variable {α : Type}

/-- A length-a vector broadcast to one row [1, a] reads, at (u, i), its entry i. -/
theorem bcast_a_1a_apply {a : ℕ} (x : (⟨1, ![a]⟩ : Shape).Idx → α)
    (h : (⟨1, ![a]⟩ : Shape).BroadcastsInDim ⟨2, ![1, a]⟩ ![1]) (u : Fin 1) (i : Fin a) :
    broadcastInDim ⟨2, ![1, a]⟩ ![1] h x (ix2 u i) = x (ix1 i) := by
  refine broadcastInDim_apply ![1] h x (ix2 u i) (ix1 i) fun ax => ?_
  match ax with
  | ⟨0, _⟩ =>
    show i.val = if a = 1 then 0 else i.val
    split
    · have := i.isLt; omega
    · rfl

/-- One row [1, b] broadcast along the rows to [a, b] reads, at (p, c), the row's entry c. -/
theorem bcast_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- A scalar broadcast to any shape reads, everywhere, the scalar. -/
theorem bcast_scalar_apply {t : Shape} (x : (⟨0, ![]⟩ : Shape).Idx → α)
    (h : (⟨0, ![]⟩ : Shape).BroadcastsInDim t ![]) (j : t.Idx) :
    broadcastInDim t ![] h x j = x ix0 := by
  unfold broadcastInDim
  exact congrArg x (funext fun a => a.elim0)

/-- The normalisation's affine map at (p, k): the per-feature vectors enter at k only. -/
theorem bn_affine_apply {N d : ℕ} (z : FVec Ideal ⟨2, ![N, d]⟩ .f32) (mean var g b : FVec Ideal ⟨1, ![d]⟩ .f32)
    (h0 : (⟨0, ![]⟩ : Shape).BroadcastsInDim ⟨1, ![d]⟩ ![])
    (h1 : (⟨1, ![d]⟩ : Shape).BroadcastsInDim ⟨2, ![1, d]⟩ ![1])
    (h2 : (⟨2, ![1, d]⟩ : Shape).BroadcastsInDim ⟨2, ![N, d]⟩ ![0, 1]) (w : BitVec 32) (p : Fin N) (k : Fin d) :
    addf (mulf (mulf (subf z (broadcastInDim ⟨2, ![N, d]⟩ ![0, 1] h2 (broadcastInDim ⟨2, ![1, d]⟩ ![1] h1 mean)))
        (broadcastInDim ⟨2, ![N, d]⟩ ![0, 1] h2 (broadcastInDim ⟨2, ![1, d]⟩ ![1] h1
          (Host.rsqrt (addf var (broadcastInDim ⟨1, ![d]⟩ ![] h0 (constant (F := Ideal) ⟨0, ![]⟩ .f32 w)))))))
        (broadcastInDim ⟨2, ![N, d]⟩ ![0, 1] h2 (broadcastInDim ⟨2, ![1, d]⟩ ![1] h1 g)))
      (broadcastInDim ⟨2, ![N, d]⟩ ![0, 1] h2 (broadcastInDim ⟨2, ![1, d]⟩ ![1] h1 b)) (ix2 p k)
    = ((z (ix2 p k) - mean (ix1 k)) * Ideal.rsqrt (var (ix1 k) + Ideal.ofBits .f32 w)) * g (ix1 k) + b (ix1 k) := by
  simp only [addf_apply, mulf_apply, subf_apply]
  rw [bcast_1b_ab_apply _ h2 p k, bcast_1b_ab_apply _ h2 p k, bcast_1b_ab_apply _ h2 p k, bcast_1b_ab_apply _ h2 p k,
    bcast_a_1a_apply _ h1 0 k, bcast_a_1a_apply _ h1 0 k, bcast_a_1a_apply _ h1 0 k, bcast_a_1a_apply _ h1 0 k]
  rfl

end Cert.Lib

end
-- ==== Proof.RefOpsA.lean ====
/-
  The reference's host operations as functions of whole arrays of extended reals: each composed term of the
  program's operations, over arbitrary operands, is one of the functions of the shared specification.
-/
import proofs.«106426_j33148557590872_1_alg».proof.Proof.Gen.ReferenceIdeal
import proofs.«106426_j33148557590872_1_alg».proof.Proof.GcnSpec
import proofs.«106426_j33148557590872_1_alg».proof.Proof.LibColumn
import proofs.«106426_j33148557590872_1_alg».proof.Proof.LibBnRead
import proofs.«106426_j33148557590872_1_alg».proof.Proof.LibPlainDot
import Idealize.ShloMosaic.Lib.ValueIdx
import Idealize.ShloMosaic.PureOps.Ideal.Laws

noncomputable section

namespace Cert.ReferenceIdeal.RefOps

open Cert.ReferenceIdeal Idealize.ShloMosaic Idealize.ShloMosaic.ValueIdx
open Cert.ReferenceIdeal.Facts₀ Cert.ReferenceIdeal.Facts

variable [Facts]

/-! ## The convolution's last step -/

/-- Width 128: aggregated messages, plus the node's own row times its self-loop weight (a vector over the nodes, made
    a column and repeated along the row), plus the bias (a vector over the columns, made a row and repeated down). -/
theorem combine128 (agg xw : FVec Ideal S50000x128 .f32) (ns : FVec Ideal S50000 .f32) (b : FVec Ideal S128 .f32) :
    addf (addf agg (mulf xw (broadcastInDim S50000x128 ![0, 1] bcast_S50000x1_S50000x128_0_1
        (broadcastInDim S50000x1 ![0] bcast_S50000_S50000x1_0 ns))))
      (broadcastInDim S50000x128 ![0, 1] bcast_S1x128_S50000x128_0_1 (broadcastInDim S1x128 ![1] bcast_S128_S1x128_1 b))
    = Cert.Gcn.combine agg xw (fun p => ns (ix1 p)) (fun q => b (ix1 q)) := by
  funext j
  obtain ⟨p, q, rfl⟩ : ∃ (p : Fin 50000) (q : Fin 128), j = ix2 p q := ⟨j 0, j 1, eq_ix2 j⟩
  rw [Cert.Gcn.combine_ix2, addf_apply, addf_apply, mulf_apply, Cert.Lib.broadcastInDim_a1_ab_apply,
    Cert.Lib.broadcastInDim_a_a1_apply, Cert.Lib.broadcastInDim_1b_ab_apply, Cert.Lib.broadcastInDim_b_1b_apply]

/-- Width 256: aggregated messages, plus the node's own row times its self-loop weight (a vector over the nodes, made
    a column and repeated along the row), plus the bias (a vector over the columns, made a row and repeated down). -/
theorem combine256 (agg xw : FVec Ideal S50000x256 .f32) (ns : FVec Ideal S50000 .f32) (b : FVec Ideal S256 .f32) :
    addf (addf agg (mulf xw (broadcastInDim S50000x256 ![0, 1] bcast_S50000x1_S50000x256_0_1
        (broadcastInDim S50000x1 ![0] bcast_S50000_S50000x1_0 ns))))
      (broadcastInDim S50000x256 ![0, 1] bcast_S1x256_S50000x256_0_1 (broadcastInDim S1x256 ![1] bcast_S256_S1x256_1 b))
    = Cert.Gcn.combine agg xw (fun p => ns (ix1 p)) (fun q => b (ix1 q)) := by
  funext j
  obtain ⟨p, q, rfl⟩ : ∃ (p : Fin 50000) (q : Fin 256), j = ix2 p q := ⟨j 0, j 1, eq_ix2 j⟩
  rw [Cert.Gcn.combine_ix2, addf_apply, addf_apply, mulf_apply, Cert.Lib.broadcastInDim_a1_ab_apply,
    Cert.Lib.broadcastInDim_a_a1_apply, Cert.Lib.broadcastInDim_1b_ab_apply, Cert.Lib.broadcastInDim_b_1b_apply]

/-- Width 64: aggregated messages, plus the node's own row times its self-loop weight (a vector over the nodes, made
    a column and repeated along the row), plus the bias (a vector over the columns, made a row and repeated down). -/
theorem combine64 (agg xw : FVec Ideal S50000x64 .f32) (ns : FVec Ideal S50000 .f32) (b : FVec Ideal S64 .f32) :
    addf (addf agg (mulf xw (broadcastInDim S50000x64 ![0, 1] bcast_S50000x1_S50000x64_0_1
        (broadcastInDim S50000x1 ![0] bcast_S50000_S50000x1_0 ns))))
      (broadcastInDim S50000x64 ![0, 1] bcast_S1x64_S50000x64_0_1 (broadcastInDim S1x64 ![1] bcast_S64_S1x64_1 b))
    = Cert.Gcn.combine agg xw (fun p => ns (ix1 p)) (fun q => b (ix1 q)) := by
  funext j
  obtain ⟨p, q, rfl⟩ : ∃ (p : Fin 50000) (q : Fin 64), j = ix2 p q := ⟨j 0, j 1, eq_ix2 j⟩
  rw [Cert.Gcn.combine_ix2, addf_apply, addf_apply, mulf_apply, Cert.Lib.broadcastInDim_a1_ab_apply,
    Cert.Lib.broadcastInDim_a_a1_apply, Cert.Lib.broadcastInDim_1b_ab_apply, Cert.Lib.broadcastInDim_b_1b_apply]

/-! ## The messages -/

/-- Width 128: the rows gathered along the edges' sources, each scaled by its edge's weight (a vector over the edges, made
    a column and repeated along the row), summed into the edges' destinations from a zero array. The gather and the
    sum into destinations stay closed: only the scaling is read. -/
theorem messages128 (xw : FVec Ideal S50000x128 .f32) (srcI dstI : IVec S800000x1 32) (ne : FVec Ideal S800000 .f32) :
    Host.scatterAdd scatter_S50000x128_S800000x1_S800000x128_1_0_0_1
      (broadcastInDim S50000x128 ![] bcast_S_S50000x128 (constant (F := Ideal) S_ .f32 0x00000000#32)) dstI
      (mulf (Host.gather gather_S50000x128_S800000x1_S800000x128_1_0_n_n_0_1_1128 xw srcI)
        (broadcastInDim S800000x128 ![0, 1] bcast_S800000x1_S800000x128_0_1
          (broadcastInDim S800000x1 ![0] bcast_S800000_S800000x1_0 ne)))
    = Cert.Gcn.aggregate (fun y => Host.gather gather_S50000x128_S800000x1_S800000x128_1_0_n_n_0_1_1128 y srcI)
        (fun u => Host.scatterAdd scatter_S50000x128_S800000x1_S800000x128_1_0_0_1
          (broadcastInDim S50000x128 ![] bcast_S_S50000x128 (constant (F := Ideal) S_ .f32 0x00000000#32)) dstI u)
        (fun k => ne (ix1 k)) xw := by
  unfold Cert.Gcn.aggregate
  refine congrArg (Host.scatterAdd scatter_S50000x128_S800000x1_S800000x128_1_0_0_1 _ dstI) (funext fun k => ?_)
  obtain ⟨e, q, rfl⟩ : ∃ (e : Fin 800000) (q : Fin 128), k = ix2 e q := ⟨k 0, k 1, eq_ix2 k⟩
  rw [mulf_apply, Cert.Lib.broadcastInDim_a1_ab_apply, Cert.Lib.broadcastInDim_a_a1_apply]

/-- Width 256: the rows gathered along the edges' sources, each scaled by its edge's weight (a vector over the edges, made
    a column and repeated along the row), summed into the edges' destinations from a zero array. The gather and the
    sum into destinations stay closed: only the scaling is read. -/
theorem messages256 (xw : FVec Ideal S50000x256 .f32) (srcI dstI : IVec S800000x1 32) (ne : FVec Ideal S800000 .f32) :
    Host.scatterAdd scatter_S50000x256_S800000x1_S800000x256_1_0_0_1
      (broadcastInDim S50000x256 ![] bcast_S_S50000x256 (constant (F := Ideal) S_ .f32 0x00000000#32)) dstI
      (mulf (Host.gather gather_S50000x256_S800000x1_S800000x256_1_0_n_n_0_1_1256 xw srcI)
        (broadcastInDim S800000x256 ![0, 1] bcast_S800000x1_S800000x256_0_1
          (broadcastInDim S800000x1 ![0] bcast_S800000_S800000x1_0 ne)))
    = Cert.Gcn.aggregate (fun y => Host.gather gather_S50000x256_S800000x1_S800000x256_1_0_n_n_0_1_1256 y srcI)
        (fun u => Host.scatterAdd scatter_S50000x256_S800000x1_S800000x256_1_0_0_1
          (broadcastInDim S50000x256 ![] bcast_S_S50000x256 (constant (F := Ideal) S_ .f32 0x00000000#32)) dstI u)
        (fun k => ne (ix1 k)) xw := by
  unfold Cert.Gcn.aggregate
  refine congrArg (Host.scatterAdd scatter_S50000x256_S800000x1_S800000x256_1_0_0_1 _ dstI) (funext fun k => ?_)
  obtain ⟨e, q, rfl⟩ : ∃ (e : Fin 800000) (q : Fin 256), k = ix2 e q := ⟨k 0, k 1, eq_ix2 k⟩
  rw [mulf_apply, Cert.Lib.broadcastInDim_a1_ab_apply, Cert.Lib.broadcastInDim_a_a1_apply]

/-- Width 64: the rows gathered along the edges' sources, each scaled by its edge's weight (a vector over the edges, made
    a column and repeated along the row), summed into the edges' destinations from a zero array. The gather and the
    sum into destinations stay closed: only the scaling is read. -/
theorem messages64 (xw : FVec Ideal S50000x64 .f32) (srcI dstI : IVec S800000x1 32) (ne : FVec Ideal S800000 .f32) :
    Host.scatterAdd scatter_S50000x64_S800000x1_S800000x64_1_0_0_1
      (broadcastInDim S50000x64 ![] bcast_S_S50000x64 (constant (F := Ideal) S_ .f32 0x00000000#32)) dstI
      (mulf (Host.gather gather_S50000x64_S800000x1_S800000x64_1_0_n_n_0_1_164 xw srcI)
        (broadcastInDim S800000x64 ![0, 1] bcast_S800000x1_S800000x64_0_1
          (broadcastInDim S800000x1 ![0] bcast_S800000_S800000x1_0 ne)))
    = Cert.Gcn.aggregate (fun y => Host.gather gather_S50000x64_S800000x1_S800000x64_1_0_n_n_0_1_164 y srcI)
        (fun u => Host.scatterAdd scatter_S50000x64_S800000x1_S800000x64_1_0_0_1
          (broadcastInDim S50000x64 ![] bcast_S_S50000x64 (constant (F := Ideal) S_ .f32 0x00000000#32)) dstI u)
        (fun k => ne (ix1 k)) xw := by
  unfold Cert.Gcn.aggregate
  refine congrArg (Host.scatterAdd scatter_S50000x64_S800000x1_S800000x64_1_0_0_1 _ dstI) (funext fun k => ?_)
  obtain ⟨e, q, rfl⟩ : ∃ (e : Fin 800000) (q : Fin 64), k = ix2 e q := ⟨k 0, k 1, eq_ix2 k⟩
  rw [mulf_apply, Cert.Lib.broadcastInDim_a1_ab_apply, Cert.Lib.broadcastInDim_a_a1_apply]

/-! ## The matrix products -/

/-- The host's product of a [50000, 64] array with a [64, 128] array is the matrix product. -/
theorem mm_64_128 (x : FVec Ideal S50000x64 .f32) (w : FVec Ideal S64x128 .f32) :
    Host.dotGeneral dot_S50000x64_S64x128_S50000x128_1_0_0_1_n_n none x w = Cert.Gcn.mm x w := by
  funext j
  obtain ⟨p, q, rfl⟩ : ∃ (p : Fin 50000) (q : Fin 128), j = ix2 p q := ⟨j 0, j 1, eq_ix2 j⟩
  rw [Cert.Gcn.mm_ix2]
  exact Cert.Lib.dotGeneral_plain_apply dot_S50000x64_S64x128_S50000x128_1_0_0_1_n_n_wf none .single x w p q

/-- The host's product of a [50000, 128] array with a [128, 256] array is the matrix product. -/
theorem mm_128_256 (x : FVec Ideal S50000x128 .f32) (w : FVec Ideal S128x256 .f32) :
    Host.dotGeneral dot_S50000x128_S128x256_S50000x256_1_0_0_1_n_n none x w = Cert.Gcn.mm x w := by
  funext j
  obtain ⟨p, q, rfl⟩ : ∃ (p : Fin 50000) (q : Fin 256), j = ix2 p q := ⟨j 0, j 1, eq_ix2 j⟩
  rw [Cert.Gcn.mm_ix2]
  exact Cert.Lib.dotGeneral_plain_apply dot_S50000x128_S128x256_S50000x256_1_0_0_1_n_n_wf none .single x w p q

/-- The host's product of a [50000, 256] array with a [256, 64] array is the matrix product. -/
theorem mm_256_64 (x : FVec Ideal S50000x256 .f32) (w : FVec Ideal S256x64 .f32) :
    Host.dotGeneral dot_S50000x256_S256x64_S50000x64_1_0_0_1_n_n none x w = Cert.Gcn.mm x w := by
  funext j
  obtain ⟨p, q, rfl⟩ : ∃ (p : Fin 50000) (q : Fin 64), j = ix2 p q := ⟨j 0, j 1, eq_ix2 j⟩
  rw [Cert.Gcn.mm_ix2]
  exact Cert.Lib.dotGeneral_plain_apply dot_S50000x256_S256x64_S50000x64_1_0_0_1_n_n_wf none .single x w p q

/-! ## The positive part -/

/-- Width 128: the maximum with a zero array is the positive part. -/
theorem relu128 (x : FVec Ideal S50000x128 .f32) :
    maximumf x (broadcastInDim S50000x128 ![] bcast_S_S50000x128 (constant (F := Ideal) S_ .f32 0x00000000#32))
      = Cert.Gcn.relu x := by
  funext j
  rw [Cert.Gcn.relu_apply, maximumf_apply, Cert.Lib.broadcastInDim_scalar_apply, constant_apply, Ideal.ofBits_zero_f32]

/-- Width 256: the maximum with a zero array is the positive part. -/
theorem relu256 (x : FVec Ideal S50000x256 .f32) :
    maximumf x (broadcastInDim S50000x256 ![] bcast_S_S50000x256 (constant (F := Ideal) S_ .f32 0x00000000#32))
      = Cert.Gcn.relu x := by
  funext j
  rw [Cert.Gcn.relu_apply, maximumf_apply, Cert.Lib.broadcastInDim_scalar_apply, constant_apply, Ideal.ofBits_zero_f32]

/-! ## The normalisation -/

/-- Width 128: the normalisation's affine map with given column statistics (vectors over the columns, each made a row
    and repeated down). -/
theorem bn128 (x : FVec Ideal S50000x128 .f32) (mean var g be : FVec Ideal S128 .f32) :
    addf (mulf (mulf (subf x (broadcastInDim S50000x128 ![0, 1] bcast_S1x128_S50000x128_0_1
            (broadcastInDim S1x128 ![1] bcast_S128_S1x128_1 mean)))
          (broadcastInDim S50000x128 ![0, 1] bcast_S1x128_S50000x128_0_1 (broadcastInDim S1x128 ![1] bcast_S128_S1x128_1
            (Host.rsqrt (addf var (broadcastInDim S128 ![] bcast_S_S128 (constant (F := Ideal) S_ .f32 0x3727C5AC#32)))))))
        (broadcastInDim S50000x128 ![0, 1] bcast_S1x128_S50000x128_0_1 (broadcastInDim S1x128 ![1] bcast_S128_S1x128_1 g)))
      (broadcastInDim S50000x128 ![0, 1] bcast_S1x128_S50000x128_0_1 (broadcastInDim S1x128 ![1] bcast_S128_S1x128_1 be))
    = Cert.Gcn.bn x (fun q => mean (ix1 q)) (fun q => var (ix1 q)) (fun q => g (ix1 q)) (fun q => be (ix1 q))
        (Ideal.ofBits .f32 0x3727C5AC#32) := by
  funext j
  obtain ⟨p, q, rfl⟩ : ∃ (p : Fin 50000) (q : Fin 128), j = ix2 p q := ⟨j 0, j 1, eq_ix2 j⟩
  rw [Cert.Gcn.bn_ix2]
  exact Cert.Lib.bn_affine_apply x mean var g be bcast_S_S128 bcast_S128_S1x128_1 bcast_S1x128_S50000x128_0_1 0x3727C5AC#32 p q

/-- Width 256: the normalisation's affine map with given column statistics (vectors over the columns, each made a row
    and repeated down). -/
theorem bn256 (x : FVec Ideal S50000x256 .f32) (mean var g be : FVec Ideal S256 .f32) :
    addf (mulf (mulf (subf x (broadcastInDim S50000x256 ![0, 1] bcast_S1x256_S50000x256_0_1
            (broadcastInDim S1x256 ![1] bcast_S256_S1x256_1 mean)))
          (broadcastInDim S50000x256 ![0, 1] bcast_S1x256_S50000x256_0_1 (broadcastInDim S1x256 ![1] bcast_S256_S1x256_1
            (Host.rsqrt (addf var (broadcastInDim S256 ![] bcast_S_S256 (constant (F := Ideal) S_ .f32 0x3727C5AC#32)))))))
        (broadcastInDim S50000x256 ![0, 1] bcast_S1x256_S50000x256_0_1 (broadcastInDim S1x256 ![1] bcast_S256_S1x256_1 g)))
      (broadcastInDim S50000x256 ![0, 1] bcast_S1x256_S50000x256_0_1 (broadcastInDim S1x256 ![1] bcast_S256_S1x256_1 be))
    = Cert.Gcn.bn x (fun q => mean (ix1 q)) (fun q => var (ix1 q)) (fun q => g (ix1 q)) (fun q => be (ix1 q))
        (Ideal.ofBits .f32 0x3727C5AC#32) := by
  funext j
  obtain ⟨p, q, rfl⟩ : ∃ (p : Fin 50000) (q : Fin 256), j = ix2 p q := ⟨j 0, j 1, eq_ix2 j⟩
  rw [Cert.Gcn.bn_ix2]
  exact Cert.Lib.bn_affine_apply x mean var g be bcast_S_S256 bcast_S256_S1x256_1 bcast_S1x256_S50000x256_0_1 0x3727C5AC#32 p q

end Cert.ReferenceIdeal.RefOps

end
-- ==== Proof.RefOpsB.lean ====
/-
  The reference's column statistics as functions of a whole array of extended reals: the host's sum over the rows is
  the column sum, its quotient by the row count the column mean, and the variance function's operations (the mean kept
  as one row, the deviations, their squares, the sum, the quotient by the count minus zero, the guard on a positive
  count) the mean of squared deviations.
-/
import proofs.«106426_j33148557590872_1_alg».proof.Proof.Gen.ReferenceIdeal
import proofs.«106426_j33148557590872_1_alg».proof.Proof.GcnSpec
import proofs.«106426_j33148557590872_1_alg».proof.Proof.LibColumn
import proofs.«106426_j33148557590872_1_alg».proof.Proof.LibBnRead
import proofs.«106426_j33148557590872_1_alg».proof.Proof.LibPlainDot
import Idealize.ShloMosaic.Lib.ValueIdx
import Idealize.ShloMosaic.PureOps.Ideal.Laws

noncomputable section

namespace Cert.ReferenceIdeal.RefOps

open Cert.ReferenceIdeal Idealize.ShloMosaic Idealize.ShloMosaic.ValueIdx
open Cert.ReferenceIdeal.Facts₀ Cert.ReferenceIdeal.Facts

variable [Facts]

/-! ## The count and the guard -/

/-- The word 0x47435000 is the real 50000. -/
theorem count_eq : Ideal.ofBits .f32 0x47435000#32 = ((50000 : ℝ) : EReal) := by
  simp [Ideal.ofBits, Ideal.ieee, -EReal.coe_mul]; norm_num

/-- The variance's divisor, the count minus the integer 0 converted to a float, is the count. -/
theorem divisor_eq :
    (subf (constant (F := Ideal) S_ .f32 0x47435000#32) (sitofp .f32 (constantI S_ 32 0#32)) : FVec Ideal S_ .f32) ix0
      = Ideal.ofBits .f32 0x47435000#32 := by
  show Ideal.ofBits .f32 0x47435000#32 - (((0#32 : BitVec 32).toInt : ℝ) : EReal) = _
  simp

/-- The count is greater than zero: the guard's comparison gives the bit 1. -/
theorem count_pos :
    FloatOps.cmpf (F := Ideal) (φ := .f32) .ogt (Ideal.ofBits .f32 0x47435000#32) (Ideal.ofBits .f32 0x00000000#32) = 1#1 := by
  rw [count_eq, Ideal.ofBits_zero_f32]
  show BitVec.ofBool (decide ((0 : EReal) < ((50000 : ℝ) : EReal))) = 1#1
  have h : (0 : EReal) < ((50000 : ℝ) : EReal) := by exact_mod_cast (by norm_num : (0 : ℝ) < 50000)
  simp [h]

/-- The host's quotient at an index is the quotient of the entries. -/
theorem hostDivf_apply {s : Shape} (a b : FVec Ideal s .f32) (i : s.Idx) : Host.divf a b i = Ideal.div (a i) (b i) := rfl

/-! ## The column sum and the column mean -/

/-- Width 128: the host's sum over the rows from zero, read at column q, is the column sum. -/
theorem colsum128 (x : FVec Ideal S50000x128 .f32) (q : Fin 128) :
    Host.reduceAdd x (constant (F := Ideal) S_ .f32 0x00000000#32) reducesTo_S50000x128_S128_d0 h_S_ (ix1 q)
      = Cert.Gcn.colsum x q := by
  show Ideal.hostReduceAdd reducesTo_S50000x128_S128_d0 x (Ideal.ofBits .f32 0x00000000#32) (ix1 q) = _
  rw [Ideal.hostReduceAdd_single reducesTo_S50000x128_S128_d0 (by decide : S50000x128.Reduces [0] S128),
    Ideal.ofBits_zero_f32, zero_add]
  unfold Cert.Gcn.colsum
  refine Finset.sum_congr rfl fun k _ => congrArg x (funext fun a => Fin.ext ?_)
  match a with
  | ⟨0, _⟩ => rfl
  | ⟨1, _⟩ => rfl

/-- Width 128: the column sum divided by the row count 50000 (a scalar repeated over the columns) is the column mean. -/
theorem mean128 (x : FVec Ideal S50000x128 .f32) :
    Host.divf (Host.reduceAdd x (constant (F := Ideal) S_ .f32 0x00000000#32) reducesTo_S50000x128_S128_d0 h_S_)
      (broadcastInDim S128 ![] bcast_S_S128 (constant (F := Ideal) S_ .f32 0x47435000#32))
    = fun i => Cert.Gcn.mean x (Ideal.ofBits .f32 0x47435000#32) (i 0) := by
  funext i
  obtain ⟨q, rfl⟩ : ∃ q : Fin 128, i = ix1 q := ⟨i 0, eq_ix1 i⟩
  show Ideal.div (Host.reduceAdd x (constant (F := Ideal) S_ .f32 0x00000000#32) reducesTo_S50000x128_S128_d0 h_S_ (ix1 q))
      (broadcastInDim S128 ![] bcast_S_S128 (constant (F := Ideal) S_ .f32 0x47435000#32) (ix1 q)) = _
  rw [colsum128, Cert.Lib.broadcastInDim_scalar_apply, constant_apply]
  rfl

/-- Width 256: the host's sum over the rows from zero, read at column q, is the column sum. -/
theorem colsum256 (x : FVec Ideal S50000x256 .f32) (q : Fin 256) :
    Host.reduceAdd x (constant (F := Ideal) S_ .f32 0x00000000#32) reducesTo_S50000x256_S256_d0 h_S_ (ix1 q)
      = Cert.Gcn.colsum x q := by
  show Ideal.hostReduceAdd reducesTo_S50000x256_S256_d0 x (Ideal.ofBits .f32 0x00000000#32) (ix1 q) = _
  rw [Ideal.hostReduceAdd_single reducesTo_S50000x256_S256_d0 (by decide : S50000x256.Reduces [0] S256),
    Ideal.ofBits_zero_f32, zero_add]
  unfold Cert.Gcn.colsum
  refine Finset.sum_congr rfl fun k _ => congrArg x (funext fun a => Fin.ext ?_)
  match a with
  | ⟨0, _⟩ => rfl
  | ⟨1, _⟩ => rfl

/-- Width 256: the column sum divided by the row count 50000 (a scalar repeated over the columns) is the column mean. -/
theorem mean256 (x : FVec Ideal S50000x256 .f32) :
    Host.divf (Host.reduceAdd x (constant (F := Ideal) S_ .f32 0x00000000#32) reducesTo_S50000x256_S256_d0 h_S_)
      (broadcastInDim S256 ![] bcast_S_S256 (constant (F := Ideal) S_ .f32 0x47435000#32))
    = fun i => Cert.Gcn.mean x (Ideal.ofBits .f32 0x47435000#32) (i 0) := by
  funext i
  obtain ⟨q, rfl⟩ : ∃ q : Fin 256, i = ix1 q := ⟨i 0, eq_ix1 i⟩
  show Ideal.div (Host.reduceAdd x (constant (F := Ideal) S_ .f32 0x00000000#32) reducesTo_S50000x256_S256_d0 h_S_ (ix1 q))
      (broadcastInDim S256 ![] bcast_S_S256 (constant (F := Ideal) S_ .f32 0x47435000#32) (ix1 q)) = _
  rw [colsum256, Cert.Lib.broadcastInDim_scalar_apply, constant_apply]
  rfl

/-! ## The variance -/

/-- Width 128: the deviation of an entry from its column's mean, the mean kept as one row and repeated down. -/
theorem dev128 (x : FVec Ideal S50000x128 .f32) (p : Fin 50000) (q : Fin 128) :
    (subf x (broadcastInDim S50000x128 ![0, 1] bcast_S1x128_S50000x128_0_1
          (Host.divf (broadcastInDim S1x128 ![1] bcast_S128_S1x128_1
              (Host.reduceAdd x (constant (F := Ideal) S_ .f32 0x00000000#32) reducesTo_S50000x128_S128_d0 h_S_))
            (broadcastInDim S1x128 ![] bcast_S_S1x128 (constant (F := Ideal) S_ .f32 0x47435000#32))))) (ix2 p q)
      = x (ix2 p q) - Cert.Gcn.mean x (Ideal.ofBits .f32 0x47435000#32) q := by
  rw [subf_apply, Cert.Lib.broadcastInDim_1b_ab_apply, hostDivf_apply, Cert.Lib.broadcastInDim_b_1b_apply, colsum128,
    Cert.Lib.broadcastInDim_scalar_apply, constant_apply]
  rfl

/-- Width 128: the variance function on (x, 0) is the mean of squared deviations from the column mean. -/
theorem var128 (x : FVec Ideal S50000x128 .f32) :
    select (broadcastInDim S128 ![] bcast_S_S128
        (cmpf .ogt (subf (constant (F := Ideal) S_ .f32 0x47435000#32) (sitofp .f32 (constantI S_ 32 0#32))) (constant (F := Ideal) S_ .f32 0x00000000#32)))
      (Host.divf
        (Host.reduceAdd (mulf (subf x (broadcastInDim S50000x128 ![0, 1] bcast_S1x128_S50000x128_0_1
          (Host.divf (broadcastInDim S1x128 ![1] bcast_S128_S1x128_1
              (Host.reduceAdd x (constant (F := Ideal) S_ .f32 0x00000000#32) reducesTo_S50000x128_S128_d0 h_S_))
            (broadcastInDim S1x128 ![] bcast_S_S1x128 (constant (F := Ideal) S_ .f32 0x47435000#32)))))
            (subf x (broadcastInDim S50000x128 ![0, 1] bcast_S1x128_S50000x128_0_1
          (Host.divf (broadcastInDim S1x128 ![1] bcast_S128_S1x128_1
              (Host.reduceAdd x (constant (F := Ideal) S_ .f32 0x00000000#32) reducesTo_S50000x128_S128_d0 h_S_))
            (broadcastInDim S1x128 ![] bcast_S_S1x128 (constant (F := Ideal) S_ .f32 0x47435000#32))))))
          (constant (F := Ideal) S_ .f32 0x00000000#32) reducesTo_S50000x128_S128_d0 h_S_)
        (broadcastInDim S128 ![] bcast_S_S128 (subf (constant (F := Ideal) S_ .f32 0x47435000#32) (sitofp .f32 (constantI S_ 32 0#32)))))
      (broadcastInDim S128 ![] bcast_S_S128 (id (constant (F := Ideal) S_ .f32 0x7FC00000#32)))
    = fun i => Cert.Gcn.varDev x (Ideal.ofBits .f32 0x47435000#32) (i 0) := by
  funext i
  obtain ⟨q, rfl⟩ : ∃ q : Fin 128, i = ix1 q := ⟨i 0, eq_ix1 i⟩
  rw [select_apply, Cert.Lib.broadcastInDim_scalar_apply, cmpf_apply, divisor_eq, constant_apply, count_pos, select_one,
    hostDivf_apply, Cert.Lib.broadcastInDim_scalar_apply, divisor_eq, colsum128]
  show Ideal.div (∑ p : Fin 50000, _) _ = Ideal.div (∑ p : Fin 50000, _) _
  refine congrArg (fun s => Ideal.div s (Ideal.ofBits .f32 0x47435000#32)) (Finset.sum_congr rfl fun p _ => ?_)
  rw [mulf_apply, dev128]

/-- Width 256: the deviation of an entry from its column's mean, the mean kept as one row and repeated down. -/
theorem dev256 (x : FVec Ideal S50000x256 .f32) (p : Fin 50000) (q : Fin 256) :
    (subf x (broadcastInDim S50000x256 ![0, 1] bcast_S1x256_S50000x256_0_1
          (Host.divf (broadcastInDim S1x256 ![1] bcast_S256_S1x256_1
              (Host.reduceAdd x (constant (F := Ideal) S_ .f32 0x00000000#32) reducesTo_S50000x256_S256_d0 h_S_))
            (broadcastInDim S1x256 ![] bcast_S_S1x256 (constant (F := Ideal) S_ .f32 0x47435000#32))))) (ix2 p q)
      = x (ix2 p q) - Cert.Gcn.mean x (Ideal.ofBits .f32 0x47435000#32) q := by
  rw [subf_apply, Cert.Lib.broadcastInDim_1b_ab_apply, hostDivf_apply, Cert.Lib.broadcastInDim_b_1b_apply, colsum256,
    Cert.Lib.broadcastInDim_scalar_apply, constant_apply]
  rfl

/-- Width 256: the variance function on (x, 0) is the mean of squared deviations from the column mean. -/
theorem var256 (x : FVec Ideal S50000x256 .f32) :
    select (broadcastInDim S256 ![] bcast_S_S256
        (cmpf .ogt (subf (constant (F := Ideal) S_ .f32 0x47435000#32) (sitofp .f32 (constantI S_ 32 0#32))) (constant (F := Ideal) S_ .f32 0x00000000#32)))
      (Host.divf
        (Host.reduceAdd (mulf (subf x (broadcastInDim S50000x256 ![0, 1] bcast_S1x256_S50000x256_0_1
          (Host.divf (broadcastInDim S1x256 ![1] bcast_S256_S1x256_1
              (Host.reduceAdd x (constant (F := Ideal) S_ .f32 0x00000000#32) reducesTo_S50000x256_S256_d0 h_S_))
            (broadcastInDim S1x256 ![] bcast_S_S1x256 (constant (F := Ideal) S_ .f32 0x47435000#32)))))
            (subf x (broadcastInDim S50000x256 ![0, 1] bcast_S1x256_S50000x256_0_1
          (Host.divf (broadcastInDim S1x256 ![1] bcast_S256_S1x256_1
              (Host.reduceAdd x (constant (F := Ideal) S_ .f32 0x00000000#32) reducesTo_S50000x256_S256_d0 h_S_))
            (broadcastInDim S1x256 ![] bcast_S_S1x256 (constant (F := Ideal) S_ .f32 0x47435000#32))))))
          (constant (F := Ideal) S_ .f32 0x00000000#32) reducesTo_S50000x256_S256_d0 h_S_)
        (broadcastInDim S256 ![] bcast_S_S256 (subf (constant (F := Ideal) S_ .f32 0x47435000#32) (sitofp .f32 (constantI S_ 32 0#32)))))
      (broadcastInDim S256 ![] bcast_S_S256 (id (constant (F := Ideal) S_ .f32 0x7FC00000#32)))
    = fun i => Cert.Gcn.varDev x (Ideal.ofBits .f32 0x47435000#32) (i 0) := by
  funext i
  obtain ⟨q, rfl⟩ : ∃ q : Fin 256, i = ix1 q := ⟨i 0, eq_ix1 i⟩
  rw [select_apply, Cert.Lib.broadcastInDim_scalar_apply, cmpf_apply, divisor_eq, constant_apply, count_pos, select_one,
    hostDivf_apply, Cert.Lib.broadcastInDim_scalar_apply, divisor_eq, colsum256]
  show Ideal.div (∑ p : Fin 50000, _) _ = Ideal.div (∑ p : Fin 50000, _) _
  refine congrArg (fun s => Ideal.div s (Ideal.ofBits .f32 0x47435000#32)) (Finset.sum_congr rfl fun p _ => ?_)
  rw [mulf_apply, dev256]

end Cert.ReferenceIdeal.RefOps

end
-- ==== Proof.RefGraph.lean ====
/-
  The graph side of the reference program, as functions of the edge array: the two rows of the edge array (sources and
  destinations), the index arrays the gathers and the scatters are given, the edge weights and the self-loop weights,
  each spelled with the program's own operations; and the structure collecting the gathers along the sources and the
  sums into the destinations at the three widths.
-/
import proofs.«106426_j33148557590872_1_alg».proof.Proof.Gen.ReferenceIdeal
import proofs.«106426_j33148557590872_1_alg».proof.Proof.GcnSpec

noncomputable section

namespace Cert.ReferenceIdeal.RefRun

open Cert.ReferenceIdeal Cert.ReferenceIdeal.Gen Idealize.ShloMosaic Idealize.ShloMosaic.ValueIdx

/-- The edges' sources: row 0 of the edge array, as a vector. -/
def v1Of (ei : IVec S2x800000 32) : IVec S800000 32 :=
  (shapeCast S800000 (extractStridedSlice S1x800000 ![0, 0] ei slices_S2x800000_S1x800000_0_0) shapeCasts_S1x800000_S800000)

/-- The edges' destinations: row 1 of the edge array, as a vector. -/
def v3Of (ei : IVec S2x800000 32) : IVec S800000 32 :=
  (shapeCast S800000 (extractStridedSlice S1x800000 ![1, 0] ei slices_S2x800000_S1x800000_1_0) shapeCasts_S1x800000_S800000)

/-- The index array a gather reads, from the sources: a negative one wrapped by the row count, as a column. -/
def srcIdx (v1 : IVec S800000 32) : IVec S800000x1 32 :=
  (broadcastInDim S800000x1 ![0] bcast_S800000_S800000x1_0 (select (cmpi .slt v1 (broadcastInDim S800000 ![] bcast_S_S800000 (constantI S_ 32 0#32))) (addi v1 (broadcastInDim S800000 ![] bcast_S_S800000 (constantI S_ 32 50000#32))) v1))

/-- The index array a scatter writes at, from the destinations: as a column. -/
def dstIdx (v3 : IVec S800000 32) : IVec S800000x1 32 :=
  (broadcastInDim S800000x1 ![0] bcast_S800000_S800000x1_0 v3)

/-- The gathers' index array, from the edge array. -/
def srcI (ei : IVec S2x800000 32) : IVec S800000x1 32 := srcIdx (v1Of ei)

/-- The scatters' index array, from the edge array. -/
def dstI (ei : IVec S2x800000 32) : IVec S800000x1 32 := dstIdx (v3Of ei)

/-- The edge weights: the product of the reciprocal square roots of (1 + in-degree) at the edge's two ends. -/
def neOf (ei : IVec S2x800000 32) : FVec Ideal S800000 .f32 :=
  (mulf (F := Ideal) (φ := .f32) (Host.gather gather_S50000_S800000x1_S800000_n_0_n_n_0_1_1 (Host.rsqrt (F := Ideal) (φ := .f32) (addf (F := Ideal) (φ := .f32) (broadcastInDim S50000 ![] bcast_S_S50000 (constant (F := Ideal) S_ .f32 0x3F800000#32)) (Host.scatterAdd (F := Ideal) (φ := .f32) scatter_S50000_S800000x1_S800000_n_0_0_1 (broadcastInDim S50000 ![] bcast_S_S50000 (constant (F := Ideal) S_ .f32 0x00000000#32)) (broadcastInDim S800000x1 ![0] bcast_S800000_S800000x1_0 (shapeCast S800000 (extractStridedSlice S1x800000 ![1, 0] ei slices_S2x800000_S1x800000_1_0) shapeCasts_S1x800000_S800000)) (broadcastInDim S800000 ![] bcast_S_S800000 (constant (F := Ideal) S_ .f32 0x3F800000#32))))) (broadcastInDim S800000x1 ![0] bcast_S800000_S800000x1_0 (select (cmpi .slt (shapeCast S800000 (extractStridedSlice S1x800000 ![0, 0] ei slices_S2x800000_S1x800000_0_0) shapeCasts_S1x800000_S800000) (broadcastInDim S800000 ![] bcast_S_S800000 (constantI S_ 32 0#32))) (addi (shapeCast S800000 (extractStridedSlice S1x800000 ![0, 0] ei slices_S2x800000_S1x800000_0_0) shapeCasts_S1x800000_S800000) (broadcastInDim S800000 ![] bcast_S_S800000 (constantI S_ 32 50000#32))) (shapeCast S800000 (extractStridedSlice S1x800000 ![0, 0] ei slices_S2x800000_S1x800000_0_0) shapeCasts_S1x800000_S800000)))) (Host.gather gather_S50000_S800000x1_S800000_n_0_n_n_0_1_1 (Host.rsqrt (F := Ideal) (φ := .f32) (addf (F := Ideal) (φ := .f32) (broadcastInDim S50000 ![] bcast_S_S50000 (constant (F := Ideal) S_ .f32 0x3F800000#32)) (Host.scatterAdd (F := Ideal) (φ := .f32) scatter_S50000_S800000x1_S800000_n_0_0_1 (broadcastInDim S50000 ![] bcast_S_S50000 (constant (F := Ideal) S_ .f32 0x00000000#32)) (broadcastInDim S800000x1 ![0] bcast_S800000_S800000x1_0 (shapeCast S800000 (extractStridedSlice S1x800000 ![1, 0] ei slices_S2x800000_S1x800000_1_0) shapeCasts_S1x800000_S800000)) (broadcastInDim S800000 ![] bcast_S_S800000 (constant (F := Ideal) S_ .f32 0x3F800000#32))))) (broadcastInDim S800000x1 ![0] bcast_S800000_S800000x1_0 (select (cmpi .slt (shapeCast S800000 (extractStridedSlice S1x800000 ![1, 0] ei slices_S2x800000_S1x800000_1_0) shapeCasts_S1x800000_S800000) (broadcastInDim S800000 ![] bcast_S_S800000 (constantI S_ 32 0#32))) (addi (shapeCast S800000 (extractStridedSlice S1x800000 ![1, 0] ei slices_S2x800000_S1x800000_1_0) shapeCasts_S1x800000_S800000) (broadcastInDim S800000 ![] bcast_S_S800000 (constantI S_ 32 50000#32))) (shapeCast S800000 (extractStridedSlice S1x800000 ![1, 0] ei slices_S2x800000_S1x800000_1_0) shapeCasts_S1x800000_S800000)))))

/-- The self-loop weights: the reciprocal of (1 + in-degree). -/
def nsOf (ei : IVec S2x800000 32) : FVec Ideal S50000 .f32 :=
  (mulf (F := Ideal) (φ := .f32) (Host.rsqrt (F := Ideal) (φ := .f32) (addf (F := Ideal) (φ := .f32) (broadcastInDim S50000 ![] bcast_S_S50000 (constant (F := Ideal) S_ .f32 0x3F800000#32)) (Host.scatterAdd (F := Ideal) (φ := .f32) scatter_S50000_S800000x1_S800000_n_0_0_1 (broadcastInDim S50000 ![] bcast_S_S50000 (constant (F := Ideal) S_ .f32 0x00000000#32)) (broadcastInDim S800000x1 ![0] bcast_S800000_S800000x1_0 (shapeCast S800000 (extractStridedSlice S1x800000 ![1, 0] ei slices_S2x800000_S1x800000_1_0) shapeCasts_S1x800000_S800000)) (broadcastInDim S800000 ![] bcast_S_S800000 (constant (F := Ideal) S_ .f32 0x3F800000#32))))) (Host.rsqrt (F := Ideal) (φ := .f32) (addf (F := Ideal) (φ := .f32) (broadcastInDim S50000 ![] bcast_S_S50000 (constant (F := Ideal) S_ .f32 0x3F800000#32)) (Host.scatterAdd (F := Ideal) (φ := .f32) scatter_S50000_S800000x1_S800000_n_0_0_1 (broadcastInDim S50000 ![] bcast_S_S50000 (constant (F := Ideal) S_ .f32 0x00000000#32)) (broadcastInDim S800000x1 ![0] bcast_S800000_S800000x1_0 (shapeCast S800000 (extractStridedSlice S1x800000 ![1, 0] ei slices_S2x800000_S1x800000_1_0) shapeCasts_S1x800000_S800000)) (broadcastInDim S800000 ![] bcast_S_S800000 (constant (F := Ideal) S_ .f32 0x3F800000#32))))))

/-- The graph side of the network, from the edge array. -/
def RG (ei : IVec S2x800000 32) : Cert.Gcn.Graph 50000 800000 where
  g128 := fun xw => Host.gather gather_S50000x128_S800000x1_S800000x128_1_0_n_n_0_1_1128 xw (srcI ei)
  s128 := fun u => Host.scatterAdd (F := Ideal) (φ := .f32) scatter_S50000x128_S800000x1_S800000x128_1_0_0_1 (broadcastInDim S50000x128 ![] bcast_S_S50000x128 (constant (F := Ideal) S_ .f32 0x00000000#32)) (dstI ei) u
  g256 := fun xw => Host.gather gather_S50000x256_S800000x1_S800000x256_1_0_n_n_0_1_1256 xw (srcI ei)
  s256 := fun u => Host.scatterAdd (F := Ideal) (φ := .f32) scatter_S50000x256_S800000x1_S800000x256_1_0_0_1 (broadcastInDim S50000x256 ![] bcast_S_S50000x256 (constant (F := Ideal) S_ .f32 0x00000000#32)) (dstI ei) u
  g64 := fun xw => Host.gather gather_S50000x64_S800000x1_S800000x64_1_0_n_n_0_1_164 xw (srcI ei)
  s64 := fun u => Host.scatterAdd (F := Ideal) (φ := .f32) scatter_S50000x64_S800000x1_S800000x64_1_0_0_1 (broadcastInDim S50000x64 ![] bcast_S_S50000x64 (constant (F := Ideal) S_ .f32 0x00000000#32)) (dstI ei) u
  ne := fun k => neOf ei (ix1 k)
  ns := fun p => nsOf ei (ix1 p)

end Cert.ReferenceIdeal.RefRun

end
-- ==== Proof.RefRunFinal.lean ====
/-
  The reference program's two results as the two encoders of the specification applied to the launch contents of its
  arguments: each stage's result read as the specification's function of the contents going in, the stages chained along
  the line of operations, and the run of the whole program stated with those values.
-/
import proofs.«106426_j33148557590872_1_alg».proof.Proof.RefRunStG
import proofs.«106426_j33148557590872_1_alg».proof.Proof.RefRunStM1
import proofs.«106426_j33148557590872_1_alg».proof.Proof.RefRunStM2
import proofs.«106426_j33148557590872_1_alg».proof.Proof.RefRunStM3
import proofs.«106426_j33148557590872_1_alg».proof.Proof.RefRunStL1
import proofs.«106426_j33148557590872_1_alg».proof.Proof.RefRunStL2
import proofs.«106426_j33148557590872_1_alg».proof.Proof.RefRunStL3
import proofs.«106426_j33148557590872_1_alg».proof.Proof.RefOpsA
import proofs.«106426_j33148557590872_1_alg».proof.Proof.RefOpsB
import proofs.«106426_j33148557590872_1_alg».proof.Proof.RefGraph
import proofs.«106426_j33148557590872_1_alg».proof.Proof.GcnSpec
import Idealize.ShloMosaic.Lib.ValueIdx

noncomputable section

namespace Cert.ReferenceIdeal.RefRun

open Cert.ReferenceIdeal Cert.ReferenceIdeal.Gen Idealize.ShloMosaic Idealize.ShloMosaic.ValueIdx Idealize.ShloMosaic.TcCoe Idealize.SL.Sem Idealize.ShloMosaic.StableHlo

variable {F : FTy → Type} [FloatOps F]

/-! ## Each stage's result as the specification's function of the contents going in -/

theorem cG_gcn_v1 (W : Valuation τ sig (Elt Ideal)) :
    after (cG (F := Ideal)) W (no_index (Proc.devRef .tc main_v1))
      = v1Of (W (Proc.devRef .tc main_arg1)) :=
  cG_out_v1 W

theorem cG_gcn_v3 (W : Valuation τ sig (Elt Ideal)) :
    after (cG (F := Ideal)) W (no_index (Proc.devRef .tc main_v3))
      = v3Of (W (Proc.devRef .tc main_arg1)) :=
  cG_out_v3 W

theorem cG_gcn_v25 (W : Valuation τ sig (Elt Ideal)) :
    after (cG (F := Ideal)) W (no_index (Proc.devRef .tc main_v25))
      = neOf (W (Proc.devRef .tc main_arg1)) :=
  cG_out_v25 W

theorem cG_gcn_v26 (W : Valuation τ sig (Elt Ideal)) :
    after (cG (F := Ideal)) W (no_index (Proc.devRef .tc main_v26))
      = nsOf (W (Proc.devRef .tc main_arg1)) :=
  cG_out_v26 W

theorem cm1D_gcn_v27 (W : Valuation τ sig (Elt Ideal)) :
    after (cm1D (F := Ideal)) W (no_index (Proc.devRef .tc main_v27))
      = Cert.Gcn.mm (W (Proc.devRef .tc main_arg0)) (W (Proc.devRef .tc main_arg2)) :=
  (cm1D_out_v27 W).trans (RefOps.mm_64_128 _ _)

theorem cm1M_gcn_v40 (W : Valuation τ sig (Elt Ideal)) :
    after (cm1M (F := Ideal)) W (no_index (Proc.devRef .tc main_v40))
      = Cert.Gcn.aggregate (fun y => Host.gather gather_S50000x128_S800000x1_S800000x128_1_0_n_n_0_1_1128 y (srcIdx (W (Proc.devRef .tc main_v1)))) (fun u => Host.scatterAdd (F := Ideal) (φ := .f32) scatter_S50000x128_S800000x1_S800000x128_1_0_0_1 (broadcastInDim S50000x128 ![] bcast_S_S50000x128 (constant (F := Ideal) S_ .f32 0x00000000#32)) (dstIdx (W (Proc.devRef .tc main_v3))) u) (fun k => W (Proc.devRef .tc main_v25) (ix1 k)) (W (Proc.devRef .tc main_v27)) :=
  (cm1M_out_v40 W).trans (RefOps.messages128 (W (Proc.devRef .tc main_v27)) (srcIdx (W (Proc.devRef .tc main_v1))) (dstIdx (W (Proc.devRef .tc main_v3))) (W (Proc.devRef .tc main_v25)))

theorem cm1C_gcn_v47 (W : Valuation τ sig (Elt Ideal)) :
    after (cm1C (F := Ideal)) W (no_index (Proc.devRef .tc main_v47))
      = Cert.Gcn.combine (W (Proc.devRef .tc main_v40)) (W (Proc.devRef .tc main_v27)) (fun p => W (Proc.devRef .tc main_v26) (ix1 p)) (fun q => W (Proc.devRef .tc main_arg3) (ix1 q)) :=
  (cm1C_out_v47 W).trans (RefOps.combine128 _ _ _ _)

theorem cm1S_gcn_v50 (W : Valuation τ sig (Elt Ideal)) :
    after (cm1S (F := Ideal)) W (no_index (Proc.devRef .tc main_v50))
      = fun i => Cert.Gcn.mean (W (Proc.devRef .tc main_v47)) (Ideal.ofBits .f32 0x47435000#32) (i 0) :=
  (cm1S_out_v50 W).trans (RefOps.mean128 _)

theorem cm1V_gcn_v51 (W : Valuation τ sig (Elt Ideal)) :
    after (cm1V (F := Ideal)) W (no_index (Proc.devRef .tc main_v51))
      = fun i => Cert.Gcn.varDev (W (Proc.devRef .tc main_v47)) (Ideal.ofBits .f32 0x47435000#32) (i 0) :=
  (cm1V_out_v51 W).trans (RefOps.var128 _)

theorem cm1N_gcn_v67 (W : Valuation τ sig (Elt Ideal)) :
    after (cm1N (F := Ideal)) W (no_index (Proc.devRef .tc main_v67))
      = Cert.Gcn.relu (Cert.Gcn.bn (W (Proc.devRef .tc main_v47)) (fun q => W (Proc.devRef .tc main_v50) (ix1 q)) (fun q => W (Proc.devRef .tc main_v51) (ix1 q)) (fun q => W (Proc.devRef .tc main_arg4) (ix1 q)) (fun q => W (Proc.devRef .tc main_arg5) (ix1 q)) (Ideal.ofBits .f32 0x3727C5AC#32)) :=
  (cm1N_out_v67 W).trans ((RefOps.relu128 _).trans (congrArg Cert.Gcn.relu (RefOps.bn128 _ _ _ _ _)))

theorem cm2D_gcn_v68 (W : Valuation τ sig (Elt Ideal)) :
    after (cm2D (F := Ideal)) W (no_index (Proc.devRef .tc main_v68))
      = Cert.Gcn.mm (W (Proc.devRef .tc main_v67)) (W (Proc.devRef .tc main_arg6)) :=
  (cm2D_out_v68 W).trans (RefOps.mm_128_256 _ _)

theorem cm2M_gcn_v81 (W : Valuation τ sig (Elt Ideal)) :
    after (cm2M (F := Ideal)) W (no_index (Proc.devRef .tc main_v81))
      = Cert.Gcn.aggregate (fun y => Host.gather gather_S50000x256_S800000x1_S800000x256_1_0_n_n_0_1_1256 y (srcIdx (W (Proc.devRef .tc main_v1)))) (fun u => Host.scatterAdd (F := Ideal) (φ := .f32) scatter_S50000x256_S800000x1_S800000x256_1_0_0_1 (broadcastInDim S50000x256 ![] bcast_S_S50000x256 (constant (F := Ideal) S_ .f32 0x00000000#32)) (dstIdx (W (Proc.devRef .tc main_v3))) u) (fun k => W (Proc.devRef .tc main_v25) (ix1 k)) (W (Proc.devRef .tc main_v68)) :=
  (cm2M_out_v81 W).trans (RefOps.messages256 (W (Proc.devRef .tc main_v68)) (srcIdx (W (Proc.devRef .tc main_v1))) (dstIdx (W (Proc.devRef .tc main_v3))) (W (Proc.devRef .tc main_v25)))

theorem cm2C_gcn_v88 (W : Valuation τ sig (Elt Ideal)) :
    after (cm2C (F := Ideal)) W (no_index (Proc.devRef .tc main_v88))
      = Cert.Gcn.combine (W (Proc.devRef .tc main_v81)) (W (Proc.devRef .tc main_v68)) (fun p => W (Proc.devRef .tc main_v26) (ix1 p)) (fun q => W (Proc.devRef .tc main_arg7) (ix1 q)) :=
  (cm2C_out_v88 W).trans (RefOps.combine256 _ _ _ _)

theorem cm2S_gcn_v91 (W : Valuation τ sig (Elt Ideal)) :
    after (cm2S (F := Ideal)) W (no_index (Proc.devRef .tc main_v91))
      = fun i => Cert.Gcn.mean (W (Proc.devRef .tc main_v88)) (Ideal.ofBits .f32 0x47435000#32) (i 0) :=
  (cm2S_out_v91 W).trans (RefOps.mean256 _)

theorem cm2V_gcn_v92 (W : Valuation τ sig (Elt Ideal)) :
    after (cm2V (F := Ideal)) W (no_index (Proc.devRef .tc main_v92))
      = fun i => Cert.Gcn.varDev (W (Proc.devRef .tc main_v88)) (Ideal.ofBits .f32 0x47435000#32) (i 0) :=
  (cm2V_out_v92 W).trans (RefOps.var256 _)

theorem cm2N_gcn_v108 (W : Valuation τ sig (Elt Ideal)) :
    after (cm2N (F := Ideal)) W (no_index (Proc.devRef .tc main_v108))
      = Cert.Gcn.relu (Cert.Gcn.bn (W (Proc.devRef .tc main_v88)) (fun q => W (Proc.devRef .tc main_v91) (ix1 q)) (fun q => W (Proc.devRef .tc main_v92) (ix1 q)) (fun q => W (Proc.devRef .tc main_arg8) (ix1 q)) (fun q => W (Proc.devRef .tc main_arg9) (ix1 q)) (Ideal.ofBits .f32 0x3727C5AC#32)) :=
  (cm2N_out_v108 W).trans ((RefOps.relu256 _).trans (congrArg Cert.Gcn.relu (RefOps.bn256 _ _ _ _ _)))

theorem cm3D_gcn_v109 (W : Valuation τ sig (Elt Ideal)) :
    after (cm3D (F := Ideal)) W (no_index (Proc.devRef .tc main_v109))
      = Cert.Gcn.mm (W (Proc.devRef .tc main_v108)) (W (Proc.devRef .tc main_arg10)) :=
  (cm3D_out_v109 W).trans (RefOps.mm_256_64 _ _)

theorem cm3M_gcn_v122 (W : Valuation τ sig (Elt Ideal)) :
    after (cm3M (F := Ideal)) W (no_index (Proc.devRef .tc main_v122))
      = Cert.Gcn.aggregate (fun y => Host.gather gather_S50000x64_S800000x1_S800000x64_1_0_n_n_0_1_164 y (srcIdx (W (Proc.devRef .tc main_v1)))) (fun u => Host.scatterAdd (F := Ideal) (φ := .f32) scatter_S50000x64_S800000x1_S800000x64_1_0_0_1 (broadcastInDim S50000x64 ![] bcast_S_S50000x64 (constant (F := Ideal) S_ .f32 0x00000000#32)) (dstIdx (W (Proc.devRef .tc main_v3))) u) (fun k => W (Proc.devRef .tc main_v25) (ix1 k)) (W (Proc.devRef .tc main_v109)) :=
  (cm3M_out_v122 W).trans (RefOps.messages64 (W (Proc.devRef .tc main_v109)) (srcIdx (W (Proc.devRef .tc main_v1))) (dstIdx (W (Proc.devRef .tc main_v3))) (W (Proc.devRef .tc main_v25)))

theorem cm3C_gcn_v129 (W : Valuation τ sig (Elt Ideal)) :
    after (cm3C (F := Ideal)) W (no_index (Proc.devRef .tc main_v129))
      = Cert.Gcn.combine (W (Proc.devRef .tc main_v122)) (W (Proc.devRef .tc main_v109)) (fun p => W (Proc.devRef .tc main_v26) (ix1 p)) (fun q => W (Proc.devRef .tc main_arg11) (ix1 q)) :=
  (cm3C_out_v129 W).trans (RefOps.combine64 _ _ _ _)

theorem cl1D_gcn_v130 (W : Valuation τ sig (Elt Ideal)) :
    after (cl1D (F := Ideal)) W (no_index (Proc.devRef .tc main_v130))
      = Cert.Gcn.mm (W (Proc.devRef .tc main_arg0)) (W (Proc.devRef .tc main_arg12)) :=
  (cl1D_out_v130 W).trans (RefOps.mm_64_128 _ _)

theorem cl1M_gcn_v143 (W : Valuation τ sig (Elt Ideal)) :
    after (cl1M (F := Ideal)) W (no_index (Proc.devRef .tc main_v143))
      = Cert.Gcn.aggregate (fun y => Host.gather gather_S50000x128_S800000x1_S800000x128_1_0_n_n_0_1_1128 y (srcIdx (W (Proc.devRef .tc main_v1)))) (fun u => Host.scatterAdd (F := Ideal) (φ := .f32) scatter_S50000x128_S800000x1_S800000x128_1_0_0_1 (broadcastInDim S50000x128 ![] bcast_S_S50000x128 (constant (F := Ideal) S_ .f32 0x00000000#32)) (dstIdx (W (Proc.devRef .tc main_v3))) u) (fun k => W (Proc.devRef .tc main_v25) (ix1 k)) (W (Proc.devRef .tc main_v130)) :=
  (cl1M_out_v143 W).trans (RefOps.messages128 (W (Proc.devRef .tc main_v130)) (srcIdx (W (Proc.devRef .tc main_v1))) (dstIdx (W (Proc.devRef .tc main_v3))) (W (Proc.devRef .tc main_v25)))

theorem cl1C_gcn_v150 (W : Valuation τ sig (Elt Ideal)) :
    after (cl1C (F := Ideal)) W (no_index (Proc.devRef .tc main_v150))
      = Cert.Gcn.combine (W (Proc.devRef .tc main_v143)) (W (Proc.devRef .tc main_v130)) (fun p => W (Proc.devRef .tc main_v26) (ix1 p)) (fun q => W (Proc.devRef .tc main_arg13) (ix1 q)) :=
  (cl1C_out_v150 W).trans (RefOps.combine128 _ _ _ _)

theorem cl1R_gcn_v151 (W : Valuation τ sig (Elt Ideal)) :
    after (cl1R (F := Ideal)) W (no_index (Proc.devRef .tc main_v151))
      = Cert.Gcn.relu (W (Proc.devRef .tc main_v150)) :=
  (cl1R_out_v151 W).trans (RefOps.relu128 _)

theorem cl1S_gcn_v154 (W : Valuation τ sig (Elt Ideal)) :
    after (cl1S (F := Ideal)) W (no_index (Proc.devRef .tc main_v154))
      = fun i => Cert.Gcn.mean (W (Proc.devRef .tc main_v151)) (Ideal.ofBits .f32 0x47435000#32) (i 0) :=
  (cl1S_out_v154 W).trans (RefOps.mean128 _)

theorem cl1V_gcn_v155 (W : Valuation τ sig (Elt Ideal)) :
    after (cl1V (F := Ideal)) W (no_index (Proc.devRef .tc main_v155))
      = fun i => Cert.Gcn.varDev (W (Proc.devRef .tc main_v151)) (Ideal.ofBits .f32 0x47435000#32) (i 0) :=
  (cl1V_out_v155 W).trans (RefOps.var128 _)

theorem cl1N_gcn_v170 (W : Valuation τ sig (Elt Ideal)) :
    after (cl1N (F := Ideal)) W (no_index (Proc.devRef .tc main_v170))
      = Cert.Gcn.bn (W (Proc.devRef .tc main_v151)) (fun q => W (Proc.devRef .tc main_v154) (ix1 q)) (fun q => W (Proc.devRef .tc main_v155) (ix1 q)) (fun q => W (Proc.devRef .tc main_arg14) (ix1 q)) (fun q => W (Proc.devRef .tc main_arg15) (ix1 q)) (Ideal.ofBits .f32 0x3727C5AC#32) :=
  (cl1N_out_v170 W).trans (RefOps.bn128 _ _ _ _ _)

theorem cl2D_gcn_v171 (W : Valuation τ sig (Elt Ideal)) :
    after (cl2D (F := Ideal)) W (no_index (Proc.devRef .tc main_v171))
      = Cert.Gcn.mm (W (Proc.devRef .tc main_v170)) (W (Proc.devRef .tc main_arg16)) :=
  (cl2D_out_v171 W).trans (RefOps.mm_128_256 _ _)

theorem cl2M_gcn_v184 (W : Valuation τ sig (Elt Ideal)) :
    after (cl2M (F := Ideal)) W (no_index (Proc.devRef .tc main_v184))
      = Cert.Gcn.aggregate (fun y => Host.gather gather_S50000x256_S800000x1_S800000x256_1_0_n_n_0_1_1256 y (srcIdx (W (Proc.devRef .tc main_v1)))) (fun u => Host.scatterAdd (F := Ideal) (φ := .f32) scatter_S50000x256_S800000x1_S800000x256_1_0_0_1 (broadcastInDim S50000x256 ![] bcast_S_S50000x256 (constant (F := Ideal) S_ .f32 0x00000000#32)) (dstIdx (W (Proc.devRef .tc main_v3))) u) (fun k => W (Proc.devRef .tc main_v25) (ix1 k)) (W (Proc.devRef .tc main_v171)) :=
  (cl2M_out_v184 W).trans (RefOps.messages256 (W (Proc.devRef .tc main_v171)) (srcIdx (W (Proc.devRef .tc main_v1))) (dstIdx (W (Proc.devRef .tc main_v3))) (W (Proc.devRef .tc main_v25)))

theorem cl2C_gcn_v191 (W : Valuation τ sig (Elt Ideal)) :
    after (cl2C (F := Ideal)) W (no_index (Proc.devRef .tc main_v191))
      = Cert.Gcn.combine (W (Proc.devRef .tc main_v184)) (W (Proc.devRef .tc main_v171)) (fun p => W (Proc.devRef .tc main_v26) (ix1 p)) (fun q => W (Proc.devRef .tc main_arg17) (ix1 q)) :=
  (cl2C_out_v191 W).trans (RefOps.combine256 _ _ _ _)

theorem cl2R_gcn_v192 (W : Valuation τ sig (Elt Ideal)) :
    after (cl2R (F := Ideal)) W (no_index (Proc.devRef .tc main_v192))
      = Cert.Gcn.relu (W (Proc.devRef .tc main_v191)) :=
  (cl2R_out_v192 W).trans (RefOps.relu256 _)

theorem cl2S_gcn_v195 (W : Valuation τ sig (Elt Ideal)) :
    after (cl2S (F := Ideal)) W (no_index (Proc.devRef .tc main_v195))
      = fun i => Cert.Gcn.mean (W (Proc.devRef .tc main_v192)) (Ideal.ofBits .f32 0x47435000#32) (i 0) :=
  (cl2S_out_v195 W).trans (RefOps.mean256 _)

theorem cl2V_gcn_v196 (W : Valuation τ sig (Elt Ideal)) :
    after (cl2V (F := Ideal)) W (no_index (Proc.devRef .tc main_v196))
      = fun i => Cert.Gcn.varDev (W (Proc.devRef .tc main_v192)) (Ideal.ofBits .f32 0x47435000#32) (i 0) :=
  (cl2V_out_v196 W).trans (RefOps.var256 _)

theorem cl2N_gcn_v211 (W : Valuation τ sig (Elt Ideal)) :
    after (cl2N (F := Ideal)) W (no_index (Proc.devRef .tc main_v211))
      = Cert.Gcn.bn (W (Proc.devRef .tc main_v192)) (fun q => W (Proc.devRef .tc main_v195) (ix1 q)) (fun q => W (Proc.devRef .tc main_v196) (ix1 q)) (fun q => W (Proc.devRef .tc main_arg18) (ix1 q)) (fun q => W (Proc.devRef .tc main_arg19) (ix1 q)) (Ideal.ofBits .f32 0x3727C5AC#32) :=
  (cl2N_out_v211 W).trans (RefOps.bn256 _ _ _ _ _)

theorem cl3D_gcn_v212 (W : Valuation τ sig (Elt Ideal)) :
    after (cl3D (F := Ideal)) W (no_index (Proc.devRef .tc main_v212))
      = Cert.Gcn.mm (W (Proc.devRef .tc main_v211)) (W (Proc.devRef .tc main_arg20)) :=
  (cl3D_out_v212 W).trans (RefOps.mm_256_64 _ _)

theorem cl3M_gcn_v225 (W : Valuation τ sig (Elt Ideal)) :
    after (cl3M (F := Ideal)) W (no_index (Proc.devRef .tc main_v225))
      = Cert.Gcn.aggregate (fun y => Host.gather gather_S50000x64_S800000x1_S800000x64_1_0_n_n_0_1_164 y (srcIdx (W (Proc.devRef .tc main_v1)))) (fun u => Host.scatterAdd (F := Ideal) (φ := .f32) scatter_S50000x64_S800000x1_S800000x64_1_0_0_1 (broadcastInDim S50000x64 ![] bcast_S_S50000x64 (constant (F := Ideal) S_ .f32 0x00000000#32)) (dstIdx (W (Proc.devRef .tc main_v3))) u) (fun k => W (Proc.devRef .tc main_v25) (ix1 k)) (W (Proc.devRef .tc main_v212)) :=
  (cl3M_out_v225 W).trans (RefOps.messages64 (W (Proc.devRef .tc main_v212)) (srcIdx (W (Proc.devRef .tc main_v1))) (dstIdx (W (Proc.devRef .tc main_v3))) (W (Proc.devRef .tc main_v25)))

theorem cl3C_gcn_v232 (W : Valuation τ sig (Elt Ideal)) :
    after (cl3C (F := Ideal)) W (no_index (Proc.devRef .tc main_v232))
      = Cert.Gcn.combine (W (Proc.devRef .tc main_v225)) (W (Proc.devRef .tc main_v212)) (fun p => W (Proc.devRef .tc main_v26) (ix1 p)) (fun q => W (Proc.devRef .tc main_arg21) (ix1 q)) :=
  (cl3C_out_v232 W).trans (RefOps.combine64 _ _ _ _)

/-! ## The two results -/

set_option maxRecDepth 8192 in
set_option maxHeartbeats 4000000 in
/-- The first result is the first encoder of the specification at the arguments' contents. -/
theorem mu_eq (V : Valuation τ sig (Elt Ideal)) :
    after (ops (F := Ideal)) V (Proc.devRef .tc main_v129)
      = Cert.Gcn.encMu (RG (V (Proc.devRef .tc main_arg1))) (fun _ => Cert.Gcn.varDev) (Ideal.ofBits .f32 0x47435000#32) (Ideal.ofBits .f32 0x3727C5AC#32) (V (Proc.devRef .tc main_arg0)) (V (Proc.devRef .tc main_arg2)) (fun q => V (Proc.devRef .tc main_arg3) (ix1 q)) (fun q => V (Proc.devRef .tc main_arg4) (ix1 q)) (fun q => V (Proc.devRef .tc main_arg5) (ix1 q)) (V (Proc.devRef .tc main_arg6)) (fun q => V (Proc.devRef .tc main_arg7) (ix1 q)) (fun q => V (Proc.devRef .tc main_arg8) (ix1 q)) (fun q => V (Proc.devRef .tc main_arg9) (ix1 q)) (V (Proc.devRef .tc main_arg10)) (fun q => V (Proc.devRef .tc main_arg11) (ix1 q)) := by
  rw [ops_eq]
  simp only [after_append]
  simp (disch := decide) only [cG_gcn_v1, cG_gcn_v3, cG_gcn_v25, cG_gcn_v26, cm1D_gcn_v27, cm1M_gcn_v40, cm1C_gcn_v47, cm1S_gcn_v50, cm1V_gcn_v51, cm1N_gcn_v67, cm2D_gcn_v68, cm2M_gcn_v81, cm2C_gcn_v88, cm2S_gcn_v91, cm2V_gcn_v92, cm2N_gcn_v108, cm3D_gcn_v109, cm3M_gcn_v122, cm3C_gcn_v129, cG_keep, cm1D_keep, cm1M_keep, cm1C_keep, cm1S_keep, cm1V_keep, cm1N_keep, cm2D_keep, cm2M_keep, cm2C_keep, cm2S_keep, cm2V_keep, cm2N_keep, cm3D_keep, cm3M_keep, cm3C_keep, cl1D_keep, cl1M_keep, cl1C_keep, cl1R_keep, cl1S_keep, cl1V_keep, cl1N_keep, cl2D_keep, cl2M_keep, cl2C_keep, cl2R_keep, cl2S_keep, cl2V_keep, cl2N_keep, cl3D_keep, cl3M_keep, cl3C_keep]
  rfl

set_option maxRecDepth 8192 in
set_option maxHeartbeats 4000000 in
/-- The second result is the second encoder of the specification at the arguments' contents. -/
theorem log_eq (V : Valuation τ sig (Elt Ideal)) :
    after (ops (F := Ideal)) V (Proc.devRef .tc main_v232)
      = Cert.Gcn.encLog (RG (V (Proc.devRef .tc main_arg1))) (fun _ => Cert.Gcn.varDev) (Ideal.ofBits .f32 0x47435000#32) (Ideal.ofBits .f32 0x3727C5AC#32) (V (Proc.devRef .tc main_arg0)) (V (Proc.devRef .tc main_arg12)) (fun q => V (Proc.devRef .tc main_arg13) (ix1 q)) (fun q => V (Proc.devRef .tc main_arg14) (ix1 q)) (fun q => V (Proc.devRef .tc main_arg15) (ix1 q)) (V (Proc.devRef .tc main_arg16)) (fun q => V (Proc.devRef .tc main_arg17) (ix1 q)) (fun q => V (Proc.devRef .tc main_arg18) (ix1 q)) (fun q => V (Proc.devRef .tc main_arg19) (ix1 q)) (V (Proc.devRef .tc main_arg20)) (fun q => V (Proc.devRef .tc main_arg21) (ix1 q)) := by
  rw [ops_eq]
  simp only [after_append]
  simp (disch := decide) only [cG_gcn_v1, cG_gcn_v3, cG_gcn_v25, cG_gcn_v26, cl1D_gcn_v130, cl1M_gcn_v143, cl1C_gcn_v150, cl1R_gcn_v151, cl1S_gcn_v154, cl1V_gcn_v155, cl1N_gcn_v170, cl2D_gcn_v171, cl2M_gcn_v184, cl2C_gcn_v191, cl2R_gcn_v192, cl2S_gcn_v195, cl2V_gcn_v196, cl2N_gcn_v211, cl3D_gcn_v212, cl3M_gcn_v225, cl3C_gcn_v232, cG_keep, cm1D_keep, cm1M_keep, cm1C_keep, cm1S_keep, cm1V_keep, cm1N_keep, cm2D_keep, cm2M_keep, cm2C_keep, cm2S_keep, cm2V_keep, cm2N_keep, cm3D_keep, cm3M_keep, cm3C_keep, cl1D_keep, cl1M_keep, cl1C_keep, cl1R_keep, cl1S_keep, cl1V_keep, cl1N_keep, cl2D_keep, cl2M_keep, cl2C_keep, cl2R_keep, cl2S_keep, cl2V_keep, cl2N_keep, cl3D_keep, cl3M_keep, cl3C_keep]
  rfl

/-! ## The arguments are left alone -/

set_option maxRecDepth 8192 in
theorem arg0_eq (V : Valuation τ sig (Elt Ideal)) :
    after (ops (F := Ideal)) V (Proc.devRef .tc main_arg0) = V (Proc.devRef .tc main_arg0) := by
  rw [ops_eq]
  simp only [after_append]
  simp (disch := decide) only [cG_keep, cm1D_keep, cm1M_keep, cm1C_keep, cm1S_keep, cm1V_keep, cm1N_keep, cm2D_keep, cm2M_keep, cm2C_keep, cm2S_keep, cm2V_keep, cm2N_keep, cm3D_keep, cm3M_keep, cm3C_keep, cl1D_keep, cl1M_keep, cl1C_keep, cl1R_keep, cl1S_keep, cl1V_keep, cl1N_keep, cl2D_keep, cl2M_keep, cl2C_keep, cl2R_keep, cl2S_keep, cl2V_keep, cl2N_keep, cl3D_keep, cl3M_keep, cl3C_keep]

set_option maxRecDepth 8192 in
theorem arg1_eq (V : Valuation τ sig (Elt Ideal)) :
    after (ops (F := Ideal)) V (Proc.devRef .tc main_arg1) = V (Proc.devRef .tc main_arg1) := by
  rw [ops_eq]
  simp only [after_append]
  simp (disch := decide) only [cG_keep, cm1D_keep, cm1M_keep, cm1C_keep, cm1S_keep, cm1V_keep, cm1N_keep, cm2D_keep, cm2M_keep, cm2C_keep, cm2S_keep, cm2V_keep, cm2N_keep, cm3D_keep, cm3M_keep, cm3C_keep, cl1D_keep, cl1M_keep, cl1C_keep, cl1R_keep, cl1S_keep, cl1V_keep, cl1N_keep, cl2D_keep, cl2M_keep, cl2C_keep, cl2R_keep, cl2S_keep, cl2V_keep, cl2N_keep, cl3D_keep, cl3M_keep, cl3C_keep]

set_option maxRecDepth 8192 in
theorem arg2_eq (V : Valuation τ sig (Elt Ideal)) :
    after (ops (F := Ideal)) V (Proc.devRef .tc main_arg2) = V (Proc.devRef .tc main_arg2) := by
  rw [ops_eq]
  simp only [after_append]
  simp (disch := decide) only [cG_keep, cm1D_keep, cm1M_keep, cm1C_keep, cm1S_keep, cm1V_keep, cm1N_keep, cm2D_keep, cm2M_keep, cm2C_keep, cm2S_keep, cm2V_keep, cm2N_keep, cm3D_keep, cm3M_keep, cm3C_keep, cl1D_keep, cl1M_keep, cl1C_keep, cl1R_keep, cl1S_keep, cl1V_keep, cl1N_keep, cl2D_keep, cl2M_keep, cl2C_keep, cl2R_keep, cl2S_keep, cl2V_keep, cl2N_keep, cl3D_keep, cl3M_keep, cl3C_keep]

set_option maxRecDepth 8192 in
theorem arg3_eq (V : Valuation τ sig (Elt Ideal)) :
    after (ops (F := Ideal)) V (Proc.devRef .tc main_arg3) = V (Proc.devRef .tc main_arg3) := by
  rw [ops_eq]
  simp only [after_append]
  simp (disch := decide) only [cG_keep, cm1D_keep, cm1M_keep, cm1C_keep, cm1S_keep, cm1V_keep, cm1N_keep, cm2D_keep, cm2M_keep, cm2C_keep, cm2S_keep, cm2V_keep, cm2N_keep, cm3D_keep, cm3M_keep, cm3C_keep, cl1D_keep, cl1M_keep, cl1C_keep, cl1R_keep, cl1S_keep, cl1V_keep, cl1N_keep, cl2D_keep, cl2M_keep, cl2C_keep, cl2R_keep, cl2S_keep, cl2V_keep, cl2N_keep, cl3D_keep, cl3M_keep, cl3C_keep]

set_option maxRecDepth 8192 in
theorem arg4_eq (V : Valuation τ sig (Elt Ideal)) :
    after (ops (F := Ideal)) V (Proc.devRef .tc main_arg4) = V (Proc.devRef .tc main_arg4) := by
  rw [ops_eq]
  simp only [after_append]
  simp (disch := decide) only [cG_keep, cm1D_keep, cm1M_keep, cm1C_keep, cm1S_keep, cm1V_keep, cm1N_keep, cm2D_keep, cm2M_keep, cm2C_keep, cm2S_keep, cm2V_keep, cm2N_keep, cm3D_keep, cm3M_keep, cm3C_keep, cl1D_keep, cl1M_keep, cl1C_keep, cl1R_keep, cl1S_keep, cl1V_keep, cl1N_keep, cl2D_keep, cl2M_keep, cl2C_keep, cl2R_keep, cl2S_keep, cl2V_keep, cl2N_keep, cl3D_keep, cl3M_keep, cl3C_keep]

set_option maxRecDepth 8192 in
theorem arg5_eq (V : Valuation τ sig (Elt Ideal)) :
    after (ops (F := Ideal)) V (Proc.devRef .tc main_arg5) = V (Proc.devRef .tc main_arg5) := by
  rw [ops_eq]
  simp only [after_append]
  simp (disch := decide) only [cG_keep, cm1D_keep, cm1M_keep, cm1C_keep, cm1S_keep, cm1V_keep, cm1N_keep, cm2D_keep, cm2M_keep, cm2C_keep, cm2S_keep, cm2V_keep, cm2N_keep, cm3D_keep, cm3M_keep, cm3C_keep, cl1D_keep, cl1M_keep, cl1C_keep, cl1R_keep, cl1S_keep, cl1V_keep, cl1N_keep, cl2D_keep, cl2M_keep, cl2C_keep, cl2R_keep, cl2S_keep, cl2V_keep, cl2N_keep, cl3D_keep, cl3M_keep, cl3C_keep]

set_option maxRecDepth 8192 in
theorem arg6_eq (V : Valuation τ sig (Elt Ideal)) :
    after (ops (F := Ideal)) V (Proc.devRef .tc main_arg6) = V (Proc.devRef .tc main_arg6) := by
  rw [ops_eq]
  simp only [after_append]
  simp (disch := decide) only [cG_keep, cm1D_keep, cm1M_keep, cm1C_keep, cm1S_keep, cm1V_keep, cm1N_keep, cm2D_keep, cm2M_keep, cm2C_keep, cm2S_keep, cm2V_keep, cm2N_keep, cm3D_keep, cm3M_keep, cm3C_keep, cl1D_keep, cl1M_keep, cl1C_keep, cl1R_keep, cl1S_keep, cl1V_keep, cl1N_keep, cl2D_keep, cl2M_keep, cl2C_keep, cl2R_keep, cl2S_keep, cl2V_keep, cl2N_keep, cl3D_keep, cl3M_keep, cl3C_keep]

set_option maxRecDepth 8192 in
theorem arg7_eq (V : Valuation τ sig (Elt Ideal)) :
    after (ops (F := Ideal)) V (Proc.devRef .tc main_arg7) = V (Proc.devRef .tc main_arg7) := by
  rw [ops_eq]
  simp only [after_append]
  simp (disch := decide) only [cG_keep, cm1D_keep, cm1M_keep, cm1C_keep, cm1S_keep, cm1V_keep, cm1N_keep, cm2D_keep, cm2M_keep, cm2C_keep, cm2S_keep, cm2V_keep, cm2N_keep, cm3D_keep, cm3M_keep, cm3C_keep, cl1D_keep, cl1M_keep, cl1C_keep, cl1R_keep, cl1S_keep, cl1V_keep, cl1N_keep, cl2D_keep, cl2M_keep, cl2C_keep, cl2R_keep, cl2S_keep, cl2V_keep, cl2N_keep, cl3D_keep, cl3M_keep, cl3C_keep]

set_option maxRecDepth 8192 in
theorem arg8_eq (V : Valuation τ sig (Elt Ideal)) :
    after (ops (F := Ideal)) V (Proc.devRef .tc main_arg8) = V (Proc.devRef .tc main_arg8) := by
  rw [ops_eq]
  simp only [after_append]
  simp (disch := decide) only [cG_keep, cm1D_keep, cm1M_keep, cm1C_keep, cm1S_keep, cm1V_keep, cm1N_keep, cm2D_keep, cm2M_keep, cm2C_keep, cm2S_keep, cm2V_keep, cm2N_keep, cm3D_keep, cm3M_keep, cm3C_keep, cl1D_keep, cl1M_keep, cl1C_keep, cl1R_keep, cl1S_keep, cl1V_keep, cl1N_keep, cl2D_keep, cl2M_keep, cl2C_keep, cl2R_keep, cl2S_keep, cl2V_keep, cl2N_keep, cl3D_keep, cl3M_keep, cl3C_keep]

set_option maxRecDepth 8192 in
theorem arg9_eq (V : Valuation τ sig (Elt Ideal)) :
    after (ops (F := Ideal)) V (Proc.devRef .tc main_arg9) = V (Proc.devRef .tc main_arg9) := by
  rw [ops_eq]
  simp only [after_append]
  simp (disch := decide) only [cG_keep, cm1D_keep, cm1M_keep, cm1C_keep, cm1S_keep, cm1V_keep, cm1N_keep, cm2D_keep, cm2M_keep, cm2C_keep, cm2S_keep, cm2V_keep, cm2N_keep, cm3D_keep, cm3M_keep, cm3C_keep, cl1D_keep, cl1M_keep, cl1C_keep, cl1R_keep, cl1S_keep, cl1V_keep, cl1N_keep, cl2D_keep, cl2M_keep, cl2C_keep, cl2R_keep, cl2S_keep, cl2V_keep, cl2N_keep, cl3D_keep, cl3M_keep, cl3C_keep]

set_option maxRecDepth 8192 in
theorem arg10_eq (V : Valuation τ sig (Elt Ideal)) :
    after (ops (F := Ideal)) V (Proc.devRef .tc main_arg10) = V (Proc.devRef .tc main_arg10) := by
  rw [ops_eq]
  simp only [after_append]
  simp (disch := decide) only [cG_keep, cm1D_keep, cm1M_keep, cm1C_keep, cm1S_keep, cm1V_keep, cm1N_keep, cm2D_keep, cm2M_keep, cm2C_keep, cm2S_keep, cm2V_keep, cm2N_keep, cm3D_keep, cm3M_keep, cm3C_keep, cl1D_keep, cl1M_keep, cl1C_keep, cl1R_keep, cl1S_keep, cl1V_keep, cl1N_keep, cl2D_keep, cl2M_keep, cl2C_keep, cl2R_keep, cl2S_keep, cl2V_keep, cl2N_keep, cl3D_keep, cl3M_keep, cl3C_keep]

set_option maxRecDepth 8192 in
theorem arg11_eq (V : Valuation τ sig (Elt Ideal)) :
    after (ops (F := Ideal)) V (Proc.devRef .tc main_arg11) = V (Proc.devRef .tc main_arg11) := by
  rw [ops_eq]
  simp only [after_append]
  simp (disch := decide) only [cG_keep, cm1D_keep, cm1M_keep, cm1C_keep, cm1S_keep, cm1V_keep, cm1N_keep, cm2D_keep, cm2M_keep, cm2C_keep, cm2S_keep, cm2V_keep, cm2N_keep, cm3D_keep, cm3M_keep, cm3C_keep, cl1D_keep, cl1M_keep, cl1C_keep, cl1R_keep, cl1S_keep, cl1V_keep, cl1N_keep, cl2D_keep, cl2M_keep, cl2C_keep, cl2R_keep, cl2S_keep, cl2V_keep, cl2N_keep, cl3D_keep, cl3M_keep, cl3C_keep]

set_option maxRecDepth 8192 in
theorem arg12_eq (V : Valuation τ sig (Elt Ideal)) :
    after (ops (F := Ideal)) V (Proc.devRef .tc main_arg12) = V (Proc.devRef .tc main_arg12) := by
  rw [ops_eq]
  simp only [after_append]
  simp (disch := decide) only [cG_keep, cm1D_keep, cm1M_keep, cm1C_keep, cm1S_keep, cm1V_keep, cm1N_keep, cm2D_keep, cm2M_keep, cm2C_keep, cm2S_keep, cm2V_keep, cm2N_keep, cm3D_keep, cm3M_keep, cm3C_keep, cl1D_keep, cl1M_keep, cl1C_keep, cl1R_keep, cl1S_keep, cl1V_keep, cl1N_keep, cl2D_keep, cl2M_keep, cl2C_keep, cl2R_keep, cl2S_keep, cl2V_keep, cl2N_keep, cl3D_keep, cl3M_keep, cl3C_keep]

set_option maxRecDepth 8192 in
theorem arg13_eq (V : Valuation τ sig (Elt Ideal)) :
    after (ops (F := Ideal)) V (Proc.devRef .tc main_arg13) = V (Proc.devRef .tc main_arg13) := by
  rw [ops_eq]
  simp only [after_append]
  simp (disch := decide) only [cG_keep, cm1D_keep, cm1M_keep, cm1C_keep, cm1S_keep, cm1V_keep, cm1N_keep, cm2D_keep, cm2M_keep, cm2C_keep, cm2S_keep, cm2V_keep, cm2N_keep, cm3D_keep, cm3M_keep, cm3C_keep, cl1D_keep, cl1M_keep, cl1C_keep, cl1R_keep, cl1S_keep, cl1V_keep, cl1N_keep, cl2D_keep, cl2M_keep, cl2C_keep, cl2R_keep, cl2S_keep, cl2V_keep, cl2N_keep, cl3D_keep, cl3M_keep, cl3C_keep]

set_option maxRecDepth 8192 in
theorem arg14_eq (V : Valuation τ sig (Elt Ideal)) :
    after (ops (F := Ideal)) V (Proc.devRef .tc main_arg14) = V (Proc.devRef .tc main_arg14) := by
  rw [ops_eq]
  simp only [after_append]
  simp (disch := decide) only [cG_keep, cm1D_keep, cm1M_keep, cm1C_keep, cm1S_keep, cm1V_keep, cm1N_keep, cm2D_keep, cm2M_keep, cm2C_keep, cm2S_keep, cm2V_keep, cm2N_keep, cm3D_keep, cm3M_keep, cm3C_keep, cl1D_keep, cl1M_keep, cl1C_keep, cl1R_keep, cl1S_keep, cl1V_keep, cl1N_keep, cl2D_keep, cl2M_keep, cl2C_keep, cl2R_keep, cl2S_keep, cl2V_keep, cl2N_keep, cl3D_keep, cl3M_keep, cl3C_keep]

set_option maxRecDepth 8192 in
theorem arg15_eq (V : Valuation τ sig (Elt Ideal)) :
    after (ops (F := Ideal)) V (Proc.devRef .tc main_arg15) = V (Proc.devRef .tc main_arg15) := by
  rw [ops_eq]
  simp only [after_append]
  simp (disch := decide) only [cG_keep, cm1D_keep, cm1M_keep, cm1C_keep, cm1S_keep, cm1V_keep, cm1N_keep, cm2D_keep, cm2M_keep, cm2C_keep, cm2S_keep, cm2V_keep, cm2N_keep, cm3D_keep, cm3M_keep, cm3C_keep, cl1D_keep, cl1M_keep, cl1C_keep, cl1R_keep, cl1S_keep, cl1V_keep, cl1N_keep, cl2D_keep, cl2M_keep, cl2C_keep, cl2R_keep, cl2S_keep, cl2V_keep, cl2N_keep, cl3D_keep, cl3M_keep, cl3C_keep]

set_option maxRecDepth 8192 in
theorem arg16_eq (V : Valuation τ sig (Elt Ideal)) :
    after (ops (F := Ideal)) V (Proc.devRef .tc main_arg16) = V (Proc.devRef .tc main_arg16) := by
  rw [ops_eq]
  simp only [after_append]
  simp (disch := decide) only [cG_keep, cm1D_keep, cm1M_keep, cm1C_keep, cm1S_keep, cm1V_keep, cm1N_keep, cm2D_keep, cm2M_keep, cm2C_keep, cm2S_keep, cm2V_keep, cm2N_keep, cm3D_keep, cm3M_keep, cm3C_keep, cl1D_keep, cl1M_keep, cl1C_keep, cl1R_keep, cl1S_keep, cl1V_keep, cl1N_keep, cl2D_keep, cl2M_keep, cl2C_keep, cl2R_keep, cl2S_keep, cl2V_keep, cl2N_keep, cl3D_keep, cl3M_keep, cl3C_keep]

set_option maxRecDepth 8192 in
theorem arg17_eq (V : Valuation τ sig (Elt Ideal)) :
    after (ops (F := Ideal)) V (Proc.devRef .tc main_arg17) = V (Proc.devRef .tc main_arg17) := by
  rw [ops_eq]
  simp only [after_append]
  simp (disch := decide) only [cG_keep, cm1D_keep, cm1M_keep, cm1C_keep, cm1S_keep, cm1V_keep, cm1N_keep, cm2D_keep, cm2M_keep, cm2C_keep, cm2S_keep, cm2V_keep, cm2N_keep, cm3D_keep, cm3M_keep, cm3C_keep, cl1D_keep, cl1M_keep, cl1C_keep, cl1R_keep, cl1S_keep, cl1V_keep, cl1N_keep, cl2D_keep, cl2M_keep, cl2C_keep, cl2R_keep, cl2S_keep, cl2V_keep, cl2N_keep, cl3D_keep, cl3M_keep, cl3C_keep]

set_option maxRecDepth 8192 in
theorem arg18_eq (V : Valuation τ sig (Elt Ideal)) :
    after (ops (F := Ideal)) V (Proc.devRef .tc main_arg18) = V (Proc.devRef .tc main_arg18) := by
  rw [ops_eq]
  simp only [after_append]
  simp (disch := decide) only [cG_keep, cm1D_keep, cm1M_keep, cm1C_keep, cm1S_keep, cm1V_keep, cm1N_keep, cm2D_keep, cm2M_keep, cm2C_keep, cm2S_keep, cm2V_keep, cm2N_keep, cm3D_keep, cm3M_keep, cm3C_keep, cl1D_keep, cl1M_keep, cl1C_keep, cl1R_keep, cl1S_keep, cl1V_keep, cl1N_keep, cl2D_keep, cl2M_keep, cl2C_keep, cl2R_keep, cl2S_keep, cl2V_keep, cl2N_keep, cl3D_keep, cl3M_keep, cl3C_keep]

set_option maxRecDepth 8192 in
theorem arg19_eq (V : Valuation τ sig (Elt Ideal)) :
    after (ops (F := Ideal)) V (Proc.devRef .tc main_arg19) = V (Proc.devRef .tc main_arg19) := by
  rw [ops_eq]
  simp only [after_append]
  simp (disch := decide) only [cG_keep, cm1D_keep, cm1M_keep, cm1C_keep, cm1S_keep, cm1V_keep, cm1N_keep, cm2D_keep, cm2M_keep, cm2C_keep, cm2S_keep, cm2V_keep, cm2N_keep, cm3D_keep, cm3M_keep, cm3C_keep, cl1D_keep, cl1M_keep, cl1C_keep, cl1R_keep, cl1S_keep, cl1V_keep, cl1N_keep, cl2D_keep, cl2M_keep, cl2C_keep, cl2R_keep, cl2S_keep, cl2V_keep, cl2N_keep, cl3D_keep, cl3M_keep, cl3C_keep]

set_option maxRecDepth 8192 in
theorem arg20_eq (V : Valuation τ sig (Elt Ideal)) :
    after (ops (F := Ideal)) V (Proc.devRef .tc main_arg20) = V (Proc.devRef .tc main_arg20) := by
  rw [ops_eq]
  simp only [after_append]
  simp (disch := decide) only [cG_keep, cm1D_keep, cm1M_keep, cm1C_keep, cm1S_keep, cm1V_keep, cm1N_keep, cm2D_keep, cm2M_keep, cm2C_keep, cm2S_keep, cm2V_keep, cm2N_keep, cm3D_keep, cm3M_keep, cm3C_keep, cl1D_keep, cl1M_keep, cl1C_keep, cl1R_keep, cl1S_keep, cl1V_keep, cl1N_keep, cl2D_keep, cl2M_keep, cl2C_keep, cl2R_keep, cl2S_keep, cl2V_keep, cl2N_keep, cl3D_keep, cl3M_keep, cl3C_keep]

set_option maxRecDepth 8192 in
theorem arg21_eq (V : Valuation τ sig (Elt Ideal)) :
    after (ops (F := Ideal)) V (Proc.devRef .tc main_arg21) = V (Proc.devRef .tc main_arg21) := by
  rw [ops_eq]
  simp only [after_append]
  simp (disch := decide) only [cG_keep, cm1D_keep, cm1M_keep, cm1C_keep, cm1S_keep, cm1V_keep, cm1N_keep, cm2D_keep, cm2M_keep, cm2C_keep, cm2S_keep, cm2V_keep, cm2N_keep, cm3D_keep, cm3M_keep, cm3C_keep, cl1D_keep, cl1M_keep, cl1C_keep, cl1R_keep, cl1S_keep, cl1V_keep, cl1N_keep, cl2D_keep, cl2M_keep, cl2C_keep, cl2R_keep, cl2S_keep, cl2V_keep, cl2N_keep, cl3D_keep, cl3M_keep, cl3C_keep]

/-! ## The run -/

/-- On every device, at the ideal values, from any memory with zero counters: every weakly fair execution of the program
    terminates with its two results at the specification's two encoders of the launch contents of its arguments, and
    the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v129) = Cert.Gcn.encMu (RG (m ((c.tc : Thread nD τ).loc main_arg1))) (fun _ => Cert.Gcn.varDev) (Ideal.ofBits .f32 0x47435000#32) (Ideal.ofBits .f32 0x3727C5AC#32) (m ((c.tc : Thread nD τ).loc main_arg0)) (m ((c.tc : Thread nD τ).loc main_arg2)) (fun q => m ((c.tc : Thread nD τ).loc main_arg3) (ix1 q)) (fun q => m ((c.tc : Thread nD τ).loc main_arg4) (ix1 q)) (fun q => m ((c.tc : Thread nD τ).loc main_arg5) (ix1 q)) (m ((c.tc : Thread nD τ).loc main_arg6)) (fun q => m ((c.tc : Thread nD τ).loc main_arg7) (ix1 q)) (fun q => m ((c.tc : Thread nD τ).loc main_arg8) (ix1 q)) (fun q => m ((c.tc : Thread nD τ).loc main_arg9) (ix1 q)) (m ((c.tc : Thread nD τ).loc main_arg10)) (fun q => m ((c.tc : Thread nD τ).loc main_arg11) (ix1 q))
      ∧ r.2.mem ((c.tc : Thread nD τ).loc main_v232) = Cert.Gcn.encLog (RG (m ((c.tc : Thread nD τ).loc main_arg1))) (fun _ => Cert.Gcn.varDev) (Ideal.ofBits .f32 0x47435000#32) (Ideal.ofBits .f32 0x3727C5AC#32) (m ((c.tc : Thread nD τ).loc main_arg0)) (m ((c.tc : Thread nD τ).loc main_arg12)) (fun q => m ((c.tc : Thread nD τ).loc main_arg13) (ix1 q)) (fun q => m ((c.tc : Thread nD τ).loc main_arg14) (ix1 q)) (fun q => m ((c.tc : Thread nD τ).loc main_arg15) (ix1 q)) (m ((c.tc : Thread nD τ).loc main_arg16)) (fun q => m ((c.tc : Thread nD τ).loc main_arg17) (ix1 q)) (fun q => m ((c.tc : Thread nD τ).loc main_arg18) (ix1 q)) (fun q => m ((c.tc : Thread nD τ).loc main_arg19) (ix1 q)) (m ((c.tc : Thread nD τ).loc main_arg20)) (fun q => m ((c.tc : Thread nD τ).loc main_arg21) (ix1 q))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21) :=
  (θ_run defs _ _).mono (fun _ h c => ⟨(h c main_v129).trans (mu_eq _), (h c main_v232).trans (log_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _),
      (h c main_arg11).trans (arg11_eq _),
      (h c main_arg12).trans (arg12_eq _),
      (h c main_arg13).trans (arg13_eq _),
      (h c main_arg14).trans (arg14_eq _),
      (h c main_arg15).trans (arg15_eq _),
      (h c main_arg16).trans (arg16_eq _),
      (h c main_arg17).trans (arg17_eq _),
      (h c main_arg18).trans (arg18_eq _),
      (h c main_arg19).trans (arg19_eq _),
      (h c main_arg20).trans (arg20_eq _),
      (h c main_arg21).trans (arg21_eq _)⟩)
    (run_main m ρ)

end Cert.ReferenceIdeal.RefRun

end
-- ==== Proof.GraphBridge.lean ====
/-
  The graph side of the kernel program is the graph side of the reference program.
  Both programs start with the same chain of host operations on the edge array: its two rows as vectors (the
  edges' sources and destinations), the in-degrees summed into the nodes from a vector of ones, the reciprocal square
  root of one plus the in-degree, its product at an edge's two ends (the edge weight) and its square (the self-loop
  weight). The kernel program's first stretch leaves these in four buffers; read back, each is the reference's term
  on the same edge array, the two programs' shape and dimension records being the same literals.
-/
import proofs.«106426_j33148557590872_1_alg».proof.Proof.Gen.KernelIdeal.Launch
import proofs.«106426_j33148557590872_1_alg».proof.Proof.KStageMsg
import proofs.«106426_j33148557590872_1_alg».proof.Proof.RefGraph
import Idealize.ShloMosaic.Lib.StableHlo.Run

set_option maxRecDepth 16384

noncomputable section

namespace Cert.GraphBridge

open Idealize.ShloMosaic Idealize.ShloMosaic.TcCoe Idealize.ShloMosaic.StableHlo Idealize.ShloMosaic.ValueIdx
open Cert.KernelIdeal Cert.KernelIdeal.Gen

/-- After the first stretch the sources' buffer holds row 0 of the edge array. -/
theorem sources_eq (W : Valuation τ sig (Elt Ideal)) :
    (StableHlo.after (hostOps0 (F := Ideal)) W (Proc.devRef .tc main_v1) : IVec S800000 32)
      = Cert.ReferenceIdeal.RefRun.v1Of (W (Proc.devRef .tc main_arg1)) := by
  after_results_simp
  rfl

/-- After the first stretch the destinations' buffer holds row 1 of the edge array. -/
theorem dests_eq (W : Valuation τ sig (Elt Ideal)) :
    (StableHlo.after (hostOps0 (F := Ideal)) W (Proc.devRef .tc main_v3) : IVec S800000 32)
      = Cert.ReferenceIdeal.RefRun.v3Of (W (Proc.devRef .tc main_arg1)) := by
  after_results_simp
  rfl

/-- After the first stretch the edge weights' buffer holds the reference's edge weights. -/
theorem edgeWeights_eq (W : Valuation τ sig (Elt Ideal)) :
    (StableHlo.after (hostOps0 (F := Ideal)) W (Proc.devRef .tc main_v25) : S800000.Idx → EReal)
      = Cert.ReferenceIdeal.RefRun.neOf (W (Proc.devRef .tc main_arg1)) := by
  after_results_simp
  rfl

/-- After the first stretch the self-loop weights' buffer holds the reference's self-loop weights. -/
theorem selfWeights_eq (W : Valuation τ sig (Elt Ideal)) :
    (StableHlo.after (hostOps0 (F := Ideal)) W (Proc.devRef .tc main_v26) : S50000.Idx → EReal)
      = Cert.ReferenceIdeal.RefRun.nsOf (W (Proc.devRef .tc main_arg1)) := by
  after_results_simp
  rfl

/-- The kernel program's graph side, read off the four buffers its first stretch leaves, is the reference's graph side
    on the same edge array. -/
theorem graph_eq (W : Valuation τ sig (Elt Ideal)) :
    Cert.KernelIdeal.KStage.kgraph (StableHlo.after (hostOps0 (F := Ideal)) W (Proc.devRef .tc main_v1))
      (StableHlo.after (hostOps0 (F := Ideal)) W (Proc.devRef .tc main_v3))
      (StableHlo.after (hostOps0 (F := Ideal)) W (Proc.devRef .tc main_v25))
      (StableHlo.after (hostOps0 (F := Ideal)) W (Proc.devRef .tc main_v26))
    = Cert.ReferenceIdeal.RefRun.RG (W (Proc.devRef .tc main_arg1)) := by
  rw [sources_eq, dests_eq, edgeWeights_eq, selfWeights_eq]
  rfl

end Cert.GraphBridge

end
-- ==== Proof.LibRealVar.lean ====
/-
  Facts about extended reals that happen to be reals: a finite sum of reals is the real sum; sums, products,
  differences, quotients by a nonzero real, maxima and the reciprocal square root of a positive real stay real;
  and the variance identity: for a real column y_1 … y_n with mean μ = (∑ y) / n,
      (∑ (y_p − μ)²) / n = (∑ y_p²) / n − μ²,
  which is distributivity and therefore needs every y_p to be a real. The deviation form is also nonnegative.
-/
import Idealize.ShloMosaic.PureOps.Ideal

noncomputable section

namespace Cert.RealMath

open Idealize.ShloMosaic

/-- x is (the coercion of) a real number. -/
def IsReal (x : EReal) : Prop := ∃ r : ℝ, x = (r : EReal)

theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem isReal_coe (r : ℝ) : IsReal (r : EReal) := ⟨r, rfl⟩

theorem isReal_zero : IsReal 0 := ⟨0, rfl⟩

theorem isReal_add {x y : EReal} (hx : IsReal x) (hy : IsReal y) : IsReal (x + y) := by
  obtain ⟨a, rfl⟩ := hx; obtain ⟨b, rfl⟩ := hy; exact ⟨a + b, (EReal.coe_add a b).symm⟩

theorem isReal_sub {x y : EReal} (hx : IsReal x) (hy : IsReal y) : IsReal (x - y) := by
  obtain ⟨a, rfl⟩ := hx; obtain ⟨b, rfl⟩ := hy; exact ⟨a - b, (EReal.coe_sub a b).symm⟩

theorem isReal_mul {x y : EReal} (hx : IsReal x) (hy : IsReal y) : IsReal (x * y) := by
  obtain ⟨a, rfl⟩ := hx; obtain ⟨b, rfl⟩ := hy; exact ⟨a * b, (EReal.coe_mul a b).symm⟩

theorem isReal_sum {ι : Type*} (s : Finset ι) (f : ι → EReal) (h : ∀ i ∈ s, IsReal (f i)) : IsReal (∑ i ∈ s, f i) := by
  classical
  induction s using Finset.induction_on with
  | empty => exact ⟨0, by simp⟩
  | insert a s ha ih =>
    rw [Finset.sum_insert ha]
    exact isReal_add (h a (Finset.mem_insert_self a s)) (ih fun i hi => h i (Finset.mem_insert_of_mem hi))

theorem isReal_div {x : EReal} {c : ℝ} (hx : IsReal x) (hc : c ≠ 0) : IsReal (Ideal.div x (c : EReal)) := by
  obtain ⟨a, rfl⟩ := hx
  exact ⟨a * (1 / c), by rw [Ideal.div_coe hc, ← EReal.coe_mul]⟩

theorem isReal_max {x y : EReal} (hx : IsReal x) (hy : IsReal y) : IsReal (max x y) := by
  rcases le_total x y with h | h
  · rw [max_eq_right h]; exact hy
  · rw [max_eq_left h]; exact hx

theorem isReal_rsqrt {r : ℝ} (h : 0 < r) : IsReal (Ideal.rsqrt (r : EReal)) :=
  ⟨(Real.sqrt r)⁻¹, by rw [Ideal.rsqrt_coe, if_neg (not_lt.mpr h.le), if_neg h.ne']⟩

section Variance

variable {n : ℕ} (y : Fin n → EReal) (c : ℝ)

/-- The variance identity on a real column. -/
theorem var_identity (hy : ∀ p, IsReal (y p)) (hc : c ≠ 0) (hn : (n : ℝ) = c) :
    Ideal.div (∑ p, (y p - Ideal.div (∑ p, y p) (c : EReal)) * (y p - Ideal.div (∑ p, y p) (c : EReal))) (c : EReal)
      = Ideal.div (∑ p, y p * y p) (c : EReal)
        - Ideal.div (∑ p, y p) (c : EReal) * Ideal.div (∑ p, y p) (c : EReal) := by
  choose yr hyr using hy
  simp only [hyr]
  have hS : ∑ p, ((yr p : ℝ) : EReal) = ((∑ p, yr p : ℝ) : EReal) := coe_sum _ _
  have hSS : ∑ p, ((yr p : ℝ) : EReal) * ((yr p : ℝ) : EReal) = ((∑ p, yr p * yr p : ℝ) : EReal) := by
    rw [← coe_sum]; exact Finset.sum_congr rfl fun p _ => (EReal.coe_mul _ _).symm
  obtain ⟨μ, hμ⟩ : ∃ μ : ℝ, μ = (∑ p, yr p) * (1 / c) := ⟨_, rfl⟩
  have hM : Ideal.div (∑ p, ((yr p : ℝ) : EReal)) (c : EReal) = ((μ : ℝ) : EReal) := by
    rw [hS, Ideal.div_coe hc, ← EReal.coe_mul, hμ]
  rw [hM, hSS]
  have hD : ∑ p, (((yr p : ℝ) : EReal) - (μ : EReal)) * (((yr p : ℝ) : EReal) - (μ : EReal))
      = ((∑ p, (yr p - μ) * (yr p - μ) : ℝ) : EReal) := by
    rw [← coe_sum]; exact Finset.sum_congr rfl fun p _ => by rw [← EReal.coe_sub, ← EReal.coe_mul]
  rw [hD, Ideal.div_coe hc, Ideal.div_coe hc, ← EReal.coe_mul, ← EReal.coe_mul, ← EReal.coe_mul, ← EReal.coe_sub]
  refine congrArg _ ?_
  have h1 : ∀ p, (yr p - μ) * (yr p - μ) = yr p * yr p - 2 * μ * yr p + μ * μ := fun p => by ring
  simp only [h1, Finset.sum_add_distrib, Finset.sum_sub_distrib, ← Finset.mul_sum, Finset.sum_const,
    Finset.card_univ, Fintype.card_fin, nsmul_eq_mul]
  rw [hn, hμ]
  field_simp
  ring

/-- The mean of squared deviations of a real column, over a positive count, is a nonnegative real. -/
theorem var_nonneg (hy : ∀ p, IsReal (y p)) (hc : 0 < c) :
    ∃ v : ℝ, 0 ≤ v ∧ Ideal.div (∑ p, (y p - Ideal.div (∑ p, y p) (c : EReal)) * (y p - Ideal.div (∑ p, y p) (c : EReal)))
      (c : EReal) = (v : EReal) := by
  choose yr hyr using hy
  simp only [hyr]
  have hS : ∑ p, ((yr p : ℝ) : EReal) = ((∑ p, yr p : ℝ) : EReal) := coe_sum _ _
  obtain ⟨μ, hμ⟩ : ∃ μ : ℝ, μ = (∑ p, yr p) * (1 / c) := ⟨_, rfl⟩
  have hM : Ideal.div (∑ p, ((yr p : ℝ) : EReal)) (c : EReal) = ((μ : ℝ) : EReal) := by
    rw [hS, Ideal.div_coe hc.ne', ← EReal.coe_mul, hμ]
  rw [hM]
  have hD : ∑ p, (((yr p : ℝ) : EReal) - (μ : EReal)) * (((yr p : ℝ) : EReal) - (μ : EReal))
      = ((∑ p, (yr p - μ) * (yr p - μ) : ℝ) : EReal) := by
    rw [← coe_sum]; exact Finset.sum_congr rfl fun p _ => by rw [← EReal.coe_sub, ← EReal.coe_mul]
  rw [hD, Ideal.div_coe hc.ne', ← EReal.coe_mul]
  exact ⟨_, mul_nonneg (Finset.sum_nonneg fun p _ => mul_self_nonneg _) (by positivity), rfl⟩

end Variance

end Cert.RealMath

end
-- ==== Proof.GcnAlgebra.lean ====
/-
  Realness and the variance law for the graph-convolution encoders of GcnSpec.
  On arrays whose entries are real numbers every operation of the encoders stays real (finite sums and
  products of reals, the positive part, a quotient by the nonzero count, and rsqrt of a positive real), the
  column variance "mean of squares minus squared mean" equals "mean of squared deviations", and it is
  nonnegative, so variance + ε is positive.  Hence the two spellings of the variance give the same encoder.
  The graph side (gather along sources, sum into destinations) enters only through "real in, real out".
-/
import proofs.«106426_j33148557590872_1_alg».proof.Proof.GcnSpec
import proofs.«106426_j33148557590872_1_alg».proof.Proof.LibRealVar

noncomputable section

namespace Cert.Gcn

open Cert.RealMath Idealize.ShloMosaic Idealize.ShloMosaic.ValueIdx

/-- Every entry of the array is a real number. -/
def MatReal {n d : Nat} (v : Mat n d) : Prop := ∀ j, IsReal (v j)

/-- Every entry of the row is a real number. -/
def RowReal {d : Nat} (b : Fin d → EReal) : Prop := ∀ q, IsReal (b q)

theorem mm_real {n a b : Nat} {x : Mat n a} {w : Mat a b} (hx : MatReal x) (hw : MatReal w) : MatReal (mm x w) := by
  intro j
  unfold mm
  exact isReal_sum _ _ (fun k _ => isReal_mul (hx _) (hw _))

theorem combine_real {n d : Nat} {agg xw : Mat n d} {ns : Fin n → EReal} {b : Fin d → EReal}
    (hagg : MatReal agg) (hxw : MatReal xw) (hns : RowReal ns) (hb : RowReal b) : MatReal (combine agg xw ns b) := by
  intro j
  unfold combine
  exact isReal_add (isReal_add (hagg j) (isReal_mul (hxw j) (hns _))) (hb _)

theorem relu_real {n d : Nat} {v : Mat n d} (hv : MatReal v) : MatReal (relu v) := by
  intro j
  unfold relu
  exact isReal_max (hv j) isReal_zero

theorem conv_real {n e d : Nat} {gth : Mat n d → Mat e d} {sct : Mat e d → Mat n d} {ne : Fin e → EReal}
    {ns : Fin n → EReal} {xw : Mat n d} {b : Fin d → EReal}
    (hg : ∀ x, MatReal x → MatReal (gth x)) (hs : ∀ u, MatReal u → MatReal (sct u))
    (hne : RowReal ne) (hns : RowReal ns) (hxw : MatReal xw) (hb : RowReal b) :
    MatReal (conv gth sct ne ns xw b) := by
  unfold conv aggregate
  exact combine_real (hs _ (fun k => isReal_mul (hg _ hxw k) (hne _))) hxw hns hb

section stats

variable {n d : Nat} (v : Mat n d) (cr : ℝ)

theorem mean_real (hv : MatReal v) (hc : cr ≠ 0) : RowReal (mean v (cr : EReal)) := by
  intro q
  unfold mean colsum
  exact isReal_div (isReal_sum _ _ (fun p _ => hv _)) hc

/-- On real columns the two spellings of the variance agree. -/
theorem var_eq (hv : MatReal v) (hc : cr ≠ 0) (hn : (n : ℝ) = cr) : varSq v (cr : EReal) = varDev v (cr : EReal) := by
  funext q
  simp only [varSq, varDev, mean, colsum, colsumsq]
  exact (var_identity (fun p => v (ix2 p q)) cr (fun p => hv _) hc hn).symm

/-- On real columns the variance is a nonnegative real. -/
theorem varDev_nonneg (hv : MatReal v) (hc : 0 < cr) (q : Fin d) :
    ∃ r : ℝ, 0 ≤ r ∧ varDev v (cr : EReal) q = (r : EReal) := by
  simp only [varDev, mean, colsum]
  exact var_nonneg (fun p => v (ix2 p q)) cr (fun p => hv _) hc

end stats

theorem bn_real {n d : Nat} {x : Mat n d} {mu var g be : Fin d → EReal} {er : ℝ}
    (hx : MatReal x) (hmu : RowReal mu) (hvar : ∀ q, ∃ r : ℝ, 0 ≤ r ∧ var q = (r : EReal))
    (hg : RowReal g) (hbe : RowReal be) (he : 0 < er) : MatReal (bn x mu var g be (er : EReal)) := by
  intro j
  unfold bn
  obtain ⟨r, hr0, hr⟩ := hvar (j 1)
  rw [hr, ← EReal.coe_add]
  exact isReal_add (isReal_mul (isReal_mul (isReal_sub (hx j) (hmu _)) (isReal_rsqrt (by linarith))) (hg _)) (hbe _)

section layers

variable {n e d : Nat} {gth : Mat n d → Mat e d} {sct : Mat e d → Mat n d} {ne : Fin e → EReal}
  {ns : Fin n → EReal} {xw : Mat n d} {b g be : Fin d → EReal} {cr er : ℝ}

theorem layerBnRelu_var_eq (hv : MatReal (conv gth sct ne ns xw b)) (hc : cr ≠ 0) (hn : (n : ℝ) = cr) :
    layerBnRelu gth sct ne ns varSq (cr : EReal) (er : EReal) xw b g be
      = layerBnRelu gth sct ne ns varDev (cr : EReal) (er : EReal) xw b g be := by
  unfold layerBnRelu
  rw [var_eq _ cr hv hc hn]

theorem layerBnRelu_real (hv : MatReal (conv gth sct ne ns xw b)) (hc : 0 < cr) (he : 0 < er)
    (hg : RowReal g) (hbe : RowReal be) :
    MatReal (layerBnRelu gth sct ne ns varDev (cr : EReal) (er : EReal) xw b g be) := by
  unfold layerBnRelu
  exact relu_real (bn_real hv (mean_real _ cr hv hc.ne') (varDev_nonneg _ cr hv hc) hg hbe he)

theorem layerReluBn_var_eq (hv : MatReal (conv gth sct ne ns xw b)) (hc : cr ≠ 0) (hn : (n : ℝ) = cr) :
    layerReluBn gth sct ne ns varSq (cr : EReal) (er : EReal) xw b g be
      = layerReluBn gth sct ne ns varDev (cr : EReal) (er : EReal) xw b g be := by
  unfold layerReluBn
  rw [var_eq _ cr (relu_real hv) hc hn]

theorem layerReluBn_real (hv : MatReal (conv gth sct ne ns xw b)) (hc : 0 < cr) (he : 0 < er)
    (hg : RowReal g) (hbe : RowReal be) :
    MatReal (layerReluBn gth sct ne ns varDev (cr : EReal) (er : EReal) xw b g be) := by
  unfold layerReluBn
  exact bn_real (relu_real hv) (mean_real _ cr (relu_real hv) hc.ne') (varDev_nonneg _ cr (relu_real hv) hc) hg hbe he

end layers

/-- The graph side maps real arrays to real arrays, and its weights are real. -/
structure Graph.IsReal {n e : Nat} (G : Graph n e) : Prop where
  g128 : ∀ x, MatReal x → MatReal (G.g128 x)
  s128 : ∀ u, MatReal u → MatReal (G.s128 u)
  g256 : ∀ x, MatReal x → MatReal (G.g256 x)
  s256 : ∀ u, MatReal u → MatReal (G.s256 u)
  g64 : ∀ x, MatReal x → MatReal (G.g64 x)
  s64 : ∀ u, MatReal u → MatReal (G.s64 u)
  ne : RowReal G.ne
  ns : RowReal G.ns

section encoders

variable {n e : Nat} (G : Graph n e) (hG : G.IsReal) {cr er : ℝ}
  {x : Mat n 64} {w1 : Mat 64 128} {b1 g1 be1 : Fin 128 → EReal}
  {w2 : Mat 128 256} {b2 g2 be2 : Fin 256 → EReal} {w3 : Mat 256 64} {b3 : Fin 64 → EReal}

include hG in
/-- With real inputs, the first encoder is the same whichever spelling of the variance it uses. -/
theorem encMu_var_eq (hc : 0 < cr) (hn : (n : ℝ) = cr) (he : 0 < er)
    (hx : MatReal x) (hw1 : MatReal w1) (hb1 : RowReal b1) (hg1 : RowReal g1) (hbe1 : RowReal be1)
    (hw2 : MatReal w2) (hb2 : RowReal b2) (hg2 : RowReal g2) (hbe2 : RowReal be2) :
    encMu G (fun _ => varSq) (cr : EReal) (er : EReal) x w1 b1 g1 be1 w2 b2 g2 be2 w3 b3
      = encMu G (fun _ => varDev) (cr : EReal) (er : EReal) x w1 b1 g1 be1 w2 b2 g2 be2 w3 b3 := by
  have r1 : MatReal (conv G.g128 G.s128 G.ne G.ns (mm x w1) b1) :=
    conv_real hG.g128 hG.s128 hG.ne hG.ns (mm_real hx hw1) hb1
  have e1 := layerBnRelu_var_eq (g := g1) (be := be1) (er := er) r1 hc.ne' hn
  have h1 := layerBnRelu_real (g := g1) (be := be1) r1 hc he hg1 hbe1
  dsimp only [encMu]
  rw [e1]
  have r2 : MatReal (conv G.g256 G.s256 G.ne G.ns
      (mm (layerBnRelu G.g128 G.s128 G.ne G.ns varDev (cr : EReal) (er : EReal) (mm x w1) b1 g1 be1) w2) b2) :=
    conv_real hG.g256 hG.s256 hG.ne hG.ns (mm_real h1 hw2) hb2
  rw [layerBnRelu_var_eq (g := g2) (be := be2) (er := er) r2 hc.ne' hn]

include hG in
/-- With real inputs, the second encoder is the same whichever spelling of the variance it uses. -/
theorem encLog_var_eq (hc : 0 < cr) (hn : (n : ℝ) = cr) (he : 0 < er)
    (hx : MatReal x) (hw1 : MatReal w1) (hb1 : RowReal b1) (hg1 : RowReal g1) (hbe1 : RowReal be1)
    (hw2 : MatReal w2) (hb2 : RowReal b2) (hg2 : RowReal g2) (hbe2 : RowReal be2) :
    encLog G (fun _ => varSq) (cr : EReal) (er : EReal) x w1 b1 g1 be1 w2 b2 g2 be2 w3 b3
      = encLog G (fun _ => varDev) (cr : EReal) (er : EReal) x w1 b1 g1 be1 w2 b2 g2 be2 w3 b3 := by
  have r1 : MatReal (conv G.g128 G.s128 G.ne G.ns (mm x w1) b1) :=
    conv_real hG.g128 hG.s128 hG.ne hG.ns (mm_real hx hw1) hb1
  have e1 := layerReluBn_var_eq (g := g1) (be := be1) (er := er) r1 hc.ne' hn
  have h1 := layerReluBn_real (g := g1) (be := be1) r1 hc he hg1 hbe1
  dsimp only [encLog]
  rw [e1]
  have r2 : MatReal (conv G.g256 G.s256 G.ne G.ns
      (mm (layerReluBn G.g128 G.s128 G.ne G.ns varDev (cr : EReal) (er : EReal) (mm x w1) b1 g1 be1) w2) b2) :=
    conv_real hG.g256 hG.s256 hG.ne hG.ns (mm_real h1 hw2) hb2
  rw [layerReluBn_var_eq (g := g2) (be := be2) (er := er) r2 hc.ne' hn]

end encoders

end Cert.Gcn

end
-- ==== Proof.GcnGraphReal.lean ====
/-
  The graph operations keep arrays real.  A gather reads entries of its operand, so real in, real out.
  The exact scatter-add at each entry is that entry plus a finite sum of updates, so real in, real out;
  scattering a nonnegative constant onto a nonnegative constant gives a nonnegative real at every entry
  (so a node's degree, one plus the number of incoming edges, is a positive real, and its reciprocal square
  root is a real).
-/
import proofs.«106426_j33148557590872_1_alg».proof.Proof.LibRealVar
import Idealize.ShloMosaic.PureOps.Ideal
import Idealize.ShloMosaic.PureOps.Contract
import Idealize.ShloMosaic.PureOps.ShapeOps

noncomputable section

namespace Cert.Gcn

open Cert.RealMath Idealize.ShloMosaic

theorem gather_isReal {s si t : Shape} {w : Nat} (d : GatherDims s si t) (x : s.Idx → EReal) (idx : IVec si w)
    (hx : ∀ i, IsReal (x i)) (j : t.Idx) : IsReal (Host.gather d x idx j) := by
  unfold Host.gather
  exact hx _

theorem scatterAdd_isReal {s si u : Shape} {w : Nat} (d : ScatterDims s si u) (x : FVec Ideal s .f32)
    (idx : IVec si w) (upd : FVec Ideal u .f32) (hx : ∀ i, IsReal (x i)) (hu : ∀ j, IsReal (upd j)) (i : s.Idx) :
    IsReal (Host.scatterAdd (F := Ideal) d x idx upd i) := by
  unfold Host.scatterAdd
  simp only [Ideal.hostScatterAdd_def]
  unfold Ideal.hostScatterAdd
  exact isReal_add (hx i) (isReal_sum _ _ (fun j _ => hu j))

/-- Scattering the constant b ≥ 0 onto the constant a ≥ 0: every entry is a real ≥ a. -/
theorem scatterAdd_const {s si u : Shape} {w : Nat} (d : ScatterDims s si u) (idx : IVec si w) (a b : ℝ)
    (hb : 0 ≤ b) (i : s.Idx) :
    ∃ r : ℝ, a ≤ r ∧ Host.scatterAdd (F := Ideal) (φ := .f32) d (fun _ => (a : EReal)) idx (fun _ => (b : EReal)) i = (r : EReal) := by
  unfold Host.scatterAdd
  simp only [Ideal.hostScatterAdd_def]
  unfold Ideal.hostScatterAdd
  refine ⟨a + ∑ _j ∈ Finset.univ.filter (fun j => d.resultIdx? j idx = some i), b,
    le_add_of_nonneg_right (Finset.sum_nonneg fun _ _ => hb), ?_⟩
  rw [coe_sum, ← EReal.coe_add]

end Cert.Gcn

end
-- ==== Proof.GcnConsts.lean ====
/-
  The float words the two programs spell, as the extended reals they denote: 0.0, 1.0, 50000.0 (the row
  count) and the normalisation's ε (a positive real; its exact value is never needed).
-/
import Idealize.ShloMosaic.PureOps.Ideal

noncomputable section

namespace Cert.Gcn.Consts

open Idealize.ShloMosaic

theorem ofBits_zero : Ideal.ofBits .f32 0x00000000#32 = 0 := by
  simp [Ideal.ofBits, Ideal.ieee]

theorem ofBits_one : Ideal.ofBits .f32 0x3F800000#32 = ((1 : ℝ) : EReal) := by
  simp [Ideal.ofBits, Ideal.ieee, -EReal.coe_mul]; norm_num

theorem ofBits_50000 : Ideal.ofBits .f32 0x47435000#32 = ((50000 : ℝ) : EReal) := by
  simp [Ideal.ofBits, Ideal.ieee, -EReal.coe_mul]; norm_num

theorem ofBits_eps : ∃ e : ℝ, 0 < e ∧ Ideal.ofBits .f32 0x3727C5AC#32 = (e : EReal) := by
  refine ⟨_, ?_, by simp [Ideal.ofBits, Ideal.ieee, -EReal.coe_mul]; rfl⟩
  positivity

end Cert.Gcn.Consts

end
-- ==== Proof.KGraphReal.lean ====
/-
  The graph side of the kernel program is real.

  From the edge array the first host stretch computes, per node, the degree: one plus the number of edges
  arriving at the node (ones summed into the edges' destinations, from zero). So the degree is a real number
  that is at least one, its reciprocal square root is a real number, and so are the two weights built from
  it: an edge's weight, the product of the reciprocal square roots at its two ends, and a node's self-loop
  weight, the reciprocal square root times itself. The gathers along the sources and the sums into the
  destinations keep real arrays real.
-/
import proofs.«106426_j33148557590872_1_alg».proof.Proof.Gen.KernelIdeal.Launch
import proofs.«106426_j33148557590872_1_alg».proof.Proof.GcnSpec
import proofs.«106426_j33148557590872_1_alg».proof.Proof.GcnAlgebra
import proofs.«106426_j33148557590872_1_alg».proof.Proof.GcnGraphReal
import proofs.«106426_j33148557590872_1_alg».proof.Proof.GcnConsts
import proofs.«106426_j33148557590872_1_alg».proof.Proof.LibRealVar
import proofs.«106426_j33148557590872_1_alg».proof.Proof.LibColumn
import proofs.«106426_j33148557590872_1_alg».proof.Proof.KStageMsg
import Idealize.ShloMosaic.Lib.StableHlo.Run
import Idealize.ShloMosaic.Lib.ValueIdx

set_option maxRecDepth 16384

noncomputable section

namespace Cert.KernelIdeal.KGraphReal

open Cert.KernelIdeal Cert.KernelIdeal.Gen
open Idealize.ShloMosaic Idealize.ShloMosaic.TcCoe Idealize.ShloMosaic.StableHlo Idealize.ShloMosaic.ValueIdx
open Cert.Gcn Cert.Lib Cert.RealMath

/-- The zero word repeated to any shape is the real number 0 everywhere. -/
theorem zeros_eq {s : Shape} (h : S_.BroadcastsInDim s ![]) :
    broadcastInDim s ![] h (constant (F := Ideal) S_ .f32 0x00000000#32) = fun _ => ((0 : ℝ) : EReal) := by
  funext j
  rw [broadcastInDim_scalar_apply, constant_apply, Consts.ofBits_zero]
  rfl

/-- The word of 1.0 repeated to any shape is the real number 1 everywhere. -/
theorem ones_eq {s : Shape} (h : S_.BroadcastsInDim s ![]) :
    broadcastInDim s ![] h (constant (F := Ideal) S_ .f32 0x3F800000#32) = fun _ => ((1 : ℝ) : EReal) := by
  funext j
  rw [broadcastInDim_scalar_apply, constant_apply, Consts.ofBits_one]

/-- The zero word repeated to any shape is real everywhere. -/
theorem zeros_real {s : Shape} (h : S_.BroadcastsInDim s ![]) (i : s.Idx) :
    IsReal (broadcastInDim s ![] h (constant (F := Ideal) S_ .f32 0x00000000#32) i) := by
  rw [zeros_eq]
  exact isReal_coe 0

/-- The reciprocal square root of the degree is real at every node, whatever the destinations are: the degree is
    one plus a sum of ones, a real number that is at least one. -/
theorem dinv_real (idx : IVec S800000x1 32) (i : S50000.Idx) :
    IsReal (Host.rsqrt (F := Ideal)
      (addf (broadcastInDim S50000 ![] bcast_S_S50000 (constant (F := Ideal) S_ .f32 0x3F800000#32))
        (Host.scatterAdd (F := Ideal) scatter_S50000_S800000x1_S800000_n_0_0_1
          (broadcastInDim S50000 ![] bcast_S_S50000 (constant (F := Ideal) S_ .f32 0x00000000#32)) idx
          (broadcastInDim S800000 ![] bcast_S_S800000 (constant (F := Ideal) S_ .f32 0x3F800000#32)))) i) := by
  rw [zeros_eq, ones_eq bcast_S_S800000, ones_eq bcast_S_S50000]
  obtain ⟨r, hr, e⟩ := scatterAdd_const scatter_S50000_S800000x1_S800000_n_0_0_1 idx 0 1 zero_le_one i
  have hd : ∀ x : FVec Ideal S50000 .f32, Host.rsqrt (F := Ideal) x i = Ideal.rsqrt (x i) := fun x => rfl
  rw [hd, addf_apply, e, ← EReal.coe_add]
  exact isReal_rsqrt (by linarith)

/-- The self-loop weights the first host stretch leaves are real. -/
theorem ns_real (W : Valuation τ sig (Elt Ideal)) (i : S50000.Idx) :
    IsReal ((StableHlo.after (hostOps0 (F := Ideal)) W (Proc.devRef .tc main_v26) : S50000.Idx → EReal) i) := by
  after_results_simp
  rw [mulf_apply]
  exact isReal_mul (dinv_real _ i) (dinv_real _ i)

/-- The edge weights the first host stretch leaves are real. -/
theorem ne_real (W : Valuation τ sig (Elt Ideal)) (k : S800000.Idx) :
    IsReal ((StableHlo.after (hostOps0 (F := Ideal)) W (Proc.devRef .tc main_v25) : S800000.Idx → EReal) k) := by
  after_results_simp
  rw [mulf_apply]
  exact isReal_mul (gather_isReal _ _ _ (dinv_real _) k) (gather_isReal _ _ _ (dinv_real _) k)

/-- The graph side of the kernel program, at what the first host stretch leaves, is real. -/
theorem kgraph_isReal (W : Valuation τ sig (Elt Ideal)) :
    (Cert.KernelIdeal.KStage.kgraph
      (StableHlo.after (hostOps0 (F := Ideal)) W (Proc.devRef .tc main_v1))
      (StableHlo.after (hostOps0 (F := Ideal)) W (Proc.devRef .tc main_v3))
      (StableHlo.after (hostOps0 (F := Ideal)) W (Proc.devRef .tc main_v25))
      (StableHlo.after (hostOps0 (F := Ideal)) W (Proc.devRef .tc main_v26))).IsReal where
  g128 := fun x hx j => by
    show IsReal (Host.gather gather_S50000x128_S800000x1_S800000x128_1_0_n_n_0_1_1128 x (KStage.srcIdx _) j)
    exact gather_isReal _ x _ hx j
  s128 := fun u hu i => by
    show IsReal (Host.scatterAdd (F := Ideal) scatter_S50000x128_S800000x1_S800000x128_1_0_0_1 _ (KStage.dstIdx _) u i)
    exact scatterAdd_isReal _ _ _ u (zeros_real _) hu i
  g256 := fun x hx j => by
    show IsReal (Host.gather gather_S50000x256_S800000x1_S800000x256_1_0_n_n_0_1_1256 x (KStage.srcIdx _) j)
    exact gather_isReal _ x _ hx j
  s256 := fun u hu i => by
    show IsReal (Host.scatterAdd (F := Ideal) scatter_S50000x256_S800000x1_S800000x256_1_0_0_1 _ (KStage.dstIdx _) u i)
    exact scatterAdd_isReal _ _ _ u (zeros_real _) hu i
  g64 := fun x hx j => by
    show IsReal (Host.gather gather_S50000x64_S800000x1_S800000x64_1_0_n_n_0_1_164 x (KStage.srcIdx _) j)
    exact gather_isReal _ x _ hx j
  s64 := fun u hu i => by
    show IsReal (Host.scatterAdd (F := Ideal) scatter_S50000x64_S800000x1_S800000x64_1_0_0_1 _ (KStage.dstIdx _) u i)
    exact scatterAdd_isReal _ _ _ u (zeros_real _) hu i
  ne := fun k => ne_real W (ix1 k)
  ns := fun p => ns_real W (ix1 p)

end Cert.KernelIdeal.KGraphReal

end
-- ==== Proof.LibAllFinite.lean ====
/-
  From a "finite inputs" precondition to real numbers, for an array of any shape over the extended reals.
  Such a precondition is, per float argument, an all-reduction (a reduce by `and` of a one-bit array into a
  result of one index) of the comparison |x| < +∞, entry by entry. An extended real whose absolute value
  max x (−x) is below the word of +∞ is neither −∞ nor +∞ (|−∞| = |+∞| = +∞), hence a real number; so when the
  all-reduction is one, every entry of the argument is a real number.
-/
import Idealize.ShloMosaic.PureOps.Ideal
import Idealize.ShloMosaic.Lib.ReduceAll
import Idealize.ShloMosaic.Lib.ValueIdx
import Idealize.ShloMosaic.Lib.IdealHost

noncomputable section

namespace Cert.Lib.AllFinite

open Idealize.ShloMosaic Idealize.ShloMosaic.ValueIdx

/-- A rank-0 array has one index. -/
instance scalarIdxSubsingleton : Subsingleton (⟨0, ![]⟩ : Shape).Idx := ⟨fun a b => funext fun d => d.elim0⟩

/-- An extended real whose absolute value is below the word of +∞ is a real number. -/
theorem real_of_abs_lt_top (x : EReal)
    (h : Ideal.cmp .olt (max x (-x)) (Ideal.ofBits .f32 0x7F800000#32) = 1#1) : ∃ r : ℝ, x = (r : EReal) := by
  have hT : Ideal.ofBits .f32 0x7F800000#32 = ⊤ := by simp [Ideal.ofBits, Ideal.ieee]
  rw [hT] at h
  induction x using EReal.rec with
  | bot => simp [Ideal.cmp] at h
  | coe r => exact ⟨r, rfl⟩
  | top => simp [Ideal.cmp] at h

/-- `jnp.all(|x| < +∞)` being one — the host's all-reduction, over any axes, into one index, of the comparison of
    the host's absolute value of `x` with the broadcast word of +∞ — makes every entry of `x` a real number. -/
theorem real_of_all {s : Shape} {axes : List (Fin s.rank)} (x : s.Idx → EReal)
    (hb : (⟨0, ![]⟩ : Shape).BroadcastsInDim s ![]) (hr : s.ReducesTo axes ⟨0, ![]⟩)
    (hu : 0 < (⟨0, ![]⟩ : Shape).numel)
    (e : Host.reduce IntOp.andi (cmpf (F := Ideal) (φ := .f32) .olt (Host.absf (F := Ideal) (φ := .f32) x)
        (broadcastInDim s ![] hb (constant (F := Ideal) ⟨0, ![]⟩ .f32 0x7F800000#32)))
        (constantI ⟨0, ![]⟩ 1 1#1) hr hu ix0 = 1#1) (i : s.Idx) : ∃ r : ℝ, x i = (r : EReal) := by
  have hi := Host.reduce_andi_all _ _ hr hu ix0 e i
  have hc : broadcastInDim s ![] hb (constant (F := Ideal) ⟨0, ![]⟩ .f32 0x7F800000#32) i
      = Ideal.ofBits .f32 0x7F800000#32 := broadcastInDim_scalar_apply hb _ i
  refine real_of_abs_lt_top (x i) ?_
  rw [← hc]
  exact hi

end Cert.Lib.AllFinite

end
-- ==== Proof.PreFinite.lean ====
/-
  From the precondition to real entries: the precondition is the conjunction, over the 21 float arguments,
  of "every |entry| is below +∞" (a host all-reduction of comparisons); each conjunct makes every entry of
  its argument a real number.
-/
import proofs.«106426_j33148557590872_1_alg».proof.Pre_finite_inputs
import proofs.«106426_j33148557590872_1_alg».proof.Proof.LibAllFinite
import proofs.«106426_j33148557590872_1_alg».proof.Proof.LibRealVar
import Idealize.ShloMosaic.Lib.Affine

noncomputable section

namespace Cert.Gcn.PreFinite

open Idealize.ShloMosaic Idealize.ShloMosaic.ValueIdx Cert.Pre_finite_inputs Cert.RealMath Cert.Lib.AllFinite

variable [hP : Cert.Pre_finite_inputs.Facts]

/-- Under the precondition every entry of every float argument is a real number. -/
theorem real_of_pre (a0 : FVec Ideal S50000x64 .f32) (a1 : IVec S2x800000 32) (a2 : FVec Ideal S64x128 .f32) (a3 : FVec Ideal S128 .f32) (a4 : FVec Ideal S128 .f32) (a5 : FVec Ideal S128 .f32) (a6 : FVec Ideal S128x256 .f32) (a7 : FVec Ideal S256 .f32) (a8 : FVec Ideal S256 .f32) (a9 : FVec Ideal S256 .f32) (a10 : FVec Ideal S256x64 .f32) (a11 : FVec Ideal S64 .f32) (a12 : FVec Ideal S64x128 .f32) (a13 : FVec Ideal S128 .f32) (a14 : FVec Ideal S128 .f32) (a15 : FVec Ideal S128 .f32) (a16 : FVec Ideal S128x256 .f32) (a17 : FVec Ideal S256 .f32) (a18 : FVec Ideal S256 .f32) (a19 : FVec Ideal S256 .f32) (a20 : FVec Ideal S256x64 .f32) (a21 : FVec Ideal S64 .f32)
    (h : Cert.Pre_finite_inputs.fn (F := Ideal) a0 a1 a2 a3 a4 a5 a6 a7 a8 a9 a10 a11 a12 a13 a14 a15 a16 a17 a18 a19 a20 a21 = fun _ => 1#1) :
    (∀ i, IsReal (a0 i)) ∧ (∀ i, IsReal (a2 i)) ∧ (∀ i, IsReal (a3 i)) ∧ (∀ i, IsReal (a4 i)) ∧ (∀ i, IsReal (a5 i)) ∧ (∀ i, IsReal (a6 i)) ∧ (∀ i, IsReal (a7 i)) ∧ (∀ i, IsReal (a8 i)) ∧ (∀ i, IsReal (a9 i)) ∧ (∀ i, IsReal (a10 i)) ∧ (∀ i, IsReal (a11 i)) ∧ (∀ i, IsReal (a12 i)) ∧ (∀ i, IsReal (a13 i)) ∧ (∀ i, IsReal (a14 i)) ∧ (∀ i, IsReal (a15 i)) ∧ (∀ i, IsReal (a16 i)) ∧ (∀ i, IsReal (a17 i)) ∧ (∀ i, IsReal (a18 i)) ∧ (∀ i, IsReal (a19 i)) ∧ (∀ i, IsReal (a20 i)) ∧ (∀ i, IsReal (a21 i)) := by
  have h0 := congrFun h ix0
  dsimp only [fn, fn_part1, fn_part2, fn_part3, fn_part4, fn_part5, fn_part6, andi] at h0
  simp only [IntOp.andi_eq_one] at h0
  obtain ⟨h0, e21⟩ := h0
  obtain ⟨h0, e20⟩ := h0
  obtain ⟨h0, e19⟩ := h0
  obtain ⟨h0, e18⟩ := h0
  obtain ⟨h0, e17⟩ := h0
  obtain ⟨h0, e16⟩ := h0
  obtain ⟨h0, e15⟩ := h0
  obtain ⟨h0, e14⟩ := h0
  obtain ⟨h0, e13⟩ := h0
  obtain ⟨h0, e12⟩ := h0
  obtain ⟨h0, e11⟩ := h0
  obtain ⟨h0, e10⟩ := h0
  obtain ⟨h0, e9⟩ := h0
  obtain ⟨h0, e8⟩ := h0
  obtain ⟨h0, e7⟩ := h0
  obtain ⟨h0, e6⟩ := h0
  obtain ⟨h0, e5⟩ := h0
  obtain ⟨h0, e4⟩ := h0
  obtain ⟨h0, e3⟩ := h0
  obtain ⟨e0, e2⟩ := h0
  exact ⟨fun i => real_of_all _ _ _ _ e0 i, fun i => real_of_all _ _ _ _ e2 i, fun i => real_of_all _ _ _ _ e3 i, fun i => real_of_all _ _ _ _ e4 i, fun i => real_of_all _ _ _ _ e5 i, fun i => real_of_all _ _ _ _ e6 i, fun i => real_of_all _ _ _ _ e7 i, fun i => real_of_all _ _ _ _ e8 i, fun i => real_of_all _ _ _ _ e9 i, fun i => real_of_all _ _ _ _ e10 i, fun i => real_of_all _ _ _ _ e11 i, fun i => real_of_all _ _ _ _ e12 i, fun i => real_of_all _ _ _ _ e13 i, fun i => real_of_all _ _ _ _ e14 i, fun i => real_of_all _ _ _ _ e15 i, fun i => real_of_all _ _ _ _ e16 i, fun i => real_of_all _ _ _ _ e17 i, fun i => real_of_all _ _ _ _ e18 i, fun i => real_of_all _ _ _ _ e19 i, fun i => real_of_all _ _ _ _ e20 i, fun i => real_of_all _ _ _ _ e21 i⟩

end Cert.Gcn.PreFinite

end
-- ==== Proof.lean ====
/-
  The certificate of a two-branch graph-convolution encoder: a Pallas kernel program (six matrix products, six
  "combine" kernels — four of them accumulating column sums and sums of squares across the grid —, four
  batch-normalisation kernels, with the edge gather / scatter-add on the host between them) against its jnp
  reference, at the ideal instance (floats are extended reals).

  Frames: the kernel program's two frames are the generated ones; the reference's is its run with the results
  dropped.  The ideal pass rewrote nothing, so there is nothing to preserve.

  Values: the kernel program's run is read boundary by boundary (KFold) down to the two encoders of GcnSpec with
  the variance spelled "mean of squares minus squared mean"; the reference's run (RefRunFinal) gives the same
  two encoders with the variance spelled "mean of squared deviations", over the same graph operations (the
  two programs' gather and scatter-add chains are one term, GraphBridge).  Under the precondition every float
  argument is real (PreFinite), the graph side keeps arrays real (KGraphReal: a degree is a positive real),
  and on real columns the two variances agree and are nonnegative (GcnAlgebra), layer after layer.
-/
import proofs.«106426_j33148557590872_1_alg».proof.Defs
import proofs.«106426_j33148557590872_1_alg».proof.Proof.Gen.Kernel
import proofs.«106426_j33148557590872_1_alg».proof.Proof.Gen.Kernel.Frame
import proofs.«106426_j33148557590872_1_alg».proof.Proof.Gen.KernelIdeal
import proofs.«106426_j33148557590872_1_alg».proof.Proof.Gen.KernelIdeal.Frame
import proofs.«106426_j33148557590872_1_alg».proof.Proof.Gen.ReferenceIdeal
import proofs.«106426_j33148557590872_1_alg».proof.Proof.Gen.Pre_finite_inputs
import proofs.«106426_j33148557590872_1_alg».proof.Proof.KValue
import proofs.«106426_j33148557590872_1_alg».proof.Proof.RefRunFinal
import proofs.«106426_j33148557590872_1_alg».proof.Proof.GraphBridge
import proofs.«106426_j33148557590872_1_alg».proof.Proof.KGraphReal
import proofs.«106426_j33148557590872_1_alg».proof.Proof.GcnAlgebra
import proofs.«106426_j33148557590872_1_alg».proof.Proof.GcnConsts
import proofs.«106426_j33148557590872_1_alg».proof.Proof.PreFinite

set_option maxRecDepth 16384

noncomputable section

namespace Cert.Proof

open Idealize.ShloMosaic Idealize.ShloMosaic.TcCoe Idealize.SL.Sem Idealize.ShloMosaic.ValueIdx
open Cert.Gcn Cert.RealMath

theorem frame_k : Cert.frame_Kernel := fun m ρ _ => Cert.Kernel.Gen.frame m ρ

theorem frame_ki : Cert.frame_KernelIdeal := fun m ρ _ => Cert.KernelIdeal.Gen.frame m ρ

/-- The reference's frame: its run, the two results dropped. -/
theorem frame_ri : Cert.frame_ReferenceIdeal := fun m ρ _ =>
  (θ_run (Cert.ReferenceIdeal.defs (F := Ideal)) _ _).mono (fun _ h c => (h c).2.2) (Cert.ReferenceIdeal.RefRun.run m ρ)

theorem preserves : Cert.preserves_Kernel_KernelIdeal := trivial

/-- Under the precondition, with the arguments agreeing, the reference's two encoders (variance as mean of squared
    deviations, the reference's graph operations) are the kernel program's (variance as mean of squares minus
    squared mean, the kernel program's graph operations). -/
theorem algebraic : Cert.algebraic_KernelIdeal_ReferenceIdeal := by
  intro m g m' g' hpre hagree
  refine ⟨fun c => Cert.KernelIdeal.KFold.MU m g c, fun c => Cert.KernelIdeal.KFold.LOG m g c, Cert.KernelIdeal.KValue.run m g, ?_⟩
  refine (θ_run (Cert.ReferenceIdeal.defs (F := Ideal)) _ _).mono (fun r h c => ?_) (Cert.ReferenceIdeal.RefRun.run m' g')
  obtain ⟨h0, h1, h2, h3, h4, h5, h6, h7, h8, h9, h10, h11, h12, h13, h14, h15, h16, h17, h18, h19, h20, h21⟩ := hagree c
  obtain ⟨r0, r2, r3, r4, r5, r6, r7, r8, r9, r10, r11, r12, r13, r14, r15, r16, r17, r18, r19, r20, r21⟩ := Cert.Gcn.PreFinite.real_of_pre _ _ _ _ _ _ _ _ _ _ _ _ _ _ _ _ _ _ _ _ _ _ (hpre c)
  have hGr : (Cert.KernelIdeal.KFold.G m g c).IsReal := Cert.KernelIdeal.KGraphReal.kgraph_isReal (Cert.KernelIdeal.Gen.W0 (F := Ideal) m g c)
  have hG : Cert.ReferenceIdeal.RefRun.RG (m ((c.tc : Thread Cert.KernelIdeal.nD Cert.KernelIdeal.τ).loc Cert.KernelIdeal.main_arg1)) = Cert.KernelIdeal.KFold.G m g c :=
    (Cert.GraphBridge.graph_eq (Cert.KernelIdeal.Gen.W0 (F := Ideal) m g c)).symm
  obtain ⟨er, her, hee⟩ := Cert.Gcn.Consts.ofBits_eps
  have hc : (0 : ℝ) < 50000 := by norm_num
  have hn : ((50000 : ℕ) : ℝ) = 50000 := by norm_num
  refine ⟨(h c).1.trans ?_, (h c).2.1.trans ?_, (h c).2.2⟩
  · show _ = Cert.KernelIdeal.KFold.MU m g c
    rw [h0, h1, h2, h3, h4, h5, h6, h7, h8, h9, h10, h11, hG, Cert.KernelIdeal.KFold.MU_eq, Cert.Gcn.Consts.ofBits_50000, hee]
    exact (encMu_var_eq (Cert.KernelIdeal.KFold.G m g c) hGr hc hn her r0 r2 (fun q => r3 _) (fun q => r4 _) (fun q => r5 _) r6
      (fun q => r7 _) (fun q => r8 _) (fun q => r9 _)).symm
  · show _ = Cert.KernelIdeal.KFold.LOG m g c
    rw [h0, h1, h12, h13, h14, h15, h16, h17, h18, h19, h20, h21, hG, Cert.KernelIdeal.KFold.LOG_eq, Cert.Gcn.Consts.ofBits_50000, hee]
    exact (encLog_var_eq (Cert.KernelIdeal.KFold.G m g c) hGr hc hn her r0 r12 (fun q => r13 _) (fun q => r14 _) (fun q => r15 _) r16
      (fun q => r17 _) (fun q => r18 _) (fun q => r19 _)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
